-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_
  bcast_S_S50000 : S_.BroadcastsInDim S50000 (![] : Fin 0 → Fin S50000.rank)
  reducesTo_S50000_S_d0 : S50000.ReducesTo [0] S_

variable [Facts]

def fn_part3 {F : FTy → Type} [FloatOps F] (main_arg2 : IVec S50000 32) (main_v50 : IVec S_ 1) : IVec S_ 1 :=
  let main_c_19 : IVec S_ 32 := constantI S_ 32 0#32
  let main_v51 : IVec S50000 32 := broadcastInDim S50000 ![] bcast_S_S50000 main_c_19
  let main_v52 : IVec S50000 1 := cmpi .sge main_arg2 main_v51
  let main_c_20 : IVec S_ 32 := constantI S_ 32 64#32
  let main_v53 : IVec S50000 32 := broadcastInDim S50000 ![] bcast_S_S50000 main_c_20
  let main_v54 : IVec S50000 1 := cmpi .slt main_arg2 main_v53
  let main_v55 : IVec S50000 1 := andi main_v52 main_v54
  let main_c_21 : IVec S_ 1 := constantI S_ 1 1#1
  let main_v56 : IVec S_ 1 := (fun x v => Host.reduce IntOp.andi x v reducesTo_S50000_S_d0 h_S_) main_v55 main_c_21
  let main_v57 : IVec S_ 1 := andi main_v50 main_v56
  main_v57

def fn_part2 {F : FTy → Type} [FloatOps F] (main_arg1 : IVec S2x800000 32) (main_arg2 : IVec S50000 32) (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 32 := constantI S_ 32 50000#32
  let main_v46 : IVec S2x800000 32 := broadcastInDim S2x800000 ![] bcast_S_S2x800000 main_c_17
  let main_v47 : IVec S2x800000 1 := cmpi .slt main_arg1 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  fn_part3 (F := F) main_arg2 main_v50

def fn_part1 {F : FTy → Type} [FloatOps F] (main_arg1 : IVec S2x800000 32) (main_arg2 : IVec S50000 32) (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S51200x64 : Shape := ⟨2, ![51200, 64]⟩
abbrev S800768 : Shape := ⟨1, ![800768]⟩
abbrev S51200 : Shape := ⟨1, ![51200]⟩
abbrev S800768x1 : Shape := ⟨2, ![800768, 1]⟩
abbrev S1x800768 : Shape := ⟨2, ![1, 800768]⟩
abbrev S2048x64 : Shape := ⟨2, ![2048, 64]⟩
abbrev S800768x64 : Shape := ⟨2, ![800768, 64]⟩
abbrev S2048x1 : Shape := ⟨2, ![2048, 1]⟩
abbrev S1x2048 : Shape := ⟨2, ![1, 2048]⟩
abbrev S2048x2048 : Shape := ⟨2, ![2048, 2048]⟩
abbrev S51200x1 : Shape := ⟨2, ![51200, 1]⟩
abbrev S1x64 : Shape := ⟨2, ![1, 64]⟩
abbrev S50000x1 : Shape := ⟨2, ![50000, 1]⟩
abbrev S1x1 : Shape := ⟨2, ![1, 1]⟩

abbrev nBuf : Space → Nat
  | .hbm => 147
  | .vmem => 63
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S50000, .f32⟩
  | 54 => ⟨S_, .i32⟩
  | 55 => ⟨S_, .f32⟩
  | 56 => ⟨S51200x64, .f32⟩
  | 57 => ⟨S_, .i32⟩
  | 58 => ⟨S_, .i32⟩
  | 59 => ⟨S800768, .i32⟩
  | 60 => ⟨S_, .i32⟩
  | 61 => ⟨S_, .i32⟩
  | 62 => ⟨S800768, .i32⟩
  | 63 => ⟨S_, .i32⟩
  | 64 => ⟨S_, .f32⟩
  | 65 => ⟨S800768, .f32⟩
  | 66 => ⟨S_, .i32⟩
  | 67 => ⟨S_, .f32⟩
  | 68 => ⟨S51200, .f32⟩
  | 69 => ⟨S800768x1, .i32⟩
  | 70 => ⟨S800768x1, .f32⟩
  | 71 => ⟨S1x800768, .i32⟩
  | 72 => ⟨S51200x64, .f32⟩
  | 73 => ⟨S800768x64, .f32⟩
  | 74 => ⟨S51200x64, .f32⟩
  | 75 => ⟨S51200x1, .f32⟩
  | 76 => ⟨S51200x64, .f32⟩
  | 77 => ⟨S51200x64, .f32⟩
  | 78 => ⟨S51200x64, .f32⟩
  | 79 => ⟨S1x64, .f32⟩
  | 80 => ⟨S51200x64, .f32⟩
  | 81 => ⟨S51200x64, .f32⟩
  | 82 => ⟨S_, .f32⟩
  | 83 => ⟨S51200x64, .f32⟩
  | 84 => ⟨S51200x64, .f32⟩
  | 85 => ⟨S51200x64, .f32⟩
  | 86 => ⟨S800768x64, .f32⟩
  | 87 => ⟨S51200x64, .f32⟩
  | 88 => ⟨S51200x1, .f32⟩
  | 89 => ⟨S51200x64, .f32⟩
  | 90 => ⟨S51200x64, .f32⟩
  | 91 => ⟨S51200x64, .f32⟩
  | 92 => ⟨S1x64, .f32⟩
  | 93 => ⟨S51200x64, .f32⟩
  | 94 => ⟨S51200x64, .f32⟩
  | 95 => ⟨S_, .f32⟩
  | 96 => ⟨S51200x64, .f32⟩
  | 97 => ⟨S51200x64, .f32⟩
  | 98 => ⟨S51200x64, .f32⟩
  | 99 => ⟨S800768x64, .f32⟩
  | 100 => ⟨S51200x64, .f32⟩
  | 101 => ⟨S51200x1, .f32⟩
  | 102 => ⟨S51200x64, .f32⟩
  | 103 => ⟨S51200x64, .f32⟩
  | 104 => ⟨S51200x64, .f32⟩
  | 105 => ⟨S1x64, .f32⟩
  | 106 => ⟨S51200x64, .f32⟩
  | 107 => ⟨S51200x64, .f32⟩
  | 108 => ⟨S_, .f32⟩
  | 109 => ⟨S51200x64, .f32⟩
  | 110 => ⟨S51200x64, .f32⟩
  | 111 => ⟨S50000x64, .f32⟩
  | 112 => ⟨S_, .f32⟩
  | 113 => ⟨S64x64, .f32⟩
  | 114 => ⟨S_, .i32⟩
  | 115 => ⟨S50000, .i32⟩
  | 116 => ⟨S50000, .i1⟩
  | 117 => ⟨S_, .i32⟩
  | 118 => ⟨S50000, .i32⟩
  | 119 => ⟨S50000, .i32⟩
  | 120 => ⟨S50000, .i32⟩
  | 121 => ⟨S50000x1, .i32⟩
  | 122 => ⟨S64x64, .f32⟩
  | 123 => ⟨S_, .f32⟩
  | 124 => ⟨S64, .f32⟩
  | 125 => ⟨S_, .i32⟩
  | 126 => ⟨S50000, .i32⟩
  | 127 => ⟨S50000, .i1⟩
  | _ => ⟨S50000x64, .f32⟩

abbrev hbmTy0_1 (i : Nat) : BufTy := match i % 128 with
  | 0 => ⟨S_, .i32⟩
  | 1 => ⟨S50000, .i32⟩
  | 2 => ⟨S50000, .i32⟩
  | 3 => ⟨S50000, .i32⟩
  | 4 => ⟨S50000x1, .i32⟩
  | 5 => ⟨S_, .f32⟩
  | 6 => ⟨S50000, .f32⟩
  | 7 => ⟨S64, .f32⟩
  | 8 => ⟨S_, .f32⟩
  | 9 => ⟨S_, .f32⟩
  | 10 => ⟨S64, .f32⟩
  | 11 => ⟨S64, .f32⟩
  | 12 => ⟨S64x1, .f32⟩
  | 13 => ⟨S64x64, .f32⟩
  | 14 => ⟨S64x64, .f32⟩
  | 15 => ⟨S64x1, .f32⟩
  | 16 => ⟨S1x1, .f32⟩
  | 17 => ⟨S64x1, .f32⟩
  | 18 => ⟨S64x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x1, .i32⟩
  | .local _ .vmem, ⟨8, _⟩ => ⟨S2048x1, .i32⟩
  | .local _ .vmem, ⟨9, _⟩ => ⟨S2048x1, .f32⟩
  | .local _ .vmem, ⟨10, _⟩ => ⟨S2048x1, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S1x2048, .i32⟩
  | .local _ .vmem, ⟨17, _⟩ => ⟨S1x2048, .i32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S64x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x1, .i32⟩
  | .local _ .vmem, ⟨29, _⟩ => ⟨S2048x1, .i32⟩
  | .local _ .vmem, ⟨30, _⟩ => ⟨S2048x1, .f32⟩
  | .local _ .vmem, ⟨31, _⟩ => ⟨S2048x1, .f32⟩
  | .local _ .vmem, ⟨32, _⟩ => ⟨S2048x64, .f32⟩
  | .local _ .vmem, ⟨33, _⟩ => ⟨S2048x64, .f32⟩
  | .local _ .vmem, ⟨34, _⟩ => ⟨S2048x64, .f32⟩
  | .local _ .vmem, ⟨35, _⟩ => ⟨S2048x64, .f32⟩
  | .local _ .vmem, ⟨36, _⟩ => ⟨S2048x64, .f32⟩
  | .local _ .vmem, ⟨37, _⟩ => ⟨S1x2048, .i32⟩
  | .local _ .vmem, ⟨38, _⟩ => ⟨S1x2048, .i32⟩
  | .local _ .vmem, ⟨39, _⟩ => ⟨S2048x64, .f32⟩
  | .local _ .vmem, ⟨40, _⟩ => ⟨S2048x64, .f32⟩
  | .local _ .vmem, ⟨41, _⟩ => ⟨S2048x64, .f32⟩
  | .local _ .vmem, ⟨42, _⟩ => ⟨S2048x64, .f32⟩
  | .local _ .vmem, ⟨43, _⟩ => ⟨S2048x64, .f32⟩
  | .local _ .vmem, ⟨44, _⟩ => ⟨S64x64, .f32⟩
  | .local _ .vmem, ⟨45, _⟩ => ⟨S2048x64, .f32⟩
  | .local _ .vmem, ⟨46, _⟩ => ⟨S2048x64, .f32⟩
  | .local _ .vmem, ⟨47, _⟩ => ⟨S2048x64, .f32⟩
  | .local _ .vmem, ⟨48, _⟩ => ⟨S2048x64, .f32⟩
  | .local _ .vmem, ⟨49, _⟩ => ⟨S2048x1, .i32⟩
  | .local _ .vmem, ⟨50, _⟩ => ⟨S2048x1, .i32⟩
  | .local _ .vmem, ⟨51, _⟩ => ⟨S2048x1, .f32⟩
  | .local _ .vmem, ⟨52, _⟩ => ⟨S2048x1, .f32⟩
  | .local _ .vmem, ⟨53, _⟩ => ⟨S2048x64, .f32⟩
  | .local _ .vmem, ⟨54, _⟩ => ⟨S2048x64, .f32⟩
  | .local _ .vmem, ⟨55, _⟩ => ⟨S2048x64, .f32⟩
  | .local _ .vmem, ⟨56, _⟩ => ⟨S2048x64, .f32⟩
  | .local _ .vmem, ⟨57, _⟩ => ⟨S2048x64, .f32⟩
  | .local _ .vmem, ⟨58, _⟩ => ⟨S1x2048, .i32⟩
  | .local _ .vmem, ⟨59, _⟩ => ⟨S1x2048, .i32⟩
  | .local _ .vmem, ⟨60, _⟩ => ⟨S2048x64, .f32⟩
  | .local _ .vmem, ⟨61, _⟩ => ⟨S2048x64, .f32⟩
  | .local _ .vmem, ⟨62, _⟩ => ⟨S2048x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_call0_v0 : Ref sig .tc := ⟨.hbm, 55, rfl⟩
abbrev main_v33 : Ref sig .tc := ⟨.hbm, 56, rfl⟩
abbrev main_c_9 : Ref sig .tc := ⟨.hbm, 57, rfl⟩
abbrev main_call1_v0 : Ref sig .tc := ⟨.hbm, 58, rfl⟩
abbrev main_v34 : Ref sig .tc := ⟨.hbm, 59, rfl⟩
abbrev main_c_10 : Ref sig .tc := ⟨.hbm, 60, rfl⟩
abbrev main_call2_v0 : Ref sig .tc := ⟨.hbm, 61, rfl⟩
abbrev main_v35 : Ref sig .tc := ⟨.hbm, 62, rfl⟩
abbrev main_c_11 : Ref sig .tc := ⟨.hbm, 63, rfl⟩
abbrev main_call3_v0 : Ref sig .tc := ⟨.hbm, 64, rfl⟩
abbrev main_v36 : Ref sig .tc := ⟨.hbm, 65, rfl⟩
abbrev main_c_12 : Ref sig .tc := ⟨.hbm, 66, rfl⟩
abbrev main_call4_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call5_cst : Ref sig .tc := ⟨.hbm, 82, rfl⟩
abbrev main_call5_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call6_cst : Ref sig .tc := ⟨.hbm, 95, rfl⟩
abbrev main_call6_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call7_cst : Ref sig .tc := ⟨.hbm, 108, rfl⟩
abbrev main_call7_v0 : Ref sig .tc := ⟨.hbm, 109, rfl⟩
abbrev main_v73 : Ref sig .tc := ⟨.hbm, 110, rfl⟩
abbrev main_v74 : Ref sig .tc := ⟨.hbm, 111, rfl⟩
abbrev main_cst_13 : Ref sig .tc := ⟨.hbm, 112, rfl⟩
abbrev main_v75 : Ref sig .tc := ⟨.hbm, 113, rfl⟩
abbrev main_c_14 : Ref sig .tc := ⟨.hbm, 114, rfl⟩
abbrev main_v76 : Ref sig .tc := ⟨.hbm, 115, rfl⟩
abbrev main_v77 : Ref sig .tc := ⟨.hbm, 116, rfl⟩
abbrev main_c_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_16 : Ref sig .tc := ⟨.hbm, 123, rfl⟩
abbrev main_v83 : Ref sig .tc := ⟨.hbm, 124, rfl⟩
abbrev main_c_17 : Ref sig .tc := ⟨.hbm, 125, rfl⟩
abbrev main_v84 : Ref sig .tc := ⟨.hbm, 126, rfl⟩
abbrev main_v85 : Ref sig .tc := ⟨.hbm, 127, rfl⟩
abbrev main_c_18 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_19 : Ref sig .tc := ⟨.hbm, 133, rfl⟩
abbrev main_v90 : Ref sig .tc := ⟨.hbm, 134, rfl⟩
abbrev main_v91 : Ref sig .tc := ⟨.hbm, 135, rfl⟩
abbrev main_cst_20 : Ref sig .tc := ⟨.hbm, 136, rfl⟩
abbrev main_call8_v0 : Ref sig .tc := ⟨.hbm, 137, rfl⟩
abbrev main_call8_v1 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg3_1 : Ref sig .tc := ⟨.vmem, 54, rfl⟩
abbrev cc7_scratch0 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc8_scratch0 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc7_sem3_0 : DmaSem sig := 49
abbrev cc7_sem3_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![391, 25], ![false, false]⟩

def k1_cond2 (i : grid1.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_8 : BitVec 32 := 0#32
  let v26 : BitVec 1 := Scalar.cmpi .ne v25 c0_i32_8
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![25, 391], ![false, false]⟩

def k2_cond2 (i : grid2.Coords) : BitVec 1 :=
  let arg1 : BitVec 32 := BitVec.ofNat 32 (i 1).val
  let c390_i32 : BitVec 32 := 390#32
  let v24 : BitVec 1 := Scalar.cmpi .eq arg1 c390_i32
  let v25 : BitVec 32 := Scalar.extui v24
  let c0_i32_8 : BitVec 32 := 0#32
  let v26 : BitVec 1 := Scalar.cmpi .ne v25 c0_i32_8
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![391, 25], ![false, false]⟩

def k4_cond2 (i : grid4.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_8 : BitVec 32 := 0#32
  let v26 : BitVec 1 := Scalar.cmpi .ne v25 c0_i32_8
  v26

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 391], ![false, false]⟩

def k5_cond2 (i : grid5.Coords) : BitVec 1 :=
  let arg1 : BitVec 32 := BitVec.ofNat 32 (i 1).val
  let c390_i32 : BitVec 32 := 390#32
  let v24 : BitVec 1 := Scalar.cmpi .eq arg1 c390_i32
  let v25 : BitVec 32 := Scalar.extui v24
  let c0_i32_8 : BitVec 32 := 0#32
  let v26 : BitVec 1 := Scalar.cmpi .ne v25 c0_i32_8
  v26

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x2048 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2048x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![391, 25], ![false, false]⟩

def k7_cond2 (i : grid7.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_8 : BitVec 32 := 0#32
  let v26 : BitVec 1 := Scalar.cmpi .ne v25 c0_i32_8
  v26

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S2048x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S2048x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S2048x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![25, 391], ![false, false]⟩

def k8_cond2 (i : grid8.Coords) : BitVec 1 :=
  let arg1 : BitVec 32 := BitVec.ofNat 32 (i 1).val
  let c390_i32 : BitVec 32 := 390#32
  let v24 : BitVec 1 := Scalar.cmpi .eq arg1 c390_i32
  let v25 : BitVec 32 := Scalar.extui v24
  let c0_i32_8 : BitVec 32 := 0#32
  let v26 : BitVec 1 := Scalar.cmpi .ne v25 c0_i32_8
  v26

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S1x2048 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  pads_S50000x64_S51200x64_012000_000 : S50000x64.Pads (![0, 0] : Fin 2 → Nat) ![1200, 0] ![0, 0] S51200x64
  h_S_ : 0 < S_.numel
  pads_S800000_S800768_07680 : S800000.Pads (![0] : Fin 1 → Nat) ![768] ![0] S800768
  pads_S50000_S51200_012000 : S50000.Pads (![0] : Fin 1 → Nat) ![1200] ![0] S51200
  shapeCasts_S800768_S800768x1 : S800768.ShapeCasts S800768x1
  shapeCasts_S800768_S1x800768 : S800768.ShapeCasts S1x800768
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  iota_S1x2048_d1_w32 : S1x2048.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  broadcasts_S1x2048_S2048x2048 : S1x2048.Broadcasts S2048x2048
  natLt_1_32 : 1 < 32
  broadcasts_S2048x1_S2048x64 : S2048x1.Broadcasts S2048x64
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bcast_S51200_S51200x1_0 : S51200.BroadcastsInDim S51200x1 (![0] : Fin 1 → Fin S51200x1.rank)
  bcast_S51200x1_S51200x64_0_1 : S51200x1.BroadcastsInDim S51200x64 (![0, 1] : Fin 2 → Fin S51200x64.rank)
  bcast_S64_S1x64_1 : S64.BroadcastsInDim S1x64 (![1] : Fin 1 → Fin S1x64.rank)
  bcast_S1x64_S51200x64_0_1 : S1x64.BroadcastsInDim S51200x64 (![0, 1] : Fin 2 → Fin S51200x64.rank)
  bcast_S_S51200x64 : S_.BroadcastsInDim S51200x64 (![] : Fin 0 → Fin S51200x64.rank)
  slices_S51200x64_S50000x64_0_0 : S51200x64.Slices ![0, 0] S50000x64
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2048x64_S64x64_S2048x64_1_0_0_1_n_n_wf : DotDims.WF S2048x64 S64x64 S2048x64 [1] [0] [0] [1] [] []
  dot_S2048x2048_S2048x64_S2048x64_1_0_0_1_n_n_wf : DotDims.WF S2048x2048 S2048x64 S2048x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S51200x64.size a
  hwx0_0 : ∀ i : grid0.Coords, EltTy.bits .f32 = 32 ∨ (Rect.block (s := S51200x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S51200x64.size a
  hwx0_2 : ∀ i : grid0.Coords, EltTy.bits .f32 = 32 ∨ (Rect.block (s := S51200x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S51200x64.size a
  hwx1_0 : ∀ i : grid1.Coords, EltTy.bits .f32 = 32 ∨ (Rect.block (s := S51200x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S800768x1.size a
  hwx1_1 : ∀ i : grid1.Coords, EltTy.bits .i32 = 32 ∨ (Rect.block (s := S800768x1) S2048x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S800768x1.size a
  hwx1_2 : ∀ i : grid1.Coords, EltTy.bits .f32 = 32 ∨ (Rect.block (s := S800768x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S800768x64.size a
  hwx1_3 : ∀ i : grid1.Coords, EltTy.bits .f32 = 32 ∨ (Rect.block (s := S800768x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S800768x64.size a
  hwx2_0 : ∀ i : grid2.Coords, EltTy.bits .f32 = 32 ∨ (Rect.block (s := S800768x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x800768.size a
  hwx2_1 : ∀ i : grid2.Coords, EltTy.bits .i32 = 32 ∨ (Rect.block (s := S1x800768) S1x2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S51200x64.size a
  hwx2_2 : ∀ i : grid2.Coords, EltTy.bits .f32 = 32 ∨ (Rect.block (s := S51200x64) S2048x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S51200x64.size a
  hwx3_0 : ∀ i : grid3.Coords, EltTy.bits .f32 = 32 ∨ (Rect.block (s := S51200x64) S2048x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S51200x64.size a
  hwx3_2 : ∀ i : grid3.Coords, EltTy.bits .f32 = 32 ∨ (Rect.block (s := S51200x64) S2048x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S51200x64.size a
  hwx4_0 : ∀ i : grid4.Coords, EltTy.bits .f32 = 32 ∨ (Rect.block (s := S51200x64) S2048x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x1.size a ≤ S800768x1.size a
  hwx4_1 : ∀ i : grid4.Coords, EltTy.bits .i32 = 32 ∨ (Rect.block (s := S800768x1) S2048x1.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S800768x1.size a
  hwx4_2 : ∀ i : grid4.Coords, EltTy.bits .f32 = 32 ∨ (Rect.block (s := S800768x1) S2048x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x64.size a ≤ S800768x64.size a
  hwx4_3 : ∀ i : grid4.Coords, EltTy.bits .f32 = 32 ∨ (Rect.block (s := S800768x64) S2048x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S800768x64.size a
  hwx5_0 : ∀ i : grid5.Coords, EltTy.bits .f32 = 32 ∨ (Rect.block (s := S800768x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x800768.size a
  hwx5_1 : ∀ i : grid5.Coords, EltTy.bits .i32 = 32 ∨ (Rect.block (s := S1x800768) S1x2048.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S51200x64.size a
  hwx5_2 : ∀ i : grid5.Coords, EltTy.bits .f32 = 32 ∨ (Rect.block (s := S51200x64) S2048x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S51200x64.size a
  hwx6_0 : ∀ i : grid6.Coords, EltTy.bits .f32 = 32 ∨ (Rect.block (s := S51200x64) S2048x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x64.size a ≤ S51200x64.size a
  hwx6_2 : ∀ i : grid6.Coords, EltTy.bits .f32 = 32 ∨ (Rect.block (s := S51200x64) S2048x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x64.size a ≤ S51200x64.size a
  hwx7_0 : ∀ i : grid7.Coords, EltTy.bits .f32 = 32 ∨ (Rect.block (s := S51200x64) S2048x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x1.size a ≤ S800768x1.size a
  hwx7_1 : ∀ i : grid7.Coords, EltTy.bits .i32 = 32 ∨ (Rect.block (s := S800768x1) S2048x1.size (cc7_transform_1 i) (hinb7_1 i)).WholeWords (EltTy.packing .i32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x1.size a ≤ S800768x1.size a
  hwx7_2 : ∀ i : grid7.Coords, EltTy.bits .f32 = 32 ∨ (Rect.block (s := S800768x1) S2048x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x64.size a ≤ S800768x64.size a
  hwx7_3 : ∀ i : grid7.Coords, EltTy.bits .f32 = 32 ∨ (Rect.block (s := S800768x64) S2048x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x64.size a ≤ S800768x64.size a
  hwx8_0 : ∀ i : grid8.Coords, EltTy.bits .f32 = 32 ∨ (Rect.block (s := S800768x64) S2048x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x2048.size a ≤ S1x800768.size a
  hwx8_1 : ∀ i : grid8.Coords, EltTy.bits .i32 = 32 ∨ (Rect.block (s := S1x800768) S1x2048.size (cc8_transform_1 i) (hinb8_1 i)).WholeWords (EltTy.packing .i32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x64.size a ≤ S51200x64.size a
  hwx8_2 : ∀ i : grid8.Coords, EltTy.bits .f32 = 32 ∨ (Rect.block (s := S51200x64) S2048x64.size (cc8_transform_2 i) (hinb8_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v33) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v42) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v51) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S2048x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v53) S2048x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v53) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S1x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v54) S2048x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v62) S2048x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v63) S2048x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v63) S2048x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v38) S2048x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v39) S2048x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v64) S2048x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v64) S2048x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v40) S1x2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v65) S2048x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S800000x1, .f32⟩
  | 57 => ⟨S800000x64, .f32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S50000, .f32⟩
  | 64 => ⟨S50000x1, .f32⟩
  | 65 => ⟨S50000x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x1, .f32⟩
  | 104 => ⟨S800000x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S50000, .f32⟩
  | 111 => ⟨S50000x1, .f32⟩
  | 112 => ⟨S50000x64, .f32⟩
  | 113 => ⟨S50000x64, .f32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_1 (i : Nat) : BufTy := match i % 128 with
  | 0 => ⟨S800000, .i32⟩
  | 1 => ⟨S800000x1, .i32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S800000x1, .f32⟩
  | 23 => ⟨S800000x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000, .f32⟩
  | 30 => ⟨S50000x1, .f32⟩
  | 31 => ⟨S50000x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S_, .f32⟩
  | 41 => ⟨S64x64, .f32⟩
  | 42 => ⟨S50000x1, .i32⟩
  | 43 => ⟨S64x64, .f32⟩
  | 44 => ⟨S_, .f32⟩
  | 45 => ⟨S50000, .f32⟩
  | 46 => ⟨S_, .f32⟩
  | 47 => ⟨S64, .f32⟩
  | 48 => ⟨S50000x1, .i32⟩
  | 49 => ⟨S64, .f32⟩
  | 50 => ⟨S_, .f32⟩
  | 51 => ⟨S_, .f32⟩
  | 52 => ⟨S64, .f32⟩
  | 53 => ⟨S64, .f32⟩
  | 54 => ⟨S64x1, .f32⟩
  | 55 => ⟨S64x64, .f32⟩
  | 56 => ⟨S64x64, .f32⟩
  | 57 => ⟨S64x1, .f32⟩
  | 58 => ⟨S1x1, .f32⟩
  | 59 => ⟨S64x1, .f32⟩
  | 60 => ⟨S64x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_call1_cst : Ref sig .tc := ⟨.hbm, 118, rfl⟩
abbrev main_call1_v0 : Ref sig .tc := ⟨.hbm, 119, rfl⟩
abbrev main_v87 : Ref sig .tc := ⟨.hbm, 120, rfl⟩
abbrev main_v88 : Ref sig .tc := ⟨.hbm, 121, rfl⟩
abbrev main_c_16 : Ref sig .tc := ⟨.hbm, 122, rfl⟩
abbrev main_v89 : Ref sig .tc := ⟨.hbm, 123, rfl⟩
abbrev main_v90 : Ref sig .tc := ⟨.hbm, 124, rfl⟩
abbrev main_c_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_18 : Ref sig .tc := ⟨.hbm, 131, rfl⟩
abbrev main_v96 : Ref sig .tc := ⟨.hbm, 132, rfl⟩
abbrev main_v97 : Ref sig .tc := ⟨.hbm, 133, rfl⟩
abbrev main_c_19 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_20 : Ref sig .tc := ⟨.hbm, 141, rfl⟩
abbrev main_v104 : Ref sig .tc := ⟨.hbm, 142, rfl⟩
abbrev main_v105 : Ref sig .tc := ⟨.hbm, 143, rfl⟩
abbrev main_c_21 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_22 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_call2_cst : Ref sig .tc := ⟨.hbm, 165, rfl⟩
abbrev main_call2_v0 : Ref sig .tc := ⟨.hbm, 166, rfl⟩
abbrev main_v125 : Ref sig .tc := ⟨.hbm, 167, rfl⟩
abbrev main_cst_23 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_24 : Ref sig .tc := ⟨.hbm, 172, rfl⟩
abbrev main_v129 : Ref sig .tc := ⟨.hbm, 173, rfl⟩
abbrev main_cst_25 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_26 : Ref sig .tc := ⟨.hbm, 178, rfl⟩
abbrev main_call3_v0 : Ref sig .tc := ⟨.hbm, 179, rfl⟩
abbrev main_call3_v1 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.SmallClaims.lean ====
/-
  The two conjuncts that need no kernel run: the reference is a host program, and its frame is its run with the
  result dropped; the idealization rewrote nothing, so there is nothing to preserve.
-/
import proofs.«104867_j4217657884863_1_alg».proof.Defs
import proofs.«104867_j4217657884863_1_alg».proof.Proof.Gen.ReferenceIdeal
import proofs.«104867_j4217657884863_1_alg».proof.Proof.Gen.ReferenceIdeal.Run
import proofs.«104867_j4217657884863_1_alg».proof.Proof.Gen.Pre_finite_inputs

noncomputable section

namespace Cert.Proof.Small

open Idealize.ShloMosaic Idealize.ShloMosaic.TcCoe Idealize.SL.Sem

/-- Every weakly fair execution of the reference terminates without a fault and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass applied no rewrite to this kernel. -/
theorem preserves : Cert.preserves_Kernel_KernelIdeal := trivial

end Cert.Proof.Small

end
-- ==== Proof.Lin0.lean ====
/- The linear kernel of pipeline 0 (h = x @ W over 25 row blocks of 2048): the windows' blocks, the body's triple, the
   pipeline's proof data at any entry contents, and its body obligation. -/
import proofs.«104867_j4217657884863_1_alg».proof.Proof.Gen.KernelIdeal.Launch
import proofs.«104867_j4217657884863_1_alg».proof.Proof.Gen.KernelIdeal.Skeleton
import proofs.«104867_j4217657884863_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 0: h = x @ W, one row block of 2048 per grid point -/

/-! ## The windows' blocks -/

/-- Window `w`'s block at point `t`, read off its array as the region finds it. -/
def iblkL0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's current staging buffer holds its block at every point, for any proof data whose array is
    the entry contents and whose body leaves the block in place. -/
theorem beforeL0_0_of {c : Dev nD} (dat : Dat τ (Elt F) Ix ℕ U Lvl cfg0 c) (hA : dat.A 0 = V c (Pipeline.arrRef spec0 0))
    (hafter : ∀ t, dat.after 0 t = iblkL0 V c 0 t) (t : Fin cfg0.N) (d) : dat.before 0 t d = iblkL0 V c 0 t :=
  (dat.before_in_eq_fetched 0 rfl (fun _ => rfl) (fun _ _ _ => rfl) (fun t => by rw [hafter]; unfold Dat.blockOf iblkL0; rw [hA]; try rfl) t d).trans
    (by unfold Dat.fetched Dat.blockOf iblkL0; rw [hA]; try rfl)

/-- The weight input's staging buffer holds the weight at every point, fetched there (the first point) or not (its
    block index never moves). -/
theorem beforeL0_1_of {c : Dev nD} (dat : Dat τ (Elt F) Ix ℕ U Lvl cfg0 c) (hA : dat.A 1 = V c (Pipeline.arrRef spec0 1))
    (hafter : ∀ t, dat.after 1 t = iblkL0 V c 1 t) (t : Fin cfg0.N) (d) : dat.before 1 t d = iblkL0 V c 1 t :=
  (dat.before_in_eq_fetched 1 rfl (fun _ => rfl) (fun _ _ _ => rfl) (fun t => by rw [hafter]; unfold Dat.blockOf iblkL0; rw [hA]; try rfl) t d).trans
    (by unfold Dat.fetched Dat.blockOf iblkL0; rw [hA]; try rfl)

/-! ## The body's accesses -/

/-- The whole row block, and the whole weight. -/
abbrev rL0_x : Rect S2048x64 := Rect.unit (s := S2048x64) ![0, 0] S2048x64.size inb_S2048x64_S2048x64_0_0
abbrev rL0_w : Rect S64x64 := Rect.unit (s := S64x64) ![0, 0] S64x64.size inb_S64x64_S64x64_0_0

/-! ## What the body leaves in the output window's buffer -/

/-- The output's staging buffer after the body, from the two input blocks: its one store, of the whole block — the
    product of the row block and the weight, both rounded to bf16, accumulated from zero. -/
def outL0 (x0 : Vec F S2048x64 .f32) (x1 : Vec F S64x64 .f32) : Vec F S2048x64 .f32 :=
  View.canon [⟨rL0_x, k0_pay1 (View.ld x0 rL0_x) (View.ld x1 rL0_w)⟩]

/-- The one store covers the buffer. -/
theorem coverL0 (p0 : Vec F S2048x64 .f32) (y : S2048x64.Idx) :
    ∃ pc ∈ ([⟨rL0_x, p0⟩] : List (View.Piece (Elt F) S2048x64 .f32)), y ∈ pc.1.set :=
  View.cover_of_tiled [⟨rL0_x, p0⟩] S2048x64.size (by rfl) y

/-! ## The body's triple -/

set_option maxHeartbeats 1000000 in
/-- The kernel body on whole staging memrefs, the inputs' at contents `x0`, `x1` and the output's at anything, runs to
    the continuation holding the inputs' as they were and the output's at `outL0 x0 x1`. -/
theorem sound_kernelL0 (𝒱₀ : Variants) (c : Dev nD) (E : Set ℕ) (i : grid0.Coords)
    (arg1 : Memref sig .tc .vmem S2048x64 .f32) (harg1 : arg1.IsWhole)
    (arg2 : Memref sig .tc .vmem S64x64 .f32) (harg2 : arg2.IsWhole)
    (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outL0 x0 x1)) -∗ K ⟨⟩))
      ⊢ wp frame (wpE (defs₀ (F := F)) 𝒱₀ c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverL0 _)

/-! ## The pipeline's proof data -/

/-- The region's invariant: the core's scoped buffers no window stages, at some contents each, and its generator
    register at some state — the body uses neither. -/
def ΦL0 (c : Dev nD) : sProp 𝕄 :=
  iprop(Pipeline.scopedRest (Ix := Ix) (Name := ℕ) (U := U) (Lvl := Lvl) (Val := Elt F) spec0 c ∗ ∃ r, prngReg c r)

/-- The proof data of pipeline 0 on core `c`: the arrays as the region finds them (`V`); after the body at point `t`
    each input's buffer at its block and the output's at the product of the two; the invariant above; nothing owed;
    full shares. -/
def datL0 (c : Dev nD) : Dat τ (Elt F) Ix ℕ U Lvl cfg0 c where
  A w := V c (Pipeline.arrRef spec0 w)
  after w t := match w with
    | ⟨0, _⟩ => iblkL0 V c 0 t
    | ⟨1, _⟩ => iblkL0 V c 1 t
    | ⟨2, _⟩ => outL0 (iblkL0 V c 0 t) (iblkL0 V c 1 t)
  Φ _ := ΦL0 c
  q _ := fullShare
  owed _ := 0

/-- The proof data's arrays are the region-entry contents. -/
theorem A_eqL0 (c : Dev nD) (w : Fin cfg0.W) : (datL0 (Ix := Ix) (U := U) (Lvl := Lvl) V c).A w = V c (Pipeline.arrRef spec0 w) := by
  dsimp only [datL0]

/-- What the body leaves, window by window. -/
theorem afterL0_0 (c : Dev nD) (t : Fin cfg0.N) : (datL0 (Ix := Ix) (U := U) (Lvl := Lvl) V c).after 0 t = iblkL0 V c 0 t := by dsimp only [datL0]
theorem afterL0_1 (c : Dev nD) (t : Fin cfg0.N) : (datL0 (Ix := Ix) (U := U) (Lvl := Lvl) V c).after 1 t = iblkL0 V c 1 t := by dsimp only [datL0]
theorem afterL0_2 (c : Dev nD) (t : Fin cfg0.N) :
    (datL0 (Ix := Ix) (U := U) (Lvl := Lvl) V c).after 2 t = outL0 (iblkL0 V c 0 t) (iblkL0 V c 1 t) := by dsimp only [datL0]

/-- Each input's current staging buffer holds its block at every point, fetched there or not. -/
theorem beforeL0_0 (c : Dev nD) (t : Fin cfg0.N) (d) : (datL0 (Ix := Ix) (U := U) (Lvl := Lvl) V c).before 0 t d = iblkL0 V c 0 t :=
  beforeL0_0_of V (datL0 (Ix := Ix) (U := U) (Lvl := Lvl) V c) (A_eqL0 V c 0) (afterL0_0 V c) t d
theorem beforeL0_1 (c : Dev nD) (t : Fin cfg0.N) (d) : (datL0 (Ix := Ix) (U := U) (Lvl := Lvl) V c).before 1 t d = iblkL0 V c 1 t :=
  beforeL0_1_of V (datL0 (Ix := Ix) (U := U) (Lvl := Lvl) V c) (A_eqL0 V c 1) (afterL0_1 V c) t d

/-! ## The body obligation, at a generic point -/

/-- What the body is called with at point `t`, the windows one by one, -/
def bodyPreL0 (ι : Ix) (c : Dev nD) (t : Fin cfg0.N) : sProp 𝕄 :=
  iprop((datL0 (Ix := Ix) (U := U) (Lvl := Lvl) V c).Φ t.castSucc ∗ (datL0 (Ix := Ix) (U := U) (Lvl := Lvl) V c).owesAt ι t.castSucc
    ∗ (∃ d, owns (c : Thread nD τ) (st0_0 t) fullShare ((datL0 (Ix := Ix) (U := U) (Lvl := Lvl) V c).before 0 t d))
    ∗ (∃ d, owns (c : Thread nD τ) (st0_1 t) fullShare ((datL0 (Ix := Ix) (U := U) (Lvl := Lvl) V c).before 1 t d))
    ∗ (∃ d, owns (c : Thread nD τ) (st0_2 t) fullShare ((datL0 (Ix := Ix) (U := U) (Lvl := Lvl) V c).before 2 t d)))

/-- and what it returns. -/
def bodyPostL0 (ι : Ix) (c : Dev nD) (t : Fin cfg0.N) : sProp 𝕄 :=
  iprop((datL0 (Ix := Ix) (U := U) (Lvl := Lvl) V c).Φ t.succ ∗ (datL0 (Ix := Ix) (U := U) (Lvl := Lvl) V c).owesAt ι t.succ
    ∗ owns (c : Thread nD τ) (st0_0 t) fullShare ((datL0 (Ix := Ix) (U := U) (Lvl := Lvl) V c).after 0 t)
    ∗ owns (c : Thread nD τ) (st0_1 t) fullShare ((datL0 (Ix := Ix) (U := U) (Lvl := Lvl) V c).after 1 t)
    ∗ owns (c : Thread nD τ) (st0_2 t) fullShare ((datL0 (Ix := Ix) (U := U) (Lvl := Lvl) V c).after 2 t))

/-- The body at any point: the inputs' memrefs hold their blocks, so the triple applies; the invariant and the core's
    `owes` pass through unread. -/
theorem sound_bodyL0 (𝒱₀ : Variants) (ι : Ix) (c : Dev nD) (t : Fin cfg0.N) :
    bodyPreL0 (Ix := Ix) (U := U) (Lvl := Lvl) V ι c t
      ⊢ wp frame (wpE (defs₀ (F := F)) 𝒱₀ c none) Set.univ (bodyAt0 t)
          (fun _ => bodyPostL0 (Ix := Ix) (U := U) (Lvl := Lvl) V ι c t) := by
  unfold bodyPreL0 bodyPostL0 bodyAt0
  simp only [beforeL0_0, beforeL0_1]
  rw [show (datL0 (Ix := Ix) (U := U) (Lvl := Lvl) V c).Φ t.succ = (datL0 (Ix := Ix) (U := U) (Lvl := Lvl) V c).Φ t.castSucc from rfl,
    show (datL0 (Ix := Ix) (U := U) (Lvl := Lvl) V c).owesAt ι t.succ = (datL0 (Ix := Ix) (U := U) (Lvl := Lvl) V c).owesAt ι t.castSucc from rfl,
    afterL0_0, afterL0_1, afterL0_2]
  iintro ⟨HΦ, Ho, ⟨%d0, H0⟩, ⟨%d1, H1⟩, ⟨%d2, H2⟩⟩
  iapply (sound_kernelL0 𝒱₀ c Set.univ (grid0.coords t) _ _ _ _ _ _ (iblkL0 V c 0 t) (iblkL0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligationL0_exact (𝒱₀ : Variants) (ι : Ix) (c : Dev nD) :
    BodyObligation (datL0 (Ix := Ix) (U := U) (Lvl := Lvl) V c) (defs₀ (F := F)) 𝒱₀ ι Set.univ := fun t => by
  rw [bigSep_W0, bigSep_W0]
  exact sound_bodyL0 V 𝒱₀ ι c t

/-- and as the loop uses it. -/
theorem body_obligationL0 (𝒱₀ : Variants) (ι : Ix) (c : Dev nD) :
    BodyObligationLoose (datL0 (Ix := Ix) (U := U) (Lvl := Lvl) V c) (defs₀ (F := F)) 𝒱₀ ι Set.univ :=
  (body_obligationL0_exact V 𝒱₀ ι c).loose

end Cert.KernelIdeal.Hand

end
-- ==== Proof.Dats.lean ====
/-
  The proof data of the nine kernel regions as ONE family over the pipeline index.

  The launch theorem for a program of several regions takes the regions' proof data as a function of the
  pipeline index `p : Fin 9`. Each region's data is written where that kernel's body is run; this module
  only ties them together: the family is a literal match on `p` whose nine slots are parameters, so that
  the data at a numeral index is the corresponding slot by `rfl`, whatever the other eight slots are.
-/
import proofs.«104867_j4217657884863_1_alg».proof.Proof.Gen.KernelIdeal.Launch
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable {F : FTy → Type} [FloatOps F]
variable {Ix : Type} [DecidableEq Ix] {U : Type} [URA U] {Lvl : Type} [Preorder Lvl]

/-- The nine regions' proof data as one family: slot `K` at pipeline index `K`. -/
def pdats
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    (p : Fin 9) → (c : Dev nD) → Dat τ (Elt F) Ix ℕ U Lvl (cfgs p) c
  | ⟨0, _⟩ => d0
  | ⟨1, _⟩ => d1
  | ⟨2, _⟩ => d2
  | ⟨3, _⟩ => d3
  | ⟨4, _⟩ => d4
  | ⟨5, _⟩ => d5
  | ⟨6, _⟩ => d6
  | ⟨7, _⟩ => d7
  | ⟨8, _⟩ => d8

/-- At index 0 the family is its slot 0. -/
theorem pdats_0
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 0 = d0 := rfl

/-- At index 1 the family is its slot 1. -/
theorem pdats_1
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 1 = d1 := rfl

/-- At index 2 the family is its slot 2. -/
theorem pdats_2
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 2 = d2 := rfl

/-- At index 3 the family is its slot 3. -/
theorem pdats_3
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 3 = d3 := rfl

/-- At index 4 the family is its slot 4. -/
theorem pdats_4
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 4 = d4 := rfl

/-- At index 5 the family is its slot 5. -/
theorem pdats_5
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 5 = d5 := rfl

/-- At index 6 the family is its slot 6. -/
theorem pdats_6
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 6 = d6 := rfl

/-- At index 7 the family is its slot 7. -/
theorem pdats_7
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 7 = d7 := rfl

/-- At index 8 the family is its slot 8. -/
theorem pdats_8
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 8 = d8 := rfl

end Cert.KernelIdeal.Hand

end
-- ==== Proof.LinReg0.lean ====
/- The linear kernel of pipeline 0 as a segment of the program: the buffer contents it leaves and its segment record,
   over the proof data family with the other eight slots arbitrary. -/
import proofs.«104867_j4217657884863_1_alg».proof.Proof.Lin0
import proofs.«104867_j4217657884863_1_alg».proof.Proof.Dats
import proofs.«104867_j4217657884863_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 0 as a segment of the program -/

/-! ## The buffer contents the region leaves -/

/-- The exit contents: the output array at what the write-backs have left after the last point, every other buffer
    as the region found it. -/
def VoutL0 (c : Dev nD) : Valuation τ sig (Elt F) :=
  Function.update (V c) (main_v41 : DevRef τ sig) ((datL0 (Ix := Ix) (U := U) (Lvl := Lvl) V c).arrAt 2 cfg0.N)

theorem ne_outL0_0 : ((main_v33 : Ref sig .tc) : DevRef τ sig) ≠ (main_v41 : Ref sig .tc) :=
  fun e => absurd (Proc.devRef_injective _ e) (by decide)
theorem ne_outL0_1 : ((main_arg3 : Ref sig .tc) : DevRef τ sig) ≠ (main_v41 : Ref sig .tc) :=
  fun e => absurd (Proc.devRef_injective _ e) (by decide)

-- the array references of the printed windows are compared up to unfolding the printed window table
set_option backward.isDefEq.respectTransparency.types false in
/-- At the exit each of the pipeline's arrays holds what the pipeline leaves: the inputs what they held, the output
    its write-backs; -/
theorem hFL0 (c : Dev nD) (w : Fin cfg0.W) :
    (datL0 (Ix := Ix) (U := U) (Lvl := Lvl) V c).arrAt w cfg0.N = VoutL0 (Ix := Ix) (U := U) (Lvl := Lvl) V c (Pipeline.arrRef spec0 w) := by
  match w with
  | ⟨0, _⟩ =>
    exact ((datL0 (Ix := Ix) (U := U) (Lvl := Lvl) V c).arrAt_in _ rfl _).trans
      (Function.update_of_ne (β := fun b : DevRef τ sig => b.ty.Contents (Elt F)) ne_outL0_0 _ (V c)).symm
  | ⟨1, _⟩ =>
    exact ((datL0 (Ix := Ix) (U := U) (Lvl := Lvl) V c).arrAt_in _ rfl _).trans
      (Function.update_of_ne (β := fun b : DevRef τ sig => b.ty.Contents (Elt F)) ne_outL0_1 _ (V c)).symm
  | ⟨2, _⟩ =>
    show (datL0 (Ix := Ix) (U := U) (Lvl := Lvl) V c).arrAt 2 cfg0.N
      = Function.update (V c) (main_v41 : DevRef τ sig) ((datL0 (Ix := Ix) (U := U) (Lvl := Lvl) V c).arrAt 2 cfg0.N) (main_v41 : DevRef τ sig)
    exact (Function.update_self (β := fun b : DevRef τ sig => b.ty.Contents (Elt F)) (main_v41 : DevRef τ sig) _ (V c)).symm

/-- and every other buffer what it held at entry. -/
theorem hrestL0 (c : Dev nD) (b : Ref sig .tc) (hb : b ∉ Finset.univ.image (Pipeline.arrRef spec0)) :
    VoutL0 (Ix := Ix) (U := U) (Lvl := Lvl) V c b = V c b := by
  unfold VoutL0
  refine Function.update_of_ne (fun e => hb ?_) _ _
  rw [Proc.devRef_injective _ e]
  exact Finset.mem_image.mpr ⟨2, Finset.mem_univ _, rfl⟩

/-! ## The segment record -/

section Region

variable (d1 : (c : Dev nD) → Dat τ (Elt F) Ix ℕ U Lvl (cfgs 1) c)
  (d2 : (c : Dev nD) → Dat τ (Elt F) Ix ℕ U Lvl (cfgs 2) c)
  (d3 : (c : Dev nD) → Dat τ (Elt F) Ix ℕ U Lvl (cfgs 3) c)
  (d4 : (c : Dev nD) → Dat τ (Elt F) Ix ℕ U Lvl (cfgs 4) c)
  (d5 : (c : Dev nD) → Dat τ (Elt F) Ix ℕ U Lvl (cfgs 5) c)
  (d6 : (c : Dev nD) → Dat τ (Elt F) Ix ℕ U Lvl (cfgs 6) c)
  (d7 : (c : Dev nD) → Dat τ (Elt F) Ix ℕ U Lvl (cfgs 7) c)
  (d8 : (c : Dev nD) → Dat τ (Elt F) Ix ℕ U Lvl (cfgs 8) c)

-- a library lemma stated over the pinned configuration unifies with the printed one only when unification may
-- unfold plain definitions in a metavariable's type
set_option backward.isDefEq.respectTransparency.types false in
/-- Pipeline 0 as a segment: entered from every unscoped buffer at `V` beside a rest `E`, left at `VoutL0 V` beside
    `E'`. The rest must hold the generator register at some state and the core owing nothing, beside anything `Er`
    that bypasses the region (`hE`), and the same three make the rest after it (`hE'`). The arrays are split out of the
    unscoped buffers and put back at the exit contents; the generator register goes into the invariant and comes
    back; the kernel has no semaphore of its own. -/
def regionL0 (ι : Ix) (𝒱₀ : Variants) (L : GSem nD τ sig → Finset Ix) (lv : GSem nD τ sig → Ix → Lvl)
    (E E' Er : Dev nD → sProp 𝕄)
    (hE : ∀ c, E c ⊢ iprop((∃ r, prngReg c r) ∗ (∃ W, owes (c : Thread nD τ) (0 : CellTallies nD τ sig Ix) W) ∗ Er c))
    (hE' : ∀ c, iprop((∃ r, prngReg c r) ∗ (∃ W, owes (c : Thread nD τ) (0 : CellTallies nD τ sig Ix) W) ∗ Er c) ⊢ E' c) :
    Pipeline.RegionSeg (pcfgs (F := F)) adm (pdats (datL0 V) d1 d2 d3 d4 d5 d6 d7 d8) ι defs₀ 𝒱₀ L lv 0 where
  win := launch0.win.to₀
  block_pos := launch0.block_pos
  stage_whole := launch0.stage_whole
  K := PEmpty
  osem k := k.elim
  ho := Pipeline.OwnSemFacts.none _
  hbody c := body_obligationL0 V 𝒱₀ ι c
  hwaits := Pipeline.hwaits_of_owed_zero _ _ _ _ L lv 0 fun _ _ => rfl
  pre c := iprop(StableHlo.held (c : Thread nD τ) (Pipeline.ucRefs τ sig) (V c) ∗ E c)
  post c := iprop(StableHlo.held (c : Thread nD τ) (Pipeline.ucRefs τ sig) (VoutL0 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec0 c (fun b => V c b) ∗ Er c)
  hentry c := by
    rw [Pipeline.ownSems0_none]
    have hsplit := Pipeline.arrays_of_unscopedBufs (p := 0) (pcfgs (F := F)) adm (pdats (datL0 V) d1 d2 d3 d4 d5 d6 d7 d8) launch0.win launch0.arr_whole c
      ((pdats (datL0 V) d1 d2 d3 d4 d5 d6 d7 d8 0 c).share_full fun _ => rfl) (fun b => V c b) fun _ => rfl
    rw [Pipeline.unscopedBufs_held] at hsplit
    iintro ⟨⟨Hub, HE⟩, -, -⟩
    ihave HE2 := hE c $$ HE
    icases HE2 with ⟨Hp, HO, Hr⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hr
  hin c := by
    rw [show (pdats (datL0 V) d1 d2 d3 d4 d5 d6 d7 d8 0 c).Φ 0 = ΦL0 c from rfl]; unfold ΦL0
    iintro ⟨Hp, -, Hr⟩
    isplitl [Hr]; · iexact Hr
    iexact Hp
  hout c := by
    rw [Pipeline.ownSems0_none, show (pdats (datL0 V) d1 d2 d3 d4 d5 d6 d7 d8 0 c).Φ (Fin.last _) = ΦL0 c from rfl]; unfold ΦL0
    iintro ⟨Hr, Hp⟩
    isplitl [Hp]; · iexact Hp
    isplitr; · iempintro
    iexact Hr
  hexit c := by
    have hjoin := Pipeline.unscopedBufs_of_arrays (p := 0) (pcfgs (F := F)) adm (Ix := Ix) (Name := ℕ) (U := U) (Lvl := Lvl)
      launch0.win launch0.arr_whole c (pdats (datL0 V) d1 d2 d3 d4 d5 d6 d7 d8) ((pdats (datL0 V) d1 d2 d3 d4 d5 d6 d7 d8 0 c).share_full fun _ => rfl)
      (fun b => V c b) (fun b => VoutL0 (Ix := Ix) (U := U) (Lvl := Lvl) V c b) ((pdats (datL0 V) d1 d2 d3 d4 d5 d6 d7 d8 0 c).arrAt · cfg0.N)
      (hFL0 V c) (hrestL0 V c)
    rw [Pipeline.unscopedBufs_held] at hjoin
    iintro ⟨Ha, HO, HY, Hrest, Hr⟩
    imodintro
    isplitl [Ha Hrest]
    · iapply hjoin; isplitl [Ha] <;> iassumption
    iapply hE' c
    isplitl [HY]; · iexact HY
    isplitl [HO]
    · unfold Pipeline.Dat.owesAt Pipeline.owesWithin
      icases HO with ⟨%W, -, HO⟩; iexists W; iexact HO
    iexact Hr

end Region

end Cert.KernelIdeal.Hand

end
-- ==== Proof.Lin3.lean ====
/- The linear kernel of pipeline 3 (h = x @ W over 25 row blocks of 2048): the windows' blocks, the body's triple, the
   pipeline's proof data at any entry contents, and its body obligation. -/
import proofs.«104867_j4217657884863_1_alg».proof.Proof.Gen.KernelIdeal.Launch
import proofs.«104867_j4217657884863_1_alg».proof.Proof.Gen.KernelIdeal.Skeleton
import proofs.«104867_j4217657884863_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 3: h = x @ W, one row block of 2048 per grid point -/

/-! ## The windows' blocks -/

/-- Window `w`'s block at point `t`, read off its array as the region finds it. -/
def iblkL3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block input's current staging buffer holds its block at every point, for any proof data whose array is
    the entry contents and whose body leaves the block in place. -/
theorem beforeL3_0_of {c : Dev nD} (dat : Dat τ (Elt F) Ix ℕ U Lvl cfg3 c) (hA : dat.A 0 = V c (Pipeline.arrRef spec3 0))
    (hafter : ∀ t, dat.after 0 t = iblkL3 V c 0 t) (t : Fin cfg3.N) (d) : dat.before 0 t d = iblkL3 V c 0 t :=
  (dat.before_in_eq_fetched 0 rfl (fun _ => rfl) (fun _ _ _ => rfl) (fun t => by rw [hafter]; unfold Dat.blockOf iblkL3; rw [hA]; try rfl) t d).trans
    (by unfold Dat.fetched Dat.blockOf iblkL3; rw [hA]; try rfl)

/-- The weight input's staging buffer holds the weight at every point, fetched there (the first point) or not (its
    block index never moves). -/
theorem beforeL3_1_of {c : Dev nD} (dat : Dat τ (Elt F) Ix ℕ U Lvl cfg3 c) (hA : dat.A 1 = V c (Pipeline.arrRef spec3 1))
    (hafter : ∀ t, dat.after 1 t = iblkL3 V c 1 t) (t : Fin cfg3.N) (d) : dat.before 1 t d = iblkL3 V c 1 t :=
  (dat.before_in_eq_fetched 1 rfl (fun _ => rfl) (fun _ _ _ => rfl) (fun t => by rw [hafter]; unfold Dat.blockOf iblkL3; rw [hA]; try rfl) t d).trans
    (by unfold Dat.fetched Dat.blockOf iblkL3; rw [hA]; try rfl)

/-! ## The body's accesses -/

/-- The whole row block, and the whole weight. -/
abbrev rL3_x : Rect S2048x64 := Rect.unit (s := S2048x64) ![0, 0] S2048x64.size inb_S2048x64_S2048x64_0_0
abbrev rL3_w : Rect S64x64 := Rect.unit (s := S64x64) ![0, 0] S64x64.size inb_S64x64_S64x64_0_0

/-! ## What the body leaves in the output window's buffer -/

/-- The output's staging buffer after the body, from the two input blocks: its one store, of the whole block — the
    product of the row block and the weight, both rounded to bf16, accumulated from zero. -/
def outL3 (x0 : Vec F S2048x64 .f32) (x1 : Vec F S64x64 .f32) : Vec F S2048x64 .f32 :=
  View.canon [⟨rL3_x, k3_pay1 (View.ld x0 rL3_x) (View.ld x1 rL3_w)⟩]

/-- The one store covers the buffer. -/
theorem coverL3 (p0 : Vec F S2048x64 .f32) (y : S2048x64.Idx) :
    ∃ pc ∈ ([⟨rL3_x, p0⟩] : List (View.Piece (Elt F) S2048x64 .f32)), y ∈ pc.1.set :=
  View.cover_of_tiled [⟨rL3_x, p0⟩] S2048x64.size (by rfl) y

/-! ## The body's triple -/

set_option maxHeartbeats 1000000 in
/-- The kernel body on whole staging memrefs, the inputs' at contents `x0`, `x1` and the output's at anything, runs to
    the continuation holding the inputs' as they were and the output's at `outL3 x0 x1`. -/
theorem sound_kernelL3 (𝒱₀ : Variants) (c : Dev nD) (E : Set ℕ) (i : grid3.Coords)
    (arg1 : Memref sig .tc .vmem S2048x64 .f32) (harg1 : arg1.IsWhole)
    (arg2 : Memref sig .tc .vmem S64x64 .f32) (harg2 : arg2.IsWhole)
    (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outL3 x0 x1)) -∗ K ⟨⟩))
      ⊢ wp frame (wpE (defs₀ (F := F)) 𝒱₀ c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverL3 _)

/-! ## The pipeline's proof data -/

/-- The region's invariant: the core's scoped buffers no window stages, at some contents each, and its generator
    register at some state — the body uses neither. -/
def ΦL3 (c : Dev nD) : sProp 𝕄 :=
  iprop(Pipeline.scopedRest (Ix := Ix) (Name := ℕ) (U := U) (Lvl := Lvl) (Val := Elt F) spec3 c ∗ ∃ r, prngReg c r)

/-- The proof data of pipeline 3 on core `c`: the arrays as the region finds them (`V`); after the body at point `t`
    each input's buffer at its block and the output's at the product of the two; the invariant above; nothing owed;
    full shares. -/
def datL3 (c : Dev nD) : Dat τ (Elt F) Ix ℕ U Lvl cfg3 c where
  A w := V c (Pipeline.arrRef spec3 w)
  after w t := match w with
    | ⟨0, _⟩ => iblkL3 V c 0 t
    | ⟨1, _⟩ => iblkL3 V c 1 t
    | ⟨2, _⟩ => outL3 (iblkL3 V c 0 t) (iblkL3 V c 1 t)
  Φ _ := ΦL3 c
  q _ := fullShare
  owed _ := 0

/-- The proof data's arrays are the region-entry contents. -/
theorem A_eqL3 (c : Dev nD) (w : Fin cfg3.W) : (datL3 (Ix := Ix) (U := U) (Lvl := Lvl) V c).A w = V c (Pipeline.arrRef spec3 w) := by
  dsimp only [datL3]

/-- What the body leaves, window by window. -/
theorem afterL3_0 (c : Dev nD) (t : Fin cfg3.N) : (datL3 (Ix := Ix) (U := U) (Lvl := Lvl) V c).after 0 t = iblkL3 V c 0 t := by dsimp only [datL3]
theorem afterL3_1 (c : Dev nD) (t : Fin cfg3.N) : (datL3 (Ix := Ix) (U := U) (Lvl := Lvl) V c).after 1 t = iblkL3 V c 1 t := by dsimp only [datL3]
theorem afterL3_2 (c : Dev nD) (t : Fin cfg3.N) :
    (datL3 (Ix := Ix) (U := U) (Lvl := Lvl) V c).after 2 t = outL3 (iblkL3 V c 0 t) (iblkL3 V c 1 t) := by dsimp only [datL3]

/-- Each input's current staging buffer holds its block at every point, fetched there or not. -/
theorem beforeL3_0 (c : Dev nD) (t : Fin cfg3.N) (d) : (datL3 (Ix := Ix) (U := U) (Lvl := Lvl) V c).before 0 t d = iblkL3 V c 0 t :=
  beforeL3_0_of V (datL3 (Ix := Ix) (U := U) (Lvl := Lvl) V c) (A_eqL3 V c 0) (afterL3_0 V c) t d
theorem beforeL3_1 (c : Dev nD) (t : Fin cfg3.N) (d) : (datL3 (Ix := Ix) (U := U) (Lvl := Lvl) V c).before 1 t d = iblkL3 V c 1 t :=
  beforeL3_1_of V (datL3 (Ix := Ix) (U := U) (Lvl := Lvl) V c) (A_eqL3 V c 1) (afterL3_1 V c) t d

/-! ## The body obligation, at a generic point -/

/-- What the body is called with at point `t`, the windows one by one, -/
def bodyPreL3 (ι : Ix) (c : Dev nD) (t : Fin cfg3.N) : sProp 𝕄 :=
  iprop((datL3 (Ix := Ix) (U := U) (Lvl := Lvl) V c).Φ t.castSucc ∗ (datL3 (Ix := Ix) (U := U) (Lvl := Lvl) V c).owesAt ι t.castSucc
    ∗ (∃ d, owns (c : Thread nD τ) (st3_0 t) fullShare ((datL3 (Ix := Ix) (U := U) (Lvl := Lvl) V c).before 0 t d))
    ∗ (∃ d, owns (c : Thread nD τ) (st3_1 t) fullShare ((datL3 (Ix := Ix) (U := U) (Lvl := Lvl) V c).before 1 t d))
    ∗ (∃ d, owns (c : Thread nD τ) (st3_2 t) fullShare ((datL3 (Ix := Ix) (U := U) (Lvl := Lvl) V c).before 2 t d)))

/-- and what it returns. -/
def bodyPostL3 (ι : Ix) (c : Dev nD) (t : Fin cfg3.N) : sProp 𝕄 :=
  iprop((datL3 (Ix := Ix) (U := U) (Lvl := Lvl) V c).Φ t.succ ∗ (datL3 (Ix := Ix) (U := U) (Lvl := Lvl) V c).owesAt ι t.succ
    ∗ owns (c : Thread nD τ) (st3_0 t) fullShare ((datL3 (Ix := Ix) (U := U) (Lvl := Lvl) V c).after 0 t)
    ∗ owns (c : Thread nD τ) (st3_1 t) fullShare ((datL3 (Ix := Ix) (U := U) (Lvl := Lvl) V c).after 1 t)
    ∗ owns (c : Thread nD τ) (st3_2 t) fullShare ((datL3 (Ix := Ix) (U := U) (Lvl := Lvl) V c).after 2 t))

/-- The body at any point: the inputs' memrefs hold their blocks, so the triple applies; the invariant and the core's
    `owes` pass through unread. -/
theorem sound_bodyL3 (𝒱₀ : Variants) (ι : Ix) (c : Dev nD) (t : Fin cfg3.N) :
    bodyPreL3 (Ix := Ix) (U := U) (Lvl := Lvl) V ι c t
      ⊢ wp frame (wpE (defs₀ (F := F)) 𝒱₀ c none) Set.univ (bodyAt3 t)
          (fun _ => bodyPostL3 (Ix := Ix) (U := U) (Lvl := Lvl) V ι c t) := by
  unfold bodyPreL3 bodyPostL3 bodyAt3
  simp only [beforeL3_0, beforeL3_1]
  rw [show (datL3 (Ix := Ix) (U := U) (Lvl := Lvl) V c).Φ t.succ = (datL3 (Ix := Ix) (U := U) (Lvl := Lvl) V c).Φ t.castSucc from rfl,
    show (datL3 (Ix := Ix) (U := U) (Lvl := Lvl) V c).owesAt ι t.succ = (datL3 (Ix := Ix) (U := U) (Lvl := Lvl) V c).owesAt ι t.castSucc from rfl,
    afterL3_0, afterL3_1, afterL3_2]
  iintro ⟨HΦ, Ho, ⟨%d0, H0⟩, ⟨%d1, H1⟩, ⟨%d2, H2⟩⟩
  iapply (sound_kernelL3 𝒱₀ c Set.univ (grid3.coords t) _ _ _ _ _ _ (iblkL3 V c 0 t) (iblkL3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligationL3_exact (𝒱₀ : Variants) (ι : Ix) (c : Dev nD) :
    BodyObligation (datL3 (Ix := Ix) (U := U) (Lvl := Lvl) V c) (defs₀ (F := F)) 𝒱₀ ι Set.univ := fun t => by
  rw [bigSep_W3, bigSep_W3]
  exact sound_bodyL3 V 𝒱₀ ι c t

/-- and as the loop uses it. -/
theorem body_obligationL3 (𝒱₀ : Variants) (ι : Ix) (c : Dev nD) :
    BodyObligationLoose (datL3 (Ix := Ix) (U := U) (Lvl := Lvl) V c) (defs₀ (F := F)) 𝒱₀ ι Set.univ :=
  (body_obligationL3_exact V 𝒱₀ ι c).loose

end Cert.KernelIdeal.Hand

end
-- ==== Proof.LinReg3.lean ====
/- The linear kernel of pipeline 3 as a segment of the program: the buffer contents it leaves and its segment record,
   over the proof data family with the other eight slots arbitrary. -/
import proofs.«104867_j4217657884863_1_alg».proof.Proof.Lin3
import proofs.«104867_j4217657884863_1_alg».proof.Proof.Dats
import proofs.«104867_j4217657884863_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 3 as a segment of the program -/

/-! ## The buffer contents the region leaves -/

/-- The exit contents: the output array at what the write-backs have left after the last point, every other buffer
    as the region found it. -/
def VoutL3 (c : Dev nD) : Valuation τ sig (Elt F) :=
  Function.update (V c) (main_v52 : DevRef τ sig) ((datL3 (Ix := Ix) (U := U) (Lvl := Lvl) V c).arrAt 2 cfg3.N)

theorem ne_outL3_0 : ((main_v51 : Ref sig .tc) : DevRef τ sig) ≠ (main_v52 : Ref sig .tc) :=
  fun e => absurd (Proc.devRef_injective _ e) (by decide)
theorem ne_outL3_1 : ((main_arg5 : Ref sig .tc) : DevRef τ sig) ≠ (main_v52 : Ref sig .tc) :=
  fun e => absurd (Proc.devRef_injective _ e) (by decide)

-- the array references of the printed windows are compared up to unfolding the printed window table
set_option backward.isDefEq.respectTransparency.types false in
/-- At the exit each of the pipeline's arrays holds what the pipeline leaves: the inputs what they held, the output
    its write-backs; -/
theorem hFL3 (c : Dev nD) (w : Fin cfg3.W) :
    (datL3 (Ix := Ix) (U := U) (Lvl := Lvl) V c).arrAt w cfg3.N = VoutL3 (Ix := Ix) (U := U) (Lvl := Lvl) V c (Pipeline.arrRef spec3 w) := by
  match w with
  | ⟨0, _⟩ =>
    exact ((datL3 (Ix := Ix) (U := U) (Lvl := Lvl) V c).arrAt_in _ rfl _).trans
      (Function.update_of_ne (β := fun b : DevRef τ sig => b.ty.Contents (Elt F)) ne_outL3_0 _ (V c)).symm
  | ⟨1, _⟩ =>
    exact ((datL3 (Ix := Ix) (U := U) (Lvl := Lvl) V c).arrAt_in _ rfl _).trans
      (Function.update_of_ne (β := fun b : DevRef τ sig => b.ty.Contents (Elt F)) ne_outL3_1 _ (V c)).symm
  | ⟨2, _⟩ =>
    show (datL3 (Ix := Ix) (U := U) (Lvl := Lvl) V c).arrAt 2 cfg3.N
      = Function.update (V c) (main_v52 : DevRef τ sig) ((datL3 (Ix := Ix) (U := U) (Lvl := Lvl) V c).arrAt 2 cfg3.N) (main_v52 : DevRef τ sig)
    exact (Function.update_self (β := fun b : DevRef τ sig => b.ty.Contents (Elt F)) (main_v52 : DevRef τ sig) _ (V c)).symm

/-- and every other buffer what it held at entry. -/
theorem hrestL3 (c : Dev nD) (b : Ref sig .tc) (hb : b ∉ Finset.univ.image (Pipeline.arrRef spec3)) :
    VoutL3 (Ix := Ix) (U := U) (Lvl := Lvl) V c b = V c b := by
  unfold VoutL3
  refine Function.update_of_ne (fun e => hb ?_) _ _
  rw [Proc.devRef_injective _ e]
  exact Finset.mem_image.mpr ⟨2, Finset.mem_univ _, rfl⟩

/-! ## The segment record -/

section Region

variable (d0 : (c : Dev nD) → Dat τ (Elt F) Ix ℕ U Lvl (cfgs 0) c)
  (d1 : (c : Dev nD) → Dat τ (Elt F) Ix ℕ U Lvl (cfgs 1) c)
  (d2 : (c : Dev nD) → Dat τ (Elt F) Ix ℕ U Lvl (cfgs 2) c)
  (d4 : (c : Dev nD) → Dat τ (Elt F) Ix ℕ U Lvl (cfgs 4) c)
  (d5 : (c : Dev nD) → Dat τ (Elt F) Ix ℕ U Lvl (cfgs 5) c)
  (d6 : (c : Dev nD) → Dat τ (Elt F) Ix ℕ U Lvl (cfgs 6) c)
  (d7 : (c : Dev nD) → Dat τ (Elt F) Ix ℕ U Lvl (cfgs 7) c)
  (d8 : (c : Dev nD) → Dat τ (Elt F) Ix ℕ U Lvl (cfgs 8) c)

-- a library lemma stated over the pinned configuration unifies with the printed one only when unification may
-- unfold plain definitions in a metavariable's type
set_option backward.isDefEq.respectTransparency.types false in
/-- Pipeline 3 as a segment: entered from every unscoped buffer at `V` beside a rest `E`, left at `VoutL3 V` beside
    `E'`. The rest must hold the generator register at some state and the core owing nothing, beside anything `Er`
    that bypasses the region (`hE`), and the same three make the rest after it (`hE'`). The arrays are split out of the
    unscoped buffers and put back at the exit contents; the generator register goes into the invariant and comes
    back; the kernel has no semaphore of its own. -/
def regionL3 (ι : Ix) (𝒱₀ : Variants) (L : GSem nD τ sig → Finset Ix) (lv : GSem nD τ sig → Ix → Lvl)
    (E E' Er : Dev nD → sProp 𝕄)
    (hE : ∀ c, E c ⊢ iprop((∃ r, prngReg c r) ∗ (∃ W, owes (c : Thread nD τ) (0 : CellTallies nD τ sig Ix) W) ∗ Er c))
    (hE' : ∀ c, iprop((∃ r, prngReg c r) ∗ (∃ W, owes (c : Thread nD τ) (0 : CellTallies nD τ sig Ix) W) ∗ Er c) ⊢ E' c) :
    Pipeline.RegionSeg (pcfgs (F := F)) adm (pdats d0 d1 d2 (datL3 V) d4 d5 d6 d7 d8) ι defs₀ 𝒱₀ L lv 3 where
  win := launch3.win.to₀
  block_pos := launch3.block_pos
  stage_whole := launch3.stage_whole
  K := PEmpty
  osem k := k.elim
  ho := Pipeline.OwnSemFacts.none _
  hbody c := body_obligationL3 V 𝒱₀ ι c
  hwaits := Pipeline.hwaits_of_owed_zero _ _ _ _ L lv 3 fun _ _ => rfl
  pre c := iprop(StableHlo.held (c : Thread nD τ) (Pipeline.ucRefs τ sig) (V c) ∗ E c)
  post c := iprop(StableHlo.held (c : Thread nD τ) (Pipeline.ucRefs τ sig) (VoutL3 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec3 c (fun b => V c b) ∗ Er c)
  hentry c := by
    rw [Pipeline.ownSems0_none]
    have hsplit := Pipeline.arrays_of_unscopedBufs (p := 3) (pcfgs (F := F)) adm (pdats d0 d1 d2 (datL3 V) d4 d5 d6 d7 d8) launch3.win launch3.arr_whole c
      ((pdats d0 d1 d2 (datL3 V) d4 d5 d6 d7 d8 3 c).share_full fun _ => rfl) (fun b => V c b) fun _ => rfl
    rw [Pipeline.unscopedBufs_held] at hsplit
    iintro ⟨⟨Hub, HE⟩, -, -⟩
    ihave HE2 := hE c $$ HE
    icases HE2 with ⟨Hp, HO, Hr⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hr
  hin c := by
    rw [show (pdats d0 d1 d2 (datL3 V) d4 d5 d6 d7 d8 3 c).Φ 0 = ΦL3 c from rfl]; unfold ΦL3
    iintro ⟨Hp, -, Hr⟩
    isplitl [Hr]; · iexact Hr
    iexact Hp
  hout c := by
    rw [Pipeline.ownSems0_none, show (pdats d0 d1 d2 (datL3 V) d4 d5 d6 d7 d8 3 c).Φ (Fin.last _) = ΦL3 c from rfl]; unfold ΦL3
    iintro ⟨Hr, Hp⟩
    isplitl [Hp]; · iexact Hp
    isplitr; · iempintro
    iexact Hr
  hexit c := by
    have hjoin := Pipeline.unscopedBufs_of_arrays (p := 3) (pcfgs (F := F)) adm (Ix := Ix) (Name := ℕ) (U := U) (Lvl := Lvl)
      launch3.win launch3.arr_whole c (pdats d0 d1 d2 (datL3 V) d4 d5 d6 d7 d8) ((pdats d0 d1 d2 (datL3 V) d4 d5 d6 d7 d8 3 c).share_full fun _ => rfl)
      (fun b => V c b) (fun b => VoutL3 (Ix := Ix) (U := U) (Lvl := Lvl) V c b) ((pdats d0 d1 d2 (datL3 V) d4 d5 d6 d7 d8 3 c).arrAt · cfg3.N)
      (hFL3 V c) (hrestL3 V c)
    rw [Pipeline.unscopedBufs_held] at hjoin
    iintro ⟨Ha, HO, HY, Hrest, Hr⟩
    imodintro
    isplitl [Ha Hrest]
    · iapply hjoin; isplitl [Ha] <;> iassumption
    iapply hE' c
    isplitl [HY]; · iexact HY
    isplitl [HO]
    · unfold Pipeline.Dat.owesAt Pipeline.owesWithin
      icases HO with ⟨%W, -, HO⟩; iexists W; iexact HO
    iexact Hr

end Region

end Cert.KernelIdeal.Hand

end
-- ==== Proof.Lin6.lean ====
/- The linear kernel of pipeline 6 (h = x @ W over 25 row blocks of 2048): the windows' blocks, the body's triple, the
   pipeline's proof data at any entry contents, and its body obligation. -/
import proofs.«104867_j4217657884863_1_alg».proof.Proof.Gen.KernelIdeal.Launch
import proofs.«104867_j4217657884863_1_alg».proof.Proof.Gen.KernelIdeal.Skeleton
import proofs.«104867_j4217657884863_1_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 6: h = x @ W, one row block of 2048 per grid point -/

/-! ## The windows' blocks -/

/-- Window `w`'s block at point `t`, read off its array as the region finds it. -/
def iblkL6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row-block input's current staging buffer holds its block at every point, for any proof data whose array is
    the entry contents and whose body leaves the block in place. -/
theorem beforeL6_0_of {c : Dev nD} (dat : Dat τ (Elt F) Ix ℕ U Lvl cfg6 c) (hA : dat.A 0 = V c (Pipeline.arrRef spec6 0))
    (hafter : ∀ t, dat.after 0 t = iblkL6 V c 0 t) (t : Fin cfg6.N) (d) : dat.before 0 t d = iblkL6 V c 0 t :=
  (dat.before_in_eq_fetched 0 rfl (fun _ => rfl) (fun _ _ _ => rfl) (fun t => by rw [hafter]; unfold Dat.blockOf iblkL6; rw [hA]; try rfl) t d).trans
    (by unfold Dat.fetched Dat.blockOf iblkL6; rw [hA]; try rfl)

/-- The weight input's staging buffer holds the weight at every point, fetched there (the first point) or not (its
    block index never moves). -/
theorem beforeL6_1_of {c : Dev nD} (dat : Dat τ (Elt F) Ix ℕ U Lvl cfg6 c) (hA : dat.A 1 = V c (Pipeline.arrRef spec6 1))
    (hafter : ∀ t, dat.after 1 t = iblkL6 V c 1 t) (t : Fin cfg6.N) (d) : dat.before 1 t d = iblkL6 V c 1 t :=
  (dat.before_in_eq_fetched 1 rfl (fun _ => rfl) (fun _ _ _ => rfl) (fun t => by rw [hafter]; unfold Dat.blockOf iblkL6; rw [hA]; try rfl) t d).trans
    (by unfold Dat.fetched Dat.blockOf iblkL6; rw [hA]; try rfl)

/-! ## The body's accesses -/

/-- The whole row block, and the whole weight. -/
abbrev rL6_x : Rect S2048x64 := Rect.unit (s := S2048x64) ![0, 0] S2048x64.size inb_S2048x64_S2048x64_0_0
abbrev rL6_w : Rect S64x64 := Rect.unit (s := S64x64) ![0, 0] S64x64.size inb_S64x64_S64x64_0_0

/-! ## What the body leaves in the output window's buffer -/

/-- The output's staging buffer after the body, from the two input blocks: its one store, of the whole block — the
    product of the row block and the weight, both rounded to bf16, accumulated from zero. -/
def outL6 (x0 : Vec F S2048x64 .f32) (x1 : Vec F S64x64 .f32) : Vec F S2048x64 .f32 :=
  View.canon [⟨rL6_x, k6_pay1 (View.ld x0 rL6_x) (View.ld x1 rL6_w)⟩]

/-- The one store covers the buffer. -/
theorem coverL6 (p0 : Vec F S2048x64 .f32) (y : S2048x64.Idx) :
    ∃ pc ∈ ([⟨rL6_x, p0⟩] : List (View.Piece (Elt F) S2048x64 .f32)), y ∈ pc.1.set :=
  View.cover_of_tiled [⟨rL6_x, p0⟩] S2048x64.size (by rfl) y

/-! ## The body's triple -/

set_option maxHeartbeats 1000000 in
/-- The kernel body on whole staging memrefs, the inputs' at contents `x0`, `x1` and the output's at anything, runs to
    the continuation holding the inputs' as they were and the output's at `outL6 x0 x1`. -/
theorem sound_kernelL6 (𝒱₀ : Variants) (c : Dev nD) (E : Set ℕ) (i : grid6.Coords)
    (arg1 : Memref sig .tc .vmem S2048x64 .f32) (harg1 : arg1.IsWhole)
    (arg2 : Memref sig .tc .vmem S64x64 .f32) (harg2 : arg2.IsWhole)
    (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outL6 x0 x1)) -∗ K ⟨⟩))
      ⊢ wp frame (wpE (defs₀ (F := F)) 𝒱₀ c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverL6 _)

/-! ## The pipeline's proof data -/

/-- The region's invariant: the core's scoped buffers no window stages, at some contents each, and its generator
    register at some state — the body uses neither. -/
def ΦL6 (c : Dev nD) : sProp 𝕄 :=
  iprop(Pipeline.scopedRest (Ix := Ix) (Name := ℕ) (U := U) (Lvl := Lvl) (Val := Elt F) spec6 c ∗ ∃ r, prngReg c r)

/-- The proof data of pipeline 6 on core `c`: the arrays as the region finds them (`V`); after the body at point `t`
    each input's buffer at its block and the output's at the product of the two; the invariant above; nothing owed;
    full shares. -/
def datL6 (c : Dev nD) : Dat τ (Elt F) Ix ℕ U Lvl cfg6 c where
  A w := V c (Pipeline.arrRef spec6 w)
  after w t := match w with
    | ⟨0, _⟩ => iblkL6 V c 0 t
    | ⟨1, _⟩ => iblkL6 V c 1 t
    | ⟨2, _⟩ => outL6 (iblkL6 V c 0 t) (iblkL6 V c 1 t)
  Φ _ := ΦL6 c
  q _ := fullShare
  owed _ := 0

/-- The proof data's arrays are the region-entry contents. -/
theorem A_eqL6 (c : Dev nD) (w : Fin cfg6.W) : (datL6 (Ix := Ix) (U := U) (Lvl := Lvl) V c).A w = V c (Pipeline.arrRef spec6 w) := by
  dsimp only [datL6]

/-- What the body leaves, window by window. -/
theorem afterL6_0 (c : Dev nD) (t : Fin cfg6.N) : (datL6 (Ix := Ix) (U := U) (Lvl := Lvl) V c).after 0 t = iblkL6 V c 0 t := by dsimp only [datL6]
theorem afterL6_1 (c : Dev nD) (t : Fin cfg6.N) : (datL6 (Ix := Ix) (U := U) (Lvl := Lvl) V c).after 1 t = iblkL6 V c 1 t := by dsimp only [datL6]
theorem afterL6_2 (c : Dev nD) (t : Fin cfg6.N) :
    (datL6 (Ix := Ix) (U := U) (Lvl := Lvl) V c).after 2 t = outL6 (iblkL6 V c 0 t) (iblkL6 V c 1 t) := by dsimp only [datL6]

/-- Each input's current staging buffer holds its block at every point, fetched there or not. -/
theorem beforeL6_0 (c : Dev nD) (t : Fin cfg6.N) (d) : (datL6 (Ix := Ix) (U := U) (Lvl := Lvl) V c).before 0 t d = iblkL6 V c 0 t :=
  beforeL6_0_of V (datL6 (Ix := Ix) (U := U) (Lvl := Lvl) V c) (A_eqL6 V c 0) (afterL6_0 V c) t d
theorem beforeL6_1 (c : Dev nD) (t : Fin cfg6.N) (d) : (datL6 (Ix := Ix) (U := U) (Lvl := Lvl) V c).before 1 t d = iblkL6 V c 1 t :=
  beforeL6_1_of V (datL6 (Ix := Ix) (U := U) (Lvl := Lvl) V c) (A_eqL6 V c 1) (afterL6_1 V c) t d

/-! ## The body obligation, at a generic point -/

/-- What the body is called with at point `t`, the windows one by one, -/
def bodyPreL6 (ι : Ix) (c : Dev nD) (t : Fin cfg6.N) : sProp 𝕄 :=
  iprop((datL6 (Ix := Ix) (U := U) (Lvl := Lvl) V c).Φ t.castSucc ∗ (datL6 (Ix := Ix) (U := U) (Lvl := Lvl) V c).owesAt ι t.castSucc
    ∗ (∃ d, owns (c : Thread nD τ) (st6_0 t) fullShare ((datL6 (Ix := Ix) (U := U) (Lvl := Lvl) V c).before 0 t d))
    ∗ (∃ d, owns (c : Thread nD τ) (st6_1 t) fullShare ((datL6 (Ix := Ix) (U := U) (Lvl := Lvl) V c).before 1 t d))
    ∗ (∃ d, owns (c : Thread nD τ) (st6_2 t) fullShare ((datL6 (Ix := Ix) (U := U) (Lvl := Lvl) V c).before 2 t d)))

/-- and what it returns. -/
def bodyPostL6 (ι : Ix) (c : Dev nD) (t : Fin cfg6.N) : sProp 𝕄 :=
  iprop((datL6 (Ix := Ix) (U := U) (Lvl := Lvl) V c).Φ t.succ ∗ (datL6 (Ix := Ix) (U := U) (Lvl := Lvl) V c).owesAt ι t.succ
    ∗ owns (c : Thread nD τ) (st6_0 t) fullShare ((datL6 (Ix := Ix) (U := U) (Lvl := Lvl) V c).after 0 t)
    ∗ owns (c : Thread nD τ) (st6_1 t) fullShare ((datL6 (Ix := Ix) (U := U) (Lvl := Lvl) V c).after 1 t)
    ∗ owns (c : Thread nD τ) (st6_2 t) fullShare ((datL6 (Ix := Ix) (U := U) (Lvl := Lvl) V c).after 2 t))

/-- The body at any point: the inputs' memrefs hold their blocks, so the triple applies; the invariant and the core's
    `owes` pass through unread. -/
theorem sound_bodyL6 (𝒱₀ : Variants) (ι : Ix) (c : Dev nD) (t : Fin cfg6.N) :
    bodyPreL6 (Ix := Ix) (U := U) (Lvl := Lvl) V ι c t
      ⊢ wp frame (wpE (defs₀ (F := F)) 𝒱₀ c none) Set.univ (bodyAt6 t)
          (fun _ => bodyPostL6 (Ix := Ix) (U := U) (Lvl := Lvl) V ι c t) := by
  unfold bodyPreL6 bodyPostL6 bodyAt6
  simp only [beforeL6_0, beforeL6_1]
  rw [show (datL6 (Ix := Ix) (U := U) (Lvl := Lvl) V c).Φ t.succ = (datL6 (Ix := Ix) (U := U) (Lvl := Lvl) V c).Φ t.castSucc from rfl,
    show (datL6 (Ix := Ix) (U := U) (Lvl := Lvl) V c).owesAt ι t.succ = (datL6 (Ix := Ix) (U := U) (Lvl := Lvl) V c).owesAt ι t.castSucc from rfl,
    afterL6_0, afterL6_1, afterL6_2]
  iintro ⟨HΦ, Ho, ⟨%d0, H0⟩, ⟨%d1, H1⟩, ⟨%d2, H2⟩⟩
  iapply (sound_kernelL6 𝒱₀ c Set.univ (grid6.coords t) _ _ _ _ _ _ (iblkL6 V c 0 t) (iblkL6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligationL6_exact (𝒱₀ : Variants) (ι : Ix) (c : Dev nD) :
    BodyObligation (datL6 (Ix := Ix) (U := U) (Lvl := Lvl) V c) (defs₀ (F := F)) 𝒱₀ ι Set.univ := fun t => by
  rw [bigSep_W6, bigSep_W6]
  exact sound_bodyL6 V 𝒱₀ ι c t

/-- and as the loop uses it. -/
theorem body_obligationL6 (𝒱₀ : Variants) (ι : Ix) (c : Dev nD) :
    BodyObligationLoose (datL6 (Ix := Ix) (U := U) (Lvl := Lvl) V c) (defs₀ (F := F)) 𝒱₀ ι Set.univ :=
  (body_obligationL6_exact V 𝒱₀ ι c).loose

end Cert.KernelIdeal.Hand

end
-- ==== Proof.LinReg6.lean ====
/- The linear kernel of pipeline 6 as a segment of the program: the buffer contents it leaves and its segment record,
   over the proof data family with the other eight slots arbitrary. -/
import proofs.«104867_j4217657884863_1_alg».proof.Proof.Lin6
import proofs.«104867_j4217657884863_1_alg».proof.Proof.Dats
import proofs.«104867_j4217657884863_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 6 as a segment of the program -/

/-! ## The buffer contents the region leaves -/

/-- The exit contents: the output array at what the write-backs have left after the last point, every other buffer
    as the region found it. -/
def VoutL6 (c : Dev nD) : Valuation τ sig (Elt F) :=
  Function.update (V c) (main_v63 : DevRef τ sig) ((datL6 (Ix := Ix) (U := U) (Lvl := Lvl) V c).arrAt 2 cfg6.N)

theorem ne_outL6_0 : ((main_v62 : Ref sig .tc) : DevRef τ sig) ≠ (main_v63 : Ref sig .tc) :=
  fun e => absurd (Proc.devRef_injective _ e) (by decide)
theorem ne_outL6_1 : ((main_arg7 : Ref sig .tc) : DevRef τ sig) ≠ (main_v63 : Ref sig .tc) :=
  fun e => absurd (Proc.devRef_injective _ e) (by decide)

-- the array references of the printed windows are compared up to unfolding the printed window table
set_option backward.isDefEq.respectTransparency.types false in
/-- At the exit each of the pipeline's arrays holds what the pipeline leaves: the inputs what they held, the output
    its write-backs; -/
theorem hFL6 (c : Dev nD) (w : Fin cfg6.W) :
    (datL6 (Ix := Ix) (U := U) (Lvl := Lvl) V c).arrAt w cfg6.N = VoutL6 (Ix := Ix) (U := U) (Lvl := Lvl) V c (Pipeline.arrRef spec6 w) := by
  match w with
  | ⟨0, _⟩ =>
    exact ((datL6 (Ix := Ix) (U := U) (Lvl := Lvl) V c).arrAt_in _ rfl _).trans
      (Function.update_of_ne (β := fun b : DevRef τ sig => b.ty.Contents (Elt F)) ne_outL6_0 _ (V c)).symm
  | ⟨1, _⟩ =>
    exact ((datL6 (Ix := Ix) (U := U) (Lvl := Lvl) V c).arrAt_in _ rfl _).trans
      (Function.update_of_ne (β := fun b : DevRef τ sig => b.ty.Contents (Elt F)) ne_outL6_1 _ (V c)).symm
  | ⟨2, _⟩ =>
    show (datL6 (Ix := Ix) (U := U) (Lvl := Lvl) V c).arrAt 2 cfg6.N
      = Function.update (V c) (main_v63 : DevRef τ sig) ((datL6 (Ix := Ix) (U := U) (Lvl := Lvl) V c).arrAt 2 cfg6.N) (main_v63 : DevRef τ sig)
    exact (Function.update_self (β := fun b : DevRef τ sig => b.ty.Contents (Elt F)) (main_v63 : DevRef τ sig) _ (V c)).symm

/-- and every other buffer what it held at entry. -/
theorem hrestL6 (c : Dev nD) (b : Ref sig .tc) (hb : b ∉ Finset.univ.image (Pipeline.arrRef spec6)) :
    VoutL6 (Ix := Ix) (U := U) (Lvl := Lvl) V c b = V c b := by
  unfold VoutL6
  refine Function.update_of_ne (fun e => hb ?_) _ _
  rw [Proc.devRef_injective _ e]
  exact Finset.mem_image.mpr ⟨2, Finset.mem_univ _, rfl⟩

/-! ## The segment record -/

section Region

variable (d0 : (c : Dev nD) → Dat τ (Elt F) Ix ℕ U Lvl (cfgs 0) c)
  (d1 : (c : Dev nD) → Dat τ (Elt F) Ix ℕ U Lvl (cfgs 1) c)
  (d2 : (c : Dev nD) → Dat τ (Elt F) Ix ℕ U Lvl (cfgs 2) c)
  (d3 : (c : Dev nD) → Dat τ (Elt F) Ix ℕ U Lvl (cfgs 3) c)
  (d4 : (c : Dev nD) → Dat τ (Elt F) Ix ℕ U Lvl (cfgs 4) c)
  (d5 : (c : Dev nD) → Dat τ (Elt F) Ix ℕ U Lvl (cfgs 5) c)
  (d7 : (c : Dev nD) → Dat τ (Elt F) Ix ℕ U Lvl (cfgs 7) c)
  (d8 : (c : Dev nD) → Dat τ (Elt F) Ix ℕ U Lvl (cfgs 8) c)

-- a library lemma stated over the pinned configuration unifies with the printed one only when unification may
-- unfold plain definitions in a metavariable's type
set_option backward.isDefEq.respectTransparency.types false in
/-- Pipeline 6 as a segment: entered from every unscoped buffer at `V` beside a rest `E`, left at `VoutL6 V` beside
    `E'`. The rest must hold the generator register at some state and the core owing nothing, beside anything `Er`
    that bypasses the region (`hE`), and the same three make the rest after it (`hE'`). The arrays are split out of the
    unscoped buffers and put back at the exit contents; the generator register goes into the invariant and comes
    back; the kernel has no semaphore of its own. -/
def regionL6 (ι : Ix) (𝒱₀ : Variants) (L : GSem nD τ sig → Finset Ix) (lv : GSem nD τ sig → Ix → Lvl)
    (E E' Er : Dev nD → sProp 𝕄)
    (hE : ∀ c, E c ⊢ iprop((∃ r, prngReg c r) ∗ (∃ W, owes (c : Thread nD τ) (0 : CellTallies nD τ sig Ix) W) ∗ Er c))
    (hE' : ∀ c, iprop((∃ r, prngReg c r) ∗ (∃ W, owes (c : Thread nD τ) (0 : CellTallies nD τ sig Ix) W) ∗ Er c) ⊢ E' c) :
    Pipeline.RegionSeg (pcfgs (F := F)) adm (pdats d0 d1 d2 d3 d4 d5 (datL6 V) d7 d8) ι defs₀ 𝒱₀ L lv 6 where
  win := launch6.win.to₀
  block_pos := launch6.block_pos
  stage_whole := launch6.stage_whole
  K := PEmpty
  osem k := k.elim
  ho := Pipeline.OwnSemFacts.none _
  hbody c := body_obligationL6 V 𝒱₀ ι c
  hwaits := Pipeline.hwaits_of_owed_zero _ _ _ _ L lv 6 fun _ _ => rfl
  pre c := iprop(StableHlo.held (c : Thread nD τ) (Pipeline.ucRefs τ sig) (V c) ∗ E c)
  post c := iprop(StableHlo.held (c : Thread nD τ) (Pipeline.ucRefs τ sig) (VoutL6 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec6 c (fun b => V c b) ∗ Er c)
  hentry c := by
    rw [Pipeline.ownSems0_none]
    have hsplit := Pipeline.arrays_of_unscopedBufs (p := 6) (pcfgs (F := F)) adm (pdats d0 d1 d2 d3 d4 d5 (datL6 V) d7 d8) launch6.win launch6.arr_whole c
      ((pdats d0 d1 d2 d3 d4 d5 (datL6 V) d7 d8 6 c).share_full fun _ => rfl) (fun b => V c b) fun _ => rfl
    rw [Pipeline.unscopedBufs_held] at hsplit
    iintro ⟨⟨Hub, HE⟩, -, -⟩
    ihave HE2 := hE c $$ HE
    icases HE2 with ⟨Hp, HO, Hr⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hr
  hin c := by
    rw [show (pdats d0 d1 d2 d3 d4 d5 (datL6 V) d7 d8 6 c).Φ 0 = ΦL6 c from rfl]; unfold ΦL6
    iintro ⟨Hp, -, Hr⟩
    isplitl [Hr]; · iexact Hr
    iexact Hp
  hout c := by
    rw [Pipeline.ownSems0_none, show (pdats d0 d1 d2 d3 d4 d5 (datL6 V) d7 d8 6 c).Φ (Fin.last _) = ΦL6 c from rfl]; unfold ΦL6
    iintro ⟨Hr, Hp⟩
    isplitl [Hp]; · iexact Hp
    isplitr; · iempintro
    iexact Hr
  hexit c := by
    have hjoin := Pipeline.unscopedBufs_of_arrays (p := 6) (pcfgs (F := F)) adm (Ix := Ix) (Name := ℕ) (U := U) (Lvl := Lvl)
      launch6.win launch6.arr_whole c (pdats d0 d1 d2 d3 d4 d5 (datL6 V) d7 d8) ((pdats d0 d1 d2 d3 d4 d5 (datL6 V) d7 d8 6 c).share_full fun _ => rfl)
      (fun b => V c b) (fun b => VoutL6 (Ix := Ix) (U := U) (Lvl := Lvl) V c b) ((pdats d0 d1 d2 d3 d4 d5 (datL6 V) d7 d8 6 c).arrAt · cfg6.N)
      (hFL6 V c) (hrestL6 V c)
    rw [Pipeline.unscopedBufs_held] at hjoin
    iintro ⟨Ha, HO, HY, Hrest, Hr⟩
    imodintro
    isplitl [Ha Hrest]
    · iapply hjoin; isplitl [Ha] <;> iassumption
    iapply hE' c
    isplitl [HY]; · iexact HY
    isplitl [HO]
    · unfold Pipeline.Dat.owesAt Pipeline.owesWithin
      icases HO with ⟨%W, -, HO⟩; iexists W; iexact HO
    iexact Hr

end Region

end Cert.KernelIdeal.Hand

end
-- ==== Proof.RunCond.lean ====
/-
  The kernel program's run with its RESULT in the post.

  @main is eleven host stretches, then per layer three kernel regions and two host stretches, then the pooling
  stretches. Between two items a core holds every unscoped buffer whole at a valuation: the launch contents, then
  each host stretch applied, then at each region its one output array replaced by whatever that region leaves. The
  theorem here runs the whole list from one segment record per region and reads, off the last valuation, both the
  result buffer and the eleven arguments. What the regions leave is a parameter; the value of the result as a
  function of the arguments is obtained afterwards by substituting the regions' output arrays.
-/
import proofs.«104867_j4217657884863_1_alg».proof.Proof.Gen.KernelIdeal.Regions

set_option maxRecDepth 1352

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- The run of @main with its result named. For any rest states the launch makes on every core and that end owing
    nothing, any contents the nine regions leave in their output arrays (`outs`) and any proof data: given each region's
    segment record entered from the thread state before it and left at the one after it, every weakly fair execution of
    @main terminates, its result buffer holds what the last host stretch computes from those contents (the last valuation
    read at the result), and every argument is as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V11 m c) ∗ E 0 c) ⊢ R0.pre c)
    (hpost0 : ∀ c : Dev nD, R0.post c ⊢ iprop(StableHlo.held (c : Thread nD τ) (Pipeline.ucRefs τ sig) (V12 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V12 m outs c) ∗ E 1 c) ⊢ R1.pre c)
    (hpost1 : ∀ c : Dev nD, R1.post c ⊢ iprop(StableHlo.held (c : Thread nD τ) (Pipeline.ucRefs τ sig) (V13 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V16 m outs c) ∗ E 3 c) ⊢ R3.pre c)
    (hpost3 : ∀ c : Dev nD, R3.post c ⊢ iprop(StableHlo.held (c : Thread nD τ) (Pipeline.ucRefs τ sig) (V17 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V18 m outs c) ∗ E 5 c) ⊢ R5.pre c)
    (hpost5 : ∀ c : Dev nD, R5.post c ⊢ iprop(StableHlo.held (c : Thread nD τ) (Pipeline.ucRefs τ sig) (V19 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V21 m outs c) ∗ E 6 c) ⊢ R6.pre c)
    (hpost6 : ∀ c : Dev nD, R6.post c ⊢ iprop(StableHlo.held (c : Thread nD τ) (Pipeline.ucRefs τ sig) (V22 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V22 m outs c) ∗ E 7 c) ⊢ R7.pre c)
    (hpost7 : ∀ c : Dev nD, R7.post c ⊢ iprop(StableHlo.held (c : Thread nD τ) (Pipeline.ucRefs τ sig) (V23 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c)) :
    θ_run defs (onTc (τ := τ) (main (F := F))) ⟨m, fun _ => 0, ρ⟩ (fun r => ∀ c : Dev nD,
      r.2.mem ((c.tc : Thread nD τ).loc main_v99) = V29 m outs c main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          Prog.lift (.customCall (Pipeline.entry 2) ()),
          StableHlo.seq hostOps3,
          StableHlo.seq hostOps3_1,
          Prog.lift (.customCall (Pipeline.entry 3) ()),
          Prog.lift (.customCall (Pipeline.entry 4) ()),
          Prog.lift (.customCall (Pipeline.entry 5) ()),
          StableHlo.seq hostOps6,
          StableHlo.seq hostOps6_1,
          Prog.lift (.customCall (Pipeline.entry 6) ()),
          Prog.lift (.customCall (Pipeline.entry 7) ()),
          Prog.lift (.customCall (Pipeline.entry 8) ()),
          StableHlo.seq hostOps9,
          StableHlo.seq hostOps9_1,
          StableHlo.seq hostOps9_2,
          StableHlo.seq hostOps9_3,
          StableHlo.seq hostOps9_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, .rfl, .rfl, .rfl, .rfl, .rfl, .rfl, .rfl, .rfl, .rfl, .rfl, hpre0 c, (hpost0 c).trans (hpre1 c), (hpost1 c).trans (hpre2 c), hpost2 c, .rfl, hpre3 c, (hpost3 c).trans (hpre4 c), (hpost4 c).trans (hpre5 c), hpost5 c, .rfl, hpre6 c, (hpost6 c).trans (hpre7 c), (hpost7 c).trans (hpre8 c), hpost8 c, .rfl, .rfl, .rfl, .rfl, sep_mono .rfl (hE9 c)⟩)
    (hinit := ?_) (QY := fun c s => s.mem ((c.tc : Thread nD τ).loc main_v99) = V29 m outs c main_v99 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V29 m outs c) s') $$ [Hh HSI]
    · isplitl [Hh] <;> iassumption
    icases Hr with ⟨%h, HSI⟩
    imodintro
    isplitr
    · ipureintro
      exact ⟨h (Proc.devRef .tc main_v99) (Finset.mem_filter.mpr ⟨StableHlo.devRef_mem_tcRefs main_v99, by decide⟩),
        (h (Proc.devRef .tc main_arg0) (Finset.mem_filter.mpr ⟨StableHlo.devRef_mem_tcRefs main_arg0, by decide⟩)).trans (V29_main_arg0 m outs c),
        (h (Proc.devRef .tc main_arg1) (Finset.mem_filter.mpr ⟨StableHlo.devRef_mem_tcRefs main_arg1, by decide⟩)).trans (V29_main_arg1 m outs c),
        (h (Proc.devRef .tc main_arg2) (Finset.mem_filter.mpr ⟨StableHlo.devRef_mem_tcRefs main_arg2, by decide⟩)).trans (V29_main_arg2 m outs c),
        (h (Proc.devRef .tc main_arg3) (Finset.mem_filter.mpr ⟨StableHlo.devRef_mem_tcRefs main_arg3, by decide⟩)).trans (V29_main_arg3 m outs c),
        (h (Proc.devRef .tc main_arg4) (Finset.mem_filter.mpr ⟨StableHlo.devRef_mem_tcRefs main_arg4, by decide⟩)).trans (V29_main_arg4 m outs c),
        (h (Proc.devRef .tc main_arg5) (Finset.mem_filter.mpr ⟨StableHlo.devRef_mem_tcRefs main_arg5, by decide⟩)).trans (V29_main_arg5 m outs c),
        (h (Proc.devRef .tc main_arg6) (Finset.mem_filter.mpr ⟨StableHlo.devRef_mem_tcRefs main_arg6, by decide⟩)).trans (V29_main_arg6 m outs c),
        (h (Proc.devRef .tc main_arg7) (Finset.mem_filter.mpr ⟨StableHlo.devRef_mem_tcRefs main_arg7, by decide⟩)).trans (V29_main_arg7 m outs c),
        (h (Proc.devRef .tc main_arg8) (Finset.mem_filter.mpr ⟨StableHlo.devRef_mem_tcRefs main_arg8, by decide⟩)).trans (V29_main_arg8 m outs c),
        (h (Proc.devRef .tc main_arg9) (Finset.mem_filter.mpr ⟨StableHlo.devRef_mem_tcRefs main_arg9, by decide⟩)).trans (V29_main_arg9 m outs c),
        (h (Proc.devRef .tc main_arg10) (Finset.mem_filter.mpr ⟨StableHlo.devRef_mem_tcRefs main_arg10, by decide⟩)).trans (V29_main_arg10 m outs c)⟩
    · iexact HSI

end Cert.KernelIdeal.Hand

end
-- ==== Proof.FrameAll.lean ====
/- The launch of the whole program. The buffer contents between the items of @main as a fold from the launch memory:
   each host stretch applied, each kernel region's one output array replaced by what that region's write-backs leave;
   the contents the regions leave as one function of the item and the reference; the user algebra, the level
   assignment and the rest state that rides through every item; and the program's run from one segment record per
   kernel region — the three matrix-product regions' supplied here, the other six taken as hypotheses, each entered
   from the contents before it and left at the contents after it. -/
import proofs.«104867_j4217657884863_1_alg».proof.Proof.LinReg0
import proofs.«104867_j4217657884863_1_alg».proof.Proof.LinReg3
import proofs.«104867_j4217657884863_1_alg».proof.Proof.LinReg6
import proofs.«104867_j4217657884863_1_alg».proof.Proof.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)
variable (d1 : (c : Dev nD) → Dat τ (Elt F) Unit ℕ (UR sig nD τ) ℕ cfg1 c)
  (d2 : (c : Dev nD) → Dat τ (Elt F) Unit ℕ (UR sig nD τ) ℕ cfg2 c)
  (d4 : (c : Dev nD) → Dat τ (Elt F) Unit ℕ (UR sig nD τ) ℕ cfg4 c)
  (d5 : (c : Dev nD) → Dat τ (Elt F) Unit ℕ (UR sig nD τ) ℕ cfg5 c)
  (d7 : (c : Dev nD) → Dat τ (Elt F) Unit ℕ (UR sig nD τ) ℕ cfg7 c)
  (d8 : (c : Dev nD) → Dat τ (Elt F) Unit ℕ (UR sig nD τ) ℕ cfg8 c)

/-! ## The buffer contents between the items -/

/-- After the first matrix-product region: its output array at what its write-backs leave. -/
def W12 (c : Dev nD) : Valuation τ sig (Elt F) := VoutL0 (Ix := Unit) (U := UR sig nD τ) (Lvl := ℕ) (V11 m) c
/-- After the first gather region, -/
def W13 (c : Dev nD) : Valuation τ sig (Elt F) := Function.update (W12 m c) (main_v42 : DevRef τ sig) ((d1 c).arrAt 3 cfg1.N)
/-- the first scatter region, -/
def W14 (c : Dev nD) : Valuation τ sig (Elt F) := Function.update (W13 m d1 c) (main_v43 : DevRef τ sig) ((d2 c).arrAt 2 cfg2.N)
/-- and the two host stretches that close the first layer. -/
def W16 (c : Dev nD) : Valuation τ sig (Elt F) := StableHlo.after hostOps3_1 (StableHlo.after hostOps3 (W14 m d1 d2 c))
/-- The second layer, the same four steps. -/
def W17 (c : Dev nD) : Valuation τ sig (Elt F) := VoutL3 (Ix := Unit) (U := UR sig nD τ) (Lvl := ℕ) (W16 m d1 d2) c
def W18 (c : Dev nD) : Valuation τ sig (Elt F) := Function.update (W17 m d1 d2 c) (main_v53 : DevRef τ sig) ((d4 c).arrAt 3 cfg4.N)
def W19 (c : Dev nD) : Valuation τ sig (Elt F) := Function.update (W18 m d1 d2 d4 c) (main_v54 : DevRef τ sig) ((d5 c).arrAt 2 cfg5.N)
def W21 (c : Dev nD) : Valuation τ sig (Elt F) := StableHlo.after hostOps6_1 (StableHlo.after hostOps6 (W19 m d1 d2 d4 d5 c))
/-- The third layer, -/
def W22 (c : Dev nD) : Valuation τ sig (Elt F) := VoutL6 (Ix := Unit) (U := UR sig nD τ) (Lvl := ℕ) (W21 m d1 d2 d4 d5) c
def W23 (c : Dev nD) : Valuation τ sig (Elt F) := Function.update (W22 m d1 d2 d4 d5 c) (main_v64 : DevRef τ sig) ((d7 c).arrAt 3 cfg7.N)
def W24 (c : Dev nD) : Valuation τ sig (Elt F) := Function.update (W23 m d1 d2 d4 d5 d7 c) (main_v65 : DevRef τ sig) ((d8 c).arrAt 2 cfg8.N)
/-- and the five host stretches after it: the contents at the return. -/
def W29 (c : Dev nD) : Valuation τ sig (Elt F) :=
  StableHlo.after hostOps9_4 (StableHlo.after hostOps9_3 (StableHlo.after hostOps9_2 (StableHlo.after hostOps9_1
    (StableHlo.after hostOps9 (W24 m d1 d2 d4 d5 d7 d8 c)))))

/-- What the regions leave, as one function of the item and the reference: after a region, the contents above read
    at the reference; anywhere else (never read) the launch contents. -/
def outsAll : Outs (F := F) := fun J r c =>
  match J with
  | 12 => (W12 m c) r
  | 13 => (W13 m d1 c) r
  | 14 => (W14 m d1 d2 c) r
  | 17 => (W17 m d1 d2 c) r
  | 18 => (W18 m d1 d2 d4 c) r
  | 19 => (W19 m d1 d2 d4 d5 c) r
  | 22 => (W22 m d1 d2 d4 d5 c) r
  | 23 => (W23 m d1 d2 d4 d5 d7 c) r
  | 24 => (W24 m d1 d2 d4 d5 d7 d8 c) r
  | _ => m ((c : Thread nD τ).loc r)

/-- Replacing a buffer by what a replacement of it already holds there changes nothing more. -/
theorem update_update_self {β : DevRef τ sig → Type} (f : ∀ b, β b) (a : DevRef τ sig) (x : β a) :
    Function.update f a (Function.update f a x a) = Function.update f a x := by rw [Function.update_self]

/-! ## The generated valuations at these contents are the fold above -/

section Fold
-- the contents at a reference are compared up to unfolding the fold's definitions
set_option backward.isDefEq.respectTransparency.types false

theorem V12_eq (c : Dev nD) : V12 m (outsAll m d1 d2 d4 d5 d7 d8) c = (W12 m c) := by
  show Function.update (V11 m c) (main_v41 : DevRef τ sig) ((W12 m c) main_v41) = _
  exact update_update_self (V11 m c) (main_v41 : DevRef τ sig) ((datL0 (Ix := Unit) (U := UR sig nD τ) (Lvl := ℕ) (V11 m) c).arrAt 2 cfg0.N)
theorem V13_eq (c : Dev nD) : V13 m (outsAll m d1 d2 d4 d5 d7 d8) c = (W13 m d1 c) := by
  show Function.update (V12 m (outsAll m d1 d2 d4 d5 d7 d8) c) (main_v42 : DevRef τ sig) ((W13 m d1 c) main_v42) = _
  rw [V12_eq]
  exact update_update_self (W12 m c) (main_v42 : DevRef τ sig) ((d1 c).arrAt 3 cfg1.N)
theorem V14_eq (c : Dev nD) : V14 m (outsAll m d1 d2 d4 d5 d7 d8) c = (W14 m d1 d2 c) := by
  show Function.update (V13 m (outsAll m d1 d2 d4 d5 d7 d8) c) (main_v43 : DevRef τ sig) ((W14 m d1 d2 c) main_v43) = _
  rw [V13_eq]
  exact update_update_self (W13 m d1 c) (main_v43 : DevRef τ sig) ((d2 c).arrAt 2 cfg2.N)
theorem V16_eq (c : Dev nD) : V16 m (outsAll m d1 d2 d4 d5 d7 d8) c = (W16 m d1 d2 c) := by
  show StableHlo.after hostOps3_1 (StableHlo.after hostOps3 (V14 m (outsAll m d1 d2 d4 d5 d7 d8) c)) = _
  rw [V14_eq]; rfl
theorem V17_eq (c : Dev nD) : V17 m (outsAll m d1 d2 d4 d5 d7 d8) c = (W17 m d1 d2 c) := by
  show Function.update (V16 m (outsAll m d1 d2 d4 d5 d7 d8) c) (main_v52 : DevRef τ sig) ((W17 m d1 d2 c) main_v52) = _
  rw [V16_eq]
  exact update_update_self (W16 m d1 d2 c) (main_v52 : DevRef τ sig) ((datL3 (Ix := Unit) (U := UR sig nD τ) (Lvl := ℕ) (W16 m d1 d2) c).arrAt 2 cfg3.N)
theorem V18_eq (c : Dev nD) : V18 m (outsAll m d1 d2 d4 d5 d7 d8) c = (W18 m d1 d2 d4 c) := by
  show Function.update (V17 m (outsAll m d1 d2 d4 d5 d7 d8) c) (main_v53 : DevRef τ sig) ((W18 m d1 d2 d4 c) main_v53) = _
  rw [V17_eq]
  exact update_update_self (W17 m d1 d2 c) (main_v53 : DevRef τ sig) ((d4 c).arrAt 3 cfg4.N)
theorem V19_eq (c : Dev nD) : V19 m (outsAll m d1 d2 d4 d5 d7 d8) c = (W19 m d1 d2 d4 d5 c) := by
  show Function.update (V18 m (outsAll m d1 d2 d4 d5 d7 d8) c) (main_v54 : DevRef τ sig) ((W19 m d1 d2 d4 d5 c) main_v54) = _
  rw [V18_eq]
  exact update_update_self (W18 m d1 d2 d4 c) (main_v54 : DevRef τ sig) ((d5 c).arrAt 2 cfg5.N)
theorem V21_eq (c : Dev nD) : V21 m (outsAll m d1 d2 d4 d5 d7 d8) c = (W21 m d1 d2 d4 d5 c) := by
  show StableHlo.after hostOps6_1 (StableHlo.after hostOps6 (V19 m (outsAll m d1 d2 d4 d5 d7 d8) c)) = _
  rw [V19_eq]; rfl
theorem V22_eq (c : Dev nD) : V22 m (outsAll m d1 d2 d4 d5 d7 d8) c = (W22 m d1 d2 d4 d5 c) := by
  show Function.update (V21 m (outsAll m d1 d2 d4 d5 d7 d8) c) (main_v63 : DevRef τ sig) ((W22 m d1 d2 d4 d5 c) main_v63) = _
  rw [V21_eq]
  exact update_update_self (W21 m d1 d2 d4 d5 c) (main_v63 : DevRef τ sig) ((datL6 (Ix := Unit) (U := UR sig nD τ) (Lvl := ℕ) (W21 m d1 d2 d4 d5) c).arrAt 2 cfg6.N)
theorem V23_eq (c : Dev nD) : V23 m (outsAll m d1 d2 d4 d5 d7 d8) c = (W23 m d1 d2 d4 d5 d7 c) := by
  show Function.update (V22 m (outsAll m d1 d2 d4 d5 d7 d8) c) (main_v64 : DevRef τ sig) ((W23 m d1 d2 d4 d5 d7 c) main_v64) = _
  rw [V22_eq]
  exact update_update_self (W22 m d1 d2 d4 d5 c) (main_v64 : DevRef τ sig) ((d7 c).arrAt 3 cfg7.N)
theorem V24_eq (c : Dev nD) : V24 m (outsAll m d1 d2 d4 d5 d7 d8) c = (W24 m d1 d2 d4 d5 d7 d8 c) := by
  show Function.update (V23 m (outsAll m d1 d2 d4 d5 d7 d8) c) (main_v65 : DevRef τ sig) ((W24 m d1 d2 d4 d5 d7 d8 c) main_v65) = _
  rw [V23_eq]
  exact update_update_self (W23 m d1 d2 d4 d5 d7 c) (main_v65 : DevRef τ sig) ((d8 c).arrAt 2 cfg8.N)
theorem V29_eq (c : Dev nD) : V29 m (outsAll m d1 d2 d4 d5 d7 d8) c = (W29 m d1 d2 d4 d5 d7 d8 c) := by
  show StableHlo.after hostOps9_4 (StableHlo.after hostOps9_3 (StableHlo.after hostOps9_2 (StableHlo.after hostOps9_1
    (StableHlo.after hostOps9 (V24 m (outsAll m d1 d2 d4 d5 d7 d8) c))))) = _
  rw [V24_eq]; rfl

end Fold

/-! ## The algebra, the levels, the rest state -/

/-- No core owes another anything: no level is assigned. -/
abbrev Lc : GSem nD τ sig → Finset Unit := fun _ => ∅
abbrev lvc : GSem nD τ sig → Unit → ℕ := fun _ _ => 0

/-- What rides beside the buffers through every item: the core's generator register at some state and the core owing
    nothing. -/
abbrev Ec (c : Dev nD) : sProp 𝕄 :=
  iprop((∃ r, prngReg c r) ∗ (∃ W, owes (c : Thread nD τ) (0 : CellTallies nD τ sig Unit) W) ∗ emp)

/-- The launch element is the pipeline library's own. -/
theorem hu₀_all :
    (ownU (initOf (Pipeline.cells cfgs cellOf_inj) (Pipeline.launchToks cfgs cellOf_inj)) : sProp 𝕄)
      ⊢ |={Set.univ}=> iprop(BI.own ((emb₁ (A := UR sig nD τ) : Emb _ 𝕄) (initOf (Pipeline.cells cfgs cellOf_inj) (Pipeline.launchToks cfgs cellOf_inj)))
          ∗ bigSep Finset.univ fun _ : Dev nD => (iprop(emp) : sProp 𝕄)) := by
  rw [ownU_emb₁]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

/-- What the launch hands a core makes the rest state there: the generator register as launched, nothing owed. -/
theorem hEc_launch (ρ : Dev nD → PrngReg) (c : Dev nD) :
    (iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄)) : sProp 𝕄)
      ⊢ Ec (F := F) c := by
  iintro ⟨-, HO, -, Hp, -⟩
  isplitl [Hp]; · iexists _; iexact Hp
  isplitl [HO]; · iexists ∅; iexact HO
  iempintro

/-- The launch makes the rest state on every core: the generator register as launched, nothing owed. -/
theorem hE0_all (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄))) ∗ levAts Lc lvc)
      ⊢ (|={Set.univ}=> bigSep Finset.univ (fun c : Dev nD => Ec (F := F) c) : sProp 𝕄) := by
  have hmono : (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄)))
      ⊢ (bigSep Finset.univ (fun c : Dev nD => Ec (F := F) c) : sProp 𝕄) :=
    bigSep_mono fun c _ => hEc_launch ρ c
  iintro ⟨H, -⟩
  ihave H' := hmono $$ H
  imodintro
  iexact H'

/-- The rest state ends owing nothing. -/
theorem hE9_all (c : Dev nD) :
    Ec (F := F) c ⊢ (iprop(∃ W, owes (c : Thread nD τ) (0 : CellTallies nD τ sig Unit) W) : sProp 𝕄) := by
  iintro ⟨-, HO, -⟩; iexact HO

/-! ## The run -/

-- the regions' thread states are compared with the generated valuations up to unfolding the fold's definitions
set_option backward.isDefEq.respectTransparency.types false in
/-- THE FRAME of the whole program: given, for each of the six gather and scatter regions, a segment record over the
    proof data family entered from the contents before it and left at the contents after it, every weakly fair
    execution of @main from memory `m` with zero counters terminates and every final memory holds each argument as
    launched. -/
theorem frame_all (ρ : Dev nD → PrngReg)
    (R1 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 1)
    (hpre1 : ∀ c : Dev nD, iprop(StableHlo.held (c : Thread nD τ) (Pipeline.ucRefs τ sig) (W12 m c) ∗ Ec c) ⊢ R1.pre c)
    (hpost1 : ∀ c : Dev nD, R1.post c ⊢ iprop(StableHlo.held (c : Thread nD τ) (Pipeline.ucRefs τ sig) (W13 m d1 c) ∗ Ec c))
    (R2 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 2)
    (hpre2 : ∀ c : Dev nD, iprop(StableHlo.held (c : Thread nD τ) (Pipeline.ucRefs τ sig) (W13 m d1 c) ∗ Ec c) ⊢ R2.pre c)
    (hpost2 : ∀ c : Dev nD, R2.post c ⊢ iprop(StableHlo.held (c : Thread nD τ) (Pipeline.ucRefs τ sig) (W14 m d1 d2 c) ∗ Ec c))
    (R4 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 4)
    (hpre4 : ∀ c : Dev nD, iprop(StableHlo.held (c : Thread nD τ) (Pipeline.ucRefs τ sig) (W17 m d1 d2 c) ∗ Ec c) ⊢ R4.pre c)
    (hpost4 : ∀ c : Dev nD, R4.post c ⊢ iprop(StableHlo.held (c : Thread nD τ) (Pipeline.ucRefs τ sig) (W18 m d1 d2 d4 c) ∗ Ec c))
    (R5 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 5)
    (hpre5 : ∀ c : Dev nD, iprop(StableHlo.held (c : Thread nD τ) (Pipeline.ucRefs τ sig) (W18 m d1 d2 d4 c) ∗ Ec c) ⊢ R5.pre c)
    (hpost5 : ∀ c : Dev nD, R5.post c ⊢ iprop(StableHlo.held (c : Thread nD τ) (Pipeline.ucRefs τ sig) (W19 m d1 d2 d4 d5 c) ∗ Ec c))
    (R7 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 7)
    (hpre7 : ∀ c : Dev nD, iprop(StableHlo.held (c : Thread nD τ) (Pipeline.ucRefs τ sig) (W22 m d1 d2 d4 d5 c) ∗ Ec c) ⊢ R7.pre c)
    (hpost7 : ∀ c : Dev nD, R7.post c ⊢ iprop(StableHlo.held (c : Thread nD τ) (Pipeline.ucRefs τ sig) (W23 m d1 d2 d4 d5 d7 c) ∗ Ec c))
    (R8 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 8)
    (hpre8 : ∀ c : Dev nD, iprop(StableHlo.held (c : Thread nD τ) (Pipeline.ucRefs τ sig) (W23 m d1 d2 d4 d5 d7 c) ∗ Ec c) ⊢ R8.pre c)
    (hpost8 : ∀ c : Dev nD, R8.post c ⊢ iprop(StableHlo.held (c : Thread nD τ) (Pipeline.ucRefs τ sig) (W24 m d1 d2 d4 d5 d7 d8 c) ∗ Ec c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ (A := UR sig nD τ)) () Variants.none Lc lvc (fun _ _ => rfl) ρ (outsAll m d1 d2 d4 d5 d7 d8)
    (pdats (datL0 (Ix := Unit) (U := UR sig nD τ) (Lvl := ℕ) (V11 m)) d1 d2 (datL3 (W16 m d1 d2)) d4 d5 (datL6 (W21 m d1 d2 d4 d5)) d7 d8)
    (fun _ => 0) (fun _ => iprop(emp)) (initOf (Pipeline.cells cfgs cellOf_inj) (Pipeline.launchToks cfgs cellOf_inj)) hu₀_all
    (fun _ => Ec) (hE0_all ρ) (fun c => hE9_all c)
    (regionL0 (V11 m) d1 d2 (datL3 (W16 m d1 d2)) d4 d5 (datL6 (W21 m d1 d2 d4 d5)) d7 d8 () Variants.none Lc lvc Ec Ec (fun _ => iprop(emp)) (fun _ => .rfl) (fun _ => .rfl))
      (fun c => .rfl)
      (fun c => by rw [V12_eq]; exact .rfl)
    R1 (fun c => by rw [V12_eq]; exact hpre1 c) (fun c => by rw [V13_eq]; exact hpost1 c)
    R2 (fun c => by rw [V13_eq]; exact hpre2 c) (fun c => by rw [V14_eq]; exact hpost2 c)
    (regionL3 (W16 m d1 d2) (datL0 (Ix := Unit) (U := UR sig nD τ) (Lvl := ℕ) (V11 m)) d1 d2 d4 d5 (datL6 (W21 m d1 d2 d4 d5)) d7 d8 () Variants.none Lc lvc Ec Ec (fun _ => iprop(emp)) (fun _ => .rfl) (fun _ => .rfl))
      (fun c => by rw [V16_eq]; exact .rfl)
      (fun c => by rw [V17_eq]; exact .rfl)
    R4 (fun c => by rw [V17_eq]; exact hpre4 c) (fun c => by rw [V18_eq]; exact hpost4 c)
    R5 (fun c => by rw [V18_eq]; exact hpre5 c) (fun c => by rw [V19_eq]; exact hpost5 c)
    (regionL6 (W21 m d1 d2 d4 d5) (datL0 (Ix := Unit) (U := UR sig nD τ) (Lvl := ℕ) (V11 m)) d1 d2 (datL3 (W16 m d1 d2)) d4 d5 d7 d8 () Variants.none Lc lvc Ec Ec (fun _ => iprop(emp)) (fun _ => .rfl) (fun _ => .rfl))
      (fun c => by rw [V21_eq]; exact .rfl)
      (fun c => by rw [V22_eq]; exact .rfl)
    R7 (fun c => by rw [V22_eq]; exact hpre7 c) (fun c => by rw [V23_eq]; exact hpost7 c)
    R8 (fun c => by rw [V23_eq]; exact hpre8 c) (fun c => by rw [V24_eq]; exact hpost8 c)

-- as above
set_option backward.isDefEq.respectTransparency.types false in
/-- THE RUN of the whole program, its result named: as `frame_all`, and every final memory holds in the result buffer
    what the last host stretch computes, the contents at the return read at the result. -/
theorem run_all (ρ : Dev nD → PrngReg)
    (R1 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 1)
    (hpre1 : ∀ c : Dev nD, iprop(StableHlo.held (c : Thread nD τ) (Pipeline.ucRefs τ sig) (W12 m c) ∗ Ec c) ⊢ R1.pre c)
    (hpost1 : ∀ c : Dev nD, R1.post c ⊢ iprop(StableHlo.held (c : Thread nD τ) (Pipeline.ucRefs τ sig) (W13 m d1 c) ∗ Ec c))
    (R2 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 2)
    (hpre2 : ∀ c : Dev nD, iprop(StableHlo.held (c : Thread nD τ) (Pipeline.ucRefs τ sig) (W13 m d1 c) ∗ Ec c) ⊢ R2.pre c)
    (hpost2 : ∀ c : Dev nD, R2.post c ⊢ iprop(StableHlo.held (c : Thread nD τ) (Pipeline.ucRefs τ sig) (W14 m d1 d2 c) ∗ Ec c))
    (R4 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 4)
    (hpre4 : ∀ c : Dev nD, iprop(StableHlo.held (c : Thread nD τ) (Pipeline.ucRefs τ sig) (W17 m d1 d2 c) ∗ Ec c) ⊢ R4.pre c)
    (hpost4 : ∀ c : Dev nD, R4.post c ⊢ iprop(StableHlo.held (c : Thread nD τ) (Pipeline.ucRefs τ sig) (W18 m d1 d2 d4 c) ∗ Ec c))
    (R5 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 5)
    (hpre5 : ∀ c : Dev nD, iprop(StableHlo.held (c : Thread nD τ) (Pipeline.ucRefs τ sig) (W18 m d1 d2 d4 c) ∗ Ec c) ⊢ R5.pre c)
    (hpost5 : ∀ c : Dev nD, R5.post c ⊢ iprop(StableHlo.held (c : Thread nD τ) (Pipeline.ucRefs τ sig) (W19 m d1 d2 d4 d5 c) ∗ Ec c))
    (R7 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 7)
    (hpre7 : ∀ c : Dev nD, iprop(StableHlo.held (c : Thread nD τ) (Pipeline.ucRefs τ sig) (W22 m d1 d2 d4 d5 c) ∗ Ec c) ⊢ R7.pre c)
    (hpost7 : ∀ c : Dev nD, R7.post c ⊢ iprop(StableHlo.held (c : Thread nD τ) (Pipeline.ucRefs τ sig) (W23 m d1 d2 d4 d5 d7 c) ∗ Ec c))
    (R8 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 8)
    (hpre8 : ∀ c : Dev nD, iprop(StableHlo.held (c : Thread nD τ) (Pipeline.ucRefs τ sig) (W23 m d1 d2 d4 d5 d7 c) ∗ Ec c) ⊢ R8.pre c)
    (hpost8 : ∀ c : Dev nD, R8.post c ⊢ iprop(StableHlo.held (c : Thread nD τ) (Pipeline.ucRefs τ sig) (W24 m d1 d2 d4 d5 d7 d8 c) ∗ Ec c)) :
    θ_run defs (onTc (τ := τ) (main (F := F))) ⟨m, fun _ => 0, ρ⟩ (fun r => ∀ c : Dev nD,
      r.2.mem ((c.tc : Thread nD τ).loc main_v99) = (W29 m d1 d2 d4 d5 d7 d8 c) main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have h := run_cond m (emb₁ (A := UR sig nD τ)) () Variants.none Lc lvc (fun _ _ => rfl) ρ (outsAll m d1 d2 d4 d5 d7 d8)
    (pdats (datL0 (Ix := Unit) (U := UR sig nD τ) (Lvl := ℕ) (V11 m)) d1 d2 (datL3 (W16 m d1 d2)) d4 d5 (datL6 (W21 m d1 d2 d4 d5)) d7 d8)
    (fun _ => 0) (fun _ => iprop(emp)) (initOf (Pipeline.cells cfgs cellOf_inj) (Pipeline.launchToks cfgs cellOf_inj)) hu₀_all
    (fun _ => Ec) (hE0_all ρ) (fun c => hE9_all c)
    (regionL0 (V11 m) d1 d2 (datL3 (W16 m d1 d2)) d4 d5 (datL6 (W21 m d1 d2 d4 d5)) d7 d8 () Variants.none Lc lvc Ec Ec (fun _ => iprop(emp)) (fun _ => .rfl) (fun _ => .rfl))
      (fun c => .rfl)
      (fun c => by rw [V12_eq]; exact .rfl)
    R1 (fun c => by rw [V12_eq]; exact hpre1 c) (fun c => by rw [V13_eq]; exact hpost1 c)
    R2 (fun c => by rw [V13_eq]; exact hpre2 c) (fun c => by rw [V14_eq]; exact hpost2 c)
    (regionL3 (W16 m d1 d2) (datL0 (Ix := Unit) (U := UR sig nD τ) (Lvl := ℕ) (V11 m)) d1 d2 d4 d5 (datL6 (W21 m d1 d2 d4 d5)) d7 d8 () Variants.none Lc lvc Ec Ec (fun _ => iprop(emp)) (fun _ => .rfl) (fun _ => .rfl))
      (fun c => by rw [V16_eq]; exact .rfl)
      (fun c => by rw [V17_eq]; exact .rfl)
    R4 (fun c => by rw [V17_eq]; exact hpre4 c) (fun c => by rw [V18_eq]; exact hpost4 c)
    R5 (fun c => by rw [V18_eq]; exact hpre5 c) (fun c => by rw [V19_eq]; exact hpost5 c)
    (regionL6 (W21 m d1 d2 d4 d5) (datL0 (Ix := Unit) (U := UR sig nD τ) (Lvl := ℕ) (V11 m)) d1 d2 (datL3 (W16 m d1 d2)) d4 d5 d7 d8 () Variants.none Lc lvc Ec Ec (fun _ => iprop(emp)) (fun _ => .rfl) (fun _ => .rfl))
      (fun c => by rw [V21_eq]; exact .rfl)
      (fun c => by rw [V22_eq]; exact .rfl)
    R7 (fun c => by rw [V22_eq]; exact hpre7 c) (fun c => by rw [V23_eq]; exact hpost7 c)
    R8 (fun c => by rw [V23_eq]; exact hpre8 c) (fun c => by rw [V24_eq]; exact hpost8 c)
  exact OrdCont.mono (θ_run defs (onTc (τ := τ) (main (F := F))) ⟨m, fun _ => 0, ρ⟩)
    (fun r hr c => by have h1 := hr c; rw [V29_eq] at h1; exact h1) h

end Cert.KernelIdeal.Hand

end
-- ==== Proof.G1Dat.lean ====
/-
  The gather kernel of layer 1 (pipeline 1): its proof data.

  The grid is 391 x 25, the second axis fastest: point t has coordinates (t / 25, t % 25). Along the second
  axis the kernel accumulates, in a scratch buffer it keeps between points, the products of a one-hot matrix
  (row r has its one at column src r - 2048 * (t % 25), if that falls in the block) with the block of h the
  point fetches; the accumulator is reset where t % 25 = 0 and, where t % 25 = 24, scaled row by row by the
  norm column and stored into the output block, which the pipeline writes back there and nowhere else.
-/
import proofs.«104867_j4217657884863_1_alg».proof.Proof.Gen.KernelIdeal.Launch
import proofs.«104867_j4217657884863_1_alg».proof.Proof.Gen.KernelIdeal.Skeleton
import Idealize.ShloMosaic.Lib.Pipeline.Frame
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section

variable (V : Dev nD → Valuation τ sig (Elt F))

/-- Window w's block at point t, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The accumulator after the body at point n: one step of the one-hot product added to what the point before
    left, or to zero where the row of the grid begins (n % 25 = 0). -/
def acc1 (c : Dev nD) : (n : ℕ) → n < cfg1.N → Vec F S2048x64 .f32
  | 0, hn => k1_pay2 (grid1.coords ⟨0, hn⟩) (iblk1 V c 1 ⟨0, hn⟩) (iblk1 V c 0 ⟨0, hn⟩) (k1_pay1 (F := F))
  | n + 1, hn =>
    if (n + 1) % 25 = 0 then
      k1_pay2 (grid1.coords ⟨n + 1, hn⟩) (iblk1 V c 1 ⟨n + 1, hn⟩) (iblk1 V c 0 ⟨n + 1, hn⟩) (k1_pay1 (F := F))
    else
      k1_pay2 (grid1.coords ⟨n + 1, hn⟩) (iblk1 V c 1 ⟨n + 1, hn⟩) (iblk1 V c 0 ⟨n + 1, hn⟩) (acc1 c n (Nat.lt_of_succ_lt hn))

/-- The scratch operand: a whole scoped buffer of the kernel's own. -/
abbrev scM1 : Memref sig .tc .vmem S2048x64 .f32 := Memref.whole cc1_scratch0

/-- The invariant before position n: before the first point every scoped buffer that is no staging buffer at
    some contents; afterwards the accumulator's buffer whole at what the point before left, the other such
    buffers at some contents; the generator register at some state throughout. -/
def PhiG1 (c : Dev nD) : (n : ℕ) → n ≤ cfg1.N → sProp 𝕄
  | 0, _ => iprop(Pipeline.scopedRest spec1 c ∗ ∃ r, prngReg c r)
  | n + 1, hn => iprop(owns (c : Thread nD τ) scM1 fullShare (acc1 V c n hn)
      ∗ Pipeline.scopedRestBut spec1 c [cc1_scratch0] ∗ ∃ r, prngReg c r)

/-- The proof data of pipeline 1 on core c: the arrays as the region finds them; after the body each input's
    buffer at its block, the output's at the accumulator scaled by the norm column (consulted only where the
    block is written back, t % 25 = 24); the invariant above; nothing owed; full shares. -/
def datG1 (c : Dev nD) : Dat τ (Elt F) Ix ℕ U Lvl cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiG1 V c t.val (Nat.le_of_lt_succ t.isLt)
  q _ := fullShare
  owed _ := 0

theorem datG1_A (c : Dev nD) (w : Fin cfg1.W) : (datG1 (Ix := Ix) (U := U) (Lvl := Lvl) V c).A w = V c (Pipeline.arrRef spec1 w) := by
  dsimp only [datG1]

theorem after1_0 (c : Dev nD) (t : Fin cfg1.N) : (datG1 (Ix := Ix) (U := U) (Lvl := Lvl) V c).after 0 t = iblk1 V c 0 t := by dsimp only [datG1]
theorem after1_1 (c : Dev nD) (t : Fin cfg1.N) : (datG1 (Ix := Ix) (U := U) (Lvl := Lvl) V c).after 1 t = iblk1 V c 1 t := by dsimp only [datG1]
theorem after1_2 (c : Dev nD) (t : Fin cfg1.N) : (datG1 (Ix := Ix) (U := U) (Lvl := Lvl) V c).after 2 t = iblk1 V c 2 t := by dsimp only [datG1]
theorem after1_3 (c : Dev nD) (t : Fin cfg1.N) :
    (datG1 (Ix := Ix) (U := U) (Lvl := Lvl) V c).after 3 t = k1_pay3 (acc1 V c t.val t.isLt) (iblk1 V c 2 t) := by dsimp only [datG1]

end

end Cert.KernelIdeal.Hand

end
-- ==== Proof.G1Runs.lean ====
/-
  The gather kernel of layer 1 (pipeline 1): the body's three control cases on whole memrefs.

  Three control cases along the second grid axis j = t % 25: the first step (j = 0) resets the accumulator
  before adding into it; a middle step adds; the last step (j = 24) adds and then stores the accumulator,
  scaled row by row by the norm column, into the output block.
-/
import proofs.«104867_j4217657884863_1_alg».proof.Proof.G1Dat
import proofs.«104867_j4217657884863_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions, as functions of the grid point -/

/-- The first conditional's condition: the second coordinate is 0. -/
abbrev cond1_0 (i : grid1.Coords) : Prop :=
  (Scalar.cmpi .ne (Scalar.extui (Scalar.cmpi .eq (BitVec.ofNat 32 (i 1).val) 0#32)) 0#32) = 1#1
/-- The second conditional's condition: the second coordinate is 24. -/
abbrev cond1_1 (i : grid1.Coords) : Prop := k1_cond2 i = 1#1

theorem hz2 : (![0, 0] : Fin 2 → Nat) = fun _ => 0 := by funext a; fin_cases a <;> rfl

section Runs

variable (𝒱₀ : Variants)

set_option maxHeartbeats 1000000 in
/-- A middle step on whole memrefs: the accumulator's buffer at xs is left at one more step added to xs; the
    two blocks it reads are left as they were; the norm column's and the output's buffers are not touched. -/
theorem run1_B (c : Dev nD) (E : Set ℕ) (i : grid1.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond1_0 i) (hc1 : ¬cond1_1 i)
    (x0 : Vec F S2048x64 .f32) (x1 : Vec F S2048x1 .i32) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 i x1 x0 xs)) -∗ K ⟨⟩))
      ⊢ wp frame (wpE (defs₀ (F := F)) 𝒱₀ c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (fun y => ⟨_, List.Mem.head _, View.mem_set_unit_zero hz2 inb_S2048x64_S2048x64_0_0 y⟩), View.canon_unit_zero hz2]
  simp only [View.readAt_eq_ld, harg2.read_unread, harg3.read_unread, harg6.read_unread, View.ld_unit_zero (S := S2048x64) hz2, View.ld_unit_zero (S := S2048x1) hz2]

set_option maxHeartbeats 1000000 in
/-- The first step of a row on whole memrefs: the accumulator's buffer, at anything, is left at one step added
    to zero; the two blocks it reads are left as they were. -/
theorem run1_A (c : Dev nD) (E : Set ℕ) (i : grid1.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : cond1_0 i) (hc1 : ¬cond1_1 i)
    (x0 : Vec F S2048x64 .f32) (x1 : Vec F S2048x1 .i32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 i x1 x0 (k1_pay1 (F := F)))) -∗ K ⟨⟩))
      ⊢ wp frame (wpE (defs₀ (F := F)) 𝒱₀ c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [View.read_writes_eq_canon _ _ _ (fun y => ⟨_, List.Mem.head _, View.mem_set_unit_zero hz2 inb_S2048x64_S2048x64_0_0 y⟩), View.canon_cons_unit_zero hz2]
  simp only [View.readAt_eq_ld, harg2.read_unread, harg3.read_unread, View.ld_unit_zero (S := S2048x64) hz2, View.ld_unit_zero (S := S2048x1) hz2, View.readCov_unit_zero (S := S2048x64) _ hz2]

set_option maxHeartbeats 1000000 in
/-- The last step of a row on whole memrefs: the accumulator's buffer at xs is left at one more step added to
    xs, and the output's buffer, at anything, at that scaled row by row by the norm column; the three blocks it
    reads are left as they were. -/
theorem run1_C (c : Dev nD) (E : Set ℕ) (i : grid1.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond1_0 i) (hc1 : cond1_1 i)
    (x0 : Vec F S2048x64 .f32) (x1 : Vec F S2048x1 .i32) (x2 : Vec F S2048x1 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 i x1 x0 xs) x2)
            ∗ owns (c : Thread nD τ) arg6 fullShare (k1_pay2 i x1 x0 xs)) -∗ K ⟨⟩))
      ⊢ wp frame (wpE (defs₀ (F := F)) 𝒱₀ c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.Mem.head _, View.mem_set_unit_zero hz2 inb_S2048x64_S2048x64_0_0 y⟩), View.canon_unit_zero hz2]
    simp only [View.readAt_eq_ld, harg2.read_unread, harg3.read_unread, harg4.read_unread, harg6.read_unread, View.ld_unit_zero (S := S2048x64) hz2, View.ld_unit_zero (S := S2048x1) hz2, View.readCov_unit_zero (S := S2048x64) _ hz2]
  iexists _; isplitr
  swap; · iexact HS
  ipureintro
  sl_unfold_run_names
  rw [View.read_writes_eq_canon _ _ _ (fun y => ⟨_, List.Mem.head _, View.mem_set_unit_zero hz2 inb_S2048x64_S2048x64_0_0 y⟩), View.canon_unit_zero hz2]
  simp only [View.readAt_eq_ld, harg2.read_unread, harg3.read_unread, harg6.read_unread, View.ld_unit_zero (S := S2048x64) hz2, View.ld_unit_zero (S := S2048x1) hz2]

end Runs

end Cert.KernelIdeal.Hand

end
-- ==== Proof.G1Body.lean ====
/-
  The gather kernel of layer 1 (pipeline 1): the body obligation at every grid point.

  Point t has second coordinate t % 25. The inputs' staging buffers hold their blocks wherever the body is
  called; the output's buffer is handed back untouched except at the last step of a row, where it is written
  whole; the accumulator's buffer goes from what the point before left to what this point leaves.
-/
import proofs.«104867_j4217657884863_1_alg».proof.Proof.G1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions over the grid, in closed form -/

theorem coords1_1 (t : Fin cfg1.N) : ((grid1.coords t) 1).val = t.val % 25 := by
  show t.val / grid1.stride 1 % 25 = t.val % 25
  rw [show grid1.stride 1 = 1 from by decide, Nat.div_one]

theorem cond1_0_iff (i : grid1.Coords) : cond1_0 i ↔ (i 1).val = 0 :=
  (by decide : ∀ j : Fin 25,
    ((Scalar.cmpi .ne (Scalar.extui (Scalar.cmpi .eq (BitVec.ofNat 32 j.val) 0#32)) 0#32) = 1#1) ↔ j.val = 0) (i 1)

theorem cond1_1_iff (i : grid1.Coords) : cond1_1 i ↔ (i 1).val = 24 :=
  (by decide : ∀ j : Fin 25,
    ((Scalar.cmpi .ne (Scalar.extui (Scalar.cmpi .eq (BitVec.ofNat 32 j.val) 24#32)) 0#32) = 1#1) ↔ j.val = 24) (i 1)

theorem hcond1_0 (t : Fin cfg1.N) : cond1_0 (grid1.coords t) ↔ t.val % 25 = 0 := by
  rw [cond1_0_iff, coords1_1]
theorem hcond1_1 (t : Fin cfg1.N) : cond1_1 (grid1.coords t) ↔ t.val % 25 = 24 := by
  rw [cond1_1_iff, coords1_1]

/-- The output window is idle exactly where the second conditional is not taken. -/
theorem idle1_3_of (i : grid1.Coords) (h : ¬cond1_1 i) : cfg1.idle 3 i = true := by
  show (!(k1_cond2 i == 1#1)) = true
  rw [Bool.not_eq_true', beq_eq_false_iff_ne]; exact h
theorem live1_3_of (i : grid1.Coords) (h : cond1_1 i) : cfg1.idle 3 i = false := by
  show (!(k1_cond2 i == 1#1)) = false
  rw [Bool.not_eq_false', beq_iff_eq]; exact h

section Body

variable (V : Dev nD → Valuation τ sig (Elt F)) (𝒱₀ : Variants) (ι : Ix)

local notation "dG" => datG1 (Ix := Ix) (U := U) (Lvl := Lvl) V

/-! ## The inputs' staging buffers hold their blocks wherever the body is called -/

theorem before1_0 (c : Dev nD) (t : Fin cfg1.N) (d) : (dG c).before 0 t d = iblk1 V c 0 t :=
  ((dG c).before_in_eq_fetched 0 rfl (fun _ => rfl) (fun _ _ _ => rfl)
      (fun t => by rw [after1_0]; unfold Dat.blockOf iblk1; rw [datG1_A]; try rfl) t d).trans
    (by unfold Dat.fetched Dat.blockOf iblk1; rw [datG1_A]; try rfl)
theorem before1_1 (c : Dev nD) (t : Fin cfg1.N) (d) : (dG c).before 1 t d = iblk1 V c 1 t :=
  ((dG c).before_in_eq_fetched 1 rfl (fun _ => rfl) (fun _ _ _ => rfl)
      (fun t => by rw [after1_1]; unfold Dat.blockOf iblk1; rw [datG1_A]; try rfl) t d).trans
    (by unfold Dat.fetched Dat.blockOf iblk1; rw [datG1_A]; try rfl)
theorem before1_2 (c : Dev nD) (t : Fin cfg1.N) (d) : (dG c).before 2 t d = iblk1 V c 2 t :=
  ((dG c).before_in_eq_fetched 2 rfl (fun _ => rfl) (fun _ _ _ => rfl)
      (fun t => by rw [after1_2]; unfold Dat.blockOf iblk1; rw [datG1_A]; try rfl) t d).trans
    (by unfold Dat.fetched Dat.blockOf iblk1; rw [datG1_A]; try rfl)

/-! ## The accumulator, case by case -/

theorem acc1_first (c : Dev nD) (t : Fin cfg1.N) (h0 : t.val % 25 = 0) :
    acc1 V c t.val t.isLt = k1_pay2 (grid1.coords t) (iblk1 V c 1 t) (iblk1 V c 0 t) (k1_pay1 (F := F)) := by
  obtain ⟨n, hn⟩ := t
  cases n with
  | zero => rfl
  | succ n => exact if_pos h0

theorem acc1_next (c : Dev nD) (t : Fin cfg1.N) (h0 : ¬t.val % 25 = 0) :
    acc1 V c t.val t.isLt = k1_pay2 (grid1.coords t) (iblk1 V c 1 t) (iblk1 V c 0 t)
      (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant, position by position -/

theorem PhiG1_zero (c : Dev nD) (n : ℕ) (h : n ≤ cfg1.N) (hz : n = 0) :
    (PhiG1 V c n h : sProp 𝕄) = iprop(Pipeline.scopedRest spec1 c ∗ ∃ r, prngReg c r) := by
  subst hz; rfl

theorem PhiG1_succ (c : Dev nD) (n : ℕ) (hn : n < cfg1.N) :
    (PhiG1 V c (n + 1) hn : sProp 𝕄) = iprop(owns (c : Thread nD τ) scM1 fullShare (acc1 V c n hn)
      ∗ Pipeline.scopedRestBut spec1 c [cc1_scratch0] ∗ ∃ r, prngReg c r) := rfl

theorem PhiG1_pos (c : Dev nD) (n : ℕ) (h : n ≤ cfg1.N) (hz : n ≠ 0) :
    (PhiG1 V c n h : sProp 𝕄) = iprop(owns (c : Thread nD τ) scM1 fullShare (acc1 V c (n - 1) (by omega))
      ∗ Pipeline.scopedRestBut spec1 c [cc1_scratch0] ∗ ∃ r, prngReg c r) := by
  cases n with
  | zero => exact absurd rfl hz
  | succ n => rfl

theorem PhiG1_castSucc (c : Dev nD) (t : Fin cfg1.N) :
    (dG c).Φ t.castSucc = PhiG1 V c t.val (Nat.le_of_lt t.isLt) := by
  dsimp only [datG1]; simp only [Fin.coe_castSucc]

/-! ## The body obligation -/

abbrev ms1_0 (t : Fin cfg1.N) : Memref sig .tc .vmem S2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

/-- What the body is called with at point t, the windows one by one, -/
def bodyPre1 (c : Dev nD) (t : Fin cfg1.N) : sProp 𝕄 :=
  iprop((dG c).Φ t.castSucc ∗ (dG c).owesAt ι t.castSucc
    ∗ (∃ d, owns (c : Thread nD τ) (ms1_0 t) fullShare ((dG c).before 0 t d))
    ∗ (∃ d, owns (c : Thread nD τ) (ms1_1 t) fullShare ((dG c).before 1 t d))
    ∗ (∃ d, owns (c : Thread nD τ) (ms1_2 t) fullShare ((dG c).before 2 t d))
    ∗ (∃ d, owns (c : Thread nD τ) (ms1_3 t) fullShare ((dG c).before 3 t d)))

/-- and what it returns. -/
def bodyPost1 (c : Dev nD) (t : Fin cfg1.N) : sProp 𝕄 :=
  iprop((dG c).Φ t.succ ∗ (dG c).owesAt ι t.succ
    ∗ (dG c).leavesExact 0 t ∗ (dG c).leavesExact 1 t ∗ (dG c).leavesExact 2 t ∗ (dG c).leavesExact 3 t)

set_option maxHeartbeats 4000000 in
theorem sound_body1 (c : Dev nD) (t : Fin cfg1.N) :
    (bodyPre1 V ι c t : sProp 𝕄) ⊢ wp frame (wpE (defs₀ (F := F)) 𝒱₀ c none) Set.univ (bodyAt1 t) (fun _ => bodyPost1 V ι c t) := by
  unfold bodyPre1 bodyPost1 bodyAt1
  simp only [before1_0, before1_1, before1_2]
  rw [show (dG c).owesAt ι t.succ = (dG c).owesAt ι t.castSucc from rfl]
  rw [show (dG c).Φ t.succ = PhiG1 V c (t.val + 1) t.isLt from rfl, PhiG1_succ]
  rw [show (dG c).leavesExact 0 t = owns (c : Thread nD τ) (ms1_0 t) fullShare ((dG c).after 0 t) from rfl, after1_0]
  rw [show (dG c).leavesExact 1 t = owns (c : Thread nD τ) (ms1_1 t) fullShare ((dG c).after 1 t) from rfl, after1_1]
  rw [show (dG c).leavesExact 2 t = owns (c : Thread nD τ) (ms1_2 t) fullShare ((dG c).after 2 t) from rfl, after1_2]
  have hnf : ¬t.val % 25 = 24 → (cfg1.win 3).flush t = false := fun h1 =>
    Bool.eq_false_iff.mpr fun hf => h1 ((flush1_3 t).mp hf)
  by_cases h0 : t.val % 25 = 0
  · -- the first step of a row
    have h1 : ¬t.val % 25 = 24 := by omega
    have hc0 : cond1_0 (grid1.coords t) := (hcond1_0 t).mpr h0
    have hc1 : ¬cond1_1 (grid1.coords t) := fun h => h1 ((hcond1_1 t).mp h)
    rw [Dat.leavesExact_idle (dG c) 3 t (idle1_3_of _ hc1) (hnf h1)]
    rw [acc1_first V c t h0]
    by_cases hz : t.val = 0
    · rw [PhiG1_castSucc, PhiG1_zero V c _ _ hz, scopedRest1_split]
      iintro ⟨⟨⟨⟨%fs, HS⟩, Hrest⟩, Hg⟩, Ho, ⟨%d0, H0⟩, ⟨%d1, H1⟩, ⟨%d2, H2⟩, H3⟩
      iapply (run1_A 𝒱₀ c Set.univ (grid1.coords t) _ _ _ _ _ _ _ _ _ _ hc0 hc1 (iblk1 V c 0 t) (iblk1 V c 1 t) _)
      isplitl [H0]; · iexact H0
      isplitl [H1]; · iexact H1
      isplitl [HS]; · iexists fs; rw [owns_whole]; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · rw [PhiG1_castSucc, PhiG1_pos V c _ _ hz]
      iintro ⟨⟨HS, Hrest, Hg⟩, Ho, ⟨%d0, H0⟩, ⟨%d1, H1⟩, ⟨%d2, H2⟩, H3⟩
      iapply (run1_A 𝒱₀ c Set.univ (grid1.coords t) _ _ _ _ _ _ _ _ _ _ hc0 hc1 (iblk1 V c 0 t) (iblk1 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond1_0 (grid1.coords t) := fun h => h0 ((hcond1_0 t).mp h)
    rw [acc1_next V c t h0, PhiG1_castSucc, PhiG1_pos V c _ _ hz]
    by_cases h1 : t.val % 25 = 24
    · -- the last step of a row
      have hc1 : cond1_1 (grid1.coords t) := (hcond1_1 t).mpr h1
      rw [show (dG c).leavesExact 3 t = owns (c : Thread nD τ) (ms1_3 t) fullShare ((dG c).after 3 t) from by
        unfold Dat.leavesExact; rw [live1_3_of _ hc1], after1_3, acc1_next V c t h0]
      iintro ⟨⟨HS, Hrest, Hg⟩, Ho, ⟨%d0, H0⟩, ⟨%d1, H1⟩, ⟨%d2, H2⟩, ⟨%d3, H3⟩⟩
      iapply (run1_C 𝒱₀ c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · -- a middle step
      have hc1 : ¬cond1_1 (grid1.coords t) := fun h => h1 ((hcond1_1 t).mp h)
      rw [Dat.leavesExact_idle (dG c) 3 t (idle1_3_of _ hc1) (hnf h1)]
      iintro ⟨⟨HS, Hrest, Hg⟩, Ho, ⟨%d0, H0⟩, ⟨%d1, H1⟩, ⟨%d2, H2⟩, H3⟩
      iapply (run1_B 𝒱₀ c Set.univ (grid1.coords t) _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dG c) (defs₀ (F := F)) 𝒱₀ ι Set.univ := fun t => by
  rw [bigSep_W1, bigSep_W1]
  exact sound_body1 V 𝒱₀ ι c t

theorem body_obligation1_loose (c : Dev nD) : BodyObligationLoose (dG c) (defs₀ (F := F)) 𝒱₀ ι Set.univ :=
  (body_obligation1 V 𝒱₀ ι c).loose

end Body

end Cert.KernelIdeal.Hand

end
-- ==== Proof.G1Region.lean ====
/-
  The gather kernel of layer 1 (pipeline 1) as a region of the program.

  The region is entered from every unscoped buffer held at a valuation V beside a rest, and left at V updated
  at the output array, which then holds the pipeline's write-backs folded over the grid. The rest must supply the
  generator register and a core that owes nothing, and gets both back; whatever else it holds rides along.
-/
import proofs.«104867_j4217657884863_1_alg».proof.Proof.G1Body
import proofs.«104867_j4217657884863_1_alg».proof.Proof.Dats
import proofs.«104867_j4217657884863_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section Region

variable (V : Dev nD → Valuation τ sig (Elt F)) (𝒱₀ : Variants) (ι : Ix)
  (L : GSem nD τ sig → Finset Ix) (lv : GSem nD τ sig → Ix → Lvl)
  (d0 : (c : Dev nD) → Dat τ (Elt F) Ix ℕ U Lvl (cfgs 0) c)
  (d2 : (c : Dev nD) → Dat τ (Elt F) Ix ℕ U Lvl (cfgs 2) c)
  (d3 : (c : Dev nD) → Dat τ (Elt F) Ix ℕ U Lvl (cfgs 3) c)
  (d4 : (c : Dev nD) → Dat τ (Elt F) Ix ℕ U Lvl (cfgs 4) c)
  (d5 : (c : Dev nD) → Dat τ (Elt F) Ix ℕ U Lvl (cfgs 5) c)
  (d6 : (c : Dev nD) → Dat τ (Elt F) Ix ℕ U Lvl (cfgs 6) c)
  (d7 : (c : Dev nD) → Dat τ (Elt F) Ix ℕ U Lvl (cfgs 7) c)
  (d8 : (c : Dev nD) → Dat τ (Elt F) Ix ℕ U Lvl (cfgs 8) c)

local notation "dG" => datG1 (Ix := Ix) (U := U) (Lvl := Lvl) V
local notation "pd" => pdats d0 (datG1 V) d2 d3 d4 d5 d6 d7 d8

/-- What the region leaves in the unscoped buffers: the output array at the write-backs folded over the grid,
    every other buffer as found. -/
def VoutG1 (c : Dev nD) : Valuation τ sig (Elt F) :=
  Function.update (V c) (Proc.devRef .tc main_v42) ((dG c).arrAt 3 cfg1.N)

theorem hF1 (c : Dev nD) (w : Fin cfg1.W) :
    (dG c).arrAt w cfg1.N = VoutG1 (Ix := Ix) (U := U) (Lvl := Lvl) V c (Pipeline.arrRef spec1 w) := by
  unfold VoutG1
  match w with
  | ⟨0, _⟩ => exact ((dG c).arrAt_in 0 rfl _).trans ((datG1_A V c 0).trans
      (Function.update_of_ne (StableHlo.devRef_ne_of_ne (by decide)) _ _).symm)
  | ⟨1, _⟩ => exact ((dG c).arrAt_in 1 rfl _).trans ((datG1_A V c 1).trans
      (Function.update_of_ne (StableHlo.devRef_ne_of_ne (by decide)) _ _).symm)
  | ⟨2, _⟩ => exact ((dG c).arrAt_in 2 rfl _).trans ((datG1_A V c 2).trans
      (Function.update_of_ne (StableHlo.devRef_ne_of_ne (by decide)) _ _).symm)
  | ⟨3, _⟩ => exact (Function.update_self (Proc.devRef (τ := τ) .tc main_v42) _ (V c)).symm

theorem hrest1 (c : Dev nD) (b : Ref sig .tc) (hb : b ∉ Finset.univ.image (Pipeline.arrRef spec1)) :
    VoutG1 (Ix := Ix) (U := U) (Lvl := Lvl) V c b = V c b := by
  unfold VoutG1
  exact Function.update_of_ne (StableHlo.devRef_ne_of_ne fun e =>
    hb (Finset.mem_image.mpr ⟨3, Finset.mem_univ _, e.symm⟩)) _ _

set_option backward.isDefEq.respectTransparency.types false in
/-- The region's record: the launch's layout, no semaphore of the kernel's own, the body obligation, and the four
    entailments around the thread states. -/
def regionG1 (G E E' : Dev nD → sProp 𝕄)
    (hE : ∀ c, E c ⊢ iprop((∃ r, prngReg c r) ∗ (∃ W, owes (c : Thread nD τ) (0 : CellTallies nD τ sig Ix) W) ∗ G c))
    (hE' : ∀ c, iprop((∃ r, prngReg c r) ∗ (∃ W, owes (c : Thread nD τ) (0 : CellTallies nD τ sig Ix) W) ∗ G c) ⊢ E' c) :
    RegionSeg (pcfgs (F := F)) adm pd ι defs₀ 𝒱₀ L lv 1 where
  win := launch1.win.to₀
  block_pos := launch1.block_pos
  stage_whole := launch1.stage_whole
  K := PEmpty
  osem k := k.elim
  ho := Pipeline.OwnSemFacts.none _
  hbody c := body_obligation1_loose V 𝒱₀ ι c
  hwaits := Pipeline.hwaits_of_owed_zero _ _ _ _ L lv 1 fun _ _ => rfl
  pre c := iprop(StableHlo.held (c : Thread nD τ) (Pipeline.ucRefs τ sig) (V c) ∗ E c)
  post c := iprop(StableHlo.held (c : Thread nD τ) (Pipeline.ucRefs τ sig) (VoutG1 (Ix := Ix) (U := U) (Lvl := Lvl) V c) ∗ E' c)
  X c := iprop(∃ r, prngReg c r)
  Y c := iprop(∃ r, prngReg c r)
  Z c := iprop(Pipeline.unscopedRest spec1 c (fun b => V c b) ∗ G c)
  hentry c := by
    rw [Pipeline.ownSems0_none]
    have hsplit := Pipeline.arrays_of_unscopedBufs (p := 1) (pcfgs (F := F)) adm pd launch1.win launch1.arr_whole c
      ((pd 1 c).share_full fun _ => rfl) (fun b => V c b) fun _ => rfl
    rw [Pipeline.unscopedBufs_held] at hsplit
    iintro ⟨⟨Hub, HE⟩, -, -⟩
    ihave H := hsplit $$ Hub
    icases H with ⟨Ha, Hrest⟩
    ihave HE' := (hE c) $$ HE
    icases HE' with ⟨Hp, HO, HG⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pd 1 c).Φ 0 = PhiG1 V c 0 (Nat.zero_le _) from rfl, PhiG1_zero V c 0 _ rfl]
    iintro ⟨Hp, -, Hr⟩
    isplitl [Hr]; · iexact Hr
    iexact Hp
  hout c := by
    rw [Pipeline.ownSems0_none, show (pd 1 c).Φ (Fin.last _) = PhiG1 V c cfg1.N (Nat.le_refl _) from rfl,
      PhiG1_pos V c _ _ (by have : cfg1.N = 9775 := N_1; omega)]
    show _ ⊢ iprop(_ ∗ _ ∗ Pipeline.scopedRest spec1 c)
    rw [scopedRest1_split]
    iintro ⟨HS, Hrest, Hp⟩
    isplitl [Hp]; · iexact Hp
    isplitr; · iempintro
    isplitl [HS]
    · iexists _; rw [← owns_whole]; iexact HS
    iexact Hrest
  hexit c := by
    have hjoin := Pipeline.unscopedBufs_of_arrays (p := 1) (pcfgs (F := F)) adm (Ix := Ix) (Name := ℕ) (U := U) (Lvl := Lvl)
      launch1.win launch1.arr_whole c pd ((pd 1 c).share_full fun _ => rfl)
      (fun b => V c b) (fun b => VoutG1 (Ix := Ix) (U := U) (Lvl := Lvl) V c b) ((pd 1 c).arrAt · cfg1.N) (hF1 V c) (hrest1 V c)
    rw [Pipeline.unscopedBufs_held] at hjoin
    iintro ⟨Ha, HO, HY, Hrest, HG⟩
    imodintro
    isplitl [Ha Hrest]
    · iapply hjoin; isplitl [Ha] <;> iassumption
    iapply (hE' c)
    isplitl [HY]; · iexact HY
    isplitl [HO]
    · unfold Pipeline.Dat.owesAt Pipeline.owesWithin
      icases HO with ⟨%W, -, HO⟩; iexists W; iexact HO
    iexact HG

end Region

end Cert.KernelIdeal.Hand

end
-- ==== Proof.G4Dat.lean ====
/-
  The gather kernel of layer 2 (pipeline 4): its proof data.

  The grid is 391 x 25, the second axis fastest: point t has coordinates (t / 25, t % 25). Along the second
  axis the kernel accumulates, in a scratch buffer it keeps between points, the products of a one-hot matrix
  (row r has its one at column src r - 2048 * (t % 25), if that falls in the block) with the block of h the
  point fetches; the accumulator is reset where t % 25 = 0 and, where t % 25 = 24, scaled row by row by the
  norm column and stored into the output block, which the pipeline writes back there and nowhere else.
-/
import proofs.«104867_j4217657884863_1_alg».proof.Proof.Gen.KernelIdeal.Launch
import proofs.«104867_j4217657884863_1_alg».proof.Proof.Gen.KernelIdeal.Skeleton
import Idealize.ShloMosaic.Lib.Pipeline.Frame
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section

variable (V : Dev nD → Valuation τ sig (Elt F))

/-- Window w's block at point t, read off its array as the region finds it. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The accumulator after the body at point n: one step of the one-hot product added to what the point before
    left, or to zero where the row of the grid begins (n % 25 = 0). -/
def acc4 (c : Dev nD) : (n : ℕ) → n < cfg4.N → Vec F S2048x64 .f32
  | 0, hn => k4_pay2 (grid4.coords ⟨0, hn⟩) (iblk4 V c 1 ⟨0, hn⟩) (iblk4 V c 0 ⟨0, hn⟩) (k4_pay1 (F := F))
  | n + 1, hn =>
    if (n + 1) % 25 = 0 then
      k4_pay2 (grid4.coords ⟨n + 1, hn⟩) (iblk4 V c 1 ⟨n + 1, hn⟩) (iblk4 V c 0 ⟨n + 1, hn⟩) (k4_pay1 (F := F))
    else
      k4_pay2 (grid4.coords ⟨n + 1, hn⟩) (iblk4 V c 1 ⟨n + 1, hn⟩) (iblk4 V c 0 ⟨n + 1, hn⟩) (acc4 c n (Nat.lt_of_succ_lt hn))

/-- The scratch operand: a whole scoped buffer of the kernel's own. -/
abbrev scM4 : Memref sig .tc .vmem S2048x64 .f32 := Memref.whole cc4_scratch0

/-- The invariant before position n: before the first point every scoped buffer that is no staging buffer at
    some contents; afterwards the accumulator's buffer whole at what the point before left, the other such
    buffers at some contents; the generator register at some state throughout. -/
def PhiG4 (c : Dev nD) : (n : ℕ) → n ≤ cfg4.N → sProp 𝕄
  | 0, _ => iprop(Pipeline.scopedRest spec4 c ∗ ∃ r, prngReg c r)
  | n + 1, hn => iprop(owns (c : Thread nD τ) scM4 fullShare (acc4 V c n hn)
      ∗ Pipeline.scopedRestBut spec4 c [cc4_scratch0] ∗ ∃ r, prngReg c r)

/-- The proof data of pipeline 1 on core c: the arrays as the region finds them; after the body each input's
    buffer at its block, the output's at the accumulator scaled by the norm column (consulted only where the
    block is written back, t % 25 = 24); the invariant above; nothing owed; full shares. -/
def datG4 (c : Dev nD) : Dat τ (Elt F) Ix ℕ U Lvl cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt) (iblk4 V c 2 t)
  Φ t := PhiG4 V c t.val (Nat.le_of_lt_succ t.isLt)
  q _ := fullShare
  owed _ := 0

theorem datG4_A (c : Dev nD) (w : Fin cfg4.W) : (datG4 (Ix := Ix) (U := U) (Lvl := Lvl) V c).A w = V c (Pipeline.arrRef spec4 w) := by
  dsimp only [datG4]

theorem after4_0 (c : Dev nD) (t : Fin cfg4.N) : (datG4 (Ix := Ix) (U := U) (Lvl := Lvl) V c).after 0 t = iblk4 V c 0 t := by dsimp only [datG4]
theorem after4_1 (c : Dev nD) (t : Fin cfg4.N) : (datG4 (Ix := Ix) (U := U) (Lvl := Lvl) V c).after 1 t = iblk4 V c 1 t := by dsimp only [datG4]
theorem after4_2 (c : Dev nD) (t : Fin cfg4.N) : (datG4 (Ix := Ix) (U := U) (Lvl := Lvl) V c).after 2 t = iblk4 V c 2 t := by dsimp only [datG4]
theorem after4_3 (c : Dev nD) (t : Fin cfg4.N) :
    (datG4 (Ix := Ix) (U := U) (Lvl := Lvl) V c).after 3 t = k4_pay3 (acc4 V c t.val t.isLt) (iblk4 V c 2 t) := by dsimp only [datG4]

end

end Cert.KernelIdeal.Hand

end
-- ==== Proof.G4Runs.lean ====
/-
  The gather kernel of layer 2 (pipeline 4): the body's three control cases on whole memrefs.

  Three control cases along the second grid axis j = t % 25: the first step (j = 0) resets the accumulator
  before adding into it; a middle step adds; the last step (j = 24) adds and then stores the accumulator,
  scaled row by row by the norm column, into the output block.
-/
import proofs.«104867_j4217657884863_1_alg».proof.Proof.G4Dat
import proofs.«104867_j4217657884863_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions, as functions of the grid point -/

/-- The first conditional's condition: the second coordinate is 0. -/
abbrev cond4_0 (i : grid4.Coords) : Prop :=
  (Scalar.cmpi .ne (Scalar.extui (Scalar.cmpi .eq (BitVec.ofNat 32 (i 1).val) 0#32)) 0#32) = 1#1
/-- The second conditional's condition: the second coordinate is 24. -/
abbrev cond4_1 (i : grid4.Coords) : Prop := k4_cond2 i = 1#1

theorem hz2_4 : (![0, 0] : Fin 2 → Nat) = fun _ => 0 := by funext a; fin_cases a <;> rfl

section Runs

variable (𝒱₀ : Variants)

set_option maxHeartbeats 1000000 in
/-- A middle step on whole memrefs: the accumulator's buffer at xs is left at one more step added to xs; the
    two blocks it reads are left as they were; the norm column's and the output's buffers are not touched. -/
theorem run4_B (c : Dev nD) (E : Set ℕ) (i : grid4.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond4_0 i) (hc1 : ¬cond4_1 i)
    (x0 : Vec F S2048x64 .f32) (x1 : Vec F S2048x1 .i32) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k4_pay2 i x1 x0 xs)) -∗ K ⟨⟩))
      ⊢ wp frame (wpE (defs₀ (F := F)) 𝒱₀ c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (fun y => ⟨_, List.Mem.head _, View.mem_set_unit_zero hz2_4 inb_S2048x64_S2048x64_0_0 y⟩), View.canon_unit_zero hz2_4]
  simp only [View.readAt_eq_ld, harg2.read_unread, harg3.read_unread, harg6.read_unread, View.ld_unit_zero (S := S2048x64) hz2_4, View.ld_unit_zero (S := S2048x1) hz2_4]

set_option maxHeartbeats 1000000 in
/-- The first step of a row on whole memrefs: the accumulator's buffer, at anything, is left at one step added
    to zero; the two blocks it reads are left as they were. -/
theorem run4_A (c : Dev nD) (E : Set ℕ) (i : grid4.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : cond4_0 i) (hc1 : ¬cond4_1 i)
    (x0 : Vec F S2048x64 .f32) (x1 : Vec F S2048x1 .i32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k4_pay2 i x1 x0 (k4_pay1 (F := F)))) -∗ K ⟨⟩))
      ⊢ wp frame (wpE (defs₀ (F := F)) 𝒱₀ c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [View.read_writes_eq_canon _ _ _ (fun y => ⟨_, List.Mem.head _, View.mem_set_unit_zero hz2_4 inb_S2048x64_S2048x64_0_0 y⟩), View.canon_cons_unit_zero hz2_4]
  simp only [View.readAt_eq_ld, harg2.read_unread, harg3.read_unread, View.ld_unit_zero (S := S2048x64) hz2_4, View.ld_unit_zero (S := S2048x1) hz2_4, View.readCov_unit_zero (S := S2048x64) _ hz2_4]

set_option maxHeartbeats 1000000 in
/-- The last step of a row on whole memrefs: the accumulator's buffer at xs is left at one more step added to
    xs, and the output's buffer, at anything, at that scaled row by row by the norm column; the three blocks it
    reads are left as they were. -/
theorem run4_C (c : Dev nD) (E : Set ℕ) (i : grid4.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond4_0 i) (hc1 : cond4_1 i)
    (x0 : Vec F S2048x64 .f32) (x1 : Vec F S2048x1 .i32) (x2 : Vec F S2048x1 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k4_pay3 (k4_pay2 i x1 x0 xs) x2)
            ∗ owns (c : Thread nD τ) arg6 fullShare (k4_pay2 i x1 x0 xs)) -∗ K ⟨⟩))
      ⊢ wp frame (wpE (defs₀ (F := F)) 𝒱₀ c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.Mem.head _, View.mem_set_unit_zero hz2_4 inb_S2048x64_S2048x64_0_0 y⟩), View.canon_unit_zero hz2_4]
    simp only [View.readAt_eq_ld, harg2.read_unread, harg3.read_unread, harg4.read_unread, harg6.read_unread, View.ld_unit_zero (S := S2048x64) hz2_4, View.ld_unit_zero (S := S2048x1) hz2_4, View.readCov_unit_zero (S := S2048x64) _ hz2_4]
  iexists _; isplitr
  swap; · iexact HS
  ipureintro
  sl_unfold_run_names
  rw [View.read_writes_eq_canon _ _ _ (fun y => ⟨_, List.Mem.head _, View.mem_set_unit_zero hz2_4 inb_S2048x64_S2048x64_0_0 y⟩), View.canon_unit_zero hz2_4]
  simp only [View.readAt_eq_ld, harg2.read_unread, harg3.read_unread, harg6.read_unread, View.ld_unit_zero (S := S2048x64) hz2_4, View.ld_unit_zero (S := S2048x1) hz2_4]

end Runs

end Cert.KernelIdeal.Hand

end
-- ==== Proof.G4Body.lean ====
/-
  The gather kernel of layer 2 (pipeline 4): the body obligation at every grid point.

  Point t has second coordinate t % 25. The inputs' staging buffers hold their blocks wherever the body is
  called; the output's buffer is handed back untouched except at the last step of a row, where it is written
  whole; the accumulator's buffer goes from what the point before left to what this point leaves.
-/
import proofs.«104867_j4217657884863_1_alg».proof.Proof.G4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions over the grid, in closed form -/

theorem coords4_1 (t : Fin cfg4.N) : ((grid4.coords t) 1).val = t.val % 25 := by
  show t.val / grid4.stride 1 % 25 = t.val % 25
  rw [show grid4.stride 1 = 1 from by decide, Nat.div_one]

theorem cond4_0_iff (i : grid4.Coords) : cond4_0 i ↔ (i 1).val = 0 :=
  (by decide : ∀ j : Fin 25,
    ((Scalar.cmpi .ne (Scalar.extui (Scalar.cmpi .eq (BitVec.ofNat 32 j.val) 0#32)) 0#32) = 1#1) ↔ j.val = 0) (i 1)

theorem cond4_1_iff (i : grid4.Coords) : cond4_1 i ↔ (i 1).val = 24 :=
  (by decide : ∀ j : Fin 25,
    ((Scalar.cmpi .ne (Scalar.extui (Scalar.cmpi .eq (BitVec.ofNat 32 j.val) 24#32)) 0#32) = 1#1) ↔ j.val = 24) (i 1)

theorem hcond4_0 (t : Fin cfg4.N) : cond4_0 (grid4.coords t) ↔ t.val % 25 = 0 := by
  rw [cond4_0_iff, coords4_1]
theorem hcond4_1 (t : Fin cfg4.N) : cond4_1 (grid4.coords t) ↔ t.val % 25 = 24 := by
  rw [cond4_1_iff, coords4_1]

/-- The output window is idle exactly where the second conditional is not taken. -/
theorem idle4_3_of (i : grid4.Coords) (h : ¬cond4_1 i) : cfg4.idle 3 i = true := by
  show (!(k4_cond2 i == 1#1)) = true
  rw [Bool.not_eq_true', beq_eq_false_iff_ne]; exact h
theorem live4_3_of (i : grid4.Coords) (h : cond4_1 i) : cfg4.idle 3 i = false := by
  show (!(k4_cond2 i == 1#1)) = false
  rw [Bool.not_eq_false', beq_iff_eq]; exact h

section Body

variable (V : Dev nD → Valuation τ sig (Elt F)) (𝒱₀ : Variants) (ι : Ix)

local notation "dG" => datG4 (Ix := Ix) (U := U) (Lvl := Lvl) V

/-! ## The inputs' staging buffers hold their blocks wherever the body is called -/

theorem before4_0 (c : Dev nD) (t : Fin cfg4.N) (d) : (dG c).before 0 t d = iblk4 V c 0 t :=
  ((dG c).before_in_eq_fetched 0 rfl (fun _ => rfl) (fun _ _ _ => rfl)
      (fun t => by rw [after4_0]; unfold Dat.blockOf iblk4; rw [datG4_A]; try rfl) t d).trans
    (by unfold Dat.fetched Dat.blockOf iblk4; rw [datG4_A]; try rfl)
theorem before4_1 (c : Dev nD) (t : Fin cfg4.N) (d) : (dG c).before 1 t d = iblk4 V c 1 t :=
  ((dG c).before_in_eq_fetched 1 rfl (fun _ => rfl) (fun _ _ _ => rfl)
      (fun t => by rw [after4_1]; unfold Dat.blockOf iblk4; rw [datG4_A]; try rfl) t d).trans
    (by unfold Dat.fetched Dat.blockOf iblk4; rw [datG4_A]; try rfl)
theorem before4_2 (c : Dev nD) (t : Fin cfg4.N) (d) : (dG c).before 2 t d = iblk4 V c 2 t :=
  ((dG c).before_in_eq_fetched 2 rfl (fun _ => rfl) (fun _ _ _ => rfl)
      (fun t => by rw [after4_2]; unfold Dat.blockOf iblk4; rw [datG4_A]; try rfl) t d).trans
    (by unfold Dat.fetched Dat.blockOf iblk4; rw [datG4_A]; try rfl)

/-! ## The accumulator, case by case -/

theorem acc4_first (c : Dev nD) (t : Fin cfg4.N) (h0 : t.val % 25 = 0) :
    acc4 V c t.val t.isLt = k4_pay2 (grid4.coords t) (iblk4 V c 1 t) (iblk4 V c 0 t) (k4_pay1 (F := F)) := by
  obtain ⟨n, hn⟩ := t
  cases n with
  | zero => rfl
  | succ n => exact if_pos h0

theorem acc4_next (c : Dev nD) (t : Fin cfg4.N) (h0 : ¬t.val % 25 = 0) :
    acc4 V c t.val t.isLt = k4_pay2 (grid4.coords t) (iblk4 V c 1 t) (iblk4 V c 0 t)
      (acc4 V c (t.val - 1) (Nat.lt_of_le_of_lt (Nat.sub_le _ _) t.isLt)) := by
  obtain ⟨n, hn⟩ := t
  cases n with
  | zero => exact absurd (Nat.zero_mod _) h0
  | succ n => exact if_neg h0

/-! ## The invariant, position by position -/

theorem PhiG4_zero (c : Dev nD) (n : ℕ) (h : n ≤ cfg4.N) (hz : n = 0) :
    (PhiG4 V c n h : sProp 𝕄) = iprop(Pipeline.scopedRest spec4 c ∗ ∃ r, prngReg c r) := by
  subst hz; rfl

theorem PhiG4_succ (c : Dev nD) (n : ℕ) (hn : n < cfg4.N) :
    (PhiG4 V c (n + 1) hn : sProp 𝕄) = iprop(owns (c : Thread nD τ) scM4 fullShare (acc4 V c n hn)
      ∗ Pipeline.scopedRestBut spec4 c [cc4_scratch0] ∗ ∃ r, prngReg c r) := rfl

theorem PhiG4_pos (c : Dev nD) (n : ℕ) (h : n ≤ cfg4.N) (hz : n ≠ 0) :
    (PhiG4 V c n h : sProp 𝕄) = iprop(owns (c : Thread nD τ) scM4 fullShare (acc4 V c (n - 1) (by omega))
      ∗ Pipeline.scopedRestBut spec4 c [cc4_scratch0] ∗ ∃ r, prngReg c r) := by
  cases n with
  | zero => exact absurd rfl hz
  | succ n => rfl

theorem PhiG4_castSucc (c : Dev nD) (t : Fin cfg4.N) :
    (dG c).Φ t.castSucc = PhiG4 V c t.val (Nat.le_of_lt t.isLt) := by
  dsimp only [datG4]; simp only [Fin.coe_castSucc]

/-! ## The body obligation -/

abbrev ms4_0 (t : Fin cfg4.N) : Memref sig .tc .vmem S2048x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x64 .f32 := win4_3.stage (cfg4.slots t 3)
abbrev hs4_3 (t : Fin cfg4.N) : (ms4_3 t).IsWhole := hstage4_3 ((cfg4.slots t 3).cast nbuf4_3)

/-- What the body is called with at point t, the windows one by one, -/
def bodyPre4 (c : Dev nD) (t : Fin cfg4.N) : sProp 𝕄 :=
  iprop((dG c).Φ t.castSucc ∗ (dG c).owesAt ι t.castSucc
    ∗ (∃ d, owns (c : Thread nD τ) (ms4_0 t) fullShare ((dG c).before 0 t d))
    ∗ (∃ d, owns (c : Thread nD τ) (ms4_1 t) fullShare ((dG c).before 1 t d))
    ∗ (∃ d, owns (c : Thread nD τ) (ms4_2 t) fullShare ((dG c).before 2 t d))
    ∗ (∃ d, owns (c : Thread nD τ) (ms4_3 t) fullShare ((dG c).before 3 t d)))

/-- and what it returns. -/
def bodyPost4 (c : Dev nD) (t : Fin cfg4.N) : sProp 𝕄 :=
  iprop((dG c).Φ t.succ ∗ (dG c).owesAt ι t.succ
    ∗ (dG c).leavesExact 0 t ∗ (dG c).leavesExact 1 t ∗ (dG c).leavesExact 2 t ∗ (dG c).leavesExact 3 t)

set_option maxHeartbeats 4000000 in
theorem sound_body4 (c : Dev nD) (t : Fin cfg4.N) :
    (bodyPre4 V ι c t : sProp 𝕄) ⊢ wp frame (wpE (defs₀ (F := F)) 𝒱₀ c none) Set.univ (bodyAt4 t) (fun _ => bodyPost4 V ι c t) := by
  unfold bodyPre4 bodyPost4 bodyAt4
  simp only [before4_0, before4_1, before4_2]
  rw [show (dG c).owesAt ι t.succ = (dG c).owesAt ι t.castSucc from rfl]
  rw [show (dG c).Φ t.succ = PhiG4 V c (t.val + 1) t.isLt from rfl, PhiG4_succ]
  rw [show (dG c).leavesExact 0 t = owns (c : Thread nD τ) (ms4_0 t) fullShare ((dG c).after 0 t) from rfl, after4_0]
  rw [show (dG c).leavesExact 1 t = owns (c : Thread nD τ) (ms4_1 t) fullShare ((dG c).after 1 t) from rfl, after4_1]
  rw [show (dG c).leavesExact 2 t = owns (c : Thread nD τ) (ms4_2 t) fullShare ((dG c).after 2 t) from rfl, after4_2]
  have hnf : ¬t.val % 25 = 24 → (cfg4.win 3).flush t = false := fun h1 =>
    Bool.eq_false_iff.mpr fun hf => h1 ((flush4_3 t).mp hf)
  by_cases h0 : t.val % 25 = 0
  · -- the first step of a row
    have h1 : ¬t.val % 25 = 24 := by omega
    have hc0 : cond4_0 (grid4.coords t) := (hcond4_0 t).mpr h0
    have hc1 : ¬cond4_1 (grid4.coords t) := fun h => h1 ((hcond4_1 t).mp h)
    rw [Dat.leavesExact_idle (dG c) 3 t (idle4_3_of _ hc1) (hnf h1)]
    rw [acc4_first V c t h0]
    by_cases hz : t.val = 0
    · rw [PhiG4_castSucc, PhiG4_zero V c _ _ hz, scopedRest4_split]
      iintro ⟨⟨⟨⟨%fs, HS⟩, Hrest⟩, Hg⟩, Ho, ⟨%d0, H0⟩, ⟨%d1, H1⟩, ⟨%d2, H2⟩, H3⟩
      iapply (run4_A 𝒱₀ c Set.univ (grid4.coords t) _ _ _ _ _ _ _ _ _ _ hc0 hc1 (iblk4 V c 0 t) (iblk4 V c 1 t) _)
      isplitl [H0]; · iexact H0
      isplitl [H1]; · iexact H1
      isplitl [HS]; · iexists fs; rw [owns_whole]; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · rw [PhiG4_castSucc, PhiG4_pos V c _ _ hz]
      iintro ⟨⟨HS, Hrest, Hg⟩, Ho, ⟨%d0, H0⟩, ⟨%d1, H1⟩, ⟨%d2, H2⟩, H3⟩
      iapply (run4_A 𝒱₀ c Set.univ (grid4.coords t) _ _ _ _ _ _ _ _ _ _ hc0 hc1 (iblk4 V c 0 t) (iblk4 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond4_0 (grid4.coords t) := fun h => h0 ((hcond4_0 t).mp h)
    rw [acc4_next V c t h0, PhiG4_castSucc, PhiG4_pos V c _ _ hz]
    by_cases h1 : t.val % 25 = 24
    · -- the last step of a row
      have hc1 : cond4_1 (grid4.coords t) := (hcond4_1 t).mpr h1
      rw [show (dG c).leavesExact 3 t = owns (c : Thread nD τ) (ms4_3 t) fullShare ((dG c).after 3 t) from by
        unfold Dat.leavesExact; rw [live4_3_of _ hc1], after4_3, acc4_next V c t h0]
      iintro ⟨⟨HS, Hrest, Hg⟩, Ho, ⟨%d0, H0⟩, ⟨%d1, H1⟩, ⟨%d2, H2⟩, ⟨%d3, H3⟩⟩
      iapply (run4_C 𝒱₀ c Set.univ (grid4.coords t) _ _ _ _ _ _ _ _ _ _ hc0 hc1 (iblk4 V c 0 t) (iblk4 V c 1 t) (iblk4 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · -- a middle step
      have hc1 : ¬cond4_1 (grid4.coords t) := fun h => h1 ((hcond4_1 t).mp h)
      rw [Dat.leavesExact_idle (dG c) 3 t (idle4_3_of _ hc1) (hnf h1)]
      iintro ⟨⟨HS, Hrest, Hg⟩, Ho, ⟨%d0, H0⟩, ⟨%d1, H1⟩, ⟨%d2, H2⟩, H3⟩
      iapply (run4_B 𝒱₀ c Set.univ (grid4.coords t) _ _ _ _ _ _ _ _ _ _ hc0 hc1 (iblk4 V c 0 t) (iblk4 V c 1 t) _ _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3

/-- The library's body obligation, at every point. -/
theorem body_obligation4 (c : Dev nD) : BodyObligation (dG c) (defs₀ (F := F)) 𝒱₀ ι Set.univ := fun t => by
  rw [bigSep_W4, bigSep_W4]
  exact sound_body4 V 𝒱₀ ι c t

theorem body_obligation4_loose (c : Dev nD) : BodyObligationLoose (dG c) (defs₀ (F := F)) 𝒱₀ ι Set.univ :=
  (body_obligation4 V 𝒱₀ ι c).loose

end Body

end Cert.KernelIdeal.Hand

end
-- ==== Proof.G4Region.lean ====
/-
  The gather kernel of layer 2 (pipeline 4) as a region of the program.

  The region is entered from every unscoped buffer held at a valuation V beside a rest, and left at V updated
  at the output array, which then holds the pipeline's write-backs folded over the grid. The rest must supply the
  generator register and a core that owes nothing, and gets both back; whatever else it holds rides along.
-/
import proofs.«104867_j4217657884863_1_alg».proof.Proof.G4Body
import proofs.«104867_j4217657884863_1_alg».proof.Proof.Dats
import proofs.«104867_j4217657884863_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section Region

variable (V : Dev nD → Valuation τ sig (Elt F)) (𝒱₀ : Variants) (ι : Ix)
  (L : GSem nD τ sig → Finset Ix) (lv : GSem nD τ sig → Ix → Lvl)
  (d0 : (c : Dev nD) → Dat τ (Elt F) Ix ℕ U Lvl (cfgs 0) c)
  (d1 : (c : Dev nD) → Dat τ (Elt F) Ix ℕ U Lvl (cfgs 1) c)
  (d2 : (c : Dev nD) → Dat τ (Elt F) Ix ℕ U Lvl (cfgs 2) c)
  (d3 : (c : Dev nD) → Dat τ (Elt F) Ix ℕ U Lvl (cfgs 3) c)
  (d5 : (c : Dev nD) → Dat τ (Elt F) Ix ℕ U Lvl (cfgs 5) c)
  (d6 : (c : Dev nD) → Dat τ (Elt F) Ix ℕ U Lvl (cfgs 6) c)
  (d7 : (c : Dev nD) → Dat τ (Elt F) Ix ℕ U Lvl (cfgs 7) c)
  (d8 : (c : Dev nD) → Dat τ (Elt F) Ix ℕ U Lvl (cfgs 8) c)

local notation "dG" => datG4 (Ix := Ix) (U := U) (Lvl := Lvl) V
local notation "pd" => pdats d0 d1 d2 d3 (datG4 V) d5 d6 d7 d8

/-- What the region leaves in the unscoped buffers: the output array at the write-backs folded over the grid,
    every other buffer as found. -/
def VoutG4 (c : Dev nD) : Valuation τ sig (Elt F) :=
  Function.update (V c) (Proc.devRef .tc main_v53) ((dG c).arrAt 3 cfg4.N)

theorem hF4 (c : Dev nD) (w : Fin cfg4.W) :
    (dG c).arrAt w cfg4.N = VoutG4 (Ix := Ix) (U := U) (Lvl := Lvl) V c (Pipeline.arrRef spec4 w) := by
  unfold VoutG4
  match w with
  | ⟨0, _⟩ => exact ((dG c).arrAt_in 0 rfl _).trans ((datG4_A V c 0).trans
      (Function.update_of_ne (StableHlo.devRef_ne_of_ne (by decide)) _ _).symm)
  | ⟨1, _⟩ => exact ((dG c).arrAt_in 1 rfl _).trans ((datG4_A V c 1).trans
      (Function.update_of_ne (StableHlo.devRef_ne_of_ne (by decide)) _ _).symm)
  | ⟨2, _⟩ => exact ((dG c).arrAt_in 2 rfl _).trans ((datG4_A V c 2).trans
      (Function.update_of_ne (StableHlo.devRef_ne_of_ne (by decide)) _ _).symm)
  | ⟨3, _⟩ => exact (Function.update_self (Proc.devRef (τ := τ) .tc main_v53) _ (V c)).symm

theorem hrest4 (c : Dev nD) (b : Ref sig .tc) (hb : b ∉ Finset.univ.image (Pipeline.arrRef spec4)) :
    VoutG4 (Ix := Ix) (U := U) (Lvl := Lvl) V c b = V c b := by
  unfold VoutG4
  exact Function.update_of_ne (StableHlo.devRef_ne_of_ne fun e =>
    hb (Finset.mem_image.mpr ⟨3, Finset.mem_univ _, e.symm⟩)) _ _

set_option backward.isDefEq.respectTransparency.types false in
/-- The region's record: the launch's layout, no semaphore of the kernel's own, the body obligation, and the four
    entailments around the thread states. -/
def regionG4 (G E E' : Dev nD → sProp 𝕄)
    (hE : ∀ c, E c ⊢ iprop((∃ r, prngReg c r) ∗ (∃ W, owes (c : Thread nD τ) (0 : CellTallies nD τ sig Ix) W) ∗ G c))
    (hE' : ∀ c, iprop((∃ r, prngReg c r) ∗ (∃ W, owes (c : Thread nD τ) (0 : CellTallies nD τ sig Ix) W) ∗ G c) ⊢ E' c) :
    RegionSeg (pcfgs (F := F)) adm pd ι defs₀ 𝒱₀ L lv 4 where
  win := launch4.win.to₀
  block_pos := launch4.block_pos
  stage_whole := launch4.stage_whole
  K := PEmpty
  osem k := k.elim
  ho := Pipeline.OwnSemFacts.none _
  hbody c := body_obligation4_loose V 𝒱₀ ι c
  hwaits := Pipeline.hwaits_of_owed_zero _ _ _ _ L lv 4 fun _ _ => rfl
  pre c := iprop(StableHlo.held (c : Thread nD τ) (Pipeline.ucRefs τ sig) (V c) ∗ E c)
  post c := iprop(StableHlo.held (c : Thread nD τ) (Pipeline.ucRefs τ sig) (VoutG4 (Ix := Ix) (U := U) (Lvl := Lvl) V c) ∗ E' c)
  X c := iprop(∃ r, prngReg c r)
  Y c := iprop(∃ r, prngReg c r)
  Z c := iprop(Pipeline.unscopedRest spec4 c (fun b => V c b) ∗ G c)
  hentry c := by
    rw [Pipeline.ownSems0_none]
    have hsplit := Pipeline.arrays_of_unscopedBufs (p := 4) (pcfgs (F := F)) adm pd launch4.win launch4.arr_whole c
      ((pd 4 c).share_full fun _ => rfl) (fun b => V c b) fun _ => rfl
    rw [Pipeline.unscopedBufs_held] at hsplit
    iintro ⟨⟨Hub, HE⟩, -, -⟩
    ihave H := hsplit $$ Hub
    icases H with ⟨Ha, Hrest⟩
    ihave HE' := (hE c) $$ HE
    icases HE' with ⟨Hp, HO, HG⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pd 4 c).Φ 0 = PhiG4 V c 0 (Nat.zero_le _) from rfl, PhiG4_zero V c 0 _ rfl]
    iintro ⟨Hp, -, Hr⟩
    isplitl [Hr]; · iexact Hr
    iexact Hp
  hout c := by
    rw [Pipeline.ownSems0_none, show (pd 4 c).Φ (Fin.last _) = PhiG4 V c cfg4.N (Nat.le_refl _) from rfl,
      PhiG4_pos V c _ _ (by have : cfg4.N = 9775 := N_4; omega)]
    show _ ⊢ iprop(_ ∗ _ ∗ Pipeline.scopedRest spec4 c)
    rw [scopedRest4_split]
    iintro ⟨HS, Hrest, Hp⟩
    isplitl [Hp]; · iexact Hp
    isplitr; · iempintro
    isplitl [HS]
    · iexists _; rw [← owns_whole]; iexact HS
    iexact Hrest
  hexit c := by
    have hjoin := Pipeline.unscopedBufs_of_arrays (p := 4) (pcfgs (F := F)) adm (Ix := Ix) (Name := ℕ) (U := U) (Lvl := Lvl)
      launch4.win launch4.arr_whole c pd ((pd 4 c).share_full fun _ => rfl)
      (fun b => V c b) (fun b => VoutG4 (Ix := Ix) (U := U) (Lvl := Lvl) V c b) ((pd 4 c).arrAt · cfg4.N) (hF4 V c) (hrest4 V c)
    rw [Pipeline.unscopedBufs_held] at hjoin
    iintro ⟨Ha, HO, HY, Hrest, HG⟩
    imodintro
    isplitl [Ha Hrest]
    · iapply hjoin; isplitl [Ha] <;> iassumption
    iapply (hE' c)
    isplitl [HY]; · iexact HY
    isplitl [HO]
    · unfold Pipeline.Dat.owesAt Pipeline.owesWithin
      icases HO with ⟨%W, -, HO⟩; iexists W; iexact HO
    iexact HG

end Region

end Cert.KernelIdeal.Hand

end
-- ==== Proof.G7Dat.lean ====
/-
  The gather kernel of layer 3 (pipeline 7): its proof data.

  The grid is 391 x 25, the second axis fastest: point t has coordinates (t / 25, t % 25). Along the second
  axis the kernel accumulates, in a scratch buffer it keeps between points, the products of a one-hot matrix
  (row r has its one at column src r - 2048 * (t % 25), if that falls in the block) with the block of h the
  point fetches; the accumulator is reset where t % 25 = 0 and, where t % 25 = 24, scaled row by row by the
  norm column and stored into the output block, which the pipeline writes back there and nowhere else.
-/
import proofs.«104867_j4217657884863_1_alg».proof.Proof.Gen.KernelIdeal.Launch
import proofs.«104867_j4217657884863_1_alg».proof.Proof.Gen.KernelIdeal.Skeleton
import Idealize.ShloMosaic.Lib.Pipeline.Frame
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section

variable (V : Dev nD → Valuation τ sig (Elt F))

/-- Window w's block at point t, read off its array as the region finds it. -/
def iblk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- The accumulator after the body at point n: one step of the one-hot product added to what the point before
    left, or to zero where the row of the grid begins (n % 25 = 0). -/
def acc7 (c : Dev nD) : (n : ℕ) → n < cfg7.N → Vec F S2048x64 .f32
  | 0, hn => k7_pay2 (grid7.coords ⟨0, hn⟩) (iblk7 V c 1 ⟨0, hn⟩) (iblk7 V c 0 ⟨0, hn⟩) (k7_pay1 (F := F))
  | n + 1, hn =>
    if (n + 1) % 25 = 0 then
      k7_pay2 (grid7.coords ⟨n + 1, hn⟩) (iblk7 V c 1 ⟨n + 1, hn⟩) (iblk7 V c 0 ⟨n + 1, hn⟩) (k7_pay1 (F := F))
    else
      k7_pay2 (grid7.coords ⟨n + 1, hn⟩) (iblk7 V c 1 ⟨n + 1, hn⟩) (iblk7 V c 0 ⟨n + 1, hn⟩) (acc7 c n (Nat.lt_of_succ_lt hn))

/-- The scratch operand: a whole scoped buffer of the kernel's own. -/
abbrev scM7 : Memref sig .tc .vmem S2048x64 .f32 := Memref.whole cc7_scratch0

/-- The invariant before position n: before the first point every scoped buffer that is no staging buffer at
    some contents; afterwards the accumulator's buffer whole at what the point before left, the other such
    buffers at some contents; the generator register at some state throughout. -/
def PhiG7 (c : Dev nD) : (n : ℕ) → n ≤ cfg7.N → sProp 𝕄
  | 0, _ => iprop(Pipeline.scopedRest spec7 c ∗ ∃ r, prngReg c r)
  | n + 1, hn => iprop(owns (c : Thread nD τ) scM7 fullShare (acc7 V c n hn)
      ∗ Pipeline.scopedRestBut spec7 c [cc7_scratch0] ∗ ∃ r, prngReg c r)

/-- The proof data of pipeline 1 on core c: the arrays as the region finds them; after the body each input's
    buffer at its block, the output's at the accumulator scaled by the norm column (consulted only where the
    block is written back, t % 25 = 24); the invariant above; nothing owed; full shares. -/
def datG7 (c : Dev nD) : Dat τ (Elt F) Ix ℕ U Lvl cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (acc7 V c t.val t.isLt) (iblk7 V c 2 t)
  Φ t := PhiG7 V c t.val (Nat.le_of_lt_succ t.isLt)
  q _ := fullShare
  owed _ := 0

theorem datG7_A (c : Dev nD) (w : Fin cfg7.W) : (datG7 (Ix := Ix) (U := U) (Lvl := Lvl) V c).A w = V c (Pipeline.arrRef spec7 w) := by
  dsimp only [datG7]

theorem after7_0 (c : Dev nD) (t : Fin cfg7.N) : (datG7 (Ix := Ix) (U := U) (Lvl := Lvl) V c).after 0 t = iblk7 V c 0 t := by dsimp only [datG7]
theorem after7_1 (c : Dev nD) (t : Fin cfg7.N) : (datG7 (Ix := Ix) (U := U) (Lvl := Lvl) V c).after 1 t = iblk7 V c 1 t := by dsimp only [datG7]
theorem after7_2 (c : Dev nD) (t : Fin cfg7.N) : (datG7 (Ix := Ix) (U := U) (Lvl := Lvl) V c).after 2 t = iblk7 V c 2 t := by dsimp only [datG7]
theorem after7_3 (c : Dev nD) (t : Fin cfg7.N) :
    (datG7 (Ix := Ix) (U := U) (Lvl := Lvl) V c).after 3 t = k7_pay3 (acc7 V c t.val t.isLt) (iblk7 V c 2 t) := by dsimp only [datG7]

end

end Cert.KernelIdeal.Hand

end
-- ==== Proof.G7Runs.lean ====
/-
  The gather kernel of layer 3 (pipeline 7): the body's three control cases on whole memrefs.

  Three control cases along the second grid axis j = t % 25: the first step (j = 0) resets the accumulator
  before adding into it; a middle step adds; the last step (j = 24) adds and then stores the accumulator,
  scaled row by row by the norm column, into the output block.
-/
import proofs.«104867_j4217657884863_1_alg».proof.Proof.G7Dat
import proofs.«104867_j4217657884863_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions, as functions of the grid point -/

/-- The first conditional's condition: the second coordinate is 0. -/
abbrev cond7_0 (i : grid7.Coords) : Prop :=
  (Scalar.cmpi .ne (Scalar.extui (Scalar.cmpi .eq (BitVec.ofNat 32 (i 1).val) 0#32)) 0#32) = 1#1
/-- The second conditional's condition: the second coordinate is 24. -/
abbrev cond7_1 (i : grid7.Coords) : Prop := k7_cond2 i = 1#1

theorem hz2_7 : (![0, 0] : Fin 2 → Nat) = fun _ => 0 := by funext a; fin_cases a <;> rfl

section Runs

variable (𝒱₀ : Variants)

set_option maxHeartbeats 1000000 in
/-- A middle step on whole memrefs: the accumulator's buffer at xs is left at one more step added to xs; the
    two blocks it reads are left as they were; the norm column's and the output's buffers are not touched. -/
theorem run7_B (c : Dev nD) (E : Set ℕ) (i : grid7.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond7_0 i) (hc1 : ¬cond7_1 i)
    (x0 : Vec F S2048x64 .f32) (x1 : Vec F S2048x1 .i32) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k7_pay2 i x1 x0 xs)) -∗ K ⟨⟩))
      ⊢ wp frame (wpE (defs₀ (F := F)) 𝒱₀ c none) E (cc7__gather_kernel i arg2 harg2 arg3 harg3 arg4 harg4 arg5 harg5 arg6 harg6) K := by
  simp only [cc7__gather_kernel_eq_skeleton]; unfold cc7__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (fun y => ⟨_, List.Mem.head _, View.mem_set_unit_zero hz2_7 inb_S2048x64_S2048x64_0_0 y⟩), View.canon_unit_zero hz2_7]
  simp only [View.readAt_eq_ld, harg2.read_unread, harg3.read_unread, harg6.read_unread, View.ld_unit_zero (S := S2048x64) hz2_7, View.ld_unit_zero (S := S2048x1) hz2_7]

set_option maxHeartbeats 1000000 in
/-- The first step of a row on whole memrefs: the accumulator's buffer, at anything, is left at one step added
    to zero; the two blocks it reads are left as they were. -/
theorem run7_A (c : Dev nD) (E : Set ℕ) (i : grid7.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : cond7_0 i) (hc1 : ¬cond7_1 i)
    (x0 : Vec F S2048x64 .f32) (x1 : Vec F S2048x1 .i32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k7_pay2 i x1 x0 (k7_pay1 (F := F)))) -∗ K ⟨⟩))
      ⊢ wp frame (wpE (defs₀ (F := F)) 𝒱₀ c none) E (cc7__gather_kernel i arg2 harg2 arg3 harg3 arg4 harg4 arg5 harg5 arg6 harg6) K := by
  simp only [cc7__gather_kernel_eq_skeleton]; unfold cc7__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [View.read_writes_eq_canon _ _ _ (fun y => ⟨_, List.Mem.head _, View.mem_set_unit_zero hz2_7 inb_S2048x64_S2048x64_0_0 y⟩), View.canon_cons_unit_zero hz2_7]
  simp only [View.readAt_eq_ld, harg2.read_unread, harg3.read_unread, View.ld_unit_zero (S := S2048x64) hz2_7, View.ld_unit_zero (S := S2048x1) hz2_7, View.readCov_unit_zero (S := S2048x64) _ hz2_7]

set_option maxHeartbeats 1000000 in
/-- The last step of a row on whole memrefs: the accumulator's buffer at xs is left at one more step added to
    xs, and the output's buffer, at anything, at that scaled row by row by the norm column; the three blocks it
    reads are left as they were. -/
theorem run7_C (c : Dev nD) (E : Set ℕ) (i : grid7.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond7_0 i) (hc1 : cond7_1 i)
    (x0 : Vec F S2048x64 .f32) (x1 : Vec F S2048x1 .i32) (x2 : Vec F S2048x1 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k7_pay3 (k7_pay2 i x1 x0 xs) x2)
            ∗ owns (c : Thread nD τ) arg6 fullShare (k7_pay2 i x1 x0 xs)) -∗ K ⟨⟩))
      ⊢ wp frame (wpE (defs₀ (F := F)) 𝒱₀ c none) E (cc7__gather_kernel i arg2 harg2 arg3 harg3 arg4 harg4 arg5 harg5 arg6 harg6) K := by
  simp only [cc7__gather_kernel_eq_skeleton]; unfold cc7__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.Mem.head _, View.mem_set_unit_zero hz2_7 inb_S2048x64_S2048x64_0_0 y⟩), View.canon_unit_zero hz2_7]
    simp only [View.readAt_eq_ld, harg2.read_unread, harg3.read_unread, harg4.read_unread, harg6.read_unread, View.ld_unit_zero (S := S2048x64) hz2_7, View.ld_unit_zero (S := S2048x1) hz2_7, View.readCov_unit_zero (S := S2048x64) _ hz2_7]
  iexists _; isplitr
  swap; · iexact HS
  ipureintro
  sl_unfold_run_names
  rw [View.read_writes_eq_canon _ _ _ (fun y => ⟨_, List.Mem.head _, View.mem_set_unit_zero hz2_7 inb_S2048x64_S2048x64_0_0 y⟩), View.canon_unit_zero hz2_7]
  simp only [View.readAt_eq_ld, harg2.read_unread, harg3.read_unread, harg6.read_unread, View.ld_unit_zero (S := S2048x64) hz2_7, View.ld_unit_zero (S := S2048x1) hz2_7]

end Runs

end Cert.KernelIdeal.Hand

end
-- ==== Proof.G7Body.lean ====
/-
  The gather kernel of layer 3 (pipeline 7): the body obligation at every grid point.

  Point t has second coordinate t % 25. The inputs' staging buffers hold their blocks wherever the body is
  called; the output's buffer is handed back untouched except at the last step of a row, where it is written
  whole; the accumulator's buffer goes from what the point before left to what this point leaves.
-/
import proofs.«104867_j4217657884863_1_alg».proof.Proof.G7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions over the grid, in closed form -/

theorem coords7_1 (t : Fin cfg7.N) : ((grid7.coords t) 1).val = t.val % 25 := by
  show t.val / grid7.stride 1 % 25 = t.val % 25
  rw [show grid7.stride 1 = 1 from by decide, Nat.div_one]

theorem cond7_0_iff (i : grid7.Coords) : cond7_0 i ↔ (i 1).val = 0 :=
  (by decide : ∀ j : Fin 25,
    ((Scalar.cmpi .ne (Scalar.extui (Scalar.cmpi .eq (BitVec.ofNat 32 j.val) 0#32)) 0#32) = 1#1) ↔ j.val = 0) (i 1)

theorem cond7_1_iff (i : grid7.Coords) : cond7_1 i ↔ (i 1).val = 24 :=
  (by decide : ∀ j : Fin 25,
    ((Scalar.cmpi .ne (Scalar.extui (Scalar.cmpi .eq (BitVec.ofNat 32 j.val) 24#32)) 0#32) = 1#1) ↔ j.val = 24) (i 1)

theorem hcond7_0 (t : Fin cfg7.N) : cond7_0 (grid7.coords t) ↔ t.val % 25 = 0 := by
  rw [cond7_0_iff, coords7_1]
theorem hcond7_1 (t : Fin cfg7.N) : cond7_1 (grid7.coords t) ↔ t.val % 25 = 24 := by
  rw [cond7_1_iff, coords7_1]

/-- The output window is idle exactly where the second conditional is not taken. -/
theorem idle7_3_of (i : grid7.Coords) (h : ¬cond7_1 i) : cfg7.idle 3 i = true := by
  show (!(k7_cond2 i == 1#1)) = true
  rw [Bool.not_eq_true', beq_eq_false_iff_ne]; exact h
theorem live7_3_of (i : grid7.Coords) (h : cond7_1 i) : cfg7.idle 3 i = false := by
  show (!(k7_cond2 i == 1#1)) = false
  rw [Bool.not_eq_false', beq_iff_eq]; exact h

section Body

variable (V : Dev nD → Valuation τ sig (Elt F)) (𝒱₀ : Variants) (ι : Ix)

local notation "dG" => datG7 (Ix := Ix) (U := U) (Lvl := Lvl) V

/-! ## The inputs' staging buffers hold their blocks wherever the body is called -/

theorem before7_0 (c : Dev nD) (t : Fin cfg7.N) (d) : (dG c).before 0 t d = iblk7 V c 0 t :=
  ((dG c).before_in_eq_fetched 0 rfl (fun _ => rfl) (fun _ _ _ => rfl)
      (fun t => by rw [after7_0]; unfold Dat.blockOf iblk7; rw [datG7_A]; try rfl) t d).trans
    (by unfold Dat.fetched Dat.blockOf iblk7; rw [datG7_A]; try rfl)
theorem before7_1 (c : Dev nD) (t : Fin cfg7.N) (d) : (dG c).before 1 t d = iblk7 V c 1 t :=
  ((dG c).before_in_eq_fetched 1 rfl (fun _ => rfl) (fun _ _ _ => rfl)
      (fun t => by rw [after7_1]; unfold Dat.blockOf iblk7; rw [datG7_A]; try rfl) t d).trans
    (by unfold Dat.fetched Dat.blockOf iblk7; rw [datG7_A]; try rfl)
theorem before7_2 (c : Dev nD) (t : Fin cfg7.N) (d) : (dG c).before 2 t d = iblk7 V c 2 t :=
  ((dG c).before_in_eq_fetched 2 rfl (fun _ => rfl) (fun _ _ _ => rfl)
      (fun t => by rw [after7_2]; unfold Dat.blockOf iblk7; rw [datG7_A]; try rfl) t d).trans
    (by unfold Dat.fetched Dat.blockOf iblk7; rw [datG7_A]; try rfl)

/-! ## The accumulator, case by case -/

theorem acc7_first (c : Dev nD) (t : Fin cfg7.N) (h0 : t.val % 25 = 0) :
    acc7 V c t.val t.isLt = k7_pay2 (grid7.coords t) (iblk7 V c 1 t) (iblk7 V c 0 t) (k7_pay1 (F := F)) := by
  obtain ⟨n, hn⟩ := t
  cases n with
  | zero => rfl
  | succ n => exact if_pos h0

theorem acc7_next (c : Dev nD) (t : Fin cfg7.N) (h0 : ¬t.val % 25 = 0) :
    acc7 V c t.val t.isLt = k7_pay2 (grid7.coords t) (iblk7 V c 1 t) (iblk7 V c 0 t)
      (acc7 V c (t.val - 1) (Nat.lt_of_le_of_lt (Nat.sub_le _ _) t.isLt)) := by
  obtain ⟨n, hn⟩ := t
  cases n with
  | zero => exact absurd (Nat.zero_mod _) h0
  | succ n => exact if_neg h0

/-! ## The invariant, position by position -/

theorem PhiG7_zero (c : Dev nD) (n : ℕ) (h : n ≤ cfg7.N) (hz : n = 0) :
    (PhiG7 V c n h : sProp 𝕄) = iprop(Pipeline.scopedRest spec7 c ∗ ∃ r, prngReg c r) := by
  subst hz; rfl

theorem PhiG7_succ (c : Dev nD) (n : ℕ) (hn : n < cfg7.N) :
    (PhiG7 V c (n + 1) hn : sProp 𝕄) = iprop(owns (c : Thread nD τ) scM7 fullShare (acc7 V c n hn)
      ∗ Pipeline.scopedRestBut spec7 c [cc7_scratch0] ∗ ∃ r, prngReg c r) := rfl

theorem PhiG7_pos (c : Dev nD) (n : ℕ) (h : n ≤ cfg7.N) (hz : n ≠ 0) :
    (PhiG7 V c n h : sProp 𝕄) = iprop(owns (c : Thread nD τ) scM7 fullShare (acc7 V c (n - 1) (by omega))
      ∗ Pipeline.scopedRestBut spec7 c [cc7_scratch0] ∗ ∃ r, prngReg c r) := by
  cases n with
  | zero => exact absurd rfl hz
  | succ n => rfl

theorem PhiG7_castSucc (c : Dev nD) (t : Fin cfg7.N) :
    (dG c).Φ t.castSucc = PhiG7 V c t.val (Nat.le_of_lt t.isLt) := by
  dsimp only [datG7]; simp only [Fin.coe_castSucc]

/-! ## The body obligation -/

abbrev ms7_0 (t : Fin cfg7.N) : Memref sig .tc .vmem S2048x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x1 .i32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x64 .f32 := win7_3.stage (cfg7.slots t 3)
abbrev hs7_3 (t : Fin cfg7.N) : (ms7_3 t).IsWhole := hstage7_3 ((cfg7.slots t 3).cast nbuf7_3)

/-- What the body is called with at point t, the windows one by one, -/
def bodyPre7 (c : Dev nD) (t : Fin cfg7.N) : sProp 𝕄 :=
  iprop((dG c).Φ t.castSucc ∗ (dG c).owesAt ι t.castSucc
    ∗ (∃ d, owns (c : Thread nD τ) (ms7_0 t) fullShare ((dG c).before 0 t d))
    ∗ (∃ d, owns (c : Thread nD τ) (ms7_1 t) fullShare ((dG c).before 1 t d))
    ∗ (∃ d, owns (c : Thread nD τ) (ms7_2 t) fullShare ((dG c).before 2 t d))
    ∗ (∃ d, owns (c : Thread nD τ) (ms7_3 t) fullShare ((dG c).before 3 t d)))

/-- and what it returns. -/
def bodyPost7 (c : Dev nD) (t : Fin cfg7.N) : sProp 𝕄 :=
  iprop((dG c).Φ t.succ ∗ (dG c).owesAt ι t.succ
    ∗ (dG c).leavesExact 0 t ∗ (dG c).leavesExact 1 t ∗ (dG c).leavesExact 2 t ∗ (dG c).leavesExact 3 t)

set_option maxHeartbeats 4000000 in
theorem sound_body7 (c : Dev nD) (t : Fin cfg7.N) :
    (bodyPre7 V ι c t : sProp 𝕄) ⊢ wp frame (wpE (defs₀ (F := F)) 𝒱₀ c none) Set.univ (bodyAt7 t) (fun _ => bodyPost7 V ι c t) := by
  unfold bodyPre7 bodyPost7 bodyAt7
  simp only [before7_0, before7_1, before7_2]
  rw [show (dG c).owesAt ι t.succ = (dG c).owesAt ι t.castSucc from rfl]
  rw [show (dG c).Φ t.succ = PhiG7 V c (t.val + 1) t.isLt from rfl, PhiG7_succ]
  rw [show (dG c).leavesExact 0 t = owns (c : Thread nD τ) (ms7_0 t) fullShare ((dG c).after 0 t) from rfl, after7_0]
  rw [show (dG c).leavesExact 1 t = owns (c : Thread nD τ) (ms7_1 t) fullShare ((dG c).after 1 t) from rfl, after7_1]
  rw [show (dG c).leavesExact 2 t = owns (c : Thread nD τ) (ms7_2 t) fullShare ((dG c).after 2 t) from rfl, after7_2]
  have hnf : ¬t.val % 25 = 24 → (cfg7.win 3).flush t = false := fun h1 =>
    Bool.eq_false_iff.mpr fun hf => h1 ((flush7_3 t).mp hf)
  by_cases h0 : t.val % 25 = 0
  · -- the first step of a row
    have h1 : ¬t.val % 25 = 24 := by omega
    have hc0 : cond7_0 (grid7.coords t) := (hcond7_0 t).mpr h0
    have hc1 : ¬cond7_1 (grid7.coords t) := fun h => h1 ((hcond7_1 t).mp h)
    rw [Dat.leavesExact_idle (dG c) 3 t (idle7_3_of _ hc1) (hnf h1)]
    rw [acc7_first V c t h0]
    by_cases hz : t.val = 0
    · rw [PhiG7_castSucc, PhiG7_zero V c _ _ hz, scopedRest7_split]
      iintro ⟨⟨⟨⟨%fs, HS⟩, Hrest⟩, Hg⟩, Ho, ⟨%d0, H0⟩, ⟨%d1, H1⟩, ⟨%d2, H2⟩, H3⟩
      iapply (run7_A 𝒱₀ c Set.univ (grid7.coords t) _ _ _ _ _ _ _ _ _ _ hc0 hc1 (iblk7 V c 0 t) (iblk7 V c 1 t) _)
      isplitl [H0]; · iexact H0
      isplitl [H1]; · iexact H1
      isplitl [HS]; · iexists fs; rw [owns_whole]; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · rw [PhiG7_castSucc, PhiG7_pos V c _ _ hz]
      iintro ⟨⟨HS, Hrest, Hg⟩, Ho, ⟨%d0, H0⟩, ⟨%d1, H1⟩, ⟨%d2, H2⟩, H3⟩
      iapply (run7_A 𝒱₀ c Set.univ (grid7.coords t) _ _ _ _ _ _ _ _ _ _ hc0 hc1 (iblk7 V c 0 t) (iblk7 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond7_0 (grid7.coords t) := fun h => h0 ((hcond7_0 t).mp h)
    rw [acc7_next V c t h0, PhiG7_castSucc, PhiG7_pos V c _ _ hz]
    by_cases h1 : t.val % 25 = 24
    · -- the last step of a row
      have hc1 : cond7_1 (grid7.coords t) := (hcond7_1 t).mpr h1
      rw [show (dG c).leavesExact 3 t = owns (c : Thread nD τ) (ms7_3 t) fullShare ((dG c).after 3 t) from by
        unfold Dat.leavesExact; rw [live7_3_of _ hc1], after7_3, acc7_next V c t h0]
      iintro ⟨⟨HS, Hrest, Hg⟩, Ho, ⟨%d0, H0⟩, ⟨%d1, H1⟩, ⟨%d2, H2⟩, ⟨%d3, H3⟩⟩
      iapply (run7_C 𝒱₀ c Set.univ (grid7.coords t) _ _ _ _ _ _ _ _ _ _ hc0 hc1 (iblk7 V c 0 t) (iblk7 V c 1 t) (iblk7 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · -- a middle step
      have hc1 : ¬cond7_1 (grid7.coords t) := fun h => h1 ((hcond7_1 t).mp h)
      rw [Dat.leavesExact_idle (dG c) 3 t (idle7_3_of _ hc1) (hnf h1)]
      iintro ⟨⟨HS, Hrest, Hg⟩, Ho, ⟨%d0, H0⟩, ⟨%d1, H1⟩, ⟨%d2, H2⟩, H3⟩
      iapply (run7_B 𝒱₀ c Set.univ (grid7.coords t) _ _ _ _ _ _ _ _ _ _ hc0 hc1 (iblk7 V c 0 t) (iblk7 V c 1 t) _ _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3

/-- The library's body obligation, at every point. -/
theorem body_obligation7 (c : Dev nD) : BodyObligation (dG c) (defs₀ (F := F)) 𝒱₀ ι Set.univ := fun t => by
  rw [bigSep_W7, bigSep_W7]
  exact sound_body7 V 𝒱₀ ι c t

theorem body_obligation7_loose (c : Dev nD) : BodyObligationLoose (dG c) (defs₀ (F := F)) 𝒱₀ ι Set.univ :=
  (body_obligation7 V 𝒱₀ ι c).loose

end Body

end Cert.KernelIdeal.Hand

end
-- ==== Proof.G7Region.lean ====
/-
  The gather kernel of layer 3 (pipeline 7) as a region of the program.

  The region is entered from every unscoped buffer held at a valuation V beside a rest, and left at V updated
  at the output array, which then holds the pipeline's write-backs folded over the grid. The rest must supply the
  generator register and a core that owes nothing, and gets both back; whatever else it holds rides along.
-/
import proofs.«104867_j4217657884863_1_alg».proof.Proof.G7Body
import proofs.«104867_j4217657884863_1_alg».proof.Proof.Dats
import proofs.«104867_j4217657884863_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section Region

variable (V : Dev nD → Valuation τ sig (Elt F)) (𝒱₀ : Variants) (ι : Ix)
  (L : GSem nD τ sig → Finset Ix) (lv : GSem nD τ sig → Ix → Lvl)
  (d0 : (c : Dev nD) → Dat τ (Elt F) Ix ℕ U Lvl (cfgs 0) c)
  (d1 : (c : Dev nD) → Dat τ (Elt F) Ix ℕ U Lvl (cfgs 1) c)
  (d2 : (c : Dev nD) → Dat τ (Elt F) Ix ℕ U Lvl (cfgs 2) c)
  (d3 : (c : Dev nD) → Dat τ (Elt F) Ix ℕ U Lvl (cfgs 3) c)
  (d4 : (c : Dev nD) → Dat τ (Elt F) Ix ℕ U Lvl (cfgs 4) c)
  (d5 : (c : Dev nD) → Dat τ (Elt F) Ix ℕ U Lvl (cfgs 5) c)
  (d6 : (c : Dev nD) → Dat τ (Elt F) Ix ℕ U Lvl (cfgs 6) c)
  (d8 : (c : Dev nD) → Dat τ (Elt F) Ix ℕ U Lvl (cfgs 8) c)

local notation "dG" => datG7 (Ix := Ix) (U := U) (Lvl := Lvl) V
local notation "pd" => pdats d0 d1 d2 d3 d4 d5 d6 (datG7 V) d8

/-- What the region leaves in the unscoped buffers: the output array at the write-backs folded over the grid,
    every other buffer as found. -/
def VoutG7 (c : Dev nD) : Valuation τ sig (Elt F) :=
  Function.update (V c) (Proc.devRef .tc main_v64) ((dG c).arrAt 3 cfg7.N)

theorem hF7 (c : Dev nD) (w : Fin cfg7.W) :
    (dG c).arrAt w cfg7.N = VoutG7 (Ix := Ix) (U := U) (Lvl := Lvl) V c (Pipeline.arrRef spec7 w) := by
  unfold VoutG7
  match w with
  | ⟨0, _⟩ => exact ((dG c).arrAt_in 0 rfl _).trans ((datG7_A V c 0).trans
      (Function.update_of_ne (StableHlo.devRef_ne_of_ne (by decide)) _ _).symm)
  | ⟨1, _⟩ => exact ((dG c).arrAt_in 1 rfl _).trans ((datG7_A V c 1).trans
      (Function.update_of_ne (StableHlo.devRef_ne_of_ne (by decide)) _ _).symm)
  | ⟨2, _⟩ => exact ((dG c).arrAt_in 2 rfl _).trans ((datG7_A V c 2).trans
      (Function.update_of_ne (StableHlo.devRef_ne_of_ne (by decide)) _ _).symm)
  | ⟨3, _⟩ => exact (Function.update_self (Proc.devRef (τ := τ) .tc main_v64) _ (V c)).symm

theorem hrest7 (c : Dev nD) (b : Ref sig .tc) (hb : b ∉ Finset.univ.image (Pipeline.arrRef spec7)) :
    VoutG7 (Ix := Ix) (U := U) (Lvl := Lvl) V c b = V c b := by
  unfold VoutG7
  exact Function.update_of_ne (StableHlo.devRef_ne_of_ne fun e =>
    hb (Finset.mem_image.mpr ⟨3, Finset.mem_univ _, e.symm⟩)) _ _

set_option backward.isDefEq.respectTransparency.types false in
/-- The region's record: the launch's layout, no semaphore of the kernel's own, the body obligation, and the four
    entailments around the thread states. -/
def regionG7 (G E E' : Dev nD → sProp 𝕄)
    (hE : ∀ c, E c ⊢ iprop((∃ r, prngReg c r) ∗ (∃ W, owes (c : Thread nD τ) (0 : CellTallies nD τ sig Ix) W) ∗ G c))
    (hE' : ∀ c, iprop((∃ r, prngReg c r) ∗ (∃ W, owes (c : Thread nD τ) (0 : CellTallies nD τ sig Ix) W) ∗ G c) ⊢ E' c) :
    RegionSeg (pcfgs (F := F)) adm pd ι defs₀ 𝒱₀ L lv 7 where
  win := launch7.win.to₀
  block_pos := launch7.block_pos
  stage_whole := launch7.stage_whole
  K := PEmpty
  osem k := k.elim
  ho := Pipeline.OwnSemFacts.none _
  hbody c := body_obligation7_loose V 𝒱₀ ι c
  hwaits := Pipeline.hwaits_of_owed_zero _ _ _ _ L lv 7 fun _ _ => rfl
  pre c := iprop(StableHlo.held (c : Thread nD τ) (Pipeline.ucRefs τ sig) (V c) ∗ E c)
  post c := iprop(StableHlo.held (c : Thread nD τ) (Pipeline.ucRefs τ sig) (VoutG7 (Ix := Ix) (U := U) (Lvl := Lvl) V c) ∗ E' c)
  X c := iprop(∃ r, prngReg c r)
  Y c := iprop(∃ r, prngReg c r)
  Z c := iprop(Pipeline.unscopedRest spec7 c (fun b => V c b) ∗ G c)
  hentry c := by
    rw [Pipeline.ownSems0_none]
    have hsplit := Pipeline.arrays_of_unscopedBufs (p := 7) (pcfgs (F := F)) adm pd launch7.win launch7.arr_whole c
      ((pd 7 c).share_full fun _ => rfl) (fun b => V c b) fun _ => rfl
    rw [Pipeline.unscopedBufs_held] at hsplit
    iintro ⟨⟨Hub, HE⟩, -, -⟩
    ihave H := hsplit $$ Hub
    icases H with ⟨Ha, Hrest⟩
    ihave HE' := (hE c) $$ HE
    icases HE' with ⟨Hp, HO, HG⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pd 7 c).Φ 0 = PhiG7 V c 0 (Nat.zero_le _) from rfl, PhiG7_zero V c 0 _ rfl]
    iintro ⟨Hp, -, Hr⟩
    isplitl [Hr]; · iexact Hr
    iexact Hp
  hout c := by
    rw [Pipeline.ownSems0_none, show (pd 7 c).Φ (Fin.last _) = PhiG7 V c cfg7.N (Nat.le_refl _) from rfl,
      PhiG7_pos V c _ _ (by have : cfg7.N = 9775 := N_7; omega)]
    show _ ⊢ iprop(_ ∗ _ ∗ Pipeline.scopedRest spec7 c)
    rw [scopedRest7_split]
    iintro ⟨HS, Hrest, Hp⟩
    isplitl [Hp]; · iexact Hp
    isplitr; · iempintro
    isplitl [HS]
    · iexists _; rw [← owns_whole]; iexact HS
    iexact Hrest
  hexit c := by
    have hjoin := Pipeline.unscopedBufs_of_arrays (p := 7) (pcfgs (F := F)) adm (Ix := Ix) (Name := ℕ) (U := U) (Lvl := Lvl)
      launch7.win launch7.arr_whole c pd ((pd 7 c).share_full fun _ => rfl)
      (fun b => V c b) (fun b => VoutG7 (Ix := Ix) (U := U) (Lvl := Lvl) V c b) ((pd 7 c).arrAt · cfg7.N) (hF7 V c) (hrest7 V c)
    rw [Pipeline.unscopedBufs_held] at hjoin
    iintro ⟨Ha, HO, HY, Hrest, HG⟩
    imodintro
    isplitl [Ha Hrest]
    · iapply hjoin; isplitl [Ha] <;> iassumption
    iapply (hE' c)
    isplitl [HY]; · iexact HY
    isplitl [HO]
    · unfold Pipeline.Dat.owesAt Pipeline.owesWithin
      icases HO with ⟨%W, -, HO⟩; iexists W; iexact HO
    iexact HG

end Region

end Cert.KernelIdeal.Hand

end
-- ==== Proof.Scat2Pts.lean ====
import proofs.«104867_j4217657884863_1_alg».proof.Proof.Gen.KernelIdeal.Launch
import proofs.«104867_j4217657884863_1_alg».proof.Proof.Gen.KernelIdeal.Skeleton
import proofs.«104867_j4217657884863_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type}

local notation "𝕄" => MT nD τ sig Ix (Elt F) ℕ U Lvl

/-! # Scatter kernel, pipeline 2: the grid's control cases and the windows' blocks

The grid is 25 × 391, the second axis the fast one: point `t` has second coordinate `t % 391`. The body zeroes its
accumulator when that coordinate is 0 and stores the accumulator into the output block when it is 390. -/

/-- The condition of the body's first branch (the accumulator is zeroed): the second grid coordinate is 0. -/
abbrev cond2_0 (i : grid2.Coords) : Prop :=
  (Scalar.cmpi .ne (Scalar.extui (Scalar.cmpi .eq (BitVec.ofNat 32 (i 1).val) 0#32)) 0#32) = 1#1
/-- It holds exactly at the points ≡ 0 (mod 391). -/
theorem hcond2_0 : ∀ t : Fin cfg2.N, cond2_0 (grid2.coords t) ↔ t.val % 391 = 0 :=
  (by decide +kernel : ∀ t : Fin grid2.N, cond2_0 (grid2.coords t) ↔ t.val % 391 = 0)

/-- The condition of the body's second branch (the output block is stored): the second grid coordinate is 390. -/
abbrev cond2_1 (i : grid2.Coords) : Prop := k2_cond2 i = 1#1
/-- It holds exactly at the points ≡ 390 (mod 391). -/
theorem hcond2_1 : ∀ t : Fin cfg2.N, cond2_1 (grid2.coords t) ↔ t.val % 391 = 390 :=
  (by decide +kernel : ∀ t : Fin grid2.N, cond2_1 (grid2.coords t) ↔ t.val % 391 = 390)

/-- The two input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Away from the last step of a row the output window is idle and is not written back; at the last step it is live. -/
theorem idleAt2_2 : ∀ t : Fin cfg2.N, ¬cond2_1 (grid2.coords t) → cfg2.idle 2 (grid2.coords t) = true :=
  (by decide +kernel : ∀ t : Fin grid2.N, ¬cond2_1 (grid2.coords t) → cfg2.idle 2 (grid2.coords t) = true)
theorem noFlush2_2 : ∀ t : Fin cfg2.N, ¬cond2_1 (grid2.coords t) → (cfg2.win 2).flush t = false :=
  (by decide +kernel : ∀ t : Fin grid2.N, ¬cond2_1 (grid2.coords t) → win2_2.flush t = false)
theorem liveAt2_2 : ∀ t : Fin cfg2.N, cond2_1 (grid2.coords t) → cfg2.idle 2 (grid2.coords t) = false :=
  (by decide +kernel : ∀ t : Fin grid2.N, cond2_1 (grid2.coords t) → cfg2.idle 2 (grid2.coords t) = false)

/-- Each window's current staging memref at point `t`, and its wholeness. -/
abbrev ms2_0 (t : Fin cfg2.N) : Memref sig .tc .vmem S2048x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev scM2_0 : Memref sig .tc .vmem S2048x64 .f32 := Memref.whole cc2_scratch0
/-- The views through which the accumulator's and the output block's contents are stated. -/
abbrev VS2_0 : View sig .tc .vmem S2048x64 .f32 := scM2_0.view
abbrev VO2_2 : View sig .tc .vmem S2048x64 .f32 := (Memref.whole cc2_stg2_0 : Memref sig .tc .vmem S2048x64 .f32).view

section Blocks

variable (V : Dev nD → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    region-entry one and whose body leaves the block in place. -/
theorem before2_0_of {c : Dev nD} (dat : Dat τ (Elt F) Ix ℕ U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix ℕ U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.KernelIdeal.Hand

end
-- ==== Proof.Scat2RunA.lean ====
import proofs.«104867_j4217657884863_1_alg».proof.Proof.Scat2Pts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the FIRST step of a row (first branch taken, second not): the accumulator, found at anything, is
    zeroed and then receives this step's contribution; the output block is not touched. The pieces the accumulator ends
    with are the witness the run finds. -/
noncomputable def kernelRun2_A (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x64 .f32) (x1 : Vec F S1x2048 .i32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc2__scatter_kernel i arg2 harg2 arg3 harg3 arg4 harg4 arg5 harg5) K } := by
  refine ⟨?_, fun 𝒱₀ d2 E K => ?run⟩
  case run =>
    simp only [cc2__scatter_kernel_eq_skeleton]; unfold cc2__scatter_kernel_skel
    unfold owns
    iintro ⟨⟨%f0, %hf0, H0⟩, ⟨%f1, %hf1, H1⟩, H2, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.KernelIdeal.Hand

end
-- ==== Proof.Scat2RunB.lean ====
import proofs.«104867_j4217657884863_1_alg».proof.Proof.Scat2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at a MIDDLE step of a row (neither branch taken): the accumulator, found at what the step before
    left, receives this step's contribution; the output block is not touched. -/
noncomputable def kernelRun2_B (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x64 .f32) (x1 : Vec F S1x2048 .i32) (xs0 : Vec F S2048x64 .f32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs0
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc2__scatter_kernel i arg2 harg2 arg3 harg3 arg4 harg4 arg5 harg5) K } := by
  refine ⟨?_, fun 𝒱₀ d2 E K => ?run⟩
  case run =>
    simp only [cc2__scatter_kernel_eq_skeleton]; unfold cc2__scatter_kernel_skel
    unfold owns
    iintro ⟨⟨%f0, %hf0, H0⟩, ⟨%f1, %hf1, H1⟩, H2, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.KernelIdeal.Hand

end
-- ==== Proof.Scat2RunC.lean ====
import proofs.«104867_j4217657884863_1_alg».proof.Proof.Scat2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the LAST step of a row (first branch not taken, second taken): the accumulator, found at what the
    step before left, receives this step's contribution and is then stored into the output block, found at anything. -/
noncomputable def kernelRun2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) :
    Σ' (L2 : List (View.Piece (Elt F) S2048x64 .f32)), { LS0 : List (View.Piece (Elt F) S2048x64 .f32) //
      ∀ (𝒱₀ : Variants) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) 𝒱₀ c none) E (cc2__scatter_kernel i arg2 harg2 arg3 harg3 arg4 harg4 arg5 harg5) K } := by
  refine ⟨?_, ?_, fun 𝒱₀ E K => ?run⟩
  case run =>
    simp only [cc2__scatter_kernel_eq_skeleton]; unfold cc2__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Scat2Dat.lean ====
import proofs.«104867_j4217657884863_1_alg».proof.Proof.Scat2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2: the accumulation and the proof data -/

section Data

variable (V : Dev nD → Valuation τ sig (Elt F))

/-! ## What each case leaves, read back -/

/-- The first step's pieces tile the accumulator, -/
theorem scover2_A (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x64 .f32) (x1 : Vec F S1x2048 .i32) (y : S2048x64.Idx) :
    ∃ pc ∈ (kernelRun2_A (Ix := Ix) (U := U) (Lvl := Lvl) c i arg2 harg2 arg3 harg3 arg4 harg4 arg5 harg5 hc0 hc1 x0 x1).1, y ∈ pc.1.set :=
  View.cover_of_tiledL (kernelRun2_A (Ix := Ix) (U := U) (Lvl := Lvl) c i arg2 harg2 arg3 harg3 arg4 harg4 arg5 harg5 hc0 hc1 x0 x1).1 S2048x64.size (by sl_kernel_rfl) y
/-- and this is what they leave in it. -/
def sout2_A (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x64 .f32) (x1 : Vec F S1x2048 .i32) : Vec F S2048x64 .f32 :=
  VS2_0.read (Elt F) (VS2_0.writes (Elt F) VS2_0.junk (kernelRun2_A (Ix := Ix) (U := U) (Lvl := Lvl) c i arg2 harg2 arg3 harg3 arg4 harg4 arg5 harg5 hc0 hc1 x0 x1).1)

/-- A middle step's pieces tile the accumulator, -/
theorem scover2_B (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x64 .f32) (x1 : Vec F S1x2048 .i32) (xs0 : Vec F S2048x64 .f32) (y : S2048x64.Idx) :
    ∃ pc ∈ (kernelRun2_B (Ix := Ix) (U := U) (Lvl := Lvl) c i arg2 harg2 arg3 harg3 arg4 harg4 arg5 harg5 hc0 hc1 x0 x1 xs0).1, y ∈ pc.1.set :=
  View.cover_of_tiledL (kernelRun2_B (Ix := Ix) (U := U) (Lvl := Lvl) c i arg2 harg2 arg3 harg3 arg4 harg4 arg5 harg5 hc0 hc1 x0 x1 xs0).1 S2048x64.size (by sl_kernel_rfl) y
/-- and this is what they leave in it. -/
def sout2_B (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x64 .f32) (x1 : Vec F S1x2048 .i32) (xs0 : Vec F S2048x64 .f32) : Vec F S2048x64 .f32 :=
  VS2_0.read (Elt F) (VS2_0.writes (Elt F) VS2_0.junk (kernelRun2_B (Ix := Ix) (U := U) (Lvl := Lvl) c i arg2 harg2 arg3 harg3 arg4 harg4 arg5 harg5 hc0 hc1 x0 x1 xs0).1)

/-- The last step's pieces tile the accumulator and the output block, -/
theorem scover2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) (y : S2048x64.Idx) :
    ∃ pc ∈ (kernelRun2_C (Ix := Ix) (U := U) (Lvl := Lvl) c i arg2 harg2 arg3 harg3 arg4 harg4 arg5 harg5 hc0 hc1 x0 x1 xs0).2.1, y ∈ pc.1.set :=
  View.cover_of_tiledL (kernelRun2_C (Ix := Ix) (U := U) (Lvl := Lvl) c i arg2 harg2 arg3 harg3 arg4 harg4 arg5 harg5 hc0 hc1 x0 x1 xs0).2.1 S2048x64.size (by sl_kernel_rfl) y
theorem cover2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) (y : S2048x64.Idx) :
    ∃ pc ∈ (kernelRun2_C (Ix := Ix) (U := U) (Lvl := Lvl) c i arg2 harg2 arg3 harg3 arg4 harg4 arg5 harg5 hc0 hc1 x0 x1 xs0).1, y ∈ pc.1.set :=
  View.cover_of_tiledL (kernelRun2_C (Ix := Ix) (U := U) (Lvl := Lvl) c i arg2 harg2 arg3 harg3 arg4 harg4 arg5 harg5 hc0 hc1 x0 x1 xs0).1 S2048x64.size (by sl_kernel_rfl) y
/-- and this is what they leave in each. -/
def sout2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) : Vec F S2048x64 .f32 :=
  VS2_0.read (Elt F) (VS2_0.writes (Elt F) VS2_0.junk (kernelRun2_C (Ix := Ix) (U := U) (Lvl := Lvl) c i arg2 harg2 arg3 harg3 arg4 harg4 arg5 harg5 hc0 hc1 x0 x1 xs0).2.1)
def out2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) : Vec F S2048x64 .f32 :=
  VO2_2.read (Elt F) (VO2_2.writes (Elt F) VO2_2.junk (kernelRun2_C (Ix := Ix) (U := U) (Lvl := Lvl) c i arg2 harg2 arg3 harg3 arg4 harg4 arg5 harg5 hc0 hc1 x0 x1 xs0).1)

/-! ## The accumulation -/

/-- THE ACCUMULATOR after the body at position `n`, by recursion on the position: at the first step of a row the
    first-step contents (they do not depend on what came before); at any other step that step's contents over what the
    position before left. -/
def accAt2 (c : Dev nD) : (n : ℕ) → n < cfg2.N → Vec F S2048x64 .f32
  | 0, hn => sout2_A (Ix := Ix) (U := U) (Lvl := Lvl) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩)
  | n + 1, hn =>
    if h0 : (n + 1) % 391 = 0 then
      if h1 : (n + 1) % 391 = 390 then
        False.elim (by omega)
      else
        sout2_A (Ix := Ix) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩)
    else
      if h1 : (n + 1) % 391 = 390 then
        sout2_C (Ix := Ix) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (accAt2 c n (Nat.lt_of_succ_lt hn))
      else
        sout2_B (Ix := Ix) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (accAt2 c n (Nat.lt_of_succ_lt hn))

/-- The accumulator at a first step, -/
theorem accAt2_A (c : Dev nD) (t : Fin cfg2.N) (h0 : t.val % 391 = 0) (h1 : ¬t.val % 391 = 390) :
    accAt2 (Ix := Ix) (U := U) (Lvl := Lvl) V c t.val t.isLt = sout2_A (Ix := Ix) (U := U) (Lvl := Lvl) c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t) := by
  obtain ⟨n, hn⟩ := t
  cases n with
  | zero => exact rfl
  | succ n => exact (dif_pos h0).trans ((dif_neg h1).trans rfl)
/-- at a middle step, -/
theorem accAt2_B (c : Dev nD) (t : Fin cfg2.N) (h0 : ¬t.val % 391 = 0) (h1 : ¬t.val % 391 = 390) :
    accAt2 (Ix := Ix) (U := U) (Lvl := Lvl) V c t.val t.isLt = sout2_B (Ix := Ix) (U := U) (Lvl := Lvl) c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (accAt2 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem accAt2_C (c : Dev nD) (t : Fin cfg2.N) (h0 : ¬t.val % 391 = 0) (h1 : t.val % 391 = 390) :
    accAt2 (Ix := Ix) (U := U) (Lvl := Lvl) V c t.val t.isLt = sout2_C (Ix := Ix) (U := U) (Lvl := Lvl) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (accAt2 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last step the block that step
    stores; elsewhere the window is idle and the value is not consulted (the accumulator stands in). -/
def outAt2 (c : Dev nD) (t : Fin cfg2.N) : Vec F S2048x64 .f32 :=
  if h1 : t.val % 391 = 390 then
    if h0 : t.val % 391 = 0 then accAt2 (Ix := Ix) (U := U) (Lvl := Lvl) V c t.val t.isLt
    else out2_C (Ix := Ix) (U := U) (Lvl := Lvl) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (accAt2 (Ix := Ix) (U := U) (Lvl := Lvl) V c (t.val - 1) (Nat.lt_of_le_of_lt (Nat.sub_le _ _) t.isLt))
  else accAt2 (Ix := Ix) (U := U) (Lvl := Lvl) V c t.val t.isLt

theorem outAt2_C (c : Dev nD) (t : Fin cfg2.N) (h0 : ¬t.val % 391 = 0) (h1 : t.val % 391 = 390) :
    outAt2 (Ix := Ix) (U := U) (Lvl := Lvl) V c t = out2_C (Ix := Ix) (U := U) (Lvl := Lvl) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (accAt2 (Ix := Ix) (U := U) (Lvl := Lvl) V c (t.val - 1) (Nat.lt_of_le_of_lt (Nat.sub_le _ _) t.isLt)) :=
  (dif_pos h1).trans (dif_neg h0)

/-! ## The invariant -/

/-- The kernel's scratch and every other scoped buffer no window stages, each at anything, beside the generator
    register at some state: what the region hands the first point. -/
def PhiZ2 (c : Dev nD) : sProp 𝕄 :=
  iprop(Pipeline.scopedRest (Ix := Ix) (Name := ℕ) (U := U) (Lvl := Lvl) (Val := Elt F) spec2 c ∗ ∃ r, prngReg c r)

/-- The invariant before position `n`: before the first point `PhiZ`; afterwards the accumulator whole at what the
    position before left, the other scoped buffers at anything, the generator register at some state. -/
def PhiS2 (c : Dev nD) : (n : ℕ) → n ≤ cfg2.N → sProp 𝕄
  | 0, _ => PhiZ2 c
  | n + 1, hn => iprop(owns (c : Thread nD τ) scM2_0 fullShare (accAt2 (Ix := Ix) (U := U) (Lvl := Lvl) V c n hn)
      ∗ Pipeline.scopedRestBut (Ix := Ix) (Name := ℕ) (U := U) (Lvl := Lvl) (Val := Elt F) spec2 c [cc2_scratch0] ∗ ∃ r, prngReg c r)

theorem PhiS2_zero (c : Dev nD) (n : ℕ) (h : n ≤ cfg2.N) (hz : n = 0) : PhiS2 (Ix := Ix) (U := U) (Lvl := Lvl) V c n h = PhiZ2 c := by
  subst hz; rfl
theorem PhiS2_succ (c : Dev nD) (n : ℕ) (hn : n < cfg2.N) :
    PhiS2 (Ix := Ix) (U := U) (Lvl := Lvl) V c (n + 1) hn = iprop(owns (c : Thread nD τ) scM2_0 fullShare (accAt2 (Ix := Ix) (U := U) (Lvl := Lvl) V c n hn)
      ∗ Pipeline.scopedRestBut (Ix := Ix) (Name := ℕ) (U := U) (Lvl := Lvl) (Val := Elt F) spec2 c [cc2_scratch0] ∗ ∃ r, prngReg c r) := rfl
theorem PhiS2_pos (c : Dev nD) (n : ℕ) (h : n ≤ cfg2.N) (hz : n ≠ 0) :
    PhiS2 (Ix := Ix) (U := U) (Lvl := Lvl) V c n h = iprop(owns (c : Thread nD τ) scM2_0 fullShare (accAt2 (Ix := Ix) (U := U) (Lvl := Lvl) V c (n - 1) (by omega))
      ∗ Pipeline.scopedRestBut (Ix := Ix) (Name := ℕ) (U := U) (Lvl := Lvl) (Val := Elt F) spec2 c [cc2_scratch0] ∗ ∃ r, prngReg c r) := by
  cases n with
  | zero => exact absurd rfl hz
  | succ n => rfl

/-- `PhiZ` with the accumulator split out of the scoped rest, owned at some contents. -/
theorem PhiZ2_eq (c : Dev nD) :
    (PhiZ2 c : sProp 𝕄)
      = iprop(((∃ d, owns (c : Thread nD τ) scM2_0 fullShare d)
          ∗ Pipeline.scopedRestBut (Ix := Ix) (Name := ℕ) (U := U) (Lvl := Lvl) (Val := Elt F) spec2 c [cc2_scratch0]) ∗ ∃ r, prngReg c r) := by
  unfold PhiZ2; rw [scopedRest2_split]; simp only [scM2_0, owns_whole]; try rfl

/-- After any point the invariant gives `PhiZ` back: the accumulator's named contents are forgotten. -/
theorem PhiS2_out (c : Dev nD) (n : ℕ) (h : n ≤ cfg2.N) (hz : n ≠ 0) :
    PhiS2 (Ix := Ix) (U := U) (Lvl := Lvl) V c n h ⊢ PhiZ2 c := by
  rw [PhiS2_pos V c _ _ hz, PhiZ2_eq]
  iintro ⟨HS0, HR, Hg⟩
  isplitl [HS0 HR]
  · isplitl [HS0]
    · iexists _; iexact HS0
    iexact HR
  iexact Hg

/-! ## The proof data -/

/-- The proof data of pipeline 2 on core `c`: the arrays as the region finds them; after the body each input's buffer
    at its block and the output's at `outAt`; the invariant `PhiS`; nothing owed; full shares. -/
def datS2 (c : Dev nD) : Dat τ (Elt F) Ix ℕ U Lvl cfg2 c where
  A w := V c (Pipeline.arrRef spec2 w)
  after w t := match w with
    | ⟨0, _⟩ => iblk2 V c 0 t
    | ⟨1, _⟩ => iblk2 V c 1 t
    | ⟨2, _⟩ => outAt2 (Ix := Ix) (U := U) (Lvl := Lvl) V c t
  Φ t := PhiS2 V c t.val (Nat.le_of_lt_succ t.isLt)
  q _ := fullShare
  owed _ := 0

theorem A_eq2 (c : Dev nD) (w : Fin cfg2.W) : (datS2 (Ix := Ix) (U := U) (Lvl := Lvl) V c).A w = V c (Pipeline.arrRef spec2 w) := by
  dsimp only [datS2]
theorem PhiS2_castSucc (c : Dev nD) (t : Fin cfg2.N) :
    (datS2 (Ix := Ix) (U := U) (Lvl := Lvl) V c).Φ t.castSucc = PhiS2 V c t.val (Nat.le_of_lt t.isLt) := by
  dsimp only [datS2]; simp only [Fin.coe_castSucc]
theorem after2_0 (c : Dev nD) (t : Fin cfg2.N) : (datS2 (Ix := Ix) (U := U) (Lvl := Lvl) V c).after 0 t = iblk2 V c 0 t := by dsimp only [datS2]
theorem after2_1 (c : Dev nD) (t : Fin cfg2.N) : (datS2 (Ix := Ix) (U := U) (Lvl := Lvl) V c).after 1 t = iblk2 V c 1 t := by dsimp only [datS2]
theorem after2_2 (c : Dev nD) (t : Fin cfg2.N) : (datS2 (Ix := Ix) (U := U) (Lvl := Lvl) V c).after 2 t = outAt2 (Ix := Ix) (U := U) (Lvl := Lvl) V c t := by dsimp only [datS2]
theorem before2_0 (c : Dev nD) (t : Fin cfg2.N) (d) : (datS2 (Ix := Ix) (U := U) (Lvl := Lvl) V c).before 0 t d = iblk2 V c 0 t :=
  before2_0_of V (datS2 V c) (A_eq2 V c 0) (after2_0 V c) t d
theorem before2_1 (c : Dev nD) (t : Fin cfg2.N) (d) : (datS2 (Ix := Ix) (U := U) (Lvl := Lvl) V c).before 1 t d = iblk2 V c 1 t :=
  before2_1_of V (datS2 V c) (A_eq2 V c 1) (after2_1 V c) t d

end Data

end Cert.KernelIdeal.Hand

end
-- ==== Proof.Scat2Body.lean ====
import proofs.«104867_j4217657884863_1_alg».proof.Proof.Scat2Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2: the body obligation -/

section Body

variable (𝒱₀ : Variants) (ι : Ix) (V : Dev nD → Valuation τ sig (Elt F))

/-- What the body is called with at point `t`, the windows one by one, -/
def bodyPre2 (c : Dev nD) (t : Fin cfg2.N) : sProp 𝕄 :=
  iprop((datS2 (Ix := Ix) (U := U) (Lvl := Lvl) V c).Φ t.castSucc ∗ (datS2 (Ix := Ix) (U := U) (Lvl := Lvl) V c).owesAt ι t.castSucc
    ∗ (∃ d, owns (c : Thread nD τ) (ms2_0 t) fullShare ((datS2 (Ix := Ix) (U := U) (Lvl := Lvl) V c).before 0 t d))
    ∗ (∃ d, owns (c : Thread nD τ) (ms2_1 t) fullShare ((datS2 (Ix := Ix) (U := U) (Lvl := Lvl) V c).before 1 t d))
    ∗ (∃ d, owns (c : Thread nD τ) (ms2_2 t) fullShare ((datS2 (Ix := Ix) (U := U) (Lvl := Lvl) V c).before 2 t d)))

/-- and what it returns. -/
def bodyPost2 (c : Dev nD) (t : Fin cfg2.N) : sProp 𝕄 :=
  iprop((datS2 (Ix := Ix) (U := U) (Lvl := Lvl) V c).Φ t.succ ∗ (datS2 (Ix := Ix) (U := U) (Lvl := Lvl) V c).owesAt ι t.succ
    ∗ (datS2 (Ix := Ix) (U := U) (Lvl := Lvl) V c).leavesExact 0 t
    ∗ (datS2 (Ix := Ix) (U := U) (Lvl := Lvl) V c).leavesExact 1 t
    ∗ (datS2 (Ix := Ix) (U := U) (Lvl := Lvl) V c).leavesExact 2 t)

set_option maxHeartbeats 4800000 in
/-- The body at any point. The inputs' buffers hold their blocks; the point's position in its row says which case it
    is in; the invariant hands the body the accumulator at what the position before left (at anything before the first
    point) and takes it back at this position's contents; away from a row's last step the output's buffer is handed
    back as found, at the last step it holds the stored block; the core owes nothing throughout. -/
theorem sound_body2 (c : Dev nD) (t : Fin cfg2.N) :
    bodyPre2 (F := F) (U := U) (Lvl := Lvl) ι V c t ⊢ wp frame (wpE (defs₀ (F := F)) 𝒱₀ c none) Set.univ (bodyAt2 t) (fun _ => bodyPost2 (F := F) (U := U) (Lvl := Lvl) ι V c t) := by
  unfold bodyPre2 bodyPost2 bodyAt2
  simp only [before2_0, before2_1]
  rw [show (datS2 (Ix := Ix) (U := U) (Lvl := Lvl) V c).owesAt ι t.succ = (datS2 (Ix := Ix) (U := U) (Lvl := Lvl) V c).owesAt ι t.castSucc from rfl]
  rw [show (datS2 (Ix := Ix) (U := U) (Lvl := Lvl) V c).Φ t.succ = PhiS2 V c (t.val + 1) t.isLt from rfl, PhiS2_succ]
  rw [show (datS2 (Ix := Ix) (U := U) (Lvl := Lvl) V c).leavesExact 0 t = owns (c : Thread nD τ) (ms2_0 t) fullShare ((datS2 (Ix := Ix) (U := U) (Lvl := Lvl) V c).after 0 t) from by
    unfold Dat.leavesExact; rw [liveAt2_0 t], after2_0]
  rw [show (datS2 (Ix := Ix) (U := U) (Lvl := Lvl) V c).leavesExact 1 t = owns (c : Thread nD τ) (ms2_1 t) fullShare ((datS2 (Ix := Ix) (U := U) (Lvl := Lvl) V c).after 1 t) from by
    unfold Dat.leavesExact; rw [liveAt2_1 t], after2_1]
  have hN : t.val < 9775 := lt_of_lt_of_eq t.isLt (show cfg2.N = 9775 from N_2)
  by_cases h0 : t.val % 391 = 0
  · have h1 : ¬t.val % 391 = 390 := by omega
    rw [Dat.leavesExact_idle (datS2 (Ix := Ix) (U := U) (Lvl := Lvl) V c) 2 t (idleAt2_2 t (fun h => h1 ((hcond2_1 t).mp h))) (noFlush2_2 t (fun h => h1 ((hcond2_1 t).mp h)))]
    rw [accAt2_A V c t h0 h1]
    unfold sout2_A; (try dsimp only)
    by_cases hz : t.val = 0
    · rw [PhiS2_castSucc V c t, PhiS2_zero V c _ _ hz, PhiZ2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover2_A c _ _ _ _ _ _ _ _ _ _ _ _ _)
        isplitl [HR]; · iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨HS0, HR, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 𝒱₀ _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover2_A c _ _ _ _ _ _ _ _ _ _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 391 = 390
    · rw [show (datS2 (Ix := Ix) (U := U) (Lvl := Lvl) V c).leavesExact 2 t = owns (c : Thread nD τ) (ms2_2 t) fullShare ((datS2 (Ix := Ix) (U := U) (Lvl := Lvl) V c).after 2 t) from by
        unfold Dat.leavesExact; rw [liveAt2_2 t ((hcond2_1 t).mpr h1)], after2_2]
      rw [outAt2_C V c t h0 h1, accAt2_C V c t h0 h1]
      unfold out2_C sout2_C; (try dsimp only)
      rw [PhiS2_castSucc V c t, PhiS2_pos V c _ _ hz]
      iintro ⟨⟨HS0, HR, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 𝒱₀ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover2_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (datS2 (Ix := Ix) (U := U) (Lvl := Lvl) V c) 2 t (idleAt2_2 t (fun h => h1 ((hcond2_1 t).mp h))) (noFlush2_2 t (fun h => h1 ((hcond2_1 t).mp h)))]
      rw [accAt2_B V c t h0 h1]
      unfold sout2_B; (try dsimp only)
      rw [PhiS2_castSucc V c t, PhiS2_pos V c _ _ hz]
      iintro ⟨⟨HS0, HR, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover2_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (datS2 (Ix := Ix) (U := U) (Lvl := Lvl) V c) (defs₀ (F := F)) 𝒱₀ ι Set.univ := fun t => by
  rw [bigSep_W2, bigSep_W2]
  exact sound_body2 𝒱₀ ι V c t

/-- The same in the form the region rule takes. -/
theorem body_obligation_loose2 (c : Dev nD) : BodyObligationLoose (datS2 (Ix := Ix) (U := U) (Lvl := Lvl) V c) (defs₀ (F := F)) 𝒱₀ ι Set.univ :=
  (body_obligation2 𝒱₀ ι V c).loose

end Body

end Cert.KernelIdeal.Hand

end
-- ==== Proof.Scat2Region.lean ====
import proofs.«104867_j4217657884863_1_alg».proof.Proof.Scat2Body
import proofs.«104867_j4217657884863_1_alg».proof.Proof.Gen.KernelIdeal.Regions
import proofs.«104867_j4217657884863_1_alg».proof.Proof.Dats
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2: the region record -/

/-- The unscoped buffers when the region is left: the output array at what the write-backs leave, every other buffer
    as the region found it. -/
def Vout2 (V : Dev nD → Valuation τ sig (Elt F)) (c : Dev nD) : Valuation τ sig (Elt F) :=
  Function.update (V c) main_v43 ((datS2 (Ix := Ix) (U := U) (Lvl := Lvl) V c).arrAt 2 cfg2.N)

section Exit
variable (V : Dev nD → Valuation τ sig (Elt F))

/-- Each of the pipeline's arrays holds at exit what the write-backs leave: the two inputs are never written, -/
theorem hF2_0 (c : Dev nD) : (datS2 (Ix := Ix) (U := U) (Lvl := Lvl) V c).arrAt 0 cfg2.N = Vout2 (Ix := Ix) (U := U) (Lvl := Lvl) V c (Proc.devRef .tc (Pipeline.arrRef spec2 0)) :=
  (((datS2 (Ix := Ix) (U := U) (Lvl := Lvl) V c).arrAt_in 0 rfl _).trans (A_eq2 V c 0)).trans
    (Function.update_of_ne (StableHlo.devRef_ne_of_ne (by decide) : (Proc.devRef .tc (Pipeline.arrRef spec2 0) : DevRef τ sig) ≠ Proc.devRef .tc main_v43) _ _).symm
theorem hF2_1 (c : Dev nD) : (datS2 (Ix := Ix) (U := U) (Lvl := Lvl) V c).arrAt 1 cfg2.N = Vout2 (Ix := Ix) (U := U) (Lvl := Lvl) V c (Proc.devRef .tc (Pipeline.arrRef spec2 1)) :=
  (((datS2 (Ix := Ix) (U := U) (Lvl := Lvl) V c).arrAt_in 1 rfl _).trans (A_eq2 V c 1)).trans
    (Function.update_of_ne (StableHlo.devRef_ne_of_ne (by decide) : (Proc.devRef .tc (Pipeline.arrRef spec2 1) : DevRef τ sig) ≠ Proc.devRef .tc main_v43) _ _).symm
/-- and the output holds the value the exit valuation was updated with; -/
theorem hF2_2 (c : Dev nD) : (datS2 (Ix := Ix) (U := U) (Lvl := Lvl) V c).arrAt 2 cfg2.N = Vout2 (Ix := Ix) (U := U) (Lvl := Lvl) V c (Proc.devRef .tc (Pipeline.arrRef spec2 2)) := by
  unfold Vout2
  generalize (datS2 (Ix := Ix) (U := U) (Lvl := Lvl) V c).arrAt 2 cfg2.N = X
  exact (Function.update_self (Proc.devRef .tc main_v43 : DevRef τ sig) X (V c)).symm
theorem hF2 (c : Dev nD) (w : Fin cfg2.W) :
    (datS2 (Ix := Ix) (U := U) (Lvl := Lvl) V c).arrAt w cfg2.N = (fun b : Ref sig .tc => Vout2 (Ix := Ix) (U := U) (Lvl := Lvl) V c (Proc.devRef .tc b)) (Pipeline.arrRef spec2 w) :=
  match w with
  | ⟨0, _⟩ => hF2_0 V c
  | ⟨1, _⟩ => hF2_1 V c
  | ⟨2, _⟩ => hF2_2 V c
/-- every other buffer holds what it held at entry. -/
theorem hrest2 (c : Dev nD) : ∀ b : Ref sig .tc, b ∉ Finset.univ.image (Pipeline.arrRef spec2) →
    Vout2 (Ix := Ix) (U := U) (Lvl := Lvl) V c (Proc.devRef .tc b) = V c (Proc.devRef .tc b) :=
  fun b hb => Function.update_of_ne (StableHlo.devRef_ne_of_ne fun e => hb (Finset.mem_image.mpr ⟨2, Finset.mem_univ _, e.symm⟩)) _ _

end Exit

set_option backward.isDefEq.respectTransparency.types false in
/-- ENTRY: the arrays split out of the unscoped buffers; the rest's register, its `owes` and what rides along sorted out. -/
theorem hentry2 (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E Er : Dev nD → sProp 𝕄) (hE : ∀ c : Dev nD, E c ⊢ iprop((∃ r, prngReg c r) ∗ (∃ W, owes (c : Thread nD τ) (0 : CellTallies nD τ sig Ix) W) ∗ Er c)) (c : Dev nD) :
    iprop(iprop(StableHlo.held (c : Thread nD τ) (Pipeline.ucRefs τ sig) (V c) ∗ E c) ∗ Pipeline.ownSems0 (Ix := Ix) (Name := ℕ) (U := U) (Lvl := Lvl) (Val := Elt F) (τ := τ) (fun k : PEmpty => k.elim) c ∗ levAts L lv)
      ⊢ |={Set.univ}=> iprop(((pdats (F := F) (Ix := Ix) (U := U) (Lvl := Lvl) d0 d1 (datS2 (Ix := Ix) (U := U) (Lvl := Lvl) V) d3 d4 d5 d6 d7 d8) 2 c).arrays (((pdats (F := F) (Ix := Ix) (U := U) (Lvl := Lvl) d0 d1 (datS2 (Ix := Ix) (U := U) (Lvl := Lvl) V) d3 d4 d5 d6 d7 d8) 2 c).arrAt · 0) ∗ Pipeline.prefHeld (Ix := Ix) (Name := ℕ) (U := U) (Lvl := Lvl) (pcfgs (F := F) 2).pre c (fun _ => fullShare) (adm (F := F) 2).1
          ∗ ((pdats (F := F) (Ix := Ix) (U := U) (Lvl := Lvl) d0 d1 (datS2 (Ix := Ix) (U := U) (Lvl := Lvl) V) d3 d4 d5 d6 d7 d8) 2 c).owesAt ι 0 ∗ iprop(∃ r, prngReg c r) ∗ iprop(Pipeline.unscopedRest (Ix := Ix) (Name := ℕ) (U := U) (Lvl := Lvl) spec2 c (fun b : Ref sig .tc => V c (Proc.devRef .tc b)) ∗ Er c)) := by
  rw [Pipeline.ownSems0_none]
  have hsplit := Pipeline.arrays_of_unscopedBufs (p := 2) (pcfgs (F := F)) adm (pdats (F := F) (Ix := Ix) (U := U) (Lvl := Lvl) d0 d1 (datS2 (Ix := Ix) (U := U) (Lvl := Lvl) V) d3 d4 d5 d6 d7 d8) launch2.win launch2.arr_whole c
    (((pdats (F := F) (Ix := Ix) (U := U) (Lvl := Lvl) d0 d1 (datS2 (Ix := Ix) (U := U) (Lvl := Lvl) V) d3 d4 d5 d6 d7 d8) 2 c).share_full fun _ => rfl) (fun b : Ref sig .tc => V c (Proc.devRef .tc b)) fun _ => rfl
  rw [Pipeline.unscopedBufs_held] at hsplit
  iintro ⟨⟨Hub, HE⟩, -, -⟩
  ihave HE2 := (hE c) $$ HE
  icases HE2 with ⟨Hp, ⟨%W0, HO⟩, Hr⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists W0; isplitr; · ipureintro; exact fun _ _ => Or.inl trivial
    iexact HO
  isplitl [Hp]; · iexact Hp
  isplitl [Hrest]; · iexact Hrest
  iexact Hr

set_option backward.isDefEq.respectTransparency.types false in
/-- The invariant at the first point from the register and the scoped buffers no window stages. -/
theorem hin2 (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c) (c : Dev nD) :
    iprop(iprop(∃ r, prngReg c r) ∗ Pipeline.prefHeld (Ix := Ix) (Name := ℕ) (U := U) (Lvl := Lvl) (pcfgs (F := F) 2).pre c (fun _ => fullShare) (adm (F := F) 2).1 ∗ Pipeline.scopedRest (Ix := Ix) (Name := ℕ) (U := U) (Lvl := Lvl) (Val := Elt F) spec2 c) ⊢ ((pdats (F := F) (Ix := Ix) (U := U) (Lvl := Lvl) d0 d1 (datS2 (Ix := Ix) (U := U) (Lvl := Lvl) V) d3 d4 d5 d6 d7 d8) 2 c).Φ 0 := by
  rw [show ((pdats (F := F) (Ix := Ix) (U := U) (Lvl := Lvl) d0 d1 (datS2 (Ix := Ix) (U := U) (Lvl := Lvl) V) d3 d4 d5 d6 d7 d8) 2 c).Φ 0 = PhiZ2 c from rfl]; unfold PhiZ2
  iintro ⟨Hp, -, Hr⟩
  isplitl [Hr]; · iexact Hr
  iexact Hp

set_option backward.isDefEq.respectTransparency.types false in
/-- The invariant at the last point gives them back. -/
theorem hout2 (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c) (c : Dev nD) :
    ((pdats (F := F) (Ix := Ix) (U := U) (Lvl := Lvl) d0 d1 (datS2 (Ix := Ix) (U := U) (Lvl := Lvl) V) d3 d4 d5 d6 d7 d8) 2 c).Φ (Fin.last cfg2.N) ⊢ iprop(iprop(∃ r, prngReg c r) ∗ Pipeline.ownSems0 (Ix := Ix) (Name := ℕ) (U := U) (Lvl := Lvl) (Val := Elt F) (τ := τ) (fun k : PEmpty => k.elim) c ∗ Pipeline.scopedRest (Ix := Ix) (Name := ℕ) (U := U) (Lvl := Lvl) (Val := Elt F) spec2 c) := by
  rw [Pipeline.ownSems0_none]
  have hΦ : ((pdats (F := F) (Ix := Ix) (U := U) (Lvl := Lvl) d0 d1 (datS2 (Ix := Ix) (U := U) (Lvl := Lvl) V) d3 d4 d5 d6 d7 d8) 2 c).Φ (Fin.last cfg2.N) ⊢ (PhiZ2 c : sProp 𝕄) :=
    PhiS2_out V c cfg2.N (Nat.le_refl _) (by rw [show cfg2.N = 9775 from N_2]; omega)
  refine hΦ.trans ?_
  unfold PhiZ2
  iintro ⟨Hr, Hp⟩
  isplitl [Hp]; · iexact Hp
  isplitr; · iempintro
  iexact Hr

set_option backward.isDefEq.respectTransparency.types false in
/-- EXIT: the arrays rejoin the unscoped buffers at the exit valuation; the rest is rebuilt. -/
theorem hexit2 (ι : Ix) (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E' Er : Dev nD → sProp 𝕄) (hE' : ∀ c : Dev nD, iprop((∃ r, prngReg c r) ∗ (∃ W, owes (c : Thread nD τ) (0 : CellTallies nD τ sig Ix) W) ∗ Er c) ⊢ E' c) (c : Dev nD) :
    iprop(((pdats (F := F) (Ix := Ix) (U := U) (Lvl := Lvl) d0 d1 (datS2 (Ix := Ix) (U := U) (Lvl := Lvl) V) d3 d4 d5 d6 d7 d8) 2 c).arrays (((pdats (F := F) (Ix := Ix) (U := U) (Lvl := Lvl) d0 d1 (datS2 (Ix := Ix) (U := U) (Lvl := Lvl) V) d3 d4 d5 d6 d7 d8) 2 c).arrAt · cfg2.N) ∗ ((pdats (F := F) (Ix := Ix) (U := U) (Lvl := Lvl) d0 d1 (datS2 (Ix := Ix) (U := U) (Lvl := Lvl) V) d3 d4 d5 d6 d7 d8) 2 c).owesAt ι (Fin.last cfg2.N) ∗ iprop(∃ r, prngReg c r) ∗ iprop(Pipeline.unscopedRest (Ix := Ix) (Name := ℕ) (U := U) (Lvl := Lvl) spec2 c (fun b : Ref sig .tc => V c (Proc.devRef .tc b)) ∗ Er c))
      ⊢ |={Set.univ}=> iprop(StableHlo.held (c : Thread nD τ) (Pipeline.ucRefs τ sig) (Vout2 (Ix := Ix) (U := U) (Lvl := Lvl) V c) ∗ E' c) := by
  have hjoin := Pipeline.unscopedBufs_of_arrays (p := 2) (pcfgs (F := F)) adm (Ix := Ix) (Name := ℕ) (U := U) (Lvl := Lvl)
    launch2.win launch2.arr_whole c (pdats (F := F) (Ix := Ix) (U := U) (Lvl := Lvl) d0 d1 (datS2 (Ix := Ix) (U := U) (Lvl := Lvl) V) d3 d4 d5 d6 d7 d8) (((pdats (F := F) (Ix := Ix) (U := U) (Lvl := Lvl) d0 d1 (datS2 (Ix := Ix) (U := U) (Lvl := Lvl) V) d3 d4 d5 d6 d7 d8) 2 c).share_full fun _ => rfl)
    (fun b : Ref sig .tc => V c (Proc.devRef .tc b)) (fun b : Ref sig .tc => Vout2 (Ix := Ix) (U := U) (Lvl := Lvl) V c (Proc.devRef .tc b)) (((pdats (F := F) (Ix := Ix) (U := U) (Lvl := Lvl) d0 d1 (datS2 (Ix := Ix) (U := U) (Lvl := Lvl) V) d3 d4 d5 d6 d7 d8) 2 c).arrAt · cfg2.N) (hF2 V c) (hrest2 V c)
  rw [Pipeline.unscopedBufs_held] at hjoin
  iintro ⟨Ha, HO, HY, Hrest, Hr⟩
  imodintro
  isplitl [Ha Hrest]
  · iapply hjoin; isplitl [Ha]
    · iexact Ha
    iexact Hrest
  iapply (hE' c)
  isplitl [HY]; · iexact HY
  isplitl [HO]
  · unfold Pipeline.Dat.owesAt Pipeline.owesWithin
    icases HO with ⟨%W, -, HO⟩; iexists W; iexact HO
  iexact Hr

set_option backward.isDefEq.respectTransparency.types false in
/-- REGION 2 over the thread state: entered from every unscoped buffer at `V` beside a rest `E`, left with the output
    array at what the write-backs leave beside `E'`. The rest must contain the generator register at some state and
    the core owing nothing (`hE`), and is rebuilt from them and whatever else rode along (`hE'`). The kernel has no
    semaphore of its own; its accumulator enters the invariant with the scoped buffers and leaves with them. -/
def region2 (𝒱₀ : Variants) (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E E' Er : Dev nD → sProp 𝕄) (hE : ∀ c : Dev nD, E c ⊢ iprop((∃ r, prngReg c r) ∗ (∃ W, owes (c : Thread nD τ) (0 : CellTallies nD τ sig Ix) W) ∗ Er c)) (hE' : ∀ c : Dev nD, iprop((∃ r, prngReg c r) ∗ (∃ W, owes (c : Thread nD τ) (0 : CellTallies nD τ sig Ix) W) ∗ Er c) ⊢ E' c) :
    RegionSeg (pcfgs (F := F)) adm (pdats (F := F) (Ix := Ix) (U := U) (Lvl := Lvl) d0 d1 (datS2 (Ix := Ix) (U := U) (Lvl := Lvl) V) d3 d4 d5 d6 d7 d8) ι defs₀ 𝒱₀ L lv 2 where
  win := launch2.win.to₀
  block_pos := launch2.block_pos
  stage_whole := launch2.stage_whole
  K := PEmpty
  osem k := k.elim
  ho := Pipeline.OwnSemFacts.none _
  hbody c := body_obligation_loose2 𝒱₀ ι V c
  hwaits := Pipeline.hwaits_of_owed_zero _ _ _ _ L lv 2 fun _ _ => rfl
  pre c := iprop(StableHlo.held (c : Thread nD τ) (Pipeline.ucRefs τ sig) (V c) ∗ E c)
  post c := iprop(StableHlo.held (c : Thread nD τ) (Pipeline.ucRefs τ sig) (Vout2 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec2 c (fun b : Ref sig .tc => V c (Proc.devRef .tc b)) ∗ Er c)
  hentry c := hentry2 ι L lv V d0 d1 d3 d4 d5 d6 d7 d8 E Er hE c
  hin c := hin2 V d0 d1 d3 d4 d5 d6 d7 d8 c
  hout c := hout2 V d0 d1 d3 d4 d5 d6 d7 d8 c
  hexit c := hexit2 ι V d0 d1 d3 d4 d5 d6 d7 d8 E' Er hE' c

end Cert.KernelIdeal.Hand

end
-- ==== Proof.Scat5Pts.lean ====
import proofs.«104867_j4217657884863_1_alg».proof.Proof.Gen.KernelIdeal.Launch
import proofs.«104867_j4217657884863_1_alg».proof.Proof.Gen.KernelIdeal.Skeleton
import proofs.«104867_j4217657884863_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type}

local notation "𝕄" => MT nD τ sig Ix (Elt F) ℕ U Lvl

/-! # Scatter kernel, pipeline 5: the grid's control cases and the windows' blocks

The grid is 25 × 391, the second axis the fast one: point `t` has second coordinate `t % 391`. The body zeroes its
accumulator when that coordinate is 0 and stores the accumulator into the output block when it is 390. -/

/-- The condition of the body's first branch (the accumulator is zeroed): the second grid coordinate is 0. -/
abbrev cond5_0 (i : grid5.Coords) : Prop :=
  (Scalar.cmpi .ne (Scalar.extui (Scalar.cmpi .eq (BitVec.ofNat 32 (i 1).val) 0#32)) 0#32) = 1#1
/-- It holds exactly at the points ≡ 0 (mod 391). -/
theorem hcond5_0 : ∀ t : Fin cfg5.N, cond5_0 (grid5.coords t) ↔ t.val % 391 = 0 :=
  (by decide +kernel : ∀ t : Fin grid5.N, cond5_0 (grid5.coords t) ↔ t.val % 391 = 0)

/-- The condition of the body's second branch (the output block is stored): the second grid coordinate is 390. -/
abbrev cond5_1 (i : grid5.Coords) : Prop := k5_cond2 i = 1#1
/-- It holds exactly at the points ≡ 390 (mod 391). -/
theorem hcond5_1 : ∀ t : Fin cfg5.N, cond5_1 (grid5.coords t) ↔ t.val % 391 = 390 :=
  (by decide +kernel : ∀ t : Fin grid5.N, cond5_1 (grid5.coords t) ↔ t.val % 391 = 390)

/-- The two input windows are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
/-- Away from the last step of a row the output window is idle and is not written back; at the last step it is live. -/
theorem idleAt5_2 : ∀ t : Fin cfg5.N, ¬cond5_1 (grid5.coords t) → cfg5.idle 2 (grid5.coords t) = true :=
  (by decide +kernel : ∀ t : Fin grid5.N, ¬cond5_1 (grid5.coords t) → cfg5.idle 2 (grid5.coords t) = true)
theorem noFlush5_2 : ∀ t : Fin cfg5.N, ¬cond5_1 (grid5.coords t) → (cfg5.win 2).flush t = false :=
  (by decide +kernel : ∀ t : Fin grid5.N, ¬cond5_1 (grid5.coords t) → win5_2.flush t = false)
theorem liveAt5_2 : ∀ t : Fin cfg5.N, cond5_1 (grid5.coords t) → cfg5.idle 2 (grid5.coords t) = false :=
  (by decide +kernel : ∀ t : Fin grid5.N, cond5_1 (grid5.coords t) → cfg5.idle 2 (grid5.coords t) = false)

/-- Each window's current staging memref at point `t`, and its wholeness. -/
abbrev ms5_0 (t : Fin cfg5.N) : Memref sig .tc .vmem S2048x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x2048 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x64 .f32 := win5_2.stage (cfg5.slots t 2)
abbrev hs5_2 (t : Fin cfg5.N) : (ms5_2 t).IsWhole := hstage5_2 ((cfg5.slots t 2).cast nbuf5_2)
/-- The accumulator: a whole scoped buffer of the kernel's own, carried from point to point. -/
abbrev scM5_0 : Memref sig .tc .vmem S2048x64 .f32 := Memref.whole cc5_scratch0
/-- The views through which the accumulator's and the output block's contents are stated. -/
abbrev VS5_0 : View sig .tc .vmem S2048x64 .f32 := scM5_0.view
abbrev VO5_2 : View sig .tc .vmem S2048x64 .f32 := (Memref.whole cc5_stg2_0 : Memref sig .tc .vmem S2048x64 .f32).view

section Blocks

variable (V : Dev nD → Valuation τ sig (Elt F))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is the
    region-entry one and whose body leaves the block in place. -/
theorem before5_0_of {c : Dev nD} (dat : Dat τ (Elt F) Ix ℕ U Lvl cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Ix ℕ U Lvl cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

end Blocks

end Cert.KernelIdeal.Hand

end
-- ==== Proof.Scat5RunA.lean ====
import proofs.«104867_j4217657884863_1_alg».proof.Proof.Scat5Pts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the FIRST step of a row (first branch taken, second not): the accumulator, found at anything, is
    zeroed and then receives this step's contribution; the output block is not touched. The pieces the accumulator ends
    with are the witness the run finds. -/
noncomputable def kernelRun5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond5_0 i) (hc1 : ¬cond5_1 i)
    (x0 : Vec F S2048x64 .f32) (x1 : Vec F S1x2048 .i32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc5__scatter_kernel i arg2 harg2 arg3 harg3 arg4 harg4 arg5 harg5) K } := by
  refine ⟨?_, fun 𝒱₀ d2 E K => ?run⟩
  case run =>
    simp only [cc5__scatter_kernel_eq_skeleton]; unfold cc5__scatter_kernel_skel
    unfold owns
    iintro ⟨⟨%f0, %hf0, H0⟩, ⟨%f1, %hf1, H1⟩, H2, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.KernelIdeal.Hand

end
-- ==== Proof.Scat5RunB.lean ====
import proofs.«104867_j4217657884863_1_alg».proof.Proof.Scat5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at a MIDDLE step of a row (neither branch taken): the accumulator, found at what the step before
    left, receives this step's contribution; the output block is not touched. -/
noncomputable def kernelRun5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : ¬cond5_1 i)
    (x0 : Vec F S2048x64 .f32) (x1 : Vec F S1x2048 .i32) (xs0 : Vec F S2048x64 .f32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs0
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc5__scatter_kernel i arg2 harg2 arg3 harg3 arg4 harg4 arg5 harg5) K } := by
  refine ⟨?_, fun 𝒱₀ d2 E K => ?run⟩
  case run =>
    simp only [cc5__scatter_kernel_eq_skeleton]; unfold cc5__scatter_kernel_skel
    unfold owns
    iintro ⟨⟨%f0, %hf0, H0⟩, ⟨%f1, %hf1, H1⟩, H2, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.KernelIdeal.Hand

end
-- ==== Proof.Scat5RunC.lean ====
import proofs.«104867_j4217657884863_1_alg».proof.Proof.Scat5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the LAST step of a row (first branch not taken, second taken): the accumulator, found at what the
    step before left, receives this step's contribution and is then stored into the output block, found at anything. -/
noncomputable def kernelRun5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) :
    Σ' (L2 : List (View.Piece (Elt F) S2048x64 .f32)), { LS0 : List (View.Piece (Elt F) S2048x64 .f32) //
      ∀ (𝒱₀ : Variants) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) 𝒱₀ c none) E (cc5__scatter_kernel i arg2 harg2 arg3 harg3 arg4 harg4 arg5 harg5) K } := by
  refine ⟨?_, ?_, fun 𝒱₀ E K => ?run⟩
  case run =>
    simp only [cc5__scatter_kernel_eq_skeleton]; unfold cc5__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Scat5Dat.lean ====
import proofs.«104867_j4217657884863_1_alg».proof.Proof.Scat5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5: the accumulation and the proof data -/

section Data

variable (V : Dev nD → Valuation τ sig (Elt F))

/-! ## What each case leaves, read back -/

/-- The first step's pieces tile the accumulator, -/
theorem scover5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond5_0 i) (hc1 : ¬cond5_1 i)
    (x0 : Vec F S2048x64 .f32) (x1 : Vec F S1x2048 .i32) (y : S2048x64.Idx) :
    ∃ pc ∈ (kernelRun5_A (Ix := Ix) (U := U) (Lvl := Lvl) c i arg2 harg2 arg3 harg3 arg4 harg4 arg5 harg5 hc0 hc1 x0 x1).1, y ∈ pc.1.set :=
  View.cover_of_tiledL (kernelRun5_A (Ix := Ix) (U := U) (Lvl := Lvl) c i arg2 harg2 arg3 harg3 arg4 harg4 arg5 harg5 hc0 hc1 x0 x1).1 S2048x64.size (by sl_kernel_rfl) y
/-- and this is what they leave in it. -/
def sout5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond5_0 i) (hc1 : ¬cond5_1 i)
    (x0 : Vec F S2048x64 .f32) (x1 : Vec F S1x2048 .i32) : Vec F S2048x64 .f32 :=
  VS5_0.read (Elt F) (VS5_0.writes (Elt F) VS5_0.junk (kernelRun5_A (Ix := Ix) (U := U) (Lvl := Lvl) c i arg2 harg2 arg3 harg3 arg4 harg4 arg5 harg5 hc0 hc1 x0 x1).1)

/-- A middle step's pieces tile the accumulator, -/
theorem scover5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : ¬cond5_1 i)
    (x0 : Vec F S2048x64 .f32) (x1 : Vec F S1x2048 .i32) (xs0 : Vec F S2048x64 .f32) (y : S2048x64.Idx) :
    ∃ pc ∈ (kernelRun5_B (Ix := Ix) (U := U) (Lvl := Lvl) c i arg2 harg2 arg3 harg3 arg4 harg4 arg5 harg5 hc0 hc1 x0 x1 xs0).1, y ∈ pc.1.set :=
  View.cover_of_tiledL (kernelRun5_B (Ix := Ix) (U := U) (Lvl := Lvl) c i arg2 harg2 arg3 harg3 arg4 harg4 arg5 harg5 hc0 hc1 x0 x1 xs0).1 S2048x64.size (by sl_kernel_rfl) y
/-- and this is what they leave in it. -/
def sout5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : ¬cond5_1 i)
    (x0 : Vec F S2048x64 .f32) (x1 : Vec F S1x2048 .i32) (xs0 : Vec F S2048x64 .f32) : Vec F S2048x64 .f32 :=
  VS5_0.read (Elt F) (VS5_0.writes (Elt F) VS5_0.junk (kernelRun5_B (Ix := Ix) (U := U) (Lvl := Lvl) c i arg2 harg2 arg3 harg3 arg4 harg4 arg5 harg5 hc0 hc1 x0 x1 xs0).1)

/-- The last step's pieces tile the accumulator and the output block, -/
theorem scover5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) (y : S2048x64.Idx) :
    ∃ pc ∈ (kernelRun5_C (Ix := Ix) (U := U) (Lvl := Lvl) c i arg2 harg2 arg3 harg3 arg4 harg4 arg5 harg5 hc0 hc1 x0 x1 xs0).2.1, y ∈ pc.1.set :=
  View.cover_of_tiledL (kernelRun5_C (Ix := Ix) (U := U) (Lvl := Lvl) c i arg2 harg2 arg3 harg3 arg4 harg4 arg5 harg5 hc0 hc1 x0 x1 xs0).2.1 S2048x64.size (by sl_kernel_rfl) y
theorem cover5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) (y : S2048x64.Idx) :
    ∃ pc ∈ (kernelRun5_C (Ix := Ix) (U := U) (Lvl := Lvl) c i arg2 harg2 arg3 harg3 arg4 harg4 arg5 harg5 hc0 hc1 x0 x1 xs0).1, y ∈ pc.1.set :=
  View.cover_of_tiledL (kernelRun5_C (Ix := Ix) (U := U) (Lvl := Lvl) c i arg2 harg2 arg3 harg3 arg4 harg4 arg5 harg5 hc0 hc1 x0 x1 xs0).1 S2048x64.size (by sl_kernel_rfl) y
/-- and this is what they leave in each. -/
def sout5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) : Vec F S2048x64 .f32 :=
  VS5_0.read (Elt F) (VS5_0.writes (Elt F) VS5_0.junk (kernelRun5_C (Ix := Ix) (U := U) (Lvl := Lvl) c i arg2 harg2 arg3 harg3 arg4 harg4 arg5 harg5 hc0 hc1 x0 x1 xs0).2.1)
def out5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) : Vec F S2048x64 .f32 :=
  VO5_2.read (Elt F) (VO5_2.writes (Elt F) VO5_2.junk (kernelRun5_C (Ix := Ix) (U := U) (Lvl := Lvl) c i arg2 harg2 arg3 harg3 arg4 harg4 arg5 harg5 hc0 hc1 x0 x1 xs0).1)

/-! ## The accumulation -/

/-- THE ACCUMULATOR after the body at position `n`, by recursion on the position: at the first step of a row the
    first-step contents (they do not depend on what came before); at any other step that step's contents over what the
    position before left. -/
def accAt5 (c : Dev nD) : (n : ℕ) → n < cfg5.N → Vec F S2048x64 .f32
  | 0, hn => sout5_A (Ix := Ix) (U := U) (Lvl := Lvl) c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩)
  | n + 1, hn =>
    if h0 : (n + 1) % 391 = 0 then
      if h1 : (n + 1) % 391 = 390 then
        False.elim (by omega)
      else
        sout5_A (Ix := Ix) (U := U) (Lvl := Lvl) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩)
    else
      if h1 : (n + 1) % 391 = 390 then
        sout5_C (Ix := Ix) (U := U) (Lvl := Lvl) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (accAt5 c n (Nat.lt_of_succ_lt hn))
      else
        sout5_B (Ix := Ix) (U := U) (Lvl := Lvl) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (accAt5 c n (Nat.lt_of_succ_lt hn))

/-- The accumulator at a first step, -/
theorem accAt5_A (c : Dev nD) (t : Fin cfg5.N) (h0 : t.val % 391 = 0) (h1 : ¬t.val % 391 = 390) :
    accAt5 (Ix := Ix) (U := U) (Lvl := Lvl) V c t.val t.isLt = sout5_A (Ix := Ix) (U := U) (Lvl := Lvl) c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t) := by
  obtain ⟨n, hn⟩ := t
  cases n with
  | zero => exact rfl
  | succ n => exact (dif_pos h0).trans ((dif_neg h1).trans rfl)
/-- at a middle step, -/
theorem accAt5_B (c : Dev nD) (t : Fin cfg5.N) (h0 : ¬t.val % 391 = 0) (h1 : ¬t.val % 391 = 390) :
    accAt5 (Ix := Ix) (U := U) (Lvl := Lvl) V c t.val t.isLt = sout5_B (Ix := Ix) (U := U) (Lvl := Lvl) c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (accAt5 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem accAt5_C (c : Dev nD) (t : Fin cfg5.N) (h0 : ¬t.val % 391 = 0) (h1 : t.val % 391 = 390) :
    accAt5 (Ix := Ix) (U := U) (Lvl := Lvl) V c t.val t.isLt = sout5_C (Ix := Ix) (U := U) (Lvl := Lvl) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (accAt5 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last step the block that step
    stores; elsewhere the window is idle and the value is not consulted (the accumulator stands in). -/
def outAt5 (c : Dev nD) (t : Fin cfg5.N) : Vec F S2048x64 .f32 :=
  if h1 : t.val % 391 = 390 then
    if h0 : t.val % 391 = 0 then accAt5 (Ix := Ix) (U := U) (Lvl := Lvl) V c t.val t.isLt
    else out5_C (Ix := Ix) (U := U) (Lvl := Lvl) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (accAt5 (Ix := Ix) (U := U) (Lvl := Lvl) V c (t.val - 1) (Nat.lt_of_le_of_lt (Nat.sub_le _ _) t.isLt))
  else accAt5 (Ix := Ix) (U := U) (Lvl := Lvl) V c t.val t.isLt

theorem outAt5_C (c : Dev nD) (t : Fin cfg5.N) (h0 : ¬t.val % 391 = 0) (h1 : t.val % 391 = 390) :
    outAt5 (Ix := Ix) (U := U) (Lvl := Lvl) V c t = out5_C (Ix := Ix) (U := U) (Lvl := Lvl) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (accAt5 (Ix := Ix) (U := U) (Lvl := Lvl) V c (t.val - 1) (Nat.lt_of_le_of_lt (Nat.sub_le _ _) t.isLt)) :=
  (dif_pos h1).trans (dif_neg h0)

/-! ## The invariant -/

/-- The kernel's scratch and every other scoped buffer no window stages, each at anything, beside the generator
    register at some state: what the region hands the first point. -/
def PhiZ5 (c : Dev nD) : sProp 𝕄 :=
  iprop(Pipeline.scopedRest (Ix := Ix) (Name := ℕ) (U := U) (Lvl := Lvl) (Val := Elt F) spec5 c ∗ ∃ r, prngReg c r)

/-- The invariant before position `n`: before the first point `PhiZ`; afterwards the accumulator whole at what the
    position before left, the other scoped buffers at anything, the generator register at some state. -/
def PhiS5 (c : Dev nD) : (n : ℕ) → n ≤ cfg5.N → sProp 𝕄
  | 0, _ => PhiZ5 c
  | n + 1, hn => iprop(owns (c : Thread nD τ) scM5_0 fullShare (accAt5 (Ix := Ix) (U := U) (Lvl := Lvl) V c n hn)
      ∗ Pipeline.scopedRestBut (Ix := Ix) (Name := ℕ) (U := U) (Lvl := Lvl) (Val := Elt F) spec5 c [cc5_scratch0] ∗ ∃ r, prngReg c r)

theorem PhiS5_zero (c : Dev nD) (n : ℕ) (h : n ≤ cfg5.N) (hz : n = 0) : PhiS5 (Ix := Ix) (U := U) (Lvl := Lvl) V c n h = PhiZ5 c := by
  subst hz; rfl
theorem PhiS5_succ (c : Dev nD) (n : ℕ) (hn : n < cfg5.N) :
    PhiS5 (Ix := Ix) (U := U) (Lvl := Lvl) V c (n + 1) hn = iprop(owns (c : Thread nD τ) scM5_0 fullShare (accAt5 (Ix := Ix) (U := U) (Lvl := Lvl) V c n hn)
      ∗ Pipeline.scopedRestBut (Ix := Ix) (Name := ℕ) (U := U) (Lvl := Lvl) (Val := Elt F) spec5 c [cc5_scratch0] ∗ ∃ r, prngReg c r) := rfl
theorem PhiS5_pos (c : Dev nD) (n : ℕ) (h : n ≤ cfg5.N) (hz : n ≠ 0) :
    PhiS5 (Ix := Ix) (U := U) (Lvl := Lvl) V c n h = iprop(owns (c : Thread nD τ) scM5_0 fullShare (accAt5 (Ix := Ix) (U := U) (Lvl := Lvl) V c (n - 1) (by omega))
      ∗ Pipeline.scopedRestBut (Ix := Ix) (Name := ℕ) (U := U) (Lvl := Lvl) (Val := Elt F) spec5 c [cc5_scratch0] ∗ ∃ r, prngReg c r) := by
  cases n with
  | zero => exact absurd rfl hz
  | succ n => rfl

/-- `PhiZ` with the accumulator split out of the scoped rest, owned at some contents. -/
theorem PhiZ5_eq (c : Dev nD) :
    (PhiZ5 c : sProp 𝕄)
      = iprop(((∃ d, owns (c : Thread nD τ) scM5_0 fullShare d)
          ∗ Pipeline.scopedRestBut (Ix := Ix) (Name := ℕ) (U := U) (Lvl := Lvl) (Val := Elt F) spec5 c [cc5_scratch0]) ∗ ∃ r, prngReg c r) := by
  unfold PhiZ5; rw [scopedRest5_split]; simp only [scM5_0, owns_whole]; try rfl

/-- After any point the invariant gives `PhiZ` back: the accumulator's named contents are forgotten. -/
theorem PhiS5_out (c : Dev nD) (n : ℕ) (h : n ≤ cfg5.N) (hz : n ≠ 0) :
    PhiS5 (Ix := Ix) (U := U) (Lvl := Lvl) V c n h ⊢ PhiZ5 c := by
  rw [PhiS5_pos V c _ _ hz, PhiZ5_eq]
  iintro ⟨HS0, HR, Hg⟩
  isplitl [HS0 HR]
  · isplitl [HS0]
    · iexists _; iexact HS0
    iexact HR
  iexact Hg

/-! ## The proof data -/

/-- The proof data of pipeline 5 on core `c`: the arrays as the region finds them; after the body each input's buffer
    at its block and the output's at `outAt`; the invariant `PhiS`; nothing owed; full shares. -/
def datS5 (c : Dev nD) : Dat τ (Elt F) Ix ℕ U Lvl cfg5 c where
  A w := V c (Pipeline.arrRef spec5 w)
  after w t := match w with
    | ⟨0, _⟩ => iblk5 V c 0 t
    | ⟨1, _⟩ => iblk5 V c 1 t
    | ⟨2, _⟩ => outAt5 (Ix := Ix) (U := U) (Lvl := Lvl) V c t
  Φ t := PhiS5 V c t.val (Nat.le_of_lt_succ t.isLt)
  q _ := fullShare
  owed _ := 0

theorem A_eq5 (c : Dev nD) (w : Fin cfg5.W) : (datS5 (Ix := Ix) (U := U) (Lvl := Lvl) V c).A w = V c (Pipeline.arrRef spec5 w) := by
  dsimp only [datS5]
theorem PhiS5_castSucc (c : Dev nD) (t : Fin cfg5.N) :
    (datS5 (Ix := Ix) (U := U) (Lvl := Lvl) V c).Φ t.castSucc = PhiS5 V c t.val (Nat.le_of_lt t.isLt) := by
  dsimp only [datS5]; simp only [Fin.coe_castSucc]
theorem after5_0 (c : Dev nD) (t : Fin cfg5.N) : (datS5 (Ix := Ix) (U := U) (Lvl := Lvl) V c).after 0 t = iblk5 V c 0 t := by dsimp only [datS5]
theorem after5_1 (c : Dev nD) (t : Fin cfg5.N) : (datS5 (Ix := Ix) (U := U) (Lvl := Lvl) V c).after 1 t = iblk5 V c 1 t := by dsimp only [datS5]
theorem after5_2 (c : Dev nD) (t : Fin cfg5.N) : (datS5 (Ix := Ix) (U := U) (Lvl := Lvl) V c).after 2 t = outAt5 (Ix := Ix) (U := U) (Lvl := Lvl) V c t := by dsimp only [datS5]
theorem before5_0 (c : Dev nD) (t : Fin cfg5.N) (d) : (datS5 (Ix := Ix) (U := U) (Lvl := Lvl) V c).before 0 t d = iblk5 V c 0 t :=
  before5_0_of V (datS5 V c) (A_eq5 V c 0) (after5_0 V c) t d
theorem before5_1 (c : Dev nD) (t : Fin cfg5.N) (d) : (datS5 (Ix := Ix) (U := U) (Lvl := Lvl) V c).before 1 t d = iblk5 V c 1 t :=
  before5_1_of V (datS5 V c) (A_eq5 V c 1) (after5_1 V c) t d

end Data

end Cert.KernelIdeal.Hand

end
-- ==== Proof.Scat5Body.lean ====
import proofs.«104867_j4217657884863_1_alg».proof.Proof.Scat5Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5: the body obligation -/

section Body

variable (𝒱₀ : Variants) (ι : Ix) (V : Dev nD → Valuation τ sig (Elt F))

/-- What the body is called with at point `t`, the windows one by one, -/
def bodyPre5 (c : Dev nD) (t : Fin cfg5.N) : sProp 𝕄 :=
  iprop((datS5 (Ix := Ix) (U := U) (Lvl := Lvl) V c).Φ t.castSucc ∗ (datS5 (Ix := Ix) (U := U) (Lvl := Lvl) V c).owesAt ι t.castSucc
    ∗ (∃ d, owns (c : Thread nD τ) (ms5_0 t) fullShare ((datS5 (Ix := Ix) (U := U) (Lvl := Lvl) V c).before 0 t d))
    ∗ (∃ d, owns (c : Thread nD τ) (ms5_1 t) fullShare ((datS5 (Ix := Ix) (U := U) (Lvl := Lvl) V c).before 1 t d))
    ∗ (∃ d, owns (c : Thread nD τ) (ms5_2 t) fullShare ((datS5 (Ix := Ix) (U := U) (Lvl := Lvl) V c).before 2 t d)))

/-- and what it returns. -/
def bodyPost5 (c : Dev nD) (t : Fin cfg5.N) : sProp 𝕄 :=
  iprop((datS5 (Ix := Ix) (U := U) (Lvl := Lvl) V c).Φ t.succ ∗ (datS5 (Ix := Ix) (U := U) (Lvl := Lvl) V c).owesAt ι t.succ
    ∗ (datS5 (Ix := Ix) (U := U) (Lvl := Lvl) V c).leavesExact 0 t
    ∗ (datS5 (Ix := Ix) (U := U) (Lvl := Lvl) V c).leavesExact 1 t
    ∗ (datS5 (Ix := Ix) (U := U) (Lvl := Lvl) V c).leavesExact 2 t)

set_option maxHeartbeats 4800000 in
/-- The body at any point. The inputs' buffers hold their blocks; the point's position in its row says which case it
    is in; the invariant hands the body the accumulator at what the position before left (at anything before the first
    point) and takes it back at this position's contents; away from a row's last step the output's buffer is handed
    back as found, at the last step it holds the stored block; the core owes nothing throughout. -/
theorem sound_body5 (c : Dev nD) (t : Fin cfg5.N) :
    bodyPre5 (F := F) (U := U) (Lvl := Lvl) ι V c t ⊢ wp frame (wpE (defs₀ (F := F)) 𝒱₀ c none) Set.univ (bodyAt5 t) (fun _ => bodyPost5 (F := F) (U := U) (Lvl := Lvl) ι V c t) := by
  unfold bodyPre5 bodyPost5 bodyAt5
  simp only [before5_0, before5_1]
  rw [show (datS5 (Ix := Ix) (U := U) (Lvl := Lvl) V c).owesAt ι t.succ = (datS5 (Ix := Ix) (U := U) (Lvl := Lvl) V c).owesAt ι t.castSucc from rfl]
  rw [show (datS5 (Ix := Ix) (U := U) (Lvl := Lvl) V c).Φ t.succ = PhiS5 V c (t.val + 1) t.isLt from rfl, PhiS5_succ]
  rw [show (datS5 (Ix := Ix) (U := U) (Lvl := Lvl) V c).leavesExact 0 t = owns (c : Thread nD τ) (ms5_0 t) fullShare ((datS5 (Ix := Ix) (U := U) (Lvl := Lvl) V c).after 0 t) from by
    unfold Dat.leavesExact; rw [liveAt5_0 t], after5_0]
  rw [show (datS5 (Ix := Ix) (U := U) (Lvl := Lvl) V c).leavesExact 1 t = owns (c : Thread nD τ) (ms5_1 t) fullShare ((datS5 (Ix := Ix) (U := U) (Lvl := Lvl) V c).after 1 t) from by
    unfold Dat.leavesExact; rw [liveAt5_1 t], after5_1]
  have hN : t.val < 9775 := lt_of_lt_of_eq t.isLt (show cfg5.N = 9775 from N_5)
  by_cases h0 : t.val % 391 = 0
  · have h1 : ¬t.val % 391 = 390 := by omega
    rw [Dat.leavesExact_idle (datS5 (Ix := Ix) (U := U) (Lvl := Lvl) V c) 2 t (idleAt5_2 t (fun h => h1 ((hcond5_1 t).mp h))) (noFlush5_2 t (fun h => h1 ((hcond5_1 t).mp h)))]
    rw [accAt5_A V c t h0 h1]
    unfold sout5_A; (try dsimp only)
    by_cases hz : t.val = 0
    · rw [PhiS5_castSucc V c t, PhiS5_zero V c _ _ hz, PhiZ5_eq]
      iintro ⟨⟨⟨HS0, HR⟩, Hg⟩, Ho, ⟨%d0, H0⟩, ⟨%d1, H1⟩, ⟨%d2, H2⟩⟩
      iapply ((kernelRun5_A c (grid5.coords t) _ _ _ _ _ _ _ _ ((hcond5_0 t).mpr h0) (fun h => h1 ((hcond5_1 t).mp h)) (iblk5 V c 0 t) (iblk5 V c 1 t)).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover5_A c _ _ _ _ _ _ _ _ _ _ _ _ _)
        isplitl [HR]; · iexact HR
        iexact Hg
      isplitl [Ho]; · iexact Ho
      isplitl [H0]; · iexact H0
      isplitl [H1]; · iexact H1
      iexists _; iexact H2
    · rw [PhiS5_castSucc V c t, PhiS5_pos V c _ _ hz]
      iintro ⟨⟨HS0, HR, Hg⟩, Ho, ⟨%d0, H0⟩, ⟨%d1, H1⟩, ⟨%d2, H2⟩⟩
      iapply ((kernelRun5_A c (grid5.coords t) _ _ _ _ _ _ _ _ ((hcond5_0 t).mpr h0) (fun h => h1 ((hcond5_1 t).mp h)) (iblk5 V c 0 t) (iblk5 V c 1 t)).2 𝒱₀ _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover5_A c _ _ _ _ _ _ _ _ _ _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 391 = 390
    · rw [show (datS5 (Ix := Ix) (U := U) (Lvl := Lvl) V c).leavesExact 2 t = owns (c : Thread nD τ) (ms5_2 t) fullShare ((datS5 (Ix := Ix) (U := U) (Lvl := Lvl) V c).after 2 t) from by
        unfold Dat.leavesExact; rw [liveAt5_2 t ((hcond5_1 t).mpr h1)], after5_2]
      rw [outAt5_C V c t h0 h1, accAt5_C V c t h0 h1]
      unfold out5_C sout5_C; (try dsimp only)
      rw [PhiS5_castSucc V c t, PhiS5_pos V c _ _ hz]
      iintro ⟨⟨HS0, HR, Hg⟩, Ho, ⟨%d0, H0⟩, ⟨%d1, H1⟩, ⟨%d2, H2⟩⟩
      iapply ((kernelRun5_C c (grid5.coords t) _ _ _ _ _ _ _ _ (fun h => h0 ((hcond5_0 t).mp h)) ((hcond5_1 t).mpr h1) (iblk5 V c 0 t) (iblk5 V c 1 t) _).2.2 𝒱₀ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover5_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_C c _ _ _ _ _ _ _ _ _ _ _ _ _ _)
    · rw [Dat.leavesExact_idle (datS5 (Ix := Ix) (U := U) (Lvl := Lvl) V c) 2 t (idleAt5_2 t (fun h => h1 ((hcond5_1 t).mp h))) (noFlush5_2 t (fun h => h1 ((hcond5_1 t).mp h)))]
      rw [accAt5_B V c t h0 h1]
      unfold sout5_B; (try dsimp only)
      rw [PhiS5_castSucc V c t, PhiS5_pos V c _ _ hz]
      iintro ⟨⟨HS0, HR, Hg⟩, Ho, ⟨%d0, H0⟩, ⟨%d1, H1⟩, ⟨%d2, H2⟩⟩
      iapply ((kernelRun5_B c (grid5.coords t) _ _ _ _ _ _ _ _ (fun h => h0 ((hcond5_0 t).mp h)) (fun h => h1 ((hcond5_1 t).mp h)) (iblk5 V c 0 t) (iblk5 V c 1 t) _).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover5_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation5 (c : Dev nD) : BodyObligation (datS5 (Ix := Ix) (U := U) (Lvl := Lvl) V c) (defs₀ (F := F)) 𝒱₀ ι Set.univ := fun t => by
  rw [bigSep_W5, bigSep_W5]
  exact sound_body5 𝒱₀ ι V c t

/-- The same in the form the region rule takes. -/
theorem body_obligation_loose5 (c : Dev nD) : BodyObligationLoose (datS5 (Ix := Ix) (U := U) (Lvl := Lvl) V c) (defs₀ (F := F)) 𝒱₀ ι Set.univ :=
  (body_obligation5 𝒱₀ ι V c).loose

end Body

end Cert.KernelIdeal.Hand

end
-- ==== Proof.Scat5Region.lean ====
import proofs.«104867_j4217657884863_1_alg».proof.Proof.Scat5Body
import proofs.«104867_j4217657884863_1_alg».proof.Proof.Gen.KernelIdeal.Regions
import proofs.«104867_j4217657884863_1_alg».proof.Proof.Dats
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5: the region record -/

/-- The unscoped buffers when the region is left: the output array at what the write-backs leave, every other buffer
    as the region found it. -/
def Vout5 (V : Dev nD → Valuation τ sig (Elt F)) (c : Dev nD) : Valuation τ sig (Elt F) :=
  Function.update (V c) main_v54 ((datS5 (Ix := Ix) (U := U) (Lvl := Lvl) V c).arrAt 2 cfg5.N)

section Exit
variable (V : Dev nD → Valuation τ sig (Elt F))

/-- Each of the pipeline's arrays holds at exit what the write-backs leave: the two inputs are never written, -/
theorem hF5_0 (c : Dev nD) : (datS5 (Ix := Ix) (U := U) (Lvl := Lvl) V c).arrAt 0 cfg5.N = Vout5 (Ix := Ix) (U := U) (Lvl := Lvl) V c (Proc.devRef .tc (Pipeline.arrRef spec5 0)) :=
  (((datS5 (Ix := Ix) (U := U) (Lvl := Lvl) V c).arrAt_in 0 rfl _).trans (A_eq5 V c 0)).trans
    (Function.update_of_ne (StableHlo.devRef_ne_of_ne (by decide) : (Proc.devRef .tc (Pipeline.arrRef spec5 0) : DevRef τ sig) ≠ Proc.devRef .tc main_v54) _ _).symm
theorem hF5_1 (c : Dev nD) : (datS5 (Ix := Ix) (U := U) (Lvl := Lvl) V c).arrAt 1 cfg5.N = Vout5 (Ix := Ix) (U := U) (Lvl := Lvl) V c (Proc.devRef .tc (Pipeline.arrRef spec5 1)) :=
  (((datS5 (Ix := Ix) (U := U) (Lvl := Lvl) V c).arrAt_in 1 rfl _).trans (A_eq5 V c 1)).trans
    (Function.update_of_ne (StableHlo.devRef_ne_of_ne (by decide) : (Proc.devRef .tc (Pipeline.arrRef spec5 1) : DevRef τ sig) ≠ Proc.devRef .tc main_v54) _ _).symm
/-- and the output holds the value the exit valuation was updated with; -/
theorem hF5_2 (c : Dev nD) : (datS5 (Ix := Ix) (U := U) (Lvl := Lvl) V c).arrAt 2 cfg5.N = Vout5 (Ix := Ix) (U := U) (Lvl := Lvl) V c (Proc.devRef .tc (Pipeline.arrRef spec5 2)) := by
  unfold Vout5
  generalize (datS5 (Ix := Ix) (U := U) (Lvl := Lvl) V c).arrAt 2 cfg5.N = X
  exact (Function.update_self (Proc.devRef .tc main_v54 : DevRef τ sig) X (V c)).symm
theorem hF5 (c : Dev nD) (w : Fin cfg5.W) :
    (datS5 (Ix := Ix) (U := U) (Lvl := Lvl) V c).arrAt w cfg5.N = (fun b : Ref sig .tc => Vout5 (Ix := Ix) (U := U) (Lvl := Lvl) V c (Proc.devRef .tc b)) (Pipeline.arrRef spec5 w) :=
  match w with
  | ⟨0, _⟩ => hF5_0 V c
  | ⟨1, _⟩ => hF5_1 V c
  | ⟨2, _⟩ => hF5_2 V c
/-- every other buffer holds what it held at entry. -/
theorem hrest5 (c : Dev nD) : ∀ b : Ref sig .tc, b ∉ Finset.univ.image (Pipeline.arrRef spec5) →
    Vout5 (Ix := Ix) (U := U) (Lvl := Lvl) V c (Proc.devRef .tc b) = V c (Proc.devRef .tc b) :=
  fun b hb => Function.update_of_ne (StableHlo.devRef_ne_of_ne fun e => hb (Finset.mem_image.mpr ⟨2, Finset.mem_univ _, e.symm⟩)) _ _

end Exit

set_option backward.isDefEq.respectTransparency.types false in
/-- ENTRY: the arrays split out of the unscoped buffers; the rest's register, its `owes` and what rides along sorted out. -/
theorem hentry5 (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E Er : Dev nD → sProp 𝕄) (hE : ∀ c : Dev nD, E c ⊢ iprop((∃ r, prngReg c r) ∗ (∃ W, owes (c : Thread nD τ) (0 : CellTallies nD τ sig Ix) W) ∗ Er c)) (c : Dev nD) :
    iprop(iprop(StableHlo.held (c : Thread nD τ) (Pipeline.ucRefs τ sig) (V c) ∗ E c) ∗ Pipeline.ownSems0 (Ix := Ix) (Name := ℕ) (U := U) (Lvl := Lvl) (Val := Elt F) (τ := τ) (fun k : PEmpty => k.elim) c ∗ levAts L lv)
      ⊢ |={Set.univ}=> iprop(((pdats (F := F) (Ix := Ix) (U := U) (Lvl := Lvl) d0 d1 d2 d3 d4 (datS5 (Ix := Ix) (U := U) (Lvl := Lvl) V) d6 d7 d8) 5 c).arrays (((pdats (F := F) (Ix := Ix) (U := U) (Lvl := Lvl) d0 d1 d2 d3 d4 (datS5 (Ix := Ix) (U := U) (Lvl := Lvl) V) d6 d7 d8) 5 c).arrAt · 0) ∗ Pipeline.prefHeld (Ix := Ix) (Name := ℕ) (U := U) (Lvl := Lvl) (pcfgs (F := F) 5).pre c (fun _ => fullShare) (adm (F := F) 5).1
          ∗ ((pdats (F := F) (Ix := Ix) (U := U) (Lvl := Lvl) d0 d1 d2 d3 d4 (datS5 (Ix := Ix) (U := U) (Lvl := Lvl) V) d6 d7 d8) 5 c).owesAt ι 0 ∗ iprop(∃ r, prngReg c r) ∗ iprop(Pipeline.unscopedRest (Ix := Ix) (Name := ℕ) (U := U) (Lvl := Lvl) spec5 c (fun b : Ref sig .tc => V c (Proc.devRef .tc b)) ∗ Er c)) := by
  rw [Pipeline.ownSems0_none]
  have hsplit := Pipeline.arrays_of_unscopedBufs (p := 5) (pcfgs (F := F)) adm (pdats (F := F) (Ix := Ix) (U := U) (Lvl := Lvl) d0 d1 d2 d3 d4 (datS5 (Ix := Ix) (U := U) (Lvl := Lvl) V) d6 d7 d8) launch5.win launch5.arr_whole c
    (((pdats (F := F) (Ix := Ix) (U := U) (Lvl := Lvl) d0 d1 d2 d3 d4 (datS5 (Ix := Ix) (U := U) (Lvl := Lvl) V) d6 d7 d8) 5 c).share_full fun _ => rfl) (fun b : Ref sig .tc => V c (Proc.devRef .tc b)) fun _ => rfl
  rw [Pipeline.unscopedBufs_held] at hsplit
  iintro ⟨⟨Hub, HE⟩, -, -⟩
  ihave HE2 := (hE c) $$ HE
  icases HE2 with ⟨Hp, ⟨%W0, HO⟩, Hr⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists W0; isplitr; · ipureintro; exact fun _ _ => Or.inl trivial
    iexact HO
  isplitl [Hp]; · iexact Hp
  isplitl [Hrest]; · iexact Hrest
  iexact Hr

set_option backward.isDefEq.respectTransparency.types false in
/-- The invariant at the first point from the register and the scoped buffers no window stages. -/
theorem hin5 (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c) (c : Dev nD) :
    iprop(iprop(∃ r, prngReg c r) ∗ Pipeline.prefHeld (Ix := Ix) (Name := ℕ) (U := U) (Lvl := Lvl) (pcfgs (F := F) 5).pre c (fun _ => fullShare) (adm (F := F) 5).1 ∗ Pipeline.scopedRest (Ix := Ix) (Name := ℕ) (U := U) (Lvl := Lvl) (Val := Elt F) spec5 c) ⊢ ((pdats (F := F) (Ix := Ix) (U := U) (Lvl := Lvl) d0 d1 d2 d3 d4 (datS5 (Ix := Ix) (U := U) (Lvl := Lvl) V) d6 d7 d8) 5 c).Φ 0 := by
  rw [show ((pdats (F := F) (Ix := Ix) (U := U) (Lvl := Lvl) d0 d1 d2 d3 d4 (datS5 (Ix := Ix) (U := U) (Lvl := Lvl) V) d6 d7 d8) 5 c).Φ 0 = PhiZ5 c from rfl]; unfold PhiZ5
  iintro ⟨Hp, -, Hr⟩
  isplitl [Hr]; · iexact Hr
  iexact Hp

set_option backward.isDefEq.respectTransparency.types false in
/-- The invariant at the last point gives them back. -/
theorem hout5 (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c) (c : Dev nD) :
    ((pdats (F := F) (Ix := Ix) (U := U) (Lvl := Lvl) d0 d1 d2 d3 d4 (datS5 (Ix := Ix) (U := U) (Lvl := Lvl) V) d6 d7 d8) 5 c).Φ (Fin.last cfg5.N) ⊢ iprop(iprop(∃ r, prngReg c r) ∗ Pipeline.ownSems0 (Ix := Ix) (Name := ℕ) (U := U) (Lvl := Lvl) (Val := Elt F) (τ := τ) (fun k : PEmpty => k.elim) c ∗ Pipeline.scopedRest (Ix := Ix) (Name := ℕ) (U := U) (Lvl := Lvl) (Val := Elt F) spec5 c) := by
  rw [Pipeline.ownSems0_none]
  have hΦ : ((pdats (F := F) (Ix := Ix) (U := U) (Lvl := Lvl) d0 d1 d2 d3 d4 (datS5 (Ix := Ix) (U := U) (Lvl := Lvl) V) d6 d7 d8) 5 c).Φ (Fin.last cfg5.N) ⊢ (PhiZ5 c : sProp 𝕄) :=
    PhiS5_out V c cfg5.N (Nat.le_refl _) (by rw [show cfg5.N = 9775 from N_5]; omega)
  refine hΦ.trans ?_
  unfold PhiZ5
  iintro ⟨Hr, Hp⟩
  isplitl [Hp]; · iexact Hp
  isplitr; · iempintro
  iexact Hr

set_option backward.isDefEq.respectTransparency.types false in
/-- EXIT: the arrays rejoin the unscoped buffers at the exit valuation; the rest is rebuilt. -/
theorem hexit5 (ι : Ix) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E' Er : Dev nD → sProp 𝕄) (hE' : ∀ c : Dev nD, iprop((∃ r, prngReg c r) ∗ (∃ W, owes (c : Thread nD τ) (0 : CellTallies nD τ sig Ix) W) ∗ Er c) ⊢ E' c) (c : Dev nD) :
    iprop(((pdats (F := F) (Ix := Ix) (U := U) (Lvl := Lvl) d0 d1 d2 d3 d4 (datS5 (Ix := Ix) (U := U) (Lvl := Lvl) V) d6 d7 d8) 5 c).arrays (((pdats (F := F) (Ix := Ix) (U := U) (Lvl := Lvl) d0 d1 d2 d3 d4 (datS5 (Ix := Ix) (U := U) (Lvl := Lvl) V) d6 d7 d8) 5 c).arrAt · cfg5.N) ∗ ((pdats (F := F) (Ix := Ix) (U := U) (Lvl := Lvl) d0 d1 d2 d3 d4 (datS5 (Ix := Ix) (U := U) (Lvl := Lvl) V) d6 d7 d8) 5 c).owesAt ι (Fin.last cfg5.N) ∗ iprop(∃ r, prngReg c r) ∗ iprop(Pipeline.unscopedRest (Ix := Ix) (Name := ℕ) (U := U) (Lvl := Lvl) spec5 c (fun b : Ref sig .tc => V c (Proc.devRef .tc b)) ∗ Er c))
      ⊢ |={Set.univ}=> iprop(StableHlo.held (c : Thread nD τ) (Pipeline.ucRefs τ sig) (Vout5 (Ix := Ix) (U := U) (Lvl := Lvl) V c) ∗ E' c) := by
  have hjoin := Pipeline.unscopedBufs_of_arrays (p := 5) (pcfgs (F := F)) adm (Ix := Ix) (Name := ℕ) (U := U) (Lvl := Lvl)
    launch5.win launch5.arr_whole c (pdats (F := F) (Ix := Ix) (U := U) (Lvl := Lvl) d0 d1 d2 d3 d4 (datS5 (Ix := Ix) (U := U) (Lvl := Lvl) V) d6 d7 d8) (((pdats (F := F) (Ix := Ix) (U := U) (Lvl := Lvl) d0 d1 d2 d3 d4 (datS5 (Ix := Ix) (U := U) (Lvl := Lvl) V) d6 d7 d8) 5 c).share_full fun _ => rfl)
    (fun b : Ref sig .tc => V c (Proc.devRef .tc b)) (fun b : Ref sig .tc => Vout5 (Ix := Ix) (U := U) (Lvl := Lvl) V c (Proc.devRef .tc b)) (((pdats (F := F) (Ix := Ix) (U := U) (Lvl := Lvl) d0 d1 d2 d3 d4 (datS5 (Ix := Ix) (U := U) (Lvl := Lvl) V) d6 d7 d8) 5 c).arrAt · cfg5.N) (hF5 V c) (hrest5 V c)
  rw [Pipeline.unscopedBufs_held] at hjoin
  iintro ⟨Ha, HO, HY, Hrest, Hr⟩
  imodintro
  isplitl [Ha Hrest]
  · iapply hjoin; isplitl [Ha]
    · iexact Ha
    iexact Hrest
  iapply (hE' c)
  isplitl [HY]; · iexact HY
  isplitl [HO]
  · unfold Pipeline.Dat.owesAt Pipeline.owesWithin
    icases HO with ⟨%W, -, HO⟩; iexists W; iexact HO
  iexact Hr

set_option backward.isDefEq.respectTransparency.types false in
/-- REGION 5 over the thread state: entered from every unscoped buffer at `V` beside a rest `E`, left with the output
    array at what the write-backs leave beside `E'`. The rest must contain the generator register at some state and
    the core owing nothing (`hE`), and is rebuilt from them and whatever else rode along (`hE'`). The kernel has no
    semaphore of its own; its accumulator enters the invariant with the scoped buffers and leaves with them. -/
def region5 (𝒱₀ : Variants) (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E E' Er : Dev nD → sProp 𝕄) (hE : ∀ c : Dev nD, E c ⊢ iprop((∃ r, prngReg c r) ∗ (∃ W, owes (c : Thread nD τ) (0 : CellTallies nD τ sig Ix) W) ∗ Er c)) (hE' : ∀ c : Dev nD, iprop((∃ r, prngReg c r) ∗ (∃ W, owes (c : Thread nD τ) (0 : CellTallies nD τ sig Ix) W) ∗ Er c) ⊢ E' c) :
    RegionSeg (pcfgs (F := F)) adm (pdats (F := F) (Ix := Ix) (U := U) (Lvl := Lvl) d0 d1 d2 d3 d4 (datS5 (Ix := Ix) (U := U) (Lvl := Lvl) V) d6 d7 d8) ι defs₀ 𝒱₀ L lv 5 where
  win := launch5.win.to₀
  block_pos := launch5.block_pos
  stage_whole := launch5.stage_whole
  K := PEmpty
  osem k := k.elim
  ho := Pipeline.OwnSemFacts.none _
  hbody c := body_obligation_loose5 𝒱₀ ι V c
  hwaits := Pipeline.hwaits_of_owed_zero _ _ _ _ L lv 5 fun _ _ => rfl
  pre c := iprop(StableHlo.held (c : Thread nD τ) (Pipeline.ucRefs τ sig) (V c) ∗ E c)
  post c := iprop(StableHlo.held (c : Thread nD τ) (Pipeline.ucRefs τ sig) (Vout5 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec5 c (fun b : Ref sig .tc => V c (Proc.devRef .tc b)) ∗ Er c)
  hentry c := hentry5 ι L lv V d0 d1 d2 d3 d4 d6 d7 d8 E Er hE c
  hin c := hin5 V d0 d1 d2 d3 d4 d6 d7 d8 c
  hout c := hout5 V d0 d1 d2 d3 d4 d6 d7 d8 c
  hexit c := hexit5 ι V d0 d1 d2 d3 d4 d6 d7 d8 E' Er hE' c

end Cert.KernelIdeal.Hand

end
-- ==== Proof.Scat8Pts.lean ====
import proofs.«104867_j4217657884863_1_alg».proof.Proof.Gen.KernelIdeal.Launch
import proofs.«104867_j4217657884863_1_alg».proof.Proof.Gen.KernelIdeal.Skeleton
import proofs.«104867_j4217657884863_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type}

local notation "𝕄" => MT nD τ sig Ix (Elt F) ℕ U Lvl

/-! # Scatter kernel, pipeline 8: the grid's control cases and the windows' blocks

The grid is 25 × 391, the second axis the fast one: point `t` has second coordinate `t % 391`. The body zeroes its
accumulator when that coordinate is 0 and stores the accumulator into the output block when it is 390. -/

/-- The condition of the body's first branch (the accumulator is zeroed): the second grid coordinate is 0. -/
abbrev cond8_0 (i : grid8.Coords) : Prop :=
  (Scalar.cmpi .ne (Scalar.extui (Scalar.cmpi .eq (BitVec.ofNat 32 (i 1).val) 0#32)) 0#32) = 1#1
/-- It holds exactly at the points ≡ 0 (mod 391). -/
theorem hcond8_0 : ∀ t : Fin cfg8.N, cond8_0 (grid8.coords t) ↔ t.val % 391 = 0 :=
  (by decide +kernel : ∀ t : Fin grid8.N, cond8_0 (grid8.coords t) ↔ t.val % 391 = 0)

/-- The condition of the body's second branch (the output block is stored): the second grid coordinate is 390. -/
abbrev cond8_1 (i : grid8.Coords) : Prop := k8_cond2 i = 1#1
/-- It holds exactly at the points ≡ 390 (mod 391). -/
theorem hcond8_1 : ∀ t : Fin cfg8.N, cond8_1 (grid8.coords t) ↔ t.val % 391 = 390 :=
  (by decide +kernel : ∀ t : Fin grid8.N, cond8_1 (grid8.coords t) ↔ t.val % 391 = 390)

/-- The two input windows are never idle. -/
theorem liveAt8_0 : ∀ t : Fin cfg8.N, cfg8.idle 0 (grid8.coords t) = false := fun _ => rfl
theorem liveAt8_1 : ∀ t : Fin cfg8.N, cfg8.idle 1 (grid8.coords t) = false := fun _ => rfl
/-- Away from the last step of a row the output window is idle and is not written back; at the last step it is live. -/
theorem idleAt8_2 : ∀ t : Fin cfg8.N, ¬cond8_1 (grid8.coords t) → cfg8.idle 2 (grid8.coords t) = true :=
  (by decide +kernel : ∀ t : Fin grid8.N, ¬cond8_1 (grid8.coords t) → cfg8.idle 2 (grid8.coords t) = true)
theorem noFlush8_2 : ∀ t : Fin cfg8.N, ¬cond8_1 (grid8.coords t) → (cfg8.win 2).flush t = false :=
  (by decide +kernel : ∀ t : Fin grid8.N, ¬cond8_1 (grid8.coords t) → win8_2.flush t = false)
theorem liveAt8_2 : ∀ t : Fin cfg8.N, cond8_1 (grid8.coords t) → cfg8.idle 2 (grid8.coords t) = false :=
  (by decide +kernel : ∀ t : Fin grid8.N, cond8_1 (grid8.coords t) → cfg8.idle 2 (grid8.coords t) = false)

/-- Each window's current staging memref at point `t`, and its wholeness. -/
abbrev ms8_0 (t : Fin cfg8.N) : Memref sig .tc .vmem S2048x64 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x2048 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x64 .f32 := win8_2.stage (cfg8.slots t 2)
abbrev hs8_2 (t : Fin cfg8.N) : (ms8_2 t).IsWhole := hstage8_2 ((cfg8.slots t 2).cast nbuf8_2)
/-- The accumulator: a whole scoped buffer of the kernel's own, carried from point to point. -/
abbrev scM8_0 : Memref sig .tc .vmem S2048x64 .f32 := Memref.whole cc8_scratch0
/-- The views through which the accumulator's and the output block's contents are stated. -/
abbrev VS8_0 : View sig .tc .vmem S2048x64 .f32 := scM8_0.view
abbrev VO8_2 : View sig .tc .vmem S2048x64 .f32 := (Memref.whole cc8_stg2_0 : Memref sig .tc .vmem S2048x64 .f32).view

section Blocks

variable (V : Dev nD → Valuation τ sig (Elt F))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, for any proof data whose array is the
    region-entry one and whose body leaves the block in place. -/
theorem before8_0_of {c : Dev nD} (dat : Dat τ (Elt F) Ix ℕ U Lvl cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Ix ℕ U Lvl cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

end Blocks

end Cert.KernelIdeal.Hand

end
-- ==== Proof.Scat8RunA.lean ====
import proofs.«104867_j4217657884863_1_alg».proof.Proof.Scat8Pts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the FIRST step of a row (first branch taken, second not): the accumulator, found at anything, is
    zeroed and then receives this step's contribution; the output block is not touched. The pieces the accumulator ends
    with are the witness the run finds. -/
noncomputable def kernelRun8_A (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S2048x64 .f32) (x1 : Vec F S1x2048 .i32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc8__scatter_kernel i arg2 harg2 arg3 harg3 arg4 harg4 arg5 harg5) K } := by
  refine ⟨?_, fun 𝒱₀ d2 E K => ?run⟩
  case run =>
    simp only [cc8__scatter_kernel_eq_skeleton]; unfold cc8__scatter_kernel_skel
    unfold owns
    iintro ⟨⟨%f0, %hf0, H0⟩, ⟨%f1, %hf1, H1⟩, H2, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.KernelIdeal.Hand

end
-- ==== Proof.Scat8RunB.lean ====
import proofs.«104867_j4217657884863_1_alg».proof.Proof.Scat8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at a MIDDLE step of a row (neither branch taken): the accumulator, found at what the step before
    left, receives this step's contribution; the output block is not touched. -/
noncomputable def kernelRun8_B (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S2048x64 .f32) (x1 : Vec F S1x2048 .i32) (xs0 : Vec F S2048x64 .f32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs0
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc8__scatter_kernel i arg2 harg2 arg3 harg3 arg4 harg4 arg5 harg5) K } := by
  refine ⟨?_, fun 𝒱₀ d2 E K => ?run⟩
  case run =>
    simp only [cc8__scatter_kernel_eq_skeleton]; unfold cc8__scatter_kernel_skel
    unfold owns
    iintro ⟨⟨%f0, %hf0, H0⟩, ⟨%f1, %hf1, H1⟩, H2, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.KernelIdeal.Hand

end
-- ==== Proof.Scat8RunC.lean ====
import proofs.«104867_j4217657884863_1_alg».proof.Proof.Scat8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the LAST step of a row (first branch not taken, second taken): the accumulator, found at what the
    step before left, receives this step's contribution and is then stored into the output block, found at anything. -/
noncomputable def kernelRun8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) :
    Σ' (L2 : List (View.Piece (Elt F) S2048x64 .f32)), { LS0 : List (View.Piece (Elt F) S2048x64 .f32) //
      ∀ (𝒱₀ : Variants) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) 𝒱₀ c none) E (cc8__scatter_kernel i arg2 harg2 arg3 harg3 arg4 harg4 arg5 harg5) K } := by
  refine ⟨?_, ?_, fun 𝒱₀ E K => ?run⟩
  case run =>
    simp only [cc8__scatter_kernel_eq_skeleton]; unfold cc8__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Scat8Dat.lean ====
import proofs.«104867_j4217657884863_1_alg».proof.Proof.Scat8RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8: the accumulation and the proof data -/

section Data

variable (V : Dev nD → Valuation τ sig (Elt F))

/-! ## What each case leaves, read back -/

/-- The first step's pieces tile the accumulator, -/
theorem scover8_A (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S2048x64 .f32) (x1 : Vec F S1x2048 .i32) (y : S2048x64.Idx) :
    ∃ pc ∈ (kernelRun8_A (Ix := Ix) (U := U) (Lvl := Lvl) c i arg2 harg2 arg3 harg3 arg4 harg4 arg5 harg5 hc0 hc1 x0 x1).1, y ∈ pc.1.set :=
  View.cover_of_tiledL (kernelRun8_A (Ix := Ix) (U := U) (Lvl := Lvl) c i arg2 harg2 arg3 harg3 arg4 harg4 arg5 harg5 hc0 hc1 x0 x1).1 S2048x64.size (by sl_kernel_rfl) y
/-- and this is what they leave in it. -/
def sout8_A (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S2048x64 .f32) (x1 : Vec F S1x2048 .i32) : Vec F S2048x64 .f32 :=
  VS8_0.read (Elt F) (VS8_0.writes (Elt F) VS8_0.junk (kernelRun8_A (Ix := Ix) (U := U) (Lvl := Lvl) c i arg2 harg2 arg3 harg3 arg4 harg4 arg5 harg5 hc0 hc1 x0 x1).1)

/-- A middle step's pieces tile the accumulator, -/
theorem scover8_B (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S2048x64 .f32) (x1 : Vec F S1x2048 .i32) (xs0 : Vec F S2048x64 .f32) (y : S2048x64.Idx) :
    ∃ pc ∈ (kernelRun8_B (Ix := Ix) (U := U) (Lvl := Lvl) c i arg2 harg2 arg3 harg3 arg4 harg4 arg5 harg5 hc0 hc1 x0 x1 xs0).1, y ∈ pc.1.set :=
  View.cover_of_tiledL (kernelRun8_B (Ix := Ix) (U := U) (Lvl := Lvl) c i arg2 harg2 arg3 harg3 arg4 harg4 arg5 harg5 hc0 hc1 x0 x1 xs0).1 S2048x64.size (by sl_kernel_rfl) y
/-- and this is what they leave in it. -/
def sout8_B (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S2048x64 .f32) (x1 : Vec F S1x2048 .i32) (xs0 : Vec F S2048x64 .f32) : Vec F S2048x64 .f32 :=
  VS8_0.read (Elt F) (VS8_0.writes (Elt F) VS8_0.junk (kernelRun8_B (Ix := Ix) (U := U) (Lvl := Lvl) c i arg2 harg2 arg3 harg3 arg4 harg4 arg5 harg5 hc0 hc1 x0 x1 xs0).1)

/-- The last step's pieces tile the accumulator and the output block, -/
theorem scover8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) (y : S2048x64.Idx) :
    ∃ pc ∈ (kernelRun8_C (Ix := Ix) (U := U) (Lvl := Lvl) c i arg2 harg2 arg3 harg3 arg4 harg4 arg5 harg5 hc0 hc1 x0 x1 xs0).2.1, y ∈ pc.1.set :=
  View.cover_of_tiledL (kernelRun8_C (Ix := Ix) (U := U) (Lvl := Lvl) c i arg2 harg2 arg3 harg3 arg4 harg4 arg5 harg5 hc0 hc1 x0 x1 xs0).2.1 S2048x64.size (by sl_kernel_rfl) y
theorem cover8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) (y : S2048x64.Idx) :
    ∃ pc ∈ (kernelRun8_C (Ix := Ix) (U := U) (Lvl := Lvl) c i arg2 harg2 arg3 harg3 arg4 harg4 arg5 harg5 hc0 hc1 x0 x1 xs0).1, y ∈ pc.1.set :=
  View.cover_of_tiledL (kernelRun8_C (Ix := Ix) (U := U) (Lvl := Lvl) c i arg2 harg2 arg3 harg3 arg4 harg4 arg5 harg5 hc0 hc1 x0 x1 xs0).1 S2048x64.size (by sl_kernel_rfl) y
/-- and this is what they leave in each. -/
def sout8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) : Vec F S2048x64 .f32 :=
  VS8_0.read (Elt F) (VS8_0.writes (Elt F) VS8_0.junk (kernelRun8_C (Ix := Ix) (U := U) (Lvl := Lvl) c i arg2 harg2 arg3 harg3 arg4 harg4 arg5 harg5 hc0 hc1 x0 x1 xs0).2.1)
def out8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) : Vec F S2048x64 .f32 :=
  VO8_2.read (Elt F) (VO8_2.writes (Elt F) VO8_2.junk (kernelRun8_C (Ix := Ix) (U := U) (Lvl := Lvl) c i arg2 harg2 arg3 harg3 arg4 harg4 arg5 harg5 hc0 hc1 x0 x1 xs0).1)

/-! ## The accumulation -/

/-- THE ACCUMULATOR after the body at position `n`, by recursion on the position: at the first step of a row the
    first-step contents (they do not depend on what came before); at any other step that step's contents over what the
    position before left. -/
def accAt8 (c : Dev nD) : (n : ℕ) → n < cfg8.N → Vec F S2048x64 .f32
  | 0, hn => sout8_A (Ix := Ix) (U := U) (Lvl := Lvl) c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩)
  | n + 1, hn =>
    if h0 : (n + 1) % 391 = 0 then
      if h1 : (n + 1) % 391 = 390 then
        False.elim (by omega)
      else
        sout8_A (Ix := Ix) (U := U) (Lvl := Lvl) c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩)
    else
      if h1 : (n + 1) % 391 = 390 then
        sout8_C (Ix := Ix) (U := U) (Lvl := Lvl) c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (accAt8 c n (Nat.lt_of_succ_lt hn))
      else
        sout8_B (Ix := Ix) (U := U) (Lvl := Lvl) c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (accAt8 c n (Nat.lt_of_succ_lt hn))

/-- The accumulator at a first step, -/
theorem accAt8_A (c : Dev nD) (t : Fin cfg8.N) (h0 : t.val % 391 = 0) (h1 : ¬t.val % 391 = 390) :
    accAt8 (Ix := Ix) (U := U) (Lvl := Lvl) V c t.val t.isLt = sout8_A (Ix := Ix) (U := U) (Lvl := Lvl) c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t) := by
  obtain ⟨n, hn⟩ := t
  cases n with
  | zero => exact rfl
  | succ n => exact (dif_pos h0).trans ((dif_neg h1).trans rfl)
/-- at a middle step, -/
theorem accAt8_B (c : Dev nD) (t : Fin cfg8.N) (h0 : ¬t.val % 391 = 0) (h1 : ¬t.val % 391 = 390) :
    accAt8 (Ix := Ix) (U := U) (Lvl := Lvl) V c t.val t.isLt = sout8_B (Ix := Ix) (U := U) (Lvl := Lvl) c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (accAt8 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem accAt8_C (c : Dev nD) (t : Fin cfg8.N) (h0 : ¬t.val % 391 = 0) (h1 : t.val % 391 = 390) :
    accAt8 (Ix := Ix) (U := U) (Lvl := Lvl) V c t.val t.isLt = sout8_C (Ix := Ix) (U := U) (Lvl := Lvl) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (accAt8 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last step the block that step
    stores; elsewhere the window is idle and the value is not consulted (the accumulator stands in). -/
def outAt8 (c : Dev nD) (t : Fin cfg8.N) : Vec F S2048x64 .f32 :=
  if h1 : t.val % 391 = 390 then
    if h0 : t.val % 391 = 0 then accAt8 (Ix := Ix) (U := U) (Lvl := Lvl) V c t.val t.isLt
    else out8_C (Ix := Ix) (U := U) (Lvl := Lvl) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (accAt8 (Ix := Ix) (U := U) (Lvl := Lvl) V c (t.val - 1) (Nat.lt_of_le_of_lt (Nat.sub_le _ _) t.isLt))
  else accAt8 (Ix := Ix) (U := U) (Lvl := Lvl) V c t.val t.isLt

theorem outAt8_C (c : Dev nD) (t : Fin cfg8.N) (h0 : ¬t.val % 391 = 0) (h1 : t.val % 391 = 390) :
    outAt8 (Ix := Ix) (U := U) (Lvl := Lvl) V c t = out8_C (Ix := Ix) (U := U) (Lvl := Lvl) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (accAt8 (Ix := Ix) (U := U) (Lvl := Lvl) V c (t.val - 1) (Nat.lt_of_le_of_lt (Nat.sub_le _ _) t.isLt)) :=
  (dif_pos h1).trans (dif_neg h0)

/-! ## The invariant -/

/-- The kernel's scratch and every other scoped buffer no window stages, each at anything, beside the generator
    register at some state: what the region hands the first point. -/
def PhiZ8 (c : Dev nD) : sProp 𝕄 :=
  iprop(Pipeline.scopedRest (Ix := Ix) (Name := ℕ) (U := U) (Lvl := Lvl) (Val := Elt F) spec8 c ∗ ∃ r, prngReg c r)

/-- The invariant before position `n`: before the first point `PhiZ`; afterwards the accumulator whole at what the
    position before left, the other scoped buffers at anything, the generator register at some state. -/
def PhiS8 (c : Dev nD) : (n : ℕ) → n ≤ cfg8.N → sProp 𝕄
  | 0, _ => PhiZ8 c
  | n + 1, hn => iprop(owns (c : Thread nD τ) scM8_0 fullShare (accAt8 (Ix := Ix) (U := U) (Lvl := Lvl) V c n hn)
      ∗ Pipeline.scopedRestBut (Ix := Ix) (Name := ℕ) (U := U) (Lvl := Lvl) (Val := Elt F) spec8 c [cc8_scratch0] ∗ ∃ r, prngReg c r)

theorem PhiS8_zero (c : Dev nD) (n : ℕ) (h : n ≤ cfg8.N) (hz : n = 0) : PhiS8 (Ix := Ix) (U := U) (Lvl := Lvl) V c n h = PhiZ8 c := by
  subst hz; rfl
theorem PhiS8_succ (c : Dev nD) (n : ℕ) (hn : n < cfg8.N) :
    PhiS8 (Ix := Ix) (U := U) (Lvl := Lvl) V c (n + 1) hn = iprop(owns (c : Thread nD τ) scM8_0 fullShare (accAt8 (Ix := Ix) (U := U) (Lvl := Lvl) V c n hn)
      ∗ Pipeline.scopedRestBut (Ix := Ix) (Name := ℕ) (U := U) (Lvl := Lvl) (Val := Elt F) spec8 c [cc8_scratch0] ∗ ∃ r, prngReg c r) := rfl
theorem PhiS8_pos (c : Dev nD) (n : ℕ) (h : n ≤ cfg8.N) (hz : n ≠ 0) :
    PhiS8 (Ix := Ix) (U := U) (Lvl := Lvl) V c n h = iprop(owns (c : Thread nD τ) scM8_0 fullShare (accAt8 (Ix := Ix) (U := U) (Lvl := Lvl) V c (n - 1) (by omega))
      ∗ Pipeline.scopedRestBut (Ix := Ix) (Name := ℕ) (U := U) (Lvl := Lvl) (Val := Elt F) spec8 c [cc8_scratch0] ∗ ∃ r, prngReg c r) := by
  cases n with
  | zero => exact absurd rfl hz
  | succ n => rfl

/-- `PhiZ` with the accumulator split out of the scoped rest, owned at some contents. -/
theorem PhiZ8_eq (c : Dev nD) :
    (PhiZ8 c : sProp 𝕄)
      = iprop(((∃ d, owns (c : Thread nD τ) scM8_0 fullShare d)
          ∗ Pipeline.scopedRestBut (Ix := Ix) (Name := ℕ) (U := U) (Lvl := Lvl) (Val := Elt F) spec8 c [cc8_scratch0]) ∗ ∃ r, prngReg c r) := by
  unfold PhiZ8; rw [scopedRest8_split]; simp only [scM8_0, owns_whole]; try rfl

/-- After any point the invariant gives `PhiZ` back: the accumulator's named contents are forgotten. -/
theorem PhiS8_out (c : Dev nD) (n : ℕ) (h : n ≤ cfg8.N) (hz : n ≠ 0) :
    PhiS8 (Ix := Ix) (U := U) (Lvl := Lvl) V c n h ⊢ PhiZ8 c := by
  rw [PhiS8_pos V c _ _ hz, PhiZ8_eq]
  iintro ⟨HS0, HR, Hg⟩
  isplitl [HS0 HR]
  · isplitl [HS0]
    · iexists _; iexact HS0
    iexact HR
  iexact Hg

/-! ## The proof data -/

/-- The proof data of pipeline 8 on core `c`: the arrays as the region finds them; after the body each input's buffer
    at its block and the output's at `outAt`; the invariant `PhiS`; nothing owed; full shares. -/
def datS8 (c : Dev nD) : Dat τ (Elt F) Ix ℕ U Lvl cfg8 c where
  A w := V c (Pipeline.arrRef spec8 w)
  after w t := match w with
    | ⟨0, _⟩ => iblk8 V c 0 t
    | ⟨1, _⟩ => iblk8 V c 1 t
    | ⟨2, _⟩ => outAt8 (Ix := Ix) (U := U) (Lvl := Lvl) V c t
  Φ t := PhiS8 V c t.val (Nat.le_of_lt_succ t.isLt)
  q _ := fullShare
  owed _ := 0

theorem A_eq8 (c : Dev nD) (w : Fin cfg8.W) : (datS8 (Ix := Ix) (U := U) (Lvl := Lvl) V c).A w = V c (Pipeline.arrRef spec8 w) := by
  dsimp only [datS8]
theorem PhiS8_castSucc (c : Dev nD) (t : Fin cfg8.N) :
    (datS8 (Ix := Ix) (U := U) (Lvl := Lvl) V c).Φ t.castSucc = PhiS8 V c t.val (Nat.le_of_lt t.isLt) := by
  dsimp only [datS8]; simp only [Fin.coe_castSucc]
theorem after8_0 (c : Dev nD) (t : Fin cfg8.N) : (datS8 (Ix := Ix) (U := U) (Lvl := Lvl) V c).after 0 t = iblk8 V c 0 t := by dsimp only [datS8]
theorem after8_1 (c : Dev nD) (t : Fin cfg8.N) : (datS8 (Ix := Ix) (U := U) (Lvl := Lvl) V c).after 1 t = iblk8 V c 1 t := by dsimp only [datS8]
theorem after8_2 (c : Dev nD) (t : Fin cfg8.N) : (datS8 (Ix := Ix) (U := U) (Lvl := Lvl) V c).after 2 t = outAt8 (Ix := Ix) (U := U) (Lvl := Lvl) V c t := by dsimp only [datS8]
theorem before8_0 (c : Dev nD) (t : Fin cfg8.N) (d) : (datS8 (Ix := Ix) (U := U) (Lvl := Lvl) V c).before 0 t d = iblk8 V c 0 t :=
  before8_0_of V (datS8 V c) (A_eq8 V c 0) (after8_0 V c) t d
theorem before8_1 (c : Dev nD) (t : Fin cfg8.N) (d) : (datS8 (Ix := Ix) (U := U) (Lvl := Lvl) V c).before 1 t d = iblk8 V c 1 t :=
  before8_1_of V (datS8 V c) (A_eq8 V c 1) (after8_1 V c) t d

end Data

end Cert.KernelIdeal.Hand

end
-- ==== Proof.Scat8Body.lean ====
import proofs.«104867_j4217657884863_1_alg».proof.Proof.Scat8Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8: the body obligation -/

section Body

variable (𝒱₀ : Variants) (ι : Ix) (V : Dev nD → Valuation τ sig (Elt F))

/-- What the body is called with at point `t`, the windows one by one, -/
def bodyPre8 (c : Dev nD) (t : Fin cfg8.N) : sProp 𝕄 :=
  iprop((datS8 (Ix := Ix) (U := U) (Lvl := Lvl) V c).Φ t.castSucc ∗ (datS8 (Ix := Ix) (U := U) (Lvl := Lvl) V c).owesAt ι t.castSucc
    ∗ (∃ d, owns (c : Thread nD τ) (ms8_0 t) fullShare ((datS8 (Ix := Ix) (U := U) (Lvl := Lvl) V c).before 0 t d))
    ∗ (∃ d, owns (c : Thread nD τ) (ms8_1 t) fullShare ((datS8 (Ix := Ix) (U := U) (Lvl := Lvl) V c).before 1 t d))
    ∗ (∃ d, owns (c : Thread nD τ) (ms8_2 t) fullShare ((datS8 (Ix := Ix) (U := U) (Lvl := Lvl) V c).before 2 t d)))

/-- and what it returns. -/
def bodyPost8 (c : Dev nD) (t : Fin cfg8.N) : sProp 𝕄 :=
  iprop((datS8 (Ix := Ix) (U := U) (Lvl := Lvl) V c).Φ t.succ ∗ (datS8 (Ix := Ix) (U := U) (Lvl := Lvl) V c).owesAt ι t.succ
    ∗ (datS8 (Ix := Ix) (U := U) (Lvl := Lvl) V c).leavesExact 0 t
    ∗ (datS8 (Ix := Ix) (U := U) (Lvl := Lvl) V c).leavesExact 1 t
    ∗ (datS8 (Ix := Ix) (U := U) (Lvl := Lvl) V c).leavesExact 2 t)

set_option maxHeartbeats 4800000 in
/-- The body at any point. The inputs' buffers hold their blocks; the point's position in its row says which case it
    is in; the invariant hands the body the accumulator at what the position before left (at anything before the first
    point) and takes it back at this position's contents; away from a row's last step the output's buffer is handed
    back as found, at the last step it holds the stored block; the core owes nothing throughout. -/
theorem sound_body8 (c : Dev nD) (t : Fin cfg8.N) :
    bodyPre8 (F := F) (U := U) (Lvl := Lvl) ι V c t ⊢ wp frame (wpE (defs₀ (F := F)) 𝒱₀ c none) Set.univ (bodyAt8 t) (fun _ => bodyPost8 (F := F) (U := U) (Lvl := Lvl) ι V c t) := by
  unfold bodyPre8 bodyPost8 bodyAt8
  simp only [before8_0, before8_1]
  rw [show (datS8 (Ix := Ix) (U := U) (Lvl := Lvl) V c).owesAt ι t.succ = (datS8 (Ix := Ix) (U := U) (Lvl := Lvl) V c).owesAt ι t.castSucc from rfl]
  rw [show (datS8 (Ix := Ix) (U := U) (Lvl := Lvl) V c).Φ t.succ = PhiS8 V c (t.val + 1) t.isLt from rfl, PhiS8_succ]
  rw [show (datS8 (Ix := Ix) (U := U) (Lvl := Lvl) V c).leavesExact 0 t = owns (c : Thread nD τ) (ms8_0 t) fullShare ((datS8 (Ix := Ix) (U := U) (Lvl := Lvl) V c).after 0 t) from by
    unfold Dat.leavesExact; rw [liveAt8_0 t], after8_0]
  rw [show (datS8 (Ix := Ix) (U := U) (Lvl := Lvl) V c).leavesExact 1 t = owns (c : Thread nD τ) (ms8_1 t) fullShare ((datS8 (Ix := Ix) (U := U) (Lvl := Lvl) V c).after 1 t) from by
    unfold Dat.leavesExact; rw [liveAt8_1 t], after8_1]
  have hN : t.val < 9775 := lt_of_lt_of_eq t.isLt (show cfg8.N = 9775 from N_8)
  by_cases h0 : t.val % 391 = 0
  · have h1 : ¬t.val % 391 = 390 := by omega
    rw [Dat.leavesExact_idle (datS8 (Ix := Ix) (U := U) (Lvl := Lvl) V c) 2 t (idleAt8_2 t (fun h => h1 ((hcond8_1 t).mp h))) (noFlush8_2 t (fun h => h1 ((hcond8_1 t).mp h)))]
    rw [accAt8_A V c t h0 h1]
    unfold sout8_A; (try dsimp only)
    by_cases hz : t.val = 0
    · rw [PhiS8_castSucc V c t, PhiS8_zero V c _ _ hz, PhiZ8_eq]
      iintro ⟨⟨⟨HS0, HR⟩, Hg⟩, Ho, ⟨%d0, H0⟩, ⟨%d1, H1⟩, ⟨%d2, H2⟩⟩
      iapply ((kernelRun8_A c (grid8.coords t) _ _ _ _ _ _ _ _ ((hcond8_0 t).mpr h0) (fun h => h1 ((hcond8_1 t).mp h)) (iblk8 V c 0 t) (iblk8 V c 1 t)).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover8_A c _ _ _ _ _ _ _ _ _ _ _ _ _)
        isplitl [HR]; · iexact HR
        iexact Hg
      isplitl [Ho]; · iexact Ho
      isplitl [H0]; · iexact H0
      isplitl [H1]; · iexact H1
      iexists _; iexact H2
    · rw [PhiS8_castSucc V c t, PhiS8_pos V c _ _ hz]
      iintro ⟨⟨HS0, HR, Hg⟩, Ho, ⟨%d0, H0⟩, ⟨%d1, H1⟩, ⟨%d2, H2⟩⟩
      iapply ((kernelRun8_A c (grid8.coords t) _ _ _ _ _ _ _ _ ((hcond8_0 t).mpr h0) (fun h => h1 ((hcond8_1 t).mp h)) (iblk8 V c 0 t) (iblk8 V c 1 t)).2 𝒱₀ _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover8_A c _ _ _ _ _ _ _ _ _ _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 391 = 390
    · rw [show (datS8 (Ix := Ix) (U := U) (Lvl := Lvl) V c).leavesExact 2 t = owns (c : Thread nD τ) (ms8_2 t) fullShare ((datS8 (Ix := Ix) (U := U) (Lvl := Lvl) V c).after 2 t) from by
        unfold Dat.leavesExact; rw [liveAt8_2 t ((hcond8_1 t).mpr h1)], after8_2]
      rw [outAt8_C V c t h0 h1, accAt8_C V c t h0 h1]
      unfold out8_C sout8_C; (try dsimp only)
      rw [PhiS8_castSucc V c t, PhiS8_pos V c _ _ hz]
      iintro ⟨⟨HS0, HR, Hg⟩, Ho, ⟨%d0, H0⟩, ⟨%d1, H1⟩, ⟨%d2, H2⟩⟩
      iapply ((kernelRun8_C c (grid8.coords t) _ _ _ _ _ _ _ _ (fun h => h0 ((hcond8_0 t).mp h)) ((hcond8_1 t).mpr h1) (iblk8 V c 0 t) (iblk8 V c 1 t) _).2.2 𝒱₀ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover8_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover8_C c _ _ _ _ _ _ _ _ _ _ _ _ _ _)
    · rw [Dat.leavesExact_idle (datS8 (Ix := Ix) (U := U) (Lvl := Lvl) V c) 2 t (idleAt8_2 t (fun h => h1 ((hcond8_1 t).mp h))) (noFlush8_2 t (fun h => h1 ((hcond8_1 t).mp h)))]
      rw [accAt8_B V c t h0 h1]
      unfold sout8_B; (try dsimp only)
      rw [PhiS8_castSucc V c t, PhiS8_pos V c _ _ hz]
      iintro ⟨⟨HS0, HR, Hg⟩, Ho, ⟨%d0, H0⟩, ⟨%d1, H1⟩, ⟨%d2, H2⟩⟩
      iapply ((kernelRun8_B c (grid8.coords t) _ _ _ _ _ _ _ _ (fun h => h0 ((hcond8_0 t).mp h)) (fun h => h1 ((hcond8_1 t).mp h)) (iblk8 V c 0 t) (iblk8 V c 1 t) _).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover8_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation8 (c : Dev nD) : BodyObligation (datS8 (Ix := Ix) (U := U) (Lvl := Lvl) V c) (defs₀ (F := F)) 𝒱₀ ι Set.univ := fun t => by
  rw [bigSep_W8, bigSep_W8]
  exact sound_body8 𝒱₀ ι V c t

/-- The same in the form the region rule takes. -/
theorem body_obligation_loose8 (c : Dev nD) : BodyObligationLoose (datS8 (Ix := Ix) (U := U) (Lvl := Lvl) V c) (defs₀ (F := F)) 𝒱₀ ι Set.univ :=
  (body_obligation8 𝒱₀ ι V c).loose

end Body

end Cert.KernelIdeal.Hand

end
-- ==== Proof.Scat8Region.lean ====
import proofs.«104867_j4217657884863_1_alg».proof.Proof.Scat8Body
import proofs.«104867_j4217657884863_1_alg».proof.Proof.Gen.KernelIdeal.Regions
import proofs.«104867_j4217657884863_1_alg».proof.Proof.Dats
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8: the region record -/

/-- The unscoped buffers when the region is left: the output array at what the write-backs leave, every other buffer
    as the region found it. -/
def Vout8 (V : Dev nD → Valuation τ sig (Elt F)) (c : Dev nD) : Valuation τ sig (Elt F) :=
  Function.update (V c) main_v65 ((datS8 (Ix := Ix) (U := U) (Lvl := Lvl) V c).arrAt 2 cfg8.N)

section Exit
variable (V : Dev nD → Valuation τ sig (Elt F))

/-- Each of the pipeline's arrays holds at exit what the write-backs leave: the two inputs are never written, -/
theorem hF8_0 (c : Dev nD) : (datS8 (Ix := Ix) (U := U) (Lvl := Lvl) V c).arrAt 0 cfg8.N = Vout8 (Ix := Ix) (U := U) (Lvl := Lvl) V c (Proc.devRef .tc (Pipeline.arrRef spec8 0)) :=
  (((datS8 (Ix := Ix) (U := U) (Lvl := Lvl) V c).arrAt_in 0 rfl _).trans (A_eq8 V c 0)).trans
    (Function.update_of_ne (StableHlo.devRef_ne_of_ne (by decide) : (Proc.devRef .tc (Pipeline.arrRef spec8 0) : DevRef τ sig) ≠ Proc.devRef .tc main_v65) _ _).symm
theorem hF8_1 (c : Dev nD) : (datS8 (Ix := Ix) (U := U) (Lvl := Lvl) V c).arrAt 1 cfg8.N = Vout8 (Ix := Ix) (U := U) (Lvl := Lvl) V c (Proc.devRef .tc (Pipeline.arrRef spec8 1)) :=
  (((datS8 (Ix := Ix) (U := U) (Lvl := Lvl) V c).arrAt_in 1 rfl _).trans (A_eq8 V c 1)).trans
    (Function.update_of_ne (StableHlo.devRef_ne_of_ne (by decide) : (Proc.devRef .tc (Pipeline.arrRef spec8 1) : DevRef τ sig) ≠ Proc.devRef .tc main_v65) _ _).symm
/-- and the output holds the value the exit valuation was updated with; -/
theorem hF8_2 (c : Dev nD) : (datS8 (Ix := Ix) (U := U) (Lvl := Lvl) V c).arrAt 2 cfg8.N = Vout8 (Ix := Ix) (U := U) (Lvl := Lvl) V c (Proc.devRef .tc (Pipeline.arrRef spec8 2)) := by
  unfold Vout8
  generalize (datS8 (Ix := Ix) (U := U) (Lvl := Lvl) V c).arrAt 2 cfg8.N = X
  exact (Function.update_self (Proc.devRef .tc main_v65 : DevRef τ sig) X (V c)).symm
theorem hF8 (c : Dev nD) (w : Fin cfg8.W) :
    (datS8 (Ix := Ix) (U := U) (Lvl := Lvl) V c).arrAt w cfg8.N = (fun b : Ref sig .tc => Vout8 (Ix := Ix) (U := U) (Lvl := Lvl) V c (Proc.devRef .tc b)) (Pipeline.arrRef spec8 w) :=
  match w with
  | ⟨0, _⟩ => hF8_0 V c
  | ⟨1, _⟩ => hF8_1 V c
  | ⟨2, _⟩ => hF8_2 V c
/-- every other buffer holds what it held at entry. -/
theorem hrest8 (c : Dev nD) : ∀ b : Ref sig .tc, b ∉ Finset.univ.image (Pipeline.arrRef spec8) →
    Vout8 (Ix := Ix) (U := U) (Lvl := Lvl) V c (Proc.devRef .tc b) = V c (Proc.devRef .tc b) :=
  fun b hb => Function.update_of_ne (StableHlo.devRef_ne_of_ne fun e => hb (Finset.mem_image.mpr ⟨2, Finset.mem_univ _, e.symm⟩)) _ _

end Exit

set_option backward.isDefEq.respectTransparency.types false in
/-- ENTRY: the arrays split out of the unscoped buffers; the rest's register, its `owes` and what rides along sorted out. -/
theorem hentry8 (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c)
    (E Er : Dev nD → sProp 𝕄) (hE : ∀ c : Dev nD, E c ⊢ iprop((∃ r, prngReg c r) ∗ (∃ W, owes (c : Thread nD τ) (0 : CellTallies nD τ sig Ix) W) ∗ Er c)) (c : Dev nD) :
    iprop(iprop(StableHlo.held (c : Thread nD τ) (Pipeline.ucRefs τ sig) (V c) ∗ E c) ∗ Pipeline.ownSems0 (Ix := Ix) (Name := ℕ) (U := U) (Lvl := Lvl) (Val := Elt F) (τ := τ) (fun k : PEmpty => k.elim) c ∗ levAts L lv)
      ⊢ |={Set.univ}=> iprop(((pdats (F := F) (Ix := Ix) (U := U) (Lvl := Lvl) d0 d1 d2 d3 d4 d5 d6 d7 (datS8 (Ix := Ix) (U := U) (Lvl := Lvl) V)) 8 c).arrays (((pdats (F := F) (Ix := Ix) (U := U) (Lvl := Lvl) d0 d1 d2 d3 d4 d5 d6 d7 (datS8 (Ix := Ix) (U := U) (Lvl := Lvl) V)) 8 c).arrAt · 0) ∗ Pipeline.prefHeld (Ix := Ix) (Name := ℕ) (U := U) (Lvl := Lvl) (pcfgs (F := F) 8).pre c (fun _ => fullShare) (adm (F := F) 8).1
          ∗ ((pdats (F := F) (Ix := Ix) (U := U) (Lvl := Lvl) d0 d1 d2 d3 d4 d5 d6 d7 (datS8 (Ix := Ix) (U := U) (Lvl := Lvl) V)) 8 c).owesAt ι 0 ∗ iprop(∃ r, prngReg c r) ∗ iprop(Pipeline.unscopedRest (Ix := Ix) (Name := ℕ) (U := U) (Lvl := Lvl) spec8 c (fun b : Ref sig .tc => V c (Proc.devRef .tc b)) ∗ Er c)) := by
  rw [Pipeline.ownSems0_none]
  have hsplit := Pipeline.arrays_of_unscopedBufs (p := 8) (pcfgs (F := F)) adm (pdats (F := F) (Ix := Ix) (U := U) (Lvl := Lvl) d0 d1 d2 d3 d4 d5 d6 d7 (datS8 (Ix := Ix) (U := U) (Lvl := Lvl) V)) launch8.win launch8.arr_whole c
    (((pdats (F := F) (Ix := Ix) (U := U) (Lvl := Lvl) d0 d1 d2 d3 d4 d5 d6 d7 (datS8 (Ix := Ix) (U := U) (Lvl := Lvl) V)) 8 c).share_full fun _ => rfl) (fun b : Ref sig .tc => V c (Proc.devRef .tc b)) fun _ => rfl
  rw [Pipeline.unscopedBufs_held] at hsplit
  iintro ⟨⟨Hub, HE⟩, -, -⟩
  ihave HE2 := (hE c) $$ HE
  icases HE2 with ⟨Hp, ⟨%W0, HO⟩, Hr⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists W0; isplitr; · ipureintro; exact fun _ _ => Or.inl trivial
    iexact HO
  isplitl [Hp]; · iexact Hp
  isplitl [Hrest]; · iexact Hrest
  iexact Hr

set_option backward.isDefEq.respectTransparency.types false in
/-- The invariant at the first point from the register and the scoped buffers no window stages. -/
theorem hin8 (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (c : Dev nD) :
    iprop(iprop(∃ r, prngReg c r) ∗ Pipeline.prefHeld (Ix := Ix) (Name := ℕ) (U := U) (Lvl := Lvl) (pcfgs (F := F) 8).pre c (fun _ => fullShare) (adm (F := F) 8).1 ∗ Pipeline.scopedRest (Ix := Ix) (Name := ℕ) (U := U) (Lvl := Lvl) (Val := Elt F) spec8 c) ⊢ ((pdats (F := F) (Ix := Ix) (U := U) (Lvl := Lvl) d0 d1 d2 d3 d4 d5 d6 d7 (datS8 (Ix := Ix) (U := U) (Lvl := Lvl) V)) 8 c).Φ 0 := by
  rw [show ((pdats (F := F) (Ix := Ix) (U := U) (Lvl := Lvl) d0 d1 d2 d3 d4 d5 d6 d7 (datS8 (Ix := Ix) (U := U) (Lvl := Lvl) V)) 8 c).Φ 0 = PhiZ8 c from rfl]; unfold PhiZ8
  iintro ⟨Hp, -, Hr⟩
  isplitl [Hr]; · iexact Hr
  iexact Hp

set_option backward.isDefEq.respectTransparency.types false in
/-- The invariant at the last point gives them back. -/
theorem hout8 (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (c : Dev nD) :
    ((pdats (F := F) (Ix := Ix) (U := U) (Lvl := Lvl) d0 d1 d2 d3 d4 d5 d6 d7 (datS8 (Ix := Ix) (U := U) (Lvl := Lvl) V)) 8 c).Φ (Fin.last cfg8.N) ⊢ iprop(iprop(∃ r, prngReg c r) ∗ Pipeline.ownSems0 (Ix := Ix) (Name := ℕ) (U := U) (Lvl := Lvl) (Val := Elt F) (τ := τ) (fun k : PEmpty => k.elim) c ∗ Pipeline.scopedRest (Ix := Ix) (Name := ℕ) (U := U) (Lvl := Lvl) (Val := Elt F) spec8 c) := by
  rw [Pipeline.ownSems0_none]
  have hΦ : ((pdats (F := F) (Ix := Ix) (U := U) (Lvl := Lvl) d0 d1 d2 d3 d4 d5 d6 d7 (datS8 (Ix := Ix) (U := U) (Lvl := Lvl) V)) 8 c).Φ (Fin.last cfg8.N) ⊢ (PhiZ8 c : sProp 𝕄) :=
    PhiS8_out V c cfg8.N (Nat.le_refl _) (by rw [show cfg8.N = 9775 from N_8]; omega)
  refine hΦ.trans ?_
  unfold PhiZ8
  iintro ⟨Hr, Hp⟩
  isplitl [Hp]; · iexact Hp
  isplitr; · iempintro
  iexact Hr

set_option backward.isDefEq.respectTransparency.types false in
/-- EXIT: the arrays rejoin the unscoped buffers at the exit valuation; the rest is rebuilt. -/
theorem hexit8 (ι : Ix) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c)
    (E' Er : Dev nD → sProp 𝕄) (hE' : ∀ c : Dev nD, iprop((∃ r, prngReg c r) ∗ (∃ W, owes (c : Thread nD τ) (0 : CellTallies nD τ sig Ix) W) ∗ Er c) ⊢ E' c) (c : Dev nD) :
    iprop(((pdats (F := F) (Ix := Ix) (U := U) (Lvl := Lvl) d0 d1 d2 d3 d4 d5 d6 d7 (datS8 (Ix := Ix) (U := U) (Lvl := Lvl) V)) 8 c).arrays (((pdats (F := F) (Ix := Ix) (U := U) (Lvl := Lvl) d0 d1 d2 d3 d4 d5 d6 d7 (datS8 (Ix := Ix) (U := U) (Lvl := Lvl) V)) 8 c).arrAt · cfg8.N) ∗ ((pdats (F := F) (Ix := Ix) (U := U) (Lvl := Lvl) d0 d1 d2 d3 d4 d5 d6 d7 (datS8 (Ix := Ix) (U := U) (Lvl := Lvl) V)) 8 c).owesAt ι (Fin.last cfg8.N) ∗ iprop(∃ r, prngReg c r) ∗ iprop(Pipeline.unscopedRest (Ix := Ix) (Name := ℕ) (U := U) (Lvl := Lvl) spec8 c (fun b : Ref sig .tc => V c (Proc.devRef .tc b)) ∗ Er c))
      ⊢ |={Set.univ}=> iprop(StableHlo.held (c : Thread nD τ) (Pipeline.ucRefs τ sig) (Vout8 (Ix := Ix) (U := U) (Lvl := Lvl) V c) ∗ E' c) := by
  have hjoin := Pipeline.unscopedBufs_of_arrays (p := 8) (pcfgs (F := F)) adm (Ix := Ix) (Name := ℕ) (U := U) (Lvl := Lvl)
    launch8.win launch8.arr_whole c (pdats (F := F) (Ix := Ix) (U := U) (Lvl := Lvl) d0 d1 d2 d3 d4 d5 d6 d7 (datS8 (Ix := Ix) (U := U) (Lvl := Lvl) V)) (((pdats (F := F) (Ix := Ix) (U := U) (Lvl := Lvl) d0 d1 d2 d3 d4 d5 d6 d7 (datS8 (Ix := Ix) (U := U) (Lvl := Lvl) V)) 8 c).share_full fun _ => rfl)
    (fun b : Ref sig .tc => V c (Proc.devRef .tc b)) (fun b : Ref sig .tc => Vout8 (Ix := Ix) (U := U) (Lvl := Lvl) V c (Proc.devRef .tc b)) (((pdats (F := F) (Ix := Ix) (U := U) (Lvl := Lvl) d0 d1 d2 d3 d4 d5 d6 d7 (datS8 (Ix := Ix) (U := U) (Lvl := Lvl) V)) 8 c).arrAt · cfg8.N) (hF8 V c) (hrest8 V c)
  rw [Pipeline.unscopedBufs_held] at hjoin
  iintro ⟨Ha, HO, HY, Hrest, Hr⟩
  imodintro
  isplitl [Ha Hrest]
  · iapply hjoin; isplitl [Ha]
    · iexact Ha
    iexact Hrest
  iapply (hE' c)
  isplitl [HY]; · iexact HY
  isplitl [HO]
  · unfold Pipeline.Dat.owesAt Pipeline.owesWithin
    icases HO with ⟨%W, -, HO⟩; iexists W; iexact HO
  iexact Hr

set_option backward.isDefEq.respectTransparency.types false in
/-- REGION 8 over the thread state: entered from every unscoped buffer at `V` beside a rest `E`, left with the output
    array at what the write-backs leave beside `E'`. The rest must contain the generator register at some state and
    the core owing nothing (`hE`), and is rebuilt from them and whatever else rode along (`hE'`). The kernel has no
    semaphore of its own; its accumulator enters the invariant with the scoped buffers and leaves with them. -/
def region8 (𝒱₀ : Variants) (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c)
    (E E' Er : Dev nD → sProp 𝕄) (hE : ∀ c : Dev nD, E c ⊢ iprop((∃ r, prngReg c r) ∗ (∃ W, owes (c : Thread nD τ) (0 : CellTallies nD τ sig Ix) W) ∗ Er c)) (hE' : ∀ c : Dev nD, iprop((∃ r, prngReg c r) ∗ (∃ W, owes (c : Thread nD τ) (0 : CellTallies nD τ sig Ix) W) ∗ Er c) ⊢ E' c) :
    RegionSeg (pcfgs (F := F)) adm (pdats (F := F) (Ix := Ix) (U := U) (Lvl := Lvl) d0 d1 d2 d3 d4 d5 d6 d7 (datS8 (Ix := Ix) (U := U) (Lvl := Lvl) V)) ι defs₀ 𝒱₀ L lv 8 where
  win := launch8.win.to₀
  block_pos := launch8.block_pos
  stage_whole := launch8.stage_whole
  K := PEmpty
  osem k := k.elim
  ho := Pipeline.OwnSemFacts.none _
  hbody c := body_obligation_loose8 𝒱₀ ι V c
  hwaits := Pipeline.hwaits_of_owed_zero _ _ _ _ L lv 8 fun _ _ => rfl
  pre c := iprop(StableHlo.held (c : Thread nD τ) (Pipeline.ucRefs τ sig) (V c) ∗ E c)
  post c := iprop(StableHlo.held (c : Thread nD τ) (Pipeline.ucRefs τ sig) (Vout8 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec8 c (fun b : Ref sig .tc => V c (Proc.devRef .tc b)) ∗ Er c)
  hentry c := hentry8 ι L lv V d0 d1 d2 d3 d4 d5 d6 d7 E Er hE c
  hin c := hin8 V d0 d1 d2 d3 d4 d5 d6 d7 c
  hout c := hout8 V d0 d1 d2 d3 d4 d5 d6 d7 c
  hexit c := hexit8 ι V d0 d1 d2 d3 d4 d5 d6 d7 E' Er hE' c

end Cert.KernelIdeal.Hand

end
-- ==== Proof.FramesFinal.lean ====
/-
  The whole program's run with every kernel region supplied.

  The six gather and scatter regions' proof data are chosen in program order, each at the buffer contents the items
  before it leave; with them the launch theorem's hypotheses are all discharged: each region's record is entered from
  the contents before it and left at the contents after it by definition of those contents.
-/
import proofs.«104867_j4217657884863_1_alg».proof.Proof.FrameAll
import proofs.«104867_j4217657884863_1_alg».proof.Proof.G1Region
import proofs.«104867_j4217657884863_1_alg».proof.Proof.G4Region
import proofs.«104867_j4217657884863_1_alg».proof.Proof.G7Region
import proofs.«104867_j4217657884863_1_alg».proof.Proof.Scat2Region
import proofs.«104867_j4217657884863_1_alg».proof.Proof.Scat5Region
import proofs.«104867_j4217657884863_1_alg».proof.Proof.Scat8Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The six regions' proof data, in program order -/

/-- The first gather region's, at the contents the first matrix-product region leaves; -/
abbrev fd1 : (c : Dev nD) → Dat τ (Elt F) Unit ℕ (UR sig nD τ) ℕ cfg1 c :=
  datG1 (Ix := Unit) (U := UR sig nD τ) (Lvl := ℕ) (W12 m)
/-- the first scatter region's, at what that gather leaves; -/
abbrev fd2 : (c : Dev nD) → Dat τ (Elt F) Unit ℕ (UR sig nD τ) ℕ cfg2 c :=
  datS2 (Ix := Unit) (U := UR sig nD τ) (Lvl := ℕ) (W13 m (fd1 m))
/-- the second layer's, -/
abbrev fd4 : (c : Dev nD) → Dat τ (Elt F) Unit ℕ (UR sig nD τ) ℕ cfg4 c :=
  datG4 (Ix := Unit) (U := UR sig nD τ) (Lvl := ℕ) (W17 m (fd1 m) (fd2 m))
abbrev fd5 : (c : Dev nD) → Dat τ (Elt F) Unit ℕ (UR sig nD τ) ℕ cfg5 c :=
  datS5 (Ix := Unit) (U := UR sig nD τ) (Lvl := ℕ) (W18 m (fd1 m) (fd2 m) (fd4 m))
/-- and the third layer's. -/
abbrev fd7 : (c : Dev nD) → Dat τ (Elt F) Unit ℕ (UR sig nD τ) ℕ cfg7 c :=
  datG7 (Ix := Unit) (U := UR sig nD τ) (Lvl := ℕ) (W22 m (fd1 m) (fd2 m) (fd4 m) (fd5 m))
abbrev fd8 : (c : Dev nD) → Dat τ (Elt F) Unit ℕ (UR sig nD τ) ℕ cfg8 c :=
  datS8 (Ix := Unit) (U := UR sig nD τ) (Lvl := ℕ) (W23 m (fd1 m) (fd2 m) (fd4 m) (fd5 m) (fd7 m))

local notation "dL0" => datL0 (Ix := Unit) (U := UR sig nD τ) (Lvl := ℕ) (V11 m)
local notation "dL3" => datL3 (Ix := Unit) (U := UR sig nD τ) (Lvl := ℕ) (W16 m (fd1 m) (fd2 m))
local notation "dL6" => datL6 (Ix := Unit) (U := UR sig nD τ) (Lvl := ℕ) (W21 m (fd1 m) (fd2 m) (fd4 m) (fd5 m))

/-! ## The frame and the run -/

set_option backward.isDefEq.respectTransparency.types false in
set_option maxHeartbeats 4000000 in
/-- THE FRAME: every weakly fair execution of @main from memory m with zero counters terminates, and every final
    memory holds each argument as launched. -/
theorem frame_pi (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_all m (fd1 m) (fd2 m) (fd4 m) (fd5 m) (fd7 m) (fd8 m) ρ
    (regionG1 (W12 m) Variants.none () Lc lvc dL0 (fd2 m) dL3 (fd4 m) (fd5 m) dL6 (fd7 m) (fd8 m)
      (fun _ => iprop(emp)) Ec Ec (fun _ => .rfl) (fun _ => .rfl))
      (fun c => .rfl) (fun c => .rfl)
    (region2 Variants.none () Lc lvc (W13 m (fd1 m)) dL0 (fd1 m) dL3 (fd4 m) (fd5 m) dL6 (fd7 m) (fd8 m)
      Ec Ec (fun _ => iprop(emp)) (fun _ => .rfl) (fun _ => .rfl))
      (fun c => .rfl) (fun c => .rfl)
    (regionG4 (W17 m (fd1 m) (fd2 m)) Variants.none () Lc lvc dL0 (fd1 m) (fd2 m) dL3 (fd5 m) dL6 (fd7 m) (fd8 m)
      (fun _ => iprop(emp)) Ec Ec (fun _ => .rfl) (fun _ => .rfl))
      (fun c => .rfl) (fun c => .rfl)
    (region5 Variants.none () Lc lvc (W18 m (fd1 m) (fd2 m) (fd4 m)) dL0 (fd1 m) (fd2 m) dL3 (fd4 m) dL6 (fd7 m) (fd8 m)
      Ec Ec (fun _ => iprop(emp)) (fun _ => .rfl) (fun _ => .rfl))
      (fun c => .rfl) (fun c => .rfl)
    (regionG7 (W22 m (fd1 m) (fd2 m) (fd4 m) (fd5 m)) Variants.none () Lc lvc dL0 (fd1 m) (fd2 m) dL3 (fd4 m) (fd5 m) dL6 (fd8 m)
      (fun _ => iprop(emp)) Ec Ec (fun _ => .rfl) (fun _ => .rfl))
      (fun c => .rfl) (fun c => .rfl)
    (region8 Variants.none () Lc lvc (W23 m (fd1 m) (fd2 m) (fd4 m) (fd5 m) (fd7 m)) dL0 (fd1 m) (fd2 m) dL3 (fd4 m) (fd5 m) dL6 (fd7 m)
      Ec Ec (fun _ => iprop(emp)) (fun _ => .rfl) (fun _ => .rfl))
      (fun c => .rfl) (fun c => .rfl)

set_option backward.isDefEq.respectTransparency.types false in
set_option maxHeartbeats 4000000 in
/-- THE RUN, its result named: as the frame, and every final memory holds in the result buffer the contents at the
    return read at the result. -/
theorem run_pi (ρ : Dev nD → PrngReg) :
    θ_run defs (onTc (τ := τ) (main (F := F))) ⟨m, fun _ => 0, ρ⟩ (fun r => ∀ c : Dev nD,
      r.2.mem ((c.tc : Thread nD τ).loc main_v99) = (W29 m (fd1 m) (fd2 m) (fd4 m) (fd5 m) (fd7 m) (fd8 m) c) main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_all m (fd1 m) (fd2 m) (fd4 m) (fd5 m) (fd7 m) (fd8 m) ρ
    (regionG1 (W12 m) Variants.none () Lc lvc dL0 (fd2 m) dL3 (fd4 m) (fd5 m) dL6 (fd7 m) (fd8 m)
      (fun _ => iprop(emp)) Ec Ec (fun _ => .rfl) (fun _ => .rfl))
      (fun c => .rfl) (fun c => .rfl)
    (region2 Variants.none () Lc lvc (W13 m (fd1 m)) dL0 (fd1 m) dL3 (fd4 m) (fd5 m) dL6 (fd7 m) (fd8 m)
      Ec Ec (fun _ => iprop(emp)) (fun _ => .rfl) (fun _ => .rfl))
      (fun c => .rfl) (fun c => .rfl)
    (regionG4 (W17 m (fd1 m) (fd2 m)) Variants.none () Lc lvc dL0 (fd1 m) (fd2 m) dL3 (fd5 m) dL6 (fd7 m) (fd8 m)
      (fun _ => iprop(emp)) Ec Ec (fun _ => .rfl) (fun _ => .rfl))
      (fun c => .rfl) (fun c => .rfl)
    (region5 Variants.none () Lc lvc (W18 m (fd1 m) (fd2 m) (fd4 m)) dL0 (fd1 m) (fd2 m) dL3 (fd4 m) dL6 (fd7 m) (fd8 m)
      Ec Ec (fun _ => iprop(emp)) (fun _ => .rfl) (fun _ => .rfl))
      (fun c => .rfl) (fun c => .rfl)
    (regionG7 (W22 m (fd1 m) (fd2 m) (fd4 m) (fd5 m)) Variants.none () Lc lvc dL0 (fd1 m) (fd2 m) dL3 (fd4 m) (fd5 m) dL6 (fd8 m)
      (fun _ => iprop(emp)) Ec Ec (fun _ => .rfl) (fun _ => .rfl))
      (fun c => .rfl) (fun c => .rfl)
    (region8 Variants.none () Lc lvc (W23 m (fd1 m) (fd2 m) (fd4 m) (fd5 m) (fd7 m)) dL0 (fd1 m) (fd2 m) dL3 (fd4 m) (fd5 m) dL6 (fd7 m)
      Ec Ec (fun _ => iprop(emp)) (fun _ => .rfl) (fun _ => .rfl))
      (fun c => .rfl) (fun c => .rfl)

end Cert.KernelIdeal.Hand

end
-- ==== Proof.Lin0K.lean ====
/- The linear kernel of pipeline 0 (h = x @ W over 25 row blocks of 2048): the windows' blocks, the body's triple, the
   pipeline's proof data at any entry contents, and its body obligation. -/
import proofs.«104867_j4217657884863_1_alg».proof.Proof.Gen.Kernel.Launch
import proofs.«104867_j4217657884863_1_alg».proof.Proof.Gen.Kernel.Skeleton
import proofs.«104867_j4217657884863_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 0: h = x @ W, one row block of 2048 per grid point -/

/-! ## The windows' blocks -/

/-- Window `w`'s block at point `t`, read off its array as the region finds it. -/
def iblkL0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's current staging buffer holds its block at every point, for any proof data whose array is
    the entry contents and whose body leaves the block in place. -/
theorem beforeL0_0_of {c : Dev nD} (dat : Dat τ (Elt F) Ix ℕ U Lvl cfg0 c) (hA : dat.A 0 = V c (Pipeline.arrRef spec0 0))
    (hafter : ∀ t, dat.after 0 t = iblkL0 V c 0 t) (t : Fin cfg0.N) (d) : dat.before 0 t d = iblkL0 V c 0 t :=
  (dat.before_in_eq_fetched 0 rfl (fun _ => rfl) (fun _ _ _ => rfl) (fun t => by rw [hafter]; unfold Dat.blockOf iblkL0; rw [hA]; try rfl) t d).trans
    (by unfold Dat.fetched Dat.blockOf iblkL0; rw [hA]; try rfl)

/-- The weight input's staging buffer holds the weight at every point, fetched there (the first point) or not (its
    block index never moves). -/
theorem beforeL0_1_of {c : Dev nD} (dat : Dat τ (Elt F) Ix ℕ U Lvl cfg0 c) (hA : dat.A 1 = V c (Pipeline.arrRef spec0 1))
    (hafter : ∀ t, dat.after 1 t = iblkL0 V c 1 t) (t : Fin cfg0.N) (d) : dat.before 1 t d = iblkL0 V c 1 t :=
  (dat.before_in_eq_fetched 1 rfl (fun _ => rfl) (fun _ _ _ => rfl) (fun t => by rw [hafter]; unfold Dat.blockOf iblkL0; rw [hA]; try rfl) t d).trans
    (by unfold Dat.fetched Dat.blockOf iblkL0; rw [hA]; try rfl)

/-! ## The body's accesses -/

/-- The whole row block, and the whole weight. -/
abbrev rL0_x : Rect S2048x64 := Rect.unit (s := S2048x64) ![0, 0] S2048x64.size inb_S2048x64_S2048x64_0_0
abbrev rL0_w : Rect S64x64 := Rect.unit (s := S64x64) ![0, 0] S64x64.size inb_S64x64_S64x64_0_0

/-! ## What the body leaves in the output window's buffer -/

/-- The output's staging buffer after the body, from the two input blocks: its one store, of the whole block — the
    product of the row block and the weight, both rounded to bf16, accumulated from zero. -/
def outL0 (x0 : Vec F S2048x64 .f32) (x1 : Vec F S64x64 .f32) : Vec F S2048x64 .f32 :=
  View.canon [⟨rL0_x, k0_pay1 (View.ld x0 rL0_x) (View.ld x1 rL0_w)⟩]

/-- The one store covers the buffer. -/
theorem coverL0 (p0 : Vec F S2048x64 .f32) (y : S2048x64.Idx) :
    ∃ pc ∈ ([⟨rL0_x, p0⟩] : List (View.Piece (Elt F) S2048x64 .f32)), y ∈ pc.1.set :=
  View.cover_of_tiled [⟨rL0_x, p0⟩] S2048x64.size (by rfl) y

/-! ## The body's triple -/

set_option maxHeartbeats 1000000 in
/-- The kernel body on whole staging memrefs, the inputs' at contents `x0`, `x1` and the output's at anything, runs to
    the continuation holding the inputs' as they were and the output's at `outL0 x0 x1`. -/
theorem sound_kernelL0 (𝒱₀ : Variants) (c : Dev nD) (E : Set ℕ) (i : grid0.Coords)
    (arg1 : Memref sig .tc .vmem S2048x64 .f32) (harg1 : arg1.IsWhole)
    (arg2 : Memref sig .tc .vmem S64x64 .f32) (harg2 : arg2.IsWhole)
    (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outL0 x0 x1)) -∗ K ⟨⟩))
      ⊢ wp frame (wpE (defs₀ (F := F)) 𝒱₀ c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverL0 _)

/-! ## The pipeline's proof data -/

/-- The region's invariant: the core's scoped buffers no window stages, at some contents each, and its generator
    register at some state — the body uses neither. -/
def ΦL0 (c : Dev nD) : sProp 𝕄 :=
  iprop(Pipeline.scopedRest (Ix := Ix) (Name := ℕ) (U := U) (Lvl := Lvl) (Val := Elt F) spec0 c ∗ ∃ r, prngReg c r)

/-- The proof data of pipeline 0 on core `c`: the arrays as the region finds them (`V`); after the body at point `t`
    each input's buffer at its block and the output's at the product of the two; the invariant above; nothing owed;
    full shares. -/
def datL0 (c : Dev nD) : Dat τ (Elt F) Ix ℕ U Lvl cfg0 c where
  A w := V c (Pipeline.arrRef spec0 w)
  after w t := match w with
    | ⟨0, _⟩ => iblkL0 V c 0 t
    | ⟨1, _⟩ => iblkL0 V c 1 t
    | ⟨2, _⟩ => outL0 (iblkL0 V c 0 t) (iblkL0 V c 1 t)
  Φ _ := ΦL0 c
  q _ := fullShare
  owed _ := 0

/-- The proof data's arrays are the region-entry contents. -/
theorem A_eqL0 (c : Dev nD) (w : Fin cfg0.W) : (datL0 (Ix := Ix) (U := U) (Lvl := Lvl) V c).A w = V c (Pipeline.arrRef spec0 w) := by
  dsimp only [datL0]

/-- What the body leaves, window by window. -/
theorem afterL0_0 (c : Dev nD) (t : Fin cfg0.N) : (datL0 (Ix := Ix) (U := U) (Lvl := Lvl) V c).after 0 t = iblkL0 V c 0 t := by dsimp only [datL0]
theorem afterL0_1 (c : Dev nD) (t : Fin cfg0.N) : (datL0 (Ix := Ix) (U := U) (Lvl := Lvl) V c).after 1 t = iblkL0 V c 1 t := by dsimp only [datL0]
theorem afterL0_2 (c : Dev nD) (t : Fin cfg0.N) :
    (datL0 (Ix := Ix) (U := U) (Lvl := Lvl) V c).after 2 t = outL0 (iblkL0 V c 0 t) (iblkL0 V c 1 t) := by dsimp only [datL0]

/-- Each input's current staging buffer holds its block at every point, fetched there or not. -/
theorem beforeL0_0 (c : Dev nD) (t : Fin cfg0.N) (d) : (datL0 (Ix := Ix) (U := U) (Lvl := Lvl) V c).before 0 t d = iblkL0 V c 0 t :=
  beforeL0_0_of V (datL0 (Ix := Ix) (U := U) (Lvl := Lvl) V c) (A_eqL0 V c 0) (afterL0_0 V c) t d
theorem beforeL0_1 (c : Dev nD) (t : Fin cfg0.N) (d) : (datL0 (Ix := Ix) (U := U) (Lvl := Lvl) V c).before 1 t d = iblkL0 V c 1 t :=
  beforeL0_1_of V (datL0 (Ix := Ix) (U := U) (Lvl := Lvl) V c) (A_eqL0 V c 1) (afterL0_1 V c) t d

/-! ## The body obligation, at a generic point -/

/-- What the body is called with at point `t`, the windows one by one, -/
def bodyPreL0 (ι : Ix) (c : Dev nD) (t : Fin cfg0.N) : sProp 𝕄 :=
  iprop((datL0 (Ix := Ix) (U := U) (Lvl := Lvl) V c).Φ t.castSucc ∗ (datL0 (Ix := Ix) (U := U) (Lvl := Lvl) V c).owesAt ι t.castSucc
    ∗ (∃ d, owns (c : Thread nD τ) (st0_0 t) fullShare ((datL0 (Ix := Ix) (U := U) (Lvl := Lvl) V c).before 0 t d))
    ∗ (∃ d, owns (c : Thread nD τ) (st0_1 t) fullShare ((datL0 (Ix := Ix) (U := U) (Lvl := Lvl) V c).before 1 t d))
    ∗ (∃ d, owns (c : Thread nD τ) (st0_2 t) fullShare ((datL0 (Ix := Ix) (U := U) (Lvl := Lvl) V c).before 2 t d)))

/-- and what it returns. -/
def bodyPostL0 (ι : Ix) (c : Dev nD) (t : Fin cfg0.N) : sProp 𝕄 :=
  iprop((datL0 (Ix := Ix) (U := U) (Lvl := Lvl) V c).Φ t.succ ∗ (datL0 (Ix := Ix) (U := U) (Lvl := Lvl) V c).owesAt ι t.succ
    ∗ owns (c : Thread nD τ) (st0_0 t) fullShare ((datL0 (Ix := Ix) (U := U) (Lvl := Lvl) V c).after 0 t)
    ∗ owns (c : Thread nD τ) (st0_1 t) fullShare ((datL0 (Ix := Ix) (U := U) (Lvl := Lvl) V c).after 1 t)
    ∗ owns (c : Thread nD τ) (st0_2 t) fullShare ((datL0 (Ix := Ix) (U := U) (Lvl := Lvl) V c).after 2 t))

/-- The body at any point: the inputs' memrefs hold their blocks, so the triple applies; the invariant and the core's
    `owes` pass through unread. -/
theorem sound_bodyL0 (𝒱₀ : Variants) (ι : Ix) (c : Dev nD) (t : Fin cfg0.N) :
    bodyPreL0 (Ix := Ix) (U := U) (Lvl := Lvl) V ι c t
      ⊢ wp frame (wpE (defs₀ (F := F)) 𝒱₀ c none) Set.univ (bodyAt0 t)
          (fun _ => bodyPostL0 (Ix := Ix) (U := U) (Lvl := Lvl) V ι c t) := by
  unfold bodyPreL0 bodyPostL0 bodyAt0
  simp only [beforeL0_0, beforeL0_1]
  rw [show (datL0 (Ix := Ix) (U := U) (Lvl := Lvl) V c).Φ t.succ = (datL0 (Ix := Ix) (U := U) (Lvl := Lvl) V c).Φ t.castSucc from rfl,
    show (datL0 (Ix := Ix) (U := U) (Lvl := Lvl) V c).owesAt ι t.succ = (datL0 (Ix := Ix) (U := U) (Lvl := Lvl) V c).owesAt ι t.castSucc from rfl,
    afterL0_0, afterL0_1, afterL0_2]
  iintro ⟨HΦ, Ho, ⟨%d0, H0⟩, ⟨%d1, H1⟩, ⟨%d2, H2⟩⟩
  iapply (sound_kernelL0 𝒱₀ c Set.univ (grid0.coords t) _ _ _ _ _ _ (iblkL0 V c 0 t) (iblkL0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligationL0_exact (𝒱₀ : Variants) (ι : Ix) (c : Dev nD) :
    BodyObligation (datL0 (Ix := Ix) (U := U) (Lvl := Lvl) V c) (defs₀ (F := F)) 𝒱₀ ι Set.univ := fun t => by
  rw [bigSep_W0, bigSep_W0]
  exact sound_bodyL0 V 𝒱₀ ι c t

/-- and as the loop uses it. -/
theorem body_obligationL0 (𝒱₀ : Variants) (ι : Ix) (c : Dev nD) :
    BodyObligationLoose (datL0 (Ix := Ix) (U := U) (Lvl := Lvl) V c) (defs₀ (F := F)) 𝒱₀ ι Set.univ :=
  (body_obligationL0_exact V 𝒱₀ ι c).loose

end Cert.Kernel.Hand

end
-- ==== Proof.DatsK.lean ====
/-
  The proof data of the nine kernel regions as ONE family over the pipeline index.

  The launch theorem for a program of several regions takes the regions' proof data as a function of the
  pipeline index `p : Fin 9`. Each region's data is written where that kernel's body is run; this module
  only ties them together: the family is a literal match on `p` whose nine slots are parameters, so that
  the data at a numeral index is the corresponding slot by `rfl`, whatever the other eight slots are.
-/
import proofs.«104867_j4217657884863_1_alg».proof.Proof.Gen.Kernel.Launch
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.Kernel Cert.Kernel.Gen

variable {F : FTy → Type} [FloatOps F]
variable {Ix : Type} [DecidableEq Ix] {U : Type} [URA U] {Lvl : Type} [Preorder Lvl]

/-- The nine regions' proof data as one family: slot `K` at pipeline index `K`. -/
def pdats
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    (p : Fin 9) → (c : Dev nD) → Dat τ (Elt F) Ix ℕ U Lvl (cfgs p) c
  | ⟨0, _⟩ => d0
  | ⟨1, _⟩ => d1
  | ⟨2, _⟩ => d2
  | ⟨3, _⟩ => d3
  | ⟨4, _⟩ => d4
  | ⟨5, _⟩ => d5
  | ⟨6, _⟩ => d6
  | ⟨7, _⟩ => d7
  | ⟨8, _⟩ => d8

/-- At index 0 the family is its slot 0. -/
theorem pdats_0
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 0 = d0 := rfl

/-- At index 1 the family is its slot 1. -/
theorem pdats_1
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 1 = d1 := rfl

/-- At index 2 the family is its slot 2. -/
theorem pdats_2
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 2 = d2 := rfl

/-- At index 3 the family is its slot 3. -/
theorem pdats_3
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 3 = d3 := rfl

/-- At index 4 the family is its slot 4. -/
theorem pdats_4
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 4 = d4 := rfl

/-- At index 5 the family is its slot 5. -/
theorem pdats_5
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 5 = d5 := rfl

/-- At index 6 the family is its slot 6. -/
theorem pdats_6
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 6 = d6 := rfl

/-- At index 7 the family is its slot 7. -/
theorem pdats_7
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 7 = d7 := rfl

/-- At index 8 the family is its slot 8. -/
theorem pdats_8
    (d0 : (c : Dev nD) → Dat τ (Elt F) Ix ℕ U Lvl (cfgs 0) c)
    (d1 : (c : Dev nD) → Dat τ (Elt F) Ix ℕ U Lvl (cfgs 1) c)
    (d2 : (c : Dev nD) → Dat τ (Elt F) Ix ℕ U Lvl (cfgs 2) c)
    (d3 : (c : Dev nD) → Dat τ (Elt F) Ix ℕ U Lvl (cfgs 3) c)
    (d4 : (c : Dev nD) → Dat τ (Elt F) Ix ℕ U Lvl (cfgs 4) c)
    (d5 : (c : Dev nD) → Dat τ (Elt F) Ix ℕ U Lvl (cfgs 5) c)
    (d6 : (c : Dev nD) → Dat τ (Elt F) Ix ℕ U Lvl (cfgs 6) c)
    (d7 : (c : Dev nD) → Dat τ (Elt F) Ix ℕ U Lvl (cfgs 7) c)
    (d8 : (c : Dev nD) → Dat τ (Elt F) Ix ℕ U Lvl (cfgs 8) c) :
    pdats (Ix := Ix) (U := U) (Lvl := Lvl) d0 d1 d2 d3 d4 d5 d6 d7 d8 8 = d8 := rfl

end Cert.Kernel.Hand

end
-- ==== Proof.LinReg0K.lean ====
/- The linear kernel of pipeline 0 as a segment of the program: the buffer contents it leaves and its segment record,
   over the proof data family with the other eight slots arbitrary. -/
import proofs.«104867_j4217657884863_1_alg».proof.Proof.Lin0K
import proofs.«104867_j4217657884863_1_alg».proof.Proof.DatsK
import proofs.«104867_j4217657884863_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 0 as a segment of the program -/

/-! ## The buffer contents the region leaves -/

/-- The exit contents: the output array at what the write-backs have left after the last point, every other buffer
    as the region found it. -/
def VoutL0 (c : Dev nD) : Valuation τ sig (Elt F) :=
  Function.update (V c) (main_v41 : DevRef τ sig) ((datL0 (Ix := Ix) (U := U) (Lvl := Lvl) V c).arrAt 2 cfg0.N)

theorem ne_outL0_0 : ((main_v33 : Ref sig .tc) : DevRef τ sig) ≠ (main_v41 : Ref sig .tc) :=
  fun e => absurd (Proc.devRef_injective _ e) (by decide)
theorem ne_outL0_1 : ((main_arg3 : Ref sig .tc) : DevRef τ sig) ≠ (main_v41 : Ref sig .tc) :=
  fun e => absurd (Proc.devRef_injective _ e) (by decide)

-- the array references of the printed windows are compared up to unfolding the printed window table
set_option backward.isDefEq.respectTransparency.types false in
/-- At the exit each of the pipeline's arrays holds what the pipeline leaves: the inputs what they held, the output
    its write-backs; -/
theorem hFL0 (c : Dev nD) (w : Fin cfg0.W) :
    (datL0 (Ix := Ix) (U := U) (Lvl := Lvl) V c).arrAt w cfg0.N = VoutL0 (Ix := Ix) (U := U) (Lvl := Lvl) V c (Pipeline.arrRef spec0 w) := by
  match w with
  | ⟨0, _⟩ =>
    exact ((datL0 (Ix := Ix) (U := U) (Lvl := Lvl) V c).arrAt_in _ rfl _).trans
      (Function.update_of_ne (β := fun b : DevRef τ sig => b.ty.Contents (Elt F)) ne_outL0_0 _ (V c)).symm
  | ⟨1, _⟩ =>
    exact ((datL0 (Ix := Ix) (U := U) (Lvl := Lvl) V c).arrAt_in _ rfl _).trans
      (Function.update_of_ne (β := fun b : DevRef τ sig => b.ty.Contents (Elt F)) ne_outL0_1 _ (V c)).symm
  | ⟨2, _⟩ =>
    show (datL0 (Ix := Ix) (U := U) (Lvl := Lvl) V c).arrAt 2 cfg0.N
      = Function.update (V c) (main_v41 : DevRef τ sig) ((datL0 (Ix := Ix) (U := U) (Lvl := Lvl) V c).arrAt 2 cfg0.N) (main_v41 : DevRef τ sig)
    exact (Function.update_self (β := fun b : DevRef τ sig => b.ty.Contents (Elt F)) (main_v41 : DevRef τ sig) _ (V c)).symm

/-- and every other buffer what it held at entry. -/
theorem hrestL0 (c : Dev nD) (b : Ref sig .tc) (hb : b ∉ Finset.univ.image (Pipeline.arrRef spec0)) :
    VoutL0 (Ix := Ix) (U := U) (Lvl := Lvl) V c b = V c b := by
  unfold VoutL0
  refine Function.update_of_ne (fun e => hb ?_) _ _
  rw [Proc.devRef_injective _ e]
  exact Finset.mem_image.mpr ⟨2, Finset.mem_univ _, rfl⟩

/-! ## The segment record -/

section Region

variable (d1 : (c : Dev nD) → Dat τ (Elt F) Ix ℕ U Lvl (cfgs 1) c)
  (d2 : (c : Dev nD) → Dat τ (Elt F) Ix ℕ U Lvl (cfgs 2) c)
  (d3 : (c : Dev nD) → Dat τ (Elt F) Ix ℕ U Lvl (cfgs 3) c)
  (d4 : (c : Dev nD) → Dat τ (Elt F) Ix ℕ U Lvl (cfgs 4) c)
  (d5 : (c : Dev nD) → Dat τ (Elt F) Ix ℕ U Lvl (cfgs 5) c)
  (d6 : (c : Dev nD) → Dat τ (Elt F) Ix ℕ U Lvl (cfgs 6) c)
  (d7 : (c : Dev nD) → Dat τ (Elt F) Ix ℕ U Lvl (cfgs 7) c)
  (d8 : (c : Dev nD) → Dat τ (Elt F) Ix ℕ U Lvl (cfgs 8) c)

-- a library lemma stated over the pinned configuration unifies with the printed one only when unification may
-- unfold plain definitions in a metavariable's type
set_option backward.isDefEq.respectTransparency.types false in
/-- Pipeline 0 as a segment: entered from every unscoped buffer at `V` beside a rest `E`, left at `VoutL0 V` beside
    `E'`. The rest must hold the generator register at some state and the core owing nothing, beside anything `Er`
    that bypasses the region (`hE`), and the same three make the rest after it (`hE'`). The arrays are split out of the
    unscoped buffers and put back at the exit contents; the generator register goes into the invariant and comes
    back; the kernel has no semaphore of its own. -/
def regionL0 (ι : Ix) (𝒱₀ : Variants) (L : GSem nD τ sig → Finset Ix) (lv : GSem nD τ sig → Ix → Lvl)
    (E E' Er : Dev nD → sProp 𝕄)
    (hE : ∀ c, E c ⊢ iprop((∃ r, prngReg c r) ∗ (∃ W, owes (c : Thread nD τ) (0 : CellTallies nD τ sig Ix) W) ∗ Er c))
    (hE' : ∀ c, iprop((∃ r, prngReg c r) ∗ (∃ W, owes (c : Thread nD τ) (0 : CellTallies nD τ sig Ix) W) ∗ Er c) ⊢ E' c) :
    Pipeline.RegionSeg (pcfgs (F := F)) adm (pdats (datL0 V) d1 d2 d3 d4 d5 d6 d7 d8) ι defs₀ 𝒱₀ L lv 0 where
  win := launch0.win.to₀
  block_pos := launch0.block_pos
  stage_whole := launch0.stage_whole
  K := PEmpty
  osem k := k.elim
  ho := Pipeline.OwnSemFacts.none _
  hbody c := body_obligationL0 V 𝒱₀ ι c
  hwaits := Pipeline.hwaits_of_owed_zero _ _ _ _ L lv 0 fun _ _ => rfl
  pre c := iprop(StableHlo.held (c : Thread nD τ) (Pipeline.ucRefs τ sig) (V c) ∗ E c)
  post c := iprop(StableHlo.held (c : Thread nD τ) (Pipeline.ucRefs τ sig) (VoutL0 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec0 c (fun b => V c b) ∗ Er c)
  hentry c := by
    rw [Pipeline.ownSems0_none]
    have hsplit := Pipeline.arrays_of_unscopedBufs (p := 0) (pcfgs (F := F)) adm (pdats (datL0 V) d1 d2 d3 d4 d5 d6 d7 d8) launch0.win launch0.arr_whole c
      ((pdats (datL0 V) d1 d2 d3 d4 d5 d6 d7 d8 0 c).share_full fun _ => rfl) (fun b => V c b) fun _ => rfl
    rw [Pipeline.unscopedBufs_held] at hsplit
    iintro ⟨⟨Hub, HE⟩, -, -⟩
    ihave HE2 := hE c $$ HE
    icases HE2 with ⟨Hp, HO, Hr⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hr
  hin c := by
    rw [show (pdats (datL0 V) d1 d2 d3 d4 d5 d6 d7 d8 0 c).Φ 0 = ΦL0 c from rfl]; unfold ΦL0
    iintro ⟨Hp, -, Hr⟩
    isplitl [Hr]; · iexact Hr
    iexact Hp
  hout c := by
    rw [Pipeline.ownSems0_none, show (pdats (datL0 V) d1 d2 d3 d4 d5 d6 d7 d8 0 c).Φ (Fin.last _) = ΦL0 c from rfl]; unfold ΦL0
    iintro ⟨Hr, Hp⟩
    isplitl [Hp]; · iexact Hp
    isplitr; · iempintro
    iexact Hr
  hexit c := by
    have hjoin := Pipeline.unscopedBufs_of_arrays (p := 0) (pcfgs (F := F)) adm (Ix := Ix) (Name := ℕ) (U := U) (Lvl := Lvl)
      launch0.win launch0.arr_whole c (pdats (datL0 V) d1 d2 d3 d4 d5 d6 d7 d8) ((pdats (datL0 V) d1 d2 d3 d4 d5 d6 d7 d8 0 c).share_full fun _ => rfl)
      (fun b => V c b) (fun b => VoutL0 (Ix := Ix) (U := U) (Lvl := Lvl) V c b) ((pdats (datL0 V) d1 d2 d3 d4 d5 d6 d7 d8 0 c).arrAt · cfg0.N)
      (hFL0 V c) (hrestL0 V c)
    rw [Pipeline.unscopedBufs_held] at hjoin
    iintro ⟨Ha, HO, HY, Hrest, Hr⟩
    imodintro
    isplitl [Ha Hrest]
    · iapply hjoin; isplitl [Ha] <;> iassumption
    iapply hE' c
    isplitl [HY]; · iexact HY
    isplitl [HO]
    · unfold Pipeline.Dat.owesAt Pipeline.owesWithin
      icases HO with ⟨%W, -, HO⟩; iexists W; iexact HO
    iexact Hr

end Region

end Cert.Kernel.Hand

end
-- ==== Proof.Lin3K.lean ====
/- The linear kernel of pipeline 3 (h = x @ W over 25 row blocks of 2048): the windows' blocks, the body's triple, the
   pipeline's proof data at any entry contents, and its body obligation. -/
import proofs.«104867_j4217657884863_1_alg».proof.Proof.Gen.Kernel.Launch
import proofs.«104867_j4217657884863_1_alg».proof.Proof.Gen.Kernel.Skeleton
import proofs.«104867_j4217657884863_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 3: h = x @ W, one row block of 2048 per grid point -/

/-! ## The windows' blocks -/

/-- Window `w`'s block at point `t`, read off its array as the region finds it. -/
def iblkL3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block input's current staging buffer holds its block at every point, for any proof data whose array is
    the entry contents and whose body leaves the block in place. -/
theorem beforeL3_0_of {c : Dev nD} (dat : Dat τ (Elt F) Ix ℕ U Lvl cfg3 c) (hA : dat.A 0 = V c (Pipeline.arrRef spec3 0))
    (hafter : ∀ t, dat.after 0 t = iblkL3 V c 0 t) (t : Fin cfg3.N) (d) : dat.before 0 t d = iblkL3 V c 0 t :=
  (dat.before_in_eq_fetched 0 rfl (fun _ => rfl) (fun _ _ _ => rfl) (fun t => by rw [hafter]; unfold Dat.blockOf iblkL3; rw [hA]; try rfl) t d).trans
    (by unfold Dat.fetched Dat.blockOf iblkL3; rw [hA]; try rfl)

/-- The weight input's staging buffer holds the weight at every point, fetched there (the first point) or not (its
    block index never moves). -/
theorem beforeL3_1_of {c : Dev nD} (dat : Dat τ (Elt F) Ix ℕ U Lvl cfg3 c) (hA : dat.A 1 = V c (Pipeline.arrRef spec3 1))
    (hafter : ∀ t, dat.after 1 t = iblkL3 V c 1 t) (t : Fin cfg3.N) (d) : dat.before 1 t d = iblkL3 V c 1 t :=
  (dat.before_in_eq_fetched 1 rfl (fun _ => rfl) (fun _ _ _ => rfl) (fun t => by rw [hafter]; unfold Dat.blockOf iblkL3; rw [hA]; try rfl) t d).trans
    (by unfold Dat.fetched Dat.blockOf iblkL3; rw [hA]; try rfl)

/-! ## The body's accesses -/

/-- The whole row block, and the whole weight. -/
abbrev rL3_x : Rect S2048x64 := Rect.unit (s := S2048x64) ![0, 0] S2048x64.size inb_S2048x64_S2048x64_0_0
abbrev rL3_w : Rect S64x64 := Rect.unit (s := S64x64) ![0, 0] S64x64.size inb_S64x64_S64x64_0_0

/-! ## What the body leaves in the output window's buffer -/

/-- The output's staging buffer after the body, from the two input blocks: its one store, of the whole block — the
    product of the row block and the weight, both rounded to bf16, accumulated from zero. -/
def outL3 (x0 : Vec F S2048x64 .f32) (x1 : Vec F S64x64 .f32) : Vec F S2048x64 .f32 :=
  View.canon [⟨rL3_x, k3_pay1 (View.ld x0 rL3_x) (View.ld x1 rL3_w)⟩]

/-- The one store covers the buffer. -/
theorem coverL3 (p0 : Vec F S2048x64 .f32) (y : S2048x64.Idx) :
    ∃ pc ∈ ([⟨rL3_x, p0⟩] : List (View.Piece (Elt F) S2048x64 .f32)), y ∈ pc.1.set :=
  View.cover_of_tiled [⟨rL3_x, p0⟩] S2048x64.size (by rfl) y

/-! ## The body's triple -/

set_option maxHeartbeats 1000000 in
/-- The kernel body on whole staging memrefs, the inputs' at contents `x0`, `x1` and the output's at anything, runs to
    the continuation holding the inputs' as they were and the output's at `outL3 x0 x1`. -/
theorem sound_kernelL3 (𝒱₀ : Variants) (c : Dev nD) (E : Set ℕ) (i : grid3.Coords)
    (arg1 : Memref sig .tc .vmem S2048x64 .f32) (harg1 : arg1.IsWhole)
    (arg2 : Memref sig .tc .vmem S64x64 .f32) (harg2 : arg2.IsWhole)
    (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outL3 x0 x1)) -∗ K ⟨⟩))
      ⊢ wp frame (wpE (defs₀ (F := F)) 𝒱₀ c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverL3 _)

/-! ## The pipeline's proof data -/

/-- The region's invariant: the core's scoped buffers no window stages, at some contents each, and its generator
    register at some state — the body uses neither. -/
def ΦL3 (c : Dev nD) : sProp 𝕄 :=
  iprop(Pipeline.scopedRest (Ix := Ix) (Name := ℕ) (U := U) (Lvl := Lvl) (Val := Elt F) spec3 c ∗ ∃ r, prngReg c r)

/-- The proof data of pipeline 3 on core `c`: the arrays as the region finds them (`V`); after the body at point `t`
    each input's buffer at its block and the output's at the product of the two; the invariant above; nothing owed;
    full shares. -/
def datL3 (c : Dev nD) : Dat τ (Elt F) Ix ℕ U Lvl cfg3 c where
  A w := V c (Pipeline.arrRef spec3 w)
  after w t := match w with
    | ⟨0, _⟩ => iblkL3 V c 0 t
    | ⟨1, _⟩ => iblkL3 V c 1 t
    | ⟨2, _⟩ => outL3 (iblkL3 V c 0 t) (iblkL3 V c 1 t)
  Φ _ := ΦL3 c
  q _ := fullShare
  owed _ := 0

/-- The proof data's arrays are the region-entry contents. -/
theorem A_eqL3 (c : Dev nD) (w : Fin cfg3.W) : (datL3 (Ix := Ix) (U := U) (Lvl := Lvl) V c).A w = V c (Pipeline.arrRef spec3 w) := by
  dsimp only [datL3]

/-- What the body leaves, window by window. -/
theorem afterL3_0 (c : Dev nD) (t : Fin cfg3.N) : (datL3 (Ix := Ix) (U := U) (Lvl := Lvl) V c).after 0 t = iblkL3 V c 0 t := by dsimp only [datL3]
theorem afterL3_1 (c : Dev nD) (t : Fin cfg3.N) : (datL3 (Ix := Ix) (U := U) (Lvl := Lvl) V c).after 1 t = iblkL3 V c 1 t := by dsimp only [datL3]
theorem afterL3_2 (c : Dev nD) (t : Fin cfg3.N) :
    (datL3 (Ix := Ix) (U := U) (Lvl := Lvl) V c).after 2 t = outL3 (iblkL3 V c 0 t) (iblkL3 V c 1 t) := by dsimp only [datL3]

/-- Each input's current staging buffer holds its block at every point, fetched there or not. -/
theorem beforeL3_0 (c : Dev nD) (t : Fin cfg3.N) (d) : (datL3 (Ix := Ix) (U := U) (Lvl := Lvl) V c).before 0 t d = iblkL3 V c 0 t :=
  beforeL3_0_of V (datL3 (Ix := Ix) (U := U) (Lvl := Lvl) V c) (A_eqL3 V c 0) (afterL3_0 V c) t d
theorem beforeL3_1 (c : Dev nD) (t : Fin cfg3.N) (d) : (datL3 (Ix := Ix) (U := U) (Lvl := Lvl) V c).before 1 t d = iblkL3 V c 1 t :=
  beforeL3_1_of V (datL3 (Ix := Ix) (U := U) (Lvl := Lvl) V c) (A_eqL3 V c 1) (afterL3_1 V c) t d

/-! ## The body obligation, at a generic point -/

/-- What the body is called with at point `t`, the windows one by one, -/
def bodyPreL3 (ι : Ix) (c : Dev nD) (t : Fin cfg3.N) : sProp 𝕄 :=
  iprop((datL3 (Ix := Ix) (U := U) (Lvl := Lvl) V c).Φ t.castSucc ∗ (datL3 (Ix := Ix) (U := U) (Lvl := Lvl) V c).owesAt ι t.castSucc
    ∗ (∃ d, owns (c : Thread nD τ) (st3_0 t) fullShare ((datL3 (Ix := Ix) (U := U) (Lvl := Lvl) V c).before 0 t d))
    ∗ (∃ d, owns (c : Thread nD τ) (st3_1 t) fullShare ((datL3 (Ix := Ix) (U := U) (Lvl := Lvl) V c).before 1 t d))
    ∗ (∃ d, owns (c : Thread nD τ) (st3_2 t) fullShare ((datL3 (Ix := Ix) (U := U) (Lvl := Lvl) V c).before 2 t d)))

/-- and what it returns. -/
def bodyPostL3 (ι : Ix) (c : Dev nD) (t : Fin cfg3.N) : sProp 𝕄 :=
  iprop((datL3 (Ix := Ix) (U := U) (Lvl := Lvl) V c).Φ t.succ ∗ (datL3 (Ix := Ix) (U := U) (Lvl := Lvl) V c).owesAt ι t.succ
    ∗ owns (c : Thread nD τ) (st3_0 t) fullShare ((datL3 (Ix := Ix) (U := U) (Lvl := Lvl) V c).after 0 t)
    ∗ owns (c : Thread nD τ) (st3_1 t) fullShare ((datL3 (Ix := Ix) (U := U) (Lvl := Lvl) V c).after 1 t)
    ∗ owns (c : Thread nD τ) (st3_2 t) fullShare ((datL3 (Ix := Ix) (U := U) (Lvl := Lvl) V c).after 2 t))

/-- The body at any point: the inputs' memrefs hold their blocks, so the triple applies; the invariant and the core's
    `owes` pass through unread. -/
theorem sound_bodyL3 (𝒱₀ : Variants) (ι : Ix) (c : Dev nD) (t : Fin cfg3.N) :
    bodyPreL3 (Ix := Ix) (U := U) (Lvl := Lvl) V ι c t
      ⊢ wp frame (wpE (defs₀ (F := F)) 𝒱₀ c none) Set.univ (bodyAt3 t)
          (fun _ => bodyPostL3 (Ix := Ix) (U := U) (Lvl := Lvl) V ι c t) := by
  unfold bodyPreL3 bodyPostL3 bodyAt3
  simp only [beforeL3_0, beforeL3_1]
  rw [show (datL3 (Ix := Ix) (U := U) (Lvl := Lvl) V c).Φ t.succ = (datL3 (Ix := Ix) (U := U) (Lvl := Lvl) V c).Φ t.castSucc from rfl,
    show (datL3 (Ix := Ix) (U := U) (Lvl := Lvl) V c).owesAt ι t.succ = (datL3 (Ix := Ix) (U := U) (Lvl := Lvl) V c).owesAt ι t.castSucc from rfl,
    afterL3_0, afterL3_1, afterL3_2]
  iintro ⟨HΦ, Ho, ⟨%d0, H0⟩, ⟨%d1, H1⟩, ⟨%d2, H2⟩⟩
  iapply (sound_kernelL3 𝒱₀ c Set.univ (grid3.coords t) _ _ _ _ _ _ (iblkL3 V c 0 t) (iblkL3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligationL3_exact (𝒱₀ : Variants) (ι : Ix) (c : Dev nD) :
    BodyObligation (datL3 (Ix := Ix) (U := U) (Lvl := Lvl) V c) (defs₀ (F := F)) 𝒱₀ ι Set.univ := fun t => by
  rw [bigSep_W3, bigSep_W3]
  exact sound_bodyL3 V 𝒱₀ ι c t

/-- and as the loop uses it. -/
theorem body_obligationL3 (𝒱₀ : Variants) (ι : Ix) (c : Dev nD) :
    BodyObligationLoose (datL3 (Ix := Ix) (U := U) (Lvl := Lvl) V c) (defs₀ (F := F)) 𝒱₀ ι Set.univ :=
  (body_obligationL3_exact V 𝒱₀ ι c).loose

end Cert.Kernel.Hand

end
-- ==== Proof.LinReg3K.lean ====
/- The linear kernel of pipeline 3 as a segment of the program: the buffer contents it leaves and its segment record,
   over the proof data family with the other eight slots arbitrary. -/
import proofs.«104867_j4217657884863_1_alg».proof.Proof.Lin3K
import proofs.«104867_j4217657884863_1_alg».proof.Proof.DatsK
import proofs.«104867_j4217657884863_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 3 as a segment of the program -/

/-! ## The buffer contents the region leaves -/

/-- The exit contents: the output array at what the write-backs have left after the last point, every other buffer
    as the region found it. -/
def VoutL3 (c : Dev nD) : Valuation τ sig (Elt F) :=
  Function.update (V c) (main_v52 : DevRef τ sig) ((datL3 (Ix := Ix) (U := U) (Lvl := Lvl) V c).arrAt 2 cfg3.N)

theorem ne_outL3_0 : ((main_v51 : Ref sig .tc) : DevRef τ sig) ≠ (main_v52 : Ref sig .tc) :=
  fun e => absurd (Proc.devRef_injective _ e) (by decide)
theorem ne_outL3_1 : ((main_arg5 : Ref sig .tc) : DevRef τ sig) ≠ (main_v52 : Ref sig .tc) :=
  fun e => absurd (Proc.devRef_injective _ e) (by decide)

-- the array references of the printed windows are compared up to unfolding the printed window table
set_option backward.isDefEq.respectTransparency.types false in
/-- At the exit each of the pipeline's arrays holds what the pipeline leaves: the inputs what they held, the output
    its write-backs; -/
theorem hFL3 (c : Dev nD) (w : Fin cfg3.W) :
    (datL3 (Ix := Ix) (U := U) (Lvl := Lvl) V c).arrAt w cfg3.N = VoutL3 (Ix := Ix) (U := U) (Lvl := Lvl) V c (Pipeline.arrRef spec3 w) := by
  match w with
  | ⟨0, _⟩ =>
    exact ((datL3 (Ix := Ix) (U := U) (Lvl := Lvl) V c).arrAt_in _ rfl _).trans
      (Function.update_of_ne (β := fun b : DevRef τ sig => b.ty.Contents (Elt F)) ne_outL3_0 _ (V c)).symm
  | ⟨1, _⟩ =>
    exact ((datL3 (Ix := Ix) (U := U) (Lvl := Lvl) V c).arrAt_in _ rfl _).trans
      (Function.update_of_ne (β := fun b : DevRef τ sig => b.ty.Contents (Elt F)) ne_outL3_1 _ (V c)).symm
  | ⟨2, _⟩ =>
    show (datL3 (Ix := Ix) (U := U) (Lvl := Lvl) V c).arrAt 2 cfg3.N
      = Function.update (V c) (main_v52 : DevRef τ sig) ((datL3 (Ix := Ix) (U := U) (Lvl := Lvl) V c).arrAt 2 cfg3.N) (main_v52 : DevRef τ sig)
    exact (Function.update_self (β := fun b : DevRef τ sig => b.ty.Contents (Elt F)) (main_v52 : DevRef τ sig) _ (V c)).symm

/-- and every other buffer what it held at entry. -/
theorem hrestL3 (c : Dev nD) (b : Ref sig .tc) (hb : b ∉ Finset.univ.image (Pipeline.arrRef spec3)) :
    VoutL3 (Ix := Ix) (U := U) (Lvl := Lvl) V c b = V c b := by
  unfold VoutL3
  refine Function.update_of_ne (fun e => hb ?_) _ _
  rw [Proc.devRef_injective _ e]
  exact Finset.mem_image.mpr ⟨2, Finset.mem_univ _, rfl⟩

/-! ## The segment record -/

section Region

variable (d0 : (c : Dev nD) → Dat τ (Elt F) Ix ℕ U Lvl (cfgs 0) c)
  (d1 : (c : Dev nD) → Dat τ (Elt F) Ix ℕ U Lvl (cfgs 1) c)
  (d2 : (c : Dev nD) → Dat τ (Elt F) Ix ℕ U Lvl (cfgs 2) c)
  (d4 : (c : Dev nD) → Dat τ (Elt F) Ix ℕ U Lvl (cfgs 4) c)
  (d5 : (c : Dev nD) → Dat τ (Elt F) Ix ℕ U Lvl (cfgs 5) c)
  (d6 : (c : Dev nD) → Dat τ (Elt F) Ix ℕ U Lvl (cfgs 6) c)
  (d7 : (c : Dev nD) → Dat τ (Elt F) Ix ℕ U Lvl (cfgs 7) c)
  (d8 : (c : Dev nD) → Dat τ (Elt F) Ix ℕ U Lvl (cfgs 8) c)

-- a library lemma stated over the pinned configuration unifies with the printed one only when unification may
-- unfold plain definitions in a metavariable's type
set_option backward.isDefEq.respectTransparency.types false in
/-- Pipeline 3 as a segment: entered from every unscoped buffer at `V` beside a rest `E`, left at `VoutL3 V` beside
    `E'`. The rest must hold the generator register at some state and the core owing nothing, beside anything `Er`
    that bypasses the region (`hE`), and the same three make the rest after it (`hE'`). The arrays are split out of the
    unscoped buffers and put back at the exit contents; the generator register goes into the invariant and comes
    back; the kernel has no semaphore of its own. -/
def regionL3 (ι : Ix) (𝒱₀ : Variants) (L : GSem nD τ sig → Finset Ix) (lv : GSem nD τ sig → Ix → Lvl)
    (E E' Er : Dev nD → sProp 𝕄)
    (hE : ∀ c, E c ⊢ iprop((∃ r, prngReg c r) ∗ (∃ W, owes (c : Thread nD τ) (0 : CellTallies nD τ sig Ix) W) ∗ Er c))
    (hE' : ∀ c, iprop((∃ r, prngReg c r) ∗ (∃ W, owes (c : Thread nD τ) (0 : CellTallies nD τ sig Ix) W) ∗ Er c) ⊢ E' c) :
    Pipeline.RegionSeg (pcfgs (F := F)) adm (pdats d0 d1 d2 (datL3 V) d4 d5 d6 d7 d8) ι defs₀ 𝒱₀ L lv 3 where
  win := launch3.win.to₀
  block_pos := launch3.block_pos
  stage_whole := launch3.stage_whole
  K := PEmpty
  osem k := k.elim
  ho := Pipeline.OwnSemFacts.none _
  hbody c := body_obligationL3 V 𝒱₀ ι c
  hwaits := Pipeline.hwaits_of_owed_zero _ _ _ _ L lv 3 fun _ _ => rfl
  pre c := iprop(StableHlo.held (c : Thread nD τ) (Pipeline.ucRefs τ sig) (V c) ∗ E c)
  post c := iprop(StableHlo.held (c : Thread nD τ) (Pipeline.ucRefs τ sig) (VoutL3 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec3 c (fun b => V c b) ∗ Er c)
  hentry c := by
    rw [Pipeline.ownSems0_none]
    have hsplit := Pipeline.arrays_of_unscopedBufs (p := 3) (pcfgs (F := F)) adm (pdats d0 d1 d2 (datL3 V) d4 d5 d6 d7 d8) launch3.win launch3.arr_whole c
      ((pdats d0 d1 d2 (datL3 V) d4 d5 d6 d7 d8 3 c).share_full fun _ => rfl) (fun b => V c b) fun _ => rfl
    rw [Pipeline.unscopedBufs_held] at hsplit
    iintro ⟨⟨Hub, HE⟩, -, -⟩
    ihave HE2 := hE c $$ HE
    icases HE2 with ⟨Hp, HO, Hr⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hr
  hin c := by
    rw [show (pdats d0 d1 d2 (datL3 V) d4 d5 d6 d7 d8 3 c).Φ 0 = ΦL3 c from rfl]; unfold ΦL3
    iintro ⟨Hp, -, Hr⟩
    isplitl [Hr]; · iexact Hr
    iexact Hp
  hout c := by
    rw [Pipeline.ownSems0_none, show (pdats d0 d1 d2 (datL3 V) d4 d5 d6 d7 d8 3 c).Φ (Fin.last _) = ΦL3 c from rfl]; unfold ΦL3
    iintro ⟨Hr, Hp⟩
    isplitl [Hp]; · iexact Hp
    isplitr; · iempintro
    iexact Hr
  hexit c := by
    have hjoin := Pipeline.unscopedBufs_of_arrays (p := 3) (pcfgs (F := F)) adm (Ix := Ix) (Name := ℕ) (U := U) (Lvl := Lvl)
      launch3.win launch3.arr_whole c (pdats d0 d1 d2 (datL3 V) d4 d5 d6 d7 d8) ((pdats d0 d1 d2 (datL3 V) d4 d5 d6 d7 d8 3 c).share_full fun _ => rfl)
      (fun b => V c b) (fun b => VoutL3 (Ix := Ix) (U := U) (Lvl := Lvl) V c b) ((pdats d0 d1 d2 (datL3 V) d4 d5 d6 d7 d8 3 c).arrAt · cfg3.N)
      (hFL3 V c) (hrestL3 V c)
    rw [Pipeline.unscopedBufs_held] at hjoin
    iintro ⟨Ha, HO, HY, Hrest, Hr⟩
    imodintro
    isplitl [Ha Hrest]
    · iapply hjoin; isplitl [Ha] <;> iassumption
    iapply hE' c
    isplitl [HY]; · iexact HY
    isplitl [HO]
    · unfold Pipeline.Dat.owesAt Pipeline.owesWithin
      icases HO with ⟨%W, -, HO⟩; iexists W; iexact HO
    iexact Hr

end Region

end Cert.Kernel.Hand

end
-- ==== Proof.Lin6K.lean ====
/- The linear kernel of pipeline 6 (h = x @ W over 25 row blocks of 2048): the windows' blocks, the body's triple, the
   pipeline's proof data at any entry contents, and its body obligation. -/
import proofs.«104867_j4217657884863_1_alg».proof.Proof.Gen.Kernel.Launch
import proofs.«104867_j4217657884863_1_alg».proof.Proof.Gen.Kernel.Skeleton
import proofs.«104867_j4217657884863_1_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 6: h = x @ W, one row block of 2048 per grid point -/

/-! ## The windows' blocks -/

/-- Window `w`'s block at point `t`, read off its array as the region finds it. -/
def iblkL6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row-block input's current staging buffer holds its block at every point, for any proof data whose array is
    the entry contents and whose body leaves the block in place. -/
theorem beforeL6_0_of {c : Dev nD} (dat : Dat τ (Elt F) Ix ℕ U Lvl cfg6 c) (hA : dat.A 0 = V c (Pipeline.arrRef spec6 0))
    (hafter : ∀ t, dat.after 0 t = iblkL6 V c 0 t) (t : Fin cfg6.N) (d) : dat.before 0 t d = iblkL6 V c 0 t :=
  (dat.before_in_eq_fetched 0 rfl (fun _ => rfl) (fun _ _ _ => rfl) (fun t => by rw [hafter]; unfold Dat.blockOf iblkL6; rw [hA]; try rfl) t d).trans
    (by unfold Dat.fetched Dat.blockOf iblkL6; rw [hA]; try rfl)

/-- The weight input's staging buffer holds the weight at every point, fetched there (the first point) or not (its
    block index never moves). -/
theorem beforeL6_1_of {c : Dev nD} (dat : Dat τ (Elt F) Ix ℕ U Lvl cfg6 c) (hA : dat.A 1 = V c (Pipeline.arrRef spec6 1))
    (hafter : ∀ t, dat.after 1 t = iblkL6 V c 1 t) (t : Fin cfg6.N) (d) : dat.before 1 t d = iblkL6 V c 1 t :=
  (dat.before_in_eq_fetched 1 rfl (fun _ => rfl) (fun _ _ _ => rfl) (fun t => by rw [hafter]; unfold Dat.blockOf iblkL6; rw [hA]; try rfl) t d).trans
    (by unfold Dat.fetched Dat.blockOf iblkL6; rw [hA]; try rfl)

/-! ## The body's accesses -/

/-- The whole row block, and the whole weight. -/
abbrev rL6_x : Rect S2048x64 := Rect.unit (s := S2048x64) ![0, 0] S2048x64.size inb_S2048x64_S2048x64_0_0
abbrev rL6_w : Rect S64x64 := Rect.unit (s := S64x64) ![0, 0] S64x64.size inb_S64x64_S64x64_0_0

/-! ## What the body leaves in the output window's buffer -/

/-- The output's staging buffer after the body, from the two input blocks: its one store, of the whole block — the
    product of the row block and the weight, both rounded to bf16, accumulated from zero. -/
def outL6 (x0 : Vec F S2048x64 .f32) (x1 : Vec F S64x64 .f32) : Vec F S2048x64 .f32 :=
  View.canon [⟨rL6_x, k6_pay1 (View.ld x0 rL6_x) (View.ld x1 rL6_w)⟩]

/-- The one store covers the buffer. -/
theorem coverL6 (p0 : Vec F S2048x64 .f32) (y : S2048x64.Idx) :
    ∃ pc ∈ ([⟨rL6_x, p0⟩] : List (View.Piece (Elt F) S2048x64 .f32)), y ∈ pc.1.set :=
  View.cover_of_tiled [⟨rL6_x, p0⟩] S2048x64.size (by rfl) y

/-! ## The body's triple -/

set_option maxHeartbeats 1000000 in
/-- The kernel body on whole staging memrefs, the inputs' at contents `x0`, `x1` and the output's at anything, runs to
    the continuation holding the inputs' as they were and the output's at `outL6 x0 x1`. -/
theorem sound_kernelL6 (𝒱₀ : Variants) (c : Dev nD) (E : Set ℕ) (i : grid6.Coords)
    (arg1 : Memref sig .tc .vmem S2048x64 .f32) (harg1 : arg1.IsWhole)
    (arg2 : Memref sig .tc .vmem S64x64 .f32) (harg2 : arg2.IsWhole)
    (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outL6 x0 x1)) -∗ K ⟨⟩))
      ⊢ wp frame (wpE (defs₀ (F := F)) 𝒱₀ c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverL6 _)

/-! ## The pipeline's proof data -/

/-- The region's invariant: the core's scoped buffers no window stages, at some contents each, and its generator
    register at some state — the body uses neither. -/
def ΦL6 (c : Dev nD) : sProp 𝕄 :=
  iprop(Pipeline.scopedRest (Ix := Ix) (Name := ℕ) (U := U) (Lvl := Lvl) (Val := Elt F) spec6 c ∗ ∃ r, prngReg c r)

/-- The proof data of pipeline 6 on core `c`: the arrays as the region finds them (`V`); after the body at point `t`
    each input's buffer at its block and the output's at the product of the two; the invariant above; nothing owed;
    full shares. -/
def datL6 (c : Dev nD) : Dat τ (Elt F) Ix ℕ U Lvl cfg6 c where
  A w := V c (Pipeline.arrRef spec6 w)
  after w t := match w with
    | ⟨0, _⟩ => iblkL6 V c 0 t
    | ⟨1, _⟩ => iblkL6 V c 1 t
    | ⟨2, _⟩ => outL6 (iblkL6 V c 0 t) (iblkL6 V c 1 t)
  Φ _ := ΦL6 c
  q _ := fullShare
  owed _ := 0

/-- The proof data's arrays are the region-entry contents. -/
theorem A_eqL6 (c : Dev nD) (w : Fin cfg6.W) : (datL6 (Ix := Ix) (U := U) (Lvl := Lvl) V c).A w = V c (Pipeline.arrRef spec6 w) := by
  dsimp only [datL6]

/-- What the body leaves, window by window. -/
theorem afterL6_0 (c : Dev nD) (t : Fin cfg6.N) : (datL6 (Ix := Ix) (U := U) (Lvl := Lvl) V c).after 0 t = iblkL6 V c 0 t := by dsimp only [datL6]
theorem afterL6_1 (c : Dev nD) (t : Fin cfg6.N) : (datL6 (Ix := Ix) (U := U) (Lvl := Lvl) V c).after 1 t = iblkL6 V c 1 t := by dsimp only [datL6]
theorem afterL6_2 (c : Dev nD) (t : Fin cfg6.N) :
    (datL6 (Ix := Ix) (U := U) (Lvl := Lvl) V c).after 2 t = outL6 (iblkL6 V c 0 t) (iblkL6 V c 1 t) := by dsimp only [datL6]

/-- Each input's current staging buffer holds its block at every point, fetched there or not. -/
theorem beforeL6_0 (c : Dev nD) (t : Fin cfg6.N) (d) : (datL6 (Ix := Ix) (U := U) (Lvl := Lvl) V c).before 0 t d = iblkL6 V c 0 t :=
  beforeL6_0_of V (datL6 (Ix := Ix) (U := U) (Lvl := Lvl) V c) (A_eqL6 V c 0) (afterL6_0 V c) t d
theorem beforeL6_1 (c : Dev nD) (t : Fin cfg6.N) (d) : (datL6 (Ix := Ix) (U := U) (Lvl := Lvl) V c).before 1 t d = iblkL6 V c 1 t :=
  beforeL6_1_of V (datL6 (Ix := Ix) (U := U) (Lvl := Lvl) V c) (A_eqL6 V c 1) (afterL6_1 V c) t d

/-! ## The body obligation, at a generic point -/

/-- What the body is called with at point `t`, the windows one by one, -/
def bodyPreL6 (ι : Ix) (c : Dev nD) (t : Fin cfg6.N) : sProp 𝕄 :=
  iprop((datL6 (Ix := Ix) (U := U) (Lvl := Lvl) V c).Φ t.castSucc ∗ (datL6 (Ix := Ix) (U := U) (Lvl := Lvl) V c).owesAt ι t.castSucc
    ∗ (∃ d, owns (c : Thread nD τ) (st6_0 t) fullShare ((datL6 (Ix := Ix) (U := U) (Lvl := Lvl) V c).before 0 t d))
    ∗ (∃ d, owns (c : Thread nD τ) (st6_1 t) fullShare ((datL6 (Ix := Ix) (U := U) (Lvl := Lvl) V c).before 1 t d))
    ∗ (∃ d, owns (c : Thread nD τ) (st6_2 t) fullShare ((datL6 (Ix := Ix) (U := U) (Lvl := Lvl) V c).before 2 t d)))

/-- and what it returns. -/
def bodyPostL6 (ι : Ix) (c : Dev nD) (t : Fin cfg6.N) : sProp 𝕄 :=
  iprop((datL6 (Ix := Ix) (U := U) (Lvl := Lvl) V c).Φ t.succ ∗ (datL6 (Ix := Ix) (U := U) (Lvl := Lvl) V c).owesAt ι t.succ
    ∗ owns (c : Thread nD τ) (st6_0 t) fullShare ((datL6 (Ix := Ix) (U := U) (Lvl := Lvl) V c).after 0 t)
    ∗ owns (c : Thread nD τ) (st6_1 t) fullShare ((datL6 (Ix := Ix) (U := U) (Lvl := Lvl) V c).after 1 t)
    ∗ owns (c : Thread nD τ) (st6_2 t) fullShare ((datL6 (Ix := Ix) (U := U) (Lvl := Lvl) V c).after 2 t))

/-- The body at any point: the inputs' memrefs hold their blocks, so the triple applies; the invariant and the core's
    `owes` pass through unread. -/
theorem sound_bodyL6 (𝒱₀ : Variants) (ι : Ix) (c : Dev nD) (t : Fin cfg6.N) :
    bodyPreL6 (Ix := Ix) (U := U) (Lvl := Lvl) V ι c t
      ⊢ wp frame (wpE (defs₀ (F := F)) 𝒱₀ c none) Set.univ (bodyAt6 t)
          (fun _ => bodyPostL6 (Ix := Ix) (U := U) (Lvl := Lvl) V ι c t) := by
  unfold bodyPreL6 bodyPostL6 bodyAt6
  simp only [beforeL6_0, beforeL6_1]
  rw [show (datL6 (Ix := Ix) (U := U) (Lvl := Lvl) V c).Φ t.succ = (datL6 (Ix := Ix) (U := U) (Lvl := Lvl) V c).Φ t.castSucc from rfl,
    show (datL6 (Ix := Ix) (U := U) (Lvl := Lvl) V c).owesAt ι t.succ = (datL6 (Ix := Ix) (U := U) (Lvl := Lvl) V c).owesAt ι t.castSucc from rfl,
    afterL6_0, afterL6_1, afterL6_2]
  iintro ⟨HΦ, Ho, ⟨%d0, H0⟩, ⟨%d1, H1⟩, ⟨%d2, H2⟩⟩
  iapply (sound_kernelL6 𝒱₀ c Set.univ (grid6.coords t) _ _ _ _ _ _ (iblkL6 V c 0 t) (iblkL6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligationL6_exact (𝒱₀ : Variants) (ι : Ix) (c : Dev nD) :
    BodyObligation (datL6 (Ix := Ix) (U := U) (Lvl := Lvl) V c) (defs₀ (F := F)) 𝒱₀ ι Set.univ := fun t => by
  rw [bigSep_W6, bigSep_W6]
  exact sound_bodyL6 V 𝒱₀ ι c t

/-- and as the loop uses it. -/
theorem body_obligationL6 (𝒱₀ : Variants) (ι : Ix) (c : Dev nD) :
    BodyObligationLoose (datL6 (Ix := Ix) (U := U) (Lvl := Lvl) V c) (defs₀ (F := F)) 𝒱₀ ι Set.univ :=
  (body_obligationL6_exact V 𝒱₀ ι c).loose

end Cert.Kernel.Hand

end
-- ==== Proof.LinReg6K.lean ====
/- The linear kernel of pipeline 6 as a segment of the program: the buffer contents it leaves and its segment record,
   over the proof data family with the other eight slots arbitrary. -/
import proofs.«104867_j4217657884863_1_alg».proof.Proof.Lin6K
import proofs.«104867_j4217657884863_1_alg».proof.Proof.DatsK
import proofs.«104867_j4217657884863_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

-- the TensorCore's buffer contents when the region is entered
variable (V : Dev nD → Valuation τ sig (Elt F))

/-! # Pipeline 6 as a segment of the program -/

/-! ## The buffer contents the region leaves -/

/-- The exit contents: the output array at what the write-backs have left after the last point, every other buffer
    as the region found it. -/
def VoutL6 (c : Dev nD) : Valuation τ sig (Elt F) :=
  Function.update (V c) (main_v63 : DevRef τ sig) ((datL6 (Ix := Ix) (U := U) (Lvl := Lvl) V c).arrAt 2 cfg6.N)

theorem ne_outL6_0 : ((main_v62 : Ref sig .tc) : DevRef τ sig) ≠ (main_v63 : Ref sig .tc) :=
  fun e => absurd (Proc.devRef_injective _ e) (by decide)
theorem ne_outL6_1 : ((main_arg7 : Ref sig .tc) : DevRef τ sig) ≠ (main_v63 : Ref sig .tc) :=
  fun e => absurd (Proc.devRef_injective _ e) (by decide)

-- the array references of the printed windows are compared up to unfolding the printed window table
set_option backward.isDefEq.respectTransparency.types false in
/-- At the exit each of the pipeline's arrays holds what the pipeline leaves: the inputs what they held, the output
    its write-backs; -/
theorem hFL6 (c : Dev nD) (w : Fin cfg6.W) :
    (datL6 (Ix := Ix) (U := U) (Lvl := Lvl) V c).arrAt w cfg6.N = VoutL6 (Ix := Ix) (U := U) (Lvl := Lvl) V c (Pipeline.arrRef spec6 w) := by
  match w with
  | ⟨0, _⟩ =>
    exact ((datL6 (Ix := Ix) (U := U) (Lvl := Lvl) V c).arrAt_in _ rfl _).trans
      (Function.update_of_ne (β := fun b : DevRef τ sig => b.ty.Contents (Elt F)) ne_outL6_0 _ (V c)).symm
  | ⟨1, _⟩ =>
    exact ((datL6 (Ix := Ix) (U := U) (Lvl := Lvl) V c).arrAt_in _ rfl _).trans
      (Function.update_of_ne (β := fun b : DevRef τ sig => b.ty.Contents (Elt F)) ne_outL6_1 _ (V c)).symm
  | ⟨2, _⟩ =>
    show (datL6 (Ix := Ix) (U := U) (Lvl := Lvl) V c).arrAt 2 cfg6.N
      = Function.update (V c) (main_v63 : DevRef τ sig) ((datL6 (Ix := Ix) (U := U) (Lvl := Lvl) V c).arrAt 2 cfg6.N) (main_v63 : DevRef τ sig)
    exact (Function.update_self (β := fun b : DevRef τ sig => b.ty.Contents (Elt F)) (main_v63 : DevRef τ sig) _ (V c)).symm

/-- and every other buffer what it held at entry. -/
theorem hrestL6 (c : Dev nD) (b : Ref sig .tc) (hb : b ∉ Finset.univ.image (Pipeline.arrRef spec6)) :
    VoutL6 (Ix := Ix) (U := U) (Lvl := Lvl) V c b = V c b := by
  unfold VoutL6
  refine Function.update_of_ne (fun e => hb ?_) _ _
  rw [Proc.devRef_injective _ e]
  exact Finset.mem_image.mpr ⟨2, Finset.mem_univ _, rfl⟩

/-! ## The segment record -/

section Region

variable (d0 : (c : Dev nD) → Dat τ (Elt F) Ix ℕ U Lvl (cfgs 0) c)
  (d1 : (c : Dev nD) → Dat τ (Elt F) Ix ℕ U Lvl (cfgs 1) c)
  (d2 : (c : Dev nD) → Dat τ (Elt F) Ix ℕ U Lvl (cfgs 2) c)
  (d3 : (c : Dev nD) → Dat τ (Elt F) Ix ℕ U Lvl (cfgs 3) c)
  (d4 : (c : Dev nD) → Dat τ (Elt F) Ix ℕ U Lvl (cfgs 4) c)
  (d5 : (c : Dev nD) → Dat τ (Elt F) Ix ℕ U Lvl (cfgs 5) c)
  (d7 : (c : Dev nD) → Dat τ (Elt F) Ix ℕ U Lvl (cfgs 7) c)
  (d8 : (c : Dev nD) → Dat τ (Elt F) Ix ℕ U Lvl (cfgs 8) c)

-- a library lemma stated over the pinned configuration unifies with the printed one only when unification may
-- unfold plain definitions in a metavariable's type
set_option backward.isDefEq.respectTransparency.types false in
/-- Pipeline 6 as a segment: entered from every unscoped buffer at `V` beside a rest `E`, left at `VoutL6 V` beside
    `E'`. The rest must hold the generator register at some state and the core owing nothing, beside anything `Er`
    that bypasses the region (`hE`), and the same three make the rest after it (`hE'`). The arrays are split out of the
    unscoped buffers and put back at the exit contents; the generator register goes into the invariant and comes
    back; the kernel has no semaphore of its own. -/
def regionL6 (ι : Ix) (𝒱₀ : Variants) (L : GSem nD τ sig → Finset Ix) (lv : GSem nD τ sig → Ix → Lvl)
    (E E' Er : Dev nD → sProp 𝕄)
    (hE : ∀ c, E c ⊢ iprop((∃ r, prngReg c r) ∗ (∃ W, owes (c : Thread nD τ) (0 : CellTallies nD τ sig Ix) W) ∗ Er c))
    (hE' : ∀ c, iprop((∃ r, prngReg c r) ∗ (∃ W, owes (c : Thread nD τ) (0 : CellTallies nD τ sig Ix) W) ∗ Er c) ⊢ E' c) :
    Pipeline.RegionSeg (pcfgs (F := F)) adm (pdats d0 d1 d2 d3 d4 d5 (datL6 V) d7 d8) ι defs₀ 𝒱₀ L lv 6 where
  win := launch6.win.to₀
  block_pos := launch6.block_pos
  stage_whole := launch6.stage_whole
  K := PEmpty
  osem k := k.elim
  ho := Pipeline.OwnSemFacts.none _
  hbody c := body_obligationL6 V 𝒱₀ ι c
  hwaits := Pipeline.hwaits_of_owed_zero _ _ _ _ L lv 6 fun _ _ => rfl
  pre c := iprop(StableHlo.held (c : Thread nD τ) (Pipeline.ucRefs τ sig) (V c) ∗ E c)
  post c := iprop(StableHlo.held (c : Thread nD τ) (Pipeline.ucRefs τ sig) (VoutL6 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec6 c (fun b => V c b) ∗ Er c)
  hentry c := by
    rw [Pipeline.ownSems0_none]
    have hsplit := Pipeline.arrays_of_unscopedBufs (p := 6) (pcfgs (F := F)) adm (pdats d0 d1 d2 d3 d4 d5 (datL6 V) d7 d8) launch6.win launch6.arr_whole c
      ((pdats d0 d1 d2 d3 d4 d5 (datL6 V) d7 d8 6 c).share_full fun _ => rfl) (fun b => V c b) fun _ => rfl
    rw [Pipeline.unscopedBufs_held] at hsplit
    iintro ⟨⟨Hub, HE⟩, -, -⟩
    ihave HE2 := hE c $$ HE
    icases HE2 with ⟨Hp, HO, Hr⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hr
  hin c := by
    rw [show (pdats d0 d1 d2 d3 d4 d5 (datL6 V) d7 d8 6 c).Φ 0 = ΦL6 c from rfl]; unfold ΦL6
    iintro ⟨Hp, -, Hr⟩
    isplitl [Hr]; · iexact Hr
    iexact Hp
  hout c := by
    rw [Pipeline.ownSems0_none, show (pdats d0 d1 d2 d3 d4 d5 (datL6 V) d7 d8 6 c).Φ (Fin.last _) = ΦL6 c from rfl]; unfold ΦL6
    iintro ⟨Hr, Hp⟩
    isplitl [Hp]; · iexact Hp
    isplitr; · iempintro
    iexact Hr
  hexit c := by
    have hjoin := Pipeline.unscopedBufs_of_arrays (p := 6) (pcfgs (F := F)) adm (Ix := Ix) (Name := ℕ) (U := U) (Lvl := Lvl)
      launch6.win launch6.arr_whole c (pdats d0 d1 d2 d3 d4 d5 (datL6 V) d7 d8) ((pdats d0 d1 d2 d3 d4 d5 (datL6 V) d7 d8 6 c).share_full fun _ => rfl)
      (fun b => V c b) (fun b => VoutL6 (Ix := Ix) (U := U) (Lvl := Lvl) V c b) ((pdats d0 d1 d2 d3 d4 d5 (datL6 V) d7 d8 6 c).arrAt · cfg6.N)
      (hFL6 V c) (hrestL6 V c)
    rw [Pipeline.unscopedBufs_held] at hjoin
    iintro ⟨Ha, HO, HY, Hrest, Hr⟩
    imodintro
    isplitl [Ha Hrest]
    · iapply hjoin; isplitl [Ha] <;> iassumption
    iapply hE' c
    isplitl [HY]; · iexact HY
    isplitl [HO]
    · unfold Pipeline.Dat.owesAt Pipeline.owesWithin
      icases HO with ⟨%W, -, HO⟩; iexists W; iexact HO
    iexact Hr

end Region

end Cert.Kernel.Hand

end
-- ==== Proof.RunCondK.lean ====
/-
  The kernel program's run with its RESULT in the post.

  @main is eleven host stretches, then per layer three kernel regions and two host stretches, then the pooling
  stretches. Between two items a core holds every unscoped buffer whole at a valuation: the launch contents, then
  each host stretch applied, then at each region its one output array replaced by whatever that region leaves. The
  theorem here runs the whole list from one segment record per region and reads, off the last valuation, both the
  result buffer and the eleven arguments. What the regions leave is a parameter; the value of the result as a
  function of the arguments is obtained afterwards by substituting the regions' output arrays.
-/
import proofs.«104867_j4217657884863_1_alg».proof.Proof.Gen.Kernel.Regions

set_option maxRecDepth 1352

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

set_option backward.isDefEq.respectTransparency.types false in
/-- The run of @main with its result named. For any rest states the launch makes on every core and that end owing
    nothing, any contents the nine regions leave in their output arrays (`outs`) and any proof data: given each region's
    segment record entered from the thread state before it and left at the one after it, every weakly fair execution of
    @main terminates, its result buffer holds what the last host stretch computes from those contents (the last valuation
    read at the result), and every argument is as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V11 m c) ∗ E 0 c) ⊢ R0.pre c)
    (hpost0 : ∀ c : Dev nD, R0.post c ⊢ iprop(StableHlo.held (c : Thread nD τ) (Pipeline.ucRefs τ sig) (V12 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V12 m outs c) ∗ E 1 c) ⊢ R1.pre c)
    (hpost1 : ∀ c : Dev nD, R1.post c ⊢ iprop(StableHlo.held (c : Thread nD τ) (Pipeline.ucRefs τ sig) (V13 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V16 m outs c) ∗ E 3 c) ⊢ R3.pre c)
    (hpost3 : ∀ c : Dev nD, R3.post c ⊢ iprop(StableHlo.held (c : Thread nD τ) (Pipeline.ucRefs τ sig) (V17 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V18 m outs c) ∗ E 5 c) ⊢ R5.pre c)
    (hpost5 : ∀ c : Dev nD, R5.post c ⊢ iprop(StableHlo.held (c : Thread nD τ) (Pipeline.ucRefs τ sig) (V19 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V21 m outs c) ∗ E 6 c) ⊢ R6.pre c)
    (hpost6 : ∀ c : Dev nD, R6.post c ⊢ iprop(StableHlo.held (c : Thread nD τ) (Pipeline.ucRefs τ sig) (V22 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V22 m outs c) ∗ E 7 c) ⊢ R7.pre c)
    (hpost7 : ∀ c : Dev nD, R7.post c ⊢ iprop(StableHlo.held (c : Thread nD τ) (Pipeline.ucRefs τ sig) (V23 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c)) :
    θ_run defs (onTc (τ := τ) (main (F := F))) ⟨m, fun _ => 0, ρ⟩ (fun r => ∀ c : Dev nD,
      r.2.mem ((c.tc : Thread nD τ).loc main_v99) = V29 m outs c main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          Prog.lift (.customCall (Pipeline.entry 2) ()),
          StableHlo.seq hostOps3,
          StableHlo.seq hostOps3_1,
          Prog.lift (.customCall (Pipeline.entry 3) ()),
          Prog.lift (.customCall (Pipeline.entry 4) ()),
          Prog.lift (.customCall (Pipeline.entry 5) ()),
          StableHlo.seq hostOps6,
          StableHlo.seq hostOps6_1,
          Prog.lift (.customCall (Pipeline.entry 6) ()),
          Prog.lift (.customCall (Pipeline.entry 7) ()),
          Prog.lift (.customCall (Pipeline.entry 8) ()),
          StableHlo.seq hostOps9,
          StableHlo.seq hostOps9_1,
          StableHlo.seq hostOps9_2,
          StableHlo.seq hostOps9_3,
          StableHlo.seq hostOps9_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, .rfl, .rfl, .rfl, .rfl, .rfl, .rfl, .rfl, .rfl, .rfl, .rfl, hpre0 c, (hpost0 c).trans (hpre1 c), (hpost1 c).trans (hpre2 c), hpost2 c, .rfl, hpre3 c, (hpost3 c).trans (hpre4 c), (hpost4 c).trans (hpre5 c), hpost5 c, .rfl, hpre6 c, (hpost6 c).trans (hpre7 c), (hpost7 c).trans (hpre8 c), hpost8 c, .rfl, .rfl, .rfl, .rfl, sep_mono .rfl (hE9 c)⟩)
    (hinit := ?_) (QY := fun c s => s.mem ((c.tc : Thread nD τ).loc main_v99) = V29 m outs c main_v99 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V29 m outs c) s') $$ [Hh HSI]
    · isplitl [Hh] <;> iassumption
    icases Hr with ⟨%h, HSI⟩
    imodintro
    isplitr
    · ipureintro
      exact ⟨h (Proc.devRef .tc main_v99) (Finset.mem_filter.mpr ⟨StableHlo.devRef_mem_tcRefs main_v99, by decide⟩),
        (h (Proc.devRef .tc main_arg0) (Finset.mem_filter.mpr ⟨StableHlo.devRef_mem_tcRefs main_arg0, by decide⟩)).trans (V29_main_arg0 m outs c),
        (h (Proc.devRef .tc main_arg1) (Finset.mem_filter.mpr ⟨StableHlo.devRef_mem_tcRefs main_arg1, by decide⟩)).trans (V29_main_arg1 m outs c),
        (h (Proc.devRef .tc main_arg2) (Finset.mem_filter.mpr ⟨StableHlo.devRef_mem_tcRefs main_arg2, by decide⟩)).trans (V29_main_arg2 m outs c),
        (h (Proc.devRef .tc main_arg3) (Finset.mem_filter.mpr ⟨StableHlo.devRef_mem_tcRefs main_arg3, by decide⟩)).trans (V29_main_arg3 m outs c),
        (h (Proc.devRef .tc main_arg4) (Finset.mem_filter.mpr ⟨StableHlo.devRef_mem_tcRefs main_arg4, by decide⟩)).trans (V29_main_arg4 m outs c),
        (h (Proc.devRef .tc main_arg5) (Finset.mem_filter.mpr ⟨StableHlo.devRef_mem_tcRefs main_arg5, by decide⟩)).trans (V29_main_arg5 m outs c),
        (h (Proc.devRef .tc main_arg6) (Finset.mem_filter.mpr ⟨StableHlo.devRef_mem_tcRefs main_arg6, by decide⟩)).trans (V29_main_arg6 m outs c),
        (h (Proc.devRef .tc main_arg7) (Finset.mem_filter.mpr ⟨StableHlo.devRef_mem_tcRefs main_arg7, by decide⟩)).trans (V29_main_arg7 m outs c),
        (h (Proc.devRef .tc main_arg8) (Finset.mem_filter.mpr ⟨StableHlo.devRef_mem_tcRefs main_arg8, by decide⟩)).trans (V29_main_arg8 m outs c),
        (h (Proc.devRef .tc main_arg9) (Finset.mem_filter.mpr ⟨StableHlo.devRef_mem_tcRefs main_arg9, by decide⟩)).trans (V29_main_arg9 m outs c),
        (h (Proc.devRef .tc main_arg10) (Finset.mem_filter.mpr ⟨StableHlo.devRef_mem_tcRefs main_arg10, by decide⟩)).trans (V29_main_arg10 m outs c)⟩
    · iexact HSI

end Cert.Kernel.Hand

end
-- ==== Proof.FrameAllK.lean ====
/- The launch of the whole program. The buffer contents between the items of @main as a fold from the launch memory:
   each host stretch applied, each kernel region's one output array replaced by what that region's write-backs leave;
   the contents the regions leave as one function of the item and the reference; the user algebra, the level
   assignment and the rest state that rides through every item; and the program's run from one segment record per
   kernel region — the three matrix-product regions' supplied here, the other six taken as hypotheses, each entered
   from the contents before it and left at the contents after it. -/
import proofs.«104867_j4217657884863_1_alg».proof.Proof.LinReg0K
import proofs.«104867_j4217657884863_1_alg».proof.Proof.LinReg3K
import proofs.«104867_j4217657884863_1_alg».proof.Proof.LinReg6K
import proofs.«104867_j4217657884863_1_alg».proof.Proof.RunCondK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)
variable (d1 : (c : Dev nD) → Dat τ (Elt F) Unit ℕ (UR sig nD τ) ℕ cfg1 c)
  (d2 : (c : Dev nD) → Dat τ (Elt F) Unit ℕ (UR sig nD τ) ℕ cfg2 c)
  (d4 : (c : Dev nD) → Dat τ (Elt F) Unit ℕ (UR sig nD τ) ℕ cfg4 c)
  (d5 : (c : Dev nD) → Dat τ (Elt F) Unit ℕ (UR sig nD τ) ℕ cfg5 c)
  (d7 : (c : Dev nD) → Dat τ (Elt F) Unit ℕ (UR sig nD τ) ℕ cfg7 c)
  (d8 : (c : Dev nD) → Dat τ (Elt F) Unit ℕ (UR sig nD τ) ℕ cfg8 c)

/-! ## The buffer contents between the items -/

/-- After the first matrix-product region: its output array at what its write-backs leave. -/
def W12 (c : Dev nD) : Valuation τ sig (Elt F) := VoutL0 (Ix := Unit) (U := UR sig nD τ) (Lvl := ℕ) (V11 m) c
/-- After the first gather region, -/
def W13 (c : Dev nD) : Valuation τ sig (Elt F) := Function.update (W12 m c) (main_v42 : DevRef τ sig) ((d1 c).arrAt 3 cfg1.N)
/-- the first scatter region, -/
def W14 (c : Dev nD) : Valuation τ sig (Elt F) := Function.update (W13 m d1 c) (main_v43 : DevRef τ sig) ((d2 c).arrAt 2 cfg2.N)
/-- and the two host stretches that close the first layer. -/
def W16 (c : Dev nD) : Valuation τ sig (Elt F) := StableHlo.after hostOps3_1 (StableHlo.after hostOps3 (W14 m d1 d2 c))
/-- The second layer, the same four steps. -/
def W17 (c : Dev nD) : Valuation τ sig (Elt F) := VoutL3 (Ix := Unit) (U := UR sig nD τ) (Lvl := ℕ) (W16 m d1 d2) c
def W18 (c : Dev nD) : Valuation τ sig (Elt F) := Function.update (W17 m d1 d2 c) (main_v53 : DevRef τ sig) ((d4 c).arrAt 3 cfg4.N)
def W19 (c : Dev nD) : Valuation τ sig (Elt F) := Function.update (W18 m d1 d2 d4 c) (main_v54 : DevRef τ sig) ((d5 c).arrAt 2 cfg5.N)
def W21 (c : Dev nD) : Valuation τ sig (Elt F) := StableHlo.after hostOps6_1 (StableHlo.after hostOps6 (W19 m d1 d2 d4 d5 c))
/-- The third layer, -/
def W22 (c : Dev nD) : Valuation τ sig (Elt F) := VoutL6 (Ix := Unit) (U := UR sig nD τ) (Lvl := ℕ) (W21 m d1 d2 d4 d5) c
def W23 (c : Dev nD) : Valuation τ sig (Elt F) := Function.update (W22 m d1 d2 d4 d5 c) (main_v64 : DevRef τ sig) ((d7 c).arrAt 3 cfg7.N)
def W24 (c : Dev nD) : Valuation τ sig (Elt F) := Function.update (W23 m d1 d2 d4 d5 d7 c) (main_v65 : DevRef τ sig) ((d8 c).arrAt 2 cfg8.N)
/-- and the five host stretches after it: the contents at the return. -/
def W29 (c : Dev nD) : Valuation τ sig (Elt F) :=
  StableHlo.after hostOps9_4 (StableHlo.after hostOps9_3 (StableHlo.after hostOps9_2 (StableHlo.after hostOps9_1
    (StableHlo.after hostOps9 (W24 m d1 d2 d4 d5 d7 d8 c)))))

/-- What the regions leave, as one function of the item and the reference: after a region, the contents above read
    at the reference; anywhere else (never read) the launch contents. -/
def outsAll : Outs (F := F) := fun J r c =>
  match J with
  | 12 => (W12 m c) r
  | 13 => (W13 m d1 c) r
  | 14 => (W14 m d1 d2 c) r
  | 17 => (W17 m d1 d2 c) r
  | 18 => (W18 m d1 d2 d4 c) r
  | 19 => (W19 m d1 d2 d4 d5 c) r
  | 22 => (W22 m d1 d2 d4 d5 c) r
  | 23 => (W23 m d1 d2 d4 d5 d7 c) r
  | 24 => (W24 m d1 d2 d4 d5 d7 d8 c) r
  | _ => m ((c : Thread nD τ).loc r)

/-- Replacing a buffer by what a replacement of it already holds there changes nothing more. -/
theorem update_update_self {β : DevRef τ sig → Type} (f : ∀ b, β b) (a : DevRef τ sig) (x : β a) :
    Function.update f a (Function.update f a x a) = Function.update f a x := by rw [Function.update_self]

/-! ## The generated valuations at these contents are the fold above -/

section Fold
-- the contents at a reference are compared up to unfolding the fold's definitions
set_option backward.isDefEq.respectTransparency.types false

theorem V12_eq (c : Dev nD) : V12 m (outsAll m d1 d2 d4 d5 d7 d8) c = (W12 m c) := by
  show Function.update (V11 m c) (main_v41 : DevRef τ sig) ((W12 m c) main_v41) = _
  exact update_update_self (V11 m c) (main_v41 : DevRef τ sig) ((datL0 (Ix := Unit) (U := UR sig nD τ) (Lvl := ℕ) (V11 m) c).arrAt 2 cfg0.N)
theorem V13_eq (c : Dev nD) : V13 m (outsAll m d1 d2 d4 d5 d7 d8) c = (W13 m d1 c) := by
  show Function.update (V12 m (outsAll m d1 d2 d4 d5 d7 d8) c) (main_v42 : DevRef τ sig) ((W13 m d1 c) main_v42) = _
  rw [V12_eq]
  exact update_update_self (W12 m c) (main_v42 : DevRef τ sig) ((d1 c).arrAt 3 cfg1.N)
theorem V14_eq (c : Dev nD) : V14 m (outsAll m d1 d2 d4 d5 d7 d8) c = (W14 m d1 d2 c) := by
  show Function.update (V13 m (outsAll m d1 d2 d4 d5 d7 d8) c) (main_v43 : DevRef τ sig) ((W14 m d1 d2 c) main_v43) = _
  rw [V13_eq]
  exact update_update_self (W13 m d1 c) (main_v43 : DevRef τ sig) ((d2 c).arrAt 2 cfg2.N)
theorem V16_eq (c : Dev nD) : V16 m (outsAll m d1 d2 d4 d5 d7 d8) c = (W16 m d1 d2 c) := by
  show StableHlo.after hostOps3_1 (StableHlo.after hostOps3 (V14 m (outsAll m d1 d2 d4 d5 d7 d8) c)) = _
  rw [V14_eq]; rfl
theorem V17_eq (c : Dev nD) : V17 m (outsAll m d1 d2 d4 d5 d7 d8) c = (W17 m d1 d2 c) := by
  show Function.update (V16 m (outsAll m d1 d2 d4 d5 d7 d8) c) (main_v52 : DevRef τ sig) ((W17 m d1 d2 c) main_v52) = _
  rw [V16_eq]
  exact update_update_self (W16 m d1 d2 c) (main_v52 : DevRef τ sig) ((datL3 (Ix := Unit) (U := UR sig nD τ) (Lvl := ℕ) (W16 m d1 d2) c).arrAt 2 cfg3.N)
theorem V18_eq (c : Dev nD) : V18 m (outsAll m d1 d2 d4 d5 d7 d8) c = (W18 m d1 d2 d4 c) := by
  show Function.update (V17 m (outsAll m d1 d2 d4 d5 d7 d8) c) (main_v53 : DevRef τ sig) ((W18 m d1 d2 d4 c) main_v53) = _
  rw [V17_eq]
  exact update_update_self (W17 m d1 d2 c) (main_v53 : DevRef τ sig) ((d4 c).arrAt 3 cfg4.N)
theorem V19_eq (c : Dev nD) : V19 m (outsAll m d1 d2 d4 d5 d7 d8) c = (W19 m d1 d2 d4 d5 c) := by
  show Function.update (V18 m (outsAll m d1 d2 d4 d5 d7 d8) c) (main_v54 : DevRef τ sig) ((W19 m d1 d2 d4 d5 c) main_v54) = _
  rw [V18_eq]
  exact update_update_self (W18 m d1 d2 d4 c) (main_v54 : DevRef τ sig) ((d5 c).arrAt 2 cfg5.N)
theorem V21_eq (c : Dev nD) : V21 m (outsAll m d1 d2 d4 d5 d7 d8) c = (W21 m d1 d2 d4 d5 c) := by
  show StableHlo.after hostOps6_1 (StableHlo.after hostOps6 (V19 m (outsAll m d1 d2 d4 d5 d7 d8) c)) = _
  rw [V19_eq]; rfl
theorem V22_eq (c : Dev nD) : V22 m (outsAll m d1 d2 d4 d5 d7 d8) c = (W22 m d1 d2 d4 d5 c) := by
  show Function.update (V21 m (outsAll m d1 d2 d4 d5 d7 d8) c) (main_v63 : DevRef τ sig) ((W22 m d1 d2 d4 d5 c) main_v63) = _
  rw [V21_eq]
  exact update_update_self (W21 m d1 d2 d4 d5 c) (main_v63 : DevRef τ sig) ((datL6 (Ix := Unit) (U := UR sig nD τ) (Lvl := ℕ) (W21 m d1 d2 d4 d5) c).arrAt 2 cfg6.N)
theorem V23_eq (c : Dev nD) : V23 m (outsAll m d1 d2 d4 d5 d7 d8) c = (W23 m d1 d2 d4 d5 d7 c) := by
  show Function.update (V22 m (outsAll m d1 d2 d4 d5 d7 d8) c) (main_v64 : DevRef τ sig) ((W23 m d1 d2 d4 d5 d7 c) main_v64) = _
  rw [V22_eq]
  exact update_update_self (W22 m d1 d2 d4 d5 c) (main_v64 : DevRef τ sig) ((d7 c).arrAt 3 cfg7.N)
theorem V24_eq (c : Dev nD) : V24 m (outsAll m d1 d2 d4 d5 d7 d8) c = (W24 m d1 d2 d4 d5 d7 d8 c) := by
  show Function.update (V23 m (outsAll m d1 d2 d4 d5 d7 d8) c) (main_v65 : DevRef τ sig) ((W24 m d1 d2 d4 d5 d7 d8 c) main_v65) = _
  rw [V23_eq]
  exact update_update_self (W23 m d1 d2 d4 d5 d7 c) (main_v65 : DevRef τ sig) ((d8 c).arrAt 2 cfg8.N)
theorem V29_eq (c : Dev nD) : V29 m (outsAll m d1 d2 d4 d5 d7 d8) c = (W29 m d1 d2 d4 d5 d7 d8 c) := by
  show StableHlo.after hostOps9_4 (StableHlo.after hostOps9_3 (StableHlo.after hostOps9_2 (StableHlo.after hostOps9_1
    (StableHlo.after hostOps9 (V24 m (outsAll m d1 d2 d4 d5 d7 d8) c))))) = _
  rw [V24_eq]; rfl

end Fold

/-! ## The algebra, the levels, the rest state -/

/-- No core owes another anything: no level is assigned. -/
abbrev Lc : GSem nD τ sig → Finset Unit := fun _ => ∅
abbrev lvc : GSem nD τ sig → Unit → ℕ := fun _ _ => 0

/-- What rides beside the buffers through every item: the core's generator register at some state and the core owing
    nothing. -/
abbrev Ec (c : Dev nD) : sProp 𝕄 :=
  iprop((∃ r, prngReg c r) ∗ (∃ W, owes (c : Thread nD τ) (0 : CellTallies nD τ sig Unit) W) ∗ emp)

/-- The launch element is the pipeline library's own. -/
theorem hu₀_all :
    (ownU (initOf (Pipeline.cells cfgs cellOf_inj) (Pipeline.launchToks cfgs cellOf_inj)) : sProp 𝕄)
      ⊢ |={Set.univ}=> iprop(BI.own ((emb₁ (A := UR sig nD τ) : Emb _ 𝕄) (initOf (Pipeline.cells cfgs cellOf_inj) (Pipeline.launchToks cfgs cellOf_inj)))
          ∗ bigSep Finset.univ fun _ : Dev nD => (iprop(emp) : sProp 𝕄)) := by
  rw [ownU_emb₁]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

/-- What the launch hands a core makes the rest state there: the generator register as launched, nothing owed. -/
theorem hEc_launch (ρ : Dev nD → PrngReg) (c : Dev nD) :
    (iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄)) : sProp 𝕄)
      ⊢ Ec (F := F) c := by
  iintro ⟨-, HO, -, Hp, -⟩
  isplitl [Hp]; · iexists _; iexact Hp
  isplitl [HO]; · iexists ∅; iexact HO
  iempintro

/-- The launch makes the rest state on every core: the generator register as launched, nothing owed. -/
theorem hE0_all (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄))) ∗ levAts Lc lvc)
      ⊢ (|={Set.univ}=> bigSep Finset.univ (fun c : Dev nD => Ec (F := F) c) : sProp 𝕄) := by
  have hmono : (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄)))
      ⊢ (bigSep Finset.univ (fun c : Dev nD => Ec (F := F) c) : sProp 𝕄) :=
    bigSep_mono fun c _ => hEc_launch ρ c
  iintro ⟨H, -⟩
  ihave H' := hmono $$ H
  imodintro
  iexact H'

/-- The rest state ends owing nothing. -/
theorem hE9_all (c : Dev nD) :
    Ec (F := F) c ⊢ (iprop(∃ W, owes (c : Thread nD τ) (0 : CellTallies nD τ sig Unit) W) : sProp 𝕄) := by
  iintro ⟨-, HO, -⟩; iexact HO

/-! ## The run -/

-- the regions' thread states are compared with the generated valuations up to unfolding the fold's definitions
set_option backward.isDefEq.respectTransparency.types false in
/-- THE FRAME of the whole program: given, for each of the six gather and scatter regions, a segment record over the
    proof data family entered from the contents before it and left at the contents after it, every weakly fair
    execution of @main from memory `m` with zero counters terminates and every final memory holds each argument as
    launched. -/
theorem frame_all (ρ : Dev nD → PrngReg)
    (R1 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 1)
    (hpre1 : ∀ c : Dev nD, iprop(StableHlo.held (c : Thread nD τ) (Pipeline.ucRefs τ sig) (W12 m c) ∗ Ec c) ⊢ R1.pre c)
    (hpost1 : ∀ c : Dev nD, R1.post c ⊢ iprop(StableHlo.held (c : Thread nD τ) (Pipeline.ucRefs τ sig) (W13 m d1 c) ∗ Ec c))
    (R2 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 2)
    (hpre2 : ∀ c : Dev nD, iprop(StableHlo.held (c : Thread nD τ) (Pipeline.ucRefs τ sig) (W13 m d1 c) ∗ Ec c) ⊢ R2.pre c)
    (hpost2 : ∀ c : Dev nD, R2.post c ⊢ iprop(StableHlo.held (c : Thread nD τ) (Pipeline.ucRefs τ sig) (W14 m d1 d2 c) ∗ Ec c))
    (R4 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 4)
    (hpre4 : ∀ c : Dev nD, iprop(StableHlo.held (c : Thread nD τ) (Pipeline.ucRefs τ sig) (W17 m d1 d2 c) ∗ Ec c) ⊢ R4.pre c)
    (hpost4 : ∀ c : Dev nD, R4.post c ⊢ iprop(StableHlo.held (c : Thread nD τ) (Pipeline.ucRefs τ sig) (W18 m d1 d2 d4 c) ∗ Ec c))
    (R5 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 5)
    (hpre5 : ∀ c : Dev nD, iprop(StableHlo.held (c : Thread nD τ) (Pipeline.ucRefs τ sig) (W18 m d1 d2 d4 c) ∗ Ec c) ⊢ R5.pre c)
    (hpost5 : ∀ c : Dev nD, R5.post c ⊢ iprop(StableHlo.held (c : Thread nD τ) (Pipeline.ucRefs τ sig) (W19 m d1 d2 d4 d5 c) ∗ Ec c))
    (R7 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 7)
    (hpre7 : ∀ c : Dev nD, iprop(StableHlo.held (c : Thread nD τ) (Pipeline.ucRefs τ sig) (W22 m d1 d2 d4 d5 c) ∗ Ec c) ⊢ R7.pre c)
    (hpost7 : ∀ c : Dev nD, R7.post c ⊢ iprop(StableHlo.held (c : Thread nD τ) (Pipeline.ucRefs τ sig) (W23 m d1 d2 d4 d5 d7 c) ∗ Ec c))
    (R8 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 8)
    (hpre8 : ∀ c : Dev nD, iprop(StableHlo.held (c : Thread nD τ) (Pipeline.ucRefs τ sig) (W23 m d1 d2 d4 d5 d7 c) ∗ Ec c) ⊢ R8.pre c)
    (hpost8 : ∀ c : Dev nD, R8.post c ⊢ iprop(StableHlo.held (c : Thread nD τ) (Pipeline.ucRefs τ sig) (W24 m d1 d2 d4 d5 d7 d8 c) ∗ Ec c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ (A := UR sig nD τ)) () Variants.none Lc lvc (fun _ _ => rfl) ρ (outsAll m d1 d2 d4 d5 d7 d8)
    (pdats (datL0 (Ix := Unit) (U := UR sig nD τ) (Lvl := ℕ) (V11 m)) d1 d2 (datL3 (W16 m d1 d2)) d4 d5 (datL6 (W21 m d1 d2 d4 d5)) d7 d8)
    (fun _ => 0) (fun _ => iprop(emp)) (initOf (Pipeline.cells cfgs cellOf_inj) (Pipeline.launchToks cfgs cellOf_inj)) hu₀_all
    (fun _ => Ec) (hE0_all ρ) (fun c => hE9_all c)
    (regionL0 (V11 m) d1 d2 (datL3 (W16 m d1 d2)) d4 d5 (datL6 (W21 m d1 d2 d4 d5)) d7 d8 () Variants.none Lc lvc Ec Ec (fun _ => iprop(emp)) (fun _ => .rfl) (fun _ => .rfl))
      (fun c => .rfl)
      (fun c => by rw [V12_eq]; exact .rfl)
    R1 (fun c => by rw [V12_eq]; exact hpre1 c) (fun c => by rw [V13_eq]; exact hpost1 c)
    R2 (fun c => by rw [V13_eq]; exact hpre2 c) (fun c => by rw [V14_eq]; exact hpost2 c)
    (regionL3 (W16 m d1 d2) (datL0 (Ix := Unit) (U := UR sig nD τ) (Lvl := ℕ) (V11 m)) d1 d2 d4 d5 (datL6 (W21 m d1 d2 d4 d5)) d7 d8 () Variants.none Lc lvc Ec Ec (fun _ => iprop(emp)) (fun _ => .rfl) (fun _ => .rfl))
      (fun c => by rw [V16_eq]; exact .rfl)
      (fun c => by rw [V17_eq]; exact .rfl)
    R4 (fun c => by rw [V17_eq]; exact hpre4 c) (fun c => by rw [V18_eq]; exact hpost4 c)
    R5 (fun c => by rw [V18_eq]; exact hpre5 c) (fun c => by rw [V19_eq]; exact hpost5 c)
    (regionL6 (W21 m d1 d2 d4 d5) (datL0 (Ix := Unit) (U := UR sig nD τ) (Lvl := ℕ) (V11 m)) d1 d2 (datL3 (W16 m d1 d2)) d4 d5 d7 d8 () Variants.none Lc lvc Ec Ec (fun _ => iprop(emp)) (fun _ => .rfl) (fun _ => .rfl))
      (fun c => by rw [V21_eq]; exact .rfl)
      (fun c => by rw [V22_eq]; exact .rfl)
    R7 (fun c => by rw [V22_eq]; exact hpre7 c) (fun c => by rw [V23_eq]; exact hpost7 c)
    R8 (fun c => by rw [V23_eq]; exact hpre8 c) (fun c => by rw [V24_eq]; exact hpost8 c)

-- as above
set_option backward.isDefEq.respectTransparency.types false in
/-- THE RUN of the whole program, its result named: as `frame_all`, and every final memory holds in the result buffer
    what the last host stretch computes, the contents at the return read at the result. -/
theorem run_all (ρ : Dev nD → PrngReg)
    (R1 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 1)
    (hpre1 : ∀ c : Dev nD, iprop(StableHlo.held (c : Thread nD τ) (Pipeline.ucRefs τ sig) (W12 m c) ∗ Ec c) ⊢ R1.pre c)
    (hpost1 : ∀ c : Dev nD, R1.post c ⊢ iprop(StableHlo.held (c : Thread nD τ) (Pipeline.ucRefs τ sig) (W13 m d1 c) ∗ Ec c))
    (R2 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 2)
    (hpre2 : ∀ c : Dev nD, iprop(StableHlo.held (c : Thread nD τ) (Pipeline.ucRefs τ sig) (W13 m d1 c) ∗ Ec c) ⊢ R2.pre c)
    (hpost2 : ∀ c : Dev nD, R2.post c ⊢ iprop(StableHlo.held (c : Thread nD τ) (Pipeline.ucRefs τ sig) (W14 m d1 d2 c) ∗ Ec c))
    (R4 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 4)
    (hpre4 : ∀ c : Dev nD, iprop(StableHlo.held (c : Thread nD τ) (Pipeline.ucRefs τ sig) (W17 m d1 d2 c) ∗ Ec c) ⊢ R4.pre c)
    (hpost4 : ∀ c : Dev nD, R4.post c ⊢ iprop(StableHlo.held (c : Thread nD τ) (Pipeline.ucRefs τ sig) (W18 m d1 d2 d4 c) ∗ Ec c))
    (R5 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 5)
    (hpre5 : ∀ c : Dev nD, iprop(StableHlo.held (c : Thread nD τ) (Pipeline.ucRefs τ sig) (W18 m d1 d2 d4 c) ∗ Ec c) ⊢ R5.pre c)
    (hpost5 : ∀ c : Dev nD, R5.post c ⊢ iprop(StableHlo.held (c : Thread nD τ) (Pipeline.ucRefs τ sig) (W19 m d1 d2 d4 d5 c) ∗ Ec c))
    (R7 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 7)
    (hpre7 : ∀ c : Dev nD, iprop(StableHlo.held (c : Thread nD τ) (Pipeline.ucRefs τ sig) (W22 m d1 d2 d4 d5 c) ∗ Ec c) ⊢ R7.pre c)
    (hpost7 : ∀ c : Dev nD, R7.post c ⊢ iprop(StableHlo.held (c : Thread nD τ) (Pipeline.ucRefs τ sig) (W23 m d1 d2 d4 d5 d7 c) ∗ Ec c))
    (R8 : RegionSeg (pcfgs (F := F)) adm (pdats (datL0 (Ix := Unit) (U := UR sig nD τ) (Lvl := ℕ) (V11 m)) d1 d2 (datL3 (W16 m d1 d2)) d4 d5 (datL6 (W21 m d1 d2 d4 d5)) d7 d8) () defs₀ Variants.none Lc lvc 8)
    (hpre8 : ∀ c : Dev nD, iprop(StableHlo.held (c : Thread nD τ) (Pipeline.ucRefs τ sig) (W23 m d1 d2 d4 d5 d7 c) ∗ Ec c) ⊢ R8.pre c)
    (hpost8 : ∀ c : Dev nD, R8.post c ⊢ iprop(StableHlo.held (c : Thread nD τ) (Pipeline.ucRefs τ sig) (W24 m d1 d2 d4 d5 d7 d8 c) ∗ Ec c)) :
    θ_run defs (onTc (τ := τ) (main (F := F))) ⟨m, fun _ => 0, ρ⟩ (fun r => ∀ c : Dev nD,
      r.2.mem ((c.tc : Thread nD τ).loc main_v99) = (W29 m d1 d2 d4 d5 d7 d8 c) main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have h := run_cond m (emb₁ (A := UR sig nD τ)) () Variants.none Lc lvc (fun _ _ => rfl) ρ (outsAll m d1 d2 d4 d5 d7 d8)
    (pdats (datL0 (Ix := Unit) (U := UR sig nD τ) (Lvl := ℕ) (V11 m)) d1 d2 (datL3 (W16 m d1 d2)) d4 d5 (datL6 (W21 m d1 d2 d4 d5)) d7 d8)
    (fun _ => 0) (fun _ => iprop(emp)) (initOf (Pipeline.cells cfgs cellOf_inj) (Pipeline.launchToks cfgs cellOf_inj)) hu₀_all
    (fun _ => Ec) (hE0_all ρ) (fun c => hE9_all c)
    (regionL0 (V11 m) d1 d2 (datL3 (W16 m d1 d2)) d4 d5 (datL6 (W21 m d1 d2 d4 d5)) d7 d8 () Variants.none Lc lvc Ec Ec (fun _ => iprop(emp)) (fun _ => .rfl) (fun _ => .rfl))
      (fun c => .rfl)
      (fun c => by rw [V12_eq]; exact .rfl)
    R1 (fun c => by rw [V12_eq]; exact hpre1 c) (fun c => by rw [V13_eq]; exact hpost1 c)
    R2 (fun c => by rw [V13_eq]; exact hpre2 c) (fun c => by rw [V14_eq]; exact hpost2 c)
    (regionL3 (W16 m d1 d2) (datL0 (Ix := Unit) (U := UR sig nD τ) (Lvl := ℕ) (V11 m)) d1 d2 d4 d5 (datL6 (W21 m d1 d2 d4 d5)) d7 d8 () Variants.none Lc lvc Ec Ec (fun _ => iprop(emp)) (fun _ => .rfl) (fun _ => .rfl))
      (fun c => by rw [V16_eq]; exact .rfl)
      (fun c => by rw [V17_eq]; exact .rfl)
    R4 (fun c => by rw [V17_eq]; exact hpre4 c) (fun c => by rw [V18_eq]; exact hpost4 c)
    R5 (fun c => by rw [V18_eq]; exact hpre5 c) (fun c => by rw [V19_eq]; exact hpost5 c)
    (regionL6 (W21 m d1 d2 d4 d5) (datL0 (Ix := Unit) (U := UR sig nD τ) (Lvl := ℕ) (V11 m)) d1 d2 (datL3 (W16 m d1 d2)) d4 d5 d7 d8 () Variants.none Lc lvc Ec Ec (fun _ => iprop(emp)) (fun _ => .rfl) (fun _ => .rfl))
      (fun c => by rw [V21_eq]; exact .rfl)
      (fun c => by rw [V22_eq]; exact .rfl)
    R7 (fun c => by rw [V22_eq]; exact hpre7 c) (fun c => by rw [V23_eq]; exact hpost7 c)
    R8 (fun c => by rw [V23_eq]; exact hpre8 c) (fun c => by rw [V24_eq]; exact hpost8 c)
  exact OrdCont.mono (θ_run defs (onTc (τ := τ) (main (F := F))) ⟨m, fun _ => 0, ρ⟩)
    (fun r hr c => by have h1 := hr c; rw [V29_eq] at h1; exact h1) h

end Cert.Kernel.Hand

end
-- ==== Proof.G1DatK.lean ====
/-
  The gather kernel of layer 1 (pipeline 1): its proof data.

  The grid is 391 x 25, the second axis fastest: point t has coordinates (t / 25, t % 25). Along the second
  axis the kernel accumulates, in a scratch buffer it keeps between points, the products of a one-hot matrix
  (row r has its one at column src r - 2048 * (t % 25), if that falls in the block) with the block of h the
  point fetches; the accumulator is reset where t % 25 = 0 and, where t % 25 = 24, scaled row by row by the
  norm column and stored into the output block, which the pipeline writes back there and nowhere else.
-/
import proofs.«104867_j4217657884863_1_alg».proof.Proof.Gen.Kernel.Launch
import proofs.«104867_j4217657884863_1_alg».proof.Proof.Gen.Kernel.Skeleton
import Idealize.ShloMosaic.Lib.Pipeline.Frame
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section

variable (V : Dev nD → Valuation τ sig (Elt F))

/-- Window w's block at point t, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The accumulator after the body at point n: one step of the one-hot product added to what the point before
    left, or to zero where the row of the grid begins (n % 25 = 0). -/
def acc1 (c : Dev nD) : (n : ℕ) → n < cfg1.N → Vec F S2048x64 .f32
  | 0, hn => k1_pay2 (grid1.coords ⟨0, hn⟩) (iblk1 V c 1 ⟨0, hn⟩) (iblk1 V c 0 ⟨0, hn⟩) (k1_pay1 (F := F))
  | n + 1, hn =>
    if (n + 1) % 25 = 0 then
      k1_pay2 (grid1.coords ⟨n + 1, hn⟩) (iblk1 V c 1 ⟨n + 1, hn⟩) (iblk1 V c 0 ⟨n + 1, hn⟩) (k1_pay1 (F := F))
    else
      k1_pay2 (grid1.coords ⟨n + 1, hn⟩) (iblk1 V c 1 ⟨n + 1, hn⟩) (iblk1 V c 0 ⟨n + 1, hn⟩) (acc1 c n (Nat.lt_of_succ_lt hn))

/-- The scratch operand: a whole scoped buffer of the kernel's own. -/
abbrev scM1 : Memref sig .tc .vmem S2048x64 .f32 := Memref.whole cc1_scratch0

/-- The invariant before position n: before the first point every scoped buffer that is no staging buffer at
    some contents; afterwards the accumulator's buffer whole at what the point before left, the other such
    buffers at some contents; the generator register at some state throughout. -/
def PhiG1 (c : Dev nD) : (n : ℕ) → n ≤ cfg1.N → sProp 𝕄
  | 0, _ => iprop(Pipeline.scopedRest spec1 c ∗ ∃ r, prngReg c r)
  | n + 1, hn => iprop(owns (c : Thread nD τ) scM1 fullShare (acc1 V c n hn)
      ∗ Pipeline.scopedRestBut spec1 c [cc1_scratch0] ∗ ∃ r, prngReg c r)

/-- The proof data of pipeline 1 on core c: the arrays as the region finds them; after the body each input's
    buffer at its block, the output's at the accumulator scaled by the norm column (consulted only where the
    block is written back, t % 25 = 24); the invariant above; nothing owed; full shares. -/
def datG1 (c : Dev nD) : Dat τ (Elt F) Ix ℕ U Lvl cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiG1 V c t.val (Nat.le_of_lt_succ t.isLt)
  q _ := fullShare
  owed _ := 0

theorem datG1_A (c : Dev nD) (w : Fin cfg1.W) : (datG1 (Ix := Ix) (U := U) (Lvl := Lvl) V c).A w = V c (Pipeline.arrRef spec1 w) := by
  dsimp only [datG1]

theorem after1_0 (c : Dev nD) (t : Fin cfg1.N) : (datG1 (Ix := Ix) (U := U) (Lvl := Lvl) V c).after 0 t = iblk1 V c 0 t := by dsimp only [datG1]
theorem after1_1 (c : Dev nD) (t : Fin cfg1.N) : (datG1 (Ix := Ix) (U := U) (Lvl := Lvl) V c).after 1 t = iblk1 V c 1 t := by dsimp only [datG1]
theorem after1_2 (c : Dev nD) (t : Fin cfg1.N) : (datG1 (Ix := Ix) (U := U) (Lvl := Lvl) V c).after 2 t = iblk1 V c 2 t := by dsimp only [datG1]
theorem after1_3 (c : Dev nD) (t : Fin cfg1.N) :
    (datG1 (Ix := Ix) (U := U) (Lvl := Lvl) V c).after 3 t = k1_pay3 (acc1 V c t.val t.isLt) (iblk1 V c 2 t) := by dsimp only [datG1]

end

end Cert.Kernel.Hand

end
-- ==== Proof.G1RunsK.lean ====
/-
  The gather kernel of layer 1 (pipeline 1): the body's three control cases on whole memrefs.

  Three control cases along the second grid axis j = t % 25: the first step (j = 0) resets the accumulator
  before adding into it; a middle step adds; the last step (j = 24) adds and then stores the accumulator,
  scaled row by row by the norm column, into the output block.
-/
import proofs.«104867_j4217657884863_1_alg».proof.Proof.G1DatK
import proofs.«104867_j4217657884863_1_alg».proof.Proof.Gen.Kernel.Points
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions, as functions of the grid point -/

/-- The first conditional's condition: the second coordinate is 0. -/
abbrev cond1_0 (i : grid1.Coords) : Prop :=
  (Scalar.cmpi .ne (Scalar.extui (Scalar.cmpi .eq (BitVec.ofNat 32 (i 1).val) 0#32)) 0#32) = 1#1
/-- The second conditional's condition: the second coordinate is 24. -/
abbrev cond1_1 (i : grid1.Coords) : Prop := k1_cond2 i = 1#1

theorem hz2 : (![0, 0] : Fin 2 → Nat) = fun _ => 0 := by funext a; fin_cases a <;> rfl

section Runs

variable (𝒱₀ : Variants)

set_option maxHeartbeats 1000000 in
/-- A middle step on whole memrefs: the accumulator's buffer at xs is left at one more step added to xs; the
    two blocks it reads are left as they were; the norm column's and the output's buffers are not touched. -/
theorem run1_B (c : Dev nD) (E : Set ℕ) (i : grid1.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond1_0 i) (hc1 : ¬cond1_1 i)
    (x0 : Vec F S2048x64 .f32) (x1 : Vec F S2048x1 .i32) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 i x1 x0 xs)) -∗ K ⟨⟩))
      ⊢ wp frame (wpE (defs₀ (F := F)) 𝒱₀ c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (fun y => ⟨_, List.Mem.head _, View.mem_set_unit_zero hz2 inb_S2048x64_S2048x64_0_0 y⟩), View.canon_unit_zero hz2]
  simp only [View.readAt_eq_ld, harg2.read_unread, harg3.read_unread, harg6.read_unread, View.ld_unit_zero (S := S2048x64) hz2, View.ld_unit_zero (S := S2048x1) hz2]

set_option maxHeartbeats 1000000 in
/-- The first step of a row on whole memrefs: the accumulator's buffer, at anything, is left at one step added
    to zero; the two blocks it reads are left as they were. -/
theorem run1_A (c : Dev nD) (E : Set ℕ) (i : grid1.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : cond1_0 i) (hc1 : ¬cond1_1 i)
    (x0 : Vec F S2048x64 .f32) (x1 : Vec F S2048x1 .i32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 i x1 x0 (k1_pay1 (F := F)))) -∗ K ⟨⟩))
      ⊢ wp frame (wpE (defs₀ (F := F)) 𝒱₀ c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [View.read_writes_eq_canon _ _ _ (fun y => ⟨_, List.Mem.head _, View.mem_set_unit_zero hz2 inb_S2048x64_S2048x64_0_0 y⟩), View.canon_cons_unit_zero hz2]
  simp only [View.readAt_eq_ld, harg2.read_unread, harg3.read_unread, View.ld_unit_zero (S := S2048x64) hz2, View.ld_unit_zero (S := S2048x1) hz2, View.readCov_unit_zero (S := S2048x64) _ hz2]

set_option maxHeartbeats 1000000 in
/-- The last step of a row on whole memrefs: the accumulator's buffer at xs is left at one more step added to
    xs, and the output's buffer, at anything, at that scaled row by row by the norm column; the three blocks it
    reads are left as they were. -/
theorem run1_C (c : Dev nD) (E : Set ℕ) (i : grid1.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond1_0 i) (hc1 : cond1_1 i)
    (x0 : Vec F S2048x64 .f32) (x1 : Vec F S2048x1 .i32) (x2 : Vec F S2048x1 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 i x1 x0 xs) x2)
            ∗ owns (c : Thread nD τ) arg6 fullShare (k1_pay2 i x1 x0 xs)) -∗ K ⟨⟩))
      ⊢ wp frame (wpE (defs₀ (F := F)) 𝒱₀ c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.Mem.head _, View.mem_set_unit_zero hz2 inb_S2048x64_S2048x64_0_0 y⟩), View.canon_unit_zero hz2]
    simp only [View.readAt_eq_ld, harg2.read_unread, harg3.read_unread, harg4.read_unread, harg6.read_unread, View.ld_unit_zero (S := S2048x64) hz2, View.ld_unit_zero (S := S2048x1) hz2, View.readCov_unit_zero (S := S2048x64) _ hz2]
  iexists _; isplitr
  swap; · iexact HS
  ipureintro
  sl_unfold_run_names
  rw [View.read_writes_eq_canon _ _ _ (fun y => ⟨_, List.Mem.head _, View.mem_set_unit_zero hz2 inb_S2048x64_S2048x64_0_0 y⟩), View.canon_unit_zero hz2]
  simp only [View.readAt_eq_ld, harg2.read_unread, harg3.read_unread, harg6.read_unread, View.ld_unit_zero (S := S2048x64) hz2, View.ld_unit_zero (S := S2048x1) hz2]

end Runs

end Cert.Kernel.Hand

end
-- ==== Proof.G1BodyK.lean ====
/-
  The gather kernel of layer 1 (pipeline 1): the body obligation at every grid point.

  Point t has second coordinate t % 25. The inputs' staging buffers hold their blocks wherever the body is
  called; the output's buffer is handed back untouched except at the last step of a row, where it is written
  whole; the accumulator's buffer goes from what the point before left to what this point leaves.
-/
import proofs.«104867_j4217657884863_1_alg».proof.Proof.G1RunsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions over the grid, in closed form -/

theorem coords1_1 (t : Fin cfg1.N) : ((grid1.coords t) 1).val = t.val % 25 := by
  show t.val / grid1.stride 1 % 25 = t.val % 25
  rw [show grid1.stride 1 = 1 from by decide, Nat.div_one]

theorem cond1_0_iff (i : grid1.Coords) : cond1_0 i ↔ (i 1).val = 0 :=
  (by decide : ∀ j : Fin 25,
    ((Scalar.cmpi .ne (Scalar.extui (Scalar.cmpi .eq (BitVec.ofNat 32 j.val) 0#32)) 0#32) = 1#1) ↔ j.val = 0) (i 1)

theorem cond1_1_iff (i : grid1.Coords) : cond1_1 i ↔ (i 1).val = 24 :=
  (by decide : ∀ j : Fin 25,
    ((Scalar.cmpi .ne (Scalar.extui (Scalar.cmpi .eq (BitVec.ofNat 32 j.val) 24#32)) 0#32) = 1#1) ↔ j.val = 24) (i 1)

theorem hcond1_0 (t : Fin cfg1.N) : cond1_0 (grid1.coords t) ↔ t.val % 25 = 0 := by
  rw [cond1_0_iff, coords1_1]
theorem hcond1_1 (t : Fin cfg1.N) : cond1_1 (grid1.coords t) ↔ t.val % 25 = 24 := by
  rw [cond1_1_iff, coords1_1]

/-- The output window is idle exactly where the second conditional is not taken. -/
theorem idle1_3_of (i : grid1.Coords) (h : ¬cond1_1 i) : cfg1.idle 3 i = true := by
  show (!(k1_cond2 i == 1#1)) = true
  rw [Bool.not_eq_true', beq_eq_false_iff_ne]; exact h
theorem live1_3_of (i : grid1.Coords) (h : cond1_1 i) : cfg1.idle 3 i = false := by
  show (!(k1_cond2 i == 1#1)) = false
  rw [Bool.not_eq_false', beq_iff_eq]; exact h

section Body

variable (V : Dev nD → Valuation τ sig (Elt F)) (𝒱₀ : Variants) (ι : Ix)

local notation "dG" => datG1 (Ix := Ix) (U := U) (Lvl := Lvl) V

/-! ## The inputs' staging buffers hold their blocks wherever the body is called -/

theorem before1_0 (c : Dev nD) (t : Fin cfg1.N) (d) : (dG c).before 0 t d = iblk1 V c 0 t :=
  ((dG c).before_in_eq_fetched 0 rfl (fun _ => rfl) (fun _ _ _ => rfl)
      (fun t => by rw [after1_0]; unfold Dat.blockOf iblk1; rw [datG1_A]; try rfl) t d).trans
    (by unfold Dat.fetched Dat.blockOf iblk1; rw [datG1_A]; try rfl)
theorem before1_1 (c : Dev nD) (t : Fin cfg1.N) (d) : (dG c).before 1 t d = iblk1 V c 1 t :=
  ((dG c).before_in_eq_fetched 1 rfl (fun _ => rfl) (fun _ _ _ => rfl)
      (fun t => by rw [after1_1]; unfold Dat.blockOf iblk1; rw [datG1_A]; try rfl) t d).trans
    (by unfold Dat.fetched Dat.blockOf iblk1; rw [datG1_A]; try rfl)
theorem before1_2 (c : Dev nD) (t : Fin cfg1.N) (d) : (dG c).before 2 t d = iblk1 V c 2 t :=
  ((dG c).before_in_eq_fetched 2 rfl (fun _ => rfl) (fun _ _ _ => rfl)
      (fun t => by rw [after1_2]; unfold Dat.blockOf iblk1; rw [datG1_A]; try rfl) t d).trans
    (by unfold Dat.fetched Dat.blockOf iblk1; rw [datG1_A]; try rfl)

/-! ## The accumulator, case by case -/

theorem acc1_first (c : Dev nD) (t : Fin cfg1.N) (h0 : t.val % 25 = 0) :
    acc1 V c t.val t.isLt = k1_pay2 (grid1.coords t) (iblk1 V c 1 t) (iblk1 V c 0 t) (k1_pay1 (F := F)) := by
  obtain ⟨n, hn⟩ := t
  cases n with
  | zero => rfl
  | succ n => exact if_pos h0

theorem acc1_next (c : Dev nD) (t : Fin cfg1.N) (h0 : ¬t.val % 25 = 0) :
    acc1 V c t.val t.isLt = k1_pay2 (grid1.coords t) (iblk1 V c 1 t) (iblk1 V c 0 t)
      (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant, position by position -/

theorem PhiG1_zero (c : Dev nD) (n : ℕ) (h : n ≤ cfg1.N) (hz : n = 0) :
    (PhiG1 V c n h : sProp 𝕄) = iprop(Pipeline.scopedRest spec1 c ∗ ∃ r, prngReg c r) := by
  subst hz; rfl

theorem PhiG1_succ (c : Dev nD) (n : ℕ) (hn : n < cfg1.N) :
    (PhiG1 V c (n + 1) hn : sProp 𝕄) = iprop(owns (c : Thread nD τ) scM1 fullShare (acc1 V c n hn)
      ∗ Pipeline.scopedRestBut spec1 c [cc1_scratch0] ∗ ∃ r, prngReg c r) := rfl

theorem PhiG1_pos (c : Dev nD) (n : ℕ) (h : n ≤ cfg1.N) (hz : n ≠ 0) :
    (PhiG1 V c n h : sProp 𝕄) = iprop(owns (c : Thread nD τ) scM1 fullShare (acc1 V c (n - 1) (by omega))
      ∗ Pipeline.scopedRestBut spec1 c [cc1_scratch0] ∗ ∃ r, prngReg c r) := by
  cases n with
  | zero => exact absurd rfl hz
  | succ n => rfl

theorem PhiG1_castSucc (c : Dev nD) (t : Fin cfg1.N) :
    (dG c).Φ t.castSucc = PhiG1 V c t.val (Nat.le_of_lt t.isLt) := by
  dsimp only [datG1]; simp only [Fin.coe_castSucc]

/-! ## The body obligation -/

abbrev ms1_0 (t : Fin cfg1.N) : Memref sig .tc .vmem S2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

/-- What the body is called with at point t, the windows one by one, -/
def bodyPre1 (c : Dev nD) (t : Fin cfg1.N) : sProp 𝕄 :=
  iprop((dG c).Φ t.castSucc ∗ (dG c).owesAt ι t.castSucc
    ∗ (∃ d, owns (c : Thread nD τ) (ms1_0 t) fullShare ((dG c).before 0 t d))
    ∗ (∃ d, owns (c : Thread nD τ) (ms1_1 t) fullShare ((dG c).before 1 t d))
    ∗ (∃ d, owns (c : Thread nD τ) (ms1_2 t) fullShare ((dG c).before 2 t d))
    ∗ (∃ d, owns (c : Thread nD τ) (ms1_3 t) fullShare ((dG c).before 3 t d)))

/-- and what it returns. -/
def bodyPost1 (c : Dev nD) (t : Fin cfg1.N) : sProp 𝕄 :=
  iprop((dG c).Φ t.succ ∗ (dG c).owesAt ι t.succ
    ∗ (dG c).leavesExact 0 t ∗ (dG c).leavesExact 1 t ∗ (dG c).leavesExact 2 t ∗ (dG c).leavesExact 3 t)

set_option maxHeartbeats 4000000 in
theorem sound_body1 (c : Dev nD) (t : Fin cfg1.N) :
    (bodyPre1 V ι c t : sProp 𝕄) ⊢ wp frame (wpE (defs₀ (F := F)) 𝒱₀ c none) Set.univ (bodyAt1 t) (fun _ => bodyPost1 V ι c t) := by
  unfold bodyPre1 bodyPost1 bodyAt1
  simp only [before1_0, before1_1, before1_2]
  rw [show (dG c).owesAt ι t.succ = (dG c).owesAt ι t.castSucc from rfl]
  rw [show (dG c).Φ t.succ = PhiG1 V c (t.val + 1) t.isLt from rfl, PhiG1_succ]
  rw [show (dG c).leavesExact 0 t = owns (c : Thread nD τ) (ms1_0 t) fullShare ((dG c).after 0 t) from rfl, after1_0]
  rw [show (dG c).leavesExact 1 t = owns (c : Thread nD τ) (ms1_1 t) fullShare ((dG c).after 1 t) from rfl, after1_1]
  rw [show (dG c).leavesExact 2 t = owns (c : Thread nD τ) (ms1_2 t) fullShare ((dG c).after 2 t) from rfl, after1_2]
  have hnf : ¬t.val % 25 = 24 → (cfg1.win 3).flush t = false := fun h1 =>
    Bool.eq_false_iff.mpr fun hf => h1 ((flush1_3 t).mp hf)
  by_cases h0 : t.val % 25 = 0
  · -- the first step of a row
    have h1 : ¬t.val % 25 = 24 := by omega
    have hc0 : cond1_0 (grid1.coords t) := (hcond1_0 t).mpr h0
    have hc1 : ¬cond1_1 (grid1.coords t) := fun h => h1 ((hcond1_1 t).mp h)
    rw [Dat.leavesExact_idle (dG c) 3 t (idle1_3_of _ hc1) (hnf h1)]
    rw [acc1_first V c t h0]
    by_cases hz : t.val = 0
    · rw [PhiG1_castSucc, PhiG1_zero V c _ _ hz, scopedRest1_split]
      iintro ⟨⟨⟨⟨%fs, HS⟩, Hrest⟩, Hg⟩, Ho, ⟨%d0, H0⟩, ⟨%d1, H1⟩, ⟨%d2, H2⟩, H3⟩
      iapply (run1_A 𝒱₀ c Set.univ (grid1.coords t) _ _ _ _ _ _ _ _ _ _ hc0 hc1 (iblk1 V c 0 t) (iblk1 V c 1 t) _)
      isplitl [H0]; · iexact H0
      isplitl [H1]; · iexact H1
      isplitl [HS]; · iexists fs; rw [owns_whole]; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · rw [PhiG1_castSucc, PhiG1_pos V c _ _ hz]
      iintro ⟨⟨HS, Hrest, Hg⟩, Ho, ⟨%d0, H0⟩, ⟨%d1, H1⟩, ⟨%d2, H2⟩, H3⟩
      iapply (run1_A 𝒱₀ c Set.univ (grid1.coords t) _ _ _ _ _ _ _ _ _ _ hc0 hc1 (iblk1 V c 0 t) (iblk1 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond1_0 (grid1.coords t) := fun h => h0 ((hcond1_0 t).mp h)
    rw [acc1_next V c t h0, PhiG1_castSucc, PhiG1_pos V c _ _ hz]
    by_cases h1 : t.val % 25 = 24
    · -- the last step of a row
      have hc1 : cond1_1 (grid1.coords t) := (hcond1_1 t).mpr h1
      rw [show (dG c).leavesExact 3 t = owns (c : Thread nD τ) (ms1_3 t) fullShare ((dG c).after 3 t) from by
        unfold Dat.leavesExact; rw [live1_3_of _ hc1], after1_3, acc1_next V c t h0]
      iintro ⟨⟨HS, Hrest, Hg⟩, Ho, ⟨%d0, H0⟩, ⟨%d1, H1⟩, ⟨%d2, H2⟩, ⟨%d3, H3⟩⟩
      iapply (run1_C 𝒱₀ c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · -- a middle step
      have hc1 : ¬cond1_1 (grid1.coords t) := fun h => h1 ((hcond1_1 t).mp h)
      rw [Dat.leavesExact_idle (dG c) 3 t (idle1_3_of _ hc1) (hnf h1)]
      iintro ⟨⟨HS, Hrest, Hg⟩, Ho, ⟨%d0, H0⟩, ⟨%d1, H1⟩, ⟨%d2, H2⟩, H3⟩
      iapply (run1_B 𝒱₀ c Set.univ (grid1.coords t) _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dG c) (defs₀ (F := F)) 𝒱₀ ι Set.univ := fun t => by
  rw [bigSep_W1, bigSep_W1]
  exact sound_body1 V 𝒱₀ ι c t

theorem body_obligation1_loose (c : Dev nD) : BodyObligationLoose (dG c) (defs₀ (F := F)) 𝒱₀ ι Set.univ :=
  (body_obligation1 V 𝒱₀ ι c).loose

end Body

end Cert.Kernel.Hand

end
-- ==== Proof.G1RegionK.lean ====
/-
  The gather kernel of layer 1 (pipeline 1) as a region of the program.

  The region is entered from every unscoped buffer held at a valuation V beside a rest, and left at V updated
  at the output array, which then holds the pipeline's write-backs folded over the grid. The rest must supply the
  generator register and a core that owes nothing, and gets both back; whatever else it holds rides along.
-/
import proofs.«104867_j4217657884863_1_alg».proof.Proof.G1BodyK
import proofs.«104867_j4217657884863_1_alg».proof.Proof.DatsK
import proofs.«104867_j4217657884863_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section Region

variable (V : Dev nD → Valuation τ sig (Elt F)) (𝒱₀ : Variants) (ι : Ix)
  (L : GSem nD τ sig → Finset Ix) (lv : GSem nD τ sig → Ix → Lvl)
  (d0 : (c : Dev nD) → Dat τ (Elt F) Ix ℕ U Lvl (cfgs 0) c)
  (d2 : (c : Dev nD) → Dat τ (Elt F) Ix ℕ U Lvl (cfgs 2) c)
  (d3 : (c : Dev nD) → Dat τ (Elt F) Ix ℕ U Lvl (cfgs 3) c)
  (d4 : (c : Dev nD) → Dat τ (Elt F) Ix ℕ U Lvl (cfgs 4) c)
  (d5 : (c : Dev nD) → Dat τ (Elt F) Ix ℕ U Lvl (cfgs 5) c)
  (d6 : (c : Dev nD) → Dat τ (Elt F) Ix ℕ U Lvl (cfgs 6) c)
  (d7 : (c : Dev nD) → Dat τ (Elt F) Ix ℕ U Lvl (cfgs 7) c)
  (d8 : (c : Dev nD) → Dat τ (Elt F) Ix ℕ U Lvl (cfgs 8) c)

local notation "dG" => datG1 (Ix := Ix) (U := U) (Lvl := Lvl) V
local notation "pd" => pdats d0 (datG1 V) d2 d3 d4 d5 d6 d7 d8

/-- What the region leaves in the unscoped buffers: the output array at the write-backs folded over the grid,
    every other buffer as found. -/
def VoutG1 (c : Dev nD) : Valuation τ sig (Elt F) :=
  Function.update (V c) (Proc.devRef .tc main_v42) ((dG c).arrAt 3 cfg1.N)

theorem hF1 (c : Dev nD) (w : Fin cfg1.W) :
    (dG c).arrAt w cfg1.N = VoutG1 (Ix := Ix) (U := U) (Lvl := Lvl) V c (Pipeline.arrRef spec1 w) := by
  unfold VoutG1
  match w with
  | ⟨0, _⟩ => exact ((dG c).arrAt_in 0 rfl _).trans ((datG1_A V c 0).trans
      (Function.update_of_ne (StableHlo.devRef_ne_of_ne (by decide)) _ _).symm)
  | ⟨1, _⟩ => exact ((dG c).arrAt_in 1 rfl _).trans ((datG1_A V c 1).trans
      (Function.update_of_ne (StableHlo.devRef_ne_of_ne (by decide)) _ _).symm)
  | ⟨2, _⟩ => exact ((dG c).arrAt_in 2 rfl _).trans ((datG1_A V c 2).trans
      (Function.update_of_ne (StableHlo.devRef_ne_of_ne (by decide)) _ _).symm)
  | ⟨3, _⟩ => exact (Function.update_self (Proc.devRef (τ := τ) .tc main_v42) _ (V c)).symm

theorem hrest1 (c : Dev nD) (b : Ref sig .tc) (hb : b ∉ Finset.univ.image (Pipeline.arrRef spec1)) :
    VoutG1 (Ix := Ix) (U := U) (Lvl := Lvl) V c b = V c b := by
  unfold VoutG1
  exact Function.update_of_ne (StableHlo.devRef_ne_of_ne fun e =>
    hb (Finset.mem_image.mpr ⟨3, Finset.mem_univ _, e.symm⟩)) _ _

set_option backward.isDefEq.respectTransparency.types false in
/-- The region's record: the launch's layout, no semaphore of the kernel's own, the body obligation, and the four
    entailments around the thread states. -/
def regionG1 (G E E' : Dev nD → sProp 𝕄)
    (hE : ∀ c, E c ⊢ iprop((∃ r, prngReg c r) ∗ (∃ W, owes (c : Thread nD τ) (0 : CellTallies nD τ sig Ix) W) ∗ G c))
    (hE' : ∀ c, iprop((∃ r, prngReg c r) ∗ (∃ W, owes (c : Thread nD τ) (0 : CellTallies nD τ sig Ix) W) ∗ G c) ⊢ E' c) :
    RegionSeg (pcfgs (F := F)) adm pd ι defs₀ 𝒱₀ L lv 1 where
  win := launch1.win.to₀
  block_pos := launch1.block_pos
  stage_whole := launch1.stage_whole
  K := PEmpty
  osem k := k.elim
  ho := Pipeline.OwnSemFacts.none _
  hbody c := body_obligation1_loose V 𝒱₀ ι c
  hwaits := Pipeline.hwaits_of_owed_zero _ _ _ _ L lv 1 fun _ _ => rfl
  pre c := iprop(StableHlo.held (c : Thread nD τ) (Pipeline.ucRefs τ sig) (V c) ∗ E c)
  post c := iprop(StableHlo.held (c : Thread nD τ) (Pipeline.ucRefs τ sig) (VoutG1 (Ix := Ix) (U := U) (Lvl := Lvl) V c) ∗ E' c)
  X c := iprop(∃ r, prngReg c r)
  Y c := iprop(∃ r, prngReg c r)
  Z c := iprop(Pipeline.unscopedRest spec1 c (fun b => V c b) ∗ G c)
  hentry c := by
    rw [Pipeline.ownSems0_none]
    have hsplit := Pipeline.arrays_of_unscopedBufs (p := 1) (pcfgs (F := F)) adm pd launch1.win launch1.arr_whole c
      ((pd 1 c).share_full fun _ => rfl) (fun b => V c b) fun _ => rfl
    rw [Pipeline.unscopedBufs_held] at hsplit
    iintro ⟨⟨Hub, HE⟩, -, -⟩
    ihave H := hsplit $$ Hub
    icases H with ⟨Ha, Hrest⟩
    ihave HE' := (hE c) $$ HE
    icases HE' with ⟨Hp, HO, HG⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pd 1 c).Φ 0 = PhiG1 V c 0 (Nat.zero_le _) from rfl, PhiG1_zero V c 0 _ rfl]
    iintro ⟨Hp, -, Hr⟩
    isplitl [Hr]; · iexact Hr
    iexact Hp
  hout c := by
    rw [Pipeline.ownSems0_none, show (pd 1 c).Φ (Fin.last _) = PhiG1 V c cfg1.N (Nat.le_refl _) from rfl,
      PhiG1_pos V c _ _ (by have : cfg1.N = 9775 := N_1; omega)]
    show _ ⊢ iprop(_ ∗ _ ∗ Pipeline.scopedRest spec1 c)
    rw [scopedRest1_split]
    iintro ⟨HS, Hrest, Hp⟩
    isplitl [Hp]; · iexact Hp
    isplitr; · iempintro
    isplitl [HS]
    · iexists _; rw [← owns_whole]; iexact HS
    iexact Hrest
  hexit c := by
    have hjoin := Pipeline.unscopedBufs_of_arrays (p := 1) (pcfgs (F := F)) adm (Ix := Ix) (Name := ℕ) (U := U) (Lvl := Lvl)
      launch1.win launch1.arr_whole c pd ((pd 1 c).share_full fun _ => rfl)
      (fun b => V c b) (fun b => VoutG1 (Ix := Ix) (U := U) (Lvl := Lvl) V c b) ((pd 1 c).arrAt · cfg1.N) (hF1 V c) (hrest1 V c)
    rw [Pipeline.unscopedBufs_held] at hjoin
    iintro ⟨Ha, HO, HY, Hrest, HG⟩
    imodintro
    isplitl [Ha Hrest]
    · iapply hjoin; isplitl [Ha] <;> iassumption
    iapply (hE' c)
    isplitl [HY]; · iexact HY
    isplitl [HO]
    · unfold Pipeline.Dat.owesAt Pipeline.owesWithin
      icases HO with ⟨%W, -, HO⟩; iexists W; iexact HO
    iexact HG

end Region

end Cert.Kernel.Hand

end
-- ==== Proof.G4DatK.lean ====
/-
  The gather kernel of layer 2 (pipeline 4): its proof data.

  The grid is 391 x 25, the second axis fastest: point t has coordinates (t / 25, t % 25). Along the second
  axis the kernel accumulates, in a scratch buffer it keeps between points, the products of a one-hot matrix
  (row r has its one at column src r - 2048 * (t % 25), if that falls in the block) with the block of h the
  point fetches; the accumulator is reset where t % 25 = 0 and, where t % 25 = 24, scaled row by row by the
  norm column and stored into the output block, which the pipeline writes back there and nowhere else.
-/
import proofs.«104867_j4217657884863_1_alg».proof.Proof.Gen.Kernel.Launch
import proofs.«104867_j4217657884863_1_alg».proof.Proof.Gen.Kernel.Skeleton
import Idealize.ShloMosaic.Lib.Pipeline.Frame
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section

variable (V : Dev nD → Valuation τ sig (Elt F))

/-- Window w's block at point t, read off its array as the region finds it. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The accumulator after the body at point n: one step of the one-hot product added to what the point before
    left, or to zero where the row of the grid begins (n % 25 = 0). -/
def acc4 (c : Dev nD) : (n : ℕ) → n < cfg4.N → Vec F S2048x64 .f32
  | 0, hn => k4_pay2 (grid4.coords ⟨0, hn⟩) (iblk4 V c 1 ⟨0, hn⟩) (iblk4 V c 0 ⟨0, hn⟩) (k4_pay1 (F := F))
  | n + 1, hn =>
    if (n + 1) % 25 = 0 then
      k4_pay2 (grid4.coords ⟨n + 1, hn⟩) (iblk4 V c 1 ⟨n + 1, hn⟩) (iblk4 V c 0 ⟨n + 1, hn⟩) (k4_pay1 (F := F))
    else
      k4_pay2 (grid4.coords ⟨n + 1, hn⟩) (iblk4 V c 1 ⟨n + 1, hn⟩) (iblk4 V c 0 ⟨n + 1, hn⟩) (acc4 c n (Nat.lt_of_succ_lt hn))

/-- The scratch operand: a whole scoped buffer of the kernel's own. -/
abbrev scM4 : Memref sig .tc .vmem S2048x64 .f32 := Memref.whole cc4_scratch0

/-- The invariant before position n: before the first point every scoped buffer that is no staging buffer at
    some contents; afterwards the accumulator's buffer whole at what the point before left, the other such
    buffers at some contents; the generator register at some state throughout. -/
def PhiG4 (c : Dev nD) : (n : ℕ) → n ≤ cfg4.N → sProp 𝕄
  | 0, _ => iprop(Pipeline.scopedRest spec4 c ∗ ∃ r, prngReg c r)
  | n + 1, hn => iprop(owns (c : Thread nD τ) scM4 fullShare (acc4 V c n hn)
      ∗ Pipeline.scopedRestBut spec4 c [cc4_scratch0] ∗ ∃ r, prngReg c r)

/-- The proof data of pipeline 1 on core c: the arrays as the region finds them; after the body each input's
    buffer at its block, the output's at the accumulator scaled by the norm column (consulted only where the
    block is written back, t % 25 = 24); the invariant above; nothing owed; full shares. -/
def datG4 (c : Dev nD) : Dat τ (Elt F) Ix ℕ U Lvl cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val t.isLt) (iblk4 V c 2 t)
  Φ t := PhiG4 V c t.val (Nat.le_of_lt_succ t.isLt)
  q _ := fullShare
  owed _ := 0

theorem datG4_A (c : Dev nD) (w : Fin cfg4.W) : (datG4 (Ix := Ix) (U := U) (Lvl := Lvl) V c).A w = V c (Pipeline.arrRef spec4 w) := by
  dsimp only [datG4]

theorem after4_0 (c : Dev nD) (t : Fin cfg4.N) : (datG4 (Ix := Ix) (U := U) (Lvl := Lvl) V c).after 0 t = iblk4 V c 0 t := by dsimp only [datG4]
theorem after4_1 (c : Dev nD) (t : Fin cfg4.N) : (datG4 (Ix := Ix) (U := U) (Lvl := Lvl) V c).after 1 t = iblk4 V c 1 t := by dsimp only [datG4]
theorem after4_2 (c : Dev nD) (t : Fin cfg4.N) : (datG4 (Ix := Ix) (U := U) (Lvl := Lvl) V c).after 2 t = iblk4 V c 2 t := by dsimp only [datG4]
theorem after4_3 (c : Dev nD) (t : Fin cfg4.N) :
    (datG4 (Ix := Ix) (U := U) (Lvl := Lvl) V c).after 3 t = k4_pay3 (acc4 V c t.val t.isLt) (iblk4 V c 2 t) := by dsimp only [datG4]

end

end Cert.Kernel.Hand

end
-- ==== Proof.G4RunsK.lean ====
/-
  The gather kernel of layer 2 (pipeline 4): the body's three control cases on whole memrefs.

  Three control cases along the second grid axis j = t % 25: the first step (j = 0) resets the accumulator
  before adding into it; a middle step adds; the last step (j = 24) adds and then stores the accumulator,
  scaled row by row by the norm column, into the output block.
-/
import proofs.«104867_j4217657884863_1_alg».proof.Proof.G4DatK
import proofs.«104867_j4217657884863_1_alg».proof.Proof.Gen.Kernel.Points
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions, as functions of the grid point -/

/-- The first conditional's condition: the second coordinate is 0. -/
abbrev cond4_0 (i : grid4.Coords) : Prop :=
  (Scalar.cmpi .ne (Scalar.extui (Scalar.cmpi .eq (BitVec.ofNat 32 (i 1).val) 0#32)) 0#32) = 1#1
/-- The second conditional's condition: the second coordinate is 24. -/
abbrev cond4_1 (i : grid4.Coords) : Prop := k4_cond2 i = 1#1

theorem hz2_4 : (![0, 0] : Fin 2 → Nat) = fun _ => 0 := by funext a; fin_cases a <;> rfl

section Runs

variable (𝒱₀ : Variants)

set_option maxHeartbeats 1000000 in
/-- A middle step on whole memrefs: the accumulator's buffer at xs is left at one more step added to xs; the
    two blocks it reads are left as they were; the norm column's and the output's buffers are not touched. -/
theorem run4_B (c : Dev nD) (E : Set ℕ) (i : grid4.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond4_0 i) (hc1 : ¬cond4_1 i)
    (x0 : Vec F S2048x64 .f32) (x1 : Vec F S2048x1 .i32) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k4_pay2 i x1 x0 xs)) -∗ K ⟨⟩))
      ⊢ wp frame (wpE (defs₀ (F := F)) 𝒱₀ c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (fun y => ⟨_, List.Mem.head _, View.mem_set_unit_zero hz2_4 inb_S2048x64_S2048x64_0_0 y⟩), View.canon_unit_zero hz2_4]
  simp only [View.readAt_eq_ld, harg2.read_unread, harg3.read_unread, harg6.read_unread, View.ld_unit_zero (S := S2048x64) hz2_4, View.ld_unit_zero (S := S2048x1) hz2_4]

set_option maxHeartbeats 1000000 in
/-- The first step of a row on whole memrefs: the accumulator's buffer, at anything, is left at one step added
    to zero; the two blocks it reads are left as they were. -/
theorem run4_A (c : Dev nD) (E : Set ℕ) (i : grid4.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : cond4_0 i) (hc1 : ¬cond4_1 i)
    (x0 : Vec F S2048x64 .f32) (x1 : Vec F S2048x1 .i32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k4_pay2 i x1 x0 (k4_pay1 (F := F)))) -∗ K ⟨⟩))
      ⊢ wp frame (wpE (defs₀ (F := F)) 𝒱₀ c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [View.read_writes_eq_canon _ _ _ (fun y => ⟨_, List.Mem.head _, View.mem_set_unit_zero hz2_4 inb_S2048x64_S2048x64_0_0 y⟩), View.canon_cons_unit_zero hz2_4]
  simp only [View.readAt_eq_ld, harg2.read_unread, harg3.read_unread, View.ld_unit_zero (S := S2048x64) hz2_4, View.ld_unit_zero (S := S2048x1) hz2_4, View.readCov_unit_zero (S := S2048x64) _ hz2_4]

set_option maxHeartbeats 1000000 in
/-- The last step of a row on whole memrefs: the accumulator's buffer at xs is left at one more step added to
    xs, and the output's buffer, at anything, at that scaled row by row by the norm column; the three blocks it
    reads are left as they were. -/
theorem run4_C (c : Dev nD) (E : Set ℕ) (i : grid4.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond4_0 i) (hc1 : cond4_1 i)
    (x0 : Vec F S2048x64 .f32) (x1 : Vec F S2048x1 .i32) (x2 : Vec F S2048x1 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k4_pay3 (k4_pay2 i x1 x0 xs) x2)
            ∗ owns (c : Thread nD τ) arg6 fullShare (k4_pay2 i x1 x0 xs)) -∗ K ⟨⟩))
      ⊢ wp frame (wpE (defs₀ (F := F)) 𝒱₀ c none) E (cc4__gather_kernel i arg2 harg2 arg3 harg3 arg4 harg4 arg5 harg5 arg6 harg6) K := by
  simp only [cc4__gather_kernel_eq_skeleton]; unfold cc4__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.Mem.head _, View.mem_set_unit_zero hz2_4 inb_S2048x64_S2048x64_0_0 y⟩), View.canon_unit_zero hz2_4]
    simp only [View.readAt_eq_ld, harg2.read_unread, harg3.read_unread, harg4.read_unread, harg6.read_unread, View.ld_unit_zero (S := S2048x64) hz2_4, View.ld_unit_zero (S := S2048x1) hz2_4, View.readCov_unit_zero (S := S2048x64) _ hz2_4]
  iexists _; isplitr
  swap; · iexact HS
  ipureintro
  sl_unfold_run_names
  rw [View.read_writes_eq_canon _ _ _ (fun y => ⟨_, List.Mem.head _, View.mem_set_unit_zero hz2_4 inb_S2048x64_S2048x64_0_0 y⟩), View.canon_unit_zero hz2_4]
  simp only [View.readAt_eq_ld, harg2.read_unread, harg3.read_unread, harg6.read_unread, View.ld_unit_zero (S := S2048x64) hz2_4, View.ld_unit_zero (S := S2048x1) hz2_4]

end Runs

end Cert.Kernel.Hand

end
-- ==== Proof.G4BodyK.lean ====
/-
  The gather kernel of layer 2 (pipeline 4): the body obligation at every grid point.

  Point t has second coordinate t % 25. The inputs' staging buffers hold their blocks wherever the body is
  called; the output's buffer is handed back untouched except at the last step of a row, where it is written
  whole; the accumulator's buffer goes from what the point before left to what this point leaves.
-/
import proofs.«104867_j4217657884863_1_alg».proof.Proof.G4RunsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions over the grid, in closed form -/

theorem coords4_1 (t : Fin cfg4.N) : ((grid4.coords t) 1).val = t.val % 25 := by
  show t.val / grid4.stride 1 % 25 = t.val % 25
  rw [show grid4.stride 1 = 1 from by decide, Nat.div_one]

theorem cond4_0_iff (i : grid4.Coords) : cond4_0 i ↔ (i 1).val = 0 :=
  (by decide : ∀ j : Fin 25,
    ((Scalar.cmpi .ne (Scalar.extui (Scalar.cmpi .eq (BitVec.ofNat 32 j.val) 0#32)) 0#32) = 1#1) ↔ j.val = 0) (i 1)

theorem cond4_1_iff (i : grid4.Coords) : cond4_1 i ↔ (i 1).val = 24 :=
  (by decide : ∀ j : Fin 25,
    ((Scalar.cmpi .ne (Scalar.extui (Scalar.cmpi .eq (BitVec.ofNat 32 j.val) 24#32)) 0#32) = 1#1) ↔ j.val = 24) (i 1)

theorem hcond4_0 (t : Fin cfg4.N) : cond4_0 (grid4.coords t) ↔ t.val % 25 = 0 := by
  rw [cond4_0_iff, coords4_1]
theorem hcond4_1 (t : Fin cfg4.N) : cond4_1 (grid4.coords t) ↔ t.val % 25 = 24 := by
  rw [cond4_1_iff, coords4_1]

/-- The output window is idle exactly where the second conditional is not taken. -/
theorem idle4_3_of (i : grid4.Coords) (h : ¬cond4_1 i) : cfg4.idle 3 i = true := by
  show (!(k4_cond2 i == 1#1)) = true
  rw [Bool.not_eq_true', beq_eq_false_iff_ne]; exact h
theorem live4_3_of (i : grid4.Coords) (h : cond4_1 i) : cfg4.idle 3 i = false := by
  show (!(k4_cond2 i == 1#1)) = false
  rw [Bool.not_eq_false', beq_iff_eq]; exact h

section Body

variable (V : Dev nD → Valuation τ sig (Elt F)) (𝒱₀ : Variants) (ι : Ix)

local notation "dG" => datG4 (Ix := Ix) (U := U) (Lvl := Lvl) V

/-! ## The inputs' staging buffers hold their blocks wherever the body is called -/

theorem before4_0 (c : Dev nD) (t : Fin cfg4.N) (d) : (dG c).before 0 t d = iblk4 V c 0 t :=
  ((dG c).before_in_eq_fetched 0 rfl (fun _ => rfl) (fun _ _ _ => rfl)
      (fun t => by rw [after4_0]; unfold Dat.blockOf iblk4; rw [datG4_A]; try rfl) t d).trans
    (by unfold Dat.fetched Dat.blockOf iblk4; rw [datG4_A]; try rfl)
theorem before4_1 (c : Dev nD) (t : Fin cfg4.N) (d) : (dG c).before 1 t d = iblk4 V c 1 t :=
  ((dG c).before_in_eq_fetched 1 rfl (fun _ => rfl) (fun _ _ _ => rfl)
      (fun t => by rw [after4_1]; unfold Dat.blockOf iblk4; rw [datG4_A]; try rfl) t d).trans
    (by unfold Dat.fetched Dat.blockOf iblk4; rw [datG4_A]; try rfl)
theorem before4_2 (c : Dev nD) (t : Fin cfg4.N) (d) : (dG c).before 2 t d = iblk4 V c 2 t :=
  ((dG c).before_in_eq_fetched 2 rfl (fun _ => rfl) (fun _ _ _ => rfl)
      (fun t => by rw [after4_2]; unfold Dat.blockOf iblk4; rw [datG4_A]; try rfl) t d).trans
    (by unfold Dat.fetched Dat.blockOf iblk4; rw [datG4_A]; try rfl)

/-! ## The accumulator, case by case -/

theorem acc4_first (c : Dev nD) (t : Fin cfg4.N) (h0 : t.val % 25 = 0) :
    acc4 V c t.val t.isLt = k4_pay2 (grid4.coords t) (iblk4 V c 1 t) (iblk4 V c 0 t) (k4_pay1 (F := F)) := by
  obtain ⟨n, hn⟩ := t
  cases n with
  | zero => rfl
  | succ n => exact if_pos h0

theorem acc4_next (c : Dev nD) (t : Fin cfg4.N) (h0 : ¬t.val % 25 = 0) :
    acc4 V c t.val t.isLt = k4_pay2 (grid4.coords t) (iblk4 V c 1 t) (iblk4 V c 0 t)
      (acc4 V c (t.val - 1) (Nat.lt_of_le_of_lt (Nat.sub_le _ _) t.isLt)) := by
  obtain ⟨n, hn⟩ := t
  cases n with
  | zero => exact absurd (Nat.zero_mod _) h0
  | succ n => exact if_neg h0

/-! ## The invariant, position by position -/

theorem PhiG4_zero (c : Dev nD) (n : ℕ) (h : n ≤ cfg4.N) (hz : n = 0) :
    (PhiG4 V c n h : sProp 𝕄) = iprop(Pipeline.scopedRest spec4 c ∗ ∃ r, prngReg c r) := by
  subst hz; rfl

theorem PhiG4_succ (c : Dev nD) (n : ℕ) (hn : n < cfg4.N) :
    (PhiG4 V c (n + 1) hn : sProp 𝕄) = iprop(owns (c : Thread nD τ) scM4 fullShare (acc4 V c n hn)
      ∗ Pipeline.scopedRestBut spec4 c [cc4_scratch0] ∗ ∃ r, prngReg c r) := rfl

theorem PhiG4_pos (c : Dev nD) (n : ℕ) (h : n ≤ cfg4.N) (hz : n ≠ 0) :
    (PhiG4 V c n h : sProp 𝕄) = iprop(owns (c : Thread nD τ) scM4 fullShare (acc4 V c (n - 1) (by omega))
      ∗ Pipeline.scopedRestBut spec4 c [cc4_scratch0] ∗ ∃ r, prngReg c r) := by
  cases n with
  | zero => exact absurd rfl hz
  | succ n => rfl

theorem PhiG4_castSucc (c : Dev nD) (t : Fin cfg4.N) :
    (dG c).Φ t.castSucc = PhiG4 V c t.val (Nat.le_of_lt t.isLt) := by
  dsimp only [datG4]; simp only [Fin.coe_castSucc]

/-! ## The body obligation -/

abbrev ms4_0 (t : Fin cfg4.N) : Memref sig .tc .vmem S2048x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x64 .f32 := win4_3.stage (cfg4.slots t 3)
abbrev hs4_3 (t : Fin cfg4.N) : (ms4_3 t).IsWhole := hstage4_3 ((cfg4.slots t 3).cast nbuf4_3)

/-- What the body is called with at point t, the windows one by one, -/
def bodyPre4 (c : Dev nD) (t : Fin cfg4.N) : sProp 𝕄 :=
  iprop((dG c).Φ t.castSucc ∗ (dG c).owesAt ι t.castSucc
    ∗ (∃ d, owns (c : Thread nD τ) (ms4_0 t) fullShare ((dG c).before 0 t d))
    ∗ (∃ d, owns (c : Thread nD τ) (ms4_1 t) fullShare ((dG c).before 1 t d))
    ∗ (∃ d, owns (c : Thread nD τ) (ms4_2 t) fullShare ((dG c).before 2 t d))
    ∗ (∃ d, owns (c : Thread nD τ) (ms4_3 t) fullShare ((dG c).before 3 t d)))

/-- and what it returns. -/
def bodyPost4 (c : Dev nD) (t : Fin cfg4.N) : sProp 𝕄 :=
  iprop((dG c).Φ t.succ ∗ (dG c).owesAt ι t.succ
    ∗ (dG c).leavesExact 0 t ∗ (dG c).leavesExact 1 t ∗ (dG c).leavesExact 2 t ∗ (dG c).leavesExact 3 t)

set_option maxHeartbeats 4000000 in
theorem sound_body4 (c : Dev nD) (t : Fin cfg4.N) :
    (bodyPre4 V ι c t : sProp 𝕄) ⊢ wp frame (wpE (defs₀ (F := F)) 𝒱₀ c none) Set.univ (bodyAt4 t) (fun _ => bodyPost4 V ι c t) := by
  unfold bodyPre4 bodyPost4 bodyAt4
  simp only [before4_0, before4_1, before4_2]
  rw [show (dG c).owesAt ι t.succ = (dG c).owesAt ι t.castSucc from rfl]
  rw [show (dG c).Φ t.succ = PhiG4 V c (t.val + 1) t.isLt from rfl, PhiG4_succ]
  rw [show (dG c).leavesExact 0 t = owns (c : Thread nD τ) (ms4_0 t) fullShare ((dG c).after 0 t) from rfl, after4_0]
  rw [show (dG c).leavesExact 1 t = owns (c : Thread nD τ) (ms4_1 t) fullShare ((dG c).after 1 t) from rfl, after4_1]
  rw [show (dG c).leavesExact 2 t = owns (c : Thread nD τ) (ms4_2 t) fullShare ((dG c).after 2 t) from rfl, after4_2]
  have hnf : ¬t.val % 25 = 24 → (cfg4.win 3).flush t = false := fun h1 =>
    Bool.eq_false_iff.mpr fun hf => h1 ((flush4_3 t).mp hf)
  by_cases h0 : t.val % 25 = 0
  · -- the first step of a row
    have h1 : ¬t.val % 25 = 24 := by omega
    have hc0 : cond4_0 (grid4.coords t) := (hcond4_0 t).mpr h0
    have hc1 : ¬cond4_1 (grid4.coords t) := fun h => h1 ((hcond4_1 t).mp h)
    rw [Dat.leavesExact_idle (dG c) 3 t (idle4_3_of _ hc1) (hnf h1)]
    rw [acc4_first V c t h0]
    by_cases hz : t.val = 0
    · rw [PhiG4_castSucc, PhiG4_zero V c _ _ hz, scopedRest4_split]
      iintro ⟨⟨⟨⟨%fs, HS⟩, Hrest⟩, Hg⟩, Ho, ⟨%d0, H0⟩, ⟨%d1, H1⟩, ⟨%d2, H2⟩, H3⟩
      iapply (run4_A 𝒱₀ c Set.univ (grid4.coords t) _ _ _ _ _ _ _ _ _ _ hc0 hc1 (iblk4 V c 0 t) (iblk4 V c 1 t) _)
      isplitl [H0]; · iexact H0
      isplitl [H1]; · iexact H1
      isplitl [HS]; · iexists fs; rw [owns_whole]; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · rw [PhiG4_castSucc, PhiG4_pos V c _ _ hz]
      iintro ⟨⟨HS, Hrest, Hg⟩, Ho, ⟨%d0, H0⟩, ⟨%d1, H1⟩, ⟨%d2, H2⟩, H3⟩
      iapply (run4_A 𝒱₀ c Set.univ (grid4.coords t) _ _ _ _ _ _ _ _ _ _ hc0 hc1 (iblk4 V c 0 t) (iblk4 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond4_0 (grid4.coords t) := fun h => h0 ((hcond4_0 t).mp h)
    rw [acc4_next V c t h0, PhiG4_castSucc, PhiG4_pos V c _ _ hz]
    by_cases h1 : t.val % 25 = 24
    · -- the last step of a row
      have hc1 : cond4_1 (grid4.coords t) := (hcond4_1 t).mpr h1
      rw [show (dG c).leavesExact 3 t = owns (c : Thread nD τ) (ms4_3 t) fullShare ((dG c).after 3 t) from by
        unfold Dat.leavesExact; rw [live4_3_of _ hc1], after4_3, acc4_next V c t h0]
      iintro ⟨⟨HS, Hrest, Hg⟩, Ho, ⟨%d0, H0⟩, ⟨%d1, H1⟩, ⟨%d2, H2⟩, ⟨%d3, H3⟩⟩
      iapply (run4_C 𝒱₀ c Set.univ (grid4.coords t) _ _ _ _ _ _ _ _ _ _ hc0 hc1 (iblk4 V c 0 t) (iblk4 V c 1 t) (iblk4 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · -- a middle step
      have hc1 : ¬cond4_1 (grid4.coords t) := fun h => h1 ((hcond4_1 t).mp h)
      rw [Dat.leavesExact_idle (dG c) 3 t (idle4_3_of _ hc1) (hnf h1)]
      iintro ⟨⟨HS, Hrest, Hg⟩, Ho, ⟨%d0, H0⟩, ⟨%d1, H1⟩, ⟨%d2, H2⟩, H3⟩
      iapply (run4_B 𝒱₀ c Set.univ (grid4.coords t) _ _ _ _ _ _ _ _ _ _ hc0 hc1 (iblk4 V c 0 t) (iblk4 V c 1 t) _ _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3

/-- The library's body obligation, at every point. -/
theorem body_obligation4 (c : Dev nD) : BodyObligation (dG c) (defs₀ (F := F)) 𝒱₀ ι Set.univ := fun t => by
  rw [bigSep_W4, bigSep_W4]
  exact sound_body4 V 𝒱₀ ι c t

theorem body_obligation4_loose (c : Dev nD) : BodyObligationLoose (dG c) (defs₀ (F := F)) 𝒱₀ ι Set.univ :=
  (body_obligation4 V 𝒱₀ ι c).loose

end Body

end Cert.Kernel.Hand

end
-- ==== Proof.G4RegionK.lean ====
/-
  The gather kernel of layer 2 (pipeline 4) as a region of the program.

  The region is entered from every unscoped buffer held at a valuation V beside a rest, and left at V updated
  at the output array, which then holds the pipeline's write-backs folded over the grid. The rest must supply the
  generator register and a core that owes nothing, and gets both back; whatever else it holds rides along.
-/
import proofs.«104867_j4217657884863_1_alg».proof.Proof.G4BodyK
import proofs.«104867_j4217657884863_1_alg».proof.Proof.DatsK
import proofs.«104867_j4217657884863_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section Region

variable (V : Dev nD → Valuation τ sig (Elt F)) (𝒱₀ : Variants) (ι : Ix)
  (L : GSem nD τ sig → Finset Ix) (lv : GSem nD τ sig → Ix → Lvl)
  (d0 : (c : Dev nD) → Dat τ (Elt F) Ix ℕ U Lvl (cfgs 0) c)
  (d1 : (c : Dev nD) → Dat τ (Elt F) Ix ℕ U Lvl (cfgs 1) c)
  (d2 : (c : Dev nD) → Dat τ (Elt F) Ix ℕ U Lvl (cfgs 2) c)
  (d3 : (c : Dev nD) → Dat τ (Elt F) Ix ℕ U Lvl (cfgs 3) c)
  (d5 : (c : Dev nD) → Dat τ (Elt F) Ix ℕ U Lvl (cfgs 5) c)
  (d6 : (c : Dev nD) → Dat τ (Elt F) Ix ℕ U Lvl (cfgs 6) c)
  (d7 : (c : Dev nD) → Dat τ (Elt F) Ix ℕ U Lvl (cfgs 7) c)
  (d8 : (c : Dev nD) → Dat τ (Elt F) Ix ℕ U Lvl (cfgs 8) c)

local notation "dG" => datG4 (Ix := Ix) (U := U) (Lvl := Lvl) V
local notation "pd" => pdats d0 d1 d2 d3 (datG4 V) d5 d6 d7 d8

/-- What the region leaves in the unscoped buffers: the output array at the write-backs folded over the grid,
    every other buffer as found. -/
def VoutG4 (c : Dev nD) : Valuation τ sig (Elt F) :=
  Function.update (V c) (Proc.devRef .tc main_v53) ((dG c).arrAt 3 cfg4.N)

theorem hF4 (c : Dev nD) (w : Fin cfg4.W) :
    (dG c).arrAt w cfg4.N = VoutG4 (Ix := Ix) (U := U) (Lvl := Lvl) V c (Pipeline.arrRef spec4 w) := by
  unfold VoutG4
  match w with
  | ⟨0, _⟩ => exact ((dG c).arrAt_in 0 rfl _).trans ((datG4_A V c 0).trans
      (Function.update_of_ne (StableHlo.devRef_ne_of_ne (by decide)) _ _).symm)
  | ⟨1, _⟩ => exact ((dG c).arrAt_in 1 rfl _).trans ((datG4_A V c 1).trans
      (Function.update_of_ne (StableHlo.devRef_ne_of_ne (by decide)) _ _).symm)
  | ⟨2, _⟩ => exact ((dG c).arrAt_in 2 rfl _).trans ((datG4_A V c 2).trans
      (Function.update_of_ne (StableHlo.devRef_ne_of_ne (by decide)) _ _).symm)
  | ⟨3, _⟩ => exact (Function.update_self (Proc.devRef (τ := τ) .tc main_v53) _ (V c)).symm

theorem hrest4 (c : Dev nD) (b : Ref sig .tc) (hb : b ∉ Finset.univ.image (Pipeline.arrRef spec4)) :
    VoutG4 (Ix := Ix) (U := U) (Lvl := Lvl) V c b = V c b := by
  unfold VoutG4
  exact Function.update_of_ne (StableHlo.devRef_ne_of_ne fun e =>
    hb (Finset.mem_image.mpr ⟨3, Finset.mem_univ _, e.symm⟩)) _ _

set_option backward.isDefEq.respectTransparency.types false in
/-- The region's record: the launch's layout, no semaphore of the kernel's own, the body obligation, and the four
    entailments around the thread states. -/
def regionG4 (G E E' : Dev nD → sProp 𝕄)
    (hE : ∀ c, E c ⊢ iprop((∃ r, prngReg c r) ∗ (∃ W, owes (c : Thread nD τ) (0 : CellTallies nD τ sig Ix) W) ∗ G c))
    (hE' : ∀ c, iprop((∃ r, prngReg c r) ∗ (∃ W, owes (c : Thread nD τ) (0 : CellTallies nD τ sig Ix) W) ∗ G c) ⊢ E' c) :
    RegionSeg (pcfgs (F := F)) adm pd ι defs₀ 𝒱₀ L lv 4 where
  win := launch4.win.to₀
  block_pos := launch4.block_pos
  stage_whole := launch4.stage_whole
  K := PEmpty
  osem k := k.elim
  ho := Pipeline.OwnSemFacts.none _
  hbody c := body_obligation4_loose V 𝒱₀ ι c
  hwaits := Pipeline.hwaits_of_owed_zero _ _ _ _ L lv 4 fun _ _ => rfl
  pre c := iprop(StableHlo.held (c : Thread nD τ) (Pipeline.ucRefs τ sig) (V c) ∗ E c)
  post c := iprop(StableHlo.held (c : Thread nD τ) (Pipeline.ucRefs τ sig) (VoutG4 (Ix := Ix) (U := U) (Lvl := Lvl) V c) ∗ E' c)
  X c := iprop(∃ r, prngReg c r)
  Y c := iprop(∃ r, prngReg c r)
  Z c := iprop(Pipeline.unscopedRest spec4 c (fun b => V c b) ∗ G c)
  hentry c := by
    rw [Pipeline.ownSems0_none]
    have hsplit := Pipeline.arrays_of_unscopedBufs (p := 4) (pcfgs (F := F)) adm pd launch4.win launch4.arr_whole c
      ((pd 4 c).share_full fun _ => rfl) (fun b => V c b) fun _ => rfl
    rw [Pipeline.unscopedBufs_held] at hsplit
    iintro ⟨⟨Hub, HE⟩, -, -⟩
    ihave H := hsplit $$ Hub
    icases H with ⟨Ha, Hrest⟩
    ihave HE' := (hE c) $$ HE
    icases HE' with ⟨Hp, HO, HG⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pd 4 c).Φ 0 = PhiG4 V c 0 (Nat.zero_le _) from rfl, PhiG4_zero V c 0 _ rfl]
    iintro ⟨Hp, -, Hr⟩
    isplitl [Hr]; · iexact Hr
    iexact Hp
  hout c := by
    rw [Pipeline.ownSems0_none, show (pd 4 c).Φ (Fin.last _) = PhiG4 V c cfg4.N (Nat.le_refl _) from rfl,
      PhiG4_pos V c _ _ (by have : cfg4.N = 9775 := N_4; omega)]
    show _ ⊢ iprop(_ ∗ _ ∗ Pipeline.scopedRest spec4 c)
    rw [scopedRest4_split]
    iintro ⟨HS, Hrest, Hp⟩
    isplitl [Hp]; · iexact Hp
    isplitr; · iempintro
    isplitl [HS]
    · iexists _; rw [← owns_whole]; iexact HS
    iexact Hrest
  hexit c := by
    have hjoin := Pipeline.unscopedBufs_of_arrays (p := 4) (pcfgs (F := F)) adm (Ix := Ix) (Name := ℕ) (U := U) (Lvl := Lvl)
      launch4.win launch4.arr_whole c pd ((pd 4 c).share_full fun _ => rfl)
      (fun b => V c b) (fun b => VoutG4 (Ix := Ix) (U := U) (Lvl := Lvl) V c b) ((pd 4 c).arrAt · cfg4.N) (hF4 V c) (hrest4 V c)
    rw [Pipeline.unscopedBufs_held] at hjoin
    iintro ⟨Ha, HO, HY, Hrest, HG⟩
    imodintro
    isplitl [Ha Hrest]
    · iapply hjoin; isplitl [Ha] <;> iassumption
    iapply (hE' c)
    isplitl [HY]; · iexact HY
    isplitl [HO]
    · unfold Pipeline.Dat.owesAt Pipeline.owesWithin
      icases HO with ⟨%W, -, HO⟩; iexists W; iexact HO
    iexact HG

end Region

end Cert.Kernel.Hand

end
-- ==== Proof.G7DatK.lean ====
/-
  The gather kernel of layer 3 (pipeline 7): its proof data.

  The grid is 391 x 25, the second axis fastest: point t has coordinates (t / 25, t % 25). Along the second
  axis the kernel accumulates, in a scratch buffer it keeps between points, the products of a one-hot matrix
  (row r has its one at column src r - 2048 * (t % 25), if that falls in the block) with the block of h the
  point fetches; the accumulator is reset where t % 25 = 0 and, where t % 25 = 24, scaled row by row by the
  norm column and stored into the output block, which the pipeline writes back there and nowhere else.
-/
import proofs.«104867_j4217657884863_1_alg».proof.Proof.Gen.Kernel.Launch
import proofs.«104867_j4217657884863_1_alg».proof.Proof.Gen.Kernel.Skeleton
import Idealize.ShloMosaic.Lib.Pipeline.Frame
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section

variable (V : Dev nD → Valuation τ sig (Elt F))

/-- Window w's block at point t, read off its array as the region finds it. -/
def iblk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- The accumulator after the body at point n: one step of the one-hot product added to what the point before
    left, or to zero where the row of the grid begins (n % 25 = 0). -/
def acc7 (c : Dev nD) : (n : ℕ) → n < cfg7.N → Vec F S2048x64 .f32
  | 0, hn => k7_pay2 (grid7.coords ⟨0, hn⟩) (iblk7 V c 1 ⟨0, hn⟩) (iblk7 V c 0 ⟨0, hn⟩) (k7_pay1 (F := F))
  | n + 1, hn =>
    if (n + 1) % 25 = 0 then
      k7_pay2 (grid7.coords ⟨n + 1, hn⟩) (iblk7 V c 1 ⟨n + 1, hn⟩) (iblk7 V c 0 ⟨n + 1, hn⟩) (k7_pay1 (F := F))
    else
      k7_pay2 (grid7.coords ⟨n + 1, hn⟩) (iblk7 V c 1 ⟨n + 1, hn⟩) (iblk7 V c 0 ⟨n + 1, hn⟩) (acc7 c n (Nat.lt_of_succ_lt hn))

/-- The scratch operand: a whole scoped buffer of the kernel's own. -/
abbrev scM7 : Memref sig .tc .vmem S2048x64 .f32 := Memref.whole cc7_scratch0

/-- The invariant before position n: before the first point every scoped buffer that is no staging buffer at
    some contents; afterwards the accumulator's buffer whole at what the point before left, the other such
    buffers at some contents; the generator register at some state throughout. -/
def PhiG7 (c : Dev nD) : (n : ℕ) → n ≤ cfg7.N → sProp 𝕄
  | 0, _ => iprop(Pipeline.scopedRest spec7 c ∗ ∃ r, prngReg c r)
  | n + 1, hn => iprop(owns (c : Thread nD τ) scM7 fullShare (acc7 V c n hn)
      ∗ Pipeline.scopedRestBut spec7 c [cc7_scratch0] ∗ ∃ r, prngReg c r)

/-- The proof data of pipeline 1 on core c: the arrays as the region finds them; after the body each input's
    buffer at its block, the output's at the accumulator scaled by the norm column (consulted only where the
    block is written back, t % 25 = 24); the invariant above; nothing owed; full shares. -/
def datG7 (c : Dev nD) : Dat τ (Elt F) Ix ℕ U Lvl cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (acc7 V c t.val t.isLt) (iblk7 V c 2 t)
  Φ t := PhiG7 V c t.val (Nat.le_of_lt_succ t.isLt)
  q _ := fullShare
  owed _ := 0

theorem datG7_A (c : Dev nD) (w : Fin cfg7.W) : (datG7 (Ix := Ix) (U := U) (Lvl := Lvl) V c).A w = V c (Pipeline.arrRef spec7 w) := by
  dsimp only [datG7]

theorem after7_0 (c : Dev nD) (t : Fin cfg7.N) : (datG7 (Ix := Ix) (U := U) (Lvl := Lvl) V c).after 0 t = iblk7 V c 0 t := by dsimp only [datG7]
theorem after7_1 (c : Dev nD) (t : Fin cfg7.N) : (datG7 (Ix := Ix) (U := U) (Lvl := Lvl) V c).after 1 t = iblk7 V c 1 t := by dsimp only [datG7]
theorem after7_2 (c : Dev nD) (t : Fin cfg7.N) : (datG7 (Ix := Ix) (U := U) (Lvl := Lvl) V c).after 2 t = iblk7 V c 2 t := by dsimp only [datG7]
theorem after7_3 (c : Dev nD) (t : Fin cfg7.N) :
    (datG7 (Ix := Ix) (U := U) (Lvl := Lvl) V c).after 3 t = k7_pay3 (acc7 V c t.val t.isLt) (iblk7 V c 2 t) := by dsimp only [datG7]

end

end Cert.Kernel.Hand

end
-- ==== Proof.G7RunsK.lean ====
/-
  The gather kernel of layer 3 (pipeline 7): the body's three control cases on whole memrefs.

  Three control cases along the second grid axis j = t % 25: the first step (j = 0) resets the accumulator
  before adding into it; a middle step adds; the last step (j = 24) adds and then stores the accumulator,
  scaled row by row by the norm column, into the output block.
-/
import proofs.«104867_j4217657884863_1_alg».proof.Proof.G7DatK
import proofs.«104867_j4217657884863_1_alg».proof.Proof.Gen.Kernel.Points
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions, as functions of the grid point -/

/-- The first conditional's condition: the second coordinate is 0. -/
abbrev cond7_0 (i : grid7.Coords) : Prop :=
  (Scalar.cmpi .ne (Scalar.extui (Scalar.cmpi .eq (BitVec.ofNat 32 (i 1).val) 0#32)) 0#32) = 1#1
/-- The second conditional's condition: the second coordinate is 24. -/
abbrev cond7_1 (i : grid7.Coords) : Prop := k7_cond2 i = 1#1

theorem hz2_7 : (![0, 0] : Fin 2 → Nat) = fun _ => 0 := by funext a; fin_cases a <;> rfl

section Runs

variable (𝒱₀ : Variants)

set_option maxHeartbeats 1000000 in
/-- A middle step on whole memrefs: the accumulator's buffer at xs is left at one more step added to xs; the
    two blocks it reads are left as they were; the norm column's and the output's buffers are not touched. -/
theorem run7_B (c : Dev nD) (E : Set ℕ) (i : grid7.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond7_0 i) (hc1 : ¬cond7_1 i)
    (x0 : Vec F S2048x64 .f32) (x1 : Vec F S2048x1 .i32) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k7_pay2 i x1 x0 xs)) -∗ K ⟨⟩))
      ⊢ wp frame (wpE (defs₀ (F := F)) 𝒱₀ c none) E (cc7__gather_kernel i arg2 harg2 arg3 harg3 arg4 harg4 arg5 harg5 arg6 harg6) K := by
  simp only [cc7__gather_kernel_eq_skeleton]; unfold cc7__gather_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (fun y => ⟨_, List.Mem.head _, View.mem_set_unit_zero hz2_7 inb_S2048x64_S2048x64_0_0 y⟩), View.canon_unit_zero hz2_7]
  simp only [View.readAt_eq_ld, harg2.read_unread, harg3.read_unread, harg6.read_unread, View.ld_unit_zero (S := S2048x64) hz2_7, View.ld_unit_zero (S := S2048x1) hz2_7]

set_option maxHeartbeats 1000000 in
/-- The first step of a row on whole memrefs: the accumulator's buffer, at anything, is left at one step added
    to zero; the two blocks it reads are left as they were. -/
theorem run7_A (c : Dev nD) (E : Set ℕ) (i : grid7.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : cond7_0 i) (hc1 : ¬cond7_1 i)
    (x0 : Vec F S2048x64 .f32) (x1 : Vec F S2048x1 .i32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k7_pay2 i x1 x0 (k7_pay1 (F := F)))) -∗ K ⟨⟩))
      ⊢ wp frame (wpE (defs₀ (F := F)) 𝒱₀ c none) E (cc7__gather_kernel i arg2 harg2 arg3 harg3 arg4 harg4 arg5 harg5 arg6 harg6) K := by
  simp only [cc7__gather_kernel_eq_skeleton]; unfold cc7__gather_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [View.read_writes_eq_canon _ _ _ (fun y => ⟨_, List.Mem.head _, View.mem_set_unit_zero hz2_7 inb_S2048x64_S2048x64_0_0 y⟩), View.canon_cons_unit_zero hz2_7]
  simp only [View.readAt_eq_ld, harg2.read_unread, harg3.read_unread, View.ld_unit_zero (S := S2048x64) hz2_7, View.ld_unit_zero (S := S2048x1) hz2_7, View.readCov_unit_zero (S := S2048x64) _ hz2_7]

set_option maxHeartbeats 1000000 in
/-- The last step of a row on whole memrefs: the accumulator's buffer at xs is left at one more step added to
    xs, and the output's buffer, at anything, at that scaled row by row by the norm column; the three blocks it
    reads are left as they were. -/
theorem run7_C (c : Dev nD) (E : Set ℕ) (i : grid7.Coords)
    (arg2 : Memref sig .tc .vmem S2048x64 .f32) (harg2 : arg2.IsWhole) (arg3 : Memref sig .tc .vmem S2048x1 .i32) (harg3 : arg3.IsWhole)
    (arg4 : Memref sig .tc .vmem S2048x1 .f32) (harg4 : arg4.IsWhole) (arg5 : Memref sig .tc .vmem S2048x64 .f32) (harg5 : arg5.IsWhole)
    (arg6 : Memref sig .tc .vmem S2048x64 .f32) (harg6 : arg6.IsWhole) (hc0 : ¬cond7_0 i) (hc1 : cond7_1 i)
    (x0 : Vec F S2048x64 .f32) (x1 : Vec F S2048x1 .i32) (x2 : Vec F S2048x1 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k7_pay3 (k7_pay2 i x1 x0 xs) x2)
            ∗ owns (c : Thread nD τ) arg6 fullShare (k7_pay2 i x1 x0 xs)) -∗ K ⟨⟩))
      ⊢ wp frame (wpE (defs₀ (F := F)) 𝒱₀ c none) E (cc7__gather_kernel i arg2 harg2 arg3 harg3 arg4 harg4 arg5 harg5 arg6 harg6) K := by
  simp only [cc7__gather_kernel_eq_skeleton]; unfold cc7__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.Mem.head _, View.mem_set_unit_zero hz2_7 inb_S2048x64_S2048x64_0_0 y⟩), View.canon_unit_zero hz2_7]
    simp only [View.readAt_eq_ld, harg2.read_unread, harg3.read_unread, harg4.read_unread, harg6.read_unread, View.ld_unit_zero (S := S2048x64) hz2_7, View.ld_unit_zero (S := S2048x1) hz2_7, View.readCov_unit_zero (S := S2048x64) _ hz2_7]
  iexists _; isplitr
  swap; · iexact HS
  ipureintro
  sl_unfold_run_names
  rw [View.read_writes_eq_canon _ _ _ (fun y => ⟨_, List.Mem.head _, View.mem_set_unit_zero hz2_7 inb_S2048x64_S2048x64_0_0 y⟩), View.canon_unit_zero hz2_7]
  simp only [View.readAt_eq_ld, harg2.read_unread, harg3.read_unread, harg6.read_unread, View.ld_unit_zero (S := S2048x64) hz2_7, View.ld_unit_zero (S := S2048x1) hz2_7]

end Runs

end Cert.Kernel.Hand

end
-- ==== Proof.G7BodyK.lean ====
/-
  The gather kernel of layer 3 (pipeline 7): the body obligation at every grid point.

  Point t has second coordinate t % 25. The inputs' staging buffers hold their blocks wherever the body is
  called; the output's buffer is handed back untouched except at the last step of a row, where it is written
  whole; the accumulator's buffer goes from what the point before left to what this point leaves.
-/
import proofs.«104867_j4217657884863_1_alg».proof.Proof.G7RunsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

/-! ## The branch conditions over the grid, in closed form -/

theorem coords7_1 (t : Fin cfg7.N) : ((grid7.coords t) 1).val = t.val % 25 := by
  show t.val / grid7.stride 1 % 25 = t.val % 25
  rw [show grid7.stride 1 = 1 from by decide, Nat.div_one]

theorem cond7_0_iff (i : grid7.Coords) : cond7_0 i ↔ (i 1).val = 0 :=
  (by decide : ∀ j : Fin 25,
    ((Scalar.cmpi .ne (Scalar.extui (Scalar.cmpi .eq (BitVec.ofNat 32 j.val) 0#32)) 0#32) = 1#1) ↔ j.val = 0) (i 1)

theorem cond7_1_iff (i : grid7.Coords) : cond7_1 i ↔ (i 1).val = 24 :=
  (by decide : ∀ j : Fin 25,
    ((Scalar.cmpi .ne (Scalar.extui (Scalar.cmpi .eq (BitVec.ofNat 32 j.val) 24#32)) 0#32) = 1#1) ↔ j.val = 24) (i 1)

theorem hcond7_0 (t : Fin cfg7.N) : cond7_0 (grid7.coords t) ↔ t.val % 25 = 0 := by
  rw [cond7_0_iff, coords7_1]
theorem hcond7_1 (t : Fin cfg7.N) : cond7_1 (grid7.coords t) ↔ t.val % 25 = 24 := by
  rw [cond7_1_iff, coords7_1]

/-- The output window is idle exactly where the second conditional is not taken. -/
theorem idle7_3_of (i : grid7.Coords) (h : ¬cond7_1 i) : cfg7.idle 3 i = true := by
  show (!(k7_cond2 i == 1#1)) = true
  rw [Bool.not_eq_true', beq_eq_false_iff_ne]; exact h
theorem live7_3_of (i : grid7.Coords) (h : cond7_1 i) : cfg7.idle 3 i = false := by
  show (!(k7_cond2 i == 1#1)) = false
  rw [Bool.not_eq_false', beq_iff_eq]; exact h

section Body

variable (V : Dev nD → Valuation τ sig (Elt F)) (𝒱₀ : Variants) (ι : Ix)

local notation "dG" => datG7 (Ix := Ix) (U := U) (Lvl := Lvl) V

/-! ## The inputs' staging buffers hold their blocks wherever the body is called -/

theorem before7_0 (c : Dev nD) (t : Fin cfg7.N) (d) : (dG c).before 0 t d = iblk7 V c 0 t :=
  ((dG c).before_in_eq_fetched 0 rfl (fun _ => rfl) (fun _ _ _ => rfl)
      (fun t => by rw [after7_0]; unfold Dat.blockOf iblk7; rw [datG7_A]; try rfl) t d).trans
    (by unfold Dat.fetched Dat.blockOf iblk7; rw [datG7_A]; try rfl)
theorem before7_1 (c : Dev nD) (t : Fin cfg7.N) (d) : (dG c).before 1 t d = iblk7 V c 1 t :=
  ((dG c).before_in_eq_fetched 1 rfl (fun _ => rfl) (fun _ _ _ => rfl)
      (fun t => by rw [after7_1]; unfold Dat.blockOf iblk7; rw [datG7_A]; try rfl) t d).trans
    (by unfold Dat.fetched Dat.blockOf iblk7; rw [datG7_A]; try rfl)
theorem before7_2 (c : Dev nD) (t : Fin cfg7.N) (d) : (dG c).before 2 t d = iblk7 V c 2 t :=
  ((dG c).before_in_eq_fetched 2 rfl (fun _ => rfl) (fun _ _ _ => rfl)
      (fun t => by rw [after7_2]; unfold Dat.blockOf iblk7; rw [datG7_A]; try rfl) t d).trans
    (by unfold Dat.fetched Dat.blockOf iblk7; rw [datG7_A]; try rfl)

/-! ## The accumulator, case by case -/

theorem acc7_first (c : Dev nD) (t : Fin cfg7.N) (h0 : t.val % 25 = 0) :
    acc7 V c t.val t.isLt = k7_pay2 (grid7.coords t) (iblk7 V c 1 t) (iblk7 V c 0 t) (k7_pay1 (F := F)) := by
  obtain ⟨n, hn⟩ := t
  cases n with
  | zero => rfl
  | succ n => exact if_pos h0

theorem acc7_next (c : Dev nD) (t : Fin cfg7.N) (h0 : ¬t.val % 25 = 0) :
    acc7 V c t.val t.isLt = k7_pay2 (grid7.coords t) (iblk7 V c 1 t) (iblk7 V c 0 t)
      (acc7 V c (t.val - 1) (Nat.lt_of_le_of_lt (Nat.sub_le _ _) t.isLt)) := by
  obtain ⟨n, hn⟩ := t
  cases n with
  | zero => exact absurd (Nat.zero_mod _) h0
  | succ n => exact if_neg h0

/-! ## The invariant, position by position -/

theorem PhiG7_zero (c : Dev nD) (n : ℕ) (h : n ≤ cfg7.N) (hz : n = 0) :
    (PhiG7 V c n h : sProp 𝕄) = iprop(Pipeline.scopedRest spec7 c ∗ ∃ r, prngReg c r) := by
  subst hz; rfl

theorem PhiG7_succ (c : Dev nD) (n : ℕ) (hn : n < cfg7.N) :
    (PhiG7 V c (n + 1) hn : sProp 𝕄) = iprop(owns (c : Thread nD τ) scM7 fullShare (acc7 V c n hn)
      ∗ Pipeline.scopedRestBut spec7 c [cc7_scratch0] ∗ ∃ r, prngReg c r) := rfl

theorem PhiG7_pos (c : Dev nD) (n : ℕ) (h : n ≤ cfg7.N) (hz : n ≠ 0) :
    (PhiG7 V c n h : sProp 𝕄) = iprop(owns (c : Thread nD τ) scM7 fullShare (acc7 V c (n - 1) (by omega))
      ∗ Pipeline.scopedRestBut spec7 c [cc7_scratch0] ∗ ∃ r, prngReg c r) := by
  cases n with
  | zero => exact absurd rfl hz
  | succ n => rfl

theorem PhiG7_castSucc (c : Dev nD) (t : Fin cfg7.N) :
    (dG c).Φ t.castSucc = PhiG7 V c t.val (Nat.le_of_lt t.isLt) := by
  dsimp only [datG7]; simp only [Fin.coe_castSucc]

/-! ## The body obligation -/

abbrev ms7_0 (t : Fin cfg7.N) : Memref sig .tc .vmem S2048x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x1 .i32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x64 .f32 := win7_3.stage (cfg7.slots t 3)
abbrev hs7_3 (t : Fin cfg7.N) : (ms7_3 t).IsWhole := hstage7_3 ((cfg7.slots t 3).cast nbuf7_3)

/-- What the body is called with at point t, the windows one by one, -/
def bodyPre7 (c : Dev nD) (t : Fin cfg7.N) : sProp 𝕄 :=
  iprop((dG c).Φ t.castSucc ∗ (dG c).owesAt ι t.castSucc
    ∗ (∃ d, owns (c : Thread nD τ) (ms7_0 t) fullShare ((dG c).before 0 t d))
    ∗ (∃ d, owns (c : Thread nD τ) (ms7_1 t) fullShare ((dG c).before 1 t d))
    ∗ (∃ d, owns (c : Thread nD τ) (ms7_2 t) fullShare ((dG c).before 2 t d))
    ∗ (∃ d, owns (c : Thread nD τ) (ms7_3 t) fullShare ((dG c).before 3 t d)))

/-- and what it returns. -/
def bodyPost7 (c : Dev nD) (t : Fin cfg7.N) : sProp 𝕄 :=
  iprop((dG c).Φ t.succ ∗ (dG c).owesAt ι t.succ
    ∗ (dG c).leavesExact 0 t ∗ (dG c).leavesExact 1 t ∗ (dG c).leavesExact 2 t ∗ (dG c).leavesExact 3 t)

set_option maxHeartbeats 4000000 in
theorem sound_body7 (c : Dev nD) (t : Fin cfg7.N) :
    (bodyPre7 V ι c t : sProp 𝕄) ⊢ wp frame (wpE (defs₀ (F := F)) 𝒱₀ c none) Set.univ (bodyAt7 t) (fun _ => bodyPost7 V ι c t) := by
  unfold bodyPre7 bodyPost7 bodyAt7
  simp only [before7_0, before7_1, before7_2]
  rw [show (dG c).owesAt ι t.succ = (dG c).owesAt ι t.castSucc from rfl]
  rw [show (dG c).Φ t.succ = PhiG7 V c (t.val + 1) t.isLt from rfl, PhiG7_succ]
  rw [show (dG c).leavesExact 0 t = owns (c : Thread nD τ) (ms7_0 t) fullShare ((dG c).after 0 t) from rfl, after7_0]
  rw [show (dG c).leavesExact 1 t = owns (c : Thread nD τ) (ms7_1 t) fullShare ((dG c).after 1 t) from rfl, after7_1]
  rw [show (dG c).leavesExact 2 t = owns (c : Thread nD τ) (ms7_2 t) fullShare ((dG c).after 2 t) from rfl, after7_2]
  have hnf : ¬t.val % 25 = 24 → (cfg7.win 3).flush t = false := fun h1 =>
    Bool.eq_false_iff.mpr fun hf => h1 ((flush7_3 t).mp hf)
  by_cases h0 : t.val % 25 = 0
  · -- the first step of a row
    have h1 : ¬t.val % 25 = 24 := by omega
    have hc0 : cond7_0 (grid7.coords t) := (hcond7_0 t).mpr h0
    have hc1 : ¬cond7_1 (grid7.coords t) := fun h => h1 ((hcond7_1 t).mp h)
    rw [Dat.leavesExact_idle (dG c) 3 t (idle7_3_of _ hc1) (hnf h1)]
    rw [acc7_first V c t h0]
    by_cases hz : t.val = 0
    · rw [PhiG7_castSucc, PhiG7_zero V c _ _ hz, scopedRest7_split]
      iintro ⟨⟨⟨⟨%fs, HS⟩, Hrest⟩, Hg⟩, Ho, ⟨%d0, H0⟩, ⟨%d1, H1⟩, ⟨%d2, H2⟩, H3⟩
      iapply (run7_A 𝒱₀ c Set.univ (grid7.coords t) _ _ _ _ _ _ _ _ _ _ hc0 hc1 (iblk7 V c 0 t) (iblk7 V c 1 t) _)
      isplitl [H0]; · iexact H0
      isplitl [H1]; · iexact H1
      isplitl [HS]; · iexists fs; rw [owns_whole]; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · rw [PhiG7_castSucc, PhiG7_pos V c _ _ hz]
      iintro ⟨⟨HS, Hrest, Hg⟩, Ho, ⟨%d0, H0⟩, ⟨%d1, H1⟩, ⟨%d2, H2⟩, H3⟩
      iapply (run7_A 𝒱₀ c Set.univ (grid7.coords t) _ _ _ _ _ _ _ _ _ _ hc0 hc1 (iblk7 V c 0 t) (iblk7 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond7_0 (grid7.coords t) := fun h => h0 ((hcond7_0 t).mp h)
    rw [acc7_next V c t h0, PhiG7_castSucc, PhiG7_pos V c _ _ hz]
    by_cases h1 : t.val % 25 = 24
    · -- the last step of a row
      have hc1 : cond7_1 (grid7.coords t) := (hcond7_1 t).mpr h1
      rw [show (dG c).leavesExact 3 t = owns (c : Thread nD τ) (ms7_3 t) fullShare ((dG c).after 3 t) from by
        unfold Dat.leavesExact; rw [live7_3_of _ hc1], after7_3, acc7_next V c t h0]
      iintro ⟨⟨HS, Hrest, Hg⟩, Ho, ⟨%d0, H0⟩, ⟨%d1, H1⟩, ⟨%d2, H2⟩, ⟨%d3, H3⟩⟩
      iapply (run7_C 𝒱₀ c Set.univ (grid7.coords t) _ _ _ _ _ _ _ _ _ _ hc0 hc1 (iblk7 V c 0 t) (iblk7 V c 1 t) (iblk7 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3
    · -- a middle step
      have hc1 : ¬cond7_1 (grid7.coords t) := fun h => h1 ((hcond7_1 t).mp h)
      rw [Dat.leavesExact_idle (dG c) 3 t (idle7_3_of _ hc1) (hnf h1)]
      iintro ⟨⟨HS, Hrest, Hg⟩, Ho, ⟨%d0, H0⟩, ⟨%d1, H1⟩, ⟨%d2, H2⟩, H3⟩
      iapply (run7_B 𝒱₀ c Set.univ (grid7.coords t) _ _ _ _ _ _ _ _ _ _ hc0 hc1 (iblk7 V c 0 t) (iblk7 V c 1 t) _ _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      iexact H3

/-- The library's body obligation, at every point. -/
theorem body_obligation7 (c : Dev nD) : BodyObligation (dG c) (defs₀ (F := F)) 𝒱₀ ι Set.univ := fun t => by
  rw [bigSep_W7, bigSep_W7]
  exact sound_body7 V 𝒱₀ ι c t

theorem body_obligation7_loose (c : Dev nD) : BodyObligationLoose (dG c) (defs₀ (F := F)) 𝒱₀ ι Set.univ :=
  (body_obligation7 V 𝒱₀ ι c).loose

end Body

end Cert.Kernel.Hand

end
-- ==== Proof.G7RegionK.lean ====
/-
  The gather kernel of layer 3 (pipeline 7) as a region of the program.

  The region is entered from every unscoped buffer held at a valuation V beside a rest, and left at V updated
  at the output array, which then holds the pipeline's write-backs folded over the grid. The rest must supply the
  generator register and a core that owes nothing, and gets both back; whatever else it holds rides along.
-/
import proofs.«104867_j4217657884863_1_alg».proof.Proof.G7BodyK
import proofs.«104867_j4217657884863_1_alg».proof.Proof.DatsK
import proofs.«104867_j4217657884863_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]
variable {Ix : Type} [DecidableEq Ix] {U : Type} [URA U] {Lvl : Type} [Preorder Lvl]

local notation "𝕄" => MT nD τ sig Ix (Elt F) ℕ U Lvl

section Region

variable (V : Dev nD → Valuation τ sig (Elt F)) (𝒱₀ : Variants) (ι : Ix)
  (L : GSem nD τ sig → Finset Ix) (lv : GSem nD τ sig → Ix → Lvl)
  (d0 : (c : Dev nD) → Dat τ (Elt F) Ix ℕ U Lvl (cfgs 0) c)
  (d1 : (c : Dev nD) → Dat τ (Elt F) Ix ℕ U Lvl (cfgs 1) c)
  (d2 : (c : Dev nD) → Dat τ (Elt F) Ix ℕ U Lvl (cfgs 2) c)
  (d3 : (c : Dev nD) → Dat τ (Elt F) Ix ℕ U Lvl (cfgs 3) c)
  (d4 : (c : Dev nD) → Dat τ (Elt F) Ix ℕ U Lvl (cfgs 4) c)
  (d5 : (c : Dev nD) → Dat τ (Elt F) Ix ℕ U Lvl (cfgs 5) c)
  (d6 : (c : Dev nD) → Dat τ (Elt F) Ix ℕ U Lvl (cfgs 6) c)
  (d8 : (c : Dev nD) → Dat τ (Elt F) Ix ℕ U Lvl (cfgs 8) c)

local notation "dG" => datG7 (Ix := Ix) (U := U) (Lvl := Lvl) V
local notation "pd" => pdats d0 d1 d2 d3 d4 d5 d6 (datG7 V) d8

/-- What the region leaves in the unscoped buffers: the output array at the write-backs folded over the grid,
    every other buffer as found. -/
def VoutG7 (c : Dev nD) : Valuation τ sig (Elt F) :=
  Function.update (V c) (Proc.devRef .tc main_v64) ((dG c).arrAt 3 cfg7.N)

theorem hF7 (c : Dev nD) (w : Fin cfg7.W) :
    (dG c).arrAt w cfg7.N = VoutG7 (Ix := Ix) (U := U) (Lvl := Lvl) V c (Pipeline.arrRef spec7 w) := by
  unfold VoutG7
  match w with
  | ⟨0, _⟩ => exact ((dG c).arrAt_in 0 rfl _).trans ((datG7_A V c 0).trans
      (Function.update_of_ne (StableHlo.devRef_ne_of_ne (by decide)) _ _).symm)
  | ⟨1, _⟩ => exact ((dG c).arrAt_in 1 rfl _).trans ((datG7_A V c 1).trans
      (Function.update_of_ne (StableHlo.devRef_ne_of_ne (by decide)) _ _).symm)
  | ⟨2, _⟩ => exact ((dG c).arrAt_in 2 rfl _).trans ((datG7_A V c 2).trans
      (Function.update_of_ne (StableHlo.devRef_ne_of_ne (by decide)) _ _).symm)
  | ⟨3, _⟩ => exact (Function.update_self (Proc.devRef (τ := τ) .tc main_v64) _ (V c)).symm

theorem hrest7 (c : Dev nD) (b : Ref sig .tc) (hb : b ∉ Finset.univ.image (Pipeline.arrRef spec7)) :
    VoutG7 (Ix := Ix) (U := U) (Lvl := Lvl) V c b = V c b := by
  unfold VoutG7
  exact Function.update_of_ne (StableHlo.devRef_ne_of_ne fun e =>
    hb (Finset.mem_image.mpr ⟨3, Finset.mem_univ _, e.symm⟩)) _ _

set_option backward.isDefEq.respectTransparency.types false in
/-- The region's record: the launch's layout, no semaphore of the kernel's own, the body obligation, and the four
    entailments around the thread states. -/
def regionG7 (G E E' : Dev nD → sProp 𝕄)
    (hE : ∀ c, E c ⊢ iprop((∃ r, prngReg c r) ∗ (∃ W, owes (c : Thread nD τ) (0 : CellTallies nD τ sig Ix) W) ∗ G c))
    (hE' : ∀ c, iprop((∃ r, prngReg c r) ∗ (∃ W, owes (c : Thread nD τ) (0 : CellTallies nD τ sig Ix) W) ∗ G c) ⊢ E' c) :
    RegionSeg (pcfgs (F := F)) adm pd ι defs₀ 𝒱₀ L lv 7 where
  win := launch7.win.to₀
  block_pos := launch7.block_pos
  stage_whole := launch7.stage_whole
  K := PEmpty
  osem k := k.elim
  ho := Pipeline.OwnSemFacts.none _
  hbody c := body_obligation7_loose V 𝒱₀ ι c
  hwaits := Pipeline.hwaits_of_owed_zero _ _ _ _ L lv 7 fun _ _ => rfl
  pre c := iprop(StableHlo.held (c : Thread nD τ) (Pipeline.ucRefs τ sig) (V c) ∗ E c)
  post c := iprop(StableHlo.held (c : Thread nD τ) (Pipeline.ucRefs τ sig) (VoutG7 (Ix := Ix) (U := U) (Lvl := Lvl) V c) ∗ E' c)
  X c := iprop(∃ r, prngReg c r)
  Y c := iprop(∃ r, prngReg c r)
  Z c := iprop(Pipeline.unscopedRest spec7 c (fun b => V c b) ∗ G c)
  hentry c := by
    rw [Pipeline.ownSems0_none]
    have hsplit := Pipeline.arrays_of_unscopedBufs (p := 7) (pcfgs (F := F)) adm pd launch7.win launch7.arr_whole c
      ((pd 7 c).share_full fun _ => rfl) (fun b => V c b) fun _ => rfl
    rw [Pipeline.unscopedBufs_held] at hsplit
    iintro ⟨⟨Hub, HE⟩, -, -⟩
    ihave H := hsplit $$ Hub
    icases H with ⟨Ha, Hrest⟩
    ihave HE' := (hE c) $$ HE
    icases HE' with ⟨Hp, HO, HG⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pd 7 c).Φ 0 = PhiG7 V c 0 (Nat.zero_le _) from rfl, PhiG7_zero V c 0 _ rfl]
    iintro ⟨Hp, -, Hr⟩
    isplitl [Hr]; · iexact Hr
    iexact Hp
  hout c := by
    rw [Pipeline.ownSems0_none, show (pd 7 c).Φ (Fin.last _) = PhiG7 V c cfg7.N (Nat.le_refl _) from rfl,
      PhiG7_pos V c _ _ (by have : cfg7.N = 9775 := N_7; omega)]
    show _ ⊢ iprop(_ ∗ _ ∗ Pipeline.scopedRest spec7 c)
    rw [scopedRest7_split]
    iintro ⟨HS, Hrest, Hp⟩
    isplitl [Hp]; · iexact Hp
    isplitr; · iempintro
    isplitl [HS]
    · iexists _; rw [← owns_whole]; iexact HS
    iexact Hrest
  hexit c := by
    have hjoin := Pipeline.unscopedBufs_of_arrays (p := 7) (pcfgs (F := F)) adm (Ix := Ix) (Name := ℕ) (U := U) (Lvl := Lvl)
      launch7.win launch7.arr_whole c pd ((pd 7 c).share_full fun _ => rfl)
      (fun b => V c b) (fun b => VoutG7 (Ix := Ix) (U := U) (Lvl := Lvl) V c b) ((pd 7 c).arrAt · cfg7.N) (hF7 V c) (hrest7 V c)
    rw [Pipeline.unscopedBufs_held] at hjoin
    iintro ⟨Ha, HO, HY, Hrest, HG⟩
    imodintro
    isplitl [Ha Hrest]
    · iapply hjoin; isplitl [Ha] <;> iassumption
    iapply (hE' c)
    isplitl [HY]; · iexact HY
    isplitl [HO]
    · unfold Pipeline.Dat.owesAt Pipeline.owesWithin
      icases HO with ⟨%W, -, HO⟩; iexists W; iexact HO
    iexact HG

end Region

end Cert.Kernel.Hand

end
-- ==== Proof.Scat2PtsK.lean ====
import proofs.«104867_j4217657884863_1_alg».proof.Proof.Gen.Kernel.Launch
import proofs.«104867_j4217657884863_1_alg».proof.Proof.Gen.Kernel.Skeleton
import proofs.«104867_j4217657884863_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type}

local notation "𝕄" => MT nD τ sig Ix (Elt F) ℕ U Lvl

/-! # Scatter kernel, pipeline 2: the grid's control cases and the windows' blocks

The grid is 25 × 391, the second axis the fast one: point `t` has second coordinate `t % 391`. The body zeroes its
accumulator when that coordinate is 0 and stores the accumulator into the output block when it is 390. -/

/-- The condition of the body's first branch (the accumulator is zeroed): the second grid coordinate is 0. -/
abbrev cond2_0 (i : grid2.Coords) : Prop :=
  (Scalar.cmpi .ne (Scalar.extui (Scalar.cmpi .eq (BitVec.ofNat 32 (i 1).val) 0#32)) 0#32) = 1#1
/-- It holds exactly at the points ≡ 0 (mod 391). -/
theorem hcond2_0 : ∀ t : Fin cfg2.N, cond2_0 (grid2.coords t) ↔ t.val % 391 = 0 :=
  (by decide +kernel : ∀ t : Fin grid2.N, cond2_0 (grid2.coords t) ↔ t.val % 391 = 0)

/-- The condition of the body's second branch (the output block is stored): the second grid coordinate is 390. -/
abbrev cond2_1 (i : grid2.Coords) : Prop := k2_cond2 i = 1#1
/-- It holds exactly at the points ≡ 390 (mod 391). -/
theorem hcond2_1 : ∀ t : Fin cfg2.N, cond2_1 (grid2.coords t) ↔ t.val % 391 = 390 :=
  (by decide +kernel : ∀ t : Fin grid2.N, cond2_1 (grid2.coords t) ↔ t.val % 391 = 390)

/-- The two input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Away from the last step of a row the output window is idle and is not written back; at the last step it is live. -/
theorem idleAt2_2 : ∀ t : Fin cfg2.N, ¬cond2_1 (grid2.coords t) → cfg2.idle 2 (grid2.coords t) = true :=
  (by decide +kernel : ∀ t : Fin grid2.N, ¬cond2_1 (grid2.coords t) → cfg2.idle 2 (grid2.coords t) = true)
theorem noFlush2_2 : ∀ t : Fin cfg2.N, ¬cond2_1 (grid2.coords t) → (cfg2.win 2).flush t = false :=
  (by decide +kernel : ∀ t : Fin grid2.N, ¬cond2_1 (grid2.coords t) → win2_2.flush t = false)
theorem liveAt2_2 : ∀ t : Fin cfg2.N, cond2_1 (grid2.coords t) → cfg2.idle 2 (grid2.coords t) = false :=
  (by decide +kernel : ∀ t : Fin grid2.N, cond2_1 (grid2.coords t) → cfg2.idle 2 (grid2.coords t) = false)

/-- Each window's current staging memref at point `t`, and its wholeness. -/
abbrev ms2_0 (t : Fin cfg2.N) : Memref sig .tc .vmem S2048x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev scM2_0 : Memref sig .tc .vmem S2048x64 .f32 := Memref.whole cc2_scratch0
/-- The views through which the accumulator's and the output block's contents are stated. -/
abbrev VS2_0 : View sig .tc .vmem S2048x64 .f32 := scM2_0.view
abbrev VO2_2 : View sig .tc .vmem S2048x64 .f32 := (Memref.whole cc2_stg2_0 : Memref sig .tc .vmem S2048x64 .f32).view

section Blocks

variable (V : Dev nD → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    region-entry one and whose body leaves the block in place. -/
theorem before2_0_of {c : Dev nD} (dat : Dat τ (Elt F) Ix ℕ U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix ℕ U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.Kernel.Hand

end
-- ==== Proof.Scat2RunAK.lean ====
import proofs.«104867_j4217657884863_1_alg».proof.Proof.Scat2PtsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the FIRST step of a row (first branch taken, second not): the accumulator, found at anything, is
    zeroed and then receives this step's contribution; the output block is not touched. The pieces the accumulator ends
    with are the witness the run finds. -/
noncomputable def kernelRun2_A (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x64 .f32) (x1 : Vec F S1x2048 .i32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc2__scatter_kernel i arg2 harg2 arg3 harg3 arg4 harg4 arg5 harg5) K } := by
  refine ⟨?_, fun 𝒱₀ d2 E K => ?run⟩
  case run =>
    simp only [cc2__scatter_kernel_eq_skeleton]; unfold cc2__scatter_kernel_skel
    unfold owns
    iintro ⟨⟨%f0, %hf0, H0⟩, ⟨%f1, %hf1, H1⟩, H2, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.Kernel.Hand

end
-- ==== Proof.Scat2RunBK.lean ====
import proofs.«104867_j4217657884863_1_alg».proof.Proof.Scat2RunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at a MIDDLE step of a row (neither branch taken): the accumulator, found at what the step before
    left, receives this step's contribution; the output block is not touched. -/
noncomputable def kernelRun2_B (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x64 .f32) (x1 : Vec F S1x2048 .i32) (xs0 : Vec F S2048x64 .f32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs0
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc2__scatter_kernel i arg2 harg2 arg3 harg3 arg4 harg4 arg5 harg5) K } := by
  refine ⟨?_, fun 𝒱₀ d2 E K => ?run⟩
  case run =>
    simp only [cc2__scatter_kernel_eq_skeleton]; unfold cc2__scatter_kernel_skel
    unfold owns
    iintro ⟨⟨%f0, %hf0, H0⟩, ⟨%f1, %hf1, H1⟩, H2, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.Kernel.Hand

end
-- ==== Proof.Scat2RunCK.lean ====
import proofs.«104867_j4217657884863_1_alg».proof.Proof.Scat2RunBK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the LAST step of a row (first branch not taken, second taken): the accumulator, found at what the
    step before left, receives this step's contribution and is then stored into the output block, found at anything. -/
noncomputable def kernelRun2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) :
    Σ' (L2 : List (View.Piece (Elt F) S2048x64 .f32)), { LS0 : List (View.Piece (Elt F) S2048x64 .f32) //
      ∀ (𝒱₀ : Variants) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) 𝒱₀ c none) E (cc2__scatter_kernel i arg2 harg2 arg3 harg3 arg4 harg4 arg5 harg5) K } := by
  refine ⟨?_, ?_, fun 𝒱₀ E K => ?run⟩
  case run =>
    simp only [cc2__scatter_kernel_eq_skeleton]; unfold cc2__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Scat2DatK.lean ====
import proofs.«104867_j4217657884863_1_alg».proof.Proof.Scat2RunCK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2: the accumulation and the proof data -/

section Data

variable (V : Dev nD → Valuation τ sig (Elt F))

/-! ## What each case leaves, read back -/

/-- The first step's pieces tile the accumulator, -/
theorem scover2_A (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x64 .f32) (x1 : Vec F S1x2048 .i32) (y : S2048x64.Idx) :
    ∃ pc ∈ (kernelRun2_A (Ix := Ix) (U := U) (Lvl := Lvl) c i arg2 harg2 arg3 harg3 arg4 harg4 arg5 harg5 hc0 hc1 x0 x1).1, y ∈ pc.1.set :=
  View.cover_of_tiledL (kernelRun2_A (Ix := Ix) (U := U) (Lvl := Lvl) c i arg2 harg2 arg3 harg3 arg4 harg4 arg5 harg5 hc0 hc1 x0 x1).1 S2048x64.size (by sl_kernel_rfl) y
/-- and this is what they leave in it. -/
def sout2_A (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x64 .f32) (x1 : Vec F S1x2048 .i32) : Vec F S2048x64 .f32 :=
  VS2_0.read (Elt F) (VS2_0.writes (Elt F) VS2_0.junk (kernelRun2_A (Ix := Ix) (U := U) (Lvl := Lvl) c i arg2 harg2 arg3 harg3 arg4 harg4 arg5 harg5 hc0 hc1 x0 x1).1)

/-- A middle step's pieces tile the accumulator, -/
theorem scover2_B (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x64 .f32) (x1 : Vec F S1x2048 .i32) (xs0 : Vec F S2048x64 .f32) (y : S2048x64.Idx) :
    ∃ pc ∈ (kernelRun2_B (Ix := Ix) (U := U) (Lvl := Lvl) c i arg2 harg2 arg3 harg3 arg4 harg4 arg5 harg5 hc0 hc1 x0 x1 xs0).1, y ∈ pc.1.set :=
  View.cover_of_tiledL (kernelRun2_B (Ix := Ix) (U := U) (Lvl := Lvl) c i arg2 harg2 arg3 harg3 arg4 harg4 arg5 harg5 hc0 hc1 x0 x1 xs0).1 S2048x64.size (by sl_kernel_rfl) y
/-- and this is what they leave in it. -/
def sout2_B (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x64 .f32) (x1 : Vec F S1x2048 .i32) (xs0 : Vec F S2048x64 .f32) : Vec F S2048x64 .f32 :=
  VS2_0.read (Elt F) (VS2_0.writes (Elt F) VS2_0.junk (kernelRun2_B (Ix := Ix) (U := U) (Lvl := Lvl) c i arg2 harg2 arg3 harg3 arg4 harg4 arg5 harg5 hc0 hc1 x0 x1 xs0).1)

/-- The last step's pieces tile the accumulator and the output block, -/
theorem scover2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) (y : S2048x64.Idx) :
    ∃ pc ∈ (kernelRun2_C (Ix := Ix) (U := U) (Lvl := Lvl) c i arg2 harg2 arg3 harg3 arg4 harg4 arg5 harg5 hc0 hc1 x0 x1 xs0).2.1, y ∈ pc.1.set :=
  View.cover_of_tiledL (kernelRun2_C (Ix := Ix) (U := U) (Lvl := Lvl) c i arg2 harg2 arg3 harg3 arg4 harg4 arg5 harg5 hc0 hc1 x0 x1 xs0).2.1 S2048x64.size (by sl_kernel_rfl) y
theorem cover2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) (y : S2048x64.Idx) :
    ∃ pc ∈ (kernelRun2_C (Ix := Ix) (U := U) (Lvl := Lvl) c i arg2 harg2 arg3 harg3 arg4 harg4 arg5 harg5 hc0 hc1 x0 x1 xs0).1, y ∈ pc.1.set :=
  View.cover_of_tiledL (kernelRun2_C (Ix := Ix) (U := U) (Lvl := Lvl) c i arg2 harg2 arg3 harg3 arg4 harg4 arg5 harg5 hc0 hc1 x0 x1 xs0).1 S2048x64.size (by sl_kernel_rfl) y
/-- and this is what they leave in each. -/
def sout2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) : Vec F S2048x64 .f32 :=
  VS2_0.read (Elt F) (VS2_0.writes (Elt F) VS2_0.junk (kernelRun2_C (Ix := Ix) (U := U) (Lvl := Lvl) c i arg2 harg2 arg3 harg3 arg4 harg4 arg5 harg5 hc0 hc1 x0 x1 xs0).2.1)
def out2_C (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) : Vec F S2048x64 .f32 :=
  VO2_2.read (Elt F) (VO2_2.writes (Elt F) VO2_2.junk (kernelRun2_C (Ix := Ix) (U := U) (Lvl := Lvl) c i arg2 harg2 arg3 harg3 arg4 harg4 arg5 harg5 hc0 hc1 x0 x1 xs0).1)

/-! ## The accumulation -/

/-- THE ACCUMULATOR after the body at position `n`, by recursion on the position: at the first step of a row the
    first-step contents (they do not depend on what came before); at any other step that step's contents over what the
    position before left. -/
def accAt2 (c : Dev nD) : (n : ℕ) → n < cfg2.N → Vec F S2048x64 .f32
  | 0, hn => sout2_A (Ix := Ix) (U := U) (Lvl := Lvl) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩)
  | n + 1, hn =>
    if h0 : (n + 1) % 391 = 0 then
      if h1 : (n + 1) % 391 = 390 then
        False.elim (by omega)
      else
        sout2_A (Ix := Ix) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩)
    else
      if h1 : (n + 1) % 391 = 390 then
        sout2_C (Ix := Ix) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (accAt2 c n (Nat.lt_of_succ_lt hn))
      else
        sout2_B (Ix := Ix) (U := U) (Lvl := Lvl) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (accAt2 c n (Nat.lt_of_succ_lt hn))

/-- The accumulator at a first step, -/
theorem accAt2_A (c : Dev nD) (t : Fin cfg2.N) (h0 : t.val % 391 = 0) (h1 : ¬t.val % 391 = 390) :
    accAt2 (Ix := Ix) (U := U) (Lvl := Lvl) V c t.val t.isLt = sout2_A (Ix := Ix) (U := U) (Lvl := Lvl) c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t) := by
  obtain ⟨n, hn⟩ := t
  cases n with
  | zero => exact rfl
  | succ n => exact (dif_pos h0).trans ((dif_neg h1).trans rfl)
/-- at a middle step, -/
theorem accAt2_B (c : Dev nD) (t : Fin cfg2.N) (h0 : ¬t.val % 391 = 0) (h1 : ¬t.val % 391 = 390) :
    accAt2 (Ix := Ix) (U := U) (Lvl := Lvl) V c t.val t.isLt = sout2_B (Ix := Ix) (U := U) (Lvl := Lvl) c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (accAt2 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem accAt2_C (c : Dev nD) (t : Fin cfg2.N) (h0 : ¬t.val % 391 = 0) (h1 : t.val % 391 = 390) :
    accAt2 (Ix := Ix) (U := U) (Lvl := Lvl) V c t.val t.isLt = sout2_C (Ix := Ix) (U := U) (Lvl := Lvl) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (accAt2 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last step the block that step
    stores; elsewhere the window is idle and the value is not consulted (the accumulator stands in). -/
def outAt2 (c : Dev nD) (t : Fin cfg2.N) : Vec F S2048x64 .f32 :=
  if h1 : t.val % 391 = 390 then
    if h0 : t.val % 391 = 0 then accAt2 (Ix := Ix) (U := U) (Lvl := Lvl) V c t.val t.isLt
    else out2_C (Ix := Ix) (U := U) (Lvl := Lvl) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (accAt2 (Ix := Ix) (U := U) (Lvl := Lvl) V c (t.val - 1) (Nat.lt_of_le_of_lt (Nat.sub_le _ _) t.isLt))
  else accAt2 (Ix := Ix) (U := U) (Lvl := Lvl) V c t.val t.isLt

theorem outAt2_C (c : Dev nD) (t : Fin cfg2.N) (h0 : ¬t.val % 391 = 0) (h1 : t.val % 391 = 390) :
    outAt2 (Ix := Ix) (U := U) (Lvl := Lvl) V c t = out2_C (Ix := Ix) (U := U) (Lvl := Lvl) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (accAt2 (Ix := Ix) (U := U) (Lvl := Lvl) V c (t.val - 1) (Nat.lt_of_le_of_lt (Nat.sub_le _ _) t.isLt)) :=
  (dif_pos h1).trans (dif_neg h0)

/-! ## The invariant -/

/-- The kernel's scratch and every other scoped buffer no window stages, each at anything, beside the generator
    register at some state: what the region hands the first point. -/
def PhiZ2 (c : Dev nD) : sProp 𝕄 :=
  iprop(Pipeline.scopedRest (Ix := Ix) (Name := ℕ) (U := U) (Lvl := Lvl) (Val := Elt F) spec2 c ∗ ∃ r, prngReg c r)

/-- The invariant before position `n`: before the first point `PhiZ`; afterwards the accumulator whole at what the
    position before left, the other scoped buffers at anything, the generator register at some state. -/
def PhiS2 (c : Dev nD) : (n : ℕ) → n ≤ cfg2.N → sProp 𝕄
  | 0, _ => PhiZ2 c
  | n + 1, hn => iprop(owns (c : Thread nD τ) scM2_0 fullShare (accAt2 (Ix := Ix) (U := U) (Lvl := Lvl) V c n hn)
      ∗ Pipeline.scopedRestBut (Ix := Ix) (Name := ℕ) (U := U) (Lvl := Lvl) (Val := Elt F) spec2 c [cc2_scratch0] ∗ ∃ r, prngReg c r)

theorem PhiS2_zero (c : Dev nD) (n : ℕ) (h : n ≤ cfg2.N) (hz : n = 0) : PhiS2 (Ix := Ix) (U := U) (Lvl := Lvl) V c n h = PhiZ2 c := by
  subst hz; rfl
theorem PhiS2_succ (c : Dev nD) (n : ℕ) (hn : n < cfg2.N) :
    PhiS2 (Ix := Ix) (U := U) (Lvl := Lvl) V c (n + 1) hn = iprop(owns (c : Thread nD τ) scM2_0 fullShare (accAt2 (Ix := Ix) (U := U) (Lvl := Lvl) V c n hn)
      ∗ Pipeline.scopedRestBut (Ix := Ix) (Name := ℕ) (U := U) (Lvl := Lvl) (Val := Elt F) spec2 c [cc2_scratch0] ∗ ∃ r, prngReg c r) := rfl
theorem PhiS2_pos (c : Dev nD) (n : ℕ) (h : n ≤ cfg2.N) (hz : n ≠ 0) :
    PhiS2 (Ix := Ix) (U := U) (Lvl := Lvl) V c n h = iprop(owns (c : Thread nD τ) scM2_0 fullShare (accAt2 (Ix := Ix) (U := U) (Lvl := Lvl) V c (n - 1) (by omega))
      ∗ Pipeline.scopedRestBut (Ix := Ix) (Name := ℕ) (U := U) (Lvl := Lvl) (Val := Elt F) spec2 c [cc2_scratch0] ∗ ∃ r, prngReg c r) := by
  cases n with
  | zero => exact absurd rfl hz
  | succ n => rfl

/-- `PhiZ` with the accumulator split out of the scoped rest, owned at some contents. -/
theorem PhiZ2_eq (c : Dev nD) :
    (PhiZ2 c : sProp 𝕄)
      = iprop(((∃ d, owns (c : Thread nD τ) scM2_0 fullShare d)
          ∗ Pipeline.scopedRestBut (Ix := Ix) (Name := ℕ) (U := U) (Lvl := Lvl) (Val := Elt F) spec2 c [cc2_scratch0]) ∗ ∃ r, prngReg c r) := by
  unfold PhiZ2; rw [scopedRest2_split]; simp only [scM2_0, owns_whole]; try rfl

/-- After any point the invariant gives `PhiZ` back: the accumulator's named contents are forgotten. -/
theorem PhiS2_out (c : Dev nD) (n : ℕ) (h : n ≤ cfg2.N) (hz : n ≠ 0) :
    PhiS2 (Ix := Ix) (U := U) (Lvl := Lvl) V c n h ⊢ PhiZ2 c := by
  rw [PhiS2_pos V c _ _ hz, PhiZ2_eq]
  iintro ⟨HS0, HR, Hg⟩
  isplitl [HS0 HR]
  · isplitl [HS0]
    · iexists _; iexact HS0
    iexact HR
  iexact Hg

/-! ## The proof data -/

/-- The proof data of pipeline 2 on core `c`: the arrays as the region finds them; after the body each input's buffer
    at its block and the output's at `outAt`; the invariant `PhiS`; nothing owed; full shares. -/
def datS2 (c : Dev nD) : Dat τ (Elt F) Ix ℕ U Lvl cfg2 c where
  A w := V c (Pipeline.arrRef spec2 w)
  after w t := match w with
    | ⟨0, _⟩ => iblk2 V c 0 t
    | ⟨1, _⟩ => iblk2 V c 1 t
    | ⟨2, _⟩ => outAt2 (Ix := Ix) (U := U) (Lvl := Lvl) V c t
  Φ t := PhiS2 V c t.val (Nat.le_of_lt_succ t.isLt)
  q _ := fullShare
  owed _ := 0

theorem A_eq2 (c : Dev nD) (w : Fin cfg2.W) : (datS2 (Ix := Ix) (U := U) (Lvl := Lvl) V c).A w = V c (Pipeline.arrRef spec2 w) := by
  dsimp only [datS2]
theorem PhiS2_castSucc (c : Dev nD) (t : Fin cfg2.N) :
    (datS2 (Ix := Ix) (U := U) (Lvl := Lvl) V c).Φ t.castSucc = PhiS2 V c t.val (Nat.le_of_lt t.isLt) := by
  dsimp only [datS2]; simp only [Fin.coe_castSucc]
theorem after2_0 (c : Dev nD) (t : Fin cfg2.N) : (datS2 (Ix := Ix) (U := U) (Lvl := Lvl) V c).after 0 t = iblk2 V c 0 t := by dsimp only [datS2]
theorem after2_1 (c : Dev nD) (t : Fin cfg2.N) : (datS2 (Ix := Ix) (U := U) (Lvl := Lvl) V c).after 1 t = iblk2 V c 1 t := by dsimp only [datS2]
theorem after2_2 (c : Dev nD) (t : Fin cfg2.N) : (datS2 (Ix := Ix) (U := U) (Lvl := Lvl) V c).after 2 t = outAt2 (Ix := Ix) (U := U) (Lvl := Lvl) V c t := by dsimp only [datS2]
theorem before2_0 (c : Dev nD) (t : Fin cfg2.N) (d) : (datS2 (Ix := Ix) (U := U) (Lvl := Lvl) V c).before 0 t d = iblk2 V c 0 t :=
  before2_0_of V (datS2 V c) (A_eq2 V c 0) (after2_0 V c) t d
theorem before2_1 (c : Dev nD) (t : Fin cfg2.N) (d) : (datS2 (Ix := Ix) (U := U) (Lvl := Lvl) V c).before 1 t d = iblk2 V c 1 t :=
  before2_1_of V (datS2 V c) (A_eq2 V c 1) (after2_1 V c) t d

end Data

end Cert.Kernel.Hand

end
-- ==== Proof.Scat2BodyK.lean ====
import proofs.«104867_j4217657884863_1_alg».proof.Proof.Scat2DatK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2: the body obligation -/

section Body

variable (𝒱₀ : Variants) (ι : Ix) (V : Dev nD → Valuation τ sig (Elt F))

/-- What the body is called with at point `t`, the windows one by one, -/
def bodyPre2 (c : Dev nD) (t : Fin cfg2.N) : sProp 𝕄 :=
  iprop((datS2 (Ix := Ix) (U := U) (Lvl := Lvl) V c).Φ t.castSucc ∗ (datS2 (Ix := Ix) (U := U) (Lvl := Lvl) V c).owesAt ι t.castSucc
    ∗ (∃ d, owns (c : Thread nD τ) (ms2_0 t) fullShare ((datS2 (Ix := Ix) (U := U) (Lvl := Lvl) V c).before 0 t d))
    ∗ (∃ d, owns (c : Thread nD τ) (ms2_1 t) fullShare ((datS2 (Ix := Ix) (U := U) (Lvl := Lvl) V c).before 1 t d))
    ∗ (∃ d, owns (c : Thread nD τ) (ms2_2 t) fullShare ((datS2 (Ix := Ix) (U := U) (Lvl := Lvl) V c).before 2 t d)))

/-- and what it returns. -/
def bodyPost2 (c : Dev nD) (t : Fin cfg2.N) : sProp 𝕄 :=
  iprop((datS2 (Ix := Ix) (U := U) (Lvl := Lvl) V c).Φ t.succ ∗ (datS2 (Ix := Ix) (U := U) (Lvl := Lvl) V c).owesAt ι t.succ
    ∗ (datS2 (Ix := Ix) (U := U) (Lvl := Lvl) V c).leavesExact 0 t
    ∗ (datS2 (Ix := Ix) (U := U) (Lvl := Lvl) V c).leavesExact 1 t
    ∗ (datS2 (Ix := Ix) (U := U) (Lvl := Lvl) V c).leavesExact 2 t)

set_option maxHeartbeats 4800000 in
/-- The body at any point. The inputs' buffers hold their blocks; the point's position in its row says which case it
    is in; the invariant hands the body the accumulator at what the position before left (at anything before the first
    point) and takes it back at this position's contents; away from a row's last step the output's buffer is handed
    back as found, at the last step it holds the stored block; the core owes nothing throughout. -/
theorem sound_body2 (c : Dev nD) (t : Fin cfg2.N) :
    bodyPre2 (F := F) (U := U) (Lvl := Lvl) ι V c t ⊢ wp frame (wpE (defs₀ (F := F)) 𝒱₀ c none) Set.univ (bodyAt2 t) (fun _ => bodyPost2 (F := F) (U := U) (Lvl := Lvl) ι V c t) := by
  unfold bodyPre2 bodyPost2 bodyAt2
  simp only [before2_0, before2_1]
  rw [show (datS2 (Ix := Ix) (U := U) (Lvl := Lvl) V c).owesAt ι t.succ = (datS2 (Ix := Ix) (U := U) (Lvl := Lvl) V c).owesAt ι t.castSucc from rfl]
  rw [show (datS2 (Ix := Ix) (U := U) (Lvl := Lvl) V c).Φ t.succ = PhiS2 V c (t.val + 1) t.isLt from rfl, PhiS2_succ]
  rw [show (datS2 (Ix := Ix) (U := U) (Lvl := Lvl) V c).leavesExact 0 t = owns (c : Thread nD τ) (ms2_0 t) fullShare ((datS2 (Ix := Ix) (U := U) (Lvl := Lvl) V c).after 0 t) from by
    unfold Dat.leavesExact; rw [liveAt2_0 t], after2_0]
  rw [show (datS2 (Ix := Ix) (U := U) (Lvl := Lvl) V c).leavesExact 1 t = owns (c : Thread nD τ) (ms2_1 t) fullShare ((datS2 (Ix := Ix) (U := U) (Lvl := Lvl) V c).after 1 t) from by
    unfold Dat.leavesExact; rw [liveAt2_1 t], after2_1]
  have hN : t.val < 9775 := lt_of_lt_of_eq t.isLt (show cfg2.N = 9775 from N_2)
  by_cases h0 : t.val % 391 = 0
  · have h1 : ¬t.val % 391 = 390 := by omega
    rw [Dat.leavesExact_idle (datS2 (Ix := Ix) (U := U) (Lvl := Lvl) V c) 2 t (idleAt2_2 t (fun h => h1 ((hcond2_1 t).mp h))) (noFlush2_2 t (fun h => h1 ((hcond2_1 t).mp h)))]
    rw [accAt2_A V c t h0 h1]
    unfold sout2_A; (try dsimp only)
    by_cases hz : t.val = 0
    · rw [PhiS2_castSucc V c t, PhiS2_zero V c _ _ hz, PhiZ2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover2_A c _ _ _ _ _ _ _ _ _ _ _ _ _)
        isplitl [HR]; · iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨HS0, HR, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 𝒱₀ _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover2_A c _ _ _ _ _ _ _ _ _ _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 391 = 390
    · rw [show (datS2 (Ix := Ix) (U := U) (Lvl := Lvl) V c).leavesExact 2 t = owns (c : Thread nD τ) (ms2_2 t) fullShare ((datS2 (Ix := Ix) (U := U) (Lvl := Lvl) V c).after 2 t) from by
        unfold Dat.leavesExact; rw [liveAt2_2 t ((hcond2_1 t).mpr h1)], after2_2]
      rw [outAt2_C V c t h0 h1, accAt2_C V c t h0 h1]
      unfold out2_C sout2_C; (try dsimp only)
      rw [PhiS2_castSucc V c t, PhiS2_pos V c _ _ hz]
      iintro ⟨⟨HS0, HR, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 𝒱₀ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover2_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (datS2 (Ix := Ix) (U := U) (Lvl := Lvl) V c) 2 t (idleAt2_2 t (fun h => h1 ((hcond2_1 t).mp h))) (noFlush2_2 t (fun h => h1 ((hcond2_1 t).mp h)))]
      rw [accAt2_B V c t h0 h1]
      unfold sout2_B; (try dsimp only)
      rw [PhiS2_castSucc V c t, PhiS2_pos V c _ _ hz]
      iintro ⟨⟨HS0, HR, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover2_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (datS2 (Ix := Ix) (U := U) (Lvl := Lvl) V c) (defs₀ (F := F)) 𝒱₀ ι Set.univ := fun t => by
  rw [bigSep_W2, bigSep_W2]
  exact sound_body2 𝒱₀ ι V c t

/-- The same in the form the region rule takes. -/
theorem body_obligation_loose2 (c : Dev nD) : BodyObligationLoose (datS2 (Ix := Ix) (U := U) (Lvl := Lvl) V c) (defs₀ (F := F)) 𝒱₀ ι Set.univ :=
  (body_obligation2 𝒱₀ ι V c).loose

end Body

end Cert.Kernel.Hand

end
-- ==== Proof.Scat2RegionK.lean ====
import proofs.«104867_j4217657884863_1_alg».proof.Proof.Scat2BodyK
import proofs.«104867_j4217657884863_1_alg».proof.Proof.Gen.Kernel.Regions
import proofs.«104867_j4217657884863_1_alg».proof.Proof.DatsK
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2: the region record -/

/-- The unscoped buffers when the region is left: the output array at what the write-backs leave, every other buffer
    as the region found it. -/
def Vout2 (V : Dev nD → Valuation τ sig (Elt F)) (c : Dev nD) : Valuation τ sig (Elt F) :=
  Function.update (V c) main_v43 ((datS2 (Ix := Ix) (U := U) (Lvl := Lvl) V c).arrAt 2 cfg2.N)

section Exit
variable (V : Dev nD → Valuation τ sig (Elt F))

/-- Each of the pipeline's arrays holds at exit what the write-backs leave: the two inputs are never written, -/
theorem hF2_0 (c : Dev nD) : (datS2 (Ix := Ix) (U := U) (Lvl := Lvl) V c).arrAt 0 cfg2.N = Vout2 (Ix := Ix) (U := U) (Lvl := Lvl) V c (Proc.devRef .tc (Pipeline.arrRef spec2 0)) :=
  (((datS2 (Ix := Ix) (U := U) (Lvl := Lvl) V c).arrAt_in 0 rfl _).trans (A_eq2 V c 0)).trans
    (Function.update_of_ne (StableHlo.devRef_ne_of_ne (by decide) : (Proc.devRef .tc (Pipeline.arrRef spec2 0) : DevRef τ sig) ≠ Proc.devRef .tc main_v43) _ _).symm
theorem hF2_1 (c : Dev nD) : (datS2 (Ix := Ix) (U := U) (Lvl := Lvl) V c).arrAt 1 cfg2.N = Vout2 (Ix := Ix) (U := U) (Lvl := Lvl) V c (Proc.devRef .tc (Pipeline.arrRef spec2 1)) :=
  (((datS2 (Ix := Ix) (U := U) (Lvl := Lvl) V c).arrAt_in 1 rfl _).trans (A_eq2 V c 1)).trans
    (Function.update_of_ne (StableHlo.devRef_ne_of_ne (by decide) : (Proc.devRef .tc (Pipeline.arrRef spec2 1) : DevRef τ sig) ≠ Proc.devRef .tc main_v43) _ _).symm
/-- and the output holds the value the exit valuation was updated with; -/
theorem hF2_2 (c : Dev nD) : (datS2 (Ix := Ix) (U := U) (Lvl := Lvl) V c).arrAt 2 cfg2.N = Vout2 (Ix := Ix) (U := U) (Lvl := Lvl) V c (Proc.devRef .tc (Pipeline.arrRef spec2 2)) := by
  unfold Vout2
  generalize (datS2 (Ix := Ix) (U := U) (Lvl := Lvl) V c).arrAt 2 cfg2.N = X
  exact (Function.update_self (Proc.devRef .tc main_v43 : DevRef τ sig) X (V c)).symm
theorem hF2 (c : Dev nD) (w : Fin cfg2.W) :
    (datS2 (Ix := Ix) (U := U) (Lvl := Lvl) V c).arrAt w cfg2.N = (fun b : Ref sig .tc => Vout2 (Ix := Ix) (U := U) (Lvl := Lvl) V c (Proc.devRef .tc b)) (Pipeline.arrRef spec2 w) :=
  match w with
  | ⟨0, _⟩ => hF2_0 V c
  | ⟨1, _⟩ => hF2_1 V c
  | ⟨2, _⟩ => hF2_2 V c
/-- every other buffer holds what it held at entry. -/
theorem hrest2 (c : Dev nD) : ∀ b : Ref sig .tc, b ∉ Finset.univ.image (Pipeline.arrRef spec2) →
    Vout2 (Ix := Ix) (U := U) (Lvl := Lvl) V c (Proc.devRef .tc b) = V c (Proc.devRef .tc b) :=
  fun b hb => Function.update_of_ne (StableHlo.devRef_ne_of_ne fun e => hb (Finset.mem_image.mpr ⟨2, Finset.mem_univ _, e.symm⟩)) _ _

end Exit

set_option backward.isDefEq.respectTransparency.types false in
/-- ENTRY: the arrays split out of the unscoped buffers; the rest's register, its `owes` and what rides along sorted out. -/
theorem hentry2 (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E Er : Dev nD → sProp 𝕄) (hE : ∀ c : Dev nD, E c ⊢ iprop((∃ r, prngReg c r) ∗ (∃ W, owes (c : Thread nD τ) (0 : CellTallies nD τ sig Ix) W) ∗ Er c)) (c : Dev nD) :
    iprop(iprop(StableHlo.held (c : Thread nD τ) (Pipeline.ucRefs τ sig) (V c) ∗ E c) ∗ Pipeline.ownSems0 (Ix := Ix) (Name := ℕ) (U := U) (Lvl := Lvl) (Val := Elt F) (τ := τ) (fun k : PEmpty => k.elim) c ∗ levAts L lv)
      ⊢ |={Set.univ}=> iprop(((pdats (F := F) (Ix := Ix) (U := U) (Lvl := Lvl) d0 d1 (datS2 (Ix := Ix) (U := U) (Lvl := Lvl) V) d3 d4 d5 d6 d7 d8) 2 c).arrays (((pdats (F := F) (Ix := Ix) (U := U) (Lvl := Lvl) d0 d1 (datS2 (Ix := Ix) (U := U) (Lvl := Lvl) V) d3 d4 d5 d6 d7 d8) 2 c).arrAt · 0) ∗ Pipeline.prefHeld (Ix := Ix) (Name := ℕ) (U := U) (Lvl := Lvl) (pcfgs (F := F) 2).pre c (fun _ => fullShare) (adm (F := F) 2).1
          ∗ ((pdats (F := F) (Ix := Ix) (U := U) (Lvl := Lvl) d0 d1 (datS2 (Ix := Ix) (U := U) (Lvl := Lvl) V) d3 d4 d5 d6 d7 d8) 2 c).owesAt ι 0 ∗ iprop(∃ r, prngReg c r) ∗ iprop(Pipeline.unscopedRest (Ix := Ix) (Name := ℕ) (U := U) (Lvl := Lvl) spec2 c (fun b : Ref sig .tc => V c (Proc.devRef .tc b)) ∗ Er c)) := by
  rw [Pipeline.ownSems0_none]
  have hsplit := Pipeline.arrays_of_unscopedBufs (p := 2) (pcfgs (F := F)) adm (pdats (F := F) (Ix := Ix) (U := U) (Lvl := Lvl) d0 d1 (datS2 (Ix := Ix) (U := U) (Lvl := Lvl) V) d3 d4 d5 d6 d7 d8) launch2.win launch2.arr_whole c
    (((pdats (F := F) (Ix := Ix) (U := U) (Lvl := Lvl) d0 d1 (datS2 (Ix := Ix) (U := U) (Lvl := Lvl) V) d3 d4 d5 d6 d7 d8) 2 c).share_full fun _ => rfl) (fun b : Ref sig .tc => V c (Proc.devRef .tc b)) fun _ => rfl
  rw [Pipeline.unscopedBufs_held] at hsplit
  iintro ⟨⟨Hub, HE⟩, -, -⟩
  ihave HE2 := (hE c) $$ HE
  icases HE2 with ⟨Hp, ⟨%W0, HO⟩, Hr⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists W0; isplitr; · ipureintro; exact fun _ _ => Or.inl trivial
    iexact HO
  isplitl [Hp]; · iexact Hp
  isplitl [Hrest]; · iexact Hrest
  iexact Hr

set_option backward.isDefEq.respectTransparency.types false in
/-- The invariant at the first point from the register and the scoped buffers no window stages. -/
theorem hin2 (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c) (c : Dev nD) :
    iprop(iprop(∃ r, prngReg c r) ∗ Pipeline.prefHeld (Ix := Ix) (Name := ℕ) (U := U) (Lvl := Lvl) (pcfgs (F := F) 2).pre c (fun _ => fullShare) (adm (F := F) 2).1 ∗ Pipeline.scopedRest (Ix := Ix) (Name := ℕ) (U := U) (Lvl := Lvl) (Val := Elt F) spec2 c) ⊢ ((pdats (F := F) (Ix := Ix) (U := U) (Lvl := Lvl) d0 d1 (datS2 (Ix := Ix) (U := U) (Lvl := Lvl) V) d3 d4 d5 d6 d7 d8) 2 c).Φ 0 := by
  rw [show ((pdats (F := F) (Ix := Ix) (U := U) (Lvl := Lvl) d0 d1 (datS2 (Ix := Ix) (U := U) (Lvl := Lvl) V) d3 d4 d5 d6 d7 d8) 2 c).Φ 0 = PhiZ2 c from rfl]; unfold PhiZ2
  iintro ⟨Hp, -, Hr⟩
  isplitl [Hr]; · iexact Hr
  iexact Hp

set_option backward.isDefEq.respectTransparency.types false in
/-- The invariant at the last point gives them back. -/
theorem hout2 (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c) (c : Dev nD) :
    ((pdats (F := F) (Ix := Ix) (U := U) (Lvl := Lvl) d0 d1 (datS2 (Ix := Ix) (U := U) (Lvl := Lvl) V) d3 d4 d5 d6 d7 d8) 2 c).Φ (Fin.last cfg2.N) ⊢ iprop(iprop(∃ r, prngReg c r) ∗ Pipeline.ownSems0 (Ix := Ix) (Name := ℕ) (U := U) (Lvl := Lvl) (Val := Elt F) (τ := τ) (fun k : PEmpty => k.elim) c ∗ Pipeline.scopedRest (Ix := Ix) (Name := ℕ) (U := U) (Lvl := Lvl) (Val := Elt F) spec2 c) := by
  rw [Pipeline.ownSems0_none]
  have hΦ : ((pdats (F := F) (Ix := Ix) (U := U) (Lvl := Lvl) d0 d1 (datS2 (Ix := Ix) (U := U) (Lvl := Lvl) V) d3 d4 d5 d6 d7 d8) 2 c).Φ (Fin.last cfg2.N) ⊢ (PhiZ2 c : sProp 𝕄) :=
    PhiS2_out V c cfg2.N (Nat.le_refl _) (by rw [show cfg2.N = 9775 from N_2]; omega)
  refine hΦ.trans ?_
  unfold PhiZ2
  iintro ⟨Hr, Hp⟩
  isplitl [Hp]; · iexact Hp
  isplitr; · iempintro
  iexact Hr

set_option backward.isDefEq.respectTransparency.types false in
/-- EXIT: the arrays rejoin the unscoped buffers at the exit valuation; the rest is rebuilt. -/
theorem hexit2 (ι : Ix) (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E' Er : Dev nD → sProp 𝕄) (hE' : ∀ c : Dev nD, iprop((∃ r, prngReg c r) ∗ (∃ W, owes (c : Thread nD τ) (0 : CellTallies nD τ sig Ix) W) ∗ Er c) ⊢ E' c) (c : Dev nD) :
    iprop(((pdats (F := F) (Ix := Ix) (U := U) (Lvl := Lvl) d0 d1 (datS2 (Ix := Ix) (U := U) (Lvl := Lvl) V) d3 d4 d5 d6 d7 d8) 2 c).arrays (((pdats (F := F) (Ix := Ix) (U := U) (Lvl := Lvl) d0 d1 (datS2 (Ix := Ix) (U := U) (Lvl := Lvl) V) d3 d4 d5 d6 d7 d8) 2 c).arrAt · cfg2.N) ∗ ((pdats (F := F) (Ix := Ix) (U := U) (Lvl := Lvl) d0 d1 (datS2 (Ix := Ix) (U := U) (Lvl := Lvl) V) d3 d4 d5 d6 d7 d8) 2 c).owesAt ι (Fin.last cfg2.N) ∗ iprop(∃ r, prngReg c r) ∗ iprop(Pipeline.unscopedRest (Ix := Ix) (Name := ℕ) (U := U) (Lvl := Lvl) spec2 c (fun b : Ref sig .tc => V c (Proc.devRef .tc b)) ∗ Er c))
      ⊢ |={Set.univ}=> iprop(StableHlo.held (c : Thread nD τ) (Pipeline.ucRefs τ sig) (Vout2 (Ix := Ix) (U := U) (Lvl := Lvl) V c) ∗ E' c) := by
  have hjoin := Pipeline.unscopedBufs_of_arrays (p := 2) (pcfgs (F := F)) adm (Ix := Ix) (Name := ℕ) (U := U) (Lvl := Lvl)
    launch2.win launch2.arr_whole c (pdats (F := F) (Ix := Ix) (U := U) (Lvl := Lvl) d0 d1 (datS2 (Ix := Ix) (U := U) (Lvl := Lvl) V) d3 d4 d5 d6 d7 d8) (((pdats (F := F) (Ix := Ix) (U := U) (Lvl := Lvl) d0 d1 (datS2 (Ix := Ix) (U := U) (Lvl := Lvl) V) d3 d4 d5 d6 d7 d8) 2 c).share_full fun _ => rfl)
    (fun b : Ref sig .tc => V c (Proc.devRef .tc b)) (fun b : Ref sig .tc => Vout2 (Ix := Ix) (U := U) (Lvl := Lvl) V c (Proc.devRef .tc b)) (((pdats (F := F) (Ix := Ix) (U := U) (Lvl := Lvl) d0 d1 (datS2 (Ix := Ix) (U := U) (Lvl := Lvl) V) d3 d4 d5 d6 d7 d8) 2 c).arrAt · cfg2.N) (hF2 V c) (hrest2 V c)
  rw [Pipeline.unscopedBufs_held] at hjoin
  iintro ⟨Ha, HO, HY, Hrest, Hr⟩
  imodintro
  isplitl [Ha Hrest]
  · iapply hjoin; isplitl [Ha]
    · iexact Ha
    iexact Hrest
  iapply (hE' c)
  isplitl [HY]; · iexact HY
  isplitl [HO]
  · unfold Pipeline.Dat.owesAt Pipeline.owesWithin
    icases HO with ⟨%W, -, HO⟩; iexists W; iexact HO
  iexact Hr

set_option backward.isDefEq.respectTransparency.types false in
/-- REGION 2 over the thread state: entered from every unscoped buffer at `V` beside a rest `E`, left with the output
    array at what the write-backs leave beside `E'`. The rest must contain the generator register at some state and
    the core owing nothing (`hE`), and is rebuilt from them and whatever else rode along (`hE'`). The kernel has no
    semaphore of its own; its accumulator enters the invariant with the scoped buffers and leaves with them. -/
def region2 (𝒱₀ : Variants) (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E E' Er : Dev nD → sProp 𝕄) (hE : ∀ c : Dev nD, E c ⊢ iprop((∃ r, prngReg c r) ∗ (∃ W, owes (c : Thread nD τ) (0 : CellTallies nD τ sig Ix) W) ∗ Er c)) (hE' : ∀ c : Dev nD, iprop((∃ r, prngReg c r) ∗ (∃ W, owes (c : Thread nD τ) (0 : CellTallies nD τ sig Ix) W) ∗ Er c) ⊢ E' c) :
    RegionSeg (pcfgs (F := F)) adm (pdats (F := F) (Ix := Ix) (U := U) (Lvl := Lvl) d0 d1 (datS2 (Ix := Ix) (U := U) (Lvl := Lvl) V) d3 d4 d5 d6 d7 d8) ι defs₀ 𝒱₀ L lv 2 where
  win := launch2.win.to₀
  block_pos := launch2.block_pos
  stage_whole := launch2.stage_whole
  K := PEmpty
  osem k := k.elim
  ho := Pipeline.OwnSemFacts.none _
  hbody c := body_obligation_loose2 𝒱₀ ι V c
  hwaits := Pipeline.hwaits_of_owed_zero _ _ _ _ L lv 2 fun _ _ => rfl
  pre c := iprop(StableHlo.held (c : Thread nD τ) (Pipeline.ucRefs τ sig) (V c) ∗ E c)
  post c := iprop(StableHlo.held (c : Thread nD τ) (Pipeline.ucRefs τ sig) (Vout2 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec2 c (fun b : Ref sig .tc => V c (Proc.devRef .tc b)) ∗ Er c)
  hentry c := hentry2 ι L lv V d0 d1 d3 d4 d5 d6 d7 d8 E Er hE c
  hin c := hin2 V d0 d1 d3 d4 d5 d6 d7 d8 c
  hout c := hout2 V d0 d1 d3 d4 d5 d6 d7 d8 c
  hexit c := hexit2 ι V d0 d1 d3 d4 d5 d6 d7 d8 E' Er hE' c

end Cert.Kernel.Hand

end
-- ==== Proof.Scat5PtsK.lean ====
import proofs.«104867_j4217657884863_1_alg».proof.Proof.Gen.Kernel.Launch
import proofs.«104867_j4217657884863_1_alg».proof.Proof.Gen.Kernel.Skeleton
import proofs.«104867_j4217657884863_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type}

local notation "𝕄" => MT nD τ sig Ix (Elt F) ℕ U Lvl

/-! # Scatter kernel, pipeline 5: the grid's control cases and the windows' blocks

The grid is 25 × 391, the second axis the fast one: point `t` has second coordinate `t % 391`. The body zeroes its
accumulator when that coordinate is 0 and stores the accumulator into the output block when it is 390. -/

/-- The condition of the body's first branch (the accumulator is zeroed): the second grid coordinate is 0. -/
abbrev cond5_0 (i : grid5.Coords) : Prop :=
  (Scalar.cmpi .ne (Scalar.extui (Scalar.cmpi .eq (BitVec.ofNat 32 (i 1).val) 0#32)) 0#32) = 1#1
/-- It holds exactly at the points ≡ 0 (mod 391). -/
theorem hcond5_0 : ∀ t : Fin cfg5.N, cond5_0 (grid5.coords t) ↔ t.val % 391 = 0 :=
  (by decide +kernel : ∀ t : Fin grid5.N, cond5_0 (grid5.coords t) ↔ t.val % 391 = 0)

/-- The condition of the body's second branch (the output block is stored): the second grid coordinate is 390. -/
abbrev cond5_1 (i : grid5.Coords) : Prop := k5_cond2 i = 1#1
/-- It holds exactly at the points ≡ 390 (mod 391). -/
theorem hcond5_1 : ∀ t : Fin cfg5.N, cond5_1 (grid5.coords t) ↔ t.val % 391 = 390 :=
  (by decide +kernel : ∀ t : Fin grid5.N, cond5_1 (grid5.coords t) ↔ t.val % 391 = 390)

/-- The two input windows are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
/-- Away from the last step of a row the output window is idle and is not written back; at the last step it is live. -/
theorem idleAt5_2 : ∀ t : Fin cfg5.N, ¬cond5_1 (grid5.coords t) → cfg5.idle 2 (grid5.coords t) = true :=
  (by decide +kernel : ∀ t : Fin grid5.N, ¬cond5_1 (grid5.coords t) → cfg5.idle 2 (grid5.coords t) = true)
theorem noFlush5_2 : ∀ t : Fin cfg5.N, ¬cond5_1 (grid5.coords t) → (cfg5.win 2).flush t = false :=
  (by decide +kernel : ∀ t : Fin grid5.N, ¬cond5_1 (grid5.coords t) → win5_2.flush t = false)
theorem liveAt5_2 : ∀ t : Fin cfg5.N, cond5_1 (grid5.coords t) → cfg5.idle 2 (grid5.coords t) = false :=
  (by decide +kernel : ∀ t : Fin grid5.N, cond5_1 (grid5.coords t) → cfg5.idle 2 (grid5.coords t) = false)

/-- Each window's current staging memref at point `t`, and its wholeness. -/
abbrev ms5_0 (t : Fin cfg5.N) : Memref sig .tc .vmem S2048x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x2048 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x64 .f32 := win5_2.stage (cfg5.slots t 2)
abbrev hs5_2 (t : Fin cfg5.N) : (ms5_2 t).IsWhole := hstage5_2 ((cfg5.slots t 2).cast nbuf5_2)
/-- The accumulator: a whole scoped buffer of the kernel's own, carried from point to point. -/
abbrev scM5_0 : Memref sig .tc .vmem S2048x64 .f32 := Memref.whole cc5_scratch0
/-- The views through which the accumulator's and the output block's contents are stated. -/
abbrev VS5_0 : View sig .tc .vmem S2048x64 .f32 := scM5_0.view
abbrev VO5_2 : View sig .tc .vmem S2048x64 .f32 := (Memref.whole cc5_stg2_0 : Memref sig .tc .vmem S2048x64 .f32).view

section Blocks

variable (V : Dev nD → Valuation τ sig (Elt F))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, for any proof data whose array is the
    region-entry one and whose body leaves the block in place. -/
theorem before5_0_of {c : Dev nD} (dat : Dat τ (Elt F) Ix ℕ U Lvl cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Ix ℕ U Lvl cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

end Blocks

end Cert.Kernel.Hand

end
-- ==== Proof.Scat5RunAK.lean ====
import proofs.«104867_j4217657884863_1_alg».proof.Proof.Scat5PtsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the FIRST step of a row (first branch taken, second not): the accumulator, found at anything, is
    zeroed and then receives this step's contribution; the output block is not touched. The pieces the accumulator ends
    with are the witness the run finds. -/
noncomputable def kernelRun5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond5_0 i) (hc1 : ¬cond5_1 i)
    (x0 : Vec F S2048x64 .f32) (x1 : Vec F S1x2048 .i32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc5__scatter_kernel i arg2 harg2 arg3 harg3 arg4 harg4 arg5 harg5) K } := by
  refine ⟨?_, fun 𝒱₀ d2 E K => ?run⟩
  case run =>
    simp only [cc5__scatter_kernel_eq_skeleton]; unfold cc5__scatter_kernel_skel
    unfold owns
    iintro ⟨⟨%f0, %hf0, H0⟩, ⟨%f1, %hf1, H1⟩, H2, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.Kernel.Hand

end
-- ==== Proof.Scat5RunBK.lean ====
import proofs.«104867_j4217657884863_1_alg».proof.Proof.Scat5RunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at a MIDDLE step of a row (neither branch taken): the accumulator, found at what the step before
    left, receives this step's contribution; the output block is not touched. -/
noncomputable def kernelRun5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : ¬cond5_1 i)
    (x0 : Vec F S2048x64 .f32) (x1 : Vec F S1x2048 .i32) (xs0 : Vec F S2048x64 .f32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs0
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc5__scatter_kernel i arg2 harg2 arg3 harg3 arg4 harg4 arg5 harg5) K } := by
  refine ⟨?_, fun 𝒱₀ d2 E K => ?run⟩
  case run =>
    simp only [cc5__scatter_kernel_eq_skeleton]; unfold cc5__scatter_kernel_skel
    unfold owns
    iintro ⟨⟨%f0, %hf0, H0⟩, ⟨%f1, %hf1, H1⟩, H2, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.Kernel.Hand

end
-- ==== Proof.Scat5RunCK.lean ====
import proofs.«104867_j4217657884863_1_alg».proof.Proof.Scat5RunBK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the LAST step of a row (first branch not taken, second taken): the accumulator, found at what the
    step before left, receives this step's contribution and is then stored into the output block, found at anything. -/
noncomputable def kernelRun5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) :
    Σ' (L2 : List (View.Piece (Elt F) S2048x64 .f32)), { LS0 : List (View.Piece (Elt F) S2048x64 .f32) //
      ∀ (𝒱₀ : Variants) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) 𝒱₀ c none) E (cc5__scatter_kernel i arg2 harg2 arg3 harg3 arg4 harg4 arg5 harg5) K } := by
  refine ⟨?_, ?_, fun 𝒱₀ E K => ?run⟩
  case run =>
    simp only [cc5__scatter_kernel_eq_skeleton]; unfold cc5__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Scat5DatK.lean ====
import proofs.«104867_j4217657884863_1_alg».proof.Proof.Scat5RunCK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5: the accumulation and the proof data -/

section Data

variable (V : Dev nD → Valuation τ sig (Elt F))

/-! ## What each case leaves, read back -/

/-- The first step's pieces tile the accumulator, -/
theorem scover5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond5_0 i) (hc1 : ¬cond5_1 i)
    (x0 : Vec F S2048x64 .f32) (x1 : Vec F S1x2048 .i32) (y : S2048x64.Idx) :
    ∃ pc ∈ (kernelRun5_A (Ix := Ix) (U := U) (Lvl := Lvl) c i arg2 harg2 arg3 harg3 arg4 harg4 arg5 harg5 hc0 hc1 x0 x1).1, y ∈ pc.1.set :=
  View.cover_of_tiledL (kernelRun5_A (Ix := Ix) (U := U) (Lvl := Lvl) c i arg2 harg2 arg3 harg3 arg4 harg4 arg5 harg5 hc0 hc1 x0 x1).1 S2048x64.size (by sl_kernel_rfl) y
/-- and this is what they leave in it. -/
def sout5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond5_0 i) (hc1 : ¬cond5_1 i)
    (x0 : Vec F S2048x64 .f32) (x1 : Vec F S1x2048 .i32) : Vec F S2048x64 .f32 :=
  VS5_0.read (Elt F) (VS5_0.writes (Elt F) VS5_0.junk (kernelRun5_A (Ix := Ix) (U := U) (Lvl := Lvl) c i arg2 harg2 arg3 harg3 arg4 harg4 arg5 harg5 hc0 hc1 x0 x1).1)

/-- A middle step's pieces tile the accumulator, -/
theorem scover5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : ¬cond5_1 i)
    (x0 : Vec F S2048x64 .f32) (x1 : Vec F S1x2048 .i32) (xs0 : Vec F S2048x64 .f32) (y : S2048x64.Idx) :
    ∃ pc ∈ (kernelRun5_B (Ix := Ix) (U := U) (Lvl := Lvl) c i arg2 harg2 arg3 harg3 arg4 harg4 arg5 harg5 hc0 hc1 x0 x1 xs0).1, y ∈ pc.1.set :=
  View.cover_of_tiledL (kernelRun5_B (Ix := Ix) (U := U) (Lvl := Lvl) c i arg2 harg2 arg3 harg3 arg4 harg4 arg5 harg5 hc0 hc1 x0 x1 xs0).1 S2048x64.size (by sl_kernel_rfl) y
/-- and this is what they leave in it. -/
def sout5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : ¬cond5_1 i)
    (x0 : Vec F S2048x64 .f32) (x1 : Vec F S1x2048 .i32) (xs0 : Vec F S2048x64 .f32) : Vec F S2048x64 .f32 :=
  VS5_0.read (Elt F) (VS5_0.writes (Elt F) VS5_0.junk (kernelRun5_B (Ix := Ix) (U := U) (Lvl := Lvl) c i arg2 harg2 arg3 harg3 arg4 harg4 arg5 harg5 hc0 hc1 x0 x1 xs0).1)

/-- The last step's pieces tile the accumulator and the output block, -/
theorem scover5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) (y : S2048x64.Idx) :
    ∃ pc ∈ (kernelRun5_C (Ix := Ix) (U := U) (Lvl := Lvl) c i arg2 harg2 arg3 harg3 arg4 harg4 arg5 harg5 hc0 hc1 x0 x1 xs0).2.1, y ∈ pc.1.set :=
  View.cover_of_tiledL (kernelRun5_C (Ix := Ix) (U := U) (Lvl := Lvl) c i arg2 harg2 arg3 harg3 arg4 harg4 arg5 harg5 hc0 hc1 x0 x1 xs0).2.1 S2048x64.size (by sl_kernel_rfl) y
theorem cover5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) (y : S2048x64.Idx) :
    ∃ pc ∈ (kernelRun5_C (Ix := Ix) (U := U) (Lvl := Lvl) c i arg2 harg2 arg3 harg3 arg4 harg4 arg5 harg5 hc0 hc1 x0 x1 xs0).1, y ∈ pc.1.set :=
  View.cover_of_tiledL (kernelRun5_C (Ix := Ix) (U := U) (Lvl := Lvl) c i arg2 harg2 arg3 harg3 arg4 harg4 arg5 harg5 hc0 hc1 x0 x1 xs0).1 S2048x64.size (by sl_kernel_rfl) y
/-- and this is what they leave in each. -/
def sout5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) : Vec F S2048x64 .f32 :=
  VS5_0.read (Elt F) (VS5_0.writes (Elt F) VS5_0.junk (kernelRun5_C (Ix := Ix) (U := U) (Lvl := Lvl) c i arg2 harg2 arg3 harg3 arg4 harg4 arg5 harg5 hc0 hc1 x0 x1 xs0).2.1)
def out5_C (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) : Vec F S2048x64 .f32 :=
  VO5_2.read (Elt F) (VO5_2.writes (Elt F) VO5_2.junk (kernelRun5_C (Ix := Ix) (U := U) (Lvl := Lvl) c i arg2 harg2 arg3 harg3 arg4 harg4 arg5 harg5 hc0 hc1 x0 x1 xs0).1)

/-! ## The accumulation -/

/-- THE ACCUMULATOR after the body at position `n`, by recursion on the position: at the first step of a row the
    first-step contents (they do not depend on what came before); at any other step that step's contents over what the
    position before left. -/
def accAt5 (c : Dev nD) : (n : ℕ) → n < cfg5.N → Vec F S2048x64 .f32
  | 0, hn => sout5_A (Ix := Ix) (U := U) (Lvl := Lvl) c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩)
  | n + 1, hn =>
    if h0 : (n + 1) % 391 = 0 then
      if h1 : (n + 1) % 391 = 390 then
        False.elim (by omega)
      else
        sout5_A (Ix := Ix) (U := U) (Lvl := Lvl) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩)
    else
      if h1 : (n + 1) % 391 = 390 then
        sout5_C (Ix := Ix) (U := U) (Lvl := Lvl) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (accAt5 c n (Nat.lt_of_succ_lt hn))
      else
        sout5_B (Ix := Ix) (U := U) (Lvl := Lvl) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (accAt5 c n (Nat.lt_of_succ_lt hn))

/-- The accumulator at a first step, -/
theorem accAt5_A (c : Dev nD) (t : Fin cfg5.N) (h0 : t.val % 391 = 0) (h1 : ¬t.val % 391 = 390) :
    accAt5 (Ix := Ix) (U := U) (Lvl := Lvl) V c t.val t.isLt = sout5_A (Ix := Ix) (U := U) (Lvl := Lvl) c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t) := by
  obtain ⟨n, hn⟩ := t
  cases n with
  | zero => exact rfl
  | succ n => exact (dif_pos h0).trans ((dif_neg h1).trans rfl)
/-- at a middle step, -/
theorem accAt5_B (c : Dev nD) (t : Fin cfg5.N) (h0 : ¬t.val % 391 = 0) (h1 : ¬t.val % 391 = 390) :
    accAt5 (Ix := Ix) (U := U) (Lvl := Lvl) V c t.val t.isLt = sout5_B (Ix := Ix) (U := U) (Lvl := Lvl) c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (accAt5 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem accAt5_C (c : Dev nD) (t : Fin cfg5.N) (h0 : ¬t.val % 391 = 0) (h1 : t.val % 391 = 390) :
    accAt5 (Ix := Ix) (U := U) (Lvl := Lvl) V c t.val t.isLt = sout5_C (Ix := Ix) (U := U) (Lvl := Lvl) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (accAt5 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last step the block that step
    stores; elsewhere the window is idle and the value is not consulted (the accumulator stands in). -/
def outAt5 (c : Dev nD) (t : Fin cfg5.N) : Vec F S2048x64 .f32 :=
  if h1 : t.val % 391 = 390 then
    if h0 : t.val % 391 = 0 then accAt5 (Ix := Ix) (U := U) (Lvl := Lvl) V c t.val t.isLt
    else out5_C (Ix := Ix) (U := U) (Lvl := Lvl) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (accAt5 (Ix := Ix) (U := U) (Lvl := Lvl) V c (t.val - 1) (Nat.lt_of_le_of_lt (Nat.sub_le _ _) t.isLt))
  else accAt5 (Ix := Ix) (U := U) (Lvl := Lvl) V c t.val t.isLt

theorem outAt5_C (c : Dev nD) (t : Fin cfg5.N) (h0 : ¬t.val % 391 = 0) (h1 : t.val % 391 = 390) :
    outAt5 (Ix := Ix) (U := U) (Lvl := Lvl) V c t = out5_C (Ix := Ix) (U := U) (Lvl := Lvl) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (accAt5 (Ix := Ix) (U := U) (Lvl := Lvl) V c (t.val - 1) (Nat.lt_of_le_of_lt (Nat.sub_le _ _) t.isLt)) :=
  (dif_pos h1).trans (dif_neg h0)

/-! ## The invariant -/

/-- The kernel's scratch and every other scoped buffer no window stages, each at anything, beside the generator
    register at some state: what the region hands the first point. -/
def PhiZ5 (c : Dev nD) : sProp 𝕄 :=
  iprop(Pipeline.scopedRest (Ix := Ix) (Name := ℕ) (U := U) (Lvl := Lvl) (Val := Elt F) spec5 c ∗ ∃ r, prngReg c r)

/-- The invariant before position `n`: before the first point `PhiZ`; afterwards the accumulator whole at what the
    position before left, the other scoped buffers at anything, the generator register at some state. -/
def PhiS5 (c : Dev nD) : (n : ℕ) → n ≤ cfg5.N → sProp 𝕄
  | 0, _ => PhiZ5 c
  | n + 1, hn => iprop(owns (c : Thread nD τ) scM5_0 fullShare (accAt5 (Ix := Ix) (U := U) (Lvl := Lvl) V c n hn)
      ∗ Pipeline.scopedRestBut (Ix := Ix) (Name := ℕ) (U := U) (Lvl := Lvl) (Val := Elt F) spec5 c [cc5_scratch0] ∗ ∃ r, prngReg c r)

theorem PhiS5_zero (c : Dev nD) (n : ℕ) (h : n ≤ cfg5.N) (hz : n = 0) : PhiS5 (Ix := Ix) (U := U) (Lvl := Lvl) V c n h = PhiZ5 c := by
  subst hz; rfl
theorem PhiS5_succ (c : Dev nD) (n : ℕ) (hn : n < cfg5.N) :
    PhiS5 (Ix := Ix) (U := U) (Lvl := Lvl) V c (n + 1) hn = iprop(owns (c : Thread nD τ) scM5_0 fullShare (accAt5 (Ix := Ix) (U := U) (Lvl := Lvl) V c n hn)
      ∗ Pipeline.scopedRestBut (Ix := Ix) (Name := ℕ) (U := U) (Lvl := Lvl) (Val := Elt F) spec5 c [cc5_scratch0] ∗ ∃ r, prngReg c r) := rfl
theorem PhiS5_pos (c : Dev nD) (n : ℕ) (h : n ≤ cfg5.N) (hz : n ≠ 0) :
    PhiS5 (Ix := Ix) (U := U) (Lvl := Lvl) V c n h = iprop(owns (c : Thread nD τ) scM5_0 fullShare (accAt5 (Ix := Ix) (U := U) (Lvl := Lvl) V c (n - 1) (by omega))
      ∗ Pipeline.scopedRestBut (Ix := Ix) (Name := ℕ) (U := U) (Lvl := Lvl) (Val := Elt F) spec5 c [cc5_scratch0] ∗ ∃ r, prngReg c r) := by
  cases n with
  | zero => exact absurd rfl hz
  | succ n => rfl

/-- `PhiZ` with the accumulator split out of the scoped rest, owned at some contents. -/
theorem PhiZ5_eq (c : Dev nD) :
    (PhiZ5 c : sProp 𝕄)
      = iprop(((∃ d, owns (c : Thread nD τ) scM5_0 fullShare d)
          ∗ Pipeline.scopedRestBut (Ix := Ix) (Name := ℕ) (U := U) (Lvl := Lvl) (Val := Elt F) spec5 c [cc5_scratch0]) ∗ ∃ r, prngReg c r) := by
  unfold PhiZ5; rw [scopedRest5_split]; simp only [scM5_0, owns_whole]; try rfl

/-- After any point the invariant gives `PhiZ` back: the accumulator's named contents are forgotten. -/
theorem PhiS5_out (c : Dev nD) (n : ℕ) (h : n ≤ cfg5.N) (hz : n ≠ 0) :
    PhiS5 (Ix := Ix) (U := U) (Lvl := Lvl) V c n h ⊢ PhiZ5 c := by
  rw [PhiS5_pos V c _ _ hz, PhiZ5_eq]
  iintro ⟨HS0, HR, Hg⟩
  isplitl [HS0 HR]
  · isplitl [HS0]
    · iexists _; iexact HS0
    iexact HR
  iexact Hg

/-! ## The proof data -/

/-- The proof data of pipeline 5 on core `c`: the arrays as the region finds them; after the body each input's buffer
    at its block and the output's at `outAt`; the invariant `PhiS`; nothing owed; full shares. -/
def datS5 (c : Dev nD) : Dat τ (Elt F) Ix ℕ U Lvl cfg5 c where
  A w := V c (Pipeline.arrRef spec5 w)
  after w t := match w with
    | ⟨0, _⟩ => iblk5 V c 0 t
    | ⟨1, _⟩ => iblk5 V c 1 t
    | ⟨2, _⟩ => outAt5 (Ix := Ix) (U := U) (Lvl := Lvl) V c t
  Φ t := PhiS5 V c t.val (Nat.le_of_lt_succ t.isLt)
  q _ := fullShare
  owed _ := 0

theorem A_eq5 (c : Dev nD) (w : Fin cfg5.W) : (datS5 (Ix := Ix) (U := U) (Lvl := Lvl) V c).A w = V c (Pipeline.arrRef spec5 w) := by
  dsimp only [datS5]
theorem PhiS5_castSucc (c : Dev nD) (t : Fin cfg5.N) :
    (datS5 (Ix := Ix) (U := U) (Lvl := Lvl) V c).Φ t.castSucc = PhiS5 V c t.val (Nat.le_of_lt t.isLt) := by
  dsimp only [datS5]; simp only [Fin.coe_castSucc]
theorem after5_0 (c : Dev nD) (t : Fin cfg5.N) : (datS5 (Ix := Ix) (U := U) (Lvl := Lvl) V c).after 0 t = iblk5 V c 0 t := by dsimp only [datS5]
theorem after5_1 (c : Dev nD) (t : Fin cfg5.N) : (datS5 (Ix := Ix) (U := U) (Lvl := Lvl) V c).after 1 t = iblk5 V c 1 t := by dsimp only [datS5]
theorem after5_2 (c : Dev nD) (t : Fin cfg5.N) : (datS5 (Ix := Ix) (U := U) (Lvl := Lvl) V c).after 2 t = outAt5 (Ix := Ix) (U := U) (Lvl := Lvl) V c t := by dsimp only [datS5]
theorem before5_0 (c : Dev nD) (t : Fin cfg5.N) (d) : (datS5 (Ix := Ix) (U := U) (Lvl := Lvl) V c).before 0 t d = iblk5 V c 0 t :=
  before5_0_of V (datS5 V c) (A_eq5 V c 0) (after5_0 V c) t d
theorem before5_1 (c : Dev nD) (t : Fin cfg5.N) (d) : (datS5 (Ix := Ix) (U := U) (Lvl := Lvl) V c).before 1 t d = iblk5 V c 1 t :=
  before5_1_of V (datS5 V c) (A_eq5 V c 1) (after5_1 V c) t d

end Data

end Cert.Kernel.Hand

end
-- ==== Proof.Scat5BodyK.lean ====
import proofs.«104867_j4217657884863_1_alg».proof.Proof.Scat5DatK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5: the body obligation -/

section Body

variable (𝒱₀ : Variants) (ι : Ix) (V : Dev nD → Valuation τ sig (Elt F))

/-- What the body is called with at point `t`, the windows one by one, -/
def bodyPre5 (c : Dev nD) (t : Fin cfg5.N) : sProp 𝕄 :=
  iprop((datS5 (Ix := Ix) (U := U) (Lvl := Lvl) V c).Φ t.castSucc ∗ (datS5 (Ix := Ix) (U := U) (Lvl := Lvl) V c).owesAt ι t.castSucc
    ∗ (∃ d, owns (c : Thread nD τ) (ms5_0 t) fullShare ((datS5 (Ix := Ix) (U := U) (Lvl := Lvl) V c).before 0 t d))
    ∗ (∃ d, owns (c : Thread nD τ) (ms5_1 t) fullShare ((datS5 (Ix := Ix) (U := U) (Lvl := Lvl) V c).before 1 t d))
    ∗ (∃ d, owns (c : Thread nD τ) (ms5_2 t) fullShare ((datS5 (Ix := Ix) (U := U) (Lvl := Lvl) V c).before 2 t d)))

/-- and what it returns. -/
def bodyPost5 (c : Dev nD) (t : Fin cfg5.N) : sProp 𝕄 :=
  iprop((datS5 (Ix := Ix) (U := U) (Lvl := Lvl) V c).Φ t.succ ∗ (datS5 (Ix := Ix) (U := U) (Lvl := Lvl) V c).owesAt ι t.succ
    ∗ (datS5 (Ix := Ix) (U := U) (Lvl := Lvl) V c).leavesExact 0 t
    ∗ (datS5 (Ix := Ix) (U := U) (Lvl := Lvl) V c).leavesExact 1 t
    ∗ (datS5 (Ix := Ix) (U := U) (Lvl := Lvl) V c).leavesExact 2 t)

set_option maxHeartbeats 4800000 in
/-- The body at any point. The inputs' buffers hold their blocks; the point's position in its row says which case it
    is in; the invariant hands the body the accumulator at what the position before left (at anything before the first
    point) and takes it back at this position's contents; away from a row's last step the output's buffer is handed
    back as found, at the last step it holds the stored block; the core owes nothing throughout. -/
theorem sound_body5 (c : Dev nD) (t : Fin cfg5.N) :
    bodyPre5 (F := F) (U := U) (Lvl := Lvl) ι V c t ⊢ wp frame (wpE (defs₀ (F := F)) 𝒱₀ c none) Set.univ (bodyAt5 t) (fun _ => bodyPost5 (F := F) (U := U) (Lvl := Lvl) ι V c t) := by
  unfold bodyPre5 bodyPost5 bodyAt5
  simp only [before5_0, before5_1]
  rw [show (datS5 (Ix := Ix) (U := U) (Lvl := Lvl) V c).owesAt ι t.succ = (datS5 (Ix := Ix) (U := U) (Lvl := Lvl) V c).owesAt ι t.castSucc from rfl]
  rw [show (datS5 (Ix := Ix) (U := U) (Lvl := Lvl) V c).Φ t.succ = PhiS5 V c (t.val + 1) t.isLt from rfl, PhiS5_succ]
  rw [show (datS5 (Ix := Ix) (U := U) (Lvl := Lvl) V c).leavesExact 0 t = owns (c : Thread nD τ) (ms5_0 t) fullShare ((datS5 (Ix := Ix) (U := U) (Lvl := Lvl) V c).after 0 t) from by
    unfold Dat.leavesExact; rw [liveAt5_0 t], after5_0]
  rw [show (datS5 (Ix := Ix) (U := U) (Lvl := Lvl) V c).leavesExact 1 t = owns (c : Thread nD τ) (ms5_1 t) fullShare ((datS5 (Ix := Ix) (U := U) (Lvl := Lvl) V c).after 1 t) from by
    unfold Dat.leavesExact; rw [liveAt5_1 t], after5_1]
  have hN : t.val < 9775 := lt_of_lt_of_eq t.isLt (show cfg5.N = 9775 from N_5)
  by_cases h0 : t.val % 391 = 0
  · have h1 : ¬t.val % 391 = 390 := by omega
    rw [Dat.leavesExact_idle (datS5 (Ix := Ix) (U := U) (Lvl := Lvl) V c) 2 t (idleAt5_2 t (fun h => h1 ((hcond5_1 t).mp h))) (noFlush5_2 t (fun h => h1 ((hcond5_1 t).mp h)))]
    rw [accAt5_A V c t h0 h1]
    unfold sout5_A; (try dsimp only)
    by_cases hz : t.val = 0
    · rw [PhiS5_castSucc V c t, PhiS5_zero V c _ _ hz, PhiZ5_eq]
      iintro ⟨⟨⟨HS0, HR⟩, Hg⟩, Ho, ⟨%d0, H0⟩, ⟨%d1, H1⟩, ⟨%d2, H2⟩⟩
      iapply ((kernelRun5_A c (grid5.coords t) _ _ _ _ _ _ _ _ ((hcond5_0 t).mpr h0) (fun h => h1 ((hcond5_1 t).mp h)) (iblk5 V c 0 t) (iblk5 V c 1 t)).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover5_A c _ _ _ _ _ _ _ _ _ _ _ _ _)
        isplitl [HR]; · iexact HR
        iexact Hg
      isplitl [Ho]; · iexact Ho
      isplitl [H0]; · iexact H0
      isplitl [H1]; · iexact H1
      iexists _; iexact H2
    · rw [PhiS5_castSucc V c t, PhiS5_pos V c _ _ hz]
      iintro ⟨⟨HS0, HR, Hg⟩, Ho, ⟨%d0, H0⟩, ⟨%d1, H1⟩, ⟨%d2, H2⟩⟩
      iapply ((kernelRun5_A c (grid5.coords t) _ _ _ _ _ _ _ _ ((hcond5_0 t).mpr h0) (fun h => h1 ((hcond5_1 t).mp h)) (iblk5 V c 0 t) (iblk5 V c 1 t)).2 𝒱₀ _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover5_A c _ _ _ _ _ _ _ _ _ _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 391 = 390
    · rw [show (datS5 (Ix := Ix) (U := U) (Lvl := Lvl) V c).leavesExact 2 t = owns (c : Thread nD τ) (ms5_2 t) fullShare ((datS5 (Ix := Ix) (U := U) (Lvl := Lvl) V c).after 2 t) from by
        unfold Dat.leavesExact; rw [liveAt5_2 t ((hcond5_1 t).mpr h1)], after5_2]
      rw [outAt5_C V c t h0 h1, accAt5_C V c t h0 h1]
      unfold out5_C sout5_C; (try dsimp only)
      rw [PhiS5_castSucc V c t, PhiS5_pos V c _ _ hz]
      iintro ⟨⟨HS0, HR, Hg⟩, Ho, ⟨%d0, H0⟩, ⟨%d1, H1⟩, ⟨%d2, H2⟩⟩
      iapply ((kernelRun5_C c (grid5.coords t) _ _ _ _ _ _ _ _ (fun h => h0 ((hcond5_0 t).mp h)) ((hcond5_1 t).mpr h1) (iblk5 V c 0 t) (iblk5 V c 1 t) _).2.2 𝒱₀ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover5_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_C c _ _ _ _ _ _ _ _ _ _ _ _ _ _)
    · rw [Dat.leavesExact_idle (datS5 (Ix := Ix) (U := U) (Lvl := Lvl) V c) 2 t (idleAt5_2 t (fun h => h1 ((hcond5_1 t).mp h))) (noFlush5_2 t (fun h => h1 ((hcond5_1 t).mp h)))]
      rw [accAt5_B V c t h0 h1]
      unfold sout5_B; (try dsimp only)
      rw [PhiS5_castSucc V c t, PhiS5_pos V c _ _ hz]
      iintro ⟨⟨HS0, HR, Hg⟩, Ho, ⟨%d0, H0⟩, ⟨%d1, H1⟩, ⟨%d2, H2⟩⟩
      iapply ((kernelRun5_B c (grid5.coords t) _ _ _ _ _ _ _ _ (fun h => h0 ((hcond5_0 t).mp h)) (fun h => h1 ((hcond5_1 t).mp h)) (iblk5 V c 0 t) (iblk5 V c 1 t) _).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover5_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation5 (c : Dev nD) : BodyObligation (datS5 (Ix := Ix) (U := U) (Lvl := Lvl) V c) (defs₀ (F := F)) 𝒱₀ ι Set.univ := fun t => by
  rw [bigSep_W5, bigSep_W5]
  exact sound_body5 𝒱₀ ι V c t

/-- The same in the form the region rule takes. -/
theorem body_obligation_loose5 (c : Dev nD) : BodyObligationLoose (datS5 (Ix := Ix) (U := U) (Lvl := Lvl) V c) (defs₀ (F := F)) 𝒱₀ ι Set.univ :=
  (body_obligation5 𝒱₀ ι V c).loose

end Body

end Cert.Kernel.Hand

end
-- ==== Proof.Scat5RegionK.lean ====
import proofs.«104867_j4217657884863_1_alg».proof.Proof.Scat5BodyK
import proofs.«104867_j4217657884863_1_alg».proof.Proof.Gen.Kernel.Regions
import proofs.«104867_j4217657884863_1_alg».proof.Proof.DatsK
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5: the region record -/

/-- The unscoped buffers when the region is left: the output array at what the write-backs leave, every other buffer
    as the region found it. -/
def Vout5 (V : Dev nD → Valuation τ sig (Elt F)) (c : Dev nD) : Valuation τ sig (Elt F) :=
  Function.update (V c) main_v54 ((datS5 (Ix := Ix) (U := U) (Lvl := Lvl) V c).arrAt 2 cfg5.N)

section Exit
variable (V : Dev nD → Valuation τ sig (Elt F))

/-- Each of the pipeline's arrays holds at exit what the write-backs leave: the two inputs are never written, -/
theorem hF5_0 (c : Dev nD) : (datS5 (Ix := Ix) (U := U) (Lvl := Lvl) V c).arrAt 0 cfg5.N = Vout5 (Ix := Ix) (U := U) (Lvl := Lvl) V c (Proc.devRef .tc (Pipeline.arrRef spec5 0)) :=
  (((datS5 (Ix := Ix) (U := U) (Lvl := Lvl) V c).arrAt_in 0 rfl _).trans (A_eq5 V c 0)).trans
    (Function.update_of_ne (StableHlo.devRef_ne_of_ne (by decide) : (Proc.devRef .tc (Pipeline.arrRef spec5 0) : DevRef τ sig) ≠ Proc.devRef .tc main_v54) _ _).symm
theorem hF5_1 (c : Dev nD) : (datS5 (Ix := Ix) (U := U) (Lvl := Lvl) V c).arrAt 1 cfg5.N = Vout5 (Ix := Ix) (U := U) (Lvl := Lvl) V c (Proc.devRef .tc (Pipeline.arrRef spec5 1)) :=
  (((datS5 (Ix := Ix) (U := U) (Lvl := Lvl) V c).arrAt_in 1 rfl _).trans (A_eq5 V c 1)).trans
    (Function.update_of_ne (StableHlo.devRef_ne_of_ne (by decide) : (Proc.devRef .tc (Pipeline.arrRef spec5 1) : DevRef τ sig) ≠ Proc.devRef .tc main_v54) _ _).symm
/-- and the output holds the value the exit valuation was updated with; -/
theorem hF5_2 (c : Dev nD) : (datS5 (Ix := Ix) (U := U) (Lvl := Lvl) V c).arrAt 2 cfg5.N = Vout5 (Ix := Ix) (U := U) (Lvl := Lvl) V c (Proc.devRef .tc (Pipeline.arrRef spec5 2)) := by
  unfold Vout5
  generalize (datS5 (Ix := Ix) (U := U) (Lvl := Lvl) V c).arrAt 2 cfg5.N = X
  exact (Function.update_self (Proc.devRef .tc main_v54 : DevRef τ sig) X (V c)).symm
theorem hF5 (c : Dev nD) (w : Fin cfg5.W) :
    (datS5 (Ix := Ix) (U := U) (Lvl := Lvl) V c).arrAt w cfg5.N = (fun b : Ref sig .tc => Vout5 (Ix := Ix) (U := U) (Lvl := Lvl) V c (Proc.devRef .tc b)) (Pipeline.arrRef spec5 w) :=
  match w with
  | ⟨0, _⟩ => hF5_0 V c
  | ⟨1, _⟩ => hF5_1 V c
  | ⟨2, _⟩ => hF5_2 V c
/-- every other buffer holds what it held at entry. -/
theorem hrest5 (c : Dev nD) : ∀ b : Ref sig .tc, b ∉ Finset.univ.image (Pipeline.arrRef spec5) →
    Vout5 (Ix := Ix) (U := U) (Lvl := Lvl) V c (Proc.devRef .tc b) = V c (Proc.devRef .tc b) :=
  fun b hb => Function.update_of_ne (StableHlo.devRef_ne_of_ne fun e => hb (Finset.mem_image.mpr ⟨2, Finset.mem_univ _, e.symm⟩)) _ _

end Exit

set_option backward.isDefEq.respectTransparency.types false in
/-- ENTRY: the arrays split out of the unscoped buffers; the rest's register, its `owes` and what rides along sorted out. -/
theorem hentry5 (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E Er : Dev nD → sProp 𝕄) (hE : ∀ c : Dev nD, E c ⊢ iprop((∃ r, prngReg c r) ∗ (∃ W, owes (c : Thread nD τ) (0 : CellTallies nD τ sig Ix) W) ∗ Er c)) (c : Dev nD) :
    iprop(iprop(StableHlo.held (c : Thread nD τ) (Pipeline.ucRefs τ sig) (V c) ∗ E c) ∗ Pipeline.ownSems0 (Ix := Ix) (Name := ℕ) (U := U) (Lvl := Lvl) (Val := Elt F) (τ := τ) (fun k : PEmpty => k.elim) c ∗ levAts L lv)
      ⊢ |={Set.univ}=> iprop(((pdats (F := F) (Ix := Ix) (U := U) (Lvl := Lvl) d0 d1 d2 d3 d4 (datS5 (Ix := Ix) (U := U) (Lvl := Lvl) V) d6 d7 d8) 5 c).arrays (((pdats (F := F) (Ix := Ix) (U := U) (Lvl := Lvl) d0 d1 d2 d3 d4 (datS5 (Ix := Ix) (U := U) (Lvl := Lvl) V) d6 d7 d8) 5 c).arrAt · 0) ∗ Pipeline.prefHeld (Ix := Ix) (Name := ℕ) (U := U) (Lvl := Lvl) (pcfgs (F := F) 5).pre c (fun _ => fullShare) (adm (F := F) 5).1
          ∗ ((pdats (F := F) (Ix := Ix) (U := U) (Lvl := Lvl) d0 d1 d2 d3 d4 (datS5 (Ix := Ix) (U := U) (Lvl := Lvl) V) d6 d7 d8) 5 c).owesAt ι 0 ∗ iprop(∃ r, prngReg c r) ∗ iprop(Pipeline.unscopedRest (Ix := Ix) (Name := ℕ) (U := U) (Lvl := Lvl) spec5 c (fun b : Ref sig .tc => V c (Proc.devRef .tc b)) ∗ Er c)) := by
  rw [Pipeline.ownSems0_none]
  have hsplit := Pipeline.arrays_of_unscopedBufs (p := 5) (pcfgs (F := F)) adm (pdats (F := F) (Ix := Ix) (U := U) (Lvl := Lvl) d0 d1 d2 d3 d4 (datS5 (Ix := Ix) (U := U) (Lvl := Lvl) V) d6 d7 d8) launch5.win launch5.arr_whole c
    (((pdats (F := F) (Ix := Ix) (U := U) (Lvl := Lvl) d0 d1 d2 d3 d4 (datS5 (Ix := Ix) (U := U) (Lvl := Lvl) V) d6 d7 d8) 5 c).share_full fun _ => rfl) (fun b : Ref sig .tc => V c (Proc.devRef .tc b)) fun _ => rfl
  rw [Pipeline.unscopedBufs_held] at hsplit
  iintro ⟨⟨Hub, HE⟩, -, -⟩
  ihave HE2 := (hE c) $$ HE
  icases HE2 with ⟨Hp, ⟨%W0, HO⟩, Hr⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists W0; isplitr; · ipureintro; exact fun _ _ => Or.inl trivial
    iexact HO
  isplitl [Hp]; · iexact Hp
  isplitl [Hrest]; · iexact Hrest
  iexact Hr

set_option backward.isDefEq.respectTransparency.types false in
/-- The invariant at the first point from the register and the scoped buffers no window stages. -/
theorem hin5 (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c) (c : Dev nD) :
    iprop(iprop(∃ r, prngReg c r) ∗ Pipeline.prefHeld (Ix := Ix) (Name := ℕ) (U := U) (Lvl := Lvl) (pcfgs (F := F) 5).pre c (fun _ => fullShare) (adm (F := F) 5).1 ∗ Pipeline.scopedRest (Ix := Ix) (Name := ℕ) (U := U) (Lvl := Lvl) (Val := Elt F) spec5 c) ⊢ ((pdats (F := F) (Ix := Ix) (U := U) (Lvl := Lvl) d0 d1 d2 d3 d4 (datS5 (Ix := Ix) (U := U) (Lvl := Lvl) V) d6 d7 d8) 5 c).Φ 0 := by
  rw [show ((pdats (F := F) (Ix := Ix) (U := U) (Lvl := Lvl) d0 d1 d2 d3 d4 (datS5 (Ix := Ix) (U := U) (Lvl := Lvl) V) d6 d7 d8) 5 c).Φ 0 = PhiZ5 c from rfl]; unfold PhiZ5
  iintro ⟨Hp, -, Hr⟩
  isplitl [Hr]; · iexact Hr
  iexact Hp

set_option backward.isDefEq.respectTransparency.types false in
/-- The invariant at the last point gives them back. -/
theorem hout5 (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c) (c : Dev nD) :
    ((pdats (F := F) (Ix := Ix) (U := U) (Lvl := Lvl) d0 d1 d2 d3 d4 (datS5 (Ix := Ix) (U := U) (Lvl := Lvl) V) d6 d7 d8) 5 c).Φ (Fin.last cfg5.N) ⊢ iprop(iprop(∃ r, prngReg c r) ∗ Pipeline.ownSems0 (Ix := Ix) (Name := ℕ) (U := U) (Lvl := Lvl) (Val := Elt F) (τ := τ) (fun k : PEmpty => k.elim) c ∗ Pipeline.scopedRest (Ix := Ix) (Name := ℕ) (U := U) (Lvl := Lvl) (Val := Elt F) spec5 c) := by
  rw [Pipeline.ownSems0_none]
  have hΦ : ((pdats (F := F) (Ix := Ix) (U := U) (Lvl := Lvl) d0 d1 d2 d3 d4 (datS5 (Ix := Ix) (U := U) (Lvl := Lvl) V) d6 d7 d8) 5 c).Φ (Fin.last cfg5.N) ⊢ (PhiZ5 c : sProp 𝕄) :=
    PhiS5_out V c cfg5.N (Nat.le_refl _) (by rw [show cfg5.N = 9775 from N_5]; omega)
  refine hΦ.trans ?_
  unfold PhiZ5
  iintro ⟨Hr, Hp⟩
  isplitl [Hp]; · iexact Hp
  isplitr; · iempintro
  iexact Hr

set_option backward.isDefEq.respectTransparency.types false in
/-- EXIT: the arrays rejoin the unscoped buffers at the exit valuation; the rest is rebuilt. -/
theorem hexit5 (ι : Ix) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E' Er : Dev nD → sProp 𝕄) (hE' : ∀ c : Dev nD, iprop((∃ r, prngReg c r) ∗ (∃ W, owes (c : Thread nD τ) (0 : CellTallies nD τ sig Ix) W) ∗ Er c) ⊢ E' c) (c : Dev nD) :
    iprop(((pdats (F := F) (Ix := Ix) (U := U) (Lvl := Lvl) d0 d1 d2 d3 d4 (datS5 (Ix := Ix) (U := U) (Lvl := Lvl) V) d6 d7 d8) 5 c).arrays (((pdats (F := F) (Ix := Ix) (U := U) (Lvl := Lvl) d0 d1 d2 d3 d4 (datS5 (Ix := Ix) (U := U) (Lvl := Lvl) V) d6 d7 d8) 5 c).arrAt · cfg5.N) ∗ ((pdats (F := F) (Ix := Ix) (U := U) (Lvl := Lvl) d0 d1 d2 d3 d4 (datS5 (Ix := Ix) (U := U) (Lvl := Lvl) V) d6 d7 d8) 5 c).owesAt ι (Fin.last cfg5.N) ∗ iprop(∃ r, prngReg c r) ∗ iprop(Pipeline.unscopedRest (Ix := Ix) (Name := ℕ) (U := U) (Lvl := Lvl) spec5 c (fun b : Ref sig .tc => V c (Proc.devRef .tc b)) ∗ Er c))
      ⊢ |={Set.univ}=> iprop(StableHlo.held (c : Thread nD τ) (Pipeline.ucRefs τ sig) (Vout5 (Ix := Ix) (U := U) (Lvl := Lvl) V c) ∗ E' c) := by
  have hjoin := Pipeline.unscopedBufs_of_arrays (p := 5) (pcfgs (F := F)) adm (Ix := Ix) (Name := ℕ) (U := U) (Lvl := Lvl)
    launch5.win launch5.arr_whole c (pdats (F := F) (Ix := Ix) (U := U) (Lvl := Lvl) d0 d1 d2 d3 d4 (datS5 (Ix := Ix) (U := U) (Lvl := Lvl) V) d6 d7 d8) (((pdats (F := F) (Ix := Ix) (U := U) (Lvl := Lvl) d0 d1 d2 d3 d4 (datS5 (Ix := Ix) (U := U) (Lvl := Lvl) V) d6 d7 d8) 5 c).share_full fun _ => rfl)
    (fun b : Ref sig .tc => V c (Proc.devRef .tc b)) (fun b : Ref sig .tc => Vout5 (Ix := Ix) (U := U) (Lvl := Lvl) V c (Proc.devRef .tc b)) (((pdats (F := F) (Ix := Ix) (U := U) (Lvl := Lvl) d0 d1 d2 d3 d4 (datS5 (Ix := Ix) (U := U) (Lvl := Lvl) V) d6 d7 d8) 5 c).arrAt · cfg5.N) (hF5 V c) (hrest5 V c)
  rw [Pipeline.unscopedBufs_held] at hjoin
  iintro ⟨Ha, HO, HY, Hrest, Hr⟩
  imodintro
  isplitl [Ha Hrest]
  · iapply hjoin; isplitl [Ha]
    · iexact Ha
    iexact Hrest
  iapply (hE' c)
  isplitl [HY]; · iexact HY
  isplitl [HO]
  · unfold Pipeline.Dat.owesAt Pipeline.owesWithin
    icases HO with ⟨%W, -, HO⟩; iexists W; iexact HO
  iexact Hr

set_option backward.isDefEq.respectTransparency.types false in
/-- REGION 5 over the thread state: entered from every unscoped buffer at `V` beside a rest `E`, left with the output
    array at what the write-backs leave beside `E'`. The rest must contain the generator register at some state and
    the core owing nothing (`hE`), and is rebuilt from them and whatever else rode along (`hE'`). The kernel has no
    semaphore of its own; its accumulator enters the invariant with the scoped buffers and leaves with them. -/
def region5 (𝒱₀ : Variants) (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d6 : (c : Dev nD) → Dat τ (Elt F) Ix ℕ U Lvl (cfgs 6) c) (d7 : (c : Dev nD) → Dat τ (Elt F) Ix ℕ U Lvl (cfgs 7) c) (d8 : (c : Dev nD) → Dat τ (Elt F) Ix ℕ U Lvl (cfgs 8) c)
    (E E' Er : Dev nD → sProp 𝕄) (hE : ∀ c : Dev nD, E c ⊢ iprop((∃ r, prngReg c r) ∗ (∃ W, owes (c : Thread nD τ) (0 : CellTallies nD τ sig Ix) W) ∗ Er c)) (hE' : ∀ c : Dev nD, iprop((∃ r, prngReg c r) ∗ (∃ W, owes (c : Thread nD τ) (0 : CellTallies nD τ sig Ix) W) ∗ Er c) ⊢ E' c) :
    RegionSeg (pcfgs (F := F)) adm (pdats (F := F) (Ix := Ix) (U := U) (Lvl := Lvl) d0 d1 d2 d3 d4 (datS5 (Ix := Ix) (U := U) (Lvl := Lvl) V) d6 d7 d8) ι defs₀ 𝒱₀ L lv 5 where
  win := launch5.win.to₀
  block_pos := launch5.block_pos
  stage_whole := launch5.stage_whole
  K := PEmpty
  osem k := k.elim
  ho := Pipeline.OwnSemFacts.none _
  hbody c := body_obligation_loose5 𝒱₀ ι V c
  hwaits := Pipeline.hwaits_of_owed_zero _ _ _ _ L lv 5 fun _ _ => rfl
  pre c := iprop(StableHlo.held (c : Thread nD τ) (Pipeline.ucRefs τ sig) (V c) ∗ E c)
  post c := iprop(StableHlo.held (c : Thread nD τ) (Pipeline.ucRefs τ sig) (Vout5 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec5 c (fun b : Ref sig .tc => V c (Proc.devRef .tc b)) ∗ Er c)
  hentry c := hentry5 ι L lv V d0 d1 d2 d3 d4 d6 d7 d8 E Er hE c
  hin c := hin5 V d0 d1 d2 d3 d4 d6 d7 d8 c
  hout c := hout5 V d0 d1 d2 d3 d4 d6 d7 d8 c
  hexit c := hexit5 ι V d0 d1 d2 d3 d4 d6 d7 d8 E' Er hE' c

end Cert.Kernel.Hand

end
-- ==== Proof.Scat8PtsK.lean ====
import proofs.«104867_j4217657884863_1_alg».proof.Proof.Gen.Kernel.Launch
import proofs.«104867_j4217657884863_1_alg».proof.Proof.Gen.Kernel.Skeleton
import proofs.«104867_j4217657884863_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type}

local notation "𝕄" => MT nD τ sig Ix (Elt F) ℕ U Lvl

/-! # Scatter kernel, pipeline 8: the grid's control cases and the windows' blocks

The grid is 25 × 391, the second axis the fast one: point `t` has second coordinate `t % 391`. The body zeroes its
accumulator when that coordinate is 0 and stores the accumulator into the output block when it is 390. -/

/-- The condition of the body's first branch (the accumulator is zeroed): the second grid coordinate is 0. -/
abbrev cond8_0 (i : grid8.Coords) : Prop :=
  (Scalar.cmpi .ne (Scalar.extui (Scalar.cmpi .eq (BitVec.ofNat 32 (i 1).val) 0#32)) 0#32) = 1#1
/-- It holds exactly at the points ≡ 0 (mod 391). -/
theorem hcond8_0 : ∀ t : Fin cfg8.N, cond8_0 (grid8.coords t) ↔ t.val % 391 = 0 :=
  (by decide +kernel : ∀ t : Fin grid8.N, cond8_0 (grid8.coords t) ↔ t.val % 391 = 0)

/-- The condition of the body's second branch (the output block is stored): the second grid coordinate is 390. -/
abbrev cond8_1 (i : grid8.Coords) : Prop := k8_cond2 i = 1#1
/-- It holds exactly at the points ≡ 390 (mod 391). -/
theorem hcond8_1 : ∀ t : Fin cfg8.N, cond8_1 (grid8.coords t) ↔ t.val % 391 = 390 :=
  (by decide +kernel : ∀ t : Fin grid8.N, cond8_1 (grid8.coords t) ↔ t.val % 391 = 390)

/-- The two input windows are never idle. -/
theorem liveAt8_0 : ∀ t : Fin cfg8.N, cfg8.idle 0 (grid8.coords t) = false := fun _ => rfl
theorem liveAt8_1 : ∀ t : Fin cfg8.N, cfg8.idle 1 (grid8.coords t) = false := fun _ => rfl
/-- Away from the last step of a row the output window is idle and is not written back; at the last step it is live. -/
theorem idleAt8_2 : ∀ t : Fin cfg8.N, ¬cond8_1 (grid8.coords t) → cfg8.idle 2 (grid8.coords t) = true :=
  (by decide +kernel : ∀ t : Fin grid8.N, ¬cond8_1 (grid8.coords t) → cfg8.idle 2 (grid8.coords t) = true)
theorem noFlush8_2 : ∀ t : Fin cfg8.N, ¬cond8_1 (grid8.coords t) → (cfg8.win 2).flush t = false :=
  (by decide +kernel : ∀ t : Fin grid8.N, ¬cond8_1 (grid8.coords t) → win8_2.flush t = false)
theorem liveAt8_2 : ∀ t : Fin cfg8.N, cond8_1 (grid8.coords t) → cfg8.idle 2 (grid8.coords t) = false :=
  (by decide +kernel : ∀ t : Fin grid8.N, cond8_1 (grid8.coords t) → cfg8.idle 2 (grid8.coords t) = false)

/-- Each window's current staging memref at point `t`, and its wholeness. -/
abbrev ms8_0 (t : Fin cfg8.N) : Memref sig .tc .vmem S2048x64 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x2048 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x64 .f32 := win8_2.stage (cfg8.slots t 2)
abbrev hs8_2 (t : Fin cfg8.N) : (ms8_2 t).IsWhole := hstage8_2 ((cfg8.slots t 2).cast nbuf8_2)
/-- The accumulator: a whole scoped buffer of the kernel's own, carried from point to point. -/
abbrev scM8_0 : Memref sig .tc .vmem S2048x64 .f32 := Memref.whole cc8_scratch0
/-- The views through which the accumulator's and the output block's contents are stated. -/
abbrev VS8_0 : View sig .tc .vmem S2048x64 .f32 := scM8_0.view
abbrev VO8_2 : View sig .tc .vmem S2048x64 .f32 := (Memref.whole cc8_stg2_0 : Memref sig .tc .vmem S2048x64 .f32).view

section Blocks

variable (V : Dev nD → Valuation τ sig (Elt F))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, for any proof data whose array is the
    region-entry one and whose body leaves the block in place. -/
theorem before8_0_of {c : Dev nD} (dat : Dat τ (Elt F) Ix ℕ U Lvl cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Ix ℕ U Lvl cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

end Blocks

end Cert.Kernel.Hand

end
-- ==== Proof.Scat8RunAK.lean ====
import proofs.«104867_j4217657884863_1_alg».proof.Proof.Scat8PtsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the FIRST step of a row (first branch taken, second not): the accumulator, found at anything, is
    zeroed and then receives this step's contribution; the output block is not touched. The pieces the accumulator ends
    with are the witness the run finds. -/
noncomputable def kernelRun8_A (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S2048x64 .f32) (x1 : Vec F S1x2048 .i32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc8__scatter_kernel i arg2 harg2 arg3 harg3 arg4 harg4 arg5 harg5) K } := by
  refine ⟨?_, fun 𝒱₀ d2 E K => ?run⟩
  case run =>
    simp only [cc8__scatter_kernel_eq_skeleton]; unfold cc8__scatter_kernel_skel
    unfold owns
    iintro ⟨⟨%f0, %hf0, H0⟩, ⟨%f1, %hf1, H1⟩, H2, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.Kernel.Hand

end
-- ==== Proof.Scat8RunBK.lean ====
import proofs.«104867_j4217657884863_1_alg».proof.Proof.Scat8RunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at a MIDDLE step of a row (neither branch taken): the accumulator, found at what the step before
    left, receives this step's contribution; the output block is not touched. -/
noncomputable def kernelRun8_B (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S2048x64 .f32) (x1 : Vec F S1x2048 .i32) (xs0 : Vec F S2048x64 .f32) :
    { LS0 : List (View.Piece (Elt F) S2048x64 .f32) //
      ∀ (𝒱₀ : Variants) (d2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs0
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS0)) -∗ K ⟨⟩))
          ⊢ wp frame (wpE (defs₀ (F := F)) 𝒱₀ c none) E (cc8__scatter_kernel i arg2 harg2 arg3 harg3 arg4 harg4 arg5 harg5) K } := by
  refine ⟨?_, fun 𝒱₀ d2 E K => ?run⟩
  case run =>
    simp only [cc8__scatter_kernel_eq_skeleton]; unfold cc8__scatter_kernel_skel
    unfold owns
    iintro ⟨⟨%f0, %hf0, H0⟩, ⟨%f1, %hf1, H1⟩, H2, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

end Cert.Kernel.Hand

end
-- ==== Proof.Scat8RunCK.lean ====
import proofs.«104867_j4217657884863_1_alg».proof.Proof.Scat8RunBK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

set_option maxHeartbeats 1000000 in
/-- The body at the LAST step of a row (first branch not taken, second taken): the accumulator, found at what the
    step before left, receives this step's contribution and is then stored into the output block, found at anything. -/
noncomputable def kernelRun8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) :
    Σ' (L2 : List (View.Piece (Elt F) S2048x64 .f32)), { LS0 : List (View.Piece (Elt F) S2048x64 .f32) //
      ∀ (𝒱₀ : Variants) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) 𝒱₀ c none) E (cc8__scatter_kernel i arg2 harg2 arg3 harg3 arg4 harg4 arg5 harg5) K } := by
  refine ⟨?_, ?_, fun 𝒱₀ E K => ?run⟩
  case run =>
    simp only [cc8__scatter_kernel_eq_skeleton]; unfold cc8__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Scat8DatK.lean ====
import proofs.«104867_j4217657884863_1_alg».proof.Proof.Scat8RunCK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8: the accumulation and the proof data -/

section Data

variable (V : Dev nD → Valuation τ sig (Elt F))

/-! ## What each case leaves, read back -/

/-- The first step's pieces tile the accumulator, -/
theorem scover8_A (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S2048x64 .f32) (x1 : Vec F S1x2048 .i32) (y : S2048x64.Idx) :
    ∃ pc ∈ (kernelRun8_A (Ix := Ix) (U := U) (Lvl := Lvl) c i arg2 harg2 arg3 harg3 arg4 harg4 arg5 harg5 hc0 hc1 x0 x1).1, y ∈ pc.1.set :=
  View.cover_of_tiledL (kernelRun8_A (Ix := Ix) (U := U) (Lvl := Lvl) c i arg2 harg2 arg3 harg3 arg4 harg4 arg5 harg5 hc0 hc1 x0 x1).1 S2048x64.size (by sl_kernel_rfl) y
/-- and this is what they leave in it. -/
def sout8_A (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S2048x64 .f32) (x1 : Vec F S1x2048 .i32) : Vec F S2048x64 .f32 :=
  VS8_0.read (Elt F) (VS8_0.writes (Elt F) VS8_0.junk (kernelRun8_A (Ix := Ix) (U := U) (Lvl := Lvl) c i arg2 harg2 arg3 harg3 arg4 harg4 arg5 harg5 hc0 hc1 x0 x1).1)

/-- A middle step's pieces tile the accumulator, -/
theorem scover8_B (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S2048x64 .f32) (x1 : Vec F S1x2048 .i32) (xs0 : Vec F S2048x64 .f32) (y : S2048x64.Idx) :
    ∃ pc ∈ (kernelRun8_B (Ix := Ix) (U := U) (Lvl := Lvl) c i arg2 harg2 arg3 harg3 arg4 harg4 arg5 harg5 hc0 hc1 x0 x1 xs0).1, y ∈ pc.1.set :=
  View.cover_of_tiledL (kernelRun8_B (Ix := Ix) (U := U) (Lvl := Lvl) c i arg2 harg2 arg3 harg3 arg4 harg4 arg5 harg5 hc0 hc1 x0 x1 xs0).1 S2048x64.size (by sl_kernel_rfl) y
/-- and this is what they leave in it. -/
def sout8_B (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S2048x64 .f32) (x1 : Vec F S1x2048 .i32) (xs0 : Vec F S2048x64 .f32) : Vec F S2048x64 .f32 :=
  VS8_0.read (Elt F) (VS8_0.writes (Elt F) VS8_0.junk (kernelRun8_B (Ix := Ix) (U := U) (Lvl := Lvl) c i arg2 harg2 arg3 harg3 arg4 harg4 arg5 harg5 hc0 hc1 x0 x1 xs0).1)

/-- The last step's pieces tile the accumulator and the output block, -/
theorem scover8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) (y : S2048x64.Idx) :
    ∃ pc ∈ (kernelRun8_C (Ix := Ix) (U := U) (Lvl := Lvl) c i arg2 harg2 arg3 harg3 arg4 harg4 arg5 harg5 hc0 hc1 x0 x1 xs0).2.1, y ∈ pc.1.set :=
  View.cover_of_tiledL (kernelRun8_C (Ix := Ix) (U := U) (Lvl := Lvl) c i arg2 harg2 arg3 harg3 arg4 harg4 arg5 harg5 hc0 hc1 x0 x1 xs0).2.1 S2048x64.size (by sl_kernel_rfl) y
theorem cover8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) (y : S2048x64.Idx) :
    ∃ pc ∈ (kernelRun8_C (Ix := Ix) (U := U) (Lvl := Lvl) c i arg2 harg2 arg3 harg3 arg4 harg4 arg5 harg5 hc0 hc1 x0 x1 xs0).1, y ∈ pc.1.set :=
  View.cover_of_tiledL (kernelRun8_C (Ix := Ix) (U := U) (Lvl := Lvl) c i arg2 harg2 arg3 harg3 arg4 harg4 arg5 harg5 hc0 hc1 x0 x1 xs0).1 S2048x64.size (by sl_kernel_rfl) y
/-- and this is what they leave in each. -/
def sout8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) : Vec F S2048x64 .f32 :=
  VS8_0.read (Elt F) (VS8_0.writes (Elt F) VS8_0.junk (kernelRun8_C (Ix := Ix) (U := U) (Lvl := Lvl) c i arg2 harg2 arg3 harg3 arg4 harg4 arg5 harg5 hc0 hc1 x0 x1 xs0).2.1)
def out8_C (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) : Vec F S2048x64 .f32 :=
  VO8_2.read (Elt F) (VO8_2.writes (Elt F) VO8_2.junk (kernelRun8_C (Ix := Ix) (U := U) (Lvl := Lvl) c i arg2 harg2 arg3 harg3 arg4 harg4 arg5 harg5 hc0 hc1 x0 x1 xs0).1)

/-! ## The accumulation -/

/-- THE ACCUMULATOR after the body at position `n`, by recursion on the position: at the first step of a row the
    first-step contents (they do not depend on what came before); at any other step that step's contents over what the
    position before left. -/
def accAt8 (c : Dev nD) : (n : ℕ) → n < cfg8.N → Vec F S2048x64 .f32
  | 0, hn => sout8_A (Ix := Ix) (U := U) (Lvl := Lvl) c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩)
  | n + 1, hn =>
    if h0 : (n + 1) % 391 = 0 then
      if h1 : (n + 1) % 391 = 390 then
        False.elim (by omega)
      else
        sout8_A (Ix := Ix) (U := U) (Lvl := Lvl) c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩)
    else
      if h1 : (n + 1) % 391 = 390 then
        sout8_C (Ix := Ix) (U := U) (Lvl := Lvl) c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (accAt8 c n (Nat.lt_of_succ_lt hn))
      else
        sout8_B (Ix := Ix) (U := U) (Lvl := Lvl) c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (accAt8 c n (Nat.lt_of_succ_lt hn))

/-- The accumulator at a first step, -/
theorem accAt8_A (c : Dev nD) (t : Fin cfg8.N) (h0 : t.val % 391 = 0) (h1 : ¬t.val % 391 = 390) :
    accAt8 (Ix := Ix) (U := U) (Lvl := Lvl) V c t.val t.isLt = sout8_A (Ix := Ix) (U := U) (Lvl := Lvl) c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t) := by
  obtain ⟨n, hn⟩ := t
  cases n with
  | zero => exact rfl
  | succ n => exact (dif_pos h0).trans ((dif_neg h1).trans rfl)
/-- at a middle step, -/
theorem accAt8_B (c : Dev nD) (t : Fin cfg8.N) (h0 : ¬t.val % 391 = 0) (h1 : ¬t.val % 391 = 390) :
    accAt8 (Ix := Ix) (U := U) (Lvl := Lvl) V c t.val t.isLt = sout8_B (Ix := Ix) (U := U) (Lvl := Lvl) c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (accAt8 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem accAt8_C (c : Dev nD) (t : Fin cfg8.N) (h0 : ¬t.val % 391 = 0) (h1 : t.val % 391 = 390) :
    accAt8 (Ix := Ix) (U := U) (Lvl := Lvl) V c t.val t.isLt = sout8_C (Ix := Ix) (U := U) (Lvl := Lvl) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (accAt8 (Ix := Ix) (U := U) (Lvl := Lvl) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last step the block that step
    stores; elsewhere the window is idle and the value is not consulted (the accumulator stands in). -/
def outAt8 (c : Dev nD) (t : Fin cfg8.N) : Vec F S2048x64 .f32 :=
  if h1 : t.val % 391 = 390 then
    if h0 : t.val % 391 = 0 then accAt8 (Ix := Ix) (U := U) (Lvl := Lvl) V c t.val t.isLt
    else out8_C (Ix := Ix) (U := U) (Lvl := Lvl) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (accAt8 (Ix := Ix) (U := U) (Lvl := Lvl) V c (t.val - 1) (Nat.lt_of_le_of_lt (Nat.sub_le _ _) t.isLt))
  else accAt8 (Ix := Ix) (U := U) (Lvl := Lvl) V c t.val t.isLt

theorem outAt8_C (c : Dev nD) (t : Fin cfg8.N) (h0 : ¬t.val % 391 = 0) (h1 : t.val % 391 = 390) :
    outAt8 (Ix := Ix) (U := U) (Lvl := Lvl) V c t = out8_C (Ix := Ix) (U := U) (Lvl := Lvl) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (accAt8 (Ix := Ix) (U := U) (Lvl := Lvl) V c (t.val - 1) (Nat.lt_of_le_of_lt (Nat.sub_le _ _) t.isLt)) :=
  (dif_pos h1).trans (dif_neg h0)

/-! ## The invariant -/

/-- The kernel's scratch and every other scoped buffer no window stages, each at anything, beside the generator
    register at some state: what the region hands the first point. -/
def PhiZ8 (c : Dev nD) : sProp 𝕄 :=
  iprop(Pipeline.scopedRest (Ix := Ix) (Name := ℕ) (U := U) (Lvl := Lvl) (Val := Elt F) spec8 c ∗ ∃ r, prngReg c r)

/-- The invariant before position `n`: before the first point `PhiZ`; afterwards the accumulator whole at what the
    position before left, the other scoped buffers at anything, the generator register at some state. -/
def PhiS8 (c : Dev nD) : (n : ℕ) → n ≤ cfg8.N → sProp 𝕄
  | 0, _ => PhiZ8 c
  | n + 1, hn => iprop(owns (c : Thread nD τ) scM8_0 fullShare (accAt8 (Ix := Ix) (U := U) (Lvl := Lvl) V c n hn)
      ∗ Pipeline.scopedRestBut (Ix := Ix) (Name := ℕ) (U := U) (Lvl := Lvl) (Val := Elt F) spec8 c [cc8_scratch0] ∗ ∃ r, prngReg c r)

theorem PhiS8_zero (c : Dev nD) (n : ℕ) (h : n ≤ cfg8.N) (hz : n = 0) : PhiS8 (Ix := Ix) (U := U) (Lvl := Lvl) V c n h = PhiZ8 c := by
  subst hz; rfl
theorem PhiS8_succ (c : Dev nD) (n : ℕ) (hn : n < cfg8.N) :
    PhiS8 (Ix := Ix) (U := U) (Lvl := Lvl) V c (n + 1) hn = iprop(owns (c : Thread nD τ) scM8_0 fullShare (accAt8 (Ix := Ix) (U := U) (Lvl := Lvl) V c n hn)
      ∗ Pipeline.scopedRestBut (Ix := Ix) (Name := ℕ) (U := U) (Lvl := Lvl) (Val := Elt F) spec8 c [cc8_scratch0] ∗ ∃ r, prngReg c r) := rfl
theorem PhiS8_pos (c : Dev nD) (n : ℕ) (h : n ≤ cfg8.N) (hz : n ≠ 0) :
    PhiS8 (Ix := Ix) (U := U) (Lvl := Lvl) V c n h = iprop(owns (c : Thread nD τ) scM8_0 fullShare (accAt8 (Ix := Ix) (U := U) (Lvl := Lvl) V c (n - 1) (by omega))
      ∗ Pipeline.scopedRestBut (Ix := Ix) (Name := ℕ) (U := U) (Lvl := Lvl) (Val := Elt F) spec8 c [cc8_scratch0] ∗ ∃ r, prngReg c r) := by
  cases n with
  | zero => exact absurd rfl hz
  | succ n => rfl

/-- `PhiZ` with the accumulator split out of the scoped rest, owned at some contents. -/
theorem PhiZ8_eq (c : Dev nD) :
    (PhiZ8 c : sProp 𝕄)
      = iprop(((∃ d, owns (c : Thread nD τ) scM8_0 fullShare d)
          ∗ Pipeline.scopedRestBut (Ix := Ix) (Name := ℕ) (U := U) (Lvl := Lvl) (Val := Elt F) spec8 c [cc8_scratch0]) ∗ ∃ r, prngReg c r) := by
  unfold PhiZ8; rw [scopedRest8_split]; simp only [scM8_0, owns_whole]; try rfl

/-- After any point the invariant gives `PhiZ` back: the accumulator's named contents are forgotten. -/
theorem PhiS8_out (c : Dev nD) (n : ℕ) (h : n ≤ cfg8.N) (hz : n ≠ 0) :
    PhiS8 (Ix := Ix) (U := U) (Lvl := Lvl) V c n h ⊢ PhiZ8 c := by
  rw [PhiS8_pos V c _ _ hz, PhiZ8_eq]
  iintro ⟨HS0, HR, Hg⟩
  isplitl [HS0 HR]
  · isplitl [HS0]
    · iexists _; iexact HS0
    iexact HR
  iexact Hg

/-! ## The proof data -/

/-- The proof data of pipeline 8 on core `c`: the arrays as the region finds them; after the body each input's buffer
    at its block and the output's at `outAt`; the invariant `PhiS`; nothing owed; full shares. -/
def datS8 (c : Dev nD) : Dat τ (Elt F) Ix ℕ U Lvl cfg8 c where
  A w := V c (Pipeline.arrRef spec8 w)
  after w t := match w with
    | ⟨0, _⟩ => iblk8 V c 0 t
    | ⟨1, _⟩ => iblk8 V c 1 t
    | ⟨2, _⟩ => outAt8 (Ix := Ix) (U := U) (Lvl := Lvl) V c t
  Φ t := PhiS8 V c t.val (Nat.le_of_lt_succ t.isLt)
  q _ := fullShare
  owed _ := 0

theorem A_eq8 (c : Dev nD) (w : Fin cfg8.W) : (datS8 (Ix := Ix) (U := U) (Lvl := Lvl) V c).A w = V c (Pipeline.arrRef spec8 w) := by
  dsimp only [datS8]
theorem PhiS8_castSucc (c : Dev nD) (t : Fin cfg8.N) :
    (datS8 (Ix := Ix) (U := U) (Lvl := Lvl) V c).Φ t.castSucc = PhiS8 V c t.val (Nat.le_of_lt t.isLt) := by
  dsimp only [datS8]; simp only [Fin.coe_castSucc]
theorem after8_0 (c : Dev nD) (t : Fin cfg8.N) : (datS8 (Ix := Ix) (U := U) (Lvl := Lvl) V c).after 0 t = iblk8 V c 0 t := by dsimp only [datS8]
theorem after8_1 (c : Dev nD) (t : Fin cfg8.N) : (datS8 (Ix := Ix) (U := U) (Lvl := Lvl) V c).after 1 t = iblk8 V c 1 t := by dsimp only [datS8]
theorem after8_2 (c : Dev nD) (t : Fin cfg8.N) : (datS8 (Ix := Ix) (U := U) (Lvl := Lvl) V c).after 2 t = outAt8 (Ix := Ix) (U := U) (Lvl := Lvl) V c t := by dsimp only [datS8]
theorem before8_0 (c : Dev nD) (t : Fin cfg8.N) (d) : (datS8 (Ix := Ix) (U := U) (Lvl := Lvl) V c).before 0 t d = iblk8 V c 0 t :=
  before8_0_of V (datS8 V c) (A_eq8 V c 0) (after8_0 V c) t d
theorem before8_1 (c : Dev nD) (t : Fin cfg8.N) (d) : (datS8 (Ix := Ix) (U := U) (Lvl := Lvl) V c).before 1 t d = iblk8 V c 1 t :=
  before8_1_of V (datS8 V c) (A_eq8 V c 1) (after8_1 V c) t d

end Data

end Cert.Kernel.Hand

end
-- ==== Proof.Scat8BodyK.lean ====
import proofs.«104867_j4217657884863_1_alg».proof.Proof.Scat8DatK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8: the body obligation -/

section Body

variable (𝒱₀ : Variants) (ι : Ix) (V : Dev nD → Valuation τ sig (Elt F))

/-- What the body is called with at point `t`, the windows one by one, -/
def bodyPre8 (c : Dev nD) (t : Fin cfg8.N) : sProp 𝕄 :=
  iprop((datS8 (Ix := Ix) (U := U) (Lvl := Lvl) V c).Φ t.castSucc ∗ (datS8 (Ix := Ix) (U := U) (Lvl := Lvl) V c).owesAt ι t.castSucc
    ∗ (∃ d, owns (c : Thread nD τ) (ms8_0 t) fullShare ((datS8 (Ix := Ix) (U := U) (Lvl := Lvl) V c).before 0 t d))
    ∗ (∃ d, owns (c : Thread nD τ) (ms8_1 t) fullShare ((datS8 (Ix := Ix) (U := U) (Lvl := Lvl) V c).before 1 t d))
    ∗ (∃ d, owns (c : Thread nD τ) (ms8_2 t) fullShare ((datS8 (Ix := Ix) (U := U) (Lvl := Lvl) V c).before 2 t d)))

/-- and what it returns. -/
def bodyPost8 (c : Dev nD) (t : Fin cfg8.N) : sProp 𝕄 :=
  iprop((datS8 (Ix := Ix) (U := U) (Lvl := Lvl) V c).Φ t.succ ∗ (datS8 (Ix := Ix) (U := U) (Lvl := Lvl) V c).owesAt ι t.succ
    ∗ (datS8 (Ix := Ix) (U := U) (Lvl := Lvl) V c).leavesExact 0 t
    ∗ (datS8 (Ix := Ix) (U := U) (Lvl := Lvl) V c).leavesExact 1 t
    ∗ (datS8 (Ix := Ix) (U := U) (Lvl := Lvl) V c).leavesExact 2 t)

set_option maxHeartbeats 4800000 in
/-- The body at any point. The inputs' buffers hold their blocks; the point's position in its row says which case it
    is in; the invariant hands the body the accumulator at what the position before left (at anything before the first
    point) and takes it back at this position's contents; away from a row's last step the output's buffer is handed
    back as found, at the last step it holds the stored block; the core owes nothing throughout. -/
theorem sound_body8 (c : Dev nD) (t : Fin cfg8.N) :
    bodyPre8 (F := F) (U := U) (Lvl := Lvl) ι V c t ⊢ wp frame (wpE (defs₀ (F := F)) 𝒱₀ c none) Set.univ (bodyAt8 t) (fun _ => bodyPost8 (F := F) (U := U) (Lvl := Lvl) ι V c t) := by
  unfold bodyPre8 bodyPost8 bodyAt8
  simp only [before8_0, before8_1]
  rw [show (datS8 (Ix := Ix) (U := U) (Lvl := Lvl) V c).owesAt ι t.succ = (datS8 (Ix := Ix) (U := U) (Lvl := Lvl) V c).owesAt ι t.castSucc from rfl]
  rw [show (datS8 (Ix := Ix) (U := U) (Lvl := Lvl) V c).Φ t.succ = PhiS8 V c (t.val + 1) t.isLt from rfl, PhiS8_succ]
  rw [show (datS8 (Ix := Ix) (U := U) (Lvl := Lvl) V c).leavesExact 0 t = owns (c : Thread nD τ) (ms8_0 t) fullShare ((datS8 (Ix := Ix) (U := U) (Lvl := Lvl) V c).after 0 t) from by
    unfold Dat.leavesExact; rw [liveAt8_0 t], after8_0]
  rw [show (datS8 (Ix := Ix) (U := U) (Lvl := Lvl) V c).leavesExact 1 t = owns (c : Thread nD τ) (ms8_1 t) fullShare ((datS8 (Ix := Ix) (U := U) (Lvl := Lvl) V c).after 1 t) from by
    unfold Dat.leavesExact; rw [liveAt8_1 t], after8_1]
  have hN : t.val < 9775 := lt_of_lt_of_eq t.isLt (show cfg8.N = 9775 from N_8)
  by_cases h0 : t.val % 391 = 0
  · have h1 : ¬t.val % 391 = 390 := by omega
    rw [Dat.leavesExact_idle (datS8 (Ix := Ix) (U := U) (Lvl := Lvl) V c) 2 t (idleAt8_2 t (fun h => h1 ((hcond8_1 t).mp h))) (noFlush8_2 t (fun h => h1 ((hcond8_1 t).mp h)))]
    rw [accAt8_A V c t h0 h1]
    unfold sout8_A; (try dsimp only)
    by_cases hz : t.val = 0
    · rw [PhiS8_castSucc V c t, PhiS8_zero V c _ _ hz, PhiZ8_eq]
      iintro ⟨⟨⟨HS0, HR⟩, Hg⟩, Ho, ⟨%d0, H0⟩, ⟨%d1, H1⟩, ⟨%d2, H2⟩⟩
      iapply ((kernelRun8_A c (grid8.coords t) _ _ _ _ _ _ _ _ ((hcond8_0 t).mpr h0) (fun h => h1 ((hcond8_1 t).mp h)) (iblk8 V c 0 t) (iblk8 V c 1 t)).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover8_A c _ _ _ _ _ _ _ _ _ _ _ _ _)
        isplitl [HR]; · iexact HR
        iexact Hg
      isplitl [Ho]; · iexact Ho
      isplitl [H0]; · iexact H0
      isplitl [H1]; · iexact H1
      iexists _; iexact H2
    · rw [PhiS8_castSucc V c t, PhiS8_pos V c _ _ hz]
      iintro ⟨⟨HS0, HR, Hg⟩, Ho, ⟨%d0, H0⟩, ⟨%d1, H1⟩, ⟨%d2, H2⟩⟩
      iapply ((kernelRun8_A c (grid8.coords t) _ _ _ _ _ _ _ _ ((hcond8_0 t).mpr h0) (fun h => h1 ((hcond8_1 t).mp h)) (iblk8 V c 0 t) (iblk8 V c 1 t)).2 𝒱₀ _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover8_A c _ _ _ _ _ _ _ _ _ _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 391 = 390
    · rw [show (datS8 (Ix := Ix) (U := U) (Lvl := Lvl) V c).leavesExact 2 t = owns (c : Thread nD τ) (ms8_2 t) fullShare ((datS8 (Ix := Ix) (U := U) (Lvl := Lvl) V c).after 2 t) from by
        unfold Dat.leavesExact; rw [liveAt8_2 t ((hcond8_1 t).mpr h1)], after8_2]
      rw [outAt8_C V c t h0 h1, accAt8_C V c t h0 h1]
      unfold out8_C sout8_C; (try dsimp only)
      rw [PhiS8_castSucc V c t, PhiS8_pos V c _ _ hz]
      iintro ⟨⟨HS0, HR, Hg⟩, Ho, ⟨%d0, H0⟩, ⟨%d1, H1⟩, ⟨%d2, H2⟩⟩
      iapply ((kernelRun8_C c (grid8.coords t) _ _ _ _ _ _ _ _ (fun h => h0 ((hcond8_0 t).mp h)) ((hcond8_1 t).mpr h1) (iblk8 V c 0 t) (iblk8 V c 1 t) _).2.2 𝒱₀ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover8_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover8_C c _ _ _ _ _ _ _ _ _ _ _ _ _ _)
    · rw [Dat.leavesExact_idle (datS8 (Ix := Ix) (U := U) (Lvl := Lvl) V c) 2 t (idleAt8_2 t (fun h => h1 ((hcond8_1 t).mp h))) (noFlush8_2 t (fun h => h1 ((hcond8_1 t).mp h)))]
      rw [accAt8_B V c t h0 h1]
      unfold sout8_B; (try dsimp only)
      rw [PhiS8_castSucc V c t, PhiS8_pos V c _ _ hz]
      iintro ⟨⟨HS0, HR, Hg⟩, Ho, ⟨%d0, H0⟩, ⟨%d1, H1⟩, ⟨%d2, H2⟩⟩
      iapply ((kernelRun8_B c (grid8.coords t) _ _ _ _ _ _ _ _ (fun h => h0 ((hcond8_0 t).mp h)) (fun h => h1 ((hcond8_1 t).mp h)) (iblk8 V c 0 t) (iblk8 V c 1 t) _).2 𝒱₀ _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover8_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation8 (c : Dev nD) : BodyObligation (datS8 (Ix := Ix) (U := U) (Lvl := Lvl) V c) (defs₀ (F := F)) 𝒱₀ ι Set.univ := fun t => by
  rw [bigSep_W8, bigSep_W8]
  exact sound_body8 𝒱₀ ι V c t

/-- The same in the form the region rule takes. -/
theorem body_obligation_loose8 (c : Dev nD) : BodyObligationLoose (datS8 (Ix := Ix) (U := U) (Lvl := Lvl) V c) (defs₀ (F := F)) 𝒱₀ ι Set.univ :=
  (body_obligation8 𝒱₀ ι V c).loose

end Body

end Cert.Kernel.Hand

end
-- ==== Proof.Scat8RegionK.lean ====
import proofs.«104867_j4217657884863_1_alg».proof.Proof.Scat8BodyK
import proofs.«104867_j4217657884863_1_alg».proof.Proof.Gen.Kernel.Regions
import proofs.«104867_j4217657884863_1_alg».proof.Proof.DatsK
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8: the region record -/

/-- The unscoped buffers when the region is left: the output array at what the write-backs leave, every other buffer
    as the region found it. -/
def Vout8 (V : Dev nD → Valuation τ sig (Elt F)) (c : Dev nD) : Valuation τ sig (Elt F) :=
  Function.update (V c) main_v65 ((datS8 (Ix := Ix) (U := U) (Lvl := Lvl) V c).arrAt 2 cfg8.N)

section Exit
variable (V : Dev nD → Valuation τ sig (Elt F))

/-- Each of the pipeline's arrays holds at exit what the write-backs leave: the two inputs are never written, -/
theorem hF8_0 (c : Dev nD) : (datS8 (Ix := Ix) (U := U) (Lvl := Lvl) V c).arrAt 0 cfg8.N = Vout8 (Ix := Ix) (U := U) (Lvl := Lvl) V c (Proc.devRef .tc (Pipeline.arrRef spec8 0)) :=
  (((datS8 (Ix := Ix) (U := U) (Lvl := Lvl) V c).arrAt_in 0 rfl _).trans (A_eq8 V c 0)).trans
    (Function.update_of_ne (StableHlo.devRef_ne_of_ne (by decide) : (Proc.devRef .tc (Pipeline.arrRef spec8 0) : DevRef τ sig) ≠ Proc.devRef .tc main_v65) _ _).symm
theorem hF8_1 (c : Dev nD) : (datS8 (Ix := Ix) (U := U) (Lvl := Lvl) V c).arrAt 1 cfg8.N = Vout8 (Ix := Ix) (U := U) (Lvl := Lvl) V c (Proc.devRef .tc (Pipeline.arrRef spec8 1)) :=
  (((datS8 (Ix := Ix) (U := U) (Lvl := Lvl) V c).arrAt_in 1 rfl _).trans (A_eq8 V c 1)).trans
    (Function.update_of_ne (StableHlo.devRef_ne_of_ne (by decide) : (Proc.devRef .tc (Pipeline.arrRef spec8 1) : DevRef τ sig) ≠ Proc.devRef .tc main_v65) _ _).symm
/-- and the output holds the value the exit valuation was updated with; -/
theorem hF8_2 (c : Dev nD) : (datS8 (Ix := Ix) (U := U) (Lvl := Lvl) V c).arrAt 2 cfg8.N = Vout8 (Ix := Ix) (U := U) (Lvl := Lvl) V c (Proc.devRef .tc (Pipeline.arrRef spec8 2)) := by
  unfold Vout8
  generalize (datS8 (Ix := Ix) (U := U) (Lvl := Lvl) V c).arrAt 2 cfg8.N = X
  exact (Function.update_self (Proc.devRef .tc main_v65 : DevRef τ sig) X (V c)).symm
theorem hF8 (c : Dev nD) (w : Fin cfg8.W) :
    (datS8 (Ix := Ix) (U := U) (Lvl := Lvl) V c).arrAt w cfg8.N = (fun b : Ref sig .tc => Vout8 (Ix := Ix) (U := U) (Lvl := Lvl) V c (Proc.devRef .tc b)) (Pipeline.arrRef spec8 w) :=
  match w with
  | ⟨0, _⟩ => hF8_0 V c
  | ⟨1, _⟩ => hF8_1 V c
  | ⟨2, _⟩ => hF8_2 V c
/-- every other buffer holds what it held at entry. -/
theorem hrest8 (c : Dev nD) : ∀ b : Ref sig .tc, b ∉ Finset.univ.image (Pipeline.arrRef spec8) →
    Vout8 (Ix := Ix) (U := U) (Lvl := Lvl) V c (Proc.devRef .tc b) = V c (Proc.devRef .tc b) :=
  fun b hb => Function.update_of_ne (StableHlo.devRef_ne_of_ne fun e => hb (Finset.mem_image.mpr ⟨2, Finset.mem_univ _, e.symm⟩)) _ _

end Exit

set_option backward.isDefEq.respectTransparency.types false in
/-- ENTRY: the arrays split out of the unscoped buffers; the rest's register, its `owes` and what rides along sorted out. -/
theorem hentry8 (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c)
    (E Er : Dev nD → sProp 𝕄) (hE : ∀ c : Dev nD, E c ⊢ iprop((∃ r, prngReg c r) ∗ (∃ W, owes (c : Thread nD τ) (0 : CellTallies nD τ sig Ix) W) ∗ Er c)) (c : Dev nD) :
    iprop(iprop(StableHlo.held (c : Thread nD τ) (Pipeline.ucRefs τ sig) (V c) ∗ E c) ∗ Pipeline.ownSems0 (Ix := Ix) (Name := ℕ) (U := U) (Lvl := Lvl) (Val := Elt F) (τ := τ) (fun k : PEmpty => k.elim) c ∗ levAts L lv)
      ⊢ |={Set.univ}=> iprop(((pdats (F := F) (Ix := Ix) (U := U) (Lvl := Lvl) d0 d1 d2 d3 d4 d5 d6 d7 (datS8 (Ix := Ix) (U := U) (Lvl := Lvl) V)) 8 c).arrays (((pdats (F := F) (Ix := Ix) (U := U) (Lvl := Lvl) d0 d1 d2 d3 d4 d5 d6 d7 (datS8 (Ix := Ix) (U := U) (Lvl := Lvl) V)) 8 c).arrAt · 0) ∗ Pipeline.prefHeld (Ix := Ix) (Name := ℕ) (U := U) (Lvl := Lvl) (pcfgs (F := F) 8).pre c (fun _ => fullShare) (adm (F := F) 8).1
          ∗ ((pdats (F := F) (Ix := Ix) (U := U) (Lvl := Lvl) d0 d1 d2 d3 d4 d5 d6 d7 (datS8 (Ix := Ix) (U := U) (Lvl := Lvl) V)) 8 c).owesAt ι 0 ∗ iprop(∃ r, prngReg c r) ∗ iprop(Pipeline.unscopedRest (Ix := Ix) (Name := ℕ) (U := U) (Lvl := Lvl) spec8 c (fun b : Ref sig .tc => V c (Proc.devRef .tc b)) ∗ Er c)) := by
  rw [Pipeline.ownSems0_none]
  have hsplit := Pipeline.arrays_of_unscopedBufs (p := 8) (pcfgs (F := F)) adm (pdats (F := F) (Ix := Ix) (U := U) (Lvl := Lvl) d0 d1 d2 d3 d4 d5 d6 d7 (datS8 (Ix := Ix) (U := U) (Lvl := Lvl) V)) launch8.win launch8.arr_whole c
    (((pdats (F := F) (Ix := Ix) (U := U) (Lvl := Lvl) d0 d1 d2 d3 d4 d5 d6 d7 (datS8 (Ix := Ix) (U := U) (Lvl := Lvl) V)) 8 c).share_full fun _ => rfl) (fun b : Ref sig .tc => V c (Proc.devRef .tc b)) fun _ => rfl
  rw [Pipeline.unscopedBufs_held] at hsplit
  iintro ⟨⟨Hub, HE⟩, -, -⟩
  ihave HE2 := (hE c) $$ HE
  icases HE2 with ⟨Hp, ⟨%W0, HO⟩, Hr⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists W0; isplitr; · ipureintro; exact fun _ _ => Or.inl trivial
    iexact HO
  isplitl [Hp]; · iexact Hp
  isplitl [Hrest]; · iexact Hrest
  iexact Hr

set_option backward.isDefEq.respectTransparency.types false in
/-- The invariant at the first point from the register and the scoped buffers no window stages. -/
theorem hin8 (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (c : Dev nD) :
    iprop(iprop(∃ r, prngReg c r) ∗ Pipeline.prefHeld (Ix := Ix) (Name := ℕ) (U := U) (Lvl := Lvl) (pcfgs (F := F) 8).pre c (fun _ => fullShare) (adm (F := F) 8).1 ∗ Pipeline.scopedRest (Ix := Ix) (Name := ℕ) (U := U) (Lvl := Lvl) (Val := Elt F) spec8 c) ⊢ ((pdats (F := F) (Ix := Ix) (U := U) (Lvl := Lvl) d0 d1 d2 d3 d4 d5 d6 d7 (datS8 (Ix := Ix) (U := U) (Lvl := Lvl) V)) 8 c).Φ 0 := by
  rw [show ((pdats (F := F) (Ix := Ix) (U := U) (Lvl := Lvl) d0 d1 d2 d3 d4 d5 d6 d7 (datS8 (Ix := Ix) (U := U) (Lvl := Lvl) V)) 8 c).Φ 0 = PhiZ8 c from rfl]; unfold PhiZ8
  iintro ⟨Hp, -, Hr⟩
  isplitl [Hr]; · iexact Hr
  iexact Hp

set_option backward.isDefEq.respectTransparency.types false in
/-- The invariant at the last point gives them back. -/
theorem hout8 (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c) (c : Dev nD) :
    ((pdats (F := F) (Ix := Ix) (U := U) (Lvl := Lvl) d0 d1 d2 d3 d4 d5 d6 d7 (datS8 (Ix := Ix) (U := U) (Lvl := Lvl) V)) 8 c).Φ (Fin.last cfg8.N) ⊢ iprop(iprop(∃ r, prngReg c r) ∗ Pipeline.ownSems0 (Ix := Ix) (Name := ℕ) (U := U) (Lvl := Lvl) (Val := Elt F) (τ := τ) (fun k : PEmpty => k.elim) c ∗ Pipeline.scopedRest (Ix := Ix) (Name := ℕ) (U := U) (Lvl := Lvl) (Val := Elt F) spec8 c) := by
  rw [Pipeline.ownSems0_none]
  have hΦ : ((pdats (F := F) (Ix := Ix) (U := U) (Lvl := Lvl) d0 d1 d2 d3 d4 d5 d6 d7 (datS8 (Ix := Ix) (U := U) (Lvl := Lvl) V)) 8 c).Φ (Fin.last cfg8.N) ⊢ (PhiZ8 c : sProp 𝕄) :=
    PhiS8_out V c cfg8.N (Nat.le_refl _) (by rw [show cfg8.N = 9775 from N_8]; omega)
  refine hΦ.trans ?_
  unfold PhiZ8
  iintro ⟨Hr, Hp⟩
  isplitl [Hp]; · iexact Hp
  isplitr; · iempintro
  iexact Hr

set_option backward.isDefEq.respectTransparency.types false in
/-- EXIT: the arrays rejoin the unscoped buffers at the exit valuation; the rest is rebuilt. -/
theorem hexit8 (ι : Ix) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c)
    (E' Er : Dev nD → sProp 𝕄) (hE' : ∀ c : Dev nD, iprop((∃ r, prngReg c r) ∗ (∃ W, owes (c : Thread nD τ) (0 : CellTallies nD τ sig Ix) W) ∗ Er c) ⊢ E' c) (c : Dev nD) :
    iprop(((pdats (F := F) (Ix := Ix) (U := U) (Lvl := Lvl) d0 d1 d2 d3 d4 d5 d6 d7 (datS8 (Ix := Ix) (U := U) (Lvl := Lvl) V)) 8 c).arrays (((pdats (F := F) (Ix := Ix) (U := U) (Lvl := Lvl) d0 d1 d2 d3 d4 d5 d6 d7 (datS8 (Ix := Ix) (U := U) (Lvl := Lvl) V)) 8 c).arrAt · cfg8.N) ∗ ((pdats (F := F) (Ix := Ix) (U := U) (Lvl := Lvl) d0 d1 d2 d3 d4 d5 d6 d7 (datS8 (Ix := Ix) (U := U) (Lvl := Lvl) V)) 8 c).owesAt ι (Fin.last cfg8.N) ∗ iprop(∃ r, prngReg c r) ∗ iprop(Pipeline.unscopedRest (Ix := Ix) (Name := ℕ) (U := U) (Lvl := Lvl) spec8 c (fun b : Ref sig .tc => V c (Proc.devRef .tc b)) ∗ Er c))
      ⊢ |={Set.univ}=> iprop(StableHlo.held (c : Thread nD τ) (Pipeline.ucRefs τ sig) (Vout8 (Ix := Ix) (U := U) (Lvl := Lvl) V c) ∗ E' c) := by
  have hjoin := Pipeline.unscopedBufs_of_arrays (p := 8) (pcfgs (F := F)) adm (Ix := Ix) (Name := ℕ) (U := U) (Lvl := Lvl)
    launch8.win launch8.arr_whole c (pdats (F := F) (Ix := Ix) (U := U) (Lvl := Lvl) d0 d1 d2 d3 d4 d5 d6 d7 (datS8 (Ix := Ix) (U := U) (Lvl := Lvl) V)) (((pdats (F := F) (Ix := Ix) (U := U) (Lvl := Lvl) d0 d1 d2 d3 d4 d5 d6 d7 (datS8 (Ix := Ix) (U := U) (Lvl := Lvl) V)) 8 c).share_full fun _ => rfl)
    (fun b : Ref sig .tc => V c (Proc.devRef .tc b)) (fun b : Ref sig .tc => Vout8 (Ix := Ix) (U := U) (Lvl := Lvl) V c (Proc.devRef .tc b)) (((pdats (F := F) (Ix := Ix) (U := U) (Lvl := Lvl) d0 d1 d2 d3 d4 d5 d6 d7 (datS8 (Ix := Ix) (U := U) (Lvl := Lvl) V)) 8 c).arrAt · cfg8.N) (hF8 V c) (hrest8 V c)
  rw [Pipeline.unscopedBufs_held] at hjoin
  iintro ⟨Ha, HO, HY, Hrest, Hr⟩
  imodintro
  isplitl [Ha Hrest]
  · iapply hjoin; isplitl [Ha]
    · iexact Ha
    iexact Hrest
  iapply (hE' c)
  isplitl [HY]; · iexact HY
  isplitl [HO]
  · unfold Pipeline.Dat.owesAt Pipeline.owesWithin
    icases HO with ⟨%W, -, HO⟩; iexists W; iexact HO
  iexact Hr

set_option backward.isDefEq.respectTransparency.types false in
/-- REGION 8 over the thread state: entered from every unscoped buffer at `V` beside a rest `E`, left with the output
    array at what the write-backs leave beside `E'`. The rest must contain the generator register at some state and
    the core owing nothing (`hE`), and is rebuilt from them and whatever else rode along (`hE'`). The kernel has no
    semaphore of its own; its accumulator enters the invariant with the scoped buffers and leaves with them. -/
def region8 (𝒱₀ : Variants) (ι : Ix) (L : GSem nD τ sig → Finset Ix) (lv : GSem nD τ sig → Ix → Lvl) (V : Dev nD → Valuation τ sig (Elt F)) (d0 : (c : Dev nD) → Dat τ (Elt F) Ix ℕ U Lvl (cfgs 0) c) (d1 : (c : Dev nD) → Dat τ (Elt F) Ix ℕ U Lvl (cfgs 1) c) (d2 : (c : Dev nD) → Dat τ (Elt F) Ix ℕ U Lvl (cfgs 2) c) (d3 : (c : Dev nD) → Dat τ (Elt F) Ix ℕ U Lvl (cfgs 3) c) (d4 : (c : Dev nD) → Dat τ (Elt F) Ix ℕ U Lvl (cfgs 4) c) (d5 : (c : Dev nD) → Dat τ (Elt F) Ix ℕ U Lvl (cfgs 5) c) (d6 : (c : Dev nD) → Dat τ (Elt F) Ix ℕ U Lvl (cfgs 6) c) (d7 : (c : Dev nD) → Dat τ (Elt F) Ix ℕ U Lvl (cfgs 7) c)
    (E E' Er : Dev nD → sProp 𝕄) (hE : ∀ c : Dev nD, E c ⊢ iprop((∃ r, prngReg c r) ∗ (∃ W, owes (c : Thread nD τ) (0 : CellTallies nD τ sig Ix) W) ∗ Er c)) (hE' : ∀ c : Dev nD, iprop((∃ r, prngReg c r) ∗ (∃ W, owes (c : Thread nD τ) (0 : CellTallies nD τ sig Ix) W) ∗ Er c) ⊢ E' c) :
    RegionSeg (pcfgs (F := F)) adm (pdats (F := F) (Ix := Ix) (U := U) (Lvl := Lvl) d0 d1 d2 d3 d4 d5 d6 d7 (datS8 (Ix := Ix) (U := U) (Lvl := Lvl) V)) ι defs₀ 𝒱₀ L lv 8 where
  win := launch8.win.to₀
  block_pos := launch8.block_pos
  stage_whole := launch8.stage_whole
  K := PEmpty
  osem k := k.elim
  ho := Pipeline.OwnSemFacts.none _
  hbody c := body_obligation_loose8 𝒱₀ ι V c
  hwaits := Pipeline.hwaits_of_owed_zero _ _ _ _ L lv 8 fun _ _ => rfl
  pre c := iprop(StableHlo.held (c : Thread nD τ) (Pipeline.ucRefs τ sig) (V c) ∗ E c)
  post c := iprop(StableHlo.held (c : Thread nD τ) (Pipeline.ucRefs τ sig) (Vout8 (Ix := Ix) (U := U) (Lvl := Lvl) V c) ∗ E' c)
  X c := iprop(∃ r, prngReg c r)
  Y c := iprop(∃ r, prngReg c r)
  Z c := iprop(Pipeline.unscopedRest (Ix := Ix) (Name := ℕ) (U := U) (Lvl := Lvl) spec8 c (fun b : Ref sig .tc => V c (Proc.devRef .tc b)) ∗ Er c)
  hentry c := hentry8 ι L lv V d0 d1 d2 d3 d4 d5 d6 d7 E Er hE c
  hin c := hin8 V d0 d1 d2 d3 d4 d5 d6 d7 c
  hout c := hout8 V d0 d1 d2 d3 d4 d5 d6 d7 c
  hexit c := hexit8 ι V d0 d1 d2 d3 d4 d5 d6 d7 E' Er hE' c

end Cert.Kernel.Hand

end
-- ==== Proof.FramesFinalK.lean ====
/-
  The whole program's run with every kernel region supplied.

  The six gather and scatter regions' proof data are chosen in program order, each at the buffer contents the items
  before it leave; with them the launch theorem's hypotheses are all discharged: each region's record is entered from
  the contents before it and left at the contents after it by definition of those contents.
-/
import proofs.«104867_j4217657884863_1_alg».proof.Proof.FrameAllK
import proofs.«104867_j4217657884863_1_alg».proof.Proof.G1RegionK
import proofs.«104867_j4217657884863_1_alg».proof.Proof.G4RegionK
import proofs.«104867_j4217657884863_1_alg».proof.Proof.G7RegionK
import proofs.«104867_j4217657884863_1_alg».proof.Proof.Scat2RegionK
import proofs.«104867_j4217657884863_1_alg».proof.Proof.Scat5RegionK
import proofs.«104867_j4217657884863_1_alg».proof.Proof.Scat8RegionK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The six regions' proof data, in program order -/

/-- The first gather region's, at the contents the first matrix-product region leaves; -/
abbrev fd1 : (c : Dev nD) → Dat τ (Elt F) Unit ℕ (UR sig nD τ) ℕ cfg1 c :=
  datG1 (Ix := Unit) (U := UR sig nD τ) (Lvl := ℕ) (W12 m)
/-- the first scatter region's, at what that gather leaves; -/
abbrev fd2 : (c : Dev nD) → Dat τ (Elt F) Unit ℕ (UR sig nD τ) ℕ cfg2 c :=
  datS2 (Ix := Unit) (U := UR sig nD τ) (Lvl := ℕ) (W13 m (fd1 m))
/-- the second layer's, -/
abbrev fd4 : (c : Dev nD) → Dat τ (Elt F) Unit ℕ (UR sig nD τ) ℕ cfg4 c :=
  datG4 (Ix := Unit) (U := UR sig nD τ) (Lvl := ℕ) (W17 m (fd1 m) (fd2 m))
abbrev fd5 : (c : Dev nD) → Dat τ (Elt F) Unit ℕ (UR sig nD τ) ℕ cfg5 c :=
  datS5 (Ix := Unit) (U := UR sig nD τ) (Lvl := ℕ) (W18 m (fd1 m) (fd2 m) (fd4 m))
/-- and the third layer's. -/
abbrev fd7 : (c : Dev nD) → Dat τ (Elt F) Unit ℕ (UR sig nD τ) ℕ cfg7 c :=
  datG7 (Ix := Unit) (U := UR sig nD τ) (Lvl := ℕ) (W22 m (fd1 m) (fd2 m) (fd4 m) (fd5 m))
abbrev fd8 : (c : Dev nD) → Dat τ (Elt F) Unit ℕ (UR sig nD τ) ℕ cfg8 c :=
  datS8 (Ix := Unit) (U := UR sig nD τ) (Lvl := ℕ) (W23 m (fd1 m) (fd2 m) (fd4 m) (fd5 m) (fd7 m))

local notation "dL0" => datL0 (Ix := Unit) (U := UR sig nD τ) (Lvl := ℕ) (V11 m)
local notation "dL3" => datL3 (Ix := Unit) (U := UR sig nD τ) (Lvl := ℕ) (W16 m (fd1 m) (fd2 m))
local notation "dL6" => datL6 (Ix := Unit) (U := UR sig nD τ) (Lvl := ℕ) (W21 m (fd1 m) (fd2 m) (fd4 m) (fd5 m))

/-! ## The frame and the run -/

set_option backward.isDefEq.respectTransparency.types false in
set_option maxHeartbeats 4000000 in
/-- THE FRAME: every weakly fair execution of @main from memory m with zero counters terminates, and every final
    memory holds each argument as launched. -/
theorem frame_pi (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_all m (fd1 m) (fd2 m) (fd4 m) (fd5 m) (fd7 m) (fd8 m) ρ
    (regionG1 (W12 m) Variants.none () Lc lvc dL0 (fd2 m) dL3 (fd4 m) (fd5 m) dL6 (fd7 m) (fd8 m)
      (fun _ => iprop(emp)) Ec Ec (fun _ => .rfl) (fun _ => .rfl))
      (fun c => .rfl) (fun c => .rfl)
    (region2 Variants.none () Lc lvc (W13 m (fd1 m)) dL0 (fd1 m) dL3 (fd4 m) (fd5 m) dL6 (fd7 m) (fd8 m)
      Ec Ec (fun _ => iprop(emp)) (fun _ => .rfl) (fun _ => .rfl))
      (fun c => .rfl) (fun c => .rfl)
    (regionG4 (W17 m (fd1 m) (fd2 m)) Variants.none () Lc lvc dL0 (fd1 m) (fd2 m) dL3 (fd5 m) dL6 (fd7 m) (fd8 m)
      (fun _ => iprop(emp)) Ec Ec (fun _ => .rfl) (fun _ => .rfl))
      (fun c => .rfl) (fun c => .rfl)
    (region5 Variants.none () Lc lvc (W18 m (fd1 m) (fd2 m) (fd4 m)) dL0 (fd1 m) (fd2 m) dL3 (fd4 m) dL6 (fd7 m) (fd8 m)
      Ec Ec (fun _ => iprop(emp)) (fun _ => .rfl) (fun _ => .rfl))
      (fun c => .rfl) (fun c => .rfl)
    (regionG7 (W22 m (fd1 m) (fd2 m) (fd4 m) (fd5 m)) Variants.none () Lc lvc dL0 (fd1 m) (fd2 m) dL3 (fd4 m) (fd5 m) dL6 (fd8 m)
      (fun _ => iprop(emp)) Ec Ec (fun _ => .rfl) (fun _ => .rfl))
      (fun c => .rfl) (fun c => .rfl)
    (region8 Variants.none () Lc lvc (W23 m (fd1 m) (fd2 m) (fd4 m) (fd5 m) (fd7 m)) dL0 (fd1 m) (fd2 m) dL3 (fd4 m) (fd5 m) dL6 (fd7 m)
      Ec Ec (fun _ => iprop(emp)) (fun _ => .rfl) (fun _ => .rfl))
      (fun c => .rfl) (fun c => .rfl)

set_option backward.isDefEq.respectTransparency.types false in
set_option maxHeartbeats 4000000 in
/-- THE RUN, its result named: as the frame, and every final memory holds in the result buffer the contents at the
    return read at the result. -/
theorem run_pi (ρ : Dev nD → PrngReg) :
    θ_run defs (onTc (τ := τ) (main (F := F))) ⟨m, fun _ => 0, ρ⟩ (fun r => ∀ c : Dev nD,
      r.2.mem ((c.tc : Thread nD τ).loc main_v99) = (W29 m (fd1 m) (fd2 m) (fd4 m) (fd5 m) (fd7 m) (fd8 m) c) main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_all m (fd1 m) (fd2 m) (fd4 m) (fd5 m) (fd7 m) (fd8 m) ρ
    (regionG1 (W12 m) Variants.none () Lc lvc dL0 (fd2 m) dL3 (fd4 m) (fd5 m) dL6 (fd7 m) (fd8 m)
      (fun _ => iprop(emp)) Ec Ec (fun _ => .rfl) (fun _ => .rfl))
      (fun c => .rfl) (fun c => .rfl)
    (region2 Variants.none () Lc lvc (W13 m (fd1 m)) dL0 (fd1 m) dL3 (fd4 m) (fd5 m) dL6 (fd7 m) (fd8 m)
      Ec Ec (fun _ => iprop(emp)) (fun _ => .rfl) (fun _ => .rfl))
      (fun c => .rfl) (fun c => .rfl)
    (regionG4 (W17 m (fd1 m) (fd2 m)) Variants.none () Lc lvc dL0 (fd1 m) (fd2 m) dL3 (fd5 m) dL6 (fd7 m) (fd8 m)
      (fun _ => iprop(emp)) Ec Ec (fun _ => .rfl) (fun _ => .rfl))
      (fun c => .rfl) (fun c => .rfl)
    (region5 Variants.none () Lc lvc (W18 m (fd1 m) (fd2 m) (fd4 m)) dL0 (fd1 m) (fd2 m) dL3 (fd4 m) dL6 (fd7 m) (fd8 m)
      Ec Ec (fun _ => iprop(emp)) (fun _ => .rfl) (fun _ => .rfl))
      (fun c => .rfl) (fun c => .rfl)
    (regionG7 (W22 m (fd1 m) (fd2 m) (fd4 m) (fd5 m)) Variants.none () Lc lvc dL0 (fd1 m) (fd2 m) dL3 (fd4 m) (fd5 m) dL6 (fd8 m)
      (fun _ => iprop(emp)) Ec Ec (fun _ => .rfl) (fun _ => .rfl))
      (fun c => .rfl) (fun c => .rfl)
    (region8 Variants.none () Lc lvc (W23 m (fd1 m) (fd2 m) (fd4 m) (fd5 m) (fd7 m)) dL0 (fd1 m) (fd2 m) dL3 (fd4 m) (fd5 m) dL6 (fd7 m)
      Ec Ec (fun _ => iprop(emp)) (fun _ => .rfl) (fun _ => .rfl))
      (fun c => .rfl) (fun c => .rfl)

end Cert.Kernel.Hand

end
-- ==== Proof.LibOneHot.lean ====
import Idealize.ShloMosaic.Lib.ValueIdx
import Idealize.ShloMosaic.Lib.Affine
import Idealize.ShloMosaic.PureOps.Ideal.Laws

/-!
# One-hot products on the extended reals

A kernel that cannot index a table by a run-time row number multiplies by a ONE-HOT matrix instead: entry
`(r, k)` is the integer comparison "row number of `r` = `k`", widened to 32 bits and converted to a float, so it
is exactly `1` or exactly `0`. On the extended reals `1 * x = x` and `0 * x = 0` hold for EVERY `x`, the
infinities included, and addition is a commutative monoid; so a one-hot row times a table is the table's row,
a one-hot column times a list of updates is the sum of the updates it selects, and neither identity needs any
finiteness. Both are stated for a product taken block by block: the table (or the update list) has `B * R`
rows and the sum runs first over the `R` rows of a block and then over the `B` blocks, which is how a kernel
that accumulates over a grid axis forms it.

General in the extents; the row numbers are 32-bit words.
-/

noncomputable section

namespace Cert.Lib.OneHot

open Idealize.ShloMosaic

/-- The one-hot entry at the exact instance: the bit of `a = b`, widened to 32 bits, converted to a float. -/
def hot (a b : BitVec 32) : EReal := FloatOps.sitofp (F := Ideal) .f32 ((IntOp.cmpi .eq a b).setWidth 32)

/-- It is `1` where the words agree and `0` elsewhere. -/
theorem hot_eq (a b : BitVec 32) : hot a b = if a = b then (1 : EReal) else 0 := by
  unfold hot
  show ((((IntOp.cmpi .eq a b).setWidth 32).toInt : ℝ) : EReal) = _
  by_cases h : a = b
  · rw [IntOp.cmpi_eq.mpr h, if_pos h]
    have : ((1#1 : BitVec 1).setWidth 32).toInt = 1 := by decide
    rw [this]; norm_num
  · have h0 : IntOp.cmpi .eq a b = 0#1 := ValueIdx.eq_zero_of_ne_one (fun h1 => h (IntOp.cmpi_eq.mp h1))
    rw [h0, if_neg h]
    have : ((0#1 : BitVec 1).setWidth 32).toInt = 0 := by decide
    rw [this]; norm_num

/-- A one-hot factor keeps the other factor or kills it, whatever extended real that is. -/
theorem hot_mul (a b : BitVec 32) (x : EReal) : hot a b * x = if a = b then x else 0 := by
  rw [hot_eq]; split_ifs <;> simp

/-- Two numbers below 2³² are equal as 32-bit words exactly when they are equal. -/
theorem ofNat_eq_iff {a b : Nat} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- A word equals the word of a number below 2³² exactly when that number is its value. -/
theorem eq_ofNat_iff (s : BitVec 32) {b : Nat} (hb : b < 2 ^ 32) : s = BitVec.ofNat 32 b ↔ s.toNat = b := by
  constructor
  · rintro rfl; rw [BitVec.toNat_ofNat]; exact Nat.mod_eq_of_lt hb
  · rintro rfl; simp

/-- The sum over all rows `< B * R`, taken block by block. -/
theorem sum_blocks {M : Type*} [AddCommMonoid M] (B R : Nat) (f : Nat → M) :
    ∑ b : Fin B, ∑ k : Fin R, f (b.val * R + k.val) = ∑ n : Fin (B * R), f n.val := by
  rw [← Fintype.sum_prod_type']
  refine Fintype.sum_equiv finProdFinEquiv _ _ (fun p => ?_)
  rcases p with ⟨b, k⟩
  simp [finProdFinEquiv, Nat.mul_comm, Nat.add_comm]

/-- ROW LOOKUP. A one-hot row times a table of `B * R` rows, summed block by block, is the table's row at the
    word's value when that is a row number, for any entries of the table. -/
theorem lookup_blocks (B R : Nat) (hBR : B * R < 2 ^ 32) (tbl : Nat → EReal) (s : BitVec 32) (hs : s.toNat < B * R) :
    ∑ b : Fin B, ∑ k : Fin R, hot s (BitVec.ofNat 32 (b.val * R + k.val)) * tbl (b.val * R + k.val) = tbl s.toNat := by
  rw [sum_blocks B R (fun n => hot s (BitVec.ofNat 32 n) * tbl n)]
  have : ∀ n : Fin (B * R), hot s (BitVec.ofNat 32 n.val) * tbl n.val = if n = ⟨s.toNat, hs⟩ then tbl s.toNat else 0 := by
    intro n
    rw [hot_mul]
    by_cases h : s.toNat = n.val
    · have e : s = BitVec.ofNat 32 n.val := (eq_ofNat_iff s (lt_trans n.isLt hBR)).mpr h
      rw [if_pos e, if_pos (Fin.ext h.symm), h]
    · have e : ¬ s = BitVec.ofNat 32 n.val := fun e => h ((eq_ofNat_iff s (lt_trans n.isLt hBR)).mp e)
      rw [if_neg e, if_neg (fun e' => h (congrArg Fin.val e').symm)]
  simp only [this]
  rw [Finset.sum_ite_eq' Finset.univ (⟨s.toNat, hs⟩ : Fin (B * R))]
  simp

/-- A one-hot row whose word is no row number of the table contributes nothing. -/
theorem lookup_blocks_none (B R : Nat) (hBR : B * R < 2 ^ 32) (tbl : Nat → EReal) (s : BitVec 32) (hs : B * R ≤ s.toNat) :
    ∑ b : Fin B, ∑ k : Fin R, hot s (BitVec.ofNat 32 (b.val * R + k.val)) * tbl (b.val * R + k.val) = 0 := by
  rw [sum_blocks B R (fun n => hot s (BitVec.ofNat 32 n) * tbl n)]
  refine Finset.sum_eq_zero fun n _ => ?_
  rw [hot_mul, if_neg]
  intro e
  have h1 := (eq_ofNat_iff s (lt_trans n.isLt hBR)).mp e
  have := n.isLt; omega

/-- SELECTED SUM. A one-hot column for row number `n` times a list of `B * R` updates, summed block by block, is
    the sum of the updates whose target word is `n`, for any updates. -/
theorem select_blocks (B R : Nat) (upd : Nat → EReal) (d : Nat → BitVec 32) (n : Nat) (hn : n < 2 ^ 32) :
    ∑ b : Fin B, ∑ k : Fin R, hot (BitVec.ofNat 32 n) (d (b.val * R + k.val)) * upd (b.val * R + k.val)
      = ∑ e ∈ Finset.univ.filter (fun e : Fin (B * R) => (d e.val).toNat = n), upd e.val := by
  rw [sum_blocks B R (fun e => hot (BitVec.ofNat 32 n) (d e) * upd e), Finset.sum_filter]
  refine Finset.sum_congr rfl fun e _ => ?_
  rw [hot_mul]
  have : BitVec.ofNat 32 n = d e.val ↔ (d e.val).toNat = n := by
    rw [eq_comm]; exact eq_ofNat_iff _ hn
  simp only [this]

/-- An accumulator that starts from `z`, adds `term 0` at its first step and `term (n + 1)` at step `n + 1`. -/
def accBlocks {M : Type*} [AddCommMonoid M] (z : M) (term : Nat → M) : Nat → M
  | 0 => z + term 0
  | n + 1 => accBlocks z term n + term (n + 1)

/-- After step `n` it holds `z` plus the first `n + 1` terms, in any commutative additive monoid (so on the
    extended reals with no finiteness). -/
theorem accBlocks_eq {M : Type*} [AddCommMonoid M] (z : M) (term : Nat → M) (n : Nat) :
    accBlocks z term n = z + ∑ b : Fin (n + 1), term b.val := by
  induction n with
  | zero => simp [accBlocks]
  | succ n ih =>
    rw [accBlocks, ih, Fin.sum_univ_castSucc (n := n + 1), add_assoc]
    rfl

/-- ROW LOOKUP, accumulated: starting from zero and adding, block after block, the one-hot row times the block of the
    table, the accumulator after the last of `B` blocks is the table's row at the word's value. -/
theorem accBlocks_lookup (B R : Nat) (hB : 0 < B) (hBR : B * R < 2 ^ 32) (tbl : Nat → EReal) (s : BitVec 32) (hs : s.toNat < B * R) :
    accBlocks (0 : EReal) (fun b => ∑ k : Fin R, hot s (BitVec.ofNat 32 (b * R + k.val)) * tbl (b * R + k.val)) (B - 1)
      = tbl s.toNat := by
  rw [accBlocks_eq, zero_add]
  have hB' : B - 1 + 1 = B := by omega
  rw [← lookup_blocks B R hBR tbl s hs]
  exact Fintype.sum_equiv (finCongr hB') _ _ (fun b => rfl)

/-- SELECTED SUM, accumulated: starting from zero and adding, block after block, the one-hot row of node `n` times the
    block of updates, the accumulator after the last of `B` blocks is the sum of the updates whose target word is `n`. -/
theorem accBlocks_select (B R : Nat) (hB : 0 < B) (upd : Nat → EReal) (d : Nat → BitVec 32) (n : Nat) (hn : n < 2 ^ 32) :
    accBlocks (0 : EReal) (fun b => ∑ k : Fin R, hot (BitVec.ofNat 32 n) (d (b * R + k.val)) * upd (b * R + k.val)) (B - 1)
      = ∑ e ∈ Finset.univ.filter (fun e : Fin (B * R) => (d e.val).toNat = n), upd e.val := by
  rw [accBlocks_eq, zero_add]
  have hB' : B - 1 + 1 = B := by omega
  rw [← select_blocks B R upd d n hn]
  exact Fintype.sum_equiv (finCongr hB') _ _ (fun b => rfl)

end Cert.Lib.OneHot

end
-- ==== Proof.LibBlockMatmul.lean ====
import Idealize.ShloMosaic.Lib.ValueIdx
import Idealize.ShloMosaic.PureOps.Ideal.Laws

/-!
# The plain two-dimensional contraction read at an index, and a row block of a product

For a left operand `A` of shape `[M, K]`, a right operand `B` of shape `[K, N]` and the dimension numbers that contract
the left operand's axis 1 with the right operand's axis 0 (no batch axes), the product at the exact (extended real)
values is, at row `p` and column `q`, the sum over `k < K` of `A (p, k) * B (k, q)`. This holds for the matrix unit's
product accumulated into the zero splat (`matmul_zero_plain_apply`) and for the host's `dot_general`
(`dotGeneral_plain_apply`): both are the same sum over the contraction shape's indices, re-indexed through the bijection
between a one-axis contraction index and its coordinate (`plain_sum`).

Consequently a row block of a product is the product of the row block (`block_matmul_eq_dotGeneral`): if the rows of an
`[m, K]` block `A'` are rows of `A` — row `p` of `A'` is row `r` of `A` — then the block's product with `B` at `(p, q)` is the
whole product at `(r, q)`, since each is the sum over `k` of `A (r, k) * B (k, q)`.

The dimension numbers are given as the literal record `plainDims wf` (`wf` any proof of its well-formedness); a record
defined with the same axis lists unfolds to it.
-/

namespace Cert.BlockMatmul

open Idealize.ShloMosaic Idealize.ShloMosaic.ValueIdx

/-- The dimension numbers of a plain `[M, K]` by `[K, N]` product with literal axis lists: contract axis 1 of the left
    operand with axis 0 of the right, no batch axes. -/
abbrev plainDims {M K N : Nat} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

section
variable {M K N : Nat} (wf : DotDims.WF ⟨2, ![M, K]⟩ ⟨2, ![K, N]⟩ ⟨2, ![M, N]⟩ [1] [0] [0] [1] [] [])

/-- The left operand's row coordinate is the result's row coordinate. -/
theorem plain_lhs0 (i : (⟨2, ![M, N]⟩ : Shape).Idx) (k : (plainDims wf).contr.Idx) :
    ((plainDims wf).lhsIdx i k 0).val = (i 0).val := by
  unfold DotDims.lhsIdx
  rw [dif_neg (show ¬(0 : Fin 2) ∈ ([] : List (Fin 2)) by decide), dif_pos (show (0 : Fin 2) ∈ ([0] : List (Fin 2)) by decide)]
  rfl

/-- The left operand's column coordinate is the contraction coordinate. -/
theorem plain_lhs1 (i : (⟨2, ![M, N]⟩ : Shape).Idx) (k : (plainDims wf).contr.Idx) :
    ((plainDims wf).lhsIdx i k 1).val = (k ⟨0, Nat.one_pos⟩).val :=
  (plainDims wf).lhsIdx_val_of_single rfl i k

/-- The right operand's row coordinate is the contraction coordinate. -/
theorem plain_rhs0 (i : (⟨2, ![M, N]⟩ : Shape).Idx) (k : (plainDims wf).contr.Idx) :
    ((plainDims wf).rhsIdx i k 0).val = (k ⟨0, Nat.one_pos⟩).val :=
  (plainDims wf).rhsIdx_val_of_single rfl i k

/-- The right operand's column coordinate is the result's column coordinate. -/
theorem plain_rhs1 (i : (⟨2, ![M, N]⟩ : Shape).Idx) (k : (plainDims wf).contr.Idx) :
    ((plainDims wf).rhsIdx i k 1).val = (i 1).val := by
  unfold DotDims.rhsIdx
  rw [dif_neg (show ¬(1 : Fin 2) ∈ ([] : List (Fin 2)) by decide), dif_pos (show (1 : Fin 2) ∈ ([1] : List (Fin 2)) by decide)]
  rfl

/-- The contraction's sum at `(p, q)`, over the contraction shape's indices, is the sum over `k < K` of
    `lhs (p, k) * rhs (k, q)`. -/
theorem plain_sum (lhs : (⟨2, ![M, K]⟩ : Shape).Idx → EReal) (rhs : (⟨2, ![K, N]⟩ : Shape).Idx → EReal) (p : Fin M) (q : Fin N) :
    ∑ k : (plainDims wf).contr.Idx, lhs ((plainDims wf).lhsIdx (ix2 p q) k) * rhs ((plainDims wf).rhsIdx (ix2 p q) k)
      = ∑ k : Fin K, lhs (ix2 p k) * rhs (ix2 k q) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact plain_lhs0 wf _ _
    | ⟨1, _⟩ => exact (plain_lhs1 wf _ _).trans hk)
  have er : (plainDims wf).rhsIdx (ix2 p q) ((contrEquiv1 (plainDims wf) K rfl rfl).symm k) = ix2 k q := funext fun a => Fin.ext (by
    match a with
    | ⟨0, _⟩ => exact (plain_rhs0 wf _ _).trans hk
    | ⟨1, _⟩ => exact plain_rhs1 wf _ _)
  rw [el, er]

/-- The matrix unit's product accumulated into the zero splat, at `(p, q)`: the sum over `k < K` of
    `lhs (p, k) * rhs (k, q)`. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (plainDims wf) prec lhs rhs (constant ⟨2, ![M, N]⟩ .f32 0x00000000#32) (ix2 p q)
      = ∑ k : Fin K, lhs (ix2 p k) * rhs (ix2 k q) :=
  (Ideal.matmul_constant_zero_apply (plainDims wf) prec lhs rhs (ix2 p q)).trans (plain_sum wf lhs rhs p q)

/-- The host's `dot_general` at `(p, q)`: the same sum. -/
theorem dotGeneral_plain_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (plainDims wf) prec lhs rhs (ix2 p q) = ∑ k : Fin K, lhs (ix2 p k) * rhs (ix2 k q) :=
  (Ideal.dotGeneral_apply (plainDims wf) prec .single lhs rhs (ix2 p q)).trans (plain_sum wf lhs rhs p q)

end

/-- A ROW BLOCK OF A PRODUCT IS THE PRODUCT OF THE ROW BLOCK: when row `p` of the `[m, K]` block `lhs'` is row `r` of the
    `[M, K]` operand `lhs` and the right operands agree, the block's product into the zero splat at `(p, q)` is the host's
    `dot_general` of the whole operands at `(r, q)`. -/
theorem block_matmul_eq_dotGeneral {m M K N : Nat} {φ₁ φ₂ ψ₁ ψ₂ : FTy}
    (wf' : DotDims.WF ⟨2, ![m, K]⟩ ⟨2, ![K, N]⟩ ⟨2, ![m, N]⟩ [1] [0] [0] [1] [] [])
    (wf : DotDims.WF ⟨2, ![M, K]⟩ ⟨2, ![K, N]⟩ ⟨2, ![M, N]⟩ [1] [0] [0] [1] [] [])
    (prec' prec : Option ContractPrecision)
    (lhs' : FVec Ideal ⟨2, ![m, K]⟩ φ₁) (rhs' : FVec Ideal ⟨2, ![K, N]⟩ φ₂)
    (lhs : FVec Ideal ⟨2, ![M, K]⟩ ψ₁) (rhs : FVec Ideal ⟨2, ![K, N]⟩ ψ₂)
    (p : Fin m) (r : Fin M) (q : Fin N)
    (hl : ∀ k : Fin K, lhs' (ix2 p k) = lhs (ix2 r k)) (hr : ∀ k : Fin K, rhs' (ix2 k q) = rhs (ix2 k q)) :
    matmul (F := Ideal) (plainDims wf') prec' lhs' rhs' (constant ⟨2, ![m, N]⟩ .f32 0x00000000#32) (ix2 p q)
      = Host.dotGeneral (F := Ideal) (plainDims wf) prec lhs rhs (ix2 r q) := by
  rw [matmul_zero_plain_apply, dotGeneral_plain_apply]
  exact Finset.sum_congr rfl fun k _ => by rw [hl k, hr k]

end Cert.BlockMatmul
-- ==== Proof.LibLayoutColumn.lean ====
/-
  Two keepdims layout steps read at an index: a column [a, 1] broadcast along its unit axis to [a, b] reads, at
  (p, c), the column at p; a vector [a] cast to the column [a, 1] reads, at (i, 0), the vector at i.
-/
import Idealize.ShloMosaic.Lib.Pipeline.Value
import Idealize.ShloMosaic.Lib.ValueIdx

noncomputable section

namespace Cert.Lib.Layout

open Idealize.ShloMosaic Idealize.ShloMosaic.ValueIdx

variable {α : Type}

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Layout

end
-- ==== Proof.PayloadIdeal.lean ====
/-
  What each kernel body stores, read at an index on the extended reals.

  Each of the nine kernels computes its stored values by a pure expression of the values it loaded (the skeleton's
  payloads). At the exact instance a change of float format is the identity and the matrix unit's product into a zero
  accumulator is the plain sum over the contracted axis, so:
  * the linear kernel stores, at (r, q), the sum over k of x(r, k) · W(k, q);
  * the gather kernel's step adds to the accumulator, at (r, q), the sum over the 2048 node rows k of the block of
    [source word of edge r = node number of k] · h(k, q), the bracket being exactly 1 or 0; its last step stores
    accumulator · weight of the edge; its first step starts from zero;
  * the scatter kernel's step adds, at (r, q), the sum over the 2048 edges e of the block of
    [node number of r = target word of e] · msgs(e, q).
  The three copies of each kernel (one per layer) differ in names only.
-/
import proofs.«104867_j4217657884863_1_alg».proof.Proof.Gen.KernelIdeal.Skeleton
import proofs.«104867_j4217657884863_1_alg».proof.Proof.LibOneHot
import proofs.«104867_j4217657884863_1_alg».proof.Proof.LibBlockMatmul
import proofs.«104867_j4217657884863_1_alg».proof.Proof.LibLayoutColumn
import Idealize.ShloMosaic.Lib.Pipeline.Value
import Idealize.ShloMosaic.Lib.ValueLayout

noncomputable section

namespace Cert.KernelIdeal.Payload

open Idealize.ShloMosaic Idealize.ShloMosaic.ValueIdx Idealize.ShloMosaic.Pipeline
open Cert.KernelIdeal Cert.KernelIdeal.Gen Cert.Lib.OneHot Cert.Lib.Layout

/-- The node number of row `k` of block `nb` as a 32-bit word: the block's base word plus the row's. -/
theorem node_word (nb k : Nat) :
    Scalar.muli (BitVec.ofNat 32 nb) 2048#32 + BitVec.ofNat 32 k = BitVec.ofNat 32 (nb * 2048 + k) := by
  show BitVec.ofNat 32 nb * 2048#32 + BitVec.ofNat 32 k = _
  have : (2048#32 : BitVec 32) = BitVec.ofNat 32 2048 := rfl
  rw [this, ← BitVec.ofNat_mul, ← BitVec.ofNat_add]

/-- Linear kernel 0 at (r, q): row `r` of the activation block times column `q` of the weight. -/
theorem linear0_apply (v0 : Vec Ideal S2048x64 .f32) (v3 : Vec Ideal S64x64 .f32) (r : Fin 2048) (q : Fin 64) :
    k0_pay1 (F := Ideal) v0 v3 (ix2 r q) = ∑ k : Fin 64, v0 (ix2 r k) * v3 (ix2 k q) := by
  unfold k0_pay1
  refine (Cert.BlockMatmul.matmul_zero_plain_apply (M := 2048) (K := 64) (N := 64) dot_S2048x64_S64x64_S2048x64_1_0_0_1_n_n.wf none _ _ r q).trans ?_
  rw [shapeCast_self]
  rfl

/-- Linear kernel 3 at (r, q): row `r` of the activation block times column `q` of the weight. -/
theorem linear3_apply (v0 : Vec Ideal S2048x64 .f32) (v3 : Vec Ideal S64x64 .f32) (r : Fin 2048) (q : Fin 64) :
    k3_pay1 (F := Ideal) v0 v3 (ix2 r q) = ∑ k : Fin 64, v0 (ix2 r k) * v3 (ix2 k q) := by
  unfold k3_pay1
  refine (Cert.BlockMatmul.matmul_zero_plain_apply (M := 2048) (K := 64) (N := 64) dot_S2048x64_S64x64_S2048x64_1_0_0_1_n_n.wf none _ _ r q).trans ?_
  rw [shapeCast_self]
  rfl

/-- Linear kernel 6 at (r, q): row `r` of the activation block times column `q` of the weight. -/
theorem linear6_apply (v0 : Vec Ideal S2048x64 .f32) (v3 : Vec Ideal S64x64 .f32) (r : Fin 2048) (q : Fin 64) :
    k6_pay1 (F := Ideal) v0 v3 (ix2 r q) = ∑ k : Fin 64, v0 (ix2 r k) * v3 (ix2 k q) := by
  unfold k6_pay1
  refine (Cert.BlockMatmul.matmul_zero_plain_apply (M := 2048) (K := 64) (N := 64) dot_S2048x64_S64x64_S2048x64_1_0_0_1_n_n.wf none _ _ r q).trans ?_
  rw [shapeCast_self]
  rfl

/-- Gather kernel 1, one accumulation step at (r, q): the accumulator there plus the one-hot row of edge `r` (its
    source word against the 2048 node numbers of block `i 1`) times column `q` of the node block. -/
theorem gather1_step_apply (i : grid1.Coords) (v7 : Vec Ideal S2048x1 .i32) (v15 v18 : Vec Ideal S2048x64 .f32) (r : Fin 2048) (q : Fin 64) :
    k1_pay2 (F := Ideal) i v7 v15 v18 (ix2 r q)
      = v18 (ix2 r q) + ∑ k : Fin 2048, hot (v7 (ix2 r (0 : Fin 1))) (BitVec.ofNat 32 ((i 1).val * 2048 + k.val)) * v15 (ix2 k q) := by
  unfold k1_pay2
  dsimp only
  rw [shapeCast_self]
  refine congrArg (v18 (ix2 r q) + ·) ?_
  refine (Cert.BlockMatmul.matmul_zero_plain_apply (M := 2048) (K := 2048) (N := 64) dot_S2048x2048_S2048x64_S2048x64_1_0_0_1_n_n.wf none _ _ r q).trans ?_
  refine Finset.sum_congr rfl fun k _ => ?_
  rw [shapeCast_self, shapeCast_self]
  refine congrArg (· * v15 (ix2 k q)) ?_
  show hot (broadcastTo S2048x2048 v7 broadcasts_S2048x1_S2048x2048 (ix2 r k))
      (broadcastTo S2048x2048 (addi (broadcast S1x2048 (Scalar.muli (BitVec.ofNat 32 (i 1).val) 2048#32))
        (iota Kind.tc S1x2048 32 [1] iota_S1x2048_d1_w32)) broadcasts_S1x2048_S2048x2048 (ix2 r k)) = _
  rw [broadcastTo_a1_ab_apply (a := 2048) (b := 2048) v7 _ r k,
    ValueIdx.broadcastTo_1b_ab_apply (a := 2048) (b := 2048) _ _ r k]
  refine congrArg (hot (v7 (ix2 r (0 : Fin 1)))) ?_
  show Scalar.muli (BitVec.ofNat 32 (i 1).val) 2048#32 + iota Kind.tc S1x2048 32 [1] iota_S1x2048_d1_w32 (ix2 (0 : Fin 1) k) = _
  rw [iota_single_apply]
  exact node_word _ _

/-- Gather kernel 1, the accumulator's reset: zero everywhere. -/
theorem gather1_zero_apply (j : S2048x64.Idx) : k1_pay1 (F := Ideal) j = 0 := by
  unfold k1_pay1
  rw [shapeCast_self]
  exact Ideal.ofBits_zero_f32

/-- Gather kernel 1, the stored block at (r, q): the accumulator there times the edge's weight. -/
theorem gather1_final_apply (v27 : Vec Ideal S2048x64 .f32) (v28 : Vec Ideal S2048x1 .f32) (r : Fin 2048) (q : Fin 64) :
    k1_pay3 (F := Ideal) v27 v28 (ix2 r q) = v27 (ix2 r q) * v28 (ix2 r (0 : Fin 1)) := by
  unfold k1_pay3
  rw [shapeCast_self]
  show v27 (ix2 r q) * broadcastTo S2048x64 v28 broadcasts_S2048x1_S2048x64 (ix2 r q) = _
  rw [broadcastTo_a1_ab_apply (a := 2048) (b := 64) v28 _ r q]

/-- Gather kernel 4, one accumulation step at (r, q): the accumulator there plus the one-hot row of edge `r` (its
    source word against the 2048 node numbers of block `i 1`) times column `q` of the node block. -/
theorem gather4_step_apply (i : grid4.Coords) (v7 : Vec Ideal S2048x1 .i32) (v15 v18 : Vec Ideal S2048x64 .f32) (r : Fin 2048) (q : Fin 64) :
    k4_pay2 (F := Ideal) i v7 v15 v18 (ix2 r q)
      = v18 (ix2 r q) + ∑ k : Fin 2048, hot (v7 (ix2 r (0 : Fin 1))) (BitVec.ofNat 32 ((i 1).val * 2048 + k.val)) * v15 (ix2 k q) := by
  unfold k4_pay2
  dsimp only
  rw [shapeCast_self]
  refine congrArg (v18 (ix2 r q) + ·) ?_
  refine (Cert.BlockMatmul.matmul_zero_plain_apply (M := 2048) (K := 2048) (N := 64) dot_S2048x2048_S2048x64_S2048x64_1_0_0_1_n_n.wf none _ _ r q).trans ?_
  refine Finset.sum_congr rfl fun k _ => ?_
  rw [shapeCast_self, shapeCast_self]
  refine congrArg (· * v15 (ix2 k q)) ?_
  show hot (broadcastTo S2048x2048 v7 broadcasts_S2048x1_S2048x2048 (ix2 r k))
      (broadcastTo S2048x2048 (addi (broadcast S1x2048 (Scalar.muli (BitVec.ofNat 32 (i 1).val) 2048#32))
        (iota Kind.tc S1x2048 32 [1] iota_S1x2048_d1_w32)) broadcasts_S1x2048_S2048x2048 (ix2 r k)) = _
  rw [broadcastTo_a1_ab_apply (a := 2048) (b := 2048) v7 _ r k,
    ValueIdx.broadcastTo_1b_ab_apply (a := 2048) (b := 2048) _ _ r k]
  refine congrArg (hot (v7 (ix2 r (0 : Fin 1)))) ?_
  show Scalar.muli (BitVec.ofNat 32 (i 1).val) 2048#32 + iota Kind.tc S1x2048 32 [1] iota_S1x2048_d1_w32 (ix2 (0 : Fin 1) k) = _
  rw [iota_single_apply]
  exact node_word _ _

/-- Gather kernel 4, the accumulator's reset: zero everywhere. -/
theorem gather4_zero_apply (j : S2048x64.Idx) : k4_pay1 (F := Ideal) j = 0 := by
  unfold k4_pay1
  rw [shapeCast_self]
  exact Ideal.ofBits_zero_f32

/-- Gather kernel 4, the stored block at (r, q): the accumulator there times the edge's weight. -/
theorem gather4_final_apply (v27 : Vec Ideal S2048x64 .f32) (v28 : Vec Ideal S2048x1 .f32) (r : Fin 2048) (q : Fin 64) :
    k4_pay3 (F := Ideal) v27 v28 (ix2 r q) = v27 (ix2 r q) * v28 (ix2 r (0 : Fin 1)) := by
  unfold k4_pay3
  rw [shapeCast_self]
  show v27 (ix2 r q) * broadcastTo S2048x64 v28 broadcasts_S2048x1_S2048x64 (ix2 r q) = _
  rw [broadcastTo_a1_ab_apply (a := 2048) (b := 64) v28 _ r q]

/-- Gather kernel 7, one accumulation step at (r, q): the accumulator there plus the one-hot row of edge `r` (its
    source word against the 2048 node numbers of block `i 1`) times column `q` of the node block. -/
theorem gather7_step_apply (i : grid7.Coords) (v7 : Vec Ideal S2048x1 .i32) (v15 v18 : Vec Ideal S2048x64 .f32) (r : Fin 2048) (q : Fin 64) :
    k7_pay2 (F := Ideal) i v7 v15 v18 (ix2 r q)
      = v18 (ix2 r q) + ∑ k : Fin 2048, hot (v7 (ix2 r (0 : Fin 1))) (BitVec.ofNat 32 ((i 1).val * 2048 + k.val)) * v15 (ix2 k q) := by
  unfold k7_pay2
  dsimp only
  rw [shapeCast_self]
  refine congrArg (v18 (ix2 r q) + ·) ?_
  refine (Cert.BlockMatmul.matmul_zero_plain_apply (M := 2048) (K := 2048) (N := 64) dot_S2048x2048_S2048x64_S2048x64_1_0_0_1_n_n.wf none _ _ r q).trans ?_
  refine Finset.sum_congr rfl fun k _ => ?_
  rw [shapeCast_self, shapeCast_self]
  refine congrArg (· * v15 (ix2 k q)) ?_
  show hot (broadcastTo S2048x2048 v7 broadcasts_S2048x1_S2048x2048 (ix2 r k))
      (broadcastTo S2048x2048 (addi (broadcast S1x2048 (Scalar.muli (BitVec.ofNat 32 (i 1).val) 2048#32))
        (iota Kind.tc S1x2048 32 [1] iota_S1x2048_d1_w32)) broadcasts_S1x2048_S2048x2048 (ix2 r k)) = _
  rw [broadcastTo_a1_ab_apply (a := 2048) (b := 2048) v7 _ r k,
    ValueIdx.broadcastTo_1b_ab_apply (a := 2048) (b := 2048) _ _ r k]
  refine congrArg (hot (v7 (ix2 r (0 : Fin 1)))) ?_
  show Scalar.muli (BitVec.ofNat 32 (i 1).val) 2048#32 + iota Kind.tc S1x2048 32 [1] iota_S1x2048_d1_w32 (ix2 (0 : Fin 1) k) = _
  rw [iota_single_apply]
  exact node_word _ _

/-- Gather kernel 7, the accumulator's reset: zero everywhere. -/
theorem gather7_zero_apply (j : S2048x64.Idx) : k7_pay1 (F := Ideal) j = 0 := by
  unfold k7_pay1
  rw [shapeCast_self]
  exact Ideal.ofBits_zero_f32

/-- Gather kernel 7, the stored block at (r, q): the accumulator there times the edge's weight. -/
theorem gather7_final_apply (v27 : Vec Ideal S2048x64 .f32) (v28 : Vec Ideal S2048x1 .f32) (r : Fin 2048) (q : Fin 64) :
    k7_pay3 (F := Ideal) v27 v28 (ix2 r q) = v27 (ix2 r q) * v28 (ix2 r (0 : Fin 1)) := by
  unfold k7_pay3
  rw [shapeCast_self]
  show v27 (ix2 r q) * broadcastTo S2048x64 v28 broadcasts_S2048x1_S2048x64 (ix2 r q) = _
  rw [broadcastTo_a1_ab_apply (a := 2048) (b := 64) v28 _ r q]

/-- Scatter kernel 2, one accumulation step at (r, q): the accumulator there plus the one-hot row of node
    `(i 0) * 2048 + r` (against the 2048 target words of the edge block) times column `q` of the message block. -/
theorem scatter2_step_apply (i : grid2.Coords) (v7 : Vec Ideal S1x2048 .i32) (v15 v18 : Vec Ideal S2048x64 .f32) (r : Fin 2048) (q : Fin 64) :
    k2_pay2 (F := Ideal) i v7 v15 v18 (ix2 r q)
      = v18 (ix2 r q) + ∑ e : Fin 2048, hot (BitVec.ofNat 32 ((i 0).val * 2048 + r.val)) (v7 (ix2 (0 : Fin 1) e)) * v15 (ix2 e q) := by
  unfold k2_pay2
  dsimp only
  rw [shapeCast_self]
  refine congrArg (v18 (ix2 r q) + ·) ?_
  refine (Cert.BlockMatmul.matmul_zero_plain_apply (M := 2048) (K := 2048) (N := 64) dot_S2048x2048_S2048x64_S2048x64_1_0_0_1_n_n.wf none _ _ r q).trans ?_
  refine Finset.sum_congr rfl fun e _ => ?_
  rw [shapeCast_self, shapeCast_self]
  refine congrArg (· * v15 (ix2 e q)) ?_
  show hot (broadcastTo S2048x2048 (addi (broadcast S2048x1 (Scalar.muli (BitVec.ofNat 32 (i 0).val) 2048#32))
        (iota Kind.tc S2048x1 32 [0] iota_S2048x1_d0_w32)) broadcasts_S2048x1_S2048x2048 (ix2 r e))
      (broadcastTo S2048x2048 v7 broadcasts_S1x2048_S2048x2048 (ix2 r e)) = _
  rw [broadcastTo_a1_ab_apply (a := 2048) (b := 2048) _ _ r e,
    ValueIdx.broadcastTo_1b_ab_apply (a := 2048) (b := 2048) v7 _ r e]
  refine congrArg (hot · (v7 (ix2 (0 : Fin 1) e))) ?_
  show Scalar.muli (BitVec.ofNat 32 (i 0).val) 2048#32 + iota Kind.tc S2048x1 32 [0] iota_S2048x1_d0_w32 (ix2 r (0 : Fin 1)) = _
  rw [iota_single_apply]
  exact node_word _ _

/-- Scatter kernel 2, the accumulator's reset: zero everywhere. -/
theorem scatter2_zero_apply (j : S2048x64.Idx) : k2_pay1 (F := Ideal) j = 0 := by
  unfold k2_pay1
  rw [shapeCast_self]
  exact Ideal.ofBits_zero_f32

/-- Scatter kernel 5, one accumulation step at (r, q): the accumulator there plus the one-hot row of node
    `(i 0) * 2048 + r` (against the 2048 target words of the edge block) times column `q` of the message block. -/
theorem scatter5_step_apply (i : grid5.Coords) (v7 : Vec Ideal S1x2048 .i32) (v15 v18 : Vec Ideal S2048x64 .f32) (r : Fin 2048) (q : Fin 64) :
    k5_pay2 (F := Ideal) i v7 v15 v18 (ix2 r q)
      = v18 (ix2 r q) + ∑ e : Fin 2048, hot (BitVec.ofNat 32 ((i 0).val * 2048 + r.val)) (v7 (ix2 (0 : Fin 1) e)) * v15 (ix2 e q) := by
  unfold k5_pay2
  dsimp only
  rw [shapeCast_self]
  refine congrArg (v18 (ix2 r q) + ·) ?_
  refine (Cert.BlockMatmul.matmul_zero_plain_apply (M := 2048) (K := 2048) (N := 64) dot_S2048x2048_S2048x64_S2048x64_1_0_0_1_n_n.wf none _ _ r q).trans ?_
  refine Finset.sum_congr rfl fun e _ => ?_
  rw [shapeCast_self, shapeCast_self]
  refine congrArg (· * v15 (ix2 e q)) ?_
  show hot (broadcastTo S2048x2048 (addi (broadcast S2048x1 (Scalar.muli (BitVec.ofNat 32 (i 0).val) 2048#32))
        (iota Kind.tc S2048x1 32 [0] iota_S2048x1_d0_w32)) broadcasts_S2048x1_S2048x2048 (ix2 r e))
      (broadcastTo S2048x2048 v7 broadcasts_S1x2048_S2048x2048 (ix2 r e)) = _
  rw [broadcastTo_a1_ab_apply (a := 2048) (b := 2048) _ _ r e,
    ValueIdx.broadcastTo_1b_ab_apply (a := 2048) (b := 2048) v7 _ r e]
  refine congrArg (hot · (v7 (ix2 (0 : Fin 1) e))) ?_
  show Scalar.muli (BitVec.ofNat 32 (i 0).val) 2048#32 + iota Kind.tc S2048x1 32 [0] iota_S2048x1_d0_w32 (ix2 r (0 : Fin 1)) = _
  rw [iota_single_apply]
  exact node_word _ _

/-- Scatter kernel 5, the accumulator's reset: zero everywhere. -/
theorem scatter5_zero_apply (j : S2048x64.Idx) : k5_pay1 (F := Ideal) j = 0 := by
  unfold k5_pay1
  rw [shapeCast_self]
  exact Ideal.ofBits_zero_f32

/-- Scatter kernel 8, one accumulation step at (r, q): the accumulator there plus the one-hot row of node
    `(i 0) * 2048 + r` (against the 2048 target words of the edge block) times column `q` of the message block. -/
theorem scatter8_step_apply (i : grid8.Coords) (v7 : Vec Ideal S1x2048 .i32) (v15 v18 : Vec Ideal S2048x64 .f32) (r : Fin 2048) (q : Fin 64) :
    k8_pay2 (F := Ideal) i v7 v15 v18 (ix2 r q)
      = v18 (ix2 r q) + ∑ e : Fin 2048, hot (BitVec.ofNat 32 ((i 0).val * 2048 + r.val)) (v7 (ix2 (0 : Fin 1) e)) * v15 (ix2 e q) := by
  unfold k8_pay2
  dsimp only
  rw [shapeCast_self]
  refine congrArg (v18 (ix2 r q) + ·) ?_
  refine (Cert.BlockMatmul.matmul_zero_plain_apply (M := 2048) (K := 2048) (N := 64) dot_S2048x2048_S2048x64_S2048x64_1_0_0_1_n_n.wf none _ _ r q).trans ?_
  refine Finset.sum_congr rfl fun e _ => ?_
  rw [shapeCast_self, shapeCast_self]
  refine congrArg (· * v15 (ix2 e q)) ?_
  show hot (broadcastTo S2048x2048 (addi (broadcast S2048x1 (Scalar.muli (BitVec.ofNat 32 (i 0).val) 2048#32))
        (iota Kind.tc S2048x1 32 [0] iota_S2048x1_d0_w32)) broadcasts_S2048x1_S2048x2048 (ix2 r e))
      (broadcastTo S2048x2048 v7 broadcasts_S1x2048_S2048x2048 (ix2 r e)) = _
  rw [broadcastTo_a1_ab_apply (a := 2048) (b := 2048) _ _ r e,
    ValueIdx.broadcastTo_1b_ab_apply (a := 2048) (b := 2048) v7 _ r e]
  refine congrArg (hot · (v7 (ix2 (0 : Fin 1) e))) ?_
  show Scalar.muli (BitVec.ofNat 32 (i 0).val) 2048#32 + iota Kind.tc S2048x1 32 [0] iota_S2048x1_d0_w32 (ix2 r (0 : Fin 1)) = _
  rw [iota_single_apply]
  exact node_word _ _

/-- Scatter kernel 8, the accumulator's reset: zero everywhere. -/
theorem scatter8_zero_apply (j : S2048x64.Idx) : k8_pay1 (F := Ideal) j = 0 := by
  unfold k8_pay1
  rw [shapeCast_self]
  exact Ideal.ofBits_zero_f32

end Cert.KernelIdeal.Payload

end
-- ==== Proof.LinVal0.lean ====
/- The linear kernel of pipeline 0 on the extended reals: what each grid point writes back is its row block of one
   whole-array function of the two input arrays, the row blocks cover the output array, so the array the region leaves is
   that function — at (n, q) the sum over k of x(n, k) · W(k, q). -/
import proofs.«104867_j4217657884863_1_alg».proof.Proof.Lin0
import proofs.«104867_j4217657884863_1_alg».proof.Proof.PayloadIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {Ix : Type} [DecidableEq Ix] {U : Type} [URA U] {Lvl : Type} [Preorder Lvl]

variable (V : Dev nD → Valuation τ sig (Elt Ideal))

/-! # Pipeline 0 on the extended reals: the output array is the rows of the activation times the weight -/

theorem hzL0 : (![0, 0] : Fin 2 → Nat) = fun _ => 0 := funext fun a => by fin_cases a <;> rfl

/-- The two input arrays as the region finds them, as plain functions of the index. -/
abbrev arrX0 (c : Dev nD) : S51200x64.Idx → Elt Ideal .f32 := V c main_v33
abbrev arrW0 (c : Dev nD) : S64x64.Idx → Elt Ideal .f32 := V c main_arg3

/-- The output array as ONE function of the two input arrays as the region finds them: at (n, q) the sum over k of
    x(n, k) · W(k, q). -/
def GL0 (c : Dev nD) : S51200x64.Idx → Elt Ideal .f32 := fun i =>
  ∑ k : Fin 64, arrX0 V c (ix2 (i 0 : Fin 51200) k) * arrW0 V c (ix2 k (i 1 : Fin 64))

/-- The printed index maps, decided over the grid: the activation window moves with the output window down the rows,
    neither moves along the columns, the weight window does not move, and point `t` writes row block `t`. -/
theorem idx_factsL0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- WHAT POINT `t` WRITES BACK is block `t` of `GL0`. -/
theorem flushedL0_eq (c : Dev nD) (t : Fin cfg0.N) :
    (datL0 (F := Ideal) (Ix := Ix) (U := U) (Lvl := Lvl) V c).flushed 2 t = ((cfg0.win 2).blk t).view.read (Elt Ideal) (GL0 V c) := by
  show (cfg0.win 2).cut (grid0.coords t) ((datL0 (F := Ideal) (Ix := Ix) (U := U) (Lvl := Lvl) V c).after 2 t) = _
  rw [afterL0_2]
  unfold outL0
  rw [View.canon_unit_zero hzL0]
  simp only [View.ld_unit_zero (S := S2048x64) hzL0, View.ld_unit_zero (S := S64x64) hzL0]
  obtain ⟨e0, e1, e2, e3, e4, e5⟩ := idx_factsL0 t
  funext j
  obtain ⟨r, q, rfl⟩ : ∃ (r : Fin 2048) (q : Fin 64), j = ix2 r q := ⟨j 0, j 1, eq_ix2 j⟩
  show k0_pay1 (F := Ideal) (iblkL0 V c 0 t) (iblkL0 V c 1 t) (ix2 r q) = GL0 V c (((cfg0.win 2).blk t).view.emb (ix2 r q))
  rw [Cert.KernelIdeal.Payload.linear0_apply]
  unfold GL0
  refine Finset.sum_congr rfl fun k _ => ?_
  show arrX0 V c (((cfg0.win 0).blk t).view.emb (ix2 r k)) * arrW0 V c (((cfg0.win 1).blk t).view.emb (ix2 k q)) = _
  have h0 : ((cfg0.win 0).blk t).view.emb (ix2 r k)
      = ix2 ((((cfg0.win 2).blk t).view.emb (ix2 r q)) 0 : Fin 51200) k := by
    funext a; apply Fin.ext
    match a with
    | ⟨0, _⟩ => show win0_0.index t (0 : Fin 2) * 2048 + 1 * r.val = win0_2.index t (0 : Fin 2) * 2048 + 1 * r.val; omega
    | ⟨1, _⟩ => show win0_0.index t (1 : Fin 2) * 64 + 1 * k.val = k.val; omega
  have h1 : ((cfg0.win 1).blk t).view.emb (ix2 k q)
      = ix2 k ((((cfg0.win 2).blk t).view.emb (ix2 r q)) 1 : Fin 64) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [h0, h1]
  rfl

/-- An index of the array is in point `t`'s block iff each coordinate is in the block's range on its axis. -/
theorem mem_blkL0 (t : Fin cfg0.N) (i : S51200x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v41).slice (win0_2.rect t)).set ↔ _
  rw [View.set_slice_whole, Rect.mem_set_unit]
  exact Iff.rfl

/-- Every index of the output array is in some point's block: row `n` is in row block `n / 2048`. -/
theorem coverL0_arr (i : S51200x64.Idx) :
    ∃ t : Fin cfg0.N, (cfg0.win 2).flush t = true ∧ i ∈ ((cfg0.win 2).blk t).view.set := by
  have hi0 : (i 0).val < 51200 := (i 0).isLt
  have hi1 : (i 1).val < 64 := (i 1).isLt
  have hN : cfg0.N = 25 := N_0
  let t : Fin cfg0.N := ⟨(i 0).val / 2048, by rw [hN]; omega⟩
  obtain ⟨e0, e1, e2, e3, e4, e5⟩ := idx_factsL0 t
  have e5' : win0_2.index t (0 : Fin 2) = (i 0).val / 2048 := e5
  refine ⟨t, flush0_2 t, ?_⟩
  rw [mem_blkL0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- THE OUTPUT ARRAY after the region, whole: `GL0` of the input arrays. -/
theorem linOut0_eq (c : Dev nD) : (datL0 (F := Ideal) (Ix := Ix) (U := U) (Lvl := Lvl) V c).arrAt 2 cfg0.N = GL0 V c :=
  (datL0 (F := Ideal) (Ix := Ix) (U := U) (Lvl := Lvl) V c).arrAt_eq_of_cover 2 (GL0 V c) (fun t _ => flushedL0_eq V c t) (coverL0_arr)

/-- and index by index: at (n, q) the sum over k of x(n, k) · W(k, q). -/
theorem linOut0_apply (c : Dev nD) (n : Fin 51200) (q : Fin 64) :
    ((datL0 (F := Ideal) (Ix := Ix) (U := U) (Lvl := Lvl) V c).arrAt 2 cfg0.N : S51200x64.Idx → Elt Ideal .f32) (ix2 n q) = ∑ k : Fin 64, arrX0 V c (ix2 n k) * arrW0 V c (ix2 k q) := by
  rw [linOut0_eq]; rfl

end Cert.KernelIdeal.Hand

end
-- ==== Proof.LayerMath.lean ====
import proofs.«104867_j4217657884863_1_alg».proof.Proof.LibOneHot

/-!
# One graph-convolution layer: the padded one-hot form is the gather / segment-sum form

Both programs compute, per layer, `relu((agg + h · dis²) + bias)` with `h = H · W`, the messages `h[src[e]] · norm[e]`
and `agg` their sums by target node. The kernel works on arrays padded to whole blocks (51200 = 25 · 2048 node rows,
800768 = 391 · 2048 edges; the padded edges carry weight `0` and node word `0`), finds row `src[e]` by a one-hot row
accumulated over the 25 node blocks, and sums by target with a one-hot row accumulated over the 391 edge blocks. The
reference gathers and segment-sums the unpadded arrays. On every node row below 50000 the two layers agree, given that
the inputs agree there, that the source words are node numbers and that the target words are non-negative. Nothing
here needs a finite value: a one-hot factor keeps or kills any extended real, a padded edge's message is `· 0`, and
sums regroup in a commutative monoid.

All arrays are functions of natural-number row indices (junk outside the extents is never read).
-/

noncomputable section

namespace Cert.Layer

open Idealize.ShloMosaic Cert.Lib.OneHot

/-- A filtered sum over `a + b` indices whose terms vanish on the last `b` is the filtered sum over the first `a`. -/
theorem sum_filter_pad {M : Type*} [AddCommMonoid M] (a b : ℕ) (p : ℕ → Prop) [DecidablePred p] (f : ℕ → M)
    (hz : ∀ e, a ≤ e → e < a + b → f e = 0) :
    ∑ e ∈ Finset.univ.filter (fun e : Fin (a + b) => p e.val), f e.val
      = ∑ e ∈ Finset.univ.filter (fun e : Fin a => p e.val), f e.val := by
  rw [Finset.sum_filter, Finset.sum_filter, Fin.sum_univ_add]
  have : ∑ i : Fin b, (if p (Fin.natAdd a i).val then f (Fin.natAdd a i).val else 0) = 0 :=
    Finset.sum_eq_zero fun i _ => by
      rw [hz (Fin.natAdd a i).val (by simp) (by simp)]; simp
  rw [this, add_zero]
  rfl

/-- A word read as a signed number in `[0, 2³¹)` has that number as its value. -/
theorem toNat_of_toInt_nonneg (s : BitVec 32) (h : 0 ≤ s.toInt) : s.toNat = s.toInt.toNat := by
  have e := BitVec.toInt_eq_toNat_cond s
  have := s.isLt
  omega

/-- For a word that is non-negative as a signed number, its value is `n` exactly when its signed reading is. -/
theorem toNat_eq_iff_toInt_eq (s : BitVec 32) (h : 0 ≤ s.toInt) (n : ℕ) : s.toNat = n ↔ s.toInt = (n : ℤ) := by
  have e := BitVec.toInt_eq_toNat_cond s
  have := s.isLt
  omega

section

variable (W : Fin 64 → Fin 64 → EReal) (bias : Fin 64 → EReal)

/-- The dense product of one row: `(H · W)(n, q)`. -/
def lin (H : ℕ → Fin 64 → EReal) (n : ℕ) (q : Fin 64) : EReal := ∑ k : Fin 64, H n k * W k q

/-- The kernel's message of edge `e`: the one-hot row of its source word against the 25 · 2048 node rows, accumulated
    block by block from zero, times the edge's weight. -/
def msgK (srcp : ℕ → BitVec 32) (normp : ℕ → EReal) (h : ℕ → Fin 64 → EReal) (e : ℕ) (q : Fin 64) : EReal :=
  accBlocks (0 : EReal) (fun b => ∑ k : Fin 2048, hot (srcp e) (BitVec.ofNat 32 (b * 2048 + k.val)) * h (b * 2048 + k.val) q) 24
    * normp e

/-- The kernel's aggregate at node `n`: the one-hot row of `n` against the 391 · 2048 target words, accumulated block by
    block from zero, times the messages. -/
def aggK (dstp : ℕ → BitVec 32) (msg : ℕ → Fin 64 → EReal) (n : ℕ) (q : Fin 64) : EReal :=
  accBlocks (0 : EReal) (fun b => ∑ k : Fin 2048, hot (BitVec.ofNat 32 n) (dstp (b * 2048 + k.val)) * msg (b * 2048 + k.val) q) 390

/-- The kernel's layer on padded arrays. -/
def layerK (srcp dstp : ℕ → BitVec 32) (normp d2p : ℕ → EReal) (H : ℕ → Fin 64 → EReal) (n : ℕ) (q : Fin 64) : EReal :=
  max ((aggK dstp (msgK srcp normp (lin W H)) n q + lin W H n q * d2p n) + bias q) 0

/-- The reference's message of edge `e`: the row at its source word, read signed and clamped, times the weight. -/
def msgR (src : ℕ → BitVec 32) (norm : ℕ → EReal) (h : ℕ → Fin 64 → EReal) (e : ℕ) (q : Fin 64) : EReal :=
  h (min (src e).toInt.toNat 49999) q * norm e

/-- The reference's layer: zero plus the messages of the edges whose target, read signed, is `n`. -/
def layerR (src dst : ℕ → BitVec 32) (norm d2 : ℕ → EReal) (H : ℕ → Fin 64 → EReal) (n : ℕ) (q : Fin 64) : EReal :=
  max (((0 + ∑ e ∈ Finset.univ.filter (fun e : Fin 800000 => (dst e.val).toInt = (n : ℤ)), msgR src norm (lin W H) e.val q)
    + lin W H n q * d2 n) + bias q) 0

/-- ONE LAYER. On node rows below 50000 the kernel's layer on the padded arrays is the reference's layer. -/
theorem layerK_eq_layerR (srcp dstp src dst : ℕ → BitVec 32) (normp norm d2p d2 : ℕ → EReal) (HK HR : ℕ → Fin 64 → EReal)
    (hH : ∀ n, n < 50000 → ∀ k, HK n k = HR n k)
    (hsrc : ∀ e, e < 800000 → srcp e = src e) (hdst : ∀ e, e < 800000 → dstp e = dst e)
    (hnorm : ∀ e, e < 800000 → normp e = norm e) (hnorm0 : ∀ e, 800000 ≤ e → e < 800000 + 768 → normp e = 0)
    (hd2 : ∀ n, n < 50000 → d2p n = d2 n)
    (hsr : ∀ e, e < 800000 → 0 ≤ (src e).toInt ∧ (src e).toInt < 50000) (hds : ∀ e, e < 800000 → 0 ≤ (dst e).toInt)
    (n : ℕ) (hn : n < 50000) (q : Fin 64) :
    layerK W bias srcp dstp normp d2p HK n q = layerR W bias src dst norm d2 HR n q := by
  have hlin : ∀ n', n' < 50000 → ∀ q', lin W HK n' q' = lin W HR n' q' := fun n' h' q' =>
    Finset.sum_congr rfl fun k _ => by rw [hH n' h' k]
  -- the kernel's message of a true edge is the reference's; of a padded edge, zero
  have hmsg : ∀ e, e < 800000 → msgK srcp normp (lin W HK) e q = msgR src norm (lin W HR) e q := by
    intro e he
    obtain ⟨h0, h1⟩ := hsr e he
    have hnat : (src e).toNat = (src e).toInt.toNat := toNat_of_toInt_nonneg _ h0
    have hlt : (src e).toNat < 25 * 2048 := by omega
    unfold msgK msgR
    rw [hsrc e he, hnorm e he]
    have := accBlocks_lookup 25 2048 (by norm_num) (by norm_num) (fun r => lin W HK r q) (src e) hlt
    rw [show (25 - 1 : ℕ) = 24 from rfl] at this
    rw [this, hnat, hlin _ (by omega) q]
    have : min (src e).toInt.toNat 49999 = (src e).toInt.toNat := by omega
    rw [this]
  have hmsg0 : ∀ e, 800000 ≤ e → e < 800000 + 768 → msgK srcp normp (lin W HK) e q = 0 := by
    intro e h1 h2
    unfold msgK
    rw [hnorm0 e h1 h2, mul_zero]
  unfold layerK layerR
  rw [hlin n hn q, hd2 n hn, zero_add]
  refine congrArg (fun x => max ((x + lin W HR n q * d2 n) + bias q) 0) ?_
  unfold aggK
  have := accBlocks_select 391 2048 (by norm_num) (fun e => msgK srcp normp (lin W HK) e q) dstp n (by omega)
  rw [show (391 - 1 : ℕ) = 390 from rfl] at this
  rw [this, show (391 * 2048 : ℕ) = 800000 + 768 from rfl,
    sum_filter_pad 800000 768 (fun e => (dstp e).toNat = n) (fun e => msgK srcp normp (lin W HK) e q) hmsg0]
  refine Finset.sum_congr ?_ fun e _ => hmsg e.val e.isLt
  ext e
  simp only [Finset.mem_filter, Finset.mem_univ, true_and]
  rw [hdst e.val e.isLt]
  exact toNat_eq_iff_toInt_eq _ (hds e.val e.isLt) n

end

end Cert.Layer

end
-- ==== Proof.G1Value.lean ====
/-
  The gather kernel of layer 1 (pipeline 1): what its output array holds after the region, read over the
  extended reals.

  Row e of the output is the norm of edge e times the sum, over the 25 blocks of 2048 node rows, of the
  one-hot row of edge e's source word against the block's node numbers times the block of h: the accumulator
  after the last step of a row of the grid, scaled. Every row of the output lies in exactly the block the last
  step of its row of the grid writes back, so the write-backs cover the array.
-/
import proofs.«104867_j4217657884863_1_alg».proof.Proof.G1Region
import proofs.«104867_j4217657884863_1_alg».proof.Proof.PayloadIdeal
import proofs.«104867_j4217657884863_1_alg».proof.Proof.LayerMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {Ix : Type} [DecidableEq Ix] {U : Type} [URA U] {Lvl : Type} [Preorder Lvl]

local notation "𝕄" => MT nD τ sig Ix (Elt Ideal) ℕ U Lvl

open Idealize.ShloMosaic.ValueIdx
open Cert.Lib.OneHot Cert.KernelIdeal.Payload

/-! ## The grid coordinates and the windows' block indices at a point -/

theorem coords1_0 (t : Fin cfg1.N) : ((grid1.coords t) 0).val = t.val / 25 := by
  show t.val / grid1.stride 0 % 391 = t.val / 25
  rw [show grid1.stride 0 = 25 from by decide]
  have : t.val < 9775 := lt_of_lt_of_eq t.isLt N_1
  omega

theorem word_val (n : Nat) (h : n < 2 ^ 32) : (BitVec.ofNat 32 n).toNat = n := by
  rw [BitVec.toNat_ofNat]; exact Nat.mod_eq_of_lt h

/-- The h window moves along the second grid axis; -/
theorem idx1_0 (t : Fin cfg1.N) : win1_0.index t (0 : Fin 2) = t.val % 25 ∧ win1_0.index t (1 : Fin 2) = 0 := by
  constructor
  · show (BitVec.ofNat 32 ((grid1.coords t) 1).val).toNat = _
    rw [coords1_1]; exact word_val _ (by omega)
  · rfl
/-- the source, norm and output windows along the first. -/
theorem idx1_1 (t : Fin cfg1.N) : win1_1.index t (0 : Fin 2) = t.val / 25 ∧ win1_1.index t (1 : Fin 2) = 0 := by
  have : t.val < 9775 := lt_of_lt_of_eq t.isLt N_1
  constructor
  · show (BitVec.ofNat 32 ((grid1.coords t) 0).val).toNat = _
    rw [coords1_0]; exact word_val _ (by omega)
  · rfl
theorem idx1_2 (t : Fin cfg1.N) : win1_2.index t (0 : Fin 2) = t.val / 25 ∧ win1_2.index t (1 : Fin 2) = 0 := by
  have : t.val < 9775 := lt_of_lt_of_eq t.isLt N_1
  constructor
  · show (BitVec.ofNat 32 ((grid1.coords t) 0).val).toNat = _
    rw [coords1_0]; exact word_val _ (by omega)
  · rfl
theorem idx1_3 (t : Fin cfg1.N) : win1_3.index t (0 : Fin 2) = t.val / 25 ∧ win1_3.index t (1 : Fin 2) = 0 := by
  have : t.val < 9775 := lt_of_lt_of_eq t.isLt N_1
  constructor
  · show (BitVec.ofNat 32 ((grid1.coords t) 0).val).toNat = _
    rw [coords1_0]; exact word_val _ (by omega)
  · rfl

section Value

variable (V : Dev nD → Valuation τ sig (Elt Ideal))

local notation "dG" => datG1 (F := Ideal) (Ix := Ix) (U := U) (Lvl := Lvl) V

/-! ## The three input arrays, by row number -/

/-- h by node row and column (zero past the array). -/
def tblH1 (c : Dev nD) : ℕ → Fin 64 → EReal :=
  fun n' q' => if h : n' < 51200 then (V c main_v41 : S51200x64.Idx → EReal) (ix2 ⟨n', h⟩ q') else 0
/-- The source word of edge row e. -/
def srcW1 (c : Dev nD) : ℕ → BitVec 32 :=
  fun e' => if h : e' < 800768 then (V c main_v38 : S800768x1.Idx → BitVec 32) (ix2 ⟨e', h⟩ (0 : Fin 1)) else 0#32
/-- The norm of edge row e. -/
def nrmW1 (c : Dev nD) : ℕ → EReal :=
  fun e' => if h : e' < 800768 then (V c main_v39 : S800768x1.Idx → EReal) (ix2 ⟨e', h⟩ (0 : Fin 1)) else 0

/-- What block b of the node rows adds to edge row e's accumulator at column q. -/
def term1 (c : Dev nD) (e : ℕ) (q : Fin 64) : ℕ → EReal :=
  fun b => ∑ k : Fin 2048, hot (srcW1 V c e) (BitVec.ofNat 32 (b * 2048 + k.val)) * tblH1 V c (b * 2048 + k.val) q

/-- THE OUTPUT ARRAY: row e, column q is the accumulator after the 25 blocks' contributions, times the edge's norm. -/
def gathered1 (c : Dev nD) : S800768x64.Idx → EReal :=
  fun i => accBlocks (0 : EReal) (term1 V c (i 0).val (i 1)) 24 * nrmW1 V c (i 0).val

/-! ## The blocks the body reads, off the arrays -/

theorem blk1_0 (c : Dev nD) (t : Fin cfg1.N) (k : Fin 2048) (q : Fin 64) :
    iblk1 V c 0 t (ix2 k q) = tblH1 V c (t.val % 25 * 2048 + k.val) q := by
  have hlt : t.val % 25 * 2048 + k.val < 51200 := by have := k.isLt; omega
  unfold tblH1; dsimp only; rw [dif_pos hlt]
  show (V c main_v41 : S51200x64.Idx → EReal) (((cfg1.win 0).blk t).view.emb (ix2 k q)) = _
  refine congrArg (V c main_v41 : S51200x64.Idx → EReal) ?_
  obtain ⟨e0, e1⟩ := idx1_0 t
  funext a; apply Fin.ext
  match a with
  | ⟨0, _⟩ => show win1_0.index t (0 : Fin 2) * 2048 + 1 * k.val = t.val % 25 * 2048 + k.val; omega
  | ⟨1, _⟩ => show win1_0.index t (1 : Fin 2) * 64 + 1 * q.val = q.val; omega

theorem blk1_1 (c : Dev nD) (t : Fin cfg1.N) (r : Fin 2048) :
    iblk1 V c 1 t (ix2 r (0 : Fin 1)) = srcW1 V c (t.val / 25 * 2048 + r.val) := by
  have : t.val < 9775 := lt_of_lt_of_eq t.isLt N_1
  have hlt : t.val / 25 * 2048 + r.val < 800768 := by have := r.isLt; omega
  unfold srcW1; dsimp only; rw [dif_pos hlt]
  show (V c main_v38 : S800768x1.Idx → BitVec 32) (((cfg1.win 1).blk t).view.emb (ix2 r (0 : Fin 1))) = _
  refine congrArg (V c main_v38 : S800768x1.Idx → BitVec 32) ?_
  obtain ⟨e0, e1⟩ := idx1_1 t
  funext a; apply Fin.ext
  match a with
  | ⟨0, _⟩ => show win1_1.index t (0 : Fin 2) * 2048 + 1 * r.val = t.val / 25 * 2048 + r.val; omega
  | ⟨1, _⟩ => show win1_1.index t (1 : Fin 2) * 1 + 1 * 0 = 0; omega

theorem blk1_2 (c : Dev nD) (t : Fin cfg1.N) (r : Fin 2048) :
    iblk1 V c 2 t (ix2 r (0 : Fin 1)) = nrmW1 V c (t.val / 25 * 2048 + r.val) := by
  have : t.val < 9775 := lt_of_lt_of_eq t.isLt N_1
  have hlt : t.val / 25 * 2048 + r.val < 800768 := by have := r.isLt; omega
  unfold nrmW1; dsimp only; rw [dif_pos hlt]
  show (V c main_v39 : S800768x1.Idx → EReal) (((cfg1.win 2).blk t).view.emb (ix2 r (0 : Fin 1))) = _
  refine congrArg (V c main_v39 : S800768x1.Idx → EReal) ?_
  obtain ⟨e0, e1⟩ := idx1_2 t
  funext a; apply Fin.ext
  match a with
  | ⟨0, _⟩ => show win1_2.index t (0 : Fin 2) * 2048 + 1 * r.val = t.val / 25 * 2048 + r.val; omega
  | ⟨1, _⟩ => show win1_2.index t (1 : Fin 2) * 1 + 1 * 0 = 0; omega

/-! ## The accumulator in closed form -/

/-- The accumulator after point t, at (r, q): zero plus the contributions of the blocks 0 … t % 25 to edge row
    (t / 25) * 2048 + r. -/
theorem acc1_eq (c : Dev nD) : ∀ (n : ℕ) (t : Fin cfg1.N), t.val = n → ∀ (r : Fin 2048) (q : Fin 64),
    acc1 V c t.val t.isLt (ix2 r q)
      = accBlocks (0 : EReal) (term1 V c (t.val / 25 * 2048 + r.val) q) (t.val % 25) := by
  intro n
  induction n with
  | zero =>
    intro t ht r q
    have h0 : t.val % 25 = 0 := by rw [ht]
    rw [acc1_first V c t h0, gather1_step_apply, gather1_zero_apply, h0]
    show _ = (0 : EReal) + term1 V c (t.val / 25 * 2048 + r.val) q 0
    refine congrArg ((0 : EReal) + ·) ?_
    unfold term1
    refine Finset.sum_congr rfl fun k _ => ?_
    rw [blk1_1, blk1_0, coords1_1, h0]
  | succ n ih =>
    intro t ht r q
    by_cases h0 : t.val % 25 = 0
    · rw [acc1_first V c t h0, gather1_step_apply, gather1_zero_apply, h0]
      show _ = (0 : EReal) + term1 V c (t.val / 25 * 2048 + r.val) q 0
      refine congrArg ((0 : EReal) + ·) ?_
      unfold term1
      refine Finset.sum_congr rfl fun k _ => ?_
      rw [blk1_1, blk1_0, coords1_1, h0]
    · have hlt : t.val - 1 < cfg1.N := Nat.lt_of_le_of_lt (Nat.sub_le _ _) t.isLt
      have hprev := ih ⟨t.val - 1, hlt⟩ (by show t.val - 1 = n; omega) r q
      have hd : (t.val - 1) / 25 = t.val / 25 := by omega
      have hm : t.val % 25 = (t.val - 1) % 25 + 1 := by omega
      rw [acc1_next V c t h0, gather1_step_apply]
      rw [show acc1 V c (t.val - 1) hlt (ix2 r q) = _ from hprev]
      show _ = accBlocks (0 : EReal) (term1 V c (t.val / 25 * 2048 + r.val) q) (t.val % 25)
      rw [hm]
      show _ = accBlocks (0 : EReal) (term1 V c (t.val / 25 * 2048 + r.val) q) ((t.val - 1) % 25)
          + term1 V c (t.val / 25 * 2048 + r.val) q ((t.val - 1) % 25 + 1)
      show accBlocks (0 : EReal) (term1 V c ((t.val - 1) / 25 * 2048 + r.val) q) ((t.val - 1) % 25) + _ = _
      rw [hd]
      refine congrArg (accBlocks (0 : EReal) (term1 V c (t.val / 25 * 2048 + r.val) q) ((t.val - 1) % 25) + ·) ?_
      unfold term1
      refine Finset.sum_congr rfl fun k _ => ?_
      rw [blk1_1, blk1_0, coords1_1, hm]

/-! ## What a last step writes back, and the cover -/

theorem flushed1_eq (c : Dev nD) (t : Fin cfg1.N) (hf : (cfg1.win 3).flush t = true) :
    (dG c).flushed 3 t = ((cfg1.win 3).blk t).view.read (Elt Ideal) (gathered1 V c) := by
  have h24 : t.val % 25 = 24 := (flush1_3 t).mp hf
  have hN : t.val < 9775 := lt_of_lt_of_eq t.isLt N_1
  show (cfg1.win 3).cut (grid1.coords t) ((dG c).after 3 t) = _
  rw [after1_3]
  funext j
  obtain ⟨r, q, rfl⟩ : ∃ (r : Fin 2048) (q : Fin 64), j = ix2 r q := ⟨j 0, j 1, ValueIdx.eq_ix2 (n0 := 2048) (n1 := 64) j⟩
  show k1_pay3 (F := Ideal) (acc1 V c t.val t.isLt) (iblk1 V c 2 t) (ix2 r q)
      = gathered1 V c (((cfg1.win 3).blk t).view.emb (ix2 r q))
  rw [gather1_final_apply, acc1_eq V c t.val t rfl r q, blk1_2, h24]
  obtain ⟨e0, e1⟩ := idx1_3 t
  have hr : ((((cfg1.win 3).blk t).view.emb (ix2 r q)) 0).val = t.val / 25 * 2048 + r.val := by
    show win1_3.index t (0 : Fin 2) * 2048 + 1 * r.val = _; omega
  have hq : (((cfg1.win 3).blk t).view.emb (ix2 r q)) 1 = q := by
    apply Fin.ext
    show win1_3.index t (1 : Fin 2) * 64 + 1 * q.val = q.val; omega
  unfold gathered1
  rw [hr, hq]

theorem mem_blk1_3 (t : Fin cfg1.N) (i : S800768x64.Idx) :
    i ∈ ((cfg1.win 3).blk t).view.set ↔ ∀ a : Fin 2, win1_3.index t a * S2048x64.size a ≤ (i a).val
      ∧ (i a).val < win1_3.index t a * S2048x64.size a + S2048x64.size a := by
  show i ∈ ((View.whole main_v42).slice (win1_3.rect t)).set ↔ _
  rw [View.set_slice_whole, Rect.mem_set_unit]
  exact Iff.rfl

theorem cover1_3 (i : S800768x64.Idx) :
    ∃ t : Fin cfg1.N, (cfg1.win 3).flush t = true ∧ i ∈ ((cfg1.win 3).blk t).view.set := by
  have hi0 : (i 0).val < 800768 := (i 0).isLt
  have hi1 : (i 1).val < 64 := (i 1).isLt
  have hN : cfg1.N = 9775 := N_1
  let t : Fin cfg1.N := ⟨(i 0).val / 2048 * 25 + 24, by rw [hN]; omega⟩
  have htv : t.val = (i 0).val / 2048 * 25 + 24 := rfl
  refine ⟨t, (flush1_3 t).mpr (by rw [htv]; omega), ?_⟩
  rw [mem_blk1_3]
  obtain ⟨e0, e1⟩ := idx1_3 t
  intro a
  match a with
  | ⟨0, _⟩ =>
    show win1_3.index t (0 : Fin 2) * 2048 ≤ (i 0).val ∧ (i 0).val < win1_3.index t (0 : Fin 2) * 2048 + 2048
    rw [e0, htv]; omega
  | ⟨1, _⟩ =>
    show win1_3.index t (1 : Fin 2) * 64 ≤ (i 1).val ∧ (i 1).val < win1_3.index t (1 : Fin 2) * 64 + 64
    rw [e1]; omega

/-- THE OUTPUT ARRAY after the region. -/
theorem final1 (c : Dev nD) : (dG c).arrAt 3 cfg1.N = gathered1 V c :=
  (dG c).arrAt_eq_of_cover 3 (gathered1 V c) (fun t hf => flushed1_eq V c t hf) cover1_3

/-- The same, entry by entry, as the layer's message sum. -/
theorem gatherOut1_apply (c : Dev nD) (e : Fin 800768) (q : Fin 64) :
    (dG c).arrAt 3 cfg1.N (ix2 e q)
      = Cert.Layer.msgK (srcW1 V c) (nrmW1 V c) (tblH1 V c) e.val q := by
  rw [final1]; rfl

end Value

end Cert.KernelIdeal.Hand

end
-- ==== Proof.KLayerGlue.lean ====
import proofs.«104867_j4217657884863_1_alg».proof.KernelIdeal
import proofs.«104867_j4217657884863_1_alg».proof.Proof.LayerMath
import Idealize.ShloMosaic.Lib.ValueIdx

/-!
# One layer of the kernel program, from its three regions' output arrays to the layer function

Per layer the kernel program runs three regions and a host tail. Given, index by index, what each leaves —
the linear region `x · W`, the gather region the accumulated one-hot row of each edge's source word against that
product times the edge's weight, the scatter region the accumulated one-hot row of each node against the target
words times those messages, the tail `relu((agg + h · dis²) + bias)` — the tail's array is the layer function of
LayerMath on the padded arrays, each array read as a function of natural-number row indices (zero outside).
-/

noncomputable section

namespace Cert.KernelIdeal.Glue

open Idealize.ShloMosaic Idealize.ShloMosaic.ValueIdx Cert.KernelIdeal Cert.Layer Cert.Lib.OneHot

/-- Two accumulators whose starts agree and whose terms agree up to step `n` agree after step `n`. -/
theorem accBlocks_congr {M : Type*} [AddCommMonoid M] (z : M) (term term' : Nat → M) (n : Nat)
    (h : ∀ b, b ≤ n → term b = term' b) : accBlocks z term n = accBlocks z term' n := by
  induction n with
  | zero => simp [accBlocks, h 0 (le_refl 0)]
  | succ n ih =>
    rw [accBlocks, accBlocks, ih (fun b hb => h b (Nat.le_succ_of_le hb)), h (n + 1) (le_refl _)]

/-- A [51200, 64] array as a function of a natural row number, zero past the last row. -/
def ext2 (A : S51200x64.Idx → EReal) (n : ℕ) (q : Fin 64) : EReal := if h : n < 51200 then A (ix2 ⟨n, h⟩ q) else 0
/-- A [800768, 64] array likewise. -/
def extE (A : S800768x64.Idx → EReal) (e : ℕ) (q : Fin 64) : EReal := if h : e < 800768 then A (ix2 ⟨e, h⟩ q) else 0
/-- A column of 800768 words as a function of the edge number, the zero word past the end. -/
def extColW (A : S800768x1.Idx → BitVec 32) (e : ℕ) : BitVec 32 := if h : e < 800768 then A (ix2 ⟨e, h⟩ (0 : Fin 1)) else 0#32
/-- A column of 800768 extended reals likewise. -/
def extColR (A : S800768x1.Idx → EReal) (e : ℕ) : EReal := if h : e < 800768 then A (ix2 ⟨e, h⟩ (0 : Fin 1)) else 0
/-- A row of 800768 words likewise. -/
def extRowW (A : S1x800768.Idx → BitVec 32) (e : ℕ) : BitVec 32 := if h : e < 800768 then A (ix2 (0 : Fin 1) ⟨e, h⟩) else 0#32
/-- A vector of 51200 extended reals likewise. -/
def ext1 (A : S51200.Idx → EReal) (n : ℕ) : EReal := if h : n < 51200 then A (ix1 ⟨n, h⟩) else 0

theorem ext2_of_lt (A : S51200x64.Idx → EReal) (n : ℕ) (h : n < 51200) (q : Fin 64) : ext2 A n q = A (ix2 ⟨n, h⟩ q) := by
  unfold ext2; rw [dif_pos h]
theorem extE_of_lt (A : S800768x64.Idx → EReal) (e : ℕ) (h : e < 800768) (q : Fin 64) : extE A e q = A (ix2 ⟨e, h⟩ q) := by
  unfold extE; rw [dif_pos h]

/-- The linear region's array, as a function of the row number, is the dense product of the input so read. -/
theorem ext2_lin (x linOut : S51200x64.Idx → EReal) (w : S64x64.Idx → EReal)
    (hlin : ∀ (n : Fin 51200) (q : Fin 64), linOut (ix2 n q) = ∑ k : Fin 64, x (ix2 n k) * w (ix2 k q)) :
    ext2 linOut = lin (fun k q => w (ix2 k q)) (ext2 x) := by
  funext n q
  unfold lin
  by_cases h : n < 51200
  · rw [ext2_of_lt _ n h, hlin]
    exact Finset.sum_congr rfl fun k _ => by rw [ext2_of_lt _ n h]
  · unfold ext2
    simp [dif_neg h]

/-- ONE LAYER of the kernel program. -/
theorem kernel_layer (x linOut sOut tail : S51200x64.Idx → EReal) (gOut : S800768x64.Idx → EReal)
    (w : S64x64.Idx → EReal) (bvec : S64.Idx → EReal)
    (srcc : S800768x1.Idx → BitVec 32) (normc : S800768x1.Idx → EReal) (dstr : S1x800768.Idx → BitVec 32) (d2v : S51200.Idx → EReal)
    (hlin : ∀ (n : Fin 51200) (q : Fin 64), linOut (ix2 n q) = ∑ k : Fin 64, x (ix2 n k) * w (ix2 k q))
    (hg : ∀ (e : Fin 800768) (q : Fin 64), gOut (ix2 e q) = msgK (extColW srcc) (extColR normc) (ext2 linOut) e.val q)
    (hs : ∀ (n : Fin 51200) (q : Fin 64), sOut (ix2 n q) = aggK (extRowW dstr) (extE gOut) n.val q)
    (ht : ∀ (n : Fin 51200) (q : Fin 64), tail (ix2 n q) = max ((sOut (ix2 n q) + linOut (ix2 n q) * d2v (ix1 n)) + bvec (ix1 q)) 0)
    (n : Fin 51200) (q : Fin 64) :
    tail (ix2 n q) = layerK (fun k q => w (ix2 k q)) (fun q => bvec (ix1 q)) (extColW srcc) (extRowW dstr) (extColR normc) (ext1 d2v)
      (ext2 x) n.val q := by
  have hL := ext2_lin x linOut w hlin
  unfold layerK
  rw [ht, hs, ← hL, ext2_of_lt linOut n.val n.isLt q]
  have h1 : ext1 d2v n.val = d2v (ix1 n) := by unfold ext1; rw [dif_pos n.isLt]
  rw [h1]
  refine congrArg (fun z => max ((z + linOut (ix2 n q) * d2v (ix1 n)) + bvec (ix1 q)) 0) ?_
  unfold aggK
  refine accBlocks_congr _ _ _ _ (fun b hb => Finset.sum_congr rfl fun k _ => ?_)
  have hlt : b * 2048 + k.val < 800768 := by have := k.isLt; omega
  rw [extE_of_lt gOut _ hlt q, hg]

end Cert.KernelIdeal.Glue

end
-- ==== Proof.ScatLib.lean ====
import Idealize.ShloMosaic.Lib.Pipeline.Value
import Idealize.ShloMosaic.Lib.WholeRead
import Idealize.ShloMosaic.Lib.Writes

/-! # Whole-block loads and stores, read back

A body that loads a whole staging buffer and stores a whole block: the load of a whole memref held at the contents
that read `X` reads `X`; a store through the whole-shape rectangle at zero offsets, read back, is its payload,
whatever was stored before. -/

namespace Cert.Lib.WholeBlock

open Idealize.ShloMosaic

variable {sig : RefSig} {κ : Kind} {sp : Space} {S : Shape} {e : EltTy} {Val : EltTy → Type}

/-- The last store through the whole-shape rectangle at zero offsets leaves its payload. -/
theorem read_writes_cons_unit_zero (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the whole-shape rectangle at zero offsets of a whole memref held at the contents that read `X`
    reads `X`. -/
theorem readAt_unit_zero_unread {m : Memref sig κ sp S e} (hm : m.IsWhole) {off : Fin S.rank → Nat}
    (h : off = fun _ => 0) (inb : ∀ a, off a + S.size a ≤ S.size a) (X : S.Idx → Val e) :
    View.readAt Val m.view (Rect.unit off S.size inb).toLoadRect (hm.unread X) = X := by
  subst h; funext x
  rw [hm.readAt_unread]
  show X ((Rect.whole S).emb x) = X x
  rw [Rect.emb_whole_apply]

/-- The zero offsets of a rank-2 shape, as the printed programs spell them. -/
theorem zero2 : (![0, 0] : Fin 2 → Nat) = fun _ => 0 := by
  funext a; fin_cases a <;> rfl

end Cert.Lib.WholeBlock
-- ==== Proof.Scat2Closed.lean ====
import proofs.«104867_j4217657884863_1_alg».proof.Proof.Scat2Dat
import proofs.«104867_j4217657884863_1_alg».proof.Proof.ScatLib
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2: what each case leaves, in closed form

Every load and store of the body moves a whole block, so what a case leaves in the accumulator (and, at a row's last
step, in the output block) is the step's payload applied to the two input blocks and to what the accumulator held:
the zero block at a row's first step, what the step before left otherwise. At any float instance. -/

open Cert.Lib.WholeBlock

section Closed

/-- A first step leaves the step's payload over the zero block. -/
theorem sout2_A_eq (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x64 .f32) (x1 : Vec F S1x2048 .i32) :
    sout2_A (Ix := Ix) (U := U) (Lvl := Lvl) c i arg2 harg2 arg3 harg3 arg4 harg4 arg5 harg5 hc0 hc1 x0 x1 = k2_pay2 i x1 x0 k2_pay1 := by
  unfold sout2_A kernelRun2_A
  dsimp only
  rw [read_writes_cons_unit_zero _ _ zero2, readAt_unit_zero_unread harg3 zero2, readAt_unit_zero_unread harg2 zero2]
  sl_unfold_run_names
  rw [View.readCov_unit_zero _ zero2]

/-- A middle step leaves the step's payload over what the accumulator held. -/
theorem sout2_B_eq (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x64 .f32) (x1 : Vec F S1x2048 .i32) (xs0 : Vec F S2048x64 .f32) :
    sout2_B (Ix := Ix) (U := U) (Lvl := Lvl) c i arg2 harg2 arg3 harg3 arg4 harg4 arg5 harg5 hc0 hc1 x0 x1 xs0 = k2_pay2 i x1 x0 xs0 := by
  unfold sout2_B kernelRun2_B
  dsimp only
  rw [read_writes_cons_unit_zero _ _ zero2, readAt_unit_zero_unread harg3 zero2, readAt_unit_zero_unread harg2 zero2,
    readAt_unit_zero_unread harg5 zero2]

/-- A last step leaves the same in the accumulator, -/
theorem sout2_C_eq (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) :
    sout2_C (Ix := Ix) (U := U) (Lvl := Lvl) c i arg2 harg2 arg3 harg3 arg4 harg4 arg5 harg5 hc0 hc1 x0 x1 xs0 = k2_pay2 i x1 x0 xs0 := by
  unfold sout2_C kernelRun2_C
  dsimp only
  sl_unfold_run_names
  rw [read_writes_cons_unit_zero _ _ zero2, readAt_unit_zero_unread harg3 zero2, readAt_unit_zero_unread harg2 zero2,
    readAt_unit_zero_unread harg5 zero2]

/-- and stores that very block into the output's buffer. -/
theorem out2_C_eq (c : Dev nD) (i : grid2.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x64 .f32) (x1 : Vec F S1x2048 .i32) (xs0 : Vec F S2048x64 .f32) :
    out2_C (Ix := Ix) (U := U) (Lvl := Lvl) c i arg2 harg2 arg3 harg3 arg4 harg4 arg5 harg5 hc0 hc1 x0 x1 xs0 = k2_pay2 i x1 x0 xs0 := by
  unfold out2_C kernelRun2_C
  dsimp only
  rw [read_writes_cons_unit_zero _ _ zero2]
  sl_unfold_run_names
  rw [View.readCov_unit_zero _ zero2, readAt_unit_zero_unread harg3 zero2, readAt_unit_zero_unread harg2 zero2,
    readAt_unit_zero_unread harg5 zero2]

end Closed

section Acc

variable (V : Dev nD → Valuation τ sig (Elt F))

/-- THE RECURSION in closed form. At a row's first step the accumulator is the step's payload over the zero block, -/
theorem accAt2_first (c : Dev nD) (t : Fin cfg2.N) (h0 : t.val % 391 = 0) :
    accAt2 (Ix := Ix) (U := U) (Lvl := Lvl) V c t.val t.isLt = k2_pay2 (grid2.coords t) (iblk2 V c 1 t) (iblk2 V c 0 t) k2_pay1 := by
  have h1 : ¬t.val % 391 = 390 := by omega
  rw [accAt2_A V c t h0 h1, sout2_A_eq]
/-- at any other step the step's payload over what the step before left, -/
theorem accAt2_step (c : Dev nD) (t : Fin cfg2.N) (h0 : ¬t.val % 391 = 0) :
    accAt2 (Ix := Ix) (U := U) (Lvl := Lvl) V c t.val t.isLt = k2_pay2 (grid2.coords t) (iblk2 V c 1 t) (iblk2 V c 0 t)
      (accAt2 (Ix := Ix) (U := U) (Lvl := Lvl) V c (t.val - 1) (Nat.lt_of_le_of_lt (Nat.sub_le _ _) t.isLt)) := by
  by_cases h1 : t.val % 391 = 390
  · rw [accAt2_C V c t h0 h1, sout2_C_eq]
  · rw [accAt2_B V c t h0 h1, sout2_B_eq]
/-- and at a row's last step the output's buffer is left holding the accumulator. -/
theorem outAt2_last (c : Dev nD) (t : Fin cfg2.N) (h1 : t.val % 391 = 390) :
    outAt2 (Ix := Ix) (U := U) (Lvl := Lvl) V c t = accAt2 (Ix := Ix) (U := U) (Lvl := Lvl) V c t.val t.isLt := by
  have h0 : ¬t.val % 391 = 0 := by omega
  rw [outAt2_C V c t h0 h1, out2_C_eq, accAt2_C V c t h0 h1, sout2_C_eq]

end Acc

end Cert.KernelIdeal.Hand

end
-- ==== Proof.Scat2Blk.lean ====
import proofs.«104867_j4217657884863_1_alg».proof.Proof.Scat2Closed
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2: where a block's element sits in its array

Point `t` of the 25 × 391 grid is node block `t / 391`, edge block `t % 391`. The message window's block there is rows
`(t % 391)·2048 …` of the message array, the target row's block is entries `(t % 391)·2048 …` of the target row, and
the output's block is rows `(t / 391)·2048 …` of the output array. -/

open Idealize.ShloMosaic.ValueIdx

/-- The windows' block indices and the first grid coordinate, in closed form. -/
theorem hix2_0 : ∀ t : Fin cfg2.N, win2_0.index t 0 = t.val % 391 ∧ win2_0.index t 1 = 0 :=
  (by decide +kernel : ∀ t : Fin grid2.N, win2_0.index t 0 = t.val % 391 ∧ win2_0.index t 1 = 0)
theorem hix2_1 : ∀ t : Fin cfg2.N, win2_1.index t 0 = 0 ∧ win2_1.index t 1 = t.val % 391 :=
  (by decide +kernel : ∀ t : Fin grid2.N, win2_1.index t 0 = 0 ∧ win2_1.index t 1 = t.val % 391)
theorem hix2_2 : ∀ t : Fin cfg2.N, win2_2.index t 0 = t.val / 391 ∧ win2_2.index t 1 = 0 :=
  (by decide +kernel : ∀ t : Fin grid2.N, win2_2.index t 0 = t.val / 391 ∧ win2_2.index t 1 = 0)
theorem hco2 : ∀ t : Fin cfg2.N, ((grid2.coords t) 0).val = t.val / 391 :=
  (by decide +kernel : ∀ t : Fin grid2.N, ((grid2.coords t) 0).val = t.val / 391)

section Blocks

variable (V : Dev nD → Valuation τ sig (Elt F))

/-- The message block at point `t`: entry `(e, q)` is row `(t % 391)·2048 + e`, column `q` of the message array. -/
theorem iblk2_0_apply (c : Dev nD) (t : Fin cfg2.N) (e : Fin 2048) (q : Fin 64) (k : S800768x64.Idx)
    (hk0 : (k 0).val = (t.val % 391) * 2048 + e.val) (hk1 : (k 1).val = q.val) :
    (iblk2 V c 0 t : Vec F S2048x64 .f32) (ix2 e q) = (V c main_v42 : S800768x64.Idx → Elt F .f32) k := by
  unfold iblk2
  rw [View.read_apply]
  show V c (Proc.devRef .tc main_v42) _ = V c (Proc.devRef .tc main_v42) _
  congr 1
  funext a
  apply Fin.ext
  match a with
  | ⟨0, _⟩ => show win2_0.index t 0 * 2048 + 1 * e.val = (k 0).val; rw [(hix2_0 t).1, hk0]; omega
  | ⟨1, _⟩ => show win2_0.index t 1 * 64 + 1 * q.val = (k 1).val; rw [(hix2_0 t).2, hk1]; omega

/-- The target row's block at point `t`: entry `e` is entry `(t % 391)·2048 + e` of the target row. -/
theorem iblk2_1_apply (c : Dev nD) (t : Fin cfg2.N) (e : Fin 2048) (k : S1x800768.Idx)
    (hk0 : (k 0).val = 0) (hk1 : (k 1).val = (t.val % 391) * 2048 + e.val) :
    (iblk2 V c 1 t : Vec F S1x2048 .i32) (ix2 (0 : Fin 1) e) = (V c main_v40 : S1x800768.Idx → Elt F .i32) k := by
  unfold iblk2
  rw [View.read_apply]
  show V c (Proc.devRef .tc main_v40) _ = V c (Proc.devRef .tc main_v40) _
  congr 1
  funext a
  apply Fin.ext
  match a with
  | ⟨0, _⟩ => show win2_1.index t 0 * 1 + 1 * 0 = (k 0).val; rw [(hix2_1 t).1, hk0]
  | ⟨1, _⟩ => show win2_1.index t 1 * 2048 + 1 * e.val = (k 1).val; rw [(hix2_1 t).2, hk1]; omega

end Blocks

end Cert.KernelIdeal.Hand

end
-- ==== Proof.Scat2Acc.lean ====
import proofs.«104867_j4217657884863_1_alg».proof.Proof.Scat2Blk
import proofs.«104867_j4217657884863_1_alg».proof.Proof.PayloadIdeal
import proofs.«104867_j4217657884863_1_alg».proof.Proof.LayerMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2, exact instance: the accumulator is the block-by-block aggregate

At the exact instance one step adds, at row `r` and column `q`, the one-hot row of node `(t / 391)·2048 + r` against the
2048 target words of edge block `t % 391`, times column `q` of that block's messages. So after edge block `eb` of node
block `nb` the accumulator holds, from zero, the sum of those terms over the edge blocks `0 … eb`. -/

open Idealize.ShloMosaic.ValueIdx Cert.Lib.OneHot Cert.KernelIdeal.Payload

section Acc

variable (V : Dev nD → Valuation τ sig (Elt Ideal))

/-- The target row and the messages as total functions of the edge number (anything past the arrays' extent: zero). -/
def dstp2 (c : Dev nD) (e' : ℕ) : BitVec 32 :=
  if h : e' < 800768 then (V c main_v40 : S1x800768.Idx → Elt Ideal .i32) (ix2 (0 : Fin 1) ⟨e', h⟩) else 0#32
def msgp2 (c : Dev nD) (e' : ℕ) (q' : Fin 64) : EReal :=
  if h : e' < 800768 then (V c main_v42 : S800768x64.Idx → Elt Ideal .f32) (ix2 ⟨e', h⟩ q') else 0

/-- One edge block's contribution to node `n`, column `q`. -/
def term2 (c : Dev nD) (n : ℕ) (q : Fin 64) (b : ℕ) : EReal :=
  ∑ k : Fin 2048, hot (BitVec.ofNat 32 n) (dstp2 V c (b * 2048 + k.val)) * msgp2 V c (b * 2048 + k.val) q

/-- ONE STEP at point `t`, read at `(r, q)`: what the accumulator held there plus this edge block's contribution. -/
theorem step2_apply (c : Dev nD) (t : Fin cfg2.N) (acc : Vec Ideal S2048x64 .f32) (r : Fin 2048) (q : Fin 64) :
    k2_pay2 (F := Ideal) (grid2.coords t) (iblk2 V c 1 t) (iblk2 V c 0 t) acc (ix2 r q)
      = acc (ix2 r q) + term2 V c ((t.val / 391) * 2048 + r.val) q (t.val % 391) := by
  rw [scatter2_step_apply, hco2 t]
  refine congrArg (acc (ix2 r q) + ·) ?_
  unfold term2
  refine Finset.sum_congr rfl fun k _ => ?_
  have hlt : (t.val % 391) * 2048 + k.val < 800768 := by
    have h1 := Nat.mod_lt t.val (show 0 < 391 by decide); have h2 := k.isLt; omega
  rw [iblk2_1_apply V c t k (ix2 (0 : Fin 1) ⟨_, hlt⟩) rfl rfl, iblk2_0_apply V c t k q (ix2 ⟨_, hlt⟩ q) rfl rfl]
  unfold dstp2 msgp2
  rw [dif_pos hlt, dif_pos hlt]

/-- THE ACCUMULATOR at a point of edge block `eb`, read at `(r, q)`: from zero, the contributions of edge blocks
    `0 … eb` to node `(t / 391)·2048 + r`. By induction on the edge block. -/
theorem acc2_apply (c : Dev nD) (r : Fin 2048) (q : Fin 64) : ∀ (eb : ℕ) (t : Fin cfg2.N), t.val % 391 = eb →
    accAt2 (Ix := Unit) (U := UR sig nD τ) (Lvl := ℕ) V c t.val t.isLt (ix2 r q)
      = accBlocks (0 : EReal) (term2 V c ((t.val / 391) * 2048 + r.val) q) eb
  | 0, t, h => by
    rw [accAt2_first V c t h, step2_apply, scatter2_zero_apply, h]
    rfl
  | eb + 1, t, h => by
    have h0 : ¬t.val % 391 = 0 := by omega
    rw [accAt2_step V c t h0, step2_apply]
    have ih := acc2_apply c r q eb ⟨t.val - 1, Nat.lt_of_le_of_lt (Nat.sub_le _ _) t.isLt⟩ (by show (t.val - 1) % 391 = eb; omega)
    have hd : (t.val - 1) / 391 = t.val / 391 := by omega
    rw [show accAt2 (Ix := Unit) (U := UR sig nD τ) (Lvl := ℕ) V c (t.val - 1) (Nat.lt_of_le_of_lt (Nat.sub_le _ _) t.isLt) (ix2 r q)
        = accBlocks (0 : EReal) (term2 V c ((t.val / 391) * 2048 + r.val) q) eb from by rw [← hd]; exact ih, h]
    rfl

end Acc

end Cert.KernelIdeal.Hand

end
-- ==== Proof.Scat2Out.lean ====
import proofs.«104867_j4217657884863_1_alg».proof.Proof.Scat2Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 2, exact instance: the output array

The output's block of node block `nb` is written back once, at the last edge block, holding the accumulator: rows
`nb·2048 …` of the aggregate. The 25 node blocks tile the 51200 rows, so the array ends holding the aggregate. -/

open Idealize.ShloMosaic.ValueIdx Cert.Lib.OneHot Cert.KernelIdeal.Payload

section Out

variable (V : Dev nD → Valuation τ sig (Elt Ideal))

/-- The aggregate as one function of the output array's index. -/
def G2 (c : Dev nD) : S51200x64.Idx → EReal :=
  fun j => Cert.Layer.aggK (dstp2 V c) (msgp2 V c) (j 0).val (j 1)

/-- The aggregate is the accumulation over all 391 edge blocks. -/
theorem agg2_eq (c : Dev nD) (n : ℕ) (q : Fin 64) :
    Cert.Layer.aggK (dstp2 V c) (msgp2 V c) n q = accBlocks (0 : EReal) (term2 V c n q) 390 := rfl

/-- What a write-back writes is its block of the aggregate. -/
theorem flushed2_eq (c : Dev nD) (t : Fin cfg2.N) (hf : (cfg2.win 2).flush t = true) :
    (datS2 (Ix := Unit) (U := UR sig nD τ) (Lvl := ℕ) V c).flushed 2 t = ((cfg2.win 2).blk t).view.read (Elt Ideal) (G2 V c) := by
  have h1 : t.val % 391 = 390 := (flush2_2 t).mp hf
  show (cfg2.win 2).cut (grid2.coords t) ((datS2 (Ix := Unit) (U := UR sig nD τ) (Lvl := ℕ) V c).after 2 t) = _
  rw [after2_2, outAt2_last V c t h1]
  funext x
  have e0 : ((((cfg2.win 2).blk t).view.emb x) 0).val = (t.val / 391) * 2048 + (x 0).val := by
    show win2_2.index t 0 * 2048 + 1 * (x 0).val = _; rw [(hix2_2 t).1]; omega
  have e1 : (((cfg2.win 2).blk t).view.emb x) 1 = x 1 :=
    Fin.ext (by show win2_2.index t 1 * 64 + 1 * (x 1).val = (x 1).val; rw [(hix2_2 t).2]; omega)
  have hcut : (cfg2.win 2).cut (grid2.coords t) (accAt2 (Ix := Unit) (U := UR sig nD τ) (Lvl := ℕ) V c t.val t.isLt) x
      = accAt2 (Ix := Unit) (U := UR sig nD τ) (Lvl := ℕ) V c t.val t.isLt (ix2 (x 0) (x 1)) := by
    show accAt2 (Ix := Unit) (U := UR sig nD τ) (Lvl := ℕ) V c t.val t.isLt ((cfg2.win 2).xinj (grid2.coords t) x) = _
    congr 1
    funext a
    match a with
    | ⟨0, _⟩ => rfl
    | ⟨1, _⟩ => rfl
  rw [hcut, acc2_apply V c (x 0) (x 1) 390 t h1, View.read_apply]
  show _ = G2 V c _
  unfold G2
  exact (congrArg₂ (fun (n : ℕ) (q' : Fin 64) => accBlocks (0 : EReal) (term2 V c n q') 390) e0.symm e1.symm).trans
    (agg2_eq V c _ _).symm

/-- Every row of the output array lies in the block written back at the last point of its node block. -/
theorem cover2 (c : Dev nD) (i : S51200x64.Idx) :
    ∃ t : Fin cfg2.N, (cfg2.win 2).flush t = true ∧ i ∈ ((cfg2.win 2).blk t).view.set := by
  have hi0 : (i 0).val < 51200 := idx2_lt0 i
  have hi1 : (i 1).val < 64 := idx2_lt1 i
  have hN : cfg2.N = 9775 := N_2
  have ht : ((i 0).val / 2048) * 391 + 390 < cfg2.N := by rw [hN]; omega
  refine ⟨⟨((i 0).val / 2048) * 391 + 390, ht⟩, (flush2_2 _).mpr (by show (((i 0).val / 2048) * 391 + 390) % 391 = 390; omega), ?_⟩
  show i ∈ ((View.whole main_v43).slice (win2_2.rect ⟨((i 0).val / 2048) * 391 + 390, ht⟩)).set
  rw [View.set_slice_whole, Rect.mem_set_unit]
  intro a
  have hd : (((i 0).val / 2048) * 391 + 390) / 391 = (i 0).val / 2048 := by omega
  match a with
  | ⟨0, _⟩ =>
    show win2_2.index ⟨((i 0).val / 2048) * 391 + 390, ht⟩ 0 * 2048 ≤ (i 0 : Nat) ∧ (i 0 : Nat) < win2_2.index ⟨((i 0).val / 2048) * 391 + 390, ht⟩ 0 * 2048 + 2048
    rw [(hix2_2 ⟨_, ht⟩).1, hd]; omega
  | ⟨1, _⟩ =>
    show win2_2.index ⟨((i 0).val / 2048) * 391 + 390, ht⟩ 1 * 64 ≤ (i 1 : Nat) ∧ (i 1 : Nat) < win2_2.index ⟨((i 0).val / 2048) * 391 + 390, ht⟩ 1 * 64 + 64
    rw [(hix2_2 ⟨_, ht⟩).2]; omega

/-- THE OUTPUT ARRAY after the region: the aggregate, entry by entry. -/
theorem scatterOut2_apply (c : Dev nD) (n : Fin 51200) (q : Fin 64) :
    (datS2 (Ix := Unit) (U := UR sig nD τ) (Lvl := ℕ) V c).arrAt 2 cfg2.N (ix2 n q)
      = Cert.Layer.aggK (fun e' => if h : e' < 800768 then (V c main_v40 : S1x800768.Idx → Elt Ideal .i32) (ix2 (0 : Fin 1) ⟨e', h⟩) else 0#32)
          (fun e' q' => if h : e' < 800768 then (V c main_v42 : S800768x64.Idx → Elt Ideal .f32) (ix2 ⟨e', h⟩ q') else 0) n.val q := by
  rw [(datS2 (Ix := Unit) (U := UR sig nD τ) (Lvl := ℕ) V c).arrAt_eq_of_cover 2 (G2 V c) (flushed2_eq V c) (cover2 c)]
  rfl

end Out

end Cert.KernelIdeal.Hand

end
-- ==== Proof.KArrays.lean ====
import proofs.«104867_j4217657884863_1_alg».proof.Proof.Gen.KernelIdeal.Regions
import Idealize.ShloMosaic.Lib.IdealHost

/-!
# The arrays the nine regions read, named

The valuation before the first region holds the padded input, the three weights and biases, the source and weight
columns, the target row and the padded squared inverse root degrees. They are named here at their plain array types, on which the
arithmetic of the later statements is written.
-/

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (c : Dev nD)

abbrev aX : S50000x64.Idx → EReal := V0 m c main_arg0
abbrev aEI : S2x800000.Idx → BitVec 32 := V0 m c main_arg1
abbrev aBT : S50000.Idx → BitVec 32 := V0 m c main_arg2
abbrev aW1 : S64x64.Idx → EReal := V0 m c main_arg3
abbrev ab1 : S64.Idx → EReal := V0 m c main_arg4
abbrev aW2 : S64x64.Idx → EReal := V0 m c main_arg5
abbrev ab2 : S64.Idx → EReal := V0 m c main_arg6
abbrev aW3 : S64x64.Idx → EReal := V0 m c main_arg7
abbrev ab3 : S64.Idx → EReal := V0 m c main_arg8
abbrev aWl : S64x1.Idx → EReal := V0 m c main_arg9
abbrev abl : S1.Idx → EReal := V0 m c main_arg10

abbrev x0 : S51200x64.Idx → EReal := V11 m c main_v33
abbrev srcC : S800768x1.Idx → BitVec 32 := V11 m c main_v38
abbrev normC : S800768x1.Idx → EReal := V11 m c main_v39
abbrev dstR : S1x800768.Idx → BitVec 32 := V11 m c main_v40
abbrev d2V : S51200.Idx → EReal := V11 m c main_v37

end Cert.KernelIdeal.Chain

end
-- ==== Proof.KCarry.lean ====
/- What the buffer contents between the items of the program keep: a region replaces exactly one array and a host
   stretch writes only its own results, so a buffer none of them writes holds, at every item, what it held before the
   first region; and an argument holds there what it held at launch. -/
import proofs.«104867_j4217657884863_1_alg».proof.Proof.FrameAll

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ)
variable (d1 : (c : Dev nD) → Dat τ (Elt F) Unit ℕ (UR sig nD τ) ℕ cfg1 c)
  (d2 : (c : Dev nD) → Dat τ (Elt F) Unit ℕ (UR sig nD τ) ℕ cfg2 c)
  (d4 : (c : Dev nD) → Dat τ (Elt F) Unit ℕ (UR sig nD τ) ℕ cfg4 c)
  (d5 : (c : Dev nD) → Dat τ (Elt F) Unit ℕ (UR sig nD τ) ℕ cfg5 c)
  (d7 : (c : Dev nD) → Dat τ (Elt F) Unit ℕ (UR sig nD τ) ℕ cfg7 c)
  (d8 : (c : Dev nD) → Dat τ (Elt F) Unit ℕ (UR sig nD τ) ℕ cfg8 c)
variable (c : Dev nD) (r : Ref sig .tc)

/-- No host stretch before the first region writes a buffer outside their results: it holds its launch contents. -/
theorem V11_keep (h1 : r ∉ hostOps0_W) (h2 : r ∉ hostOps0_1_W) (h3 : r ∉ hostOps0_2_W) (h4 : r ∉ hostOps0_3_W)
    (h5 : r ∉ hostOps0_4_W) (h6 : r ∉ hostOps0_5_W) (h7 : r ∉ hostOps0_6_W) (h8 : r ∉ hostOps0_7_W)
    (h9 : r ∉ hostOps0_8_W) (h10 : r ∉ hostOps0_9_W) (h11 : r ∉ hostOps0_10_W) : V11 m c r = V0 m c r :=
  (V11_of m c r h11).trans <| (V10_of m c r h10).trans <| (V9_of m c r h9).trans <| (V8_of m c r h8).trans <|
  (V7_of m c r h7).trans <| (V6_of m c r h6).trans <| (V5_of m c r h5).trans <| (V4_of m c r h4).trans <|
  (V3_of m c r h3).trans <| (V2_of m c r h2).trans <| (V1_of m c r h1)

/-! ## Layer 1 -/

theorem W12_keep (h41 : r ≠ main_v41) : W12 m c r = V11 m c r := by
  unfold W12 VoutL0
  exact Function.update_of_ne (StableHlo.devRef_ne_of_ne h41) _ _

theorem W13_keep (h41 : r ≠ main_v41) (h42 : r ≠ main_v42) : W13 m d1 c r = V11 m c r := by
  unfold W13
  rw [Function.update_of_ne (StableHlo.devRef_ne_of_ne h42)]
  exact W12_keep m c r h41

theorem W14_keep (h41 : r ≠ main_v41) (h42 : r ≠ main_v42) (h43 : r ≠ main_v43) : W14 m d1 d2 c r = V11 m c r := by
  unfold W14
  rw [Function.update_of_ne (StableHlo.devRef_ne_of_ne h43)]
  exact W13_keep m d1 c r h41 h42

theorem W16_keep (h41 : r ≠ main_v41) (h42 : r ≠ main_v42) (h43 : r ≠ main_v43) (ha : r ∉ hostOps3_W) (hb : r ∉ hostOps3_1_W) :
    W16 m d1 d2 c r = V11 m c r := by
  unfold W16
  rw [StableHlo.after_of_writes_sub hostOps3_1 _ hostOps3_1_writes hb, StableHlo.after_of_writes_sub hostOps3 _ hostOps3_writes ha]
  exact W14_keep m d1 d2 c r h41 h42 h43

/-! ## Layer 2 -/

theorem W17_keep' (h52 : r ≠ main_v52) : W17 m d1 d2 c r = W16 m d1 d2 c r := by
  unfold W17 VoutL3
  exact Function.update_of_ne (StableHlo.devRef_ne_of_ne h52) _ _

theorem W18_keep' (h52 : r ≠ main_v52) (h53 : r ≠ main_v53) : W18 m d1 d2 d4 c r = W16 m d1 d2 c r := by
  unfold W18
  rw [Function.update_of_ne (StableHlo.devRef_ne_of_ne h53)]
  exact W17_keep' m d1 d2 c r h52

theorem W19_keep' (h52 : r ≠ main_v52) (h53 : r ≠ main_v53) (h54 : r ≠ main_v54) : W19 m d1 d2 d4 d5 c r = W16 m d1 d2 c r := by
  unfold W19
  rw [Function.update_of_ne (StableHlo.devRef_ne_of_ne h54)]
  exact W18_keep' m d1 d2 d4 c r h52 h53

theorem W21_keep' (h52 : r ≠ main_v52) (h53 : r ≠ main_v53) (h54 : r ≠ main_v54) (ha : r ∉ hostOps6_W) (hb : r ∉ hostOps6_1_W) :
    W21 m d1 d2 d4 d5 c r = W16 m d1 d2 c r := by
  unfold W21
  rw [StableHlo.after_of_writes_sub hostOps6_1 _ hostOps6_1_writes hb, StableHlo.after_of_writes_sub hostOps6 _ hostOps6_writes ha]
  exact W19_keep' m d1 d2 d4 d5 c r h52 h53 h54

/-! ## Layer 3 -/

theorem W22_keep' (h63 : r ≠ main_v63) : W22 m d1 d2 d4 d5 c r = W21 m d1 d2 d4 d5 c r := by
  unfold W22 VoutL6
  exact Function.update_of_ne (StableHlo.devRef_ne_of_ne h63) _ _

theorem W23_keep' (h63 : r ≠ main_v63) (h64 : r ≠ main_v64) : W23 m d1 d2 d4 d5 d7 c r = W21 m d1 d2 d4 d5 c r := by
  unfold W23
  rw [Function.update_of_ne (StableHlo.devRef_ne_of_ne h64)]
  exact W22_keep' m d1 d2 d4 d5 c r h63

theorem W24_keep' (h63 : r ≠ main_v63) (h64 : r ≠ main_v64) (h65 : r ≠ main_v65) :
    W24 m d1 d2 d4 d5 d7 d8 c r = W21 m d1 d2 d4 d5 c r := by
  unfold W24
  rw [Function.update_of_ne (StableHlo.devRef_ne_of_ne h65)]
  exact W23_keep' m d1 d2 d4 d5 d7 c r h63 h64

end Cert.KernelIdeal.Chain

end
-- ==== Proof.KLayer.lean ====
/-
  Each layer's tail on the host, read at an index.

  After a layer's three kernel regions the program adds to the aggregated messages the layer's own linear image scaled
  by the squared inverse root degree of the node (the self-loop term), adds the bias, and takes the maximum with zero.
  At node `n` and feature `q` that is  max ((agg n q + h n q * d2 n) + b q) 0 , where `agg` is what the scatter region
  leaves, `h` what the linear region leaves, `d2` the padded squared inverse root degrees and `b` the bias.
-/
import proofs.«104867_j4217657884863_1_alg».proof.Proof.Gen.KernelIdeal.Regions
import Idealize.ShloMosaic.Lib.ValueIdx
import Idealize.ShloMosaic.Lib.ValueLayout
import Idealize.ShloMosaic.Lib.Pipeline.Value
import Idealize.ShloMosaic.Lib.IdealHost

set_option maxRecDepth 1352

noncomputable section

namespace Cert.KernelIdeal.HostK

open Cert.KernelIdeal Cert.KernelIdeal.Gen Idealize.ShloMosaic Idealize.ShloMosaic.ValueIdx
open Idealize.ShloMosaic.TcCoe

variable (m : (ℓ : Loc nD τ sig) → Buf (Elt Ideal) ℓ) (outs : Outs (F := Ideal)) (c : Dev nD)

/-! ## The four broadcasts of a vector along a new axis, read at an index -/

/-- A vector `[a]` laid out as the column `[a, 1]` reads, at `(i, u)`, the vector at `i`. -/
theorem bcast_a_a1_apply {α : Type} {a : ℕ} (dims : Fin 1 → Fin 2) (hd : dims 0 = 0)
    (h : (⟨1, ![a]⟩ : Shape).BroadcastsInDim ⟨2, ![a, 1]⟩ dims) (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u) (dims 0)).val
    rw [hd]
    show i.val = if a = 1 then 0 else i.val
    split
    · have := i.isLt; omega
    · rfl

/-- A column `[a, 1]` spread over `b` columns reads, at `(p, q)`, the column's entry at row `p`. -/
theorem bcast_a1_ab_apply {α : Type} {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α)
    (p : Fin a) (q : Fin b) :
    broadcastInDim ⟨2, ![a, b]⟩ dims h x (ix2 p q) = x (ix2 p (0 : Fin 1)) := by
  refine broadcastInDim_apply dims h x (ix2 p q) (ix2 p (0 : Fin 1)) fun ax => ?_
  match ax with
  | ⟨0, _⟩ =>
    show p.val = if a = 1 then 0 else ((ix2 p q) (dims 0)).val
    rw [hd0]
    show p.val = if a = 1 then 0 else p.val
    split
    · have := p.isLt; omega
    · rfl
  | ⟨1, _⟩ =>
    show (0 : ℕ) = if (1 : ℕ) = 1 then 0 else ((ix2 p q) (dims 1)).val
    rw [if_pos rfl]

/-- A vector `[b]` laid out as the row `[1, b]` reads, at `(u, q)`, the vector at `q`. -/
theorem bcast_b_1b_apply {α : Type} {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (q : Fin b) :
    broadcastInDim ⟨2, ![1, b]⟩ dims h x (ix2 u q) = x (ix1 q) := by
  refine broadcastInDim_apply dims h x (ix2 u q) (ix1 q) fun ax => ?_
  match ax with
  | ⟨0, _⟩ =>
    show q.val = if b = 1 then 0 else ((ix2 u q) (dims 0)).val
    rw [hd]
    show q.val = if b = 1 then 0 else q.val
    split
    · have := q.isLt; omega
    · rfl

/-- A row `[1, b]` spread over `a` rows reads, at `(p, q)`, the row's entry at column `q`. -/
theorem bcast_1b_ab_apply {α : Type} {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α)
    (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ =>
    show (0 : ℕ) = if (1 : ℕ) = 1 then 0 else ((ix2 p q) (dims 0)).val
    rw [if_pos rfl]
  | ⟨1, _⟩ =>
    show q.val = if b = 1 then 0 else ((ix2 p q) (dims 1)).val
    rw [hd1]
    show q.val = if b = 1 then 0 else q.val
    split
    · have := q.isLt; omega
    · rfl

/-! ## The tail as two functions of whole arrays -/

/-- Aggregate plus the self-loop term plus the bias, as the program's operations. -/
def pre (agg h : FVec Ideal S51200x64 .f32) (d2 : FVec Ideal S51200 .f32) (b : FVec Ideal S64 .f32) :
    FVec Ideal S51200x64 .f32 :=
  addf
    (addf agg (mulf h (broadcastInDim S51200x64 ![0, 1] Facts₀.bcast_S51200x1_S51200x64_0_1
      (broadcastInDim S51200x1 ![0] Facts₀.bcast_S51200_S51200x1_0 d2))))
    (broadcastInDim S51200x64 ![0, 1] Facts₀.bcast_S1x64_S51200x64_0_1
      (broadcastInDim S1x64 ![1] Facts₀.bcast_S64_S1x64_1 b))

/-- The maximum with the zero array, as the program's operations. -/
def relu0 (x : FVec Ideal S51200x64 .f32) : FVec Ideal S51200x64 .f32 :=
  maximumf x (broadcastInDim S51200x64 ![] Facts₀.bcast_S_S51200x64 (constant (F := Ideal) S_ .f32 0x00000000#32))

theorem pre_apply (agg h : FVec Ideal S51200x64 .f32) (d2 : FVec Ideal S51200 .f32) (b : FVec Ideal S64 .f32)
    (n : Fin 51200) (q : Fin 64) :
    pre agg h d2 b (ix2 n q) = (agg (ix2 n q) + h (ix2 n q) * d2 (ix1 n)) + b (ix1 q) := by
  have e1 : broadcastInDim S51200x64 ![0, 1] Facts₀.bcast_S51200x1_S51200x64_0_1
      (broadcastInDim S51200x1 ![0] Facts₀.bcast_S51200_S51200x1_0 d2) (ix2 n q) = d2 (ix1 n) :=
    (bcast_a1_ab_apply _ rfl rfl _ _ n q).trans (bcast_a_a1_apply _ rfl _ _ n (0 : Fin 1))
  have e2 : broadcastInDim S51200x64 ![0, 1] Facts₀.bcast_S1x64_S51200x64_0_1
      (broadcastInDim S1x64 ![1] Facts₀.bcast_S64_S1x64_1 b) (ix2 n q) = b (ix1 q) :=
    (bcast_1b_ab_apply _ rfl rfl _ _ n q).trans (bcast_b_1b_apply _ rfl _ _ (0 : Fin 1) q)
  show (agg (ix2 n q) + h (ix2 n q) * _) + _ = _
  rw [e1, e2]

theorem relu0_apply (x : FVec Ideal S51200x64 .f32) (j : S51200x64.Idx) : relu0 x j = max (x j) (0 : EReal) := by
  show max (x j) (broadcastInDim S51200x64 ![] Facts₀.bcast_S_S51200x64 (constant (F := Ideal) S_ .f32 0x00000000#32) j) = _
  rw [broadcastInDim_scalar_apply, constant_apply, Ideal.ofBits_zero_f32]

/-- A layer's tail at node `n` and feature `q`, as a function of the four arrays it reads. -/
def tailAt (agg h : S51200x64.Idx → EReal) (d2 : S51200.Idx → EReal) (b : S64.Idx → EReal) (n : Fin 51200) (q : Fin 64) :
    EReal :=
  max ((agg (ix2 n q) + h (ix2 n q) * d2 (ix1 n)) + b (ix1 q)) 0

theorem tailAt_def (agg h : S51200x64.Idx → EReal) (d2 : S51200.Idx → EReal) (b : S64.Idx → EReal) (n : Fin 51200)
    (q : Fin 64) : tailAt agg h d2 b n q = max ((agg (ix2 n q) + h (ix2 n q) * d2 (ix1 n)) + b (ix1 q)) 0 := rfl

theorem relu0_pre_apply (agg h : FVec Ideal S51200x64 .f32) (d2 : FVec Ideal S51200 .f32) (b : FVec Ideal S64 .f32)
    (n : Fin 51200) (q : Fin 64) : relu0 (pre agg h d2 b) (ix2 n q) = tailAt agg h d2 b n q := by
  rw [relu0_apply, pre_apply, tailAt_def]

/-! ## Layer 1 -/

theorem s3_main_v50 (W : Valuation τ sig (Elt Ideal)) :
    (StableHlo.after hostOps3 W main_v50 : S51200x64.Idx → EReal)
      = pre (W main_v43 : S51200x64.Idx → EReal) (W main_v41 : S51200x64.Idx → EReal)
          (W main_v37 : S51200.Idx → EReal) (W main_arg4 : S64.Idx → EReal) := by
  dsimp only [hostOps3]; after_results; rfl

theorem s3_1_main_v51 (W : Valuation τ sig (Elt Ideal)) :
    (StableHlo.after hostOps3_1 W main_v51 : S51200x64.Idx → EReal)
      = relu0 (W main_v50 : S51200x64.Idx → EReal) := by
  dsimp only [hostOps3_1]; after_results; rfl

/-- Layer 1's tail from ANY contents `W` before it: the two stretches' result at node `n`, feature `q`. -/
theorem tail3_eq (W : Valuation τ sig (Elt Ideal)) :
    (StableHlo.after hostOps3_1 (StableHlo.after hostOps3 W) main_v51 : S51200x64.Idx → EReal)
      = relu0 (pre (W main_v43 : S51200x64.Idx → EReal) (W main_v41 : S51200x64.Idx → EReal)
          (W main_v37 : S51200.Idx → EReal) (W main_arg4 : S64.Idx → EReal)) := by
  rw [s3_1_main_v51 (StableHlo.after hostOps3 W), s3_main_v50 W]

theorem tail3_apply (W : Valuation τ sig (Elt Ideal)) (n : Fin 51200) (q : Fin 64) :
    (StableHlo.after hostOps3_1 (StableHlo.after hostOps3 W) main_v51 : S51200x64.Idx → EReal) (ix2 n q)
      = tailAt (W main_v43) (W main_v41) (W main_v37) (W main_arg4) n q := by
  rw [tail3_eq]; exact relu0_pre_apply _ _ _ _ n q

/-- What the scatter region of layer 1 left is what the tail reads as the aggregate. -/
theorem V14_main_v43 : V14 m outs c main_v43 = outs 14 main_v43 c := by
  dsimp only [V14]; exact Function.update_self _ _ _

/-- What the linear region of layer 1 left is what the tail reads as the layer's linear image. -/
theorem V14_main_v41 : V14 m outs c main_v41 = outs 12 main_v41 c :=
  (V14_of m outs c main_v41 (by decide)).trans <| (V13_of m outs c main_v41 (by decide)).trans <| by
    dsimp only [V12]; exact Function.update_self _ _ _

/-- No item up to layer 1's tail writes the padded squared inverse root degrees. -/
theorem V14_v37 : V14 m outs c main_v37 = V11 m c main_v37 :=
  (V14_of m outs c main_v37 (by decide)).trans <| (V13_of m outs c main_v37 (by decide)).trans <| (V12_of m outs c main_v37 (by decide))

/-- No item writes the bias. -/
theorem V14_main_arg4 : V14 m outs c main_arg4 = V0 m c main_arg4 :=
  (V14_of m outs c main_arg4 (by decide)).trans <| (V13_of m outs c main_arg4 (by decide)).trans <| (V12_of m outs c main_arg4 (by decide)).trans <|
  (V11_of m c main_arg4 (by decide)).trans <| (V10_of m c main_arg4 (by decide)).trans <| (V9_of m c main_arg4 (by decide)).trans <|
  (V8_of m c main_arg4 (by decide)).trans <| (V7_of m c main_arg4 (by decide)).trans <| (V6_of m c main_arg4 (by decide)).trans <|
  (V5_of m c main_arg4 (by decide)).trans <| (V4_of m c main_arg4 (by decide)).trans <| (V3_of m c main_arg4 (by decide)).trans <|
  (V2_of m c main_arg4 (by decide)).trans <| (V1_of m c main_arg4 (by decide))

/-- Layer 1's output as the tail's operations applied to what the regions left, the padded degrees and the bias. -/
theorem V16_main_v51_eq :
    (V16 m outs c main_v51 : S51200x64.Idx → EReal)
      = relu0 (pre (outs 14 main_v43 c : S51200x64.Idx → EReal) (outs 12 main_v41 c : S51200x64.Idx → EReal)
          (V11 m c main_v37 : S51200.Idx → EReal) (V0 m c main_arg4 : S64.Idx → EReal)) := by
  rw [show V16 m outs c main_v51 = _ from s3_1_main_v51 (V15 m outs c),
    show V15 m outs c main_v50 = _ from s3_main_v50 (V14 m outs c),
    V14_main_v43, V14_main_v41, V14_v37, V14_main_arg4]

/-- Layer 1's output at node `n`, feature `q`. -/
theorem V16_main_v51_apply (n : Fin 51200) (q : Fin 64) :
    (V16 m outs c main_v51 : S51200x64.Idx → EReal) (ix2 n q)
      = tailAt (outs 14 main_v43 c) (outs 12 main_v41 c) (V11 m c main_v37) (V0 m c main_arg4) n q := by
  rw [V16_main_v51_eq]; exact relu0_pre_apply _ _ _ _ n q

/-! ## Layer 2 -/

theorem s6_main_v61 (W : Valuation τ sig (Elt Ideal)) :
    (StableHlo.after hostOps6 W main_v61 : S51200x64.Idx → EReal)
      = pre (W main_v54 : S51200x64.Idx → EReal) (W main_v52 : S51200x64.Idx → EReal)
          (W main_v37 : S51200.Idx → EReal) (W main_arg6 : S64.Idx → EReal) := by
  dsimp only [hostOps6]; after_results; rfl

theorem s6_1_main_v62 (W : Valuation τ sig (Elt Ideal)) :
    (StableHlo.after hostOps6_1 W main_v62 : S51200x64.Idx → EReal)
      = relu0 (W main_v61 : S51200x64.Idx → EReal) := by
  dsimp only [hostOps6_1]; after_results; rfl

/-- Layer 2's tail from ANY contents `W` before it: the two stretches' result at node `n`, feature `q`. -/
theorem tail6_eq (W : Valuation τ sig (Elt Ideal)) :
    (StableHlo.after hostOps6_1 (StableHlo.after hostOps6 W) main_v62 : S51200x64.Idx → EReal)
      = relu0 (pre (W main_v54 : S51200x64.Idx → EReal) (W main_v52 : S51200x64.Idx → EReal)
          (W main_v37 : S51200.Idx → EReal) (W main_arg6 : S64.Idx → EReal)) := by
  rw [s6_1_main_v62 (StableHlo.after hostOps6 W), s6_main_v61 W]

theorem tail6_apply (W : Valuation τ sig (Elt Ideal)) (n : Fin 51200) (q : Fin 64) :
    (StableHlo.after hostOps6_1 (StableHlo.after hostOps6 W) main_v62 : S51200x64.Idx → EReal) (ix2 n q)
      = tailAt (W main_v54) (W main_v52) (W main_v37) (W main_arg6) n q := by
  rw [tail6_eq]; exact relu0_pre_apply _ _ _ _ n q

/-- What the scatter region of layer 2 left is what the tail reads as the aggregate. -/
theorem V19_main_v54 : V19 m outs c main_v54 = outs 19 main_v54 c := by
  dsimp only [V19]; exact Function.update_self _ _ _

/-- What the linear region of layer 2 left is what the tail reads as the layer's linear image. -/
theorem V19_main_v52 : V19 m outs c main_v52 = outs 17 main_v52 c :=
  (V19_of m outs c main_v52 (by decide)).trans <| (V18_of m outs c main_v52 (by decide)).trans <| by
    dsimp only [V17]; exact Function.update_self _ _ _

/-- No item up to layer 2's tail writes the padded squared inverse root degrees. -/
theorem V19_v37 : V19 m outs c main_v37 = V11 m c main_v37 :=
  (V19_of m outs c main_v37 (by decide)).trans <| (V18_of m outs c main_v37 (by decide)).trans <| (V17_of m outs c main_v37 (by decide)).trans <|
  (V16_of m outs c main_v37 (by decide)).trans <| (V15_of m outs c main_v37 (by decide)).trans <| (V14_of m outs c main_v37 (by decide)).trans <|
  (V13_of m outs c main_v37 (by decide)).trans <| (V12_of m outs c main_v37 (by decide))

/-- No item writes the bias. -/
theorem V19_main_arg6 : V19 m outs c main_arg6 = V0 m c main_arg6 :=
  (V19_of m outs c main_arg6 (by decide)).trans <| (V18_of m outs c main_arg6 (by decide)).trans <| (V17_of m outs c main_arg6 (by decide)).trans <|
  (V16_of m outs c main_arg6 (by decide)).trans <| (V15_of m outs c main_arg6 (by decide)).trans <| (V14_of m outs c main_arg6 (by decide)).trans <|
  (V13_of m outs c main_arg6 (by decide)).trans <| (V12_of m outs c main_arg6 (by decide)).trans <| (V11_of m c main_arg6 (by decide)).trans <|
  (V10_of m c main_arg6 (by decide)).trans <| (V9_of m c main_arg6 (by decide)).trans <| (V8_of m c main_arg6 (by decide)).trans <|
  (V7_of m c main_arg6 (by decide)).trans <| (V6_of m c main_arg6 (by decide)).trans <| (V5_of m c main_arg6 (by decide)).trans <|
  (V4_of m c main_arg6 (by decide)).trans <| (V3_of m c main_arg6 (by decide)).trans <| (V2_of m c main_arg6 (by decide)).trans <|
  (V1_of m c main_arg6 (by decide))

/-- Layer 2's output as the tail's operations applied to what the regions left, the padded degrees and the bias. -/
theorem V21_main_v62_eq :
    (V21 m outs c main_v62 : S51200x64.Idx → EReal)
      = relu0 (pre (outs 19 main_v54 c : S51200x64.Idx → EReal) (outs 17 main_v52 c : S51200x64.Idx → EReal)
          (V11 m c main_v37 : S51200.Idx → EReal) (V0 m c main_arg6 : S64.Idx → EReal)) := by
  rw [show V21 m outs c main_v62 = _ from s6_1_main_v62 (V20 m outs c),
    show V20 m outs c main_v61 = _ from s6_main_v61 (V19 m outs c),
    V19_main_v54, V19_main_v52, V19_v37, V19_main_arg6]

/-- Layer 2's output at node `n`, feature `q`. -/
theorem V21_main_v62_apply (n : Fin 51200) (q : Fin 64) :
    (V21 m outs c main_v62 : S51200x64.Idx → EReal) (ix2 n q)
      = tailAt (outs 19 main_v54 c) (outs 17 main_v52 c) (V11 m c main_v37) (V0 m c main_arg6) n q := by
  rw [V21_main_v62_eq]; exact relu0_pre_apply _ _ _ _ n q

/-! ## Layer 3 -/

theorem s9_main_v72 (W : Valuation τ sig (Elt Ideal)) :
    (StableHlo.after hostOps9 W main_v72 : S51200x64.Idx → EReal)
      = pre (W main_v65 : S51200x64.Idx → EReal) (W main_v63 : S51200x64.Idx → EReal)
          (W main_v37 : S51200.Idx → EReal) (W main_arg8 : S64.Idx → EReal) := by
  dsimp only [hostOps9]; after_results; rfl

theorem s9_1_main_v73 (W : Valuation τ sig (Elt Ideal)) :
    (StableHlo.after hostOps9_1 W main_v73 : S51200x64.Idx → EReal)
      = relu0 (W main_v72 : S51200x64.Idx → EReal) := by
  dsimp only [hostOps9_1]; after_results; rfl

/-- Layer 3's tail from ANY contents `W` before it: the two stretches' result at node `n`, feature `q`. -/
theorem tail9_eq (W : Valuation τ sig (Elt Ideal)) :
    (StableHlo.after hostOps9_1 (StableHlo.after hostOps9 W) main_v73 : S51200x64.Idx → EReal)
      = relu0 (pre (W main_v65 : S51200x64.Idx → EReal) (W main_v63 : S51200x64.Idx → EReal)
          (W main_v37 : S51200.Idx → EReal) (W main_arg8 : S64.Idx → EReal)) := by
  rw [s9_1_main_v73 (StableHlo.after hostOps9 W), s9_main_v72 W]

theorem tail9_apply (W : Valuation τ sig (Elt Ideal)) (n : Fin 51200) (q : Fin 64) :
    (StableHlo.after hostOps9_1 (StableHlo.after hostOps9 W) main_v73 : S51200x64.Idx → EReal) (ix2 n q)
      = tailAt (W main_v65) (W main_v63) (W main_v37) (W main_arg8) n q := by
  rw [tail9_eq]; exact relu0_pre_apply _ _ _ _ n q

/-- What the scatter region of layer 3 left is what the tail reads as the aggregate. -/
theorem V24_main_v65 : V24 m outs c main_v65 = outs 24 main_v65 c := by
  dsimp only [V24]; exact Function.update_self _ _ _

/-- What the linear region of layer 3 left is what the tail reads as the layer's linear image. -/
theorem V24_main_v63 : V24 m outs c main_v63 = outs 22 main_v63 c :=
  (V24_of m outs c main_v63 (by decide)).trans <| (V23_of m outs c main_v63 (by decide)).trans <| by
    dsimp only [V22]; exact Function.update_self _ _ _

/-- No item up to layer 3's tail writes the padded squared inverse root degrees. -/
theorem V24_v37 : V24 m outs c main_v37 = V11 m c main_v37 :=
  (V24_of m outs c main_v37 (by decide)).trans <| (V23_of m outs c main_v37 (by decide)).trans <| (V22_of m outs c main_v37 (by decide)).trans <|
  (V21_of m outs c main_v37 (by decide)).trans <| (V20_of m outs c main_v37 (by decide)).trans <| (V19_of m outs c main_v37 (by decide)).trans <|
  (V18_of m outs c main_v37 (by decide)).trans <| (V17_of m outs c main_v37 (by decide)).trans <| (V16_of m outs c main_v37 (by decide)).trans <|
  (V15_of m outs c main_v37 (by decide)).trans <| (V14_of m outs c main_v37 (by decide)).trans <| (V13_of m outs c main_v37 (by decide)).trans <|
  (V12_of m outs c main_v37 (by decide))

/-- No item writes the bias. -/
theorem V24_main_arg8 : V24 m outs c main_arg8 = V0 m c main_arg8 :=
  (V24_of m outs c main_arg8 (by decide)).trans <| (V23_of m outs c main_arg8 (by decide)).trans <| (V22_of m outs c main_arg8 (by decide)).trans <|
  (V21_of m outs c main_arg8 (by decide)).trans <| (V20_of m outs c main_arg8 (by decide)).trans <| (V19_of m outs c main_arg8 (by decide)).trans <|
  (V18_of m outs c main_arg8 (by decide)).trans <| (V17_of m outs c main_arg8 (by decide)).trans <| (V16_of m outs c main_arg8 (by decide)).trans <|
  (V15_of m outs c main_arg8 (by decide)).trans <| (V14_of m outs c main_arg8 (by decide)).trans <| (V13_of m outs c main_arg8 (by decide)).trans <|
  (V12_of m outs c main_arg8 (by decide)).trans <| (V11_of m c main_arg8 (by decide)).trans <| (V10_of m c main_arg8 (by decide)).trans <|
  (V9_of m c main_arg8 (by decide)).trans <| (V8_of m c main_arg8 (by decide)).trans <| (V7_of m c main_arg8 (by decide)).trans <|
  (V6_of m c main_arg8 (by decide)).trans <| (V5_of m c main_arg8 (by decide)).trans <| (V4_of m c main_arg8 (by decide)).trans <|
  (V3_of m c main_arg8 (by decide)).trans <| (V2_of m c main_arg8 (by decide)).trans <| (V1_of m c main_arg8 (by decide))

/-- Layer 3's output as the tail's operations applied to what the regions left, the padded degrees and the bias. -/
theorem V26_main_v73_eq :
    (V26 m outs c main_v73 : S51200x64.Idx → EReal)
      = relu0 (pre (outs 24 main_v65 c : S51200x64.Idx → EReal) (outs 22 main_v63 c : S51200x64.Idx → EReal)
          (V11 m c main_v37 : S51200.Idx → EReal) (V0 m c main_arg8 : S64.Idx → EReal)) := by
  rw [show V26 m outs c main_v73 = _ from s9_1_main_v73 (V25 m outs c),
    show V25 m outs c main_v72 = _ from s9_main_v72 (V24 m outs c),
    V24_main_v65, V24_main_v63, V24_v37, V24_main_arg8]

/-- Layer 3's output at node `n`, feature `q`. -/
theorem V26_main_v73_apply (n : Fin 51200) (q : Fin 64) :
    (V26 m outs c main_v73 : S51200x64.Idx → EReal) (ix2 n q)
      = tailAt (outs 24 main_v65 c) (outs 22 main_v63 c) (V11 m c main_v37) (V0 m c main_arg8) n q := by
  rw [V26_main_v73_eq]; exact relu0_pre_apply _ _ _ _ n q

end Cert.KernelIdeal.HostK
-- ==== Proof.KChain1.lean ====
import proofs.«104867_j4217657884863_1_alg».proof.Proof.FrameAll
import proofs.«104867_j4217657884863_1_alg».proof.Proof.LinVal0
import proofs.«104867_j4217657884863_1_alg».proof.Proof.G1Value
import proofs.«104867_j4217657884863_1_alg».proof.Proof.Scat2Region
import proofs.«104867_j4217657884863_1_alg».proof.Proof.KLayerGlue
import proofs.«104867_j4217657884863_1_alg».proof.Proof.Scat2Out
import proofs.«104867_j4217657884863_1_alg».proof.Proof.KArrays
import proofs.«104867_j4217657884863_1_alg».proof.Proof.KCarry
import proofs.«104867_j4217657884863_1_alg».proof.Proof.KLayer

/-!
# Layer 1 of the kernel program as the layer function

The three regions of the first layer leave, in turn, the dense product of the padded input, the weighted one-hot
gather of its rows, and the one-hot sum of those messages by target; the host tail adds the self term and the bias and
applies the rectifier. Read at an index and chained through the valuations between the items of @main (each region
replaces exactly one array, every other buffer is as before), the tail's array is the layer function on the padded
arrays.
-/

set_option maxRecDepth 4096

noncomputable section

namespace Cert.KernelIdeal.Chain

open Idealize.ShloMosaic Idealize.ShloMosaic.TcCoe Idealize.ShloMosaic.ValueIdx Idealize.SL.Sem
open Cert.KernelIdeal Cert.KernelIdeal.Gen Cert.KernelIdeal.Hand Cert.KernelIdeal.Glue Cert.Layer

variable (m : (ℓ : Loc nD τ sig) → Buf (Elt Ideal) ℓ) (c : Dev nD)

/-- The gather region's proof data of layer 1, entered from the valuation the linear region leaves. -/
abbrev D1 := datG1 (F := Ideal) (Ix := Unit) (U := UR sig nD τ) (Lvl := ℕ) (W12 m)
/-- The scatter region's proof data of layer 1, entered from the valuation the gather region leaves. -/
abbrev D2 := datS2 (F := Ideal) (Ix := Unit) (U := UR sig nD τ) (Lvl := ℕ) (W13 m (D1 m))

abbrev w1 : S64x64.Idx → EReal := V11 m c main_arg3
abbrev bv1 : S64.Idx → EReal := V11 m c main_arg4
abbrev linOut1 : S51200x64.Idx → EReal := (datL0 (F := Ideal) (Ix := Unit) (U := UR sig nD τ) (Lvl := ℕ) (V11 m) c).arrAt 2 cfg0.N
abbrev gOut1 : S800768x64.Idx → EReal := (D1 m c).arrAt 3 cfg1.N
abbrev sOut1 : S51200x64.Idx → EReal := (D2 m c).arrAt 2 cfg2.N
abbrev tail1 : S51200x64.Idx → EReal := W16 m (D1 m) (D2 m) c main_v51

/-- What the gather region reads: the product array the linear region left, and the source and weight columns. -/
theorem carry12_v41 : (W12 m c main_v41 : S51200x64.Idx → EReal) = linOut1 m c := by
  unfold W12 VoutL0
  exact Function.update_self _ _ _
theorem carry12_v38 : (W12 m c main_v38 : S800768x1.Idx → BitVec 32) = srcC m c := by
  unfold W12 VoutL0
  exact Function.update_of_ne (by decide) _ _
theorem carry12_v39 : (W12 m c main_v39 : S800768x1.Idx → EReal) = normC m c := by
  unfold W12 VoutL0
  exact Function.update_of_ne (by decide) _ _

/-- What the scatter region reads: the message array the gather region left, and the target row. -/
theorem carry13_v42 : (W13 m (D1 m) c main_v42 : S800768x64.Idx → EReal) = gOut1 m c := by
  unfold W13
  exact Function.update_self _ _ _
theorem carry13_v40 : (W13 m (D1 m) c main_v40 : S1x800768.Idx → BitVec 32) = dstR m c := by
  unfold W13 W12 VoutL0
  rw [Function.update_of_ne (by decide), Function.update_of_ne (by decide)]

/-- The gather region's array in the glue's terms. -/
theorem gOut1_apply (e : Fin 800768) (q : Fin 64) :
    gOut1 m c (ix2 e q) = msgK (extColW (srcC m c)) (extColR (normC m c)) (ext2 (linOut1 m c)) e.val q := by
  have h := gatherOut1_apply (Ix := Unit) (U := UR sig nD τ) (Lvl := ℕ) (W12 m) c e q
  have e1 : srcW1 (W12 m) c = extColW (srcC m c) := by
    funext e'; unfold srcW1 extColW; rw [carry12_v38]
  have e2 : nrmW1 (W12 m) c = extColR (normC m c) := by
    funext e'; unfold nrmW1 extColR; rw [carry12_v39]
  have e3 : tblH1 (W12 m) c = ext2 (linOut1 m c) := by
    funext n' q'; unfold tblH1 ext2; rw [carry12_v41]
  rw [e1, e2, e3] at h
  exact h

/-- The weight and the bias the first layer reads are the arguments as launched: no host stretch writes one. -/
theorem w1_eq : w1 m c = aW1 m c := V11_keep m c main_arg3 (by decide) (by decide) (by decide) (by decide) (by decide) (by decide) (by decide) (by decide) (by decide) (by decide) (by decide)
theorem bv1_eq : bv1 m c = ab1 m c := V11_keep m c main_arg4 (by decide) (by decide) (by decide) (by decide) (by decide) (by decide) (by decide) (by decide) (by decide) (by decide) (by decide)

/-- What the host tail reads: the aggregate the scatter region left, the product the linear region left, the padded
    degrees and the bias. -/
theorem carry14_v43 : (W14 m (D1 m) (D2 m) c main_v43 : S51200x64.Idx → EReal) = sOut1 m c := by
  unfold W14
  exact Function.update_self _ _ _
theorem carry14_v41 : (W14 m (D1 m) (D2 m) c main_v41 : S51200x64.Idx → EReal) = linOut1 m c := by
  unfold W14 W13
  rw [Function.update_of_ne (by decide), Function.update_of_ne (by decide)]
  exact carry12_v41 m c
theorem carry14_v37 : (W14 m (D1 m) (D2 m) c main_v37 : S51200.Idx → EReal) = d2V m c :=
  W14_keep m (D1 m) (D2 m) c main_v37 (by decide) (by decide) (by decide)
theorem carry14_arg4 : (W14 m (D1 m) (D2 m) c main_arg4 : S64.Idx → EReal) = ab1 m c :=
  (W14_keep m (D1 m) (D2 m) c main_arg4 (by decide) (by decide) (by decide)).trans (bv1_eq m c)

/-- The tail's array at node `n`, feature `q`: the aggregate plus the self term plus the bias, rectified. -/
theorem tail1_apply (n : Fin 51200) (q : Fin 64) :
    tail1 m c (ix2 n q) = max ((sOut1 m c (ix2 n q) + linOut1 m c (ix2 n q) * d2V m c (ix1 n)) + ab1 m c (ix1 q)) 0 := by
  show (StableHlo.after hostOps3_1 (StableHlo.after hostOps3 (W14 m (D1 m) (D2 m) c)) main_v51 : S51200x64.Idx → EReal) (ix2 n q) = _
  rw [Cert.KernelIdeal.HostK.tail3_apply, Cert.KernelIdeal.HostK.tailAt_def, carry14_v43, carry14_v41, carry14_v37, carry14_arg4]

/-- The product array in the glue's terms: rows of the padded input times the weight as launched. -/
theorem linOut1_apply (n : Fin 51200) (q : Fin 64) :
    linOut1 m c (ix2 n q) = ∑ k : Fin 64, x0 m c (ix2 n k) * aW1 m c (ix2 k q) := by
  have h := linOut0_apply (Ix := Unit) (U := UR sig nD τ) (Lvl := ℕ) (V11 m) c n q
  rw [show arrW0 (V11 m) c = aW1 m c from w1_eq m c] at h
  exact h

/-- LAYER 1 of the kernel program is the layer function on the padded arrays, given that the scatter region's array is
    the one-hot sum of the messages by target. -/
theorem klayer1_of
    (hs : ∀ (n : Fin 51200) (q : Fin 64), sOut1 m c (ix2 n q) = aggK (extRowW (dstR m c)) (extE (gOut1 m c)) n.val q)
    (n : Fin 51200) (q : Fin 64) :
    tail1 m c (ix2 n q) = layerK (fun k q => aW1 m c (ix2 k q)) (fun q => ab1 m c (ix1 q)) (extColW (srcC m c)) (extRowW (dstR m c))
      (extColR (normC m c)) (ext1 (d2V m c)) (ext2 (x0 m c)) n.val q :=
  kernel_layer (x0 m c) (linOut1 m c) (sOut1 m c) (tail1 m c) (gOut1 m c) (aW1 m c) (ab1 m c) (srcC m c) (normC m c) (dstR m c) (d2V m c)
    (linOut1_apply m c) (gOut1_apply m c) hs (tail1_apply m c) n q

/-- The scatter region's array in the glue's terms: the one-hot sum of the messages by target. -/
theorem sOut1_apply (n : Fin 51200) (q : Fin 64) :
    sOut1 m c (ix2 n q) = aggK (extRowW (dstR m c)) (extE (gOut1 m c)) n.val q := by
  have h := scatterOut2_apply (W13 m (D1 m)) c n q
  rw [carry13_v40, carry13_v42] at h
  exact h

/-- LAYER 1 of the kernel program is the layer function on the padded arrays. -/
theorem klayer1 (n : Fin 51200) (q : Fin 64) :
    tail1 m c (ix2 n q) = layerK (fun k q => aW1 m c (ix2 k q)) (fun q => ab1 m c (ix1 q)) (extColW (srcC m c)) (extRowW (dstR m c))
      (extColR (normC m c)) (ext1 (d2V m c)) (ext2 (x0 m c)) n.val q :=
  klayer1_of m c (sOut1_apply m c) n q

end Cert.KernelIdeal.Chain

end
-- ==== Proof.LinVal3.lean ====
/- The linear kernel of pipeline 3 on the extended reals: what each grid point writes back is its row block of one
   whole-array function of the two input arrays, the row blocks cover the output array, so the array the region leaves is
   that function — at (n, q) the sum over k of x(n, k) · W(k, q). -/
import proofs.«104867_j4217657884863_1_alg».proof.Proof.Lin3
import proofs.«104867_j4217657884863_1_alg».proof.Proof.PayloadIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {Ix : Type} [DecidableEq Ix] {U : Type} [URA U] {Lvl : Type} [Preorder Lvl]

variable (V : Dev nD → Valuation τ sig (Elt Ideal))

/-! # Pipeline 3 on the extended reals: the output array is the rows of the activation times the weight -/

theorem hzL3 : (![0, 0] : Fin 2 → Nat) = fun _ => 0 := funext fun a => by fin_cases a <;> rfl

/-- The two input arrays as the region finds them, as plain functions of the index. -/
abbrev arrX3 (c : Dev nD) : S51200x64.Idx → Elt Ideal .f32 := V c main_v51
abbrev arrW3 (c : Dev nD) : S64x64.Idx → Elt Ideal .f32 := V c main_arg5

/-- The output array as ONE function of the two input arrays as the region finds them: at (n, q) the sum over k of
    x(n, k) · W(k, q). -/
def GL3 (c : Dev nD) : S51200x64.Idx → Elt Ideal .f32 := fun i =>
  ∑ k : Fin 64, arrX3 V c (ix2 (i 0 : Fin 51200) k) * arrW3 V c (ix2 k (i 1 : Fin 64))

/-- The printed index maps, decided over the grid: the activation window moves with the output window down the rows,
    neither moves along the columns, the weight window does not move, and point `t` writes row block `t`. -/
theorem idx_factsL3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

/-- WHAT POINT `t` WRITES BACK is block `t` of `GL3`. -/
theorem flushedL3_eq (c : Dev nD) (t : Fin cfg3.N) :
    (datL3 (F := Ideal) (Ix := Ix) (U := U) (Lvl := Lvl) V c).flushed 2 t = ((cfg3.win 2).blk t).view.read (Elt Ideal) (GL3 V c) := by
  show (cfg3.win 2).cut (grid3.coords t) ((datL3 (F := Ideal) (Ix := Ix) (U := U) (Lvl := Lvl) V c).after 2 t) = _
  rw [afterL3_2]
  unfold outL3
  rw [View.canon_unit_zero hzL3]
  simp only [View.ld_unit_zero (S := S2048x64) hzL3, View.ld_unit_zero (S := S64x64) hzL3]
  obtain ⟨e0, e1, e2, e3, e4, e5⟩ := idx_factsL3 t
  funext j
  obtain ⟨r, q, rfl⟩ : ∃ (r : Fin 2048) (q : Fin 64), j = ix2 r q := ⟨j 0, j 1, eq_ix2 j⟩
  show k3_pay1 (F := Ideal) (iblkL3 V c 0 t) (iblkL3 V c 1 t) (ix2 r q) = GL3 V c (((cfg3.win 2).blk t).view.emb (ix2 r q))
  rw [Cert.KernelIdeal.Payload.linear3_apply]
  unfold GL3
  refine Finset.sum_congr rfl fun k _ => ?_
  show arrX3 V c (((cfg3.win 0).blk t).view.emb (ix2 r k)) * arrW3 V c (((cfg3.win 1).blk t).view.emb (ix2 k q)) = _
  have h0 : ((cfg3.win 0).blk t).view.emb (ix2 r k)
      = ix2 ((((cfg3.win 2).blk t).view.emb (ix2 r q)) 0 : Fin 51200) k := by
    funext a; apply Fin.ext
    match a with
    | ⟨0, _⟩ => show win3_0.index t (0 : Fin 2) * 2048 + 1 * r.val = win3_2.index t (0 : Fin 2) * 2048 + 1 * r.val; omega
    | ⟨1, _⟩ => show win3_0.index t (1 : Fin 2) * 64 + 1 * k.val = k.val; omega
  have h1 : ((cfg3.win 1).blk t).view.emb (ix2 k q)
      = ix2 k ((((cfg3.win 2).blk t).view.emb (ix2 r q)) 1 : Fin 64) := by
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  rw [h0, h1]
  rfl

/-- An index of the array is in point `t`'s block iff each coordinate is in the block's range on its axis. -/
theorem mem_blkL3 (t : Fin cfg3.N) (i : S51200x64.Idx) :
    i ∈ ((cfg3.win 2).blk t).view.set ↔ ∀ a : Fin 2, win3_2.index t a * S2048x64.size a ≤ (i a).val ∧ (i a).val < win3_2.index t a * S2048x64.size a + S2048x64.size a := by
  show i ∈ ((View.whole main_v52).slice (win3_2.rect t)).set ↔ _
  rw [View.set_slice_whole, Rect.mem_set_unit]
  exact Iff.rfl

/-- Every index of the output array is in some point's block: row `n` is in row block `n / 2048`. -/
theorem coverL3_arr (i : S51200x64.Idx) :
    ∃ t : Fin cfg3.N, (cfg3.win 2).flush t = true ∧ i ∈ ((cfg3.win 2).blk t).view.set := by
  have hi0 : (i 0).val < 51200 := (i 0).isLt
  have hi1 : (i 1).val < 64 := (i 1).isLt
  have hN : cfg3.N = 25 := N_3
  let t : Fin cfg3.N := ⟨(i 0).val / 2048, by rw [hN]; omega⟩
  obtain ⟨e0, e1, e2, e3, e4, e5⟩ := idx_factsL3 t
  have e5' : win3_2.index t (0 : Fin 2) = (i 0).val / 2048 := e5
  refine ⟨t, flush3_2 t, ?_⟩
  rw [mem_blkL3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 64 ≤ (i 1).val ∧ (i 1).val < win3_2.index t (1 : Fin 2) * 64 + 64; omega

/-- THE OUTPUT ARRAY after the region, whole: `GL3` of the input arrays. -/
theorem linOut3_eq (c : Dev nD) : (datL3 (F := Ideal) (Ix := Ix) (U := U) (Lvl := Lvl) V c).arrAt 2 cfg3.N = GL3 V c :=
  (datL3 (F := Ideal) (Ix := Ix) (U := U) (Lvl := Lvl) V c).arrAt_eq_of_cover 2 (GL3 V c) (fun t _ => flushedL3_eq V c t) (coverL3_arr)

/-- and index by index: at (n, q) the sum over k of x(n, k) · W(k, q). -/
theorem linOut3_apply (c : Dev nD) (n : Fin 51200) (q : Fin 64) :
    ((datL3 (F := Ideal) (Ix := Ix) (U := U) (Lvl := Lvl) V c).arrAt 2 cfg3.N : S51200x64.Idx → Elt Ideal .f32) (ix2 n q) = ∑ k : Fin 64, arrX3 V c (ix2 n k) * arrW3 V c (ix2 k q) := by
  rw [linOut3_eq]; rfl

end Cert.KernelIdeal.Hand

end
-- ==== Proof.G4Value.lean ====
/-
  The gather kernel of layer 2 (pipeline 4): what its output array holds after the region, read over the
  extended reals.

  Row e of the output is the norm of edge e times the sum, over the 25 blocks of 2048 node rows, of the
  one-hot row of edge e's source word against the block's node numbers times the block of h: the accumulator
  after the last step of a row of the grid, scaled. Every row of the output lies in exactly the block the last
  step of its row of the grid writes back, so the write-backs cover the array.
-/
import proofs.«104867_j4217657884863_1_alg».proof.Proof.G4Region
import proofs.«104867_j4217657884863_1_alg».proof.Proof.PayloadIdeal
import proofs.«104867_j4217657884863_1_alg».proof.Proof.LayerMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {Ix : Type} [DecidableEq Ix] {U : Type} [URA U] {Lvl : Type} [Preorder Lvl]

local notation "𝕄" => MT nD τ sig Ix (Elt Ideal) ℕ U Lvl

open Idealize.ShloMosaic.ValueIdx
open Cert.Lib.OneHot Cert.KernelIdeal.Payload

/-! ## The grid coordinates and the windows' block indices at a point -/

theorem coords4_0 (t : Fin cfg4.N) : ((grid4.coords t) 0).val = t.val / 25 := by
  show t.val / grid4.stride 0 % 391 = t.val / 25
  rw [show grid4.stride 0 = 25 from by decide]
  have : t.val < 9775 := lt_of_lt_of_eq t.isLt N_4
  omega

theorem word_val_4 (n : Nat) (h : n < 2 ^ 32) : (BitVec.ofNat 32 n).toNat = n := by
  rw [BitVec.toNat_ofNat]; exact Nat.mod_eq_of_lt h

/-- The h window moves along the second grid axis; -/
theorem idx4_0 (t : Fin cfg4.N) : win4_0.index t (0 : Fin 2) = t.val % 25 ∧ win4_0.index t (1 : Fin 2) = 0 := by
  constructor
  · show (BitVec.ofNat 32 ((grid4.coords t) 1).val).toNat = _
    rw [coords4_1]; exact word_val_4 _ (by omega)
  · rfl
/-- the source, norm and output windows along the first. -/
theorem idx4_1 (t : Fin cfg4.N) : win4_1.index t (0 : Fin 2) = t.val / 25 ∧ win4_1.index t (1 : Fin 2) = 0 := by
  have : t.val < 9775 := lt_of_lt_of_eq t.isLt N_4
  constructor
  · show (BitVec.ofNat 32 ((grid4.coords t) 0).val).toNat = _
    rw [coords4_0]; exact word_val_4 _ (by omega)
  · rfl
theorem idx4_2 (t : Fin cfg4.N) : win4_2.index t (0 : Fin 2) = t.val / 25 ∧ win4_2.index t (1 : Fin 2) = 0 := by
  have : t.val < 9775 := lt_of_lt_of_eq t.isLt N_4
  constructor
  · show (BitVec.ofNat 32 ((grid4.coords t) 0).val).toNat = _
    rw [coords4_0]; exact word_val_4 _ (by omega)
  · rfl
theorem idx4_3 (t : Fin cfg4.N) : win4_3.index t (0 : Fin 2) = t.val / 25 ∧ win4_3.index t (1 : Fin 2) = 0 := by
  have : t.val < 9775 := lt_of_lt_of_eq t.isLt N_4
  constructor
  · show (BitVec.ofNat 32 ((grid4.coords t) 0).val).toNat = _
    rw [coords4_0]; exact word_val_4 _ (by omega)
  · rfl

section Value

variable (V : Dev nD → Valuation τ sig (Elt Ideal))

local notation "dG" => datG4 (F := Ideal) (Ix := Ix) (U := U) (Lvl := Lvl) V

/-! ## The three input arrays, by row number -/

/-- h by node row and column (zero past the array). -/
def tblH4 (c : Dev nD) : ℕ → Fin 64 → EReal :=
  fun n' q' => if h : n' < 51200 then (V c main_v52 : S51200x64.Idx → EReal) (ix2 ⟨n', h⟩ q') else 0
/-- The source word of edge row e. -/
def srcW4 (c : Dev nD) : ℕ → BitVec 32 :=
  fun e' => if h : e' < 800768 then (V c main_v38 : S800768x1.Idx → BitVec 32) (ix2 ⟨e', h⟩ (0 : Fin 1)) else 0#32
/-- The norm of edge row e. -/
def nrmW4 (c : Dev nD) : ℕ → EReal :=
  fun e' => if h : e' < 800768 then (V c main_v39 : S800768x1.Idx → EReal) (ix2 ⟨e', h⟩ (0 : Fin 1)) else 0

/-- What block b of the node rows adds to edge row e's accumulator at column q. -/
def term4 (c : Dev nD) (e : ℕ) (q : Fin 64) : ℕ → EReal :=
  fun b => ∑ k : Fin 2048, hot (srcW4 V c e) (BitVec.ofNat 32 (b * 2048 + k.val)) * tblH4 V c (b * 2048 + k.val) q

/-- THE OUTPUT ARRAY: row e, column q is the accumulator after the 25 blocks' contributions, times the edge's norm. -/
def gathered4 (c : Dev nD) : S800768x64.Idx → EReal :=
  fun i => accBlocks (0 : EReal) (term4 V c (i 0).val (i 1)) 24 * nrmW4 V c (i 0).val

/-! ## The blocks the body reads, off the arrays -/

theorem blk4_0 (c : Dev nD) (t : Fin cfg4.N) (k : Fin 2048) (q : Fin 64) :
    iblk4 V c 0 t (ix2 k q) = tblH4 V c (t.val % 25 * 2048 + k.val) q := by
  have hlt : t.val % 25 * 2048 + k.val < 51200 := by have := k.isLt; omega
  unfold tblH4; dsimp only; rw [dif_pos hlt]
  show (V c main_v52 : S51200x64.Idx → EReal) (((cfg4.win 0).blk t).view.emb (ix2 k q)) = _
  refine congrArg (V c main_v52 : S51200x64.Idx → EReal) ?_
  obtain ⟨e0, e1⟩ := idx4_0 t
  funext a; apply Fin.ext
  match a with
  | ⟨0, _⟩ => show win4_0.index t (0 : Fin 2) * 2048 + 1 * k.val = t.val % 25 * 2048 + k.val; omega
  | ⟨1, _⟩ => show win4_0.index t (1 : Fin 2) * 64 + 1 * q.val = q.val; omega

theorem blk4_1 (c : Dev nD) (t : Fin cfg4.N) (r : Fin 2048) :
    iblk4 V c 1 t (ix2 r (0 : Fin 1)) = srcW4 V c (t.val / 25 * 2048 + r.val) := by
  have : t.val < 9775 := lt_of_lt_of_eq t.isLt N_4
  have hlt : t.val / 25 * 2048 + r.val < 800768 := by have := r.isLt; omega
  unfold srcW4; dsimp only; rw [dif_pos hlt]
  show (V c main_v38 : S800768x1.Idx → BitVec 32) (((cfg4.win 1).blk t).view.emb (ix2 r (0 : Fin 1))) = _
  refine congrArg (V c main_v38 : S800768x1.Idx → BitVec 32) ?_
  obtain ⟨e0, e1⟩ := idx4_1 t
  funext a; apply Fin.ext
  match a with
  | ⟨0, _⟩ => show win4_1.index t (0 : Fin 2) * 2048 + 1 * r.val = t.val / 25 * 2048 + r.val; omega
  | ⟨1, _⟩ => show win4_1.index t (1 : Fin 2) * 1 + 1 * 0 = 0; omega

theorem blk4_2 (c : Dev nD) (t : Fin cfg4.N) (r : Fin 2048) :
    iblk4 V c 2 t (ix2 r (0 : Fin 1)) = nrmW4 V c (t.val / 25 * 2048 + r.val) := by
  have : t.val < 9775 := lt_of_lt_of_eq t.isLt N_4
  have hlt : t.val / 25 * 2048 + r.val < 800768 := by have := r.isLt; omega
  unfold nrmW4; dsimp only; rw [dif_pos hlt]
  show (V c main_v39 : S800768x1.Idx → EReal) (((cfg4.win 2).blk t).view.emb (ix2 r (0 : Fin 1))) = _
  refine congrArg (V c main_v39 : S800768x1.Idx → EReal) ?_
  obtain ⟨e0, e1⟩ := idx4_2 t
  funext a; apply Fin.ext
  match a with
  | ⟨0, _⟩ => show win4_2.index t (0 : Fin 2) * 2048 + 1 * r.val = t.val / 25 * 2048 + r.val; omega
  | ⟨1, _⟩ => show win4_2.index t (1 : Fin 2) * 1 + 1 * 0 = 0; omega

/-! ## The accumulator in closed form -/

/-- The accumulator after point t, at (r, q): zero plus the contributions of the blocks 0 … t % 25 to edge row
    (t / 25) * 2048 + r. -/
theorem acc4_eq (c : Dev nD) : ∀ (n : ℕ) (t : Fin cfg4.N), t.val = n → ∀ (r : Fin 2048) (q : Fin 64),
    acc4 V c t.val t.isLt (ix2 r q)
      = accBlocks (0 : EReal) (term4 V c (t.val / 25 * 2048 + r.val) q) (t.val % 25) := by
  intro n
  induction n with
  | zero =>
    intro t ht r q
    have h0 : t.val % 25 = 0 := by rw [ht]
    rw [acc4_first V c t h0, gather4_step_apply, gather4_zero_apply, h0]
    show _ = (0 : EReal) + term4 V c (t.val / 25 * 2048 + r.val) q 0
    refine congrArg ((0 : EReal) + ·) ?_
    unfold term4
    refine Finset.sum_congr rfl fun k _ => ?_
    rw [blk4_1, blk4_0, coords4_1, h0]
  | succ n ih =>
    intro t ht r q
    by_cases h0 : t.val % 25 = 0
    · rw [acc4_first V c t h0, gather4_step_apply, gather4_zero_apply, h0]
      show _ = (0 : EReal) + term4 V c (t.val / 25 * 2048 + r.val) q 0
      refine congrArg ((0 : EReal) + ·) ?_
      unfold term4
      refine Finset.sum_congr rfl fun k _ => ?_
      rw [blk4_1, blk4_0, coords4_1, h0]
    · have hlt : t.val - 1 < cfg4.N := Nat.lt_of_le_of_lt (Nat.sub_le _ _) t.isLt
      have hprev := ih ⟨t.val - 1, hlt⟩ (by show t.val - 1 = n; omega) r q
      have hd : (t.val - 1) / 25 = t.val / 25 := by omega
      have hm : t.val % 25 = (t.val - 1) % 25 + 1 := by omega
      rw [acc4_next V c t h0, gather4_step_apply]
      rw [show acc4 V c (t.val - 1) hlt (ix2 r q) = _ from hprev]
      show _ = accBlocks (0 : EReal) (term4 V c (t.val / 25 * 2048 + r.val) q) (t.val % 25)
      rw [hm]
      show _ = accBlocks (0 : EReal) (term4 V c (t.val / 25 * 2048 + r.val) q) ((t.val - 1) % 25)
          + term4 V c (t.val / 25 * 2048 + r.val) q ((t.val - 1) % 25 + 1)
      show accBlocks (0 : EReal) (term4 V c ((t.val - 1) / 25 * 2048 + r.val) q) ((t.val - 1) % 25) + _ = _
      rw [hd]
      refine congrArg (accBlocks (0 : EReal) (term4 V c (t.val / 25 * 2048 + r.val) q) ((t.val - 1) % 25) + ·) ?_
      unfold term4
      refine Finset.sum_congr rfl fun k _ => ?_
      rw [blk4_1, blk4_0, coords4_1, hm]

/-! ## What a last step writes back, and the cover -/

theorem flushed4_eq (c : Dev nD) (t : Fin cfg4.N) (hf : (cfg4.win 3).flush t = true) :
    (dG c).flushed 3 t = ((cfg4.win 3).blk t).view.read (Elt Ideal) (gathered4 V c) := by
  have h24 : t.val % 25 = 24 := (flush4_3 t).mp hf
  have hN : t.val < 9775 := lt_of_lt_of_eq t.isLt N_4
  show (cfg4.win 3).cut (grid4.coords t) ((dG c).after 3 t) = _
  rw [after4_3]
  funext j
  obtain ⟨r, q, rfl⟩ : ∃ (r : Fin 2048) (q : Fin 64), j = ix2 r q := ⟨j 0, j 1, ValueIdx.eq_ix2 (n0 := 2048) (n1 := 64) j⟩
  show k4_pay3 (F := Ideal) (acc4 V c t.val t.isLt) (iblk4 V c 2 t) (ix2 r q)
      = gathered4 V c (((cfg4.win 3).blk t).view.emb (ix2 r q))
  rw [gather4_final_apply, acc4_eq V c t.val t rfl r q, blk4_2, h24]
  obtain ⟨e0, e1⟩ := idx4_3 t
  have hr : ((((cfg4.win 3).blk t).view.emb (ix2 r q)) 0).val = t.val / 25 * 2048 + r.val := by
    show win4_3.index t (0 : Fin 2) * 2048 + 1 * r.val = _; omega
  have hq : (((cfg4.win 3).blk t).view.emb (ix2 r q)) 1 = q := by
    apply Fin.ext
    show win4_3.index t (1 : Fin 2) * 64 + 1 * q.val = q.val; omega
  unfold gathered4
  rw [hr, hq]

theorem mem_blk4_3 (t : Fin cfg4.N) (i : S800768x64.Idx) :
    i ∈ ((cfg4.win 3).blk t).view.set ↔ ∀ a : Fin 2, win4_3.index t a * S2048x64.size a ≤ (i a).val
      ∧ (i a).val < win4_3.index t a * S2048x64.size a + S2048x64.size a := by
  show i ∈ ((View.whole main_v53).slice (win4_3.rect t)).set ↔ _
  rw [View.set_slice_whole, Rect.mem_set_unit]
  exact Iff.rfl

theorem cover4_3 (i : S800768x64.Idx) :
    ∃ t : Fin cfg4.N, (cfg4.win 3).flush t = true ∧ i ∈ ((cfg4.win 3).blk t).view.set := by
  have hi0 : (i 0).val < 800768 := (i 0).isLt
  have hi1 : (i 1).val < 64 := (i 1).isLt
  have hN : cfg4.N = 9775 := N_4
  let t : Fin cfg4.N := ⟨(i 0).val / 2048 * 25 + 24, by rw [hN]; omega⟩
  have htv : t.val = (i 0).val / 2048 * 25 + 24 := rfl
  refine ⟨t, (flush4_3 t).mpr (by rw [htv]; omega), ?_⟩
  rw [mem_blk4_3]
  obtain ⟨e0, e1⟩ := idx4_3 t
  intro a
  match a with
  | ⟨0, _⟩ =>
    show win4_3.index t (0 : Fin 2) * 2048 ≤ (i 0).val ∧ (i 0).val < win4_3.index t (0 : Fin 2) * 2048 + 2048
    rw [e0, htv]; omega
  | ⟨1, _⟩ =>
    show win4_3.index t (1 : Fin 2) * 64 ≤ (i 1).val ∧ (i 1).val < win4_3.index t (1 : Fin 2) * 64 + 64
    rw [e1]; omega

/-- THE OUTPUT ARRAY after the region. -/
theorem final4 (c : Dev nD) : (dG c).arrAt 3 cfg4.N = gathered4 V c :=
  (dG c).arrAt_eq_of_cover 3 (gathered4 V c) (fun t hf => flushed4_eq V c t hf) cover4_3

/-- The same, entry by entry, as the layer's message sum. -/
theorem gatherOut4_apply (c : Dev nD) (e : Fin 800768) (q : Fin 64) :
    (dG c).arrAt 3 cfg4.N (ix2 e q)
      = Cert.Layer.msgK (srcW4 V c) (nrmW4 V c) (tblH4 V c) e.val q := by
  rw [final4]; rfl

end Value

end Cert.KernelIdeal.Hand

end
-- ==== Proof.Scat5Closed.lean ====
import proofs.«104867_j4217657884863_1_alg».proof.Proof.Scat5Dat
import proofs.«104867_j4217657884863_1_alg».proof.Proof.ScatLib
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5: what each case leaves, in closed form

Every load and store of the body moves a whole block, so what a case leaves in the accumulator (and, at a row's last
step, in the output block) is the step's payload applied to the two input blocks and to what the accumulator held:
the zero block at a row's first step, what the step before left otherwise. At any float instance. -/

open Cert.Lib.WholeBlock

section Closed

/-- A first step leaves the step's payload over the zero block. -/
theorem sout5_A_eq (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond5_0 i) (hc1 : ¬cond5_1 i)
    (x0 : Vec F S2048x64 .f32) (x1 : Vec F S1x2048 .i32) :
    sout5_A (Ix := Ix) (U := U) (Lvl := Lvl) c i arg2 harg2 arg3 harg3 arg4 harg4 arg5 harg5 hc0 hc1 x0 x1 = k5_pay2 i x1 x0 k5_pay1 := by
  unfold sout5_A kernelRun5_A
  dsimp only
  rw [read_writes_cons_unit_zero _ _ zero2, readAt_unit_zero_unread harg3 zero2, readAt_unit_zero_unread harg2 zero2]
  sl_unfold_run_names
  rw [View.readCov_unit_zero _ zero2]

/-- A middle step leaves the step's payload over what the accumulator held. -/
theorem sout5_B_eq (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : ¬cond5_1 i)
    (x0 : Vec F S2048x64 .f32) (x1 : Vec F S1x2048 .i32) (xs0 : Vec F S2048x64 .f32) :
    sout5_B (Ix := Ix) (U := U) (Lvl := Lvl) c i arg2 harg2 arg3 harg3 arg4 harg4 arg5 harg5 hc0 hc1 x0 x1 xs0 = k5_pay2 i x1 x0 xs0 := by
  unfold sout5_B kernelRun5_B
  dsimp only
  rw [read_writes_cons_unit_zero _ _ zero2, readAt_unit_zero_unread harg3 zero2, readAt_unit_zero_unread harg2 zero2,
    readAt_unit_zero_unread harg5 zero2]

/-- A last step leaves the same in the accumulator, -/
theorem sout5_C_eq (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) :
    sout5_C (Ix := Ix) (U := U) (Lvl := Lvl) c i arg2 harg2 arg3 harg3 arg4 harg4 arg5 harg5 hc0 hc1 x0 x1 xs0 = k5_pay2 i x1 x0 xs0 := by
  unfold sout5_C kernelRun5_C
  dsimp only
  sl_unfold_run_names
  rw [read_writes_cons_unit_zero _ _ zero2, readAt_unit_zero_unread harg3 zero2, readAt_unit_zero_unread harg2 zero2,
    readAt_unit_zero_unread harg5 zero2]

/-- and stores that very block into the output's buffer. -/
theorem out5_C_eq (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond5_0 i) (hc1 : cond5_1 i)
    (x0 : Vec F S2048x64 .f32) (x1 : Vec F S1x2048 .i32) (xs0 : Vec F S2048x64 .f32) :
    out5_C (Ix := Ix) (U := U) (Lvl := Lvl) c i arg2 harg2 arg3 harg3 arg4 harg4 arg5 harg5 hc0 hc1 x0 x1 xs0 = k5_pay2 i x1 x0 xs0 := by
  unfold out5_C kernelRun5_C
  dsimp only
  rw [read_writes_cons_unit_zero _ _ zero2]
  sl_unfold_run_names
  rw [View.readCov_unit_zero _ zero2, readAt_unit_zero_unread harg3 zero2, readAt_unit_zero_unread harg2 zero2,
    readAt_unit_zero_unread harg5 zero2]

end Closed

section Acc

variable (V : Dev nD → Valuation τ sig (Elt F))

/-- THE RECURSION in closed form. At a row's first step the accumulator is the step's payload over the zero block, -/
theorem accAt5_first (c : Dev nD) (t : Fin cfg5.N) (h0 : t.val % 391 = 0) :
    accAt5 (Ix := Ix) (U := U) (Lvl := Lvl) V c t.val t.isLt = k5_pay2 (grid5.coords t) (iblk5 V c 1 t) (iblk5 V c 0 t) k5_pay1 := by
  have h1 : ¬t.val % 391 = 390 := by omega
  rw [accAt5_A V c t h0 h1, sout5_A_eq]
/-- at any other step the step's payload over what the step before left, -/
theorem accAt5_step (c : Dev nD) (t : Fin cfg5.N) (h0 : ¬t.val % 391 = 0) :
    accAt5 (Ix := Ix) (U := U) (Lvl := Lvl) V c t.val t.isLt = k5_pay2 (grid5.coords t) (iblk5 V c 1 t) (iblk5 V c 0 t)
      (accAt5 (Ix := Ix) (U := U) (Lvl := Lvl) V c (t.val - 1) (Nat.lt_of_le_of_lt (Nat.sub_le _ _) t.isLt)) := by
  by_cases h1 : t.val % 391 = 390
  · rw [accAt5_C V c t h0 h1, sout5_C_eq]
  · rw [accAt5_B V c t h0 h1, sout5_B_eq]
/-- and at a row's last step the output's buffer is left holding the accumulator. -/
theorem outAt5_last (c : Dev nD) (t : Fin cfg5.N) (h1 : t.val % 391 = 390) :
    outAt5 (Ix := Ix) (U := U) (Lvl := Lvl) V c t = accAt5 (Ix := Ix) (U := U) (Lvl := Lvl) V c t.val t.isLt := by
  have h0 : ¬t.val % 391 = 0 := by omega
  rw [outAt5_C V c t h0 h1, out5_C_eq, accAt5_C V c t h0 h1, sout5_C_eq]

end Acc

end Cert.KernelIdeal.Hand

end
-- ==== Proof.Scat5Blk.lean ====
import proofs.«104867_j4217657884863_1_alg».proof.Proof.Scat5Closed
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5: where a block's element sits in its array

Point `t` of the 25 × 391 grid is node block `t / 391`, edge block `t % 391`. The message window's block there is rows
`(t % 391)·2048 …` of the message array, the target row's block is entries `(t % 391)·2048 …` of the target row, and
the output's block is rows `(t / 391)·2048 …` of the output array. -/

open Idealize.ShloMosaic.ValueIdx

/-- The windows' block indices and the first grid coordinate, in closed form. -/
theorem hix5_0 : ∀ t : Fin cfg5.N, win5_0.index t 0 = t.val % 391 ∧ win5_0.index t 1 = 0 :=
  (by decide +kernel : ∀ t : Fin grid5.N, win5_0.index t 0 = t.val % 391 ∧ win5_0.index t 1 = 0)
theorem hix5_1 : ∀ t : Fin cfg5.N, win5_1.index t 0 = 0 ∧ win5_1.index t 1 = t.val % 391 :=
  (by decide +kernel : ∀ t : Fin grid5.N, win5_1.index t 0 = 0 ∧ win5_1.index t 1 = t.val % 391)
theorem hix5_2 : ∀ t : Fin cfg5.N, win5_2.index t 0 = t.val / 391 ∧ win5_2.index t 1 = 0 :=
  (by decide +kernel : ∀ t : Fin grid5.N, win5_2.index t 0 = t.val / 391 ∧ win5_2.index t 1 = 0)
theorem hco5 : ∀ t : Fin cfg5.N, ((grid5.coords t) 0).val = t.val / 391 :=
  (by decide +kernel : ∀ t : Fin grid5.N, ((grid5.coords t) 0).val = t.val / 391)

section Blocks

variable (V : Dev nD → Valuation τ sig (Elt F))

/-- The message block at point `t`: entry `(e, q)` is row `(t % 391)·2048 + e`, column `q` of the message array. -/
theorem iblk5_0_apply (c : Dev nD) (t : Fin cfg5.N) (e : Fin 2048) (q : Fin 64) (k : S800768x64.Idx)
    (hk0 : (k 0).val = (t.val % 391) * 2048 + e.val) (hk1 : (k 1).val = q.val) :
    (iblk5 V c 0 t : Vec F S2048x64 .f32) (ix2 e q) = (V c main_v53 : S800768x64.Idx → Elt F .f32) k := by
  unfold iblk5
  rw [View.read_apply]
  show V c (Proc.devRef .tc main_v53) _ = V c (Proc.devRef .tc main_v53) _
  congr 1
  funext a
  apply Fin.ext
  match a with
  | ⟨0, _⟩ => show win5_0.index t 0 * 2048 + 1 * e.val = (k 0).val; rw [(hix5_0 t).1, hk0]; omega
  | ⟨1, _⟩ => show win5_0.index t 1 * 64 + 1 * q.val = (k 1).val; rw [(hix5_0 t).2, hk1]; omega

/-- The target row's block at point `t`: entry `e` is entry `(t % 391)·2048 + e` of the target row. -/
theorem iblk5_1_apply (c : Dev nD) (t : Fin cfg5.N) (e : Fin 2048) (k : S1x800768.Idx)
    (hk0 : (k 0).val = 0) (hk1 : (k 1).val = (t.val % 391) * 2048 + e.val) :
    (iblk5 V c 1 t : Vec F S1x2048 .i32) (ix2 (0 : Fin 1) e) = (V c main_v40 : S1x800768.Idx → Elt F .i32) k := by
  unfold iblk5
  rw [View.read_apply]
  show V c (Proc.devRef .tc main_v40) _ = V c (Proc.devRef .tc main_v40) _
  congr 1
  funext a
  apply Fin.ext
  match a with
  | ⟨0, _⟩ => show win5_1.index t 0 * 1 + 1 * 0 = (k 0).val; rw [(hix5_1 t).1, hk0]
  | ⟨1, _⟩ => show win5_1.index t 1 * 2048 + 1 * e.val = (k 1).val; rw [(hix5_1 t).2, hk1]; omega

end Blocks

end Cert.KernelIdeal.Hand

end
-- ==== Proof.Scat5Acc.lean ====
import proofs.«104867_j4217657884863_1_alg».proof.Proof.Scat5Blk
import proofs.«104867_j4217657884863_1_alg».proof.Proof.PayloadIdeal
import proofs.«104867_j4217657884863_1_alg».proof.Proof.LayerMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5, exact instance: the accumulator is the block-by-block aggregate

At the exact instance one step adds, at row `r` and column `q`, the one-hot row of node `(t / 391)·2048 + r` against the
2048 target words of edge block `t % 391`, times column `q` of that block's messages. So after edge block `eb` of node
block `nb` the accumulator holds, from zero, the sum of those terms over the edge blocks `0 … eb`. -/

open Idealize.ShloMosaic.ValueIdx Cert.Lib.OneHot Cert.KernelIdeal.Payload

section Acc

variable (V : Dev nD → Valuation τ sig (Elt Ideal))

/-- The target row and the messages as total functions of the edge number (anything past the arrays' extent: zero). -/
def dstp5 (c : Dev nD) (e' : ℕ) : BitVec 32 :=
  if h : e' < 800768 then (V c main_v40 : S1x800768.Idx → Elt Ideal .i32) (ix2 (0 : Fin 1) ⟨e', h⟩) else 0#32
def msgp5 (c : Dev nD) (e' : ℕ) (q' : Fin 64) : EReal :=
  if h : e' < 800768 then (V c main_v53 : S800768x64.Idx → Elt Ideal .f32) (ix2 ⟨e', h⟩ q') else 0

/-- One edge block's contribution to node `n`, column `q`. -/
def term5 (c : Dev nD) (n : ℕ) (q : Fin 64) (b : ℕ) : EReal :=
  ∑ k : Fin 2048, hot (BitVec.ofNat 32 n) (dstp5 V c (b * 2048 + k.val)) * msgp5 V c (b * 2048 + k.val) q

/-- ONE STEP at point `t`, read at `(r, q)`: what the accumulator held there plus this edge block's contribution. -/
theorem step5_apply (c : Dev nD) (t : Fin cfg5.N) (acc : Vec Ideal S2048x64 .f32) (r : Fin 2048) (q : Fin 64) :
    k5_pay2 (F := Ideal) (grid5.coords t) (iblk5 V c 1 t) (iblk5 V c 0 t) acc (ix2 r q)
      = acc (ix2 r q) + term5 V c ((t.val / 391) * 2048 + r.val) q (t.val % 391) := by
  rw [scatter5_step_apply, hco5 t]
  refine congrArg (acc (ix2 r q) + ·) ?_
  unfold term5
  refine Finset.sum_congr rfl fun k _ => ?_
  have hlt : (t.val % 391) * 2048 + k.val < 800768 := by
    have h1 := Nat.mod_lt t.val (show 0 < 391 by decide); have h2 := k.isLt; omega
  rw [iblk5_1_apply V c t k (ix2 (0 : Fin 1) ⟨_, hlt⟩) rfl rfl, iblk5_0_apply V c t k q (ix2 ⟨_, hlt⟩ q) rfl rfl]
  unfold dstp5 msgp5
  rw [dif_pos hlt, dif_pos hlt]

/-- THE ACCUMULATOR at a point of edge block `eb`, read at `(r, q)`: from zero, the contributions of edge blocks
    `0 … eb` to node `(t / 391)·2048 + r`. By induction on the edge block. -/
theorem acc5_apply (c : Dev nD) (r : Fin 2048) (q : Fin 64) : ∀ (eb : ℕ) (t : Fin cfg5.N), t.val % 391 = eb →
    accAt5 (Ix := Unit) (U := UR sig nD τ) (Lvl := ℕ) V c t.val t.isLt (ix2 r q)
      = accBlocks (0 : EReal) (term5 V c ((t.val / 391) * 2048 + r.val) q) eb
  | 0, t, h => by
    rw [accAt5_first V c t h, step5_apply, scatter5_zero_apply, h]
    rfl
  | eb + 1, t, h => by
    have h0 : ¬t.val % 391 = 0 := by omega
    rw [accAt5_step V c t h0, step5_apply]
    have ih := acc5_apply c r q eb ⟨t.val - 1, Nat.lt_of_le_of_lt (Nat.sub_le _ _) t.isLt⟩ (by show (t.val - 1) % 391 = eb; omega)
    have hd : (t.val - 1) / 391 = t.val / 391 := by omega
    rw [show accAt5 (Ix := Unit) (U := UR sig nD τ) (Lvl := ℕ) V c (t.val - 1) (Nat.lt_of_le_of_lt (Nat.sub_le _ _) t.isLt) (ix2 r q)
        = accBlocks (0 : EReal) (term5 V c ((t.val / 391) * 2048 + r.val) q) eb from by rw [← hd]; exact ih, h]
    rfl

end Acc

end Cert.KernelIdeal.Hand

end
-- ==== Proof.Scat5Out.lean ====
import proofs.«104867_j4217657884863_1_alg».proof.Proof.Scat5Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 5, exact instance: the output array

The output's block of node block `nb` is written back once, at the last edge block, holding the accumulator: rows
`nb·2048 …` of the aggregate. The 25 node blocks tile the 51200 rows, so the array ends holding the aggregate. -/

open Idealize.ShloMosaic.ValueIdx Cert.Lib.OneHot Cert.KernelIdeal.Payload

section Out

variable (V : Dev nD → Valuation τ sig (Elt Ideal))

/-- The aggregate as one function of the output array's index. -/
def G5 (c : Dev nD) : S51200x64.Idx → EReal :=
  fun j => Cert.Layer.aggK (dstp5 V c) (msgp5 V c) (j 0).val (j 1)

/-- The aggregate is the accumulation over all 391 edge blocks. -/
theorem agg5_eq (c : Dev nD) (n : ℕ) (q : Fin 64) :
    Cert.Layer.aggK (dstp5 V c) (msgp5 V c) n q = accBlocks (0 : EReal) (term5 V c n q) 390 := rfl

/-- What a write-back writes is its block of the aggregate. -/
theorem flushed5_eq (c : Dev nD) (t : Fin cfg5.N) (hf : (cfg5.win 2).flush t = true) :
    (datS5 (Ix := Unit) (U := UR sig nD τ) (Lvl := ℕ) V c).flushed 2 t = ((cfg5.win 2).blk t).view.read (Elt Ideal) (G5 V c) := by
  have h1 : t.val % 391 = 390 := (flush5_2 t).mp hf
  show (cfg5.win 2).cut (grid5.coords t) ((datS5 (Ix := Unit) (U := UR sig nD τ) (Lvl := ℕ) V c).after 2 t) = _
  rw [after5_2, outAt5_last V c t h1]
  funext x
  have e0 : ((((cfg5.win 2).blk t).view.emb x) 0).val = (t.val / 391) * 2048 + (x 0).val := by
    show win5_2.index t 0 * 2048 + 1 * (x 0).val = _; rw [(hix5_2 t).1]; omega
  have e1 : (((cfg5.win 2).blk t).view.emb x) 1 = x 1 :=
    Fin.ext (by show win5_2.index t 1 * 64 + 1 * (x 1).val = (x 1).val; rw [(hix5_2 t).2]; omega)
  have hcut : (cfg5.win 2).cut (grid5.coords t) (accAt5 (Ix := Unit) (U := UR sig nD τ) (Lvl := ℕ) V c t.val t.isLt) x
      = accAt5 (Ix := Unit) (U := UR sig nD τ) (Lvl := ℕ) V c t.val t.isLt (ix2 (x 0) (x 1)) := by
    show accAt5 (Ix := Unit) (U := UR sig nD τ) (Lvl := ℕ) V c t.val t.isLt ((cfg5.win 2).xinj (grid5.coords t) x) = _
    congr 1
    funext a
    match a with
    | ⟨0, _⟩ => rfl
    | ⟨1, _⟩ => rfl
  rw [hcut, acc5_apply V c (x 0) (x 1) 390 t h1, View.read_apply]
  show _ = G5 V c _
  unfold G5
  exact (congrArg₂ (fun (n : ℕ) (q' : Fin 64) => accBlocks (0 : EReal) (term5 V c n q') 390) e0.symm e1.symm).trans
    (agg5_eq V c _ _).symm

/-- Every row of the output array lies in the block written back at the last point of its node block. -/
theorem cover5 (c : Dev nD) (i : S51200x64.Idx) :
    ∃ t : Fin cfg5.N, (cfg5.win 2).flush t = true ∧ i ∈ ((cfg5.win 2).blk t).view.set := by
  have hi0 : (i 0).val < 51200 := idx2_lt0 i
  have hi1 : (i 1).val < 64 := idx2_lt1 i
  have hN : cfg5.N = 9775 := N_5
  have ht : ((i 0).val / 2048) * 391 + 390 < cfg5.N := by rw [hN]; omega
  refine ⟨⟨((i 0).val / 2048) * 391 + 390, ht⟩, (flush5_2 _).mpr (by show (((i 0).val / 2048) * 391 + 390) % 391 = 390; omega), ?_⟩
  show i ∈ ((View.whole main_v54).slice (win5_2.rect ⟨((i 0).val / 2048) * 391 + 390, ht⟩)).set
  rw [View.set_slice_whole, Rect.mem_set_unit]
  intro a
  have hd : (((i 0).val / 2048) * 391 + 390) / 391 = (i 0).val / 2048 := by omega
  match a with
  | ⟨0, _⟩ =>
    show win5_2.index ⟨((i 0).val / 2048) * 391 + 390, ht⟩ 0 * 2048 ≤ (i 0 : Nat) ∧ (i 0 : Nat) < win5_2.index ⟨((i 0).val / 2048) * 391 + 390, ht⟩ 0 * 2048 + 2048
    rw [(hix5_2 ⟨_, ht⟩).1, hd]; omega
  | ⟨1, _⟩ =>
    show win5_2.index ⟨((i 0).val / 2048) * 391 + 390, ht⟩ 1 * 64 ≤ (i 1 : Nat) ∧ (i 1 : Nat) < win5_2.index ⟨((i 0).val / 2048) * 391 + 390, ht⟩ 1 * 64 + 64
    rw [(hix5_2 ⟨_, ht⟩).2]; omega

/-- THE OUTPUT ARRAY after the region: the aggregate, entry by entry. -/
theorem scatterOut5_apply (c : Dev nD) (n : Fin 51200) (q : Fin 64) :
    (datS5 (Ix := Unit) (U := UR sig nD τ) (Lvl := ℕ) V c).arrAt 2 cfg5.N (ix2 n q)
      = Cert.Layer.aggK (fun e' => if h : e' < 800768 then (V c main_v40 : S1x800768.Idx → Elt Ideal .i32) (ix2 (0 : Fin 1) ⟨e', h⟩) else 0#32)
          (fun e' q' => if h : e' < 800768 then (V c main_v53 : S800768x64.Idx → Elt Ideal .f32) (ix2 ⟨e', h⟩ q') else 0) n.val q := by
  rw [(datS5 (Ix := Unit) (U := UR sig nD τ) (Lvl := ℕ) V c).arrAt_eq_of_cover 2 (G5 V c) (flushed5_eq V c) (cover5 c)]
  rfl

end Out

end Cert.KernelIdeal.Hand

end
-- ==== Proof.KChain2.lean ====
import proofs.«104867_j4217657884863_1_alg».proof.Proof.KChain1
import proofs.«104867_j4217657884863_1_alg».proof.Proof.LinVal3
import proofs.«104867_j4217657884863_1_alg».proof.Proof.G4Value
import proofs.«104867_j4217657884863_1_alg».proof.Proof.Scat5Region
import proofs.«104867_j4217657884863_1_alg».proof.Proof.KLayerGlue
import proofs.«104867_j4217657884863_1_alg».proof.Proof.Scat5Out
import proofs.«104867_j4217657884863_1_alg».proof.Proof.KArrays
import proofs.«104867_j4217657884863_1_alg».proof.Proof.KCarry
import proofs.«104867_j4217657884863_1_alg».proof.Proof.KLayer

/-!
# Layer 2 of the kernel program as the layer function

The three regions of the layer leave, in turn, the dense product of the previous layer's output, the weighted one-hot
gather of its rows, and the one-hot sum of those messages by target; the host tail adds the self term and the bias and
applies the rectifier. The columns of sources and weights, the row of targets and the padded degrees are never
overwritten, so every region and the tail read them as they were before the first region.
-/

set_option maxRecDepth 4096

noncomputable section

namespace Cert.KernelIdeal.Chain

open Idealize.ShloMosaic Idealize.ShloMosaic.TcCoe Idealize.ShloMosaic.ValueIdx Idealize.SL.Sem
open Cert.KernelIdeal Cert.KernelIdeal.Gen Cert.KernelIdeal.Hand Cert.KernelIdeal.Glue Cert.Layer

variable (m : (ℓ : Loc nD τ sig) → Buf (Elt Ideal) ℓ) (c : Dev nD)

/-- The gather region's proof data of the layer, entered from the valuation the linear region leaves. -/
abbrev D4 := datG4 (F := Ideal) (Ix := Unit) (U := UR sig nD τ) (Lvl := ℕ) (W17 m (D1 m) (D2 m))
/-- The scatter region's proof data of the layer, entered from the valuation the gather region leaves. -/
abbrev D5 := datS5 (F := Ideal) (Ix := Unit) (U := UR sig nD τ) (Lvl := ℕ) (W18 m (D1 m) (D2 m) (D4 m))

abbrev linOut2 : S51200x64.Idx → EReal := (datL3 (F := Ideal) (Ix := Unit) (U := UR sig nD τ) (Lvl := ℕ) (W16 m (D1 m) (D2 m)) c).arrAt 2 cfg3.N
abbrev gOut2 : S800768x64.Idx → EReal := (D4 m c).arrAt 3 cfg4.N
abbrev sOut2 : S51200x64.Idx → EReal := (D5 m c).arrAt 2 cfg5.N
abbrev tail2 : S51200x64.Idx → EReal := W21 m (D1 m) (D2 m) (D4 m) (D5 m) c main_v62

/-- What the gather region reads: the product array the linear region left, and the source and weight columns. -/
theorem carry2l_out : (W17 m (D1 m) (D2 m) c main_v52 : S51200x64.Idx → EReal) = linOut2 m c := by
  unfold W17 VoutL3
  exact Function.update_self _ _ _
theorem carry2l_v38 : (W17 m (D1 m) (D2 m) c main_v38 : S800768x1.Idx → BitVec 32) = srcC m c :=
  (W17_keep' m (D1 m) (D2 m) c main_v38 (by decide)).trans (W16_keep m (D1 m) (D2 m) c main_v38 (by decide) (by decide) (by decide) (by decide) (by decide))
theorem carry2l_v39 : (W17 m (D1 m) (D2 m) c main_v39 : S800768x1.Idx → EReal) = normC m c :=
  (W17_keep' m (D1 m) (D2 m) c main_v39 (by decide)).trans (W16_keep m (D1 m) (D2 m) c main_v39 (by decide) (by decide) (by decide) (by decide) (by decide))

/-- What the scatter region reads: the message array the gather region left, and the target row. -/
theorem carry2g_out : (W18 m (D1 m) (D2 m) (D4 m) c main_v53 : S800768x64.Idx → EReal) = gOut2 m c := by
  unfold W18
  exact Function.update_self _ _ _
theorem carry2g_v40 : (W18 m (D1 m) (D2 m) (D4 m) c main_v40 : S1x800768.Idx → BitVec 32) = dstR m c :=
  (W18_keep' m (D1 m) (D2 m) (D4 m) c main_v40 (by decide) (by decide)).trans (W16_keep m (D1 m) (D2 m) c main_v40 (by decide) (by decide) (by decide) (by decide) (by decide))

/-- The gather region's array in the glue's terms. -/
theorem gOut2_apply (e : Fin 800768) (q : Fin 64) :
    gOut2 m c (ix2 e q) = msgK (extColW (srcC m c)) (extColR (normC m c)) (ext2 (linOut2 m c)) e.val q := by
  have h := gatherOut4_apply (Ix := Unit) (U := UR sig nD τ) (Lvl := ℕ) (W17 m (D1 m) (D2 m)) c e q
  have e1 : srcW4 (W17 m (D1 m) (D2 m)) c = extColW (srcC m c) := by
    funext e'; unfold srcW4 extColW; rw [carry2l_v38]
  have e2 : nrmW4 (W17 m (D1 m) (D2 m)) c = extColR (normC m c) := by
    funext e'; unfold nrmW4 extColR; rw [carry2l_v39]
  have e3 : tblH4 (W17 m (D1 m) (D2 m)) c = ext2 (linOut2 m c) := by
    funext n' q'; unfold tblH4 ext2; rw [carry2l_out]
  rw [e1, e2, e3] at h
  exact h

/-- The weight the layer reads is the argument as launched. -/
theorem w2_eq : (W16 m (D1 m) (D2 m) c main_arg5 : S64x64.Idx → EReal) = aW2 m c :=
  (W16_keep m (D1 m) (D2 m) c main_arg5 (by decide) (by decide) (by decide) (by decide) (by decide)).trans (V11_keep m c main_arg5 (by decide) (by decide) (by decide) (by decide) (by decide) (by decide) (by decide) (by decide) (by decide) (by decide) (by decide))

/-- What the host tail reads: the aggregate the scatter region left, the product the linear region left, the padded
    degrees and the bias. -/
theorem carry2s_out : (W19 m (D1 m) (D2 m) (D4 m) (D5 m) c main_v54 : S51200x64.Idx → EReal) = sOut2 m c := by
  unfold W19
  exact Function.update_self _ _ _
theorem carry2s_lin : (W19 m (D1 m) (D2 m) (D4 m) (D5 m) c main_v52 : S51200x64.Idx → EReal) = linOut2 m c := by
  unfold W19 W18
  rw [Function.update_of_ne (by decide), Function.update_of_ne (by decide)]
  exact carry2l_out m c
theorem carry2s_v37 : (W19 m (D1 m) (D2 m) (D4 m) (D5 m) c main_v37 : S51200.Idx → EReal) = d2V m c :=
  (W19_keep' m (D1 m) (D2 m) (D4 m) (D5 m) c main_v37 (by decide) (by decide) (by decide)).trans (W16_keep m (D1 m) (D2 m) c main_v37 (by decide) (by decide) (by decide) (by decide) (by decide))
theorem carry2s_bias : (W19 m (D1 m) (D2 m) (D4 m) (D5 m) c main_arg6 : S64.Idx → EReal) = ab2 m c :=
  (W19_keep' m (D1 m) (D2 m) (D4 m) (D5 m) c main_arg6 (by decide) (by decide) (by decide)).trans ((W16_keep m (D1 m) (D2 m) c main_arg6 (by decide) (by decide) (by decide) (by decide) (by decide)).trans (V11_keep m c main_arg6 (by decide) (by decide) (by decide) (by decide) (by decide) (by decide) (by decide) (by decide) (by decide) (by decide) (by decide)))

/-- The tail's array at node `n`, feature `q`: the aggregate plus the self term plus the bias, rectified. -/
theorem tail2_apply (n : Fin 51200) (q : Fin 64) :
    tail2 m c (ix2 n q) = max ((sOut2 m c (ix2 n q) + linOut2 m c (ix2 n q) * d2V m c (ix1 n)) + ab2 m c (ix1 q)) 0 := by
  show ((StableHlo.after hostOps6_1 (StableHlo.after hostOps6 (W19 m (D1 m) (D2 m) (D4 m) (D5 m) c))) main_v62 : S51200x64.Idx → EReal) (ix2 n q) = _
  rw [Cert.KernelIdeal.HostK.tail6_apply, Cert.KernelIdeal.HostK.tailAt_def, carry2s_out, carry2s_lin, carry2s_v37, carry2s_bias]

/-- The product array in the glue's terms: rows of the previous layer's output times the weight as launched. -/
theorem linOut2_apply (n : Fin 51200) (q : Fin 64) :
    linOut2 m c (ix2 n q) = ∑ k : Fin 64, tail1 m c (ix2 n k) * aW2 m c (ix2 k q) := by
  have h := linOut3_apply (Ix := Unit) (U := UR sig nD τ) (Lvl := ℕ) (W16 m (D1 m) (D2 m)) c n q
  rw [show arrW3 (W16 m (D1 m) (D2 m)) c = aW2 m c from w2_eq m c] at h
  exact h

/-- LAYER 2 of the kernel program is the layer function on the previous layer's output, given that the scatter
    region's array is the one-hot sum of the messages by target. -/
theorem klayer2_of
    (hs : ∀ (n : Fin 51200) (q : Fin 64), sOut2 m c (ix2 n q) = aggK (extRowW (dstR m c)) (extE (gOut2 m c)) n.val q)
    (n : Fin 51200) (q : Fin 64) :
    tail2 m c (ix2 n q) = layerK (fun k q => aW2 m c (ix2 k q)) (fun q => ab2 m c (ix1 q)) (extColW (srcC m c)) (extRowW (dstR m c))
      (extColR (normC m c)) (ext1 (d2V m c)) (ext2 (tail1 m c)) n.val q :=
  kernel_layer (tail1 m c) (linOut2 m c) (sOut2 m c) (tail2 m c) (gOut2 m c) (aW2 m c) (ab2 m c) (srcC m c) (normC m c) (dstR m c) (d2V m c)
    (linOut2_apply m c) (gOut2_apply m c) hs (tail2_apply m c) n q

/-- The scatter region's array in the glue's terms: the one-hot sum of the messages by target. -/
theorem sOut2_apply (n : Fin 51200) (q : Fin 64) :
    sOut2 m c (ix2 n q) = aggK (extRowW (dstR m c)) (extE (gOut2 m c)) n.val q := by
  have h := scatterOut5_apply (W18 m (D1 m) (D2 m) (D4 m)) c n q
  rw [carry2g_v40, carry2g_out] at h
  exact h

/-- LAYER 2 of the kernel program is the layer function on the previous layer's output. -/
theorem klayer2 (n : Fin 51200) (q : Fin 64) :
    tail2 m c (ix2 n q) = layerK (fun k q => aW2 m c (ix2 k q)) (fun q => ab2 m c (ix1 q)) (extColW (srcC m c)) (extRowW (dstR m c))
      (extColR (normC m c)) (ext1 (d2V m c)) (ext2 (tail1 m c)) n.val q :=
  klayer2_of m c (sOut2_apply m c) n q

end Cert.KernelIdeal.Chain

end
-- ==== Proof.LinVal6.lean ====
/- The linear kernel of pipeline 6 on the extended reals: what each grid point writes back is its row block of one
   whole-array function of the two input arrays, the row blocks cover the output array, so the array the region leaves is
   that function — at (n, q) the sum over k of x(n, k) · W(k, q). -/
import proofs.«104867_j4217657884863_1_alg».proof.Proof.Lin6
import proofs.«104867_j4217657884863_1_alg».proof.Proof.PayloadIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {Ix : Type} [DecidableEq Ix] {U : Type} [URA U] {Lvl : Type} [Preorder Lvl]

variable (V : Dev nD → Valuation τ sig (Elt Ideal))

/-! # Pipeline 6 on the extended reals: the output array is the rows of the activation times the weight -/

theorem hzL6 : (![0, 0] : Fin 2 → Nat) = fun _ => 0 := funext fun a => by fin_cases a <;> rfl

/-- The two input arrays as the region finds them, as plain functions of the index. -/
abbrev arrX6 (c : Dev nD) : S51200x64.Idx → Elt Ideal .f32 := V c main_v62
abbrev arrW6 (c : Dev nD) : S64x64.Idx → Elt Ideal .f32 := V c main_arg7

/-- The output array as ONE function of the two input arrays as the region finds them: at (n, q) the sum over k of
    x(n, k) · W(k, q). -/
def GL6 (c : Dev nD) : S51200x64.Idx → Elt Ideal .f32 := fun i =>
  ∑ k : Fin 64, arrX6 V c (ix2 (i 0 : Fin 51200) k) * arrW6 V c (ix2 k (i 1 : Fin 64))

/-- The printed index maps, decided over the grid: the activation window moves with the output window down the rows,
    neither moves along the columns, the weight window does not move, and point `t` writes row block `t`. -/
theorem idx_factsL6 : ∀ t : Fin cfg6.N, win6_0.index t (0 : Fin 2) = win6_2.index t (0 : Fin 2)
    ∧ win6_0.index t (1 : Fin 2) = 0 ∧ win6_2.index t (1 : Fin 2) = 0
    ∧ win6_1.index t (0 : Fin 2) = 0 ∧ win6_1.index t (1 : Fin 2) = 0
    ∧ win6_2.index t (0 : Fin 2) = t.val :=
  (by decide +kernel : ∀ t : Fin grid6.N, _)

/-- WHAT POINT `t` WRITES BACK is block `t` of `GL6`. -/
theorem flushedL6_eq (c : Dev nD) (t : Fin cfg6.N) :
    (datL6 (F := Ideal) (Ix := Ix) (U := U) (Lvl := Lvl) V c).flushed 2 t = ((cfg6.win 2).blk t).view.read (Elt Ideal) (GL6 V c) := by
  show (cfg6.win 2).cut (grid6.coords t) ((datL6 (F := Ideal) (Ix := Ix) (U := U) (Lvl := Lvl) V c).after 2 t) = _
  rw [afterL6_2]
  unfold outL6
  rw [View.canon_unit_zero hzL6]
  simp only [View.ld_unit_zero (S := S2048x64) hzL6, View.ld_unit_zero (S := S64x64) hzL6]
  obtain ⟨e0, e1, e2, e3, e4, e5⟩ := idx_factsL6 t
  funext j
  obtain ⟨r, q, rfl⟩ : ∃ (r : Fin 2048) (q : Fin 64), j = ix2 r q := ⟨j 0, j 1, eq_ix2 j⟩
  show k6_pay1 (F := Ideal) (iblkL6 V c 0 t) (iblkL6 V c 1 t) (ix2 r q) = GL6 V c (((cfg6.win 2).blk t).view.emb (ix2 r q))
  rw [Cert.KernelIdeal.Payload.linear6_apply]
  unfold GL6
  refine Finset.sum_congr rfl fun k _ => ?_
  show arrX6 V c (((cfg6.win 0).blk t).view.emb (ix2 r k)) * arrW6 V c (((cfg6.win 1).blk t).view.emb (ix2 k q)) = _
  have h0 : ((cfg6.win 0).blk t).view.emb (ix2 r k)
      = ix2 ((((cfg6.win 2).blk t).view.emb (ix2 r q)) 0 : Fin 51200) k := by
    funext a; apply Fin.ext
    match a with
    | ⟨0, _⟩ => show win6_0.index t (0 : Fin 2) * 2048 + 1 * r.val = win6_2.index t (0 : Fin 2) * 2048 + 1 * r.val; omega
    | ⟨1, _⟩ => show win6_0.index t (1 : Fin 2) * 64 + 1 * k.val = k.val; omega
  have h1 : ((cfg6.win 1).blk t).view.emb (ix2 k q)
      = ix2 k ((((cfg6.win 2).blk t).view.emb (ix2 r q)) 1 : Fin 64) := by
    funext a; apply Fin.ext
    match a with
    | ⟨0, _⟩ => show win6_1.index t (0 : Fin 2) * 64 + 1 * k.val = k.val; omega
    | ⟨1, _⟩ => show win6_1.index t (1 : Fin 2) * 64 + 1 * q.val = win6_2.index t (1 : Fin 2) * 64 + 1 * q.val; omega
  rw [h0, h1]
  rfl

/-- An index of the array is in point `t`'s block iff each coordinate is in the block's range on its axis. -/
theorem mem_blkL6 (t : Fin cfg6.N) (i : S51200x64.Idx) :
    i ∈ ((cfg6.win 2).blk t).view.set ↔ ∀ a : Fin 2, win6_2.index t a * S2048x64.size a ≤ (i a).val ∧ (i a).val < win6_2.index t a * S2048x64.size a + S2048x64.size a := by
  show i ∈ ((View.whole main_v63).slice (win6_2.rect t)).set ↔ _
  rw [View.set_slice_whole, Rect.mem_set_unit]
  exact Iff.rfl

/-- Every index of the output array is in some point's block: row `n` is in row block `n / 2048`. -/
theorem coverL6_arr (i : S51200x64.Idx) :
    ∃ t : Fin cfg6.N, (cfg6.win 2).flush t = true ∧ i ∈ ((cfg6.win 2).blk t).view.set := by
  have hi0 : (i 0).val < 51200 := (i 0).isLt
  have hi1 : (i 1).val < 64 := (i 1).isLt
  have hN : cfg6.N = 25 := N_6
  let t : Fin cfg6.N := ⟨(i 0).val / 2048, by rw [hN]; omega⟩
  obtain ⟨e0, e1, e2, e3, e4, e5⟩ := idx_factsL6 t
  have e5' : win6_2.index t (0 : Fin 2) = (i 0).val / 2048 := e5
  refine ⟨t, flush6_2 t, ?_⟩
  rw [mem_blkL6]
  intro a
  match a with
  | ⟨0, _⟩ => show win6_2.index t (0 : Fin 2) * 2048 ≤ (i 0).val ∧ (i 0).val < win6_2.index t (0 : Fin 2) * 2048 + 2048; omega
  | ⟨1, _⟩ => show win6_2.index t (1 : Fin 2) * 64 ≤ (i 1).val ∧ (i 1).val < win6_2.index t (1 : Fin 2) * 64 + 64; omega

/-- THE OUTPUT ARRAY after the region, whole: `GL6` of the input arrays. -/
theorem linOut6_eq (c : Dev nD) : (datL6 (F := Ideal) (Ix := Ix) (U := U) (Lvl := Lvl) V c).arrAt 2 cfg6.N = GL6 V c :=
  (datL6 (F := Ideal) (Ix := Ix) (U := U) (Lvl := Lvl) V c).arrAt_eq_of_cover 2 (GL6 V c) (fun t _ => flushedL6_eq V c t) (coverL6_arr)

/-- and index by index: at (n, q) the sum over k of x(n, k) · W(k, q). -/
theorem linOut6_apply (c : Dev nD) (n : Fin 51200) (q : Fin 64) :
    ((datL6 (F := Ideal) (Ix := Ix) (U := U) (Lvl := Lvl) V c).arrAt 2 cfg6.N : S51200x64.Idx → Elt Ideal .f32) (ix2 n q) = ∑ k : Fin 64, arrX6 V c (ix2 n k) * arrW6 V c (ix2 k q) := by
  rw [linOut6_eq]; rfl

end Cert.KernelIdeal.Hand

end
-- ==== Proof.G7Value.lean ====
/-
  The gather kernel of layer 3 (pipeline 7): what its output array holds after the region, read over the
  extended reals.

  Row e of the output is the norm of edge e times the sum, over the 25 blocks of 2048 node rows, of the
  one-hot row of edge e's source word against the block's node numbers times the block of h: the accumulator
  after the last step of a row of the grid, scaled. Every row of the output lies in exactly the block the last
  step of its row of the grid writes back, so the write-backs cover the array.
-/
import proofs.«104867_j4217657884863_1_alg».proof.Proof.G7Region
import proofs.«104867_j4217657884863_1_alg».proof.Proof.PayloadIdeal
import proofs.«104867_j4217657884863_1_alg».proof.Proof.LayerMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {Ix : Type} [DecidableEq Ix] {U : Type} [URA U] {Lvl : Type} [Preorder Lvl]

local notation "𝕄" => MT nD τ sig Ix (Elt Ideal) ℕ U Lvl

open Idealize.ShloMosaic.ValueIdx
open Cert.Lib.OneHot Cert.KernelIdeal.Payload

/-! ## The grid coordinates and the windows' block indices at a point -/

theorem coords7_0 (t : Fin cfg7.N) : ((grid7.coords t) 0).val = t.val / 25 := by
  show t.val / grid7.stride 0 % 391 = t.val / 25
  rw [show grid7.stride 0 = 25 from by decide]
  have : t.val < 9775 := lt_of_lt_of_eq t.isLt N_7
  omega

theorem word_val_7 (n : Nat) (h : n < 2 ^ 32) : (BitVec.ofNat 32 n).toNat = n := by
  rw [BitVec.toNat_ofNat]; exact Nat.mod_eq_of_lt h

/-- The h window moves along the second grid axis; -/
theorem idx7_0 (t : Fin cfg7.N) : win7_0.index t (0 : Fin 2) = t.val % 25 ∧ win7_0.index t (1 : Fin 2) = 0 := by
  constructor
  · show (BitVec.ofNat 32 ((grid7.coords t) 1).val).toNat = _
    rw [coords7_1]; exact word_val_7 _ (by omega)
  · rfl
/-- the source, norm and output windows along the first. -/
theorem idx7_1 (t : Fin cfg7.N) : win7_1.index t (0 : Fin 2) = t.val / 25 ∧ win7_1.index t (1 : Fin 2) = 0 := by
  have : t.val < 9775 := lt_of_lt_of_eq t.isLt N_7
  constructor
  · show (BitVec.ofNat 32 ((grid7.coords t) 0).val).toNat = _
    rw [coords7_0]; exact word_val_7 _ (by omega)
  · rfl
theorem idx7_2 (t : Fin cfg7.N) : win7_2.index t (0 : Fin 2) = t.val / 25 ∧ win7_2.index t (1 : Fin 2) = 0 := by
  have : t.val < 9775 := lt_of_lt_of_eq t.isLt N_7
  constructor
  · show (BitVec.ofNat 32 ((grid7.coords t) 0).val).toNat = _
    rw [coords7_0]; exact word_val_7 _ (by omega)
  · rfl
theorem idx7_3 (t : Fin cfg7.N) : win7_3.index t (0 : Fin 2) = t.val / 25 ∧ win7_3.index t (1 : Fin 2) = 0 := by
  have : t.val < 9775 := lt_of_lt_of_eq t.isLt N_7
  constructor
  · show (BitVec.ofNat 32 ((grid7.coords t) 0).val).toNat = _
    rw [coords7_0]; exact word_val_7 _ (by omega)
  · rfl

section Value

variable (V : Dev nD → Valuation τ sig (Elt Ideal))

local notation "dG" => datG7 (F := Ideal) (Ix := Ix) (U := U) (Lvl := Lvl) V

/-! ## The three input arrays, by row number -/

/-- h by node row and column (zero past the array). -/
def tblH7 (c : Dev nD) : ℕ → Fin 64 → EReal :=
  fun n' q' => if h : n' < 51200 then (V c main_v63 : S51200x64.Idx → EReal) (ix2 ⟨n', h⟩ q') else 0
/-- The source word of edge row e. -/
def srcW7 (c : Dev nD) : ℕ → BitVec 32 :=
  fun e' => if h : e' < 800768 then (V c main_v38 : S800768x1.Idx → BitVec 32) (ix2 ⟨e', h⟩ (0 : Fin 1)) else 0#32
/-- The norm of edge row e. -/
def nrmW7 (c : Dev nD) : ℕ → EReal :=
  fun e' => if h : e' < 800768 then (V c main_v39 : S800768x1.Idx → EReal) (ix2 ⟨e', h⟩ (0 : Fin 1)) else 0

/-- What block b of the node rows adds to edge row e's accumulator at column q. -/
def term7 (c : Dev nD) (e : ℕ) (q : Fin 64) : ℕ → EReal :=
  fun b => ∑ k : Fin 2048, hot (srcW7 V c e) (BitVec.ofNat 32 (b * 2048 + k.val)) * tblH7 V c (b * 2048 + k.val) q

/-- THE OUTPUT ARRAY: row e, column q is the accumulator after the 25 blocks' contributions, times the edge's norm. -/
def gathered7 (c : Dev nD) : S800768x64.Idx → EReal :=
  fun i => accBlocks (0 : EReal) (term7 V c (i 0).val (i 1)) 24 * nrmW7 V c (i 0).val

/-! ## The blocks the body reads, off the arrays -/

theorem blk7_0 (c : Dev nD) (t : Fin cfg7.N) (k : Fin 2048) (q : Fin 64) :
    iblk7 V c 0 t (ix2 k q) = tblH7 V c (t.val % 25 * 2048 + k.val) q := by
  have hlt : t.val % 25 * 2048 + k.val < 51200 := by have := k.isLt; omega
  unfold tblH7; dsimp only; rw [dif_pos hlt]
  show (V c main_v63 : S51200x64.Idx → EReal) (((cfg7.win 0).blk t).view.emb (ix2 k q)) = _
  refine congrArg (V c main_v63 : S51200x64.Idx → EReal) ?_
  obtain ⟨e0, e1⟩ := idx7_0 t
  funext a; apply Fin.ext
  match a with
  | ⟨0, _⟩ => show win7_0.index t (0 : Fin 2) * 2048 + 1 * k.val = t.val % 25 * 2048 + k.val; omega
  | ⟨1, _⟩ => show win7_0.index t (1 : Fin 2) * 64 + 1 * q.val = q.val; omega

theorem blk7_1 (c : Dev nD) (t : Fin cfg7.N) (r : Fin 2048) :
    iblk7 V c 1 t (ix2 r (0 : Fin 1)) = srcW7 V c (t.val / 25 * 2048 + r.val) := by
  have : t.val < 9775 := lt_of_lt_of_eq t.isLt N_7
  have hlt : t.val / 25 * 2048 + r.val < 800768 := by have := r.isLt; omega
  unfold srcW7; dsimp only; rw [dif_pos hlt]
  show (V c main_v38 : S800768x1.Idx → BitVec 32) (((cfg7.win 1).blk t).view.emb (ix2 r (0 : Fin 1))) = _
  refine congrArg (V c main_v38 : S800768x1.Idx → BitVec 32) ?_
  obtain ⟨e0, e1⟩ := idx7_1 t
  funext a; apply Fin.ext
  match a with
  | ⟨0, _⟩ => show win7_1.index t (0 : Fin 2) * 2048 + 1 * r.val = t.val / 25 * 2048 + r.val; omega
  | ⟨1, _⟩ => show win7_1.index t (1 : Fin 2) * 1 + 1 * 0 = 0; omega

theorem blk7_2 (c : Dev nD) (t : Fin cfg7.N) (r : Fin 2048) :
    iblk7 V c 2 t (ix2 r (0 : Fin 1)) = nrmW7 V c (t.val / 25 * 2048 + r.val) := by
  have : t.val < 9775 := lt_of_lt_of_eq t.isLt N_7
  have hlt : t.val / 25 * 2048 + r.val < 800768 := by have := r.isLt; omega
  unfold nrmW7; dsimp only; rw [dif_pos hlt]
  show (V c main_v39 : S800768x1.Idx → EReal) (((cfg7.win 2).blk t).view.emb (ix2 r (0 : Fin 1))) = _
  refine congrArg (V c main_v39 : S800768x1.Idx → EReal) ?_
  obtain ⟨e0, e1⟩ := idx7_2 t
  funext a; apply Fin.ext
  match a with
  | ⟨0, _⟩ => show win7_2.index t (0 : Fin 2) * 2048 + 1 * r.val = t.val / 25 * 2048 + r.val; omega
  | ⟨1, _⟩ => show win7_2.index t (1 : Fin 2) * 1 + 1 * 0 = 0; omega

/-! ## The accumulator in closed form -/

/-- The accumulator after point t, at (r, q): zero plus the contributions of the blocks 0 … t % 25 to edge row
    (t / 25) * 2048 + r. -/
theorem acc7_eq (c : Dev nD) : ∀ (n : ℕ) (t : Fin cfg7.N), t.val = n → ∀ (r : Fin 2048) (q : Fin 64),
    acc7 V c t.val t.isLt (ix2 r q)
      = accBlocks (0 : EReal) (term7 V c (t.val / 25 * 2048 + r.val) q) (t.val % 25) := by
  intro n
  induction n with
  | zero =>
    intro t ht r q
    have h0 : t.val % 25 = 0 := by rw [ht]
    rw [acc7_first V c t h0, gather7_step_apply, gather7_zero_apply, h0]
    show _ = (0 : EReal) + term7 V c (t.val / 25 * 2048 + r.val) q 0
    refine congrArg ((0 : EReal) + ·) ?_
    unfold term7
    refine Finset.sum_congr rfl fun k _ => ?_
    rw [blk7_1, blk7_0, coords7_1, h0]
  | succ n ih =>
    intro t ht r q
    by_cases h0 : t.val % 25 = 0
    · rw [acc7_first V c t h0, gather7_step_apply, gather7_zero_apply, h0]
      show _ = (0 : EReal) + term7 V c (t.val / 25 * 2048 + r.val) q 0
      refine congrArg ((0 : EReal) + ·) ?_
      unfold term7
      refine Finset.sum_congr rfl fun k _ => ?_
      rw [blk7_1, blk7_0, coords7_1, h0]
    · have hlt : t.val - 1 < cfg7.N := Nat.lt_of_le_of_lt (Nat.sub_le _ _) t.isLt
      have hprev := ih ⟨t.val - 1, hlt⟩ (by show t.val - 1 = n; omega) r q
      have hd : (t.val - 1) / 25 = t.val / 25 := by omega
      have hm : t.val % 25 = (t.val - 1) % 25 + 1 := by omega
      rw [acc7_next V c t h0, gather7_step_apply]
      rw [show acc7 V c (t.val - 1) hlt (ix2 r q) = _ from hprev]
      show _ = accBlocks (0 : EReal) (term7 V c (t.val / 25 * 2048 + r.val) q) (t.val % 25)
      rw [hm]
      show _ = accBlocks (0 : EReal) (term7 V c (t.val / 25 * 2048 + r.val) q) ((t.val - 1) % 25)
          + term7 V c (t.val / 25 * 2048 + r.val) q ((t.val - 1) % 25 + 1)
      show accBlocks (0 : EReal) (term7 V c ((t.val - 1) / 25 * 2048 + r.val) q) ((t.val - 1) % 25) + _ = _
      rw [hd]
      refine congrArg (accBlocks (0 : EReal) (term7 V c (t.val / 25 * 2048 + r.val) q) ((t.val - 1) % 25) + ·) ?_
      unfold term7
      refine Finset.sum_congr rfl fun k _ => ?_
      rw [blk7_1, blk7_0, coords7_1, hm]

/-! ## What a last step writes back, and the cover -/

theorem flushed7_eq (c : Dev nD) (t : Fin cfg7.N) (hf : (cfg7.win 3).flush t = true) :
    (dG c).flushed 3 t = ((cfg7.win 3).blk t).view.read (Elt Ideal) (gathered7 V c) := by
  have h24 : t.val % 25 = 24 := (flush7_3 t).mp hf
  have hN : t.val < 9775 := lt_of_lt_of_eq t.isLt N_7
  show (cfg7.win 3).cut (grid7.coords t) ((dG c).after 3 t) = _
  rw [after7_3]
  funext j
  obtain ⟨r, q, rfl⟩ : ∃ (r : Fin 2048) (q : Fin 64), j = ix2 r q := ⟨j 0, j 1, ValueIdx.eq_ix2 (n0 := 2048) (n1 := 64) j⟩
  show k7_pay3 (F := Ideal) (acc7 V c t.val t.isLt) (iblk7 V c 2 t) (ix2 r q)
      = gathered7 V c (((cfg7.win 3).blk t).view.emb (ix2 r q))
  rw [gather7_final_apply, acc7_eq V c t.val t rfl r q, blk7_2, h24]
  obtain ⟨e0, e1⟩ := idx7_3 t
  have hr : ((((cfg7.win 3).blk t).view.emb (ix2 r q)) 0).val = t.val / 25 * 2048 + r.val := by
    show win7_3.index t (0 : Fin 2) * 2048 + 1 * r.val = _; omega
  have hq : (((cfg7.win 3).blk t).view.emb (ix2 r q)) 1 = q := by
    apply Fin.ext
    show win7_3.index t (1 : Fin 2) * 64 + 1 * q.val = q.val; omega
  unfold gathered7
  rw [hr, hq]

theorem mem_blk7_3 (t : Fin cfg7.N) (i : S800768x64.Idx) :
    i ∈ ((cfg7.win 3).blk t).view.set ↔ ∀ a : Fin 2, win7_3.index t a * S2048x64.size a ≤ (i a).val
      ∧ (i a).val < win7_3.index t a * S2048x64.size a + S2048x64.size a := by
  show i ∈ ((View.whole main_v64).slice (win7_3.rect t)).set ↔ _
  rw [View.set_slice_whole, Rect.mem_set_unit]
  exact Iff.rfl

theorem cover7_3 (i : S800768x64.Idx) :
    ∃ t : Fin cfg7.N, (cfg7.win 3).flush t = true ∧ i ∈ ((cfg7.win 3).blk t).view.set := by
  have hi0 : (i 0).val < 800768 := (i 0).isLt
  have hi1 : (i 1).val < 64 := (i 1).isLt
  have hN : cfg7.N = 9775 := N_7
  let t : Fin cfg7.N := ⟨(i 0).val / 2048 * 25 + 24, by rw [hN]; omega⟩
  have htv : t.val = (i 0).val / 2048 * 25 + 24 := rfl
  refine ⟨t, (flush7_3 t).mpr (by rw [htv]; omega), ?_⟩
  rw [mem_blk7_3]
  obtain ⟨e0, e1⟩ := idx7_3 t
  intro a
  match a with
  | ⟨0, _⟩ =>
    show win7_3.index t (0 : Fin 2) * 2048 ≤ (i 0).val ∧ (i 0).val < win7_3.index t (0 : Fin 2) * 2048 + 2048
    rw [e0, htv]; omega
  | ⟨1, _⟩ =>
    show win7_3.index t (1 : Fin 2) * 64 ≤ (i 1).val ∧ (i 1).val < win7_3.index t (1 : Fin 2) * 64 + 64
    rw [e1]; omega

/-- THE OUTPUT ARRAY after the region. -/
theorem final7 (c : Dev nD) : (dG c).arrAt 3 cfg7.N = gathered7 V c :=
  (dG c).arrAt_eq_of_cover 3 (gathered7 V c) (fun t hf => flushed7_eq V c t hf) cover7_3

/-- The same, entry by entry, as the layer's message sum. -/
theorem gatherOut7_apply (c : Dev nD) (e : Fin 800768) (q : Fin 64) :
    (dG c).arrAt 3 cfg7.N (ix2 e q)
      = Cert.Layer.msgK (srcW7 V c) (nrmW7 V c) (tblH7 V c) e.val q := by
  rw [final7]; rfl

end Value

end Cert.KernelIdeal.Hand

end
-- ==== Proof.Scat8Closed.lean ====
import proofs.«104867_j4217657884863_1_alg».proof.Proof.Scat8Dat
import proofs.«104867_j4217657884863_1_alg».proof.Proof.ScatLib
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8: what each case leaves, in closed form

Every load and store of the body moves a whole block, so what a case leaves in the accumulator (and, at a row's last
step, in the output block) is the step's payload applied to the two input blocks and to what the accumulator held:
the zero block at a row's first step, what the step before left otherwise. At any float instance. -/

open Cert.Lib.WholeBlock

section Closed

/-- A first step leaves the step's payload over the zero block. -/
theorem sout8_A_eq (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : cond8_0 i) (hc1 : ¬cond8_1 i)
    (x0 : Vec F S2048x64 .f32) (x1 : Vec F S1x2048 .i32) :
    sout8_A (Ix := Ix) (U := U) (Lvl := Lvl) c i arg2 harg2 arg3 harg3 arg4 harg4 arg5 harg5 hc0 hc1 x0 x1 = k8_pay2 i x1 x0 k8_pay1 := by
  unfold sout8_A kernelRun8_A
  dsimp only
  rw [read_writes_cons_unit_zero _ _ zero2, readAt_unit_zero_unread harg3 zero2, readAt_unit_zero_unread harg2 zero2]
  sl_unfold_run_names
  rw [View.readCov_unit_zero _ zero2]

/-- A middle step leaves the step's payload over what the accumulator held. -/
theorem sout8_B_eq (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : ¬cond8_1 i)
    (x0 : Vec F S2048x64 .f32) (x1 : Vec F S1x2048 .i32) (xs0 : Vec F S2048x64 .f32) :
    sout8_B (Ix := Ix) (U := U) (Lvl := Lvl) c i arg2 harg2 arg3 harg3 arg4 harg4 arg5 harg5 hc0 hc1 x0 x1 xs0 = k8_pay2 i x1 x0 xs0 := by
  unfold sout8_B kernelRun8_B
  dsimp only
  rw [read_writes_cons_unit_zero _ _ zero2, readAt_unit_zero_unread harg3 zero2, readAt_unit_zero_unread harg2 zero2,
    readAt_unit_zero_unread harg5 zero2]

/-- A last step leaves the same in the accumulator, -/
theorem sout8_C_eq (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) :
    sout8_C (Ix := Ix) (U := U) (Lvl := Lvl) c i arg2 harg2 arg3 harg3 arg4 harg4 arg5 harg5 hc0 hc1 x0 x1 xs0 = k8_pay2 i x1 x0 xs0 := by
  unfold sout8_C kernelRun8_C
  dsimp only
  sl_unfold_run_names
  rw [read_writes_cons_unit_zero _ _ zero2, readAt_unit_zero_unread harg3 zero2, readAt_unit_zero_unread harg2 zero2,
    readAt_unit_zero_unread harg5 zero2]

/-- and stores that very block into the output's buffer. -/
theorem out8_C_eq (c : Dev nD) (i : grid8.Coords) (arg2 : Memref sig .tc .vmem S2048x64 .f32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (hc0 : ¬cond8_0 i) (hc1 : cond8_1 i)
    (x0 : Vec F S2048x64 .f32) (x1 : Vec F S1x2048 .i32) (xs0 : Vec F S2048x64 .f32) :
    out8_C (Ix := Ix) (U := U) (Lvl := Lvl) c i arg2 harg2 arg3 harg3 arg4 harg4 arg5 harg5 hc0 hc1 x0 x1 xs0 = k8_pay2 i x1 x0 xs0 := by
  unfold out8_C kernelRun8_C
  dsimp only
  rw [read_writes_cons_unit_zero _ _ zero2]
  sl_unfold_run_names
  rw [View.readCov_unit_zero _ zero2, readAt_unit_zero_unread harg3 zero2, readAt_unit_zero_unread harg2 zero2,
    readAt_unit_zero_unread harg5 zero2]

end Closed

section Acc

variable (V : Dev nD → Valuation τ sig (Elt F))

/-- THE RECURSION in closed form. At a row's first step the accumulator is the step's payload over the zero block, -/
theorem accAt8_first (c : Dev nD) (t : Fin cfg8.N) (h0 : t.val % 391 = 0) :
    accAt8 (Ix := Ix) (U := U) (Lvl := Lvl) V c t.val t.isLt = k8_pay2 (grid8.coords t) (iblk8 V c 1 t) (iblk8 V c 0 t) k8_pay1 := by
  have h1 : ¬t.val % 391 = 390 := by omega
  rw [accAt8_A V c t h0 h1, sout8_A_eq]
/-- at any other step the step's payload over what the step before left, -/
theorem accAt8_step (c : Dev nD) (t : Fin cfg8.N) (h0 : ¬t.val % 391 = 0) :
    accAt8 (Ix := Ix) (U := U) (Lvl := Lvl) V c t.val t.isLt = k8_pay2 (grid8.coords t) (iblk8 V c 1 t) (iblk8 V c 0 t)
      (accAt8 (Ix := Ix) (U := U) (Lvl := Lvl) V c (t.val - 1) (Nat.lt_of_le_of_lt (Nat.sub_le _ _) t.isLt)) := by
  by_cases h1 : t.val % 391 = 390
  · rw [accAt8_C V c t h0 h1, sout8_C_eq]
  · rw [accAt8_B V c t h0 h1, sout8_B_eq]
/-- and at a row's last step the output's buffer is left holding the accumulator. -/
theorem outAt8_last (c : Dev nD) (t : Fin cfg8.N) (h1 : t.val % 391 = 390) :
    outAt8 (Ix := Ix) (U := U) (Lvl := Lvl) V c t = accAt8 (Ix := Ix) (U := U) (Lvl := Lvl) V c t.val t.isLt := by
  have h0 : ¬t.val % 391 = 0 := by omega
  rw [outAt8_C V c t h0 h1, out8_C_eq, accAt8_C V c t h0 h1, sout8_C_eq]

end Acc

end Cert.KernelIdeal.Hand

end
-- ==== Proof.Scat8Blk.lean ====
import proofs.«104867_j4217657884863_1_alg».proof.Proof.Scat8Closed
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8: where a block's element sits in its array

Point `t` of the 25 × 391 grid is node block `t / 391`, edge block `t % 391`. The message window's block there is rows
`(t % 391)·2048 …` of the message array, the target row's block is entries `(t % 391)·2048 …` of the target row, and
the output's block is rows `(t / 391)·2048 …` of the output array. -/

open Idealize.ShloMosaic.ValueIdx

/-- The windows' block indices and the first grid coordinate, in closed form. -/
theorem hix8_0 : ∀ t : Fin cfg8.N, win8_0.index t 0 = t.val % 391 ∧ win8_0.index t 1 = 0 :=
  (by decide +kernel : ∀ t : Fin grid8.N, win8_0.index t 0 = t.val % 391 ∧ win8_0.index t 1 = 0)
theorem hix8_1 : ∀ t : Fin cfg8.N, win8_1.index t 0 = 0 ∧ win8_1.index t 1 = t.val % 391 :=
  (by decide +kernel : ∀ t : Fin grid8.N, win8_1.index t 0 = 0 ∧ win8_1.index t 1 = t.val % 391)
theorem hix8_2 : ∀ t : Fin cfg8.N, win8_2.index t 0 = t.val / 391 ∧ win8_2.index t 1 = 0 :=
  (by decide +kernel : ∀ t : Fin grid8.N, win8_2.index t 0 = t.val / 391 ∧ win8_2.index t 1 = 0)
theorem hco8 : ∀ t : Fin cfg8.N, ((grid8.coords t) 0).val = t.val / 391 :=
  (by decide +kernel : ∀ t : Fin grid8.N, ((grid8.coords t) 0).val = t.val / 391)

section Blocks

variable (V : Dev nD → Valuation τ sig (Elt F))

/-- The message block at point `t`: entry `(e, q)` is row `(t % 391)·2048 + e`, column `q` of the message array. -/
theorem iblk8_0_apply (c : Dev nD) (t : Fin cfg8.N) (e : Fin 2048) (q : Fin 64) (k : S800768x64.Idx)
    (hk0 : (k 0).val = (t.val % 391) * 2048 + e.val) (hk1 : (k 1).val = q.val) :
    (iblk8 V c 0 t : Vec F S2048x64 .f32) (ix2 e q) = (V c main_v64 : S800768x64.Idx → Elt F .f32) k := by
  unfold iblk8
  rw [View.read_apply]
  show V c (Proc.devRef .tc main_v64) _ = V c (Proc.devRef .tc main_v64) _
  congr 1
  funext a
  apply Fin.ext
  match a with
  | ⟨0, _⟩ => show win8_0.index t 0 * 2048 + 1 * e.val = (k 0).val; rw [(hix8_0 t).1, hk0]; omega
  | ⟨1, _⟩ => show win8_0.index t 1 * 64 + 1 * q.val = (k 1).val; rw [(hix8_0 t).2, hk1]; omega

/-- The target row's block at point `t`: entry `e` is entry `(t % 391)·2048 + e` of the target row. -/
theorem iblk8_1_apply (c : Dev nD) (t : Fin cfg8.N) (e : Fin 2048) (k : S1x800768.Idx)
    (hk0 : (k 0).val = 0) (hk1 : (k 1).val = (t.val % 391) * 2048 + e.val) :
    (iblk8 V c 1 t : Vec F S1x2048 .i32) (ix2 (0 : Fin 1) e) = (V c main_v40 : S1x800768.Idx → Elt F .i32) k := by
  unfold iblk8
  rw [View.read_apply]
  show V c (Proc.devRef .tc main_v40) _ = V c (Proc.devRef .tc main_v40) _
  congr 1
  funext a
  apply Fin.ext
  match a with
  | ⟨0, _⟩ => show win8_1.index t 0 * 1 + 1 * 0 = (k 0).val; rw [(hix8_1 t).1, hk0]
  | ⟨1, _⟩ => show win8_1.index t 1 * 2048 + 1 * e.val = (k 1).val; rw [(hix8_1 t).2, hk1]; omega

end Blocks

end Cert.KernelIdeal.Hand

end
-- ==== Proof.Scat8Acc.lean ====
import proofs.«104867_j4217657884863_1_alg».proof.Proof.Scat8Blk
import proofs.«104867_j4217657884863_1_alg».proof.Proof.PayloadIdeal
import proofs.«104867_j4217657884863_1_alg».proof.Proof.LayerMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8, exact instance: the accumulator is the block-by-block aggregate

At the exact instance one step adds, at row `r` and column `q`, the one-hot row of node `(t / 391)·2048 + r` against the
2048 target words of edge block `t % 391`, times column `q` of that block's messages. So after edge block `eb` of node
block `nb` the accumulator holds, from zero, the sum of those terms over the edge blocks `0 … eb`. -/

open Idealize.ShloMosaic.ValueIdx Cert.Lib.OneHot Cert.KernelIdeal.Payload

section Acc

variable (V : Dev nD → Valuation τ sig (Elt Ideal))

/-- The target row and the messages as total functions of the edge number (anything past the arrays' extent: zero). -/
def dstp8 (c : Dev nD) (e' : ℕ) : BitVec 32 :=
  if h : e' < 800768 then (V c main_v40 : S1x800768.Idx → Elt Ideal .i32) (ix2 (0 : Fin 1) ⟨e', h⟩) else 0#32
def msgp8 (c : Dev nD) (e' : ℕ) (q' : Fin 64) : EReal :=
  if h : e' < 800768 then (V c main_v64 : S800768x64.Idx → Elt Ideal .f32) (ix2 ⟨e', h⟩ q') else 0

/-- One edge block's contribution to node `n`, column `q`. -/
def term8 (c : Dev nD) (n : ℕ) (q : Fin 64) (b : ℕ) : EReal :=
  ∑ k : Fin 2048, hot (BitVec.ofNat 32 n) (dstp8 V c (b * 2048 + k.val)) * msgp8 V c (b * 2048 + k.val) q

/-- ONE STEP at point `t`, read at `(r, q)`: what the accumulator held there plus this edge block's contribution. -/
theorem step8_apply (c : Dev nD) (t : Fin cfg8.N) (acc : Vec Ideal S2048x64 .f32) (r : Fin 2048) (q : Fin 64) :
    k8_pay2 (F := Ideal) (grid8.coords t) (iblk8 V c 1 t) (iblk8 V c 0 t) acc (ix2 r q)
      = acc (ix2 r q) + term8 V c ((t.val / 391) * 2048 + r.val) q (t.val % 391) := by
  rw [scatter8_step_apply, hco8 t]
  refine congrArg (acc (ix2 r q) + ·) ?_
  unfold term8
  refine Finset.sum_congr rfl fun k _ => ?_
  have hlt : (t.val % 391) * 2048 + k.val < 800768 := by
    have h1 := Nat.mod_lt t.val (show 0 < 391 by decide); have h2 := k.isLt; omega
  rw [iblk8_1_apply V c t k (ix2 (0 : Fin 1) ⟨_, hlt⟩) rfl rfl, iblk8_0_apply V c t k q (ix2 ⟨_, hlt⟩ q) rfl rfl]
  unfold dstp8 msgp8
  rw [dif_pos hlt, dif_pos hlt]

/-- THE ACCUMULATOR at a point of edge block `eb`, read at `(r, q)`: from zero, the contributions of edge blocks
    `0 … eb` to node `(t / 391)·2048 + r`. By induction on the edge block. -/
theorem acc8_apply (c : Dev nD) (r : Fin 2048) (q : Fin 64) : ∀ (eb : ℕ) (t : Fin cfg8.N), t.val % 391 = eb →
    accAt8 (Ix := Unit) (U := UR sig nD τ) (Lvl := ℕ) V c t.val t.isLt (ix2 r q)
      = accBlocks (0 : EReal) (term8 V c ((t.val / 391) * 2048 + r.val) q) eb
  | 0, t, h => by
    rw [accAt8_first V c t h, step8_apply, scatter8_zero_apply, h]
    rfl
  | eb + 1, t, h => by
    have h0 : ¬t.val % 391 = 0 := by omega
    rw [accAt8_step V c t h0, step8_apply]
    have ih := acc8_apply c r q eb ⟨t.val - 1, Nat.lt_of_le_of_lt (Nat.sub_le _ _) t.isLt⟩ (by show (t.val - 1) % 391 = eb; omega)
    have hd : (t.val - 1) / 391 = t.val / 391 := by omega
    rw [show accAt8 (Ix := Unit) (U := UR sig nD τ) (Lvl := ℕ) V c (t.val - 1) (Nat.lt_of_le_of_lt (Nat.sub_le _ _) t.isLt) (ix2 r q)
        = accBlocks (0 : EReal) (term8 V c ((t.val / 391) * 2048 + r.val) q) eb from by rw [← hd]; exact ih, h]
    rfl

end Acc

end Cert.KernelIdeal.Hand

end
-- ==== Proof.Scat8Out.lean ====
import proofs.«104867_j4217657884863_1_alg».proof.Proof.Scat8Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]
variable {Ix : Type} [DecidableEq Ix] {U : Type} [URA U] {Lvl : Type} [Preorder Lvl]

local notation "𝕄" => MT nD τ sig Ix (Elt F) ℕ U Lvl

/-! # Scatter kernel, pipeline 8, exact instance: the output array

The output's block of node block `nb` is written back once, at the last edge block, holding the accumulator: rows
`nb·2048 …` of the aggregate. The 25 node blocks tile the 51200 rows, so the array ends holding the aggregate. -/

open Idealize.ShloMosaic.ValueIdx Cert.Lib.OneHot Cert.KernelIdeal.Payload

section Out

variable (V : Dev nD → Valuation τ sig (Elt Ideal))

/-- The aggregate as one function of the output array's index. -/
def G8 (c : Dev nD) : S51200x64.Idx → EReal :=
  fun j => Cert.Layer.aggK (dstp8 V c) (msgp8 V c) (j 0).val (j 1)

/-- The aggregate is the accumulation over all 391 edge blocks. -/
theorem agg8_eq (c : Dev nD) (n : ℕ) (q : Fin 64) :
    Cert.Layer.aggK (dstp8 V c) (msgp8 V c) n q = accBlocks (0 : EReal) (term8 V c n q) 390 := rfl

/-- What a write-back writes is its block of the aggregate. -/
theorem flushed8_eq (c : Dev nD) (t : Fin cfg8.N) (hf : (cfg8.win 2).flush t = true) :
    (datS8 (Ix := Unit) (U := UR sig nD τ) (Lvl := ℕ) V c).flushed 2 t = ((cfg8.win 2).blk t).view.read (Elt Ideal) (G8 V c) := by
  have h1 : t.val % 391 = 390 := (flush8_2 t).mp hf
  show (cfg8.win 2).cut (grid8.coords t) ((datS8 (Ix := Unit) (U := UR sig nD τ) (Lvl := ℕ) V c).after 2 t) = _
  rw [after8_2, outAt8_last V c t h1]
  funext x
  have e0 : ((((cfg8.win 2).blk t).view.emb x) 0).val = (t.val / 391) * 2048 + (x 0).val := by
    show win8_2.index t 0 * 2048 + 1 * (x 0).val = _; rw [(hix8_2 t).1]; omega
  have e1 : (((cfg8.win 2).blk t).view.emb x) 1 = x 1 :=
    Fin.ext (by show win8_2.index t 1 * 64 + 1 * (x 1).val = (x 1).val; rw [(hix8_2 t).2]; omega)
  have hcut : (cfg8.win 2).cut (grid8.coords t) (accAt8 (Ix := Unit) (U := UR sig nD τ) (Lvl := ℕ) V c t.val t.isLt) x
      = accAt8 (Ix := Unit) (U := UR sig nD τ) (Lvl := ℕ) V c t.val t.isLt (ix2 (x 0) (x 1)) := by
    show accAt8 (Ix := Unit) (U := UR sig nD τ) (Lvl := ℕ) V c t.val t.isLt ((cfg8.win 2).xinj (grid8.coords t) x) = _
    congr 1
    funext a
    match a with
    | ⟨0, _⟩ => rfl
    | ⟨1, _⟩ => rfl
  rw [hcut, acc8_apply V c (x 0) (x 1) 390 t h1, View.read_apply]
  show _ = G8 V c _
  unfold G8
  exact (congrArg₂ (fun (n : ℕ) (q' : Fin 64) => accBlocks (0 : EReal) (term8 V c n q') 390) e0.symm e1.symm).trans
    (agg8_eq V c _ _).symm

/-- Every row of the output array lies in the block written back at the last point of its node block. -/
theorem cover8 (c : Dev nD) (i : S51200x64.Idx) :
    ∃ t : Fin cfg8.N, (cfg8.win 2).flush t = true ∧ i ∈ ((cfg8.win 2).blk t).view.set := by
  have hi0 : (i 0).val < 51200 := idx2_lt0 i
  have hi1 : (i 1).val < 64 := idx2_lt1 i
  have hN : cfg8.N = 9775 := N_8
  have ht : ((i 0).val / 2048) * 391 + 390 < cfg8.N := by rw [hN]; omega
  refine ⟨⟨((i 0).val / 2048) * 391 + 390, ht⟩, (flush8_2 _).mpr (by show (((i 0).val / 2048) * 391 + 390) % 391 = 390; omega), ?_⟩
  show i ∈ ((View.whole main_v65).slice (win8_2.rect ⟨((i 0).val / 2048) * 391 + 390, ht⟩)).set
  rw [View.set_slice_whole, Rect.mem_set_unit]
  intro a
  have hd : (((i 0).val / 2048) * 391 + 390) / 391 = (i 0).val / 2048 := by omega
  match a with
  | ⟨0, _⟩ =>
    show win8_2.index ⟨((i 0).val / 2048) * 391 + 390, ht⟩ 0 * 2048 ≤ (i 0 : Nat) ∧ (i 0 : Nat) < win8_2.index ⟨((i 0).val / 2048) * 391 + 390, ht⟩ 0 * 2048 + 2048
    rw [(hix8_2 ⟨_, ht⟩).1, hd]; omega
  | ⟨1, _⟩ =>
    show win8_2.index ⟨((i 0).val / 2048) * 391 + 390, ht⟩ 1 * 64 ≤ (i 1 : Nat) ∧ (i 1 : Nat) < win8_2.index ⟨((i 0).val / 2048) * 391 + 390, ht⟩ 1 * 64 + 64
    rw [(hix8_2 ⟨_, ht⟩).2]; omega

/-- THE OUTPUT ARRAY after the region: the aggregate, entry by entry. -/
theorem scatterOut8_apply (c : Dev nD) (n : Fin 51200) (q : Fin 64) :
    (datS8 (Ix := Unit) (U := UR sig nD τ) (Lvl := ℕ) V c).arrAt 2 cfg8.N (ix2 n q)
      = Cert.Layer.aggK (fun e' => if h : e' < 800768 then (V c main_v40 : S1x800768.Idx → Elt Ideal .i32) (ix2 (0 : Fin 1) ⟨e', h⟩) else 0#32)
          (fun e' q' => if h : e' < 800768 then (V c main_v64 : S800768x64.Idx → Elt Ideal .f32) (ix2 ⟨e', h⟩ q') else 0) n.val q := by
  rw [(datS8 (Ix := Unit) (U := UR sig nD τ) (Lvl := ℕ) V c).arrAt_eq_of_cover 2 (G8 V c) (flushed8_eq V c) (cover8 c)]
  rfl

end Out

end Cert.KernelIdeal.Hand

end
-- ==== Proof.KChain3.lean ====
import proofs.«104867_j4217657884863_1_alg».proof.Proof.KChain2
import proofs.«104867_j4217657884863_1_alg».proof.Proof.LinVal6
import proofs.«104867_j4217657884863_1_alg».proof.Proof.G7Value
import proofs.«104867_j4217657884863_1_alg».proof.Proof.Scat8Region
import proofs.«104867_j4217657884863_1_alg».proof.Proof.KLayerGlue
import proofs.«104867_j4217657884863_1_alg».proof.Proof.Scat8Out
import proofs.«104867_j4217657884863_1_alg».proof.Proof.KArrays
import proofs.«104867_j4217657884863_1_alg».proof.Proof.KCarry
import proofs.«104867_j4217657884863_1_alg».proof.Proof.KLayer

/-!
# Layer 3 of the kernel program as the layer function

The three regions of the layer leave, in turn, the dense product of the previous layer's output, the weighted one-hot
gather of its rows, and the one-hot sum of those messages by target; the host tail adds the self term and the bias and
applies the rectifier. The columns of sources and weights, the row of targets and the padded degrees are never
overwritten, so every region and the tail read them as they were before the first region.
-/

set_option maxRecDepth 4096

noncomputable section

namespace Cert.KernelIdeal.Chain

open Idealize.ShloMosaic Idealize.ShloMosaic.TcCoe Idealize.ShloMosaic.ValueIdx Idealize.SL.Sem
open Cert.KernelIdeal Cert.KernelIdeal.Gen Cert.KernelIdeal.Hand Cert.KernelIdeal.Glue Cert.Layer

variable (m : (ℓ : Loc nD τ sig) → Buf (Elt Ideal) ℓ) (c : Dev nD)

/-- The gather region's proof data of the layer, entered from the valuation the linear region leaves. -/
abbrev D7 := datG7 (F := Ideal) (Ix := Unit) (U := UR sig nD τ) (Lvl := ℕ) (W22 m (D1 m) (D2 m) (D4 m) (D5 m))
/-- The scatter region's proof data of the layer, entered from the valuation the gather region leaves. -/
abbrev D8 := datS8 (F := Ideal) (Ix := Unit) (U := UR sig nD τ) (Lvl := ℕ) (W23 m (D1 m) (D2 m) (D4 m) (D5 m) (D7 m))

abbrev linOut3 : S51200x64.Idx → EReal := (datL6 (F := Ideal) (Ix := Unit) (U := UR sig nD τ) (Lvl := ℕ) (W21 m (D1 m) (D2 m) (D4 m) (D5 m)) c).arrAt 2 cfg6.N
abbrev gOut3 : S800768x64.Idx → EReal := (D7 m c).arrAt 3 cfg7.N
abbrev sOut3 : S51200x64.Idx → EReal := (D8 m c).arrAt 2 cfg8.N
abbrev tail3 : S51200x64.Idx → EReal := (StableHlo.after hostOps9_1 (StableHlo.after hostOps9 (W24 m (D1 m) (D2 m) (D4 m) (D5 m) (D7 m) (D8 m) c))) main_v73

/-- What the gather region reads: the product array the linear region left, and the source and weight columns. -/
theorem carry3l_out : (W22 m (D1 m) (D2 m) (D4 m) (D5 m) c main_v63 : S51200x64.Idx → EReal) = linOut3 m c := by
  unfold W22 VoutL6
  exact Function.update_self _ _ _
theorem carry3l_v38 : (W22 m (D1 m) (D2 m) (D4 m) (D5 m) c main_v38 : S800768x1.Idx → BitVec 32) = srcC m c :=
  (W22_keep' m (D1 m) (D2 m) (D4 m) (D5 m) c main_v38 (by decide)).trans ((W21_keep' m (D1 m) (D2 m) (D4 m) (D5 m) c main_v38 (by decide) (by decide) (by decide) (by decide) (by decide)).trans (W16_keep m (D1 m) (D2 m) c main_v38 (by decide) (by decide) (by decide) (by decide) (by decide)))
theorem carry3l_v39 : (W22 m (D1 m) (D2 m) (D4 m) (D5 m) c main_v39 : S800768x1.Idx → EReal) = normC m c :=
  (W22_keep' m (D1 m) (D2 m) (D4 m) (D5 m) c main_v39 (by decide)).trans ((W21_keep' m (D1 m) (D2 m) (D4 m) (D5 m) c main_v39 (by decide) (by decide) (by decide) (by decide) (by decide)).trans (W16_keep m (D1 m) (D2 m) c main_v39 (by decide) (by decide) (by decide) (by decide) (by decide)))

/-- What the scatter region reads: the message array the gather region left, and the target row. -/
theorem carry3g_out : (W23 m (D1 m) (D2 m) (D4 m) (D5 m) (D7 m) c main_v64 : S800768x64.Idx → EReal) = gOut3 m c := by
  unfold W23
  exact Function.update_self _ _ _
theorem carry3g_v40 : (W23 m (D1 m) (D2 m) (D4 m) (D5 m) (D7 m) c main_v40 : S1x800768.Idx → BitVec 32) = dstR m c :=
  (W23_keep' m (D1 m) (D2 m) (D4 m) (D5 m) (D7 m) c main_v40 (by decide) (by decide)).trans ((W21_keep' m (D1 m) (D2 m) (D4 m) (D5 m) c main_v40 (by decide) (by decide) (by decide) (by decide) (by decide)).trans (W16_keep m (D1 m) (D2 m) c main_v40 (by decide) (by decide) (by decide) (by decide) (by decide)))

/-- The gather region's array in the glue's terms. -/
theorem gOut3_apply (e : Fin 800768) (q : Fin 64) :
    gOut3 m c (ix2 e q) = msgK (extColW (srcC m c)) (extColR (normC m c)) (ext2 (linOut3 m c)) e.val q := by
  have h := gatherOut7_apply (Ix := Unit) (U := UR sig nD τ) (Lvl := ℕ) (W22 m (D1 m) (D2 m) (D4 m) (D5 m)) c e q
  have e1 : srcW7 (W22 m (D1 m) (D2 m) (D4 m) (D5 m)) c = extColW (srcC m c) := by
    funext e'; unfold srcW7 extColW; rw [carry3l_v38]
  have e2 : nrmW7 (W22 m (D1 m) (D2 m) (D4 m) (D5 m)) c = extColR (normC m c) := by
    funext e'; unfold nrmW7 extColR; rw [carry3l_v39]
  have e3 : tblH7 (W22 m (D1 m) (D2 m) (D4 m) (D5 m)) c = ext2 (linOut3 m c) := by
    funext n' q'; unfold tblH7 ext2; rw [carry3l_out]
  rw [e1, e2, e3] at h
  exact h

/-- The weight the layer reads is the argument as launched. -/
theorem w3_eq : (W21 m (D1 m) (D2 m) (D4 m) (D5 m) c main_arg7 : S64x64.Idx → EReal) = aW3 m c :=
  ((W21_keep' m (D1 m) (D2 m) (D4 m) (D5 m) c main_arg7 (by decide) (by decide) (by decide) (by decide) (by decide)).trans (W16_keep m (D1 m) (D2 m) c main_arg7 (by decide) (by decide) (by decide) (by decide) (by decide))).trans (V11_keep m c main_arg7 (by decide) (by decide) (by decide) (by decide) (by decide) (by decide) (by decide) (by decide) (by decide) (by decide) (by decide))

/-- What the host tail reads: the aggregate the scatter region left, the product the linear region left, the padded
    degrees and the bias. -/
theorem carry3s_out : (W24 m (D1 m) (D2 m) (D4 m) (D5 m) (D7 m) (D8 m) c main_v65 : S51200x64.Idx → EReal) = sOut3 m c := by
  unfold W24
  exact Function.update_self _ _ _
theorem carry3s_lin : (W24 m (D1 m) (D2 m) (D4 m) (D5 m) (D7 m) (D8 m) c main_v63 : S51200x64.Idx → EReal) = linOut3 m c := by
  unfold W24 W23
  rw [Function.update_of_ne (by decide), Function.update_of_ne (by decide)]
  exact carry3l_out m c
theorem carry3s_v37 : (W24 m (D1 m) (D2 m) (D4 m) (D5 m) (D7 m) (D8 m) c main_v37 : S51200.Idx → EReal) = d2V m c :=
  (W24_keep' m (D1 m) (D2 m) (D4 m) (D5 m) (D7 m) (D8 m) c main_v37 (by decide) (by decide) (by decide)).trans ((W21_keep' m (D1 m) (D2 m) (D4 m) (D5 m) c main_v37 (by decide) (by decide) (by decide) (by decide) (by decide)).trans (W16_keep m (D1 m) (D2 m) c main_v37 (by decide) (by decide) (by decide) (by decide) (by decide)))
theorem carry3s_bias : (W24 m (D1 m) (D2 m) (D4 m) (D5 m) (D7 m) (D8 m) c main_arg8 : S64.Idx → EReal) = ab3 m c :=
  (W24_keep' m (D1 m) (D2 m) (D4 m) (D5 m) (D7 m) (D8 m) c main_arg8 (by decide) (by decide) (by decide)).trans (((W21_keep' m (D1 m) (D2 m) (D4 m) (D5 m) c main_arg8 (by decide) (by decide) (by decide) (by decide) (by decide)).trans (W16_keep m (D1 m) (D2 m) c main_arg8 (by decide) (by decide) (by decide) (by decide) (by decide))).trans (V11_keep m c main_arg8 (by decide) (by decide) (by decide) (by decide) (by decide) (by decide) (by decide) (by decide) (by decide) (by decide) (by decide)))

/-- The tail's array at node `n`, feature `q`: the aggregate plus the self term plus the bias, rectified. -/
theorem tail3_apply (n : Fin 51200) (q : Fin 64) :
    tail3 m c (ix2 n q) = max ((sOut3 m c (ix2 n q) + linOut3 m c (ix2 n q) * d2V m c (ix1 n)) + ab3 m c (ix1 q)) 0 := by
  show ((StableHlo.after hostOps9_1 (StableHlo.after hostOps9 (W24 m (D1 m) (D2 m) (D4 m) (D5 m) (D7 m) (D8 m) c))) main_v73 : S51200x64.Idx → EReal) (ix2 n q) = _
  rw [Cert.KernelIdeal.HostK.tail9_apply, Cert.KernelIdeal.HostK.tailAt_def, carry3s_out, carry3s_lin, carry3s_v37, carry3s_bias]

/-- The product array in the glue's terms: rows of the previous layer's output times the weight as launched. -/
theorem linOut3_apply (n : Fin 51200) (q : Fin 64) :
    linOut3 m c (ix2 n q) = ∑ k : Fin 64, tail2 m c (ix2 n k) * aW3 m c (ix2 k q) := by
  have h := linOut6_apply (Ix := Unit) (U := UR sig nD τ) (Lvl := ℕ) (W21 m (D1 m) (D2 m) (D4 m) (D5 m)) c n q
  rw [show arrW6 (W21 m (D1 m) (D2 m) (D4 m) (D5 m)) c = aW3 m c from w3_eq m c] at h
  exact h

/-- LAYER 3 of the kernel program is the layer function on the previous layer's output, given that the scatter
    region's array is the one-hot sum of the messages by target. -/
theorem klayer3_of
    (hs : ∀ (n : Fin 51200) (q : Fin 64), sOut3 m c (ix2 n q) = aggK (extRowW (dstR m c)) (extE (gOut3 m c)) n.val q)
    (n : Fin 51200) (q : Fin 64) :
    tail3 m c (ix2 n q) = layerK (fun k q => aW3 m c (ix2 k q)) (fun q => ab3 m c (ix1 q)) (extColW (srcC m c)) (extRowW (dstR m c))
      (extColR (normC m c)) (ext1 (d2V m c)) (ext2 (tail2 m c)) n.val q :=
  kernel_layer (tail2 m c) (linOut3 m c) (sOut3 m c) (tail3 m c) (gOut3 m c) (aW3 m c) (ab3 m c) (srcC m c) (normC m c) (dstR m c) (d2V m c)
    (linOut3_apply m c) (gOut3_apply m c) hs (tail3_apply m c) n q

/-- The scatter region's array in the glue's terms: the one-hot sum of the messages by target. -/
theorem sOut3_apply (n : Fin 51200) (q : Fin 64) :
    sOut3 m c (ix2 n q) = aggK (extRowW (dstR m c)) (extE (gOut3 m c)) n.val q := by
  have h := scatterOut8_apply (W23 m (D1 m) (D2 m) (D4 m) (D5 m) (D7 m)) c n q
  rw [carry3g_v40, carry3g_out] at h
  exact h

/-- LAYER 3 of the kernel program is the layer function on the previous layer's output. -/
theorem klayer3 (n : Fin 51200) (q : Fin 64) :
    tail3 m c (ix2 n q) = layerK (fun k q => aW3 m c (ix2 k q)) (fun q => ab3 m c (ix1 q)) (extColW (srcC m c)) (extRowW (dstR m c))
      (extColR (normC m c)) (ext1 (d2V m c)) (ext2 (tail2 m c)) n.val q :=
  klayer3_of m c (sOut3_apply m c) n q

end Cert.KernelIdeal.Chain

end
-- ==== Proof.KPrep.lean ====
/-
  The kernel program's host operations before the first kernel region, read at an index.

  The program slices the edge list into its source and destination rows, pads the node features, the two index
  vectors, the edge weights and the squared inverse root degrees to the tile multiples (51200 nodes, 800768 edges),
  and reshapes the padded vectors to a column or a row. Each padded operand at an index is the unpadded array there
  when the index is inside it, and the pad value (zero) otherwise.
-/
import proofs.«104867_j4217657884863_1_alg».proof.Proof.Gen.KernelIdeal.Regions
import Idealize.ShloMosaic.Lib.ValueIdx
import Idealize.ShloMosaic.Lib.ValueLayout
import Idealize.ShloMosaic.Lib.Pipeline.Value
import Idealize.ShloMosaic.Lib.KernelVsHost
import proofs.«104867_j4217657884863_1_alg».proof.Proof.LibLayoutColumn

set_option maxRecDepth 1352

noncomputable section

namespace Cert.KernelIdeal.HostK

open Cert.KernelIdeal Cert.KernelIdeal.Gen Idealize.ShloMosaic Idealize.ShloMosaic.ValueIdx
open Idealize.ShloMosaic.TcCoe

variable (m : (ℓ : Loc nD τ sig) → Buf (Elt Ideal) ℓ) (outs : Outs (F := Ideal)) (c : Dev nD)

/-! ## A flattened row of a two-row array, and a pad behind the operand, read at an index -/

/-- Row `r` of a two-row array, cut out and flattened, at entry `e`. -/
theorem row_of_two_apply {α : Type} (r : Fin 2) (x : (⟨2, ![2, 800000]⟩ : Shape).Idx → α)
    (hs : S2x800000.Slices ![r.val, 0] S1x800000) (hc : S1x800000.ShapeCasts S800000) (e : Fin 800000) :
    shapeCast S800000 (extractStridedSlice S1x800000 ![r.val, 0] x hs) hc (ix1 e) = x (ix2 r e) := by
  refine (shapeCast_1a_a_apply _ hc e).trans ?_
  refine extractStridedSlice_apply _ x hs (ix2 (0 : Fin 1) e) (ix2 r e) ?_
  intro a
  match a with
  | ⟨0, _⟩ => show r.val = r.val + 0; omega
  | ⟨1, _⟩ => show e.val = 0 + e.val; omega

/-- A two-axis array padded behind its rows only: inside the operand's rows the operand, below them the pad value. -/
theorem pad_rows_apply {α : Type} {N N' C : Nat} (hi : Fin 2 → Nat) (x : (⟨2, ![N, C]⟩ : Shape).Idx → α) {u : Shape}
    (v : u.Idx → α) (hp : (⟨2, ![N, C]⟩ : Shape).Pads (![0, 0] : Fin 2 → Nat) hi ![0, 0] ⟨2, ![N', C]⟩) (hu : 0 < u.numel)
    (n : Fin N') (k : Fin C) :
    pad ⟨2, ![N', C]⟩ ![0, 0] hi ![0, 0] x v hp hu (ix2 n k)
      = if h : n.val < N then x (ix2 ⟨n.val, h⟩ k) else v (Shape.Idx.first hu) := by
  by_cases h : n.val < N
  · rw [dif_pos h]
    refine pad_apply_of_inside _ _ _ x v hp hu _ (ix2 ⟨n.val, h⟩ k) ?_
    intro a
    match a with
    | ⟨0, _⟩ => show n.val = 0 + n.val * (0 + 1); omega
    | ⟨1, _⟩ => show k.val = 0 + k.val * (0 + 1); omega
  · rw [dif_neg h]
    refine pad_apply_of_not_inside _ _ _ x v hp hu _ (0 : Fin 2) ?_
    intro hin
    have h3 : (n.val - 0) / (0 + 1) < N := hin.2.2
    omega

/-- A vector padded behind: inside the operand the operand, past its end the pad value. -/
theorem pad_vec_apply {α : Type} {N N' : Nat} (hi : Fin 1 → Nat) (x : (⟨1, ![N]⟩ : Shape).Idx → α) {u : Shape}
    (v : u.Idx → α) (hp : (⟨1, ![N]⟩ : Shape).Pads (![0] : Fin 1 → Nat) hi ![0] ⟨1, ![N']⟩) (hu : 0 < u.numel)
    (n : Fin N') :
    pad ⟨1, ![N']⟩ ![0] hi ![0] x v hp hu (ix1 n)
      = if h : n.val < N then x (ix1 ⟨n.val, h⟩) else v (Shape.Idx.first hu) := by
  by_cases h : n.val < N
  · rw [dif_pos h]
    refine pad_apply_of_inside _ _ _ x v hp hu _ (ix1 ⟨n.val, h⟩) ?_
    intro a
    match a with
    | ⟨0, _⟩ => show n.val = 0 + n.val * (0 + 1); omega
  · rw [dif_neg h]
    refine pad_apply_of_not_inside _ _ _ x v hp hu _ (0 : Fin 1) ?_
    intro hin
    have h3 : (n.val - 0) / (0 + 1) < N := hin.2.2
    omega

/-- The float pad value: the integer zero converted, which is zero. -/
theorem sitofp_zero_apply (j : S_.Idx) :
    (sitofp .f32 (constantI S_ 32 0#32) : FVec Ideal S_ .f32) j = (0 : EReal) := by
  show (((0#32 : BitVec 32).toInt : ℝ) : EReal) = 0
  rw [show (0#32 : BitVec 32).toInt = 0 from by decide, Int.cast_zero, EReal.coe_zero]

/-! ## Each stretch's buffers as its operations applied to the contents it starts from

Stated over an arbitrary starting valuation `W`, so that the contents before the stretch stay a name. -/

section Stretches
variable (W : Valuation τ sig (Elt Ideal))

theorem s0_v1 :
    (StableHlo.after hostOps0 W main_v1 : S800000.Idx → BitVec 32)
      = shapeCast S800000 (extractStridedSlice S1x800000 ![0, 0] (W main_arg1 : S2x800000.Idx → BitVec 32)
          Facts₀.slices_S2x800000_S1x800000_0_0) Facts₀.shapeCasts_S1x800000_S800000 := by
  dsimp only [hostOps0]; after_results; rfl

theorem s0_v3 :
    (StableHlo.after hostOps0 W main_v3 : S800000.Idx → BitVec 32)
      = shapeCast S800000 (extractStridedSlice S1x800000 ![1, 0] (W main_arg1 : S2x800000.Idx → BitVec 32)
          Facts₀.slices_S2x800000_S1x800000_1_0) Facts₀.shapeCasts_S1x800000_S800000 := by
  dsimp only [hostOps0]; after_results; rfl

theorem s0_c8 : (StableHlo.after hostOps0 W main_c_8 : S_.Idx → BitVec 32) = constantI S_ 32 0#32 := by
  dsimp only [hostOps0]; after_results

theorem s1_v33 :
    (StableHlo.after hostOps0_1 W main_v33 : S51200x64.Idx → EReal)
      = pad S51200x64 ![0, 0] ![1200, 0] ![0, 0] (W main_arg0 : S50000x64.Idx → EReal)
          (sitofp (F := Ideal) .f32 (W main_c_8 : S_.Idx → BitVec 32) : S_.Idx → EReal)
          Facts₀.pads_S50000x64_S51200x64_012000_000 Facts₀.h_S_ := by
  dsimp only [hostOps0_1]; after_results; rfl

theorem s2_c9 : (StableHlo.after hostOps0_2 W main_c_9 : S_.Idx → BitVec 32) = constantI S_ 32 0#32 := by
  dsimp only [hostOps0_2]; after_results

theorem s3_v34 :
    (StableHlo.after hostOps0_3 W main_v34 : S800768.Idx → BitVec 32)
      = pad S800768 ![0] ![768] ![0] (W main_v1 : S800000.Idx → BitVec 32)
          (id (W main_c_9 : S_.Idx → BitVec 32)) Facts₀.pads_S800000_S800768_07680 Facts₀.h_S_ := by
  dsimp only [hostOps0_3]; after_results; rfl

theorem s4_c10 : (StableHlo.after hostOps0_4 W main_c_10 : S_.Idx → BitVec 32) = constantI S_ 32 0#32 := by
  dsimp only [hostOps0_4]; after_results

theorem s5_v35 :
    (StableHlo.after hostOps0_5 W main_v35 : S800768.Idx → BitVec 32)
      = pad S800768 ![0] ![768] ![0] (W main_v3 : S800000.Idx → BitVec 32)
          (id (W main_c_10 : S_.Idx → BitVec 32)) Facts₀.pads_S800000_S800768_07680 Facts₀.h_S_ := by
  dsimp only [hostOps0_5]; after_results; rfl

theorem s6_c11 : (StableHlo.after hostOps0_6 W main_c_11 : S_.Idx → BitVec 32) = constantI S_ 32 0#32 := by
  dsimp only [hostOps0_6]; after_results

theorem s7_v36 :
    (StableHlo.after hostOps0_7 W main_v36 : S800768.Idx → EReal)
      = pad S800768 ![0] ![768] ![0] (W main_v31 : S800000.Idx → EReal)
          (sitofp (F := Ideal) .f32 (W main_c_11 : S_.Idx → BitVec 32) : S_.Idx → EReal)
          Facts₀.pads_S800000_S800768_07680 Facts₀.h_S_ := by
  dsimp only [hostOps0_7]; after_results; rfl

theorem s8_c12 : (StableHlo.after hostOps0_8 W main_c_12 : S_.Idx → BitVec 32) = constantI S_ 32 0#32 := by
  dsimp only [hostOps0_8]; after_results

theorem s9_v37 :
    (StableHlo.after hostOps0_9 W main_v37 : S51200.Idx → EReal)
      = pad S51200 ![0] ![1200] ![0] (W main_v32 : S50000.Idx → EReal)
          (sitofp (F := Ideal) .f32 (W main_c_12 : S_.Idx → BitVec 32) : S_.Idx → EReal)
          Facts₀.pads_S50000_S51200_012000 Facts₀.h_S_ := by
  dsimp only [hostOps0_9]; after_results; rfl

theorem s10_v38 :
    (StableHlo.after hostOps0_10 W main_v38 : S800768x1.Idx → BitVec 32)
      = shapeCast S800768x1 (W main_v34 : S800768.Idx → BitVec 32) Facts₀.shapeCasts_S800768_S800768x1 := by
  dsimp only [hostOps0_10]; after_results; rfl

theorem s10_v39 :
    (StableHlo.after hostOps0_10 W main_v39 : S800768x1.Idx → EReal)
      = shapeCast S800768x1 (W main_v36 : S800768.Idx → EReal) Facts₀.shapeCasts_S800768_S800768x1 := by
  dsimp only [hostOps0_10]; after_results; rfl

theorem s10_v40 :
    (StableHlo.after hostOps0_10 W main_v40 : S1x800768.Idx → BitVec 32)
      = shapeCast S1x800768 (W main_v35 : S800768.Idx → BitVec 32) Facts₀.shapeCasts_S800768_S1x800768 := by
  dsimp only [hostOps0_10]; after_results; rfl

end Stretches

/-! ## The edge list's two rows -/

/-- The source index of edge `e` is row 0 of the edge list at `e`. -/
theorem V1_v1_apply (e : Fin 800000) :
    (V1 m c main_v1 : S800000.Idx → BitVec 32) (ix1 e) = (V0 m c main_arg1 : S2x800000.Idx → BitVec 32) (ix2 (0 : Fin 2) e) :=
  (congrFun (s0_v1 (V0 m c)) (ix1 e)).trans (row_of_two_apply (0 : Fin 2) _ _ _ e)

/-- The destination index of edge `e` is row 1 of the edge list at `e`. -/
theorem V1_v3_apply (e : Fin 800000) :
    (V1 m c main_v3 : S800000.Idx → BitVec 32) (ix1 e) = (V0 m c main_arg1 : S2x800000.Idx → BitVec 32) (ix2 (1 : Fin 2) e) :=
  (congrFun (s0_v3 (V0 m c)) (ix1 e)).trans (row_of_two_apply (1 : Fin 2) _ _ _ e)

/-! ## The node features, padded to 51200 rows -/

theorem V11_v33_V2 : V11 m c main_v33 = V2 m c main_v33 :=
  (V11_of m c main_v33 (by decide)).trans <| (V10_of m c main_v33 (by decide)).trans <|
  (V9_of m c main_v33 (by decide)).trans <| (V8_of m c main_v33 (by decide)).trans <|
  (V7_of m c main_v33 (by decide)).trans <| (V6_of m c main_v33 (by decide)).trans <|
  (V5_of m c main_v33 (by decide)).trans <| (V4_of m c main_v33 (by decide)).trans <|
  (V3_of m c main_v33 (by decide))

/-- The padded node features: the features on the 50000 nodes, zero on the 1200 rows behind them. -/
theorem V11_v33_apply (n : Fin 51200) (k : Fin 64) :
    (V11 m c main_v33 : S51200x64.Idx → EReal) (ix2 n k)
      = if h : n.val < 50000 then (V0 m c main_arg0 : S50000x64.Idx → EReal) (ix2 ⟨n.val, h⟩ k) else (0 : EReal) := by
  rw [V11_v33_V2, show V2 m c main_v33 = _ from s1_v33 (V1 m c), show V1 m c main_c_8 = _ from s0_c8 (V0 m c),
    V1_of m c main_arg0 (by decide)]
  refine (pad_rows_apply _ _ _ _ _ n k).trans ?_
  rw [sitofp_zero_apply]

/-! ## The source indices: padded to 800768 entries, as a column -/

theorem V10_v34_V4 : V10 m c main_v34 = V4 m c main_v34 :=
  (V10_of m c main_v34 (by decide)).trans <| (V9_of m c main_v34 (by decide)).trans <|
  (V8_of m c main_v34 (by decide)).trans <| (V7_of m c main_v34 (by decide)).trans <|
  (V6_of m c main_v34 (by decide)).trans <| (V5_of m c main_v34 (by decide))

theorem V3_v1_V1 : V3 m c main_v1 = V1 m c main_v1 :=
  (V3_of m c main_v1 (by decide)).trans (V2_of m c main_v1 (by decide))

/-- The source column the regions read: the source index of edge `e`, the zero word on the 768 rows behind the edges. -/
theorem V11_v38_apply (e : Fin 800768) :
    (V11 m c main_v38 : S800768x1.Idx → BitVec 32) (ix2 e (0 : Fin 1))
      = if h : e.val < 800000 then (V1 m c main_v1 : S800000.Idx → BitVec 32) (ix1 ⟨e.val, h⟩) else 0#32 := by
  rw [show V11 m c main_v38 = _ from s10_v38 (V10 m c), V10_v34_V4, show V4 m c main_v34 = _ from s3_v34 (V3 m c),
    show V3 m c main_c_9 = _ from s2_c9 (V2 m c), V3_v1_V1]
  refine (Cert.Lib.Layout.shapeCast_a_a1_apply _ _ e (0 : Fin 1)).trans ?_
  exact pad_vec_apply _ _ _ _ _ e

/-! ## The destination indices: padded, as a row -/

theorem V10_v35_V6 : V10 m c main_v35 = V6 m c main_v35 :=
  (V10_of m c main_v35 (by decide)).trans <| (V9_of m c main_v35 (by decide)).trans <|
  (V8_of m c main_v35 (by decide)).trans <| (V7_of m c main_v35 (by decide))

theorem V5_v3_V1 : V5 m c main_v3 = V1 m c main_v3 :=
  (V5_of m c main_v3 (by decide)).trans <| (V4_of m c main_v3 (by decide)).trans <|
  (V3_of m c main_v3 (by decide)).trans (V2_of m c main_v3 (by decide))

/-- The destination row the regions read: the destination index of edge `e`, the zero word behind the edges. -/
theorem V11_v40_apply (e : Fin 800768) :
    (V11 m c main_v40 : S1x800768.Idx → BitVec 32) (ix2 (0 : Fin 1) e)
      = if h : e.val < 800000 then (V1 m c main_v3 : S800000.Idx → BitVec 32) (ix1 ⟨e.val, h⟩) else 0#32 := by
  rw [show V11 m c main_v40 = _ from s10_v40 (V10 m c), V10_v35_V6, show V6 m c main_v35 = _ from s5_v35 (V5 m c),
    show V5 m c main_c_10 = _ from s4_c10 (V4 m c), V5_v3_V1]
  refine (shapeCast_a_1a_apply _ _ (0 : Fin 1) e).trans ?_
  exact pad_vec_apply _ _ _ _ _ e

/-! ## The edge weights: padded, as a column -/

theorem V10_v36_V8 : V10 m c main_v36 = V8 m c main_v36 :=
  (V10_of m c main_v36 (by decide)).trans (V9_of m c main_v36 (by decide))

theorem V7_v31_V1 : V7 m c main_v31 = V1 m c main_v31 :=
  (V7_of m c main_v31 (by decide)).trans <| (V6_of m c main_v31 (by decide)).trans <|
  (V5_of m c main_v31 (by decide)).trans <| (V4_of m c main_v31 (by decide)).trans <|
  (V3_of m c main_v31 (by decide)).trans (V2_of m c main_v31 (by decide))

/-- The weight column the regions read: the weight of edge `e`, zero on the rows behind the edges. -/
theorem V11_v39_apply (e : Fin 800768) :
    (V11 m c main_v39 : S800768x1.Idx → EReal) (ix2 e (0 : Fin 1))
      = if h : e.val < 800000 then (V1 m c main_v31 : S800000.Idx → EReal) (ix1 ⟨e.val, h⟩) else (0 : EReal) := by
  rw [show V11 m c main_v39 = _ from s10_v39 (V10 m c), V10_v36_V8, show V8 m c main_v36 = _ from s7_v36 (V7 m c),
    show V7 m c main_c_11 = _ from s6_c11 (V6 m c), V7_v31_V1]
  refine (Cert.Lib.Layout.shapeCast_a_a1_apply _ _ e (0 : Fin 1)).trans ?_
  refine (pad_vec_apply _ _ _ _ _ e).trans ?_
  rw [sitofp_zero_apply]

/-! ## The squared inverse root degrees: padded to 51200 nodes -/

theorem V9_v32_V1 : V9 m c main_v32 = V1 m c main_v32 :=
  (V9_of m c main_v32 (by decide)).trans <| (V8_of m c main_v32 (by decide)).trans <|
  (V7_of m c main_v32 (by decide)).trans <| (V6_of m c main_v32 (by decide)).trans <|
  (V5_of m c main_v32 (by decide)).trans <| (V4_of m c main_v32 (by decide)).trans <|
  (V3_of m c main_v32 (by decide)).trans (V2_of m c main_v32 (by decide))

/-- The padded squared inverse root degrees: the value on the 50000 nodes, zero behind them. -/
theorem V11_v37_apply (n : Fin 51200) :
    (V11 m c main_v37 : S51200.Idx → EReal) (ix1 n)
      = if h : n.val < 50000 then (V1 m c main_v32 : S50000.Idx → EReal) (ix1 ⟨n.val, h⟩) else (0 : EReal) := by
  rw [V11_of m c main_v37 (by decide), show V10 m c main_v37 = _ from s9_v37 (V9 m c),
    show V9 m c main_c_12 = _ from s8_c12 (V8 m c), V9_v32_V1]
  refine (pad_vec_apply _ _ _ _ _ n).trans ?_
  rw [sitofp_zero_apply]

end Cert.KernelIdeal.HostK
-- ==== Proof.LibWrap.lean ====
import Idealize.ShloMosaic.Lib.ValueIdx
import Idealize.ShloMosaic.Lib.Affine

/-!
# jnp's negative-index wrap is the identity on non-negative words

`x[i]` and `.at[i]` first replace a negative index `i` by `i + N`: as an array operation,
`select (x < 0) (x + N) x`. Where every entry of `x` is non-negative as a signed number the comparison's bit is `0`
everywhere and the result is `x`, whatever `N` and the spelling of the zero array.
-/

noncomputable section

namespace Cert.Lib.Wrap

open Idealize.ShloMosaic Idealize.ShloMosaic.ValueIdx

/-- The wrap of a non-negative index array is the array. -/
theorem select_slt_zero_eq {s : Shape} (x z y : IVec s 32) (hz : ∀ i, (z i).toInt = 0) (hx : ∀ i, 0 ≤ (x i).toInt) :
    select (cmpi .slt x z) y x = x := by
  funext i
  rw [select_apply]
  have hb : cmpi .slt x z i = 0#1 := by
    refine eq_zero_of_ne_one fun h1 => ?_
    have : (x i).toInt < (z i).toInt := IntOp.cmpi_slt.mp h1
    rw [hz i] at this
    exact absurd (hx i) (not_le.mpr this)
  rw [hb, select_zero]

end Cert.Lib.Wrap

end
-- ==== Proof.LibRowGatherScatter.lean ====
/-
  Gathering table rows along an index list, and scatter-adding rows (or scalars) back along one, read at an index.

  A rows gather of an [N, C] table at E start indices (an [E, 1] integer array) returns at (e, k) the table's
  entry (r, k) where r is the e-th start index read as a signed integer and clamped into [0, N − 1].  A rows
  scatter-add of [E, C] updates into an [N, C] operand leaves at (n, k) the operand's entry plus the sum of the
  updates (e, k) over the edges e whose index, read signed and NOT clamped, is exactly n; the rank-one version
  scatters E scalars into N cells the same way.  All three are stated for the dimension numbers jax emits for
  x[idx] and for segment_sum, with the shapes' extents as parameters.
-/
import Idealize.ShloMosaic.PureOps.Ideal
import Idealize.ShloMosaic.Lib.ValueIdx

noncomputable section

open scoped BigOperators

namespace Cert.Lib.RowOps

open Idealize.ShloMosaic Idealize.ShloMosaic.ValueIdx

/-- The dimension numbers of a rows gather: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The rows gather at (e, k): the table at the e-th start index, read signed and clamped into [0, N − 1], column k. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
        + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
        + (rowGatherDims N E C wf).offCoord (ix2 e k) 1 = _
    rw [GatherDims.batchCoord_eq_zero _ _ _ List.not_mem_nil]
    have hstart : (rowGatherDims N E C wf).start (ix2 e k) idx 1 = 0 := by
      unfold GatherDims.start
      rw [dif_neg (show (1 : Fin 2) ∉ ([0] : List (Fin 2)) by decide)]
    have hmem : (1 : Fin 2) ∈ (rowGatherDims N E C wf).sKept :=
      (GatherDims.mem_sKept _ _).mpr ⟨(show (1 : Fin 2) ∉ ([0] : List (Fin 2)) by decide), List.not_mem_nil⟩
    have hoff : (rowGatherDims N E C wf).offCoord (ix2 e k) 1 = k.val := by
      unfold GatherDims.offCoord
      rw [dif_pos hmem]
      rfl
    rw [hstart, hoff]
    simp

/-- An update index lands at operand index i exactly when, on every axis, the signed start plus the window
    coordinate is the coordinate of i. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro hf a
      rw [← hf]
      have := (h a).1
      simp only [Int.toNat_of_nonneg this]
    · intro hall
      funext a
      refine Fin.ext ?_
      show (d.start j idx a + (d.window j a : Int)).toNat = (i a).val
      rw [hall a]
      exact Int.toNat_natCast _
  · next h =>
    constructor
    · intro hf
      exact absurd hf (by simp)
    · intro hall
      exfalso
      apply h
      intro a
      rw [hall a]
      exact ⟨Int.natCast_nonneg _, by exact_mod_cast (i a).isLt⟩

/-- The dimension numbers of a rows scatter: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window of update (e, c) starts at the e-th index, read signed. -/
theorem rowScatter_start0 :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at 0. -/
theorem rowScatter_start1 : (rowScatterDims N E C wf).start (ix2 e c) idx 1 = 0 := by
  unfold ScatterDims.start
  rw [dif_neg (show (1 : Fin 2) ∉ ([0] : List (Fin 2)) by decide)]

/-- The row axis is an inserted axis: the window coordinate there is 0. -/
theorem rowScatter_window0 : (rowScatterDims N E C wf).window (ix2 e c) 0 = 0 := by
  unfold ScatterDims.window
  have h0 : (0 : Fin 2) ∉ (rowScatterDims N E C wf).sKept :=
    (show (0 : Fin 2) ∉ (List.finRange 2).filter (· ∉ ([0] : List (Fin 2))) by decide)
  rw [dif_neg h0]

/-- On the column axis the window coordinate of update (e, c) is c. -/
theorem rowScatter_window1 : (rowScatterDims N E C wf).window (ix2 e c) 1 = c.val := by
  unfold ScatterDims.window
  have h1 : (1 : Fin 2) ∈ (rowScatterDims N E C wf).sKept :=
    (show (1 : Fin 2) ∈ (List.finRange 2).filter (· ∉ ([0] : List (Fin 2))) by decide)
  rw [dif_pos h1]
  rfl

/-- An update (e, c) of the rows scatter lands at (n, k) exactly when its index, read signed, is n and c = k. -/
theorem rowScatter_resultIdx?_iff (n : Fin N) (k : Fin C) :
    (rowScatterDims N E C wf).resultIdx? (ix2 e c) idx = some (ix2 n k)
      ↔ (idx (ix2 e (0 : Fin 1))).toInt = (n.val : Int) ∧ c = k := by
  rw [resultIdx?_eq_some_iff, Fin.forall_fin_two, rowScatter_start0, rowScatter_start1, rowScatter_window0,
    rowScatter_window1]
  show (idx (ix2 e (0 : Fin 1))).toInt + ((0 : Nat) : Int) = (n.val : Int) ∧ (0 : Int) + (c.val : Int) = (k.val : Int) ↔ _
  constructor
  · rintro ⟨h0, h1⟩
    exact ⟨by simpa using h0, Fin.ext (by omega)⟩
  · rintro ⟨h0, rfl⟩
    exact ⟨by simpa using h0, by simp⟩

end Rows

/-- The rows scatter-add at (n, k): the operand there plus the updates (e, k) of the edges whose index is n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd (rowScatterDims N E C wf) x idx upd (ix2 n k)
      = x (ix2 n k) + ∑ e ∈ Finset.univ.filter (fun e : Fin E => (idx (ix2 e (0 : Fin 1))).toInt = (n.val : Int)),
          upd (ix2 e k) := by
  unfold Ideal.hostScatterAdd
  refine congrArg (x (ix2 n k) + ·) ?_
  rw [Finset.sum_filter, Finset.sum_filter, sum_idx2]
  refine Finset.sum_congr rfl (fun e _ => ?_)
  simp only [rowScatter_resultIdx?_iff]
  by_cases hn : (idx (ix2 e (0 : Fin 1))).toInt = (n.val : Int)
  · simp [hn]
  · simp [hn]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: operand [N], scatter indices [E, 1], updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update e starts at the e-th index, read signed. -/
theorem vecScatter_start0 :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted axis: the window coordinate there is 0. -/
theorem vecScatter_window0 : (vecScatterDims N E wf).window (ix1 e) 0 = 0 := by
  unfold ScatterDims.window
  have h0 : (0 : Fin 1) ∉ (vecScatterDims N E wf).sKept :=
    (show (0 : Fin 1) ∉ (List.finRange 1).filter (· ∉ ([0] : List (Fin 1))) by decide)
  rw [dif_neg h0]

/-- An update e of the scalar scatter lands at n exactly when its index, read signed, is n. -/
theorem vecScatter_resultIdx?_iff (n : Fin N) :
    (vecScatterDims N E wf).resultIdx? (ix1 e) idx = some (ix1 n)
      ↔ (idx (ix2 e (0 : Fin 1))).toInt = (n.val : Int) := by
  rw [resultIdx?_eq_some_iff, Fin.forall_fin_one, vecScatter_start0, vecScatter_window0]
  show (idx (ix2 e (0 : Fin 1))).toInt + ((0 : Nat) : Int) = (n.val : Int) ↔ _
  simp

end Vec

/-- The scalar scatter-add at n: the operand there plus the updates of the edges whose index is n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  refine congrArg (x (ix1 n) + ·) ?_
  rw [Finset.sum_filter, Finset.sum_filter, sum_idx1]
  refine Finset.sum_congr rfl (fun e _ => ?_)
  simp only [vecScatter_resultIdx?_iff]

end Cert.Lib.RowOps

end
-- ==== Proof.RGatherScatter.lean ====
/-
  The reference's rows gather and rows scatter-add, at the dimension numbers its program uses, read at an index:
  the general statements of the rows gather / scatter-add module instantiated at the literal extents
  (50000 nodes, 800000 edges, 64 features), with every array a variable.
-/
import proofs.«104867_j4217657884863_1_alg».proof.Proof.Gen.ReferenceIdeal.Read
import proofs.«104867_j4217657884863_1_alg».proof.Proof.LibRowGatherScatter

noncomputable section

open scoped BigOperators

namespace Cert.ReferenceIdeal.HostR

open Cert.ReferenceIdeal Cert.ReferenceIdeal.Read Idealize.ShloMosaic Idealize.ShloMosaic.ValueIdx

/-- The rows gather of a [50000, 64] table along an [800000, 1] index column at (e, q): the table's row at the
    e-th index, read signed and clamped into [0, 49999], column q. -/
theorem gather_rows_at (y : (⟨S50000x64, .f32⟩ : BufTy).Contents (Elt Ideal))
    (ic : (⟨S800000x1, .i32⟩ : BufTy).Contents (Elt Ideal)) (e : Fin 800000) (q : Fin 64) :
    Host.gather gather_S50000x64_S800000x1_S800000x64_1_0_n_n_0_1_164 y ic (ix2 e q)
      = y (ix2 (⟨min (ic (ix2 e (0 : Fin 1))).toInt.toNat 49999, by omega⟩ : Fin 50000) q) :=
  Cert.Lib.RowOps.rowGather_apply (N := 50000) (E := 800000) (C := 64) (by decide)
    Facts₀.gather_S50000x64_S800000x1_S800000x64_1_0_n_n_0_1_164_wf y ic e q

/-- The rows scatter-add of [800000, 64] updates into a [50000, 64] operand at (n, q): the operand there plus the
    updates (e, q) of the edges whose index, read signed, is n. -/
theorem scatter_rows_at (z : (⟨S50000x64, .f32⟩ : BufTy).Contents (Elt Ideal))
    (ic : (⟨S800000x1, .i32⟩ : BufTy).Contents (Elt Ideal))
    (u : (⟨S800000x64, .f32⟩ : BufTy).Contents (Elt Ideal)) (n : Fin 50000) (q : Fin 64) :
    Host.scatterAdd (F := Ideal) (φ := .f32) scatter_S50000x64_S800000x1_S800000x64_1_0_0_1 z ic u (ix2 n q)
      = z (ix2 n q) + ∑ e ∈ Finset.univ.filter (fun e : Fin 800000 => (ic (ix2 e (0 : Fin 1))).toInt = (n.val : Int)),
          u (ix2 e q) :=
  Cert.Lib.RowOps.rowScatterAdd_apply (N := 50000) (E := 800000) (C := 64)
    Facts₀.scatter_S50000x64_S800000x1_S800000x64_1_0_0_1_wf z ic u n q

/-- The scalar scatter-add of 800000 updates into a [50000] operand at n: the operand there plus the updates of
    the edges whose index, read signed, is n. -/
theorem scatter_vec_at (z : (⟨S50000, .f32⟩ : BufTy).Contents (Elt Ideal))
    (ic : (⟨S800000x1, .i32⟩ : BufTy).Contents (Elt Ideal))
    (u : (⟨S800000, .f32⟩ : BufTy).Contents (Elt Ideal)) (n : Fin 50000) :
    Host.scatterAdd (F := Ideal) (φ := .f32) scatter_S50000_S800000x1_S800000_n_0_0_1 z ic u (ix1 n)
      = z (ix1 n) + ∑ e ∈ Finset.univ.filter (fun e : Fin 800000 => (ic (ix2 e (0 : Fin 1))).toInt = (n.val : Int)),
          u (ix1 e) :=
  Cert.Lib.RowOps.vecScatterAdd_apply (N := 50000) (E := 800000)
    Facts₀.scatter_S50000_S800000x1_S800000_n_0_0_1_wf z ic u n

end Cert.ReferenceIdeal.HostR

end
-- ==== Proof.RLayer1.lean ====
/-
  The reference's first graph-convolution layer, read at an index: the linear map, the rows gathered along the
  edges' sources, the messages, their aggregation at the destinations, and the layer's output.
-/
import proofs.«104867_j4217657884863_1_alg».proof.Proof.Gen.ReferenceIdeal.Read
import proofs.«104867_j4217657884863_1_alg».proof.Proof.RGatherScatter

noncomputable section

open scoped BigOperators

namespace Cert.ReferenceIdeal.HostR

open Cert.ReferenceIdeal Cert.ReferenceIdeal.Read Idealize.ShloMosaic Idealize.ShloMosaic.ValueIdx

variable (X : (⟨S50000x64, .f32⟩ : BufTy).Contents (Elt Ideal))
  (EI : (⟨S2x800000, .i32⟩ : BufTy).Contents (Elt Ideal))
  (W1 : (⟨S64x64, .f32⟩ : BufTy).Contents (Elt Ideal))
  (b1 : (⟨S64, .f32⟩ : BufTy).Contents (Elt Ideal))

/-- The layer's linear map at (n, q): the row n of its input against the column q of its weight. -/
theorem v12_at (n : Fin 50000) (q : Fin 64) :
    val_main_v12 (F := Ideal) X W1 (ix2 n q) = ∑ k : Fin 64, X (ix2 n k) * W1 (ix2 k q) := by
  rw [val_main_v12_apply]
  refine Finset.sum_congr rfl fun k _ => ?_
  have el : lidx_main_v12 (ix2 n q) k = ix2 n k := by
    funext a; match a with
    | ⟨0, _⟩ => rfl
    | ⟨1, _⟩ => rfl
  have er : ridx_main_v12 (ix2 n q) k = ix2 k q := by
    funext a; match a with
    | ⟨0, _⟩ => rfl
    | ⟨1, _⟩ => rfl
  rw [el, er]

/-- The source row of the edge list: row 0 of the edge index array. -/
theorem v1_at (e : Fin 800000) : val_main_v1 (F := Ideal) EI (ix1 e) = EI (ix2 (0 : Fin 2) e) := by
  rw [val_main_v1_apply, val_main_v0_apply]
  refine congrArg EI (funext fun a => Fin.ext ?_)
  match a with
  | ⟨0, _⟩ => rfl
  | ⟨1, _⟩ => exact Nat.mod_eq_of_lt e.isLt

/-- The destination row of the edge list: row 1 of the edge index array. -/
theorem v3_at (e : Fin 800000) : val_main_v3 (F := Ideal) EI (ix1 e) = EI (ix2 (1 : Fin 2) e) := by
  rw [val_main_v3_apply, val_main_v2_apply]
  refine congrArg EI (funext fun a => Fin.ext ?_)
  match a with
  | ⟨0, _⟩ => rfl
  | ⟨1, _⟩ => exact Nat.mod_eq_of_lt e.isLt

/-- The layer's gathered rows at (e, q): the linear map's row at the edge's wrapped source, clamped into the
    table, column q. -/
theorem v34_at (e : Fin 800000) (q : Fin 64) :
    val_main_v34 (F := Ideal) X EI W1 (ix2 e q)
      = val_main_v12 (F := Ideal) X W1
          (ix2 (⟨min (val_main_v32 (F := Ideal) EI (ix1 e)).toInt.toNat 49999, by omega⟩ : Fin 50000) q) := by
  have hcol : val_main_v33 (F := Ideal) EI (ix2 e (0 : Fin 1)) = val_main_v32 (F := Ideal) EI (ix1 e) := by
    rw [val_main_v33_apply]
    exact congrArg _ (funext fun a => match a with | ⟨0, _⟩ => rfl)
  unfold val_main_v34
  rw [gather_rows_at]
  simp only [hcol]

/-- The messages at (e, q): the gathered row entry times the edge's normalisation. -/
theorem v37_at (e : Fin 800000) (q : Fin 64) :
    val_main_v37 (F := Ideal) X EI W1 (ix2 e q)
      = val_main_v34 (F := Ideal) X EI W1 (ix2 e q) * val_main_v27 (F := Ideal) EI (ix1 e) := by
  have h1 : idx_main_v35 (idx_main_v36 (ix2 e q)) = ix1 e := funext fun a => match a with | ⟨0, _⟩ => rfl
  rw [val_main_v37_apply, val_main_v36_apply, val_main_v35_apply, h1]
  rfl

/-- The aggregation at (n, q): the sum of the messages of the edges whose destination is n. -/
theorem v40_at (n : Fin 50000) (q : Fin 64) :
    val_main_v40 (F := Ideal) X EI W1 (ix2 n q)
      = 0 + ∑ e ∈ Finset.univ.filter (fun e : Fin 800000 => (val_main_v3 (F := Ideal) EI (ix1 e)).toInt = (n.val : Int)),
          val_main_v37 (F := Ideal) X EI W1 (ix2 e q) := by
  have hcol : ∀ e : Fin 800000,
      val_main_v39 (F := Ideal) EI (ix2 e (0 : Fin 1)) = val_main_v3 (F := Ideal) EI (ix1 e) := fun e => by
    rw [val_main_v39_apply]
    exact congrArg _ (funext fun a => match a with | ⟨0, _⟩ => rfl)
  unfold val_main_v40
  rw [scatter_rows_at, val_main_v38_apply, val_main_cst_8_apply, Ideal.ofBits_def, Ideal.ofBits_zero_f32]
  simp only [hcol]

/-- The layer's output at (n, q): aggregation plus the self-loop term plus the bias, clamped below at 0. -/
theorem v49_at (n : Fin 50000) (q : Fin 64) :
    val_main_v49 (F := Ideal) X EI W1 b1 (ix2 n q)
      = max ((val_main_v40 (F := Ideal) X EI W1 (ix2 n q)
            + val_main_v12 (F := Ideal) X W1 (ix2 n q) * val_main_v41 (F := Ideal) EI (ix1 n))
          + b1 (ix1 q)) 0 := by
  have h1 : idx_main_v42 (idx_main_v43 (ix2 n q)) = ix1 n := funext fun a => match a with | ⟨0, _⟩ => rfl
  have h2 : idx_main_v46 (idx_main_v47 (ix2 n q)) = ix1 q := funext fun a => match a with | ⟨0, _⟩ => rfl
  rw [val_main_v49_apply, val_main_v48_apply, val_main_v45_apply, val_main_v44_apply,
    val_main_v43_apply, val_main_v42_apply, val_main_v47_apply, val_main_v46_apply,
    val_main_call0_v0_apply, val_main_call0_cst_apply, Ideal.ofBits_def, Ideal.ofBits_zero_f32, h1, h2]
  rfl

end Cert.ReferenceIdeal.HostR

end
-- ==== Proof.RDeg.lean ====
/-
  The reference's degree chain as whole arrays.  The inverse square root of the degree is one function of the
  destination row of the edge list (a scalar scatter-add of ones along the destinations, plus one, to the power
  −1/2); the edge normalisation is one function of it and of the two rows (the product of its entries gathered at the
  wrapped sources and at the wrapped destinations); the self-loop weight is its square.  The program recomputes the
  normalisation, the self-loop weight and the wrapped sources in every layer with identical operations, so the
  later copies equal the first as arrays.
-/
import proofs.«104867_j4217657884863_1_alg».proof.Proof.Gen.ReferenceIdeal.Read

noncomputable section

open scoped BigOperators

namespace Cert.ReferenceIdeal.HostR

open Cert.ReferenceIdeal Cert.ReferenceIdeal.Gen Cert.ReferenceIdeal.Read Idealize.ShloMosaic Idealize.ShloMosaic.ValueIdx

abbrev EdgeI := (⟨S800000, .i32⟩ : BufTy).Contents (Elt Ideal)
abbrev EdgeColI := (⟨S800000x1, .i32⟩ : BufTy).Contents (Elt Ideal)
abbrev EdgeF := (⟨S800000, .f32⟩ : BufTy).Contents (Elt Ideal)
abbrev NodeF := (⟨S50000, .f32⟩ : BufTy).Contents (Elt Ideal)

/-- A negative index wrapped around by the node count: select (v < 0, v + 50000, v), entrywise. -/
def wrapR (v : EdgeI) : EdgeI :=
  select (cmpi .slt v (broadcastInDim S800000 ![] bcast_S_S800000 (constantI S_ 32 0#32)))
    (addi v (broadcastInDim S800000 ![] bcast_S_S800000 (constantI S_ 32 50000#32))) v

/-- An index vector as the [E, 1] column a gather or scatter takes. -/
def colR (v : EdgeI) : EdgeColI := broadcastInDim S800000x1 ![0] bcast_S800000_S800000x1_0 v

/-- The inverse square root of the degree: (1 + the number of edges into the node) ^ (−1/2), the count a scalar
    scatter-add of ones along the raw destination column. -/
def degR (dst : EdgeI) : NodeF :=
  Host.powf (F := Ideal) (φ := .f32)
    (addf (F := Ideal) (φ := .f32)
      (Host.scatterAdd (F := Ideal) (φ := .f32) scatter_S50000_S800000x1_S800000_n_0_0_1
        (broadcastInDim S50000 ![] bcast_S_S50000 (constant (F := Ideal) S_ .f32 0x00000000#32)) (colR dst)
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- The edge normalisation: the node weight gathered at the wrapped source times the same at the wrapped
    destination. -/
def normR (dis : NodeF) (src dst : EdgeI) : EdgeF :=
  mulf (F := Ideal) (φ := .f32) (Host.gather gather_S50000_S800000x1_S800000_n_0_n_n_0_1_1 dis (colR (wrapR src)))
    (Host.gather gather_S50000_S800000x1_S800000_n_0_n_n_0_1_1 dis (colR (wrapR dst)))

variable (EI : (⟨S2x800000, .i32⟩ : BufTy).Contents (Elt Ideal))

/-- The node weight is the degree chain applied to the destination row. -/
theorem v11_eq : val_main_v11 (F := Ideal) EI = degR (val_main_v3 (F := Ideal) EI) := by
  unfold val_main_v11 val_main_v9 val_main_v10 val_main_v7 val_main_v8 val_main_v6 val_main_v5 val_main_v4
    val_main_cst val_main_cst_0 val_main_cst_1 val_main_cst_2 degR colR
  rfl

/-- The wrapped sources the first layer's rows gather reads. -/
theorem v32_eq : val_main_v32 (F := Ideal) EI = wrapR (val_main_v1 (F := Ideal) EI) := by
  unfold val_main_v32 val_main_v29 val_main_v31 val_main_v28 val_main_v30 val_main_c_6 val_main_c_7 wrapR
  rfl

/-- The first layer's edge normalisation. -/
theorem v27_eq : val_main_v27 (F := Ideal) EI
    = normR (val_main_v11 (F := Ideal) EI) (val_main_v1 (F := Ideal) EI) (val_main_v3 (F := Ideal) EI) := by
  unfold val_main_v27 val_main_v19 val_main_v26 val_main_v18 val_main_v25 val_main_v17 val_main_v14 val_main_v16 val_main_v13 val_main_v15 val_main_c val_main_c_3 val_main_v24 val_main_v21 val_main_v23 val_main_v20 val_main_v22 val_main_c_4 val_main_c_5 normR colR wrapR
  rfl

/-- The first layer's self-loop weight: the node weight squared. -/
theorem v41_eq : val_main_v41 (F := Ideal) EI = mulf (F := Ideal) (φ := .f32) (val_main_v11 (F := Ideal) EI) (val_main_v11 (F := Ideal) EI) := by
  unfold val_main_v41
  rfl

/-- The second layer's wrapped sources, normalisation and self-loop weight are the first layer's. -/
theorem v70_eq : val_main_v70 (F := Ideal) EI = val_main_v32 (F := Ideal) EI := by
  unfold val_main_v70 val_main_v67 val_main_v69 val_main_v66 val_main_v68 val_main_c_13 val_main_c_14 val_main_v32 val_main_v29 val_main_v31 val_main_v28 val_main_v30 val_main_c_6 val_main_c_7
  rfl
theorem v65_eq : val_main_v65 (F := Ideal) EI = val_main_v27 (F := Ideal) EI := by
  unfold val_main_v65 val_main_v57 val_main_v64 val_main_v56 val_main_v63 val_main_v55 val_main_v52 val_main_v54 val_main_v51 val_main_v53 val_main_c_9 val_main_c_10 val_main_v62 val_main_v59 val_main_v61 val_main_v58 val_main_v60 val_main_c_11 val_main_c_12 val_main_v27 val_main_v19 val_main_v26 val_main_v18 val_main_v25 val_main_v17 val_main_v14 val_main_v16 val_main_v13 val_main_v15 val_main_c val_main_c_3 val_main_v24 val_main_v21 val_main_v23 val_main_v20 val_main_v22 val_main_c_4 val_main_c_5
  rfl
theorem v79_eq : val_main_v79 (F := Ideal) EI = val_main_v41 (F := Ideal) EI := by
  unfold val_main_v79 val_main_v41
  rfl

/-- The third layer's likewise. -/
theorem v108_eq : val_main_v108 (F := Ideal) EI = val_main_v32 (F := Ideal) EI := by
  unfold val_main_v108 val_main_v105 val_main_v107 val_main_v104 val_main_v106 val_main_c_20 val_main_c_21 val_main_v32 val_main_v29 val_main_v31 val_main_v28 val_main_v30 val_main_c_6 val_main_c_7
  rfl
theorem v103_eq : val_main_v103 (F := Ideal) EI = val_main_v27 (F := Ideal) EI := by
  unfold val_main_v103 val_main_v95 val_main_v102 val_main_v94 val_main_v101 val_main_v93 val_main_v90 val_main_v92 val_main_v89 val_main_v91 val_main_c_16 val_main_c_17 val_main_v100 val_main_v97 val_main_v99 val_main_v96 val_main_v98 val_main_c_18 val_main_c_19 val_main_v27 val_main_v19 val_main_v26 val_main_v18 val_main_v25 val_main_v17 val_main_v14 val_main_v16 val_main_v13 val_main_v15 val_main_c val_main_c_3 val_main_v24 val_main_v21 val_main_v23 val_main_v20 val_main_v22 val_main_c_4 val_main_c_5
  rfl
theorem v117_eq : val_main_v117 (F := Ideal) EI = val_main_v41 (F := Ideal) EI := by
  unfold val_main_v117 val_main_v41
  rfl

end Cert.ReferenceIdeal.HostR

end
-- ==== Proof.KDeg.lean ====
/-
  The kernel program's degree chain, and its join with the reference's.

  Before its first kernel region the kernel program computes, on the host, the inverse square root of the degree (a
  scalar scatter-add of ones along the WRAPPED destination row, plus one, to the power −1/2), the edge
  normalisation (its entries gathered at the wrapped sources times those at the wrapped destinations) and its square.
  The reference computes the same three arrays, except that its degree scatter reads the raw destination row.  A
  negative index wrapped around is the index itself where every index is non-negative, so on an edge list that holds
  node numbers the two programs' arrays are equal.
-/
import proofs.«104867_j4217657884863_1_alg».proof.Proof.Gen.KernelIdeal.Regions
import proofs.«104867_j4217657884863_1_alg».proof.Proof.KPrep
import proofs.«104867_j4217657884863_1_alg».proof.Proof.LibWrap
import proofs.«104867_j4217657884863_1_alg».proof.Proof.RLayer1
import proofs.«104867_j4217657884863_1_alg».proof.Proof.RDeg

set_option maxRecDepth 1352

noncomputable section

namespace Cert.KernelIdeal.HostK

open Cert.KernelIdeal Cert.KernelIdeal.Gen Idealize.ShloMosaic Idealize.ShloMosaic.ValueIdx
open Idealize.ShloMosaic.TcCoe

abbrev EdgeI := (⟨S800000, .i32⟩ : BufTy).Contents (Elt Ideal)
abbrev EdgeColI := (⟨S800000x1, .i32⟩ : BufTy).Contents (Elt Ideal)
abbrev EdgeF := (⟨S800000, .f32⟩ : BufTy).Contents (Elt Ideal)
abbrev NodeF := (⟨S50000, .f32⟩ : BufTy).Contents (Elt Ideal)

/-- A negative index wrapped around by the node count: select (v < 0, v + 50000, v), entrywise. -/
def wrapK (v : EdgeI) : EdgeI :=
  select (cmpi .slt v (broadcastInDim S800000 ![] bcast_S_S800000 (constantI S_ 32 0#32)))
    (addi v (broadcastInDim S800000 ![] bcast_S_S800000 (constantI S_ 32 50000#32))) v

/-- An index vector as the [E, 1] column a gather or scatter takes. -/
def colK (v : EdgeI) : EdgeColI := broadcastInDim S800000x1 ![0] bcast_S800000_S800000x1_0 v

/-- The inverse square root of the degree: (1 + the number of edges into the node) ^ (−1/2), the count a scalar
    scatter-add of ones along the wrapped destination column. -/
def degK (dst : EdgeI) : NodeF :=
  Host.powf (F := Ideal) (φ := .f32)
    (addf (F := Ideal) (φ := .f32)
      (Host.scatterAdd (F := Ideal) (φ := .f32) scatter_S50000_S800000x1_S800000_n_0_0_1
        (broadcastInDim S50000 ![] bcast_S_S50000 (constant (F := Ideal) S_ .f32 0x00000000#32)) (colK (wrapK dst))
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- The edge normalisation: the node weight gathered at the wrapped source times the same at the wrapped
    destination. -/
def normK (dis : NodeF) (src dst : EdgeI) : EdgeF :=
  mulf (F := Ideal) (φ := .f32) (Host.gather gather_S50000_S800000x1_S800000_n_0_n_n_0_1_1 dis (colK (wrapK src)))
    (Host.gather gather_S50000_S800000x1_S800000_n_0_n_n_0_1_1 dis (colK (wrapK dst)))

/-! ## The first host stretch's three arrays as these functions of its source and destination rows -/

section Stretch
variable (W : Valuation τ sig (Elt Ideal))

theorem s0_v16 :
    (StableHlo.after hostOps0 W main_v16 : S50000.Idx → EReal)
      = degK (StableHlo.after hostOps0 W main_v3 : S800000.Idx → BitVec 32) := by
  unfold degK colK wrapK
  dsimp only [hostOps0]; after_results_simp

theorem s0_v31 :
    (StableHlo.after hostOps0 W main_v31 : S800000.Idx → EReal)
      = normK (StableHlo.after hostOps0 W main_v16 : S50000.Idx → EReal)
          (StableHlo.after hostOps0 W main_v1 : S800000.Idx → BitVec 32)
          (StableHlo.after hostOps0 W main_v3 : S800000.Idx → BitVec 32) := by
  unfold normK colK wrapK
  dsimp only [hostOps0]; after_results_simp

theorem s0_v32 :
    (StableHlo.after hostOps0 W main_v32 : S50000.Idx → EReal)
      = mulf (F := Ideal) (φ := .f32) (StableHlo.after hostOps0 W main_v16 : S50000.Idx → EReal)
          (StableHlo.after hostOps0 W main_v16 : S50000.Idx → EReal) := by
  dsimp only [hostOps0]; after_results_simp

end Stretch

/-! ## The join with the reference's chain -/

/-- The wrap of an index array with no negative entry is the array. -/
theorem wrapK_of_nonneg (v : EdgeI) (hv : ∀ i, 0 ≤ (v i).toInt) : wrapK v = v := by
  unfold wrapK
  exact Cert.Lib.Wrap.select_slt_zero_eq _ _ _ (fun _ => rfl) hv

/-- Likewise the reference's spelling of the wrap. -/
theorem wrapR_of_nonneg (v : EdgeI) (hv : ∀ i, 0 ≤ (v i).toInt) : Cert.ReferenceIdeal.HostR.wrapR v = v := by
  unfold Cert.ReferenceIdeal.HostR.wrapR
  exact Cert.Lib.Wrap.select_slt_zero_eq _ _ _ (fun _ => rfl) hv

/-- On a destination row with no negative entry the two programs' degree chains agree. -/
theorem degK_eq_degR (dst : EdgeI) (hd : ∀ i, 0 ≤ (dst i).toInt) :
    degK dst = Cert.ReferenceIdeal.HostR.degR dst := by
  unfold degK
  rw [wrapK_of_nonneg dst hd]
  rfl

/-- On source and destination rows with no negative entry the two programs' edge normalisations agree. -/
theorem normK_eq_normR (dis : NodeF) (src dst : EdgeI) (hs : ∀ i, 0 ≤ (src i).toInt) (hd : ∀ i, 0 ≤ (dst i).toInt) :
    normK dis src dst = Cert.ReferenceIdeal.HostR.normR dis src dst := by
  unfold normK Cert.ReferenceIdeal.HostR.normR
  rw [wrapK_of_nonneg src hs, wrapK_of_nonneg dst hd, wrapR_of_nonneg src hs, wrapR_of_nonneg dst hd]
  rfl

/-! ## The kernel program's arrays after its first host stretch are the reference's -/

section Stretch
variable (W : Valuation τ sig (Elt Ideal))

/-- The kernel program's source row is the reference's: the same slice and reshape of the edge list. -/
theorem s0_v1_ref :
    (StableHlo.after hostOps0 W main_v1 : S800000.Idx → BitVec 32)
      = Cert.ReferenceIdeal.Read.val_main_v1 (F := Ideal) (W main_arg1 : S2x800000.Idx → BitVec 32) := by
  rw [s0_v1]
  unfold Cert.ReferenceIdeal.Read.val_main_v1 Cert.ReferenceIdeal.Read.val_main_v0
  rfl

/-- Its destination row likewise. -/
theorem s0_v3_ref :
    (StableHlo.after hostOps0 W main_v3 : S800000.Idx → BitVec 32)
      = Cert.ReferenceIdeal.Read.val_main_v3 (F := Ideal) (W main_arg1 : S2x800000.Idx → BitVec 32) := by
  rw [s0_v3]
  unfold Cert.ReferenceIdeal.Read.val_main_v3 Cert.ReferenceIdeal.Read.val_main_v2
  rfl

end Stretch

variable (m : (ℓ : Loc nD τ sig) → Buf (Elt Ideal) ℓ) (c : Dev nD)

/-- On an edge list of node numbers the reference's source row has no negative entry. -/
theorem rsrc_nonneg (hEI : ∀ i : S2x800000.Idx, 0 ≤ ((V0 m c main_arg1 : S2x800000.Idx → BitVec 32) i).toInt
      ∧ ((V0 m c main_arg1 : S2x800000.Idx → BitVec 32) i).toInt < 50000) (i : S800000.Idx) :
    0 ≤ (Cert.ReferenceIdeal.Read.val_main_v1 (F := Ideal) (V0 m c main_arg1 : S2x800000.Idx → BitVec 32) i).toInt := by
  obtain ⟨e, rfl⟩ : ∃ e : Fin 800000, i = ix1 e := ⟨i 0, eq_ix1 i⟩
  rw [Cert.ReferenceIdeal.HostR.v1_at]; exact (hEI _).1

/-- Nor has its destination row. -/
theorem rdst_nonneg (hEI : ∀ i : S2x800000.Idx, 0 ≤ ((V0 m c main_arg1 : S2x800000.Idx → BitVec 32) i).toInt
      ∧ ((V0 m c main_arg1 : S2x800000.Idx → BitVec 32) i).toInt < 50000) (i : S800000.Idx) :
    0 ≤ (Cert.ReferenceIdeal.Read.val_main_v3 (F := Ideal) (V0 m c main_arg1 : S2x800000.Idx → BitVec 32) i).toInt := by
  obtain ⟨e, rfl⟩ : ∃ e : Fin 800000, i = ix1 e := ⟨i 0, eq_ix1 i⟩
  rw [Cert.ReferenceIdeal.HostR.v3_at]; exact (hEI _).1

/-- The kernel program's inverse square root of the degree is the reference's. -/
theorem V1_v16_eq (hEI : ∀ i : S2x800000.Idx, 0 ≤ ((V0 m c main_arg1 : S2x800000.Idx → BitVec 32) i).toInt
      ∧ ((V0 m c main_arg1 : S2x800000.Idx → BitVec 32) i).toInt < 50000) :
    (V1 m c main_v16 : S50000.Idx → EReal)
      = Cert.ReferenceIdeal.Read.val_main_v11 (F := Ideal) (V0 m c main_arg1 : S2x800000.Idx → BitVec 32) := by
  refine (s0_v16 (V0 m c)).trans ?_
  rw [s0_v3_ref, degK_eq_degR _ (rdst_nonneg m c hEI), ← Cert.ReferenceIdeal.HostR.v11_eq]

/-- The kernel program's edge normalisation is the reference's. -/
theorem V1_v31_eq (hEI : ∀ i : S2x800000.Idx, 0 ≤ ((V0 m c main_arg1 : S2x800000.Idx → BitVec 32) i).toInt
      ∧ ((V0 m c main_arg1 : S2x800000.Idx → BitVec 32) i).toInt < 50000) :
    (V1 m c main_v31 : S800000.Idx → EReal)
      = Cert.ReferenceIdeal.Read.val_main_v27 (F := Ideal) (V0 m c main_arg1 : S2x800000.Idx → BitVec 32) := by
  refine (s0_v31 (V0 m c)).trans ?_
  rw [show (StableHlo.after hostOps0 (V0 m c) main_v16 : S50000.Idx → EReal) = _ from V1_v16_eq m c hEI,
    s0_v1_ref, s0_v3_ref, normK_eq_normR _ _ _ (rsrc_nonneg m c hEI) (rdst_nonneg m c hEI),
    ← Cert.ReferenceIdeal.HostR.v27_eq]

/-- The kernel program's self-loop weight is the reference's. -/
theorem V1_v32_eq (hEI : ∀ i : S2x800000.Idx, 0 ≤ ((V0 m c main_arg1 : S2x800000.Idx → BitVec 32) i).toInt
      ∧ ((V0 m c main_arg1 : S2x800000.Idx → BitVec 32) i).toInt < 50000) :
    (V1 m c main_v32 : S50000.Idx → EReal)
      = Cert.ReferenceIdeal.Read.val_main_v41 (F := Ideal) (V0 m c main_arg1 : S2x800000.Idx → BitVec 32) := by
  refine (s0_v32 (V0 m c)).trans ?_
  rw [show (StableHlo.after hostOps0 (V0 m c) main_v16 : S50000.Idx → EReal) = _ from V1_v16_eq m c hEI,
    ← Cert.ReferenceIdeal.HostR.v41_eq]

end Cert.KernelIdeal.HostK

end
-- ==== Proof.KPool.lean ====
/-
  The kernel program's pooling and read-out as one function of whole arrays.

  After the third layer the program keeps the first 50000 rows of the padded node features, sums them per graph (a
  row scatter-add along the graph index wrapped around by the graph count), counts the nodes per graph (a scalar
  scatter-add of ones along the same indices), divides each graph's sum by the larger of one and its count, multiplies
  by the read-out weights and adds the read-out bias.
-/
import proofs.«104867_j4217657884863_1_alg».proof.Proof.Gen.KernelIdeal.Regions
import Idealize.ShloMosaic.Lib.ValueIdx
import Idealize.ShloMosaic.Lib.ValueLayout
import Idealize.ShloMosaic.Lib.IdealHost

set_option maxRecDepth 1352

noncomputable section

namespace Cert.KernelIdeal.HostK

open Cert.KernelIdeal Cert.KernelIdeal.Gen Idealize.ShloMosaic Idealize.ShloMosaic.ValueIdx
open Idealize.ShloMosaic.TcCoe

abbrev NodeI := (⟨S50000, .i32⟩ : BufTy).Contents (Elt Ideal)

/-- A negative graph index wrapped around by the graph count: select (v < 0, v + 64, v), entrywise. -/
def wrapB (v : NodeI) : NodeI :=
  select (cmpi .slt v (broadcastInDim S50000 ![] Facts₀.bcast_S_S50000 (constantI S_ 32 0#32)))
    (addi v (broadcastInDim S50000 ![] Facts₀.bcast_S_S50000 (constantI S_ 32 64#32))) v

/-- Mean pooling over the graphs of the first 50000 rows, followed by the linear read-out. -/
def poolK (h : (⟨S51200x64, .f32⟩ : BufTy).Contents (Elt Ideal)) (BT : NodeI)
    (Wl : (⟨S64x1, .f32⟩ : BufTy).Contents (Elt Ideal)) (bl : (⟨S1, .f32⟩ : BufTy).Contents (Elt Ideal)) :
    (⟨S64x1, .f32⟩ : BufTy).Contents (Elt Ideal) :=
  addf (F := Ideal) (φ := .f32)
    (Host.dotGeneral (F := Ideal) (φ₁ := .f32) (φ₂ := .f32) dot_S64x64_S64x1_S64x1_1_0_0_1_n_n none
      (Host.divf (F := Ideal) (φ := .f32)
        (Host.scatterAdd (F := Ideal) (φ := .f32) scatter_S64x64_S50000x1_S50000x64_1_0_0_1
          (broadcastInDim S64x64 ![] Facts₀.bcast_S_S64x64 (constant (F := Ideal) S_ .f32 0x00000000#32))
          (broadcastInDim S50000x1 ![0] Facts₀.bcast_S50000_S50000x1_0 (wrapB BT))
          (extractStridedSlice S50000x64 ![0, 0] h Facts₀.slices_S51200x64_S50000x64_0_0))
        (broadcastInDim S64x64 ![0, 1] Facts₀.bcast_S64x1_S64x64_0_1
          (broadcastInDim S64x1 ![0] Facts₀.bcast_S64_S64x1_0
            (maximumf (F := Ideal) (φ := .f32)
              (broadcastInDim S64 ![] Facts₀.bcast_S_S64 (id (constant (F := Ideal) S_ .f32 0x3F800000#32)))
              (Host.scatterAdd (F := Ideal) (φ := .f32) scatter_S64_S50000x1_S50000_n_0_0_1
                (broadcastInDim S64 ![] Facts₀.bcast_S_S64 (constant (F := Ideal) S_ .f32 0x00000000#32))
                (broadcastInDim S50000x1 ![0] Facts₀.bcast_S50000_S50000x1_0 (wrapB BT))
                (broadcastInDim S50000 ![] Facts₀.bcast_S_S50000 (constant (F := Ideal) S_ .f32 0x3F800000#32)))))))
      Wl)
    (broadcastInDim S64x1 ![0, 1] Facts₀.bcast_S1x1_S64x1_0_1 (broadcastInDim S1x1 ![1] Facts₀.bcast_S1_S1x1_1 bl))

variable (W : Valuation τ sig (Elt Ideal))

/-! ## The three stretches, one at a time, from any contents -/

/-- The per-graph sums: a row scatter-add of the first 50000 rows along the wrapped graph indices. -/
theorem s92_v82 :
    (StableHlo.after hostOps9_2 W main_v82 : (⟨S64x64, .f32⟩ : BufTy).Contents (Elt Ideal))
      = Host.scatterAdd (F := Ideal) (φ := .f32) scatter_S64x64_S50000x1_S50000x64_1_0_0_1
          (broadcastInDim S64x64 ![] Facts₀.bcast_S_S64x64 (constant (F := Ideal) S_ .f32 0x00000000#32))
          (broadcastInDim S50000x1 ![0] Facts₀.bcast_S50000_S50000x1_0 (wrapB (W main_arg2)))
          (extractStridedSlice S50000x64 ![0, 0] (W main_v73 : (⟨S51200x64, .f32⟩ : BufTy).Contents (Elt Ideal))
            Facts₀.slices_S51200x64_S50000x64_0_0) := by
  dsimp only [hostOps9_2]; after_results_simp; rfl

/-- The per-graph node counts: a scalar scatter-add of ones along the wrapped graph indices. -/
theorem s92_v91 :
    (StableHlo.after hostOps9_2 W main_v91 : (⟨S64, .f32⟩ : BufTy).Contents (Elt Ideal))
      = Host.scatterAdd (F := Ideal) (φ := .f32) scatter_S64_S50000x1_S50000_n_0_0_1
          (broadcastInDim S64 ![] Facts₀.bcast_S_S64 (constant (F := Ideal) S_ .f32 0x00000000#32))
          (broadcastInDim S50000x1 ![0] Facts₀.bcast_S50000_S50000x1_0 (wrapB (W main_arg2)))
          (broadcastInDim S50000 ![] Facts₀.bcast_S_S50000 (constant (F := Ideal) S_ .f32 0x3F800000#32)) := by
  dsimp only [hostOps9_2]; after_results_simp; rfl

theorem s92_cst20 :
    (StableHlo.after hostOps9_2 W main_cst_20 : (⟨S_, .f32⟩ : BufTy).Contents (Elt Ideal))
      = constant (F := Ideal) S_ .f32 0x3F800000#32 := by
  dsimp only [hostOps9_2]; after_results

/-- The counts clipped below at one. -/
theorem s93_v92 :
    (StableHlo.after hostOps9_3 W main_v92 : (⟨S64, .f32⟩ : BufTy).Contents (Elt Ideal))
      = maximumf (F := Ideal) (φ := .f32)
          (broadcastInDim S64 ![] Facts₀.bcast_S_S64 (id (W main_cst_20 : (⟨S_, .f32⟩ : BufTy).Contents (Elt Ideal))))
          (W main_v91) := by
  dsimp only [hostOps9_3]; after_results; rfl

/-- The mean, the read-out product and the read-out bias. -/
theorem s94_v99 :
    (StableHlo.after hostOps9_4 W main_v99 : (⟨S64x1, .f32⟩ : BufTy).Contents (Elt Ideal))
      = addf (F := Ideal) (φ := .f32)
          (Host.dotGeneral (F := Ideal) (φ₁ := .f32) (φ₂ := .f32) dot_S64x64_S64x1_S64x1_1_0_0_1_n_n none
            (Host.divf (F := Ideal) (φ := .f32) (W main_v82)
              (broadcastInDim S64x64 ![0, 1] Facts₀.bcast_S64x1_S64x64_0_1
                (broadcastInDim S64x1 ![0] Facts₀.bcast_S64_S64x1_0 (W main_v92))))
            (W main_arg9))
          (broadcastInDim S64x1 ![0, 1] Facts₀.bcast_S1x1_S64x1_0_1
            (broadcastInDim S1x1 ![1] Facts₀.bcast_S1_S1x1_1 (W main_arg10))) := by
  dsimp only [hostOps9_4]; after_results

/-! ## The three stretches together -/

/-- The three pooling stretches from any contents `W`: the result buffer is the pooling of `W`'s third-layer output,
    graph indices, read-out weights and read-out bias. -/
theorem pool_eq :
    (StableHlo.after hostOps9_4 (StableHlo.after hostOps9_3 (StableHlo.after hostOps9_2 W)) main_v99
        : (⟨S64x1, .f32⟩ : BufTy).Contents (Elt Ideal))
      = poolK (W main_v73) (W main_arg2) (W main_arg9) (W main_arg10) := by
  rw [s94_v99, s93_v92,
    StableHlo.after_of_writes_sub hostOps9_3 _ hostOps9_3_writes (by decide : main_v82 ∉ hostOps9_3_W),
    StableHlo.after_of_writes_sub hostOps9_3 _ hostOps9_3_writes (by decide : main_arg9 ∉ hostOps9_3_W),
    StableHlo.after_of_writes_sub hostOps9_3 _ hostOps9_3_writes (by decide : main_arg10 ∉ hostOps9_3_W),
    s92_v82, s92_v91, s92_cst20,
    StableHlo.after_of_writes_sub hostOps9_2 _ hostOps9_2_writes (by decide : main_arg9 ∉ hostOps9_2_W),
    StableHlo.after_of_writes_sub hostOps9_2 _ hostOps9_2_writes (by decide : main_arg10 ∉ hostOps9_2_W)]
  rfl

end Cert.KernelIdeal.HostK
-- ==== Proof.RPool.lean ====
/-
  The reference's mean pooling and read-out as one function of the last layer's output.  The rows of the [50000, 64]
  output are scatter-added into a [64, 64] table along the graph assignment, each graph's row is divided by its node
  count clamped below at one (the count a scalar scatter-add of ones along the same assignment), and the pooled table
  is mapped by the [64, 1] read-out weight plus its bias.  The function is written once and never opened: both sides of
  a comparison apply it to the last layer's output.
-/
import proofs.«104867_j4217657884863_1_alg».proof.Proof.Gen.ReferenceIdeal.Read

noncomputable section

open scoped BigOperators

namespace Cert.ReferenceIdeal.HostR

open Cert.ReferenceIdeal Cert.ReferenceIdeal.Gen Cert.ReferenceIdeal.Read Idealize.ShloMosaic Idealize.ShloMosaic.ValueIdx

/-- Mean pooling over the graphs followed by the linear read-out. -/
def poolR (h : (⟨S50000x64, .f32⟩ : BufTy).Contents (Elt Ideal)) (BT : (⟨S50000, .i32⟩ : BufTy).Contents (Elt Ideal))
    (Wl : (⟨S64x1, .f32⟩ : BufTy).Contents (Elt Ideal)) (bl : (⟨S1, .f32⟩ : BufTy).Contents (Elt Ideal)) :
    (⟨S64x1, .f32⟩ : BufTy).Contents (Elt Ideal) :=
  addf (F := Ideal) (φ := .f32)
    (Host.dotGeneral (F := Ideal) (φ₁ := .f32) (φ₂ := .f32) dot_S64x64_S64x1_S64x1_1_0_0_1_n_n none
      (Host.divf (F := Ideal) (φ := .f32)
        (Host.scatterAdd (F := Ideal) (φ := .f32) scatter_S64x64_S50000x1_S50000x64_1_0_0_1
          (broadcastInDim S64x64 ![] bcast_S_S64x64 (constant (F := Ideal) S_ .f32 0x00000000#32))
          (broadcastInDim S50000x1 ![0] bcast_S50000_S50000x1_0 BT) h)
        (broadcastInDim S64x64 ![0, 1] bcast_S64x1_S64x64_0_1
          (broadcastInDim S64x1 ![0] bcast_S64_S64x1_0
            (maximumf (F := Ideal) (φ := .f32)
              (broadcastInDim S64 ![] bcast_S_S64 (id (constant (F := Ideal) S_ .f32 0x3F800000#32)))
              (Host.scatterAdd (F := Ideal) (φ := .f32) scatter_S64_S50000x1_S50000_n_0_0_1
                (broadcastInDim S64 ![] bcast_S_S64 (constant (F := Ideal) S_ .f32 0x00000000#32))
                (broadcastInDim S50000x1 ![0] bcast_S50000_S50000x1_0 BT)
                (broadcastInDim S50000 ![] bcast_S_S50000 (constant (F := Ideal) S_ .f32 0x3F800000#32)))))))
      Wl)
    (broadcastInDim S64x1 ![0, 1] bcast_S1x1_S64x1_0_1 (broadcastInDim S1x1 ![1] bcast_S1_S1x1_1 bl))

variable (X : (⟨S50000x64, .f32⟩ : BufTy).Contents (Elt Ideal))
  (EI : (⟨S2x800000, .i32⟩ : BufTy).Contents (Elt Ideal))
  (BT : (⟨S50000, .i32⟩ : BufTy).Contents (Elt Ideal))
  (W1 : (⟨S64x64, .f32⟩ : BufTy).Contents (Elt Ideal)) (b1 : (⟨S64, .f32⟩ : BufTy).Contents (Elt Ideal))
  (W2 : (⟨S64x64, .f32⟩ : BufTy).Contents (Elt Ideal)) (b2 : (⟨S64, .f32⟩ : BufTy).Contents (Elt Ideal))
  (W3 : (⟨S64x64, .f32⟩ : BufTy).Contents (Elt Ideal)) (b3 : (⟨S64, .f32⟩ : BufTy).Contents (Elt Ideal))
  (Wl : (⟨S64x1, .f32⟩ : BufTy).Contents (Elt Ideal)) (bl : (⟨S1, .f32⟩ : BufTy).Contents (Elt Ideal))

/-- The program's result is the pooling and read-out of the third layer's output. -/
theorem v140_eq :
    val_main_v140 (F := Ideal) X EI BT W1 b1 W2 b2 W3 b3 Wl bl
      = poolR (val_main_v125 (F := Ideal) X EI W1 b1 W2 b2 W3 b3) BT Wl bl := by
  unfold val_main_v140 val_main_v137 val_main_v139 val_main_v136 val_main_v138 val_main_v128 val_main_v135
    val_main_v126 val_main_v127 val_main_v134 val_main_v133 val_main_call3_v1 val_main_v132 val_main_call3_v0
    val_main_v130 val_main_v131 val_main_v129 val_main_cst_23 val_main_cst_24 val_main_cst_25 val_main_cst_26 poolR
  rfl

end Cert.ReferenceIdeal.HostR

end
-- ==== Proof.KPoolJoin.lean ====
/-
  The kernel program's pooling against the reference's.

  The two programs pool with the same operations; the kernel program first keeps the first 50000 rows of its padded
  features and wraps the graph indices around by the graph count before each scatter. On non-negative graph indices the
  wrap is the identity, so the kernel program's pooling of the padded array is the reference's pooling of its first
  50000 rows.
-/
import proofs.«104867_j4217657884863_1_alg».proof.Proof.KPool
import proofs.«104867_j4217657884863_1_alg».proof.Proof.RPool
import proofs.«104867_j4217657884863_1_alg».proof.Proof.LibWrap

set_option maxRecDepth 1352

noncomputable section

namespace Cert.KernelIdeal.HostK

open Cert.KernelIdeal Cert.KernelIdeal.Gen Idealize.ShloMosaic Idealize.ShloMosaic.ValueIdx
open Idealize.ShloMosaic.TcCoe

/-! ## The pooling against the reference's -/

/-- The wrap of non-negative graph indices is the identity. -/
theorem wrapB_eq (BT : NodeI) (hBT : ∀ i, 0 ≤ (BT i).toInt) : wrapB BT = BT :=
  Cert.Lib.Wrap.select_slt_zero_eq BT _ _
    (fun i => by rw [broadcastInDim_scalar_apply, constantI_apply]; decide) hBT

/-- Under non-negative graph indices the kernel program's pooling of the padded features is the reference's pooling
    of their first 50000 rows. -/
theorem poolK_eq_poolR (h : (⟨S51200x64, .f32⟩ : BufTy).Contents (Elt Ideal)) (BT : NodeI)
    (Wl : (⟨S64x1, .f32⟩ : BufTy).Contents (Elt Ideal)) (bl : (⟨S1, .f32⟩ : BufTy).Contents (Elt Ideal))
    (hBT : ∀ i, 0 ≤ (BT i).toInt) :
    poolK h BT Wl bl
      = Cert.ReferenceIdeal.HostR.poolR
          (extractStridedSlice S50000x64 ![0, 0] h Facts₀.slices_S51200x64_S50000x64_0_0) BT Wl bl := by
  unfold poolK
  rw [wrapB_eq BT hBT]
  rfl

end Cert.KernelIdeal.HostK
-- ==== Proof.KResult.lean ====
/-
  The kernel program's result buffer off the last valuation.

  The last three host stretches pool the third layer's output; no item before them writes the graph indices, the
  read-out weights or the read-out bias. So the result buffer is the pooling of the third layer's output as the
  valuation after it holds it and of those three arguments as launched, and under non-negative graph indices it is the
  reference's pooling of the first 50000 rows of that output.
-/
import proofs.«104867_j4217657884863_1_alg».proof.Proof.KPoolJoin

set_option maxRecDepth 1352

noncomputable section

namespace Cert.KernelIdeal.HostK

open Cert.KernelIdeal Cert.KernelIdeal.Gen Idealize.ShloMosaic Idealize.ShloMosaic.ValueIdx
open Idealize.ShloMosaic.TcCoe

variable (m : (ℓ : Loc nD τ sig) → Buf (Elt Ideal) ℓ) (outs : Outs (F := Ideal)) (c : Dev nD)

/-- No item up to the third layer's tail writes the graph indices. -/
theorem V26_main_arg2 : V26 m outs c main_arg2 = V0 m c main_arg2 :=
  (V26_of m outs c main_arg2 (by decide)).trans <| (V25_of m outs c main_arg2 (by decide)).trans <| (V24_of m outs c main_arg2 (by decide)).trans <|
  (V23_of m outs c main_arg2 (by decide)).trans <| (V22_of m outs c main_arg2 (by decide)).trans <| (V21_of m outs c main_arg2 (by decide)).trans <|
  (V20_of m outs c main_arg2 (by decide)).trans <| (V19_of m outs c main_arg2 (by decide)).trans <| (V18_of m outs c main_arg2 (by decide)).trans <|
  (V17_of m outs c main_arg2 (by decide)).trans <| (V16_of m outs c main_arg2 (by decide)).trans <| (V15_of m outs c main_arg2 (by decide)).trans <|
  (V14_of m outs c main_arg2 (by decide)).trans <| (V13_of m outs c main_arg2 (by decide)).trans <| (V12_of m outs c main_arg2 (by decide)).trans <|
  (V11_of m c main_arg2 (by decide)).trans <| (V10_of m c main_arg2 (by decide)).trans <| (V9_of m c main_arg2 (by decide)).trans <|
  (V8_of m c main_arg2 (by decide)).trans <| (V7_of m c main_arg2 (by decide)).trans <| (V6_of m c main_arg2 (by decide)).trans <|
  (V5_of m c main_arg2 (by decide)).trans <| (V4_of m c main_arg2 (by decide)).trans <| (V3_of m c main_arg2 (by decide)).trans <|
  (V2_of m c main_arg2 (by decide)).trans <| (V1_of m c main_arg2 (by decide))

/-- No item up to the third layer's tail writes the read-out weights. -/
theorem V26_main_arg9 : V26 m outs c main_arg9 = V0 m c main_arg9 :=
  (V26_of m outs c main_arg9 (by decide)).trans <| (V25_of m outs c main_arg9 (by decide)).trans <| (V24_of m outs c main_arg9 (by decide)).trans <|
  (V23_of m outs c main_arg9 (by decide)).trans <| (V22_of m outs c main_arg9 (by decide)).trans <| (V21_of m outs c main_arg9 (by decide)).trans <|
  (V20_of m outs c main_arg9 (by decide)).trans <| (V19_of m outs c main_arg9 (by decide)).trans <| (V18_of m outs c main_arg9 (by decide)).trans <|
  (V17_of m outs c main_arg9 (by decide)).trans <| (V16_of m outs c main_arg9 (by decide)).trans <| (V15_of m outs c main_arg9 (by decide)).trans <|
  (V14_of m outs c main_arg9 (by decide)).trans <| (V13_of m outs c main_arg9 (by decide)).trans <| (V12_of m outs c main_arg9 (by decide)).trans <|
  (V11_of m c main_arg9 (by decide)).trans <| (V10_of m c main_arg9 (by decide)).trans <| (V9_of m c main_arg9 (by decide)).trans <|
  (V8_of m c main_arg9 (by decide)).trans <| (V7_of m c main_arg9 (by decide)).trans <| (V6_of m c main_arg9 (by decide)).trans <|
  (V5_of m c main_arg9 (by decide)).trans <| (V4_of m c main_arg9 (by decide)).trans <| (V3_of m c main_arg9 (by decide)).trans <|
  (V2_of m c main_arg9 (by decide)).trans <| (V1_of m c main_arg9 (by decide))

/-- No item up to the third layer's tail writes the read-out bias. -/
theorem V26_main_arg10 : V26 m outs c main_arg10 = V0 m c main_arg10 :=
  (V26_of m outs c main_arg10 (by decide)).trans <| (V25_of m outs c main_arg10 (by decide)).trans <| (V24_of m outs c main_arg10 (by decide)).trans <|
  (V23_of m outs c main_arg10 (by decide)).trans <| (V22_of m outs c main_arg10 (by decide)).trans <| (V21_of m outs c main_arg10 (by decide)).trans <|
  (V20_of m outs c main_arg10 (by decide)).trans <| (V19_of m outs c main_arg10 (by decide)).trans <| (V18_of m outs c main_arg10 (by decide)).trans <|
  (V17_of m outs c main_arg10 (by decide)).trans <| (V16_of m outs c main_arg10 (by decide)).trans <| (V15_of m outs c main_arg10 (by decide)).trans <|
  (V14_of m outs c main_arg10 (by decide)).trans <| (V13_of m outs c main_arg10 (by decide)).trans <| (V12_of m outs c main_arg10 (by decide)).trans <|
  (V11_of m c main_arg10 (by decide)).trans <| (V10_of m c main_arg10 (by decide)).trans <| (V9_of m c main_arg10 (by decide)).trans <|
  (V8_of m c main_arg10 (by decide)).trans <| (V7_of m c main_arg10 (by decide)).trans <| (V6_of m c main_arg10 (by decide)).trans <|
  (V5_of m c main_arg10 (by decide)).trans <| (V4_of m c main_arg10 (by decide)).trans <| (V3_of m c main_arg10 (by decide)).trans <|
  (V2_of m c main_arg10 (by decide)).trans <| (V1_of m c main_arg10 (by decide))

/-- The result buffer at the end of the program: the pooling of the third layer's output. -/
theorem V29_v99_eq :
    (V29 m outs c main_v99 : (⟨S64x1, .f32⟩ : BufTy).Contents (Elt Ideal))
      = poolK (V26 m outs c main_v73) (V0 m c main_arg2) (V0 m c main_arg9) (V0 m c main_arg10) := by
  refine (pool_eq (V26 m outs c)).trans ?_
  rw [V26_main_arg2, V26_main_arg9, V26_main_arg10]

/-- Under non-negative graph indices the result buffer is the reference's pooling of the first 50000 rows of the
    third layer's output. -/
theorem V29_v99_ref (hBT : ∀ i, 0 ≤ ((V0 m c main_arg2 : NodeI) i).toInt) :
    (V29 m outs c main_v99 : (⟨S64x1, .f32⟩ : BufTy).Contents (Elt Ideal))
      = Cert.ReferenceIdeal.HostR.poolR
          (extractStridedSlice S50000x64 ![0, 0]
            (V26 m outs c main_v73 : (⟨S51200x64, .f32⟩ : BufTy).Contents (Elt Ideal))
            Facts₀.slices_S51200x64_S50000x64_0_0)
          (V0 m c main_arg2) (V0 m c main_arg9) (V0 m c main_arg10) :=
  (V29_v99_eq m outs c).trans (poolK_eq_poolR _ _ _ _ hBT)

end Cert.KernelIdeal.HostK
-- ==== Proof.RLayerGlue.lean ====
import proofs.«104867_j4217657884863_1_alg».proof.ReferenceIdeal
import proofs.«104867_j4217657884863_1_alg».proof.Proof.LayerMath
import Idealize.ShloMosaic.Lib.ValueIdx

/-!
# One layer of the reference, from its stages read at an index to the layer function

The reference computes a layer in five stages: the dense product, the rows gathered at the (wrapped) source words, the
messages (rows times weights), their segment sums by raw target word started from zero, and
`relu((sums + h · dis²) + bias)`. Given each stage read at an index, the last stage is the layer function of LayerMath
on the unpadded arrays, each array read as a function of natural-number row indices (zero outside).
-/

noncomputable section

namespace Cert.ReferenceIdeal.Glue

open Idealize.ShloMosaic Idealize.ShloMosaic.ValueIdx Cert.ReferenceIdeal Cert.Layer

/-- A [50000, 64] array as a function of a natural row number, zero past the last row. -/
def extR (A : S50000x64.Idx → EReal) (n : ℕ) (q : Fin 64) : EReal := if h : n < 50000 then A (ix2 ⟨n, h⟩ q) else 0
/-- A vector of 800000 words as a function of the edge number, the zero word past the end. -/
def extVW (A : S800000.Idx → BitVec 32) (e : ℕ) : BitVec 32 := if h : e < 800000 then A (ix1 ⟨e, h⟩) else 0#32
/-- A vector of 800000 extended reals likewise. -/
def extVR (A : S800000.Idx → EReal) (e : ℕ) : EReal := if h : e < 800000 then A (ix1 ⟨e, h⟩) else 0
/-- A vector of 50000 extended reals likewise. -/
def ext1R (A : S50000.Idx → EReal) (n : ℕ) : EReal := if h : n < 50000 then A (ix1 ⟨n, h⟩) else 0

theorem extR_of_lt (A : S50000x64.Idx → EReal) (n : ℕ) (h : n < 50000) (q : Fin 64) : extR A n q = A (ix2 ⟨n, h⟩ q) := by
  unfold extR; rw [dif_pos h]
theorem extVW_of_lt (A : S800000.Idx → BitVec 32) (e : ℕ) (h : e < 800000) : extVW A e = A (ix1 ⟨e, h⟩) := by
  unfold extVW; rw [dif_pos h]
theorem extVR_of_lt (A : S800000.Idx → EReal) (e : ℕ) (h : e < 800000) : extVR A e = A (ix1 ⟨e, h⟩) := by
  unfold extVR; rw [dif_pos h]
theorem ext1R_of_lt (A : S50000.Idx → EReal) (n : ℕ) (h : n < 50000) : ext1R A n = A (ix1 ⟨n, h⟩) := by
  unfold ext1R; rw [dif_pos h]

/-- ONE LAYER of the reference. -/
theorem ref_layer (xr h12 h40 h49 : S50000x64.Idx → EReal) (h34 h37 : S800000x64.Idx → EReal)
    (w : S64x64.Idx → EReal) (bvec : S64.Idx → EReal)
    (srcw dst : S800000.Idx → BitVec 32) (normv : S800000.Idx → EReal) (d2v : S50000.Idx → EReal)
    (e12 : ∀ (n : Fin 50000) (q : Fin 64), h12 (ix2 n q) = ∑ k : Fin 64, xr (ix2 n k) * w (ix2 k q))
    (e34 : ∀ (e : Fin 800000) (q : Fin 64),
      h34 (ix2 e q) = h12 (ix2 (⟨min (srcw (ix1 e)).toInt.toNat 49999, by omega⟩ : Fin 50000) q))
    (e37 : ∀ (e : Fin 800000) (q : Fin 64), h37 (ix2 e q) = h34 (ix2 e q) * normv (ix1 e))
    (e40 : ∀ (n : Fin 50000) (q : Fin 64), h40 (ix2 n q)
      = 0 + ∑ e ∈ Finset.univ.filter (fun e : Fin 800000 => (dst (ix1 e)).toInt = (n.val : Int)), h37 (ix2 e q))
    (e49 : ∀ (n : Fin 50000) (q : Fin 64),
      h49 (ix2 n q) = max ((h40 (ix2 n q) + h12 (ix2 n q) * d2v (ix1 n)) + bvec (ix1 q)) 0)
    (n : Fin 50000) (q : Fin 64) :
    h49 (ix2 n q) = layerR (fun k q => w (ix2 k q)) (fun q => bvec (ix1 q)) (extVW srcw) (extVW dst) (extVR normv) (ext1R d2v)
      (extR xr) n.val q := by
  have hl : ∀ (n' : ℕ) (h' : n' < 50000) (q' : Fin 64), lin (fun k q => w (ix2 k q)) (extR xr) n' q' = h12 (ix2 ⟨n', h'⟩ q') := by
    intro n' h' q'
    unfold lin
    rw [e12]
    exact Finset.sum_congr rfl fun k _ => by rw [extR_of_lt _ n' h']
  unfold layerR
  rw [e49, e40, hl n.val n.isLt q, ext1R_of_lt d2v n.val n.isLt]
  refine congrArg (fun z => max (((0 + z) + h12 (ix2 n q) * d2v (ix1 n)) + bvec (ix1 q)) 0) ?_
  refine Finset.sum_congr ?_ fun e _ => ?_
  · ext e
    simp only [Finset.mem_filter, Finset.mem_univ, true_and]
    rw [extVW_of_lt dst e.val e.isLt]
  · unfold msgR
    rw [e37, e34, extVW_of_lt srcw e.val e.isLt, extVR_of_lt normv e.val e.isLt, hl _ (by omega) q]

end Cert.ReferenceIdeal.Glue

end
-- ==== Proof.Bridge.lean ====
import proofs.«104867_j4217657884863_1_alg».proof.Proof.KArrays
import proofs.«104867_j4217657884863_1_alg».proof.Proof.KPrep
import proofs.«104867_j4217657884863_1_alg».proof.Proof.KLayerGlue
import proofs.«104867_j4217657884863_1_alg».proof.Proof.RLayer1
import proofs.«104867_j4217657884863_1_alg».proof.Proof.RDeg
import proofs.«104867_j4217657884863_1_alg».proof.Proof.RLayerGlue
import proofs.«104867_j4217657884863_1_alg».proof.Proof.LibWrap

/-!
# The two programs' edge and node arrays, related

The kernel program reads padded copies of the input and of the edge arrays; the reference reads the originals. With
both programs run on the same argument arrays whose edge list holds node numbers: on the first 50000 rows the padded
input is the input; on the first 800000 edges the padded source column is the reference's (wrapped) source vector —
the wrap is the identity on non-negative words — and the padded target row its raw target vector; the padded weight
column is the reference's weight vector there and zero on the padding; the padded squared inverse root degree is the
reference's below 50000. The last two take as hypotheses that the two programs' degree chains give equal arrays.
-/

set_option maxRecDepth 4096

noncomputable section

namespace Cert.Bridge

open Idealize.ShloMosaic Idealize.ShloMosaic.TcCoe Idealize.ShloMosaic.ValueIdx Idealize.SL.Sem
open Cert.KernelIdeal Cert.KernelIdeal.Gen Cert.KernelIdeal.Chain Cert.KernelIdeal.HostK Cert.KernelIdeal.Glue
open Cert.ReferenceIdeal.Read Cert.ReferenceIdeal.HostR Cert.ReferenceIdeal.Glue

variable (m : (ℓ : Loc nD τ sig) → Buf (Elt Ideal) ℓ) (c : Dev nD)

/-- The reference's source vector is row 0 of the edge list, so its entries are node numbers. -/
theorem rsrc_range (hEI : ∀ i : S2x800000.Idx, 0 ≤ (aEI m c i).toInt ∧ (aEI m c i).toInt < 50000) (e : Fin 800000) :
    0 ≤ (val_main_v1 (F := Ideal) (aEI m c) (ix1 e)).toInt ∧ (val_main_v1 (F := Ideal) (aEI m c) (ix1 e)).toInt < 50000 := by
  rw [v1_at]; exact hEI _
/-- Its target vector is row 1. -/
theorem rdst_range (hEI : ∀ i : S2x800000.Idx, 0 ≤ (aEI m c i).toInt ∧ (aEI m c i).toInt < 50000) (e : Fin 800000) :
    0 ≤ (val_main_v3 (F := Ideal) (aEI m c) (ix1 e)).toInt ∧ (val_main_v3 (F := Ideal) (aEI m c) (ix1 e)).toInt < 50000 := by
  rw [v3_at]; exact hEI _

/-- The wrap leaves the source vector as it is. -/
theorem wrap_src (hEI : ∀ i : S2x800000.Idx, 0 ≤ (aEI m c i).toInt ∧ (aEI m c i).toInt < 50000) : val_main_v32 (F := Ideal) (aEI m c) = val_main_v1 (F := Ideal) (aEI m c) := by
  rw [v32_eq]
  unfold wrapR
  refine Cert.Lib.Wrap.select_slt_zero_eq _ _ _ (fun _ => rfl) (fun i => ?_)
  obtain ⟨e, rfl⟩ : ∃ e : Fin 800000, i = ix1 e := ⟨i 0, eq_ix1 i⟩
  exact (rsrc_range m c hEI e).1

/-- The padded source column on a true edge is the reference's wrapped source word. -/
theorem src_eq (hEI : ∀ i : S2x800000.Idx, 0 ≤ (aEI m c i).toInt ∧ (aEI m c i).toInt < 50000) (e : ℕ) (he : e < 800000) :
    extColW (srcC m c) e = extVW (val_main_v32 (F := Ideal) (aEI m c)) e := by
  have he' : e < 800768 := by omega
  unfold extColW extVW
  rw [dif_pos he', dif_pos he, wrap_src m c hEI, v1_at]
  refine (V11_v38_apply m c ⟨e, he'⟩).trans ?_
  rw [dif_pos he]
  exact V1_v1_apply m c ⟨e, he⟩

/-- The padded target row on a true edge is the reference's raw target word. -/
theorem dst_eq (e : ℕ) (he : e < 800000) :
    extRowW (dstR m c) e = extVW (val_main_v3 (F := Ideal) (aEI m c)) e := by
  have he' : e < 800768 := by omega
  unfold extRowW extVW
  rw [dif_pos he', dif_pos he, v3_at]
  refine (V11_v40_apply m c ⟨e, he'⟩).trans ?_
  rw [dif_pos he]
  exact V1_v3_apply m c ⟨e, he⟩

/-- The padded input on a true node row is the input. -/
theorem x_eq (n : ℕ) (hn : n < 50000) (k : Fin 64) : ext2 (x0 m c) n k = extR (aX m c) n k := by
  have hn' : n < 51200 := by omega
  unfold ext2 extR
  rw [dif_pos hn', dif_pos hn]
  refine (V11_v33_apply m c ⟨n, hn'⟩ k).trans ?_
  rw [dif_pos hn]

/-- The padded weight column on a true edge is the reference's weight. -/
theorem norm_eq (hn31 : (V1 m c main_v31 : S800000.Idx → EReal) = val_main_v27 (F := Ideal) (aEI m c)) (e : ℕ) (he : e < 800000) :
    extColR (normC m c) e = extVR (val_main_v27 (F := Ideal) (aEI m c)) e := by
  have he' : e < 800768 := by omega
  unfold extColR extVR
  rw [dif_pos he', dif_pos he]
  refine (V11_v39_apply m c ⟨e, he'⟩).trans ?_
  rw [dif_pos he, hn31]

/-- On the padding the weight is zero. -/
theorem norm_zero (e : ℕ) (h1 : 800000 ≤ e) (h2 : e < 800000 + 768) : extColR (normC m c) e = 0 := by
  have he' : e < 800768 := by omega
  unfold extColR
  rw [dif_pos he']
  refine (V11_v39_apply m c ⟨e, he'⟩).trans ?_
  rw [dif_neg (by show ¬ e < 800000; omega)]

/-- The padded squared inverse root degree on a true node is the reference's. -/
theorem d2_eq (hn32 : (V1 m c main_v32 : S50000.Idx → EReal) = val_main_v41 (F := Ideal) (aEI m c)) (n : ℕ) (hn : n < 50000) : ext1 (d2V m c) n = ext1R (val_main_v41 (F := Ideal) (aEI m c)) n := by
  have hn' : n < 51200 := by omega
  unfold ext1 ext1R
  rw [dif_pos hn', dif_pos hn]
  refine (V11_v37_apply m c ⟨n, hn'⟩).trans ?_
  rw [dif_pos hn, hn32]

end Cert.Bridge

end
-- ==== Proof.Join3.lean ====
import proofs.«104867_j4217657884863_1_alg».proof.Proof.LayerMath

/-!
# Three layers

If the two programs' inputs agree on the node rows below 50000, and each program's three layer results are the layer
functions of its previous result (the kernel's on padded arrays, the reference's on the unpadded ones, with the edge
arrays related as LayerMath asks), then the third results agree on those rows: the one-layer identity, three times.
-/

noncomputable section

namespace Cert.Layer

open Idealize.ShloMosaic

theorem three_layers (srcp dstp src dst : ℕ → BitVec 32) (normp norm d2p d2 : ℕ → EReal)
    (hsrc : ∀ e, e < 800000 → srcp e = src e) (hdst : ∀ e, e < 800000 → dstp e = dst e)
    (hnorm : ∀ e, e < 800000 → normp e = norm e) (hnorm0 : ∀ e, 800000 ≤ e → e < 800000 + 768 → normp e = 0)
    (hd2 : ∀ n, n < 50000 → d2p n = d2 n)
    (hsr : ∀ e, e < 800000 → 0 ≤ (src e).toInt ∧ (src e).toInt < 50000) (hds : ∀ e, e < 800000 → 0 ≤ (dst e).toInt)
    (W1 W2 W3 : Fin 64 → Fin 64 → EReal) (b1 b2 b3 : Fin 64 → EReal)
    (K0 K1 K2 K3 R0 R1 R2 R3 : ℕ → Fin 64 → EReal)
    (h0 : ∀ n, n < 50000 → ∀ k, K0 n k = R0 n k)
    (k1 : ∀ n, n < 50000 → ∀ q, K1 n q = layerK W1 b1 srcp dstp normp d2p K0 n q)
    (k2 : ∀ n, n < 50000 → ∀ q, K2 n q = layerK W2 b2 srcp dstp normp d2p K1 n q)
    (k3 : ∀ n, n < 50000 → ∀ q, K3 n q = layerK W3 b3 srcp dstp normp d2p K2 n q)
    (r1 : ∀ n, n < 50000 → ∀ q, R1 n q = layerR W1 b1 src dst norm d2 R0 n q)
    (r2 : ∀ n, n < 50000 → ∀ q, R2 n q = layerR W2 b2 src dst norm d2 R1 n q)
    (r3 : ∀ n, n < 50000 → ∀ q, R3 n q = layerR W3 b3 src dst norm d2 R2 n q) :
    ∀ n, n < 50000 → ∀ q, K3 n q = R3 n q := by
  have step : ∀ (W : Fin 64 → Fin 64 → EReal) (b : Fin 64 → EReal) (K K' R R' : ℕ → Fin 64 → EReal),
      (∀ n, n < 50000 → ∀ k, K n k = R n k) →
      (∀ n, n < 50000 → ∀ q, K' n q = layerK W b srcp dstp normp d2p K n q) →
      (∀ n, n < 50000 → ∀ q, R' n q = layerR W b src dst norm d2 R n q) →
      ∀ n, n < 50000 → ∀ q, K' n q = R' n q := by
    intro W b K K' R R' hKR hK hR n hn q
    rw [hK n hn q, hR n hn q]
    exact layerK_eq_layerR W b srcp dstp src dst normp norm d2p d2 K R hKR hsrc hdst hnorm hnorm0 hd2 hsr hds n hn q
  exact step W3 b3 K2 K3 R2 R3 (step W2 b2 K1 K2 R1 R2 (step W1 b1 K0 K1 R0 R1 h0 k1 r1) k2 r2) k3 r3

end Cert.Layer

end
-- ==== Proof.RLayer2.lean ====
/-
  The reference's second graph-convolution layer, read at an index: the linear map of the previous layer's output, the
  rows gathered along the edges' sources, the messages, their aggregation at the destinations, and the layer's output.
-/
import proofs.«104867_j4217657884863_1_alg».proof.Proof.Gen.ReferenceIdeal.Read
import proofs.«104867_j4217657884863_1_alg».proof.Proof.RGatherScatter

noncomputable section

open scoped BigOperators

namespace Cert.ReferenceIdeal.HostR

open Cert.ReferenceIdeal Cert.ReferenceIdeal.Read Idealize.ShloMosaic Idealize.ShloMosaic.ValueIdx

variable (X : (⟨S50000x64, .f32⟩ : BufTy).Contents (Elt Ideal))
  (EI : (⟨S2x800000, .i32⟩ : BufTy).Contents (Elt Ideal))
  (W1 : (⟨S64x64, .f32⟩ : BufTy).Contents (Elt Ideal))
  (b1 : (⟨S64, .f32⟩ : BufTy).Contents (Elt Ideal))
variable (W2 : (⟨S64x64, .f32⟩ : BufTy).Contents (Elt Ideal)) (b2 : (⟨S64, .f32⟩ : BufTy).Contents (Elt Ideal))

/-- The layer's linear map at (n, q): the row n of its input against the column q of its weight. -/
theorem v50_at (n : Fin 50000) (q : Fin 64) :
    val_main_v50 (F := Ideal) X EI W1 b1 W2 (ix2 n q) = ∑ k : Fin 64, val_main_v49 (F := Ideal) X EI W1 b1 (ix2 n k) * W2 (ix2 k q) := by
  rw [val_main_v50_apply]
  refine Finset.sum_congr rfl fun k _ => ?_
  have el : lidx_main_v50 (ix2 n q) k = ix2 n k := by
    funext a; match a with
    | ⟨0, _⟩ => rfl
    | ⟨1, _⟩ => rfl
  have er : ridx_main_v50 (ix2 n q) k = ix2 k q := by
    funext a; match a with
    | ⟨0, _⟩ => rfl
    | ⟨1, _⟩ => rfl
  rw [el, er]

/-- The layer's gathered rows at (e, q): the linear map's row at the edge's wrapped source, clamped into the
    table, column q. -/
theorem v72_at (e : Fin 800000) (q : Fin 64) :
    val_main_v72 (F := Ideal) X EI W1 b1 W2 (ix2 e q)
      = val_main_v50 (F := Ideal) X EI W1 b1 W2
          (ix2 (⟨min (val_main_v70 (F := Ideal) EI (ix1 e)).toInt.toNat 49999, by omega⟩ : Fin 50000) q) := by
  have hcol : val_main_v71 (F := Ideal) EI (ix2 e (0 : Fin 1)) = val_main_v70 (F := Ideal) EI (ix1 e) := by
    rw [val_main_v71_apply]
    exact congrArg _ (funext fun a => match a with | ⟨0, _⟩ => rfl)
  unfold val_main_v72
  rw [gather_rows_at]
  simp only [hcol]

/-- The messages at (e, q): the gathered row entry times the edge's normalisation. -/
theorem v75_at (e : Fin 800000) (q : Fin 64) :
    val_main_v75 (F := Ideal) X EI W1 b1 W2 (ix2 e q)
      = val_main_v72 (F := Ideal) X EI W1 b1 W2 (ix2 e q) * val_main_v65 (F := Ideal) EI (ix1 e) := by
  have h1 : idx_main_v73 (idx_main_v74 (ix2 e q)) = ix1 e := funext fun a => match a with | ⟨0, _⟩ => rfl
  rw [val_main_v75_apply, val_main_v74_apply, val_main_v73_apply, h1]
  rfl

/-- The aggregation at (n, q): the sum of the messages of the edges whose destination is n. -/
theorem v78_at (n : Fin 50000) (q : Fin 64) :
    val_main_v78 (F := Ideal) X EI W1 b1 W2 (ix2 n q)
      = 0 + ∑ e ∈ Finset.univ.filter (fun e : Fin 800000 => (val_main_v3 (F := Ideal) EI (ix1 e)).toInt = (n.val : Int)),
          val_main_v75 (F := Ideal) X EI W1 b1 W2 (ix2 e q) := by
  have hcol : ∀ e : Fin 800000,
      val_main_v77 (F := Ideal) EI (ix2 e (0 : Fin 1)) = val_main_v3 (F := Ideal) EI (ix1 e) := fun e => by
    rw [val_main_v77_apply]
    exact congrArg _ (funext fun a => match a with | ⟨0, _⟩ => rfl)
  unfold val_main_v78
  rw [scatter_rows_at, val_main_v76_apply, val_main_cst_15_apply, Ideal.ofBits_def, Ideal.ofBits_zero_f32]
  simp only [hcol]

/-- The layer's output at (n, q): aggregation plus the self-loop term plus the bias, clamped below at 0. -/
theorem v87_at (n : Fin 50000) (q : Fin 64) :
    val_main_v87 (F := Ideal) X EI W1 b1 W2 b2 (ix2 n q)
      = max ((val_main_v78 (F := Ideal) X EI W1 b1 W2 (ix2 n q)
            + val_main_v50 (F := Ideal) X EI W1 b1 W2 (ix2 n q) * val_main_v79 (F := Ideal) EI (ix1 n))
          + b2 (ix1 q)) 0 := by
  have h1 : idx_main_v80 (idx_main_v81 (ix2 n q)) = ix1 n := funext fun a => match a with | ⟨0, _⟩ => rfl
  have h2 : idx_main_v84 (idx_main_v85 (ix2 n q)) = ix1 q := funext fun a => match a with | ⟨0, _⟩ => rfl
  rw [val_main_v87_apply, val_main_v86_apply, val_main_v83_apply, val_main_v82_apply,
    val_main_v81_apply, val_main_v80_apply, val_main_v85_apply, val_main_v84_apply,
    val_main_call1_v0_apply, val_main_call1_cst_apply, Ideal.ofBits_def, Ideal.ofBits_zero_f32, h1, h2]
  rfl

end Cert.ReferenceIdeal.HostR

end
-- ==== Proof.RLayer3.lean ====
/-
  The reference's third graph-convolution layer, read at an index: the linear map of the previous layer's output, the
  rows gathered along the edges' sources, the messages, their aggregation at the destinations, and the layer's output.
-/
import proofs.«104867_j4217657884863_1_alg».proof.Proof.Gen.ReferenceIdeal.Read
import proofs.«104867_j4217657884863_1_alg».proof.Proof.RGatherScatter

noncomputable section

open scoped BigOperators

namespace Cert.ReferenceIdeal.HostR

open Cert.ReferenceIdeal Cert.ReferenceIdeal.Read Idealize.ShloMosaic Idealize.ShloMosaic.ValueIdx

variable (X : (⟨S50000x64, .f32⟩ : BufTy).Contents (Elt Ideal))
  (EI : (⟨S2x800000, .i32⟩ : BufTy).Contents (Elt Ideal))
  (W1 : (⟨S64x64, .f32⟩ : BufTy).Contents (Elt Ideal))
  (b1 : (⟨S64, .f32⟩ : BufTy).Contents (Elt Ideal))
variable (W2 : (⟨S64x64, .f32⟩ : BufTy).Contents (Elt Ideal)) (b2 : (⟨S64, .f32⟩ : BufTy).Contents (Elt Ideal))
variable (W3 : (⟨S64x64, .f32⟩ : BufTy).Contents (Elt Ideal)) (b3 : (⟨S64, .f32⟩ : BufTy).Contents (Elt Ideal))

/-- The layer's linear map at (n, q): the row n of its input against the column q of its weight. -/
theorem v88_at (n : Fin 50000) (q : Fin 64) :
    val_main_v88 (F := Ideal) X EI W1 b1 W2 b2 W3 (ix2 n q) = ∑ k : Fin 64, val_main_v87 (F := Ideal) X EI W1 b1 W2 b2 (ix2 n k) * W3 (ix2 k q) := by
  rw [val_main_v88_apply]
  refine Finset.sum_congr rfl fun k _ => ?_
  have el : lidx_main_v88 (ix2 n q) k = ix2 n k := by
    funext a; match a with
    | ⟨0, _⟩ => rfl
    | ⟨1, _⟩ => rfl
  have er : ridx_main_v88 (ix2 n q) k = ix2 k q := by
    funext a; match a with
    | ⟨0, _⟩ => rfl
    | ⟨1, _⟩ => rfl
  rw [el, er]

/-- The layer's gathered rows at (e, q): the linear map's row at the edge's wrapped source, clamped into the
    table, column q. -/
theorem v110_at (e : Fin 800000) (q : Fin 64) :
    val_main_v110 (F := Ideal) X EI W1 b1 W2 b2 W3 (ix2 e q)
      = val_main_v88 (F := Ideal) X EI W1 b1 W2 b2 W3
          (ix2 (⟨min (val_main_v108 (F := Ideal) EI (ix1 e)).toInt.toNat 49999, by omega⟩ : Fin 50000) q) := by
  have hcol : val_main_v109 (F := Ideal) EI (ix2 e (0 : Fin 1)) = val_main_v108 (F := Ideal) EI (ix1 e) := by
    rw [val_main_v109_apply]
    exact congrArg _ (funext fun a => match a with | ⟨0, _⟩ => rfl)
  unfold val_main_v110
  rw [gather_rows_at]
  simp only [hcol]

/-- The messages at (e, q): the gathered row entry times the edge's normalisation. -/
theorem v113_at (e : Fin 800000) (q : Fin 64) :
    val_main_v113 (F := Ideal) X EI W1 b1 W2 b2 W3 (ix2 e q)
      = val_main_v110 (F := Ideal) X EI W1 b1 W2 b2 W3 (ix2 e q) * val_main_v103 (F := Ideal) EI (ix1 e) := by
  have h1 : idx_main_v111 (idx_main_v112 (ix2 e q)) = ix1 e := funext fun a => match a with | ⟨0, _⟩ => rfl
  rw [val_main_v113_apply, val_main_v112_apply, val_main_v111_apply, h1]
  rfl

/-- The aggregation at (n, q): the sum of the messages of the edges whose destination is n. -/
theorem v116_at (n : Fin 50000) (q : Fin 64) :
    val_main_v116 (F := Ideal) X EI W1 b1 W2 b2 W3 (ix2 n q)
      = 0 + ∑ e ∈ Finset.univ.filter (fun e : Fin 800000 => (val_main_v3 (F := Ideal) EI (ix1 e)).toInt = (n.val : Int)),
          val_main_v113 (F := Ideal) X EI W1 b1 W2 b2 W3 (ix2 e q) := by
  have hcol : ∀ e : Fin 800000,
      val_main_v115 (F := Ideal) EI (ix2 e (0 : Fin 1)) = val_main_v3 (F := Ideal) EI (ix1 e) := fun e => by
    rw [val_main_v115_apply]
    exact congrArg _ (funext fun a => match a with | ⟨0, _⟩ => rfl)
  unfold val_main_v116
  rw [scatter_rows_at, val_main_v114_apply, val_main_cst_22_apply, Ideal.ofBits_def, Ideal.ofBits_zero_f32]
  simp only [hcol]

/-- The layer's output at (n, q): aggregation plus the self-loop term plus the bias, clamped below at 0. -/
theorem v125_at (n : Fin 50000) (q : Fin 64) :
    val_main_v125 (F := Ideal) X EI W1 b1 W2 b2 W3 b3 (ix2 n q)
      = max ((val_main_v116 (F := Ideal) X EI W1 b1 W2 b2 W3 (ix2 n q)
            + val_main_v88 (F := Ideal) X EI W1 b1 W2 b2 W3 (ix2 n q) * val_main_v117 (F := Ideal) EI (ix1 n))
          + b3 (ix1 q)) 0 := by
  have h1 : idx_main_v118 (idx_main_v119 (ix2 n q)) = ix1 n := funext fun a => match a with | ⟨0, _⟩ => rfl
  have h2 : idx_main_v122 (idx_main_v123 (ix2 n q)) = ix1 q := funext fun a => match a with | ⟨0, _⟩ => rfl
  rw [val_main_v125_apply, val_main_v124_apply, val_main_v121_apply, val_main_v120_apply,
    val_main_v119_apply, val_main_v118_apply, val_main_v123_apply, val_main_v122_apply,
    val_main_call2_v0_apply, val_main_call2_cst_apply, Ideal.ofBits_def, Ideal.ofBits_zero_f32, h1, h2]
  rfl

end Cert.ReferenceIdeal.HostR

end
-- ==== Proof.RChain.lean ====
import proofs.«104867_j4217657884863_1_alg».proof.Proof.RLayer1
import proofs.«104867_j4217657884863_1_alg».proof.Proof.RLayer2
import proofs.«104867_j4217657884863_1_alg».proof.Proof.RLayer3
import proofs.«104867_j4217657884863_1_alg».proof.Proof.RLayerGlue

/-!
# The reference's three layers as the layer function

Each layer's five stages read at an index (product, gathered rows, messages, segment sums, rectified tail) chain into
the layer function on the unpadded arrays: layer 1 of the input, layer 2 of layer 1's result, layer 3 of layer 2's.
The source words are the wrapped ones the gathers use, the target words the raw ones the segment sums use; weights and
squared inverse root degrees are the arrays each layer recomputes.
-/

noncomputable section

namespace Cert.ReferenceIdeal.Chain

open Cert.ReferenceIdeal Cert.ReferenceIdeal.Read Cert.ReferenceIdeal.HostR Cert.ReferenceIdeal.Glue Cert.Layer
open Idealize.ShloMosaic Idealize.ShloMosaic.ValueIdx

variable (X : (⟨S50000x64, .f32⟩ : BufTy).Contents (Elt Ideal))
  (EI : (⟨S2x800000, .i32⟩ : BufTy).Contents (Elt Ideal))
  (W1 : (⟨S64x64, .f32⟩ : BufTy).Contents (Elt Ideal)) (b1 : (⟨S64, .f32⟩ : BufTy).Contents (Elt Ideal))
  (W2 : (⟨S64x64, .f32⟩ : BufTy).Contents (Elt Ideal)) (b2 : (⟨S64, .f32⟩ : BufTy).Contents (Elt Ideal))
  (W3 : (⟨S64x64, .f32⟩ : BufTy).Contents (Elt Ideal)) (b3 : (⟨S64, .f32⟩ : BufTy).Contents (Elt Ideal))

/-- Layer 1 of the reference. -/
theorem rlayer1 (n : Fin 50000) (q : Fin 64) :
    val_main_v49 (F := Ideal) X EI W1 b1 (ix2 n q)
      = layerR (fun k q => W1 (ix2 k q)) (fun q => b1 (ix1 q)) (extVW (val_main_v32 (F := Ideal) EI)) (extVW (val_main_v3 (F := Ideal) EI))
          (extVR (val_main_v27 (F := Ideal) EI)) (ext1R (val_main_v41 (F := Ideal) EI)) (extR X) n.val q :=
  ref_layer X (val_main_v12 (F := Ideal) X W1) (val_main_v40 (F := Ideal) X EI W1) (val_main_v49 (F := Ideal) X EI W1 b1)
    (val_main_v34 (F := Ideal) X EI W1) (val_main_v37 (F := Ideal) X EI W1) W1 b1
    (val_main_v32 (F := Ideal) EI) (val_main_v3 (F := Ideal) EI) (val_main_v27 (F := Ideal) EI) (val_main_v41 (F := Ideal) EI)
    (v12_at X W1) (v34_at X EI W1) (v37_at X EI W1) (v40_at X EI W1) (v49_at X EI W1 b1) n q

/-- Layer 2 of the reference, of layer 1's result. -/
theorem rlayer2 (n : Fin 50000) (q : Fin 64) :
    val_main_v87 (F := Ideal) X EI W1 b1 W2 b2 (ix2 n q)
      = layerR (fun k q => W2 (ix2 k q)) (fun q => b2 (ix1 q)) (extVW (val_main_v70 (F := Ideal) EI)) (extVW (val_main_v3 (F := Ideal) EI))
          (extVR (val_main_v65 (F := Ideal) EI)) (ext1R (val_main_v79 (F := Ideal) EI)) (extR (val_main_v49 (F := Ideal) X EI W1 b1)) n.val q :=
  ref_layer (val_main_v49 (F := Ideal) X EI W1 b1) (val_main_v50 (F := Ideal) X EI W1 b1 W2) (val_main_v78 (F := Ideal) X EI W1 b1 W2)
    (val_main_v87 (F := Ideal) X EI W1 b1 W2 b2) (val_main_v72 (F := Ideal) X EI W1 b1 W2) (val_main_v75 (F := Ideal) X EI W1 b1 W2) W2 b2
    (val_main_v70 (F := Ideal) EI) (val_main_v3 (F := Ideal) EI) (val_main_v65 (F := Ideal) EI) (val_main_v79 (F := Ideal) EI)
    (v50_at X EI W1 b1 W2) (v72_at X EI W1 b1 W2) (v75_at X EI W1 b1 W2) (v78_at X EI W1 b1 W2) (v87_at X EI W1 b1 W2 b2) n q

/-- Layer 3 of the reference, of layer 2's result. -/
theorem rlayer3 (n : Fin 50000) (q : Fin 64) :
    val_main_v125 (F := Ideal) X EI W1 b1 W2 b2 W3 b3 (ix2 n q)
      = layerR (fun k q => W3 (ix2 k q)) (fun q => b3 (ix1 q)) (extVW (val_main_v108 (F := Ideal) EI)) (extVW (val_main_v3 (F := Ideal) EI))
          (extVR (val_main_v103 (F := Ideal) EI)) (ext1R (val_main_v117 (F := Ideal) EI)) (extR (val_main_v87 (F := Ideal) X EI W1 b1 W2 b2)) n.val q :=
  ref_layer (val_main_v87 (F := Ideal) X EI W1 b1 W2 b2) (val_main_v88 (F := Ideal) X EI W1 b1 W2 b2 W3) (val_main_v116 (F := Ideal) X EI W1 b1 W2 b2 W3)
    (val_main_v125 (F := Ideal) X EI W1 b1 W2 b2 W3 b3) (val_main_v110 (F := Ideal) X EI W1 b1 W2 b2 W3) (val_main_v113 (F := Ideal) X EI W1 b1 W2 b2 W3) W3 b3
    (val_main_v108 (F := Ideal) EI) (val_main_v3 (F := Ideal) EI) (val_main_v103 (F := Ideal) EI) (val_main_v117 (F := Ideal) EI)
    (v88_at X EI W1 b1 W2 b2 W3) (v110_at X EI W1 b1 W2 b2 W3) (v113_at X EI W1 b1 W2 b2 W3) (v116_at X EI W1 b1 W2 b2 W3)
    (v125_at X EI W1 b1 W2 b2 W3 b3) n q

end Cert.ReferenceIdeal.Chain

end
-- ==== Proof.FinalEq.lean ====
import proofs.«104867_j4217657884863_1_alg».proof.Proof.Bridge
import proofs.«104867_j4217657884863_1_alg».proof.Proof.Join3
import proofs.«104867_j4217657884863_1_alg».proof.Proof.RChain
import proofs.«104867_j4217657884863_1_alg».proof.Proof.RPool
import Idealize.ShloMosaic.Lib.Pipeline.Value

/-!
# The result of the kernel program is the result of the reference

Given the kernel program's three layer arrays as layer functions of one another (from the padded input), and its
result as the pooling of the first 50000 rows of the third: the third layer agrees with the reference's on those rows
(three layers, over the related edge arrays), so the pooled rows are the reference's third layer, and the result is
the reference's last stage.
-/

set_option maxRecDepth 4096

noncomputable section

namespace Cert.FinalEq

open Idealize.ShloMosaic Idealize.ShloMosaic.TcCoe Idealize.ShloMosaic.ValueIdx Idealize.ShloMosaic.Pipeline Idealize.SL.Sem
open Cert.KernelIdeal Cert.KernelIdeal.Gen Cert.KernelIdeal.Chain Cert.KernelIdeal.Glue Cert.Layer
open Cert.ReferenceIdeal.Read Cert.ReferenceIdeal.HostR Cert.ReferenceIdeal.Glue Cert.ReferenceIdeal.Chain

variable (m : (ℓ : Loc nD τ sig) → Buf (Elt Ideal) ℓ) (c : Dev nD)

/-- The third layers agree on the node rows below 50000. -/
theorem third_layer_eq
    (hEI : ∀ i : S2x800000.Idx, 0 ≤ (aEI m c i).toInt ∧ (aEI m c i).toInt < 50000)
    (hn31 : (V1 m c main_v31 : S800000.Idx → EReal) = val_main_v27 (F := Ideal) (aEI m c))
    (hn32 : (V1 m c main_v32 : S50000.Idx → EReal) = val_main_v41 (F := Ideal) (aEI m c))
    (t1 t2 t3 : S51200x64.Idx → EReal)
    (k1 : ∀ (n : Fin 51200) (q : Fin 64), t1 (ix2 n q) = layerK (fun k q => aW1 m c (ix2 k q)) (fun q => ab1 m c (ix1 q))
      (extColW (srcC m c)) (extRowW (dstR m c)) (extColR (normC m c)) (ext1 (d2V m c)) (ext2 (x0 m c)) n.val q)
    (k2 : ∀ (n : Fin 51200) (q : Fin 64), t2 (ix2 n q) = layerK (fun k q => aW2 m c (ix2 k q)) (fun q => ab2 m c (ix1 q))
      (extColW (srcC m c)) (extRowW (dstR m c)) (extColR (normC m c)) (ext1 (d2V m c)) (ext2 t1) n.val q)
    (k3 : ∀ (n : Fin 51200) (q : Fin 64), t3 (ix2 n q) = layerK (fun k q => aW3 m c (ix2 k q)) (fun q => ab3 m c (ix1 q))
      (extColW (srcC m c)) (extRowW (dstR m c)) (extColR (normC m c)) (ext1 (d2V m c)) (ext2 t2) n.val q)
    (n : Fin 50000) (q : Fin 64) :
    t3 (ix2 (⟨n.val, by omega⟩ : Fin 51200) q)
      = val_main_v125 (F := Ideal) (aX m c) (aEI m c) (aW1 m c) (ab1 m c) (aW2 m c) (ab2 m c) (aW3 m c) (ab3 m c) (ix2 n q) := by
  have hK : ∀ (t t' : S51200x64.Idx → EReal) (W : Fin 64 → Fin 64 → EReal) (b : Fin 64 → EReal),
      (∀ (n : Fin 51200) (q : Fin 64), t' (ix2 n q) = layerK W b (extColW (srcC m c)) (extRowW (dstR m c)) (extColR (normC m c))
        (ext1 (d2V m c)) (ext2 t) n.val q) →
      ∀ n', n' < 50000 → ∀ q', ext2 t' n' q' = layerK W b (extColW (srcC m c)) (extRowW (dstR m c)) (extColR (normC m c))
        (ext1 (d2V m c)) (ext2 t) n' q' := by
    intro t t' W b h n' hn' q'
    have hlt : n' < 51200 := by omega
    rw [ext2_of_lt _ n' hlt]
    exact h ⟨n', hlt⟩ q'
  have key := three_layers (extColW (srcC m c)) (extRowW (dstR m c))
    (extVW (val_main_v32 (F := Ideal) (aEI m c))) (extVW (val_main_v3 (F := Ideal) (aEI m c)))
    (extColR (normC m c)) (extVR (val_main_v27 (F := Ideal) (aEI m c)))
    (ext1 (d2V m c)) (ext1R (val_main_v41 (F := Ideal) (aEI m c)))
    (Cert.Bridge.src_eq m c hEI) (Cert.Bridge.dst_eq m c) (Cert.Bridge.norm_eq m c hn31) (Cert.Bridge.norm_zero m c)
    (Cert.Bridge.d2_eq m c hn32)
    (fun e he => by
      rw [extVW_of_lt _ e he, Cert.Bridge.wrap_src m c hEI]
      exact Cert.Bridge.rsrc_range m c hEI ⟨e, he⟩)
    (fun e he => by
      rw [extVW_of_lt _ e he]
      exact (Cert.Bridge.rdst_range m c hEI ⟨e, he⟩).1)
    (fun k q => aW1 m c (ix2 k q)) (fun k q => aW2 m c (ix2 k q)) (fun k q => aW3 m c (ix2 k q))
    (fun q => ab1 m c (ix1 q)) (fun q => ab2 m c (ix1 q)) (fun q => ab3 m c (ix1 q))
    (ext2 (x0 m c)) (ext2 t1) (ext2 t2) (ext2 t3)
    (extR (aX m c)) (extR (val_main_v49 (F := Ideal) (aX m c) (aEI m c) (aW1 m c) (ab1 m c)))
    (extR (val_main_v87 (F := Ideal) (aX m c) (aEI m c) (aW1 m c) (ab1 m c) (aW2 m c) (ab2 m c)))
    (extR (val_main_v125 (F := Ideal) (aX m c) (aEI m c) (aW1 m c) (ab1 m c) (aW2 m c) (ab2 m c) (aW3 m c) (ab3 m c)))
    (Cert.Bridge.x_eq m c)
    (hK (x0 m c) t1 _ _ k1) (hK t1 t2 _ _ k2) (hK t2 t3 _ _ k3)
    (fun n' hn' q' => by
      rw [extR_of_lt _ n' hn']
      exact rlayer1 (aX m c) (aEI m c) (aW1 m c) (ab1 m c) ⟨n', hn'⟩ q')
    (fun n' hn' q' => by
      rw [extR_of_lt _ n' hn', ← v70_eq, ← v65_eq, ← v79_eq]
      exact rlayer2 (aX m c) (aEI m c) (aW1 m c) (ab1 m c) (aW2 m c) (ab2 m c) ⟨n', hn'⟩ q')
    (fun n' hn' q' => by
      rw [extR_of_lt _ n' hn', ← v108_eq, ← v103_eq, ← v117_eq]
      exact rlayer3 (aX m c) (aEI m c) (aW1 m c) (ab1 m c) (aW2 m c) (ab2 m c) (aW3 m c) (ab3 m c) ⟨n', hn'⟩ q')
    n.val n.isLt q
  rw [ext2_of_lt _ n.val (by have := n.isLt; omega), extR_of_lt _ n.val n.isLt] at key
  exact key

/-- The result: the pooling of the first 50000 rows of the kernel's third layer is the reference's last stage. -/
theorem result_eq
    (hEI : ∀ i : S2x800000.Idx, 0 ≤ (aEI m c i).toInt ∧ (aEI m c i).toInt < 50000)
    (hn31 : (V1 m c main_v31 : S800000.Idx → EReal) = val_main_v27 (F := Ideal) (aEI m c))
    (hn32 : (V1 m c main_v32 : S50000.Idx → EReal) = val_main_v41 (F := Ideal) (aEI m c))
    (t1 t2 t3 : S51200x64.Idx → EReal)
    (k1 : ∀ (n : Fin 51200) (q : Fin 64), t1 (ix2 n q) = layerK (fun k q => aW1 m c (ix2 k q)) (fun q => ab1 m c (ix1 q))
      (extColW (srcC m c)) (extRowW (dstR m c)) (extColR (normC m c)) (ext1 (d2V m c)) (ext2 (x0 m c)) n.val q)
    (k2 : ∀ (n : Fin 51200) (q : Fin 64), t2 (ix2 n q) = layerK (fun k q => aW2 m c (ix2 k q)) (fun q => ab2 m c (ix1 q))
      (extColW (srcC m c)) (extRowW (dstR m c)) (extColR (normC m c)) (ext1 (d2V m c)) (ext2 t1) n.val q)
    (k3 : ∀ (n : Fin 51200) (q : Fin 64), t3 (ix2 n q) = layerK (fun k q => aW3 m c (ix2 k q)) (fun q => ab3 m c (ix1 q))
      (extColW (srcC m c)) (extRowW (dstR m c)) (extColR (normC m c)) (ext1 (d2V m c)) (ext2 t2) n.val q)
    (res : S64x1.Idx → EReal)
    (hres : res = poolR (extractStridedSlice S50000x64 ![0, 0] t3 slices_S51200x64_S50000x64_0_0) (aBT m c) (aWl m c) (abl m c)) :
    res = val_main_v140 (F := Ideal) (aX m c) (aEI m c) (aBT m c) (aW1 m c) (ab1 m c) (aW2 m c) (ab2 m c) (aW3 m c) (ab3 m c)
      (aWl m c) (abl m c) := by
  rw [hres, v140_eq]
  refine congrArg (fun h => poolR h (aBT m c) (aWl m c) (abl m c)) ?_
  funext i
  obtain ⟨n, q, rfl⟩ : ∃ (n : Fin 50000) (q : Fin 64), i = ix2 n q := ⟨i 0, i 1, eq_ix2 i⟩
  rw [extractStridedSlice_apply ![0, 0] t3 slices_S51200x64_S50000x64_0_0 (ix2 n q) (ix2 (⟨n.val, by omega⟩ : Fin 51200) q)
    (fun a => match a with
      | ⟨0, _⟩ => by show n.val = 0 + n.val; omega
      | ⟨1, _⟩ => by show q.val = 0 + q.val; omega)]
  exact third_layer_eq m c hEI hn31 hn32 t1 t2 t3 k1 k2 k3 n q

end Cert.FinalEq

end
-- ==== Proof.PreIdx.lean ====
import proofs.«104867_j4217657884863_1_alg».proof.Pre_finite_inputs
import Idealize.ShloMosaic.Lib.ReduceAll
import Idealize.ShloMosaic.Lib.Affine
import Idealize.ShloMosaic.Lib.ValueIdx

/-!
# The precondition's index conjuncts, decoded

The stated precondition is a conjunction, evaluated as one bit: every float input finite, every entry of the edge
list a node number (`0 ≤ · < 50000`), every entry of the graph assignment a graph number (`0 ≤ · < 64`). The last two
are `jnp.all` of a pointwise `and` of two signed comparisons. When the bit is one, each entry satisfies its bounds as a
signed 32-bit number. (The finiteness conjuncts are not opened: the equivalence of the two programs does not use them.)
-/

noncomputable section

namespace Cert.PreIdx

open Idealize.ShloMosaic Idealize.ShloMosaic.ValueIdx Cert.Pre_finite_inputs

instance : Subsingleton S_.Idx := ⟨fun a b => funext fun d => d.elim0⟩

variable {F : FTy → Type} [FloatOps F] [Cert.Pre_finite_inputs.Facts]

/-- Every entry of the edge list is a node number and every entry of the graph assignment is a graph number. -/
theorem index_ranges (a0 : FVec F S50000x64 .f32) (a1 : IVec S2x800000 32) (a2 : IVec S50000 32) (a3 : FVec F S64x64 .f32)
    (a4 : FVec F S64 .f32) (a5 : FVec F S64x64 .f32) (a6 : FVec F S64 .f32) (a7 : FVec F S64x64 .f32) (a8 : FVec F S64 .f32)
    (a9 : FVec F S64x1 .f32) (a10 : FVec F S1 .f32)
    (h : fn (F := F) a0 a1 a2 a3 a4 a5 a6 a7 a8 a9 a10 = fun _ => 1#1) :
    (∀ i : S2x800000.Idx, 0 ≤ (a1 i).toInt ∧ (a1 i).toInt < 50000) ∧ (∀ i : S50000.Idx, 0 ≤ (a2 i).toInt ∧ (a2 i).toInt < 64) := by
  have h0 := congrFun h ix0
  dsimp only [fn, fn_part1, fn_part2, fn_part3] at h0
  obtain ⟨hA, hB⟩ := IntOp.andi_eq_one.mp h0
  obtain ⟨_, hE⟩ := IntOp.andi_eq_one.mp hA
  have z0 : (0#32 : BitVec 32).toInt = 0 := by decide
  have z1 : (50000#32 : BitVec 32).toInt = 50000 := by decide
  have z2 : (64#32 : BitVec 32).toInt = 64 := by decide
  refine ⟨fun i => ?_, fun i => ?_⟩
  · have hi := Host.reduce_andi_all _ _ _ _ ix0 hE i
    obtain ⟨g1, g2⟩ := IntOp.andi_eq_one.mp hi
    have g1' := IntOp.cmpi_sge.mp g1
    have g2' := IntOp.cmpi_slt.mp g2
    exact ⟨z0 ▸ g1', z1 ▸ g2'⟩
  · have hi := Host.reduce_andi_all _ _ _ _ ix0 hB i
    obtain ⟨g1, g2⟩ := IntOp.andi_eq_one.mp hi
    have g1' := IntOp.cmpi_sge.mp g1
    have g2' := IntOp.cmpi_slt.mp g2
    exact ⟨z0 ▸ g1', z2 ▸ g2'⟩

end Cert.PreIdx

end
-- ==== Proof.Algebraic.lean ====
import proofs.«104867_j4217657884863_1_alg».proof.Defs
import proofs.«104867_j4217657884863_1_alg».proof.Proof.Gen.KernelIdeal
import proofs.«104867_j4217657884863_1_alg».proof.Proof.Gen.ReferenceIdeal
import proofs.«104867_j4217657884863_1_alg».proof.Proof.Gen.Pre_finite_inputs
import proofs.«104867_j4217657884863_1_alg».proof.Proof.FramesFinal
import proofs.«104867_j4217657884863_1_alg».proof.Proof.KChain3
import proofs.«104867_j4217657884863_1_alg».proof.Proof.KDeg
import proofs.«104867_j4217657884863_1_alg».proof.Proof.KResult
import proofs.«104867_j4217657884863_1_alg».proof.Proof.FinalEq
import proofs.«104867_j4217657884863_1_alg».proof.Proof.PreIdx
import proofs.«104867_j4217657884863_1_alg».proof.Proof.Gen.ReferenceIdeal.Run
import proofs.«104867_j4217657884863_1_alg».proof.Proof.Gen.ReferenceIdeal.Read

/-!
# The two idealized programs end with equal results

The kernel program's run ends with its result buffer at the last valuation of its items; that valuation is the
pooling stage applied to the third layer's array, which is the pooling of the reference's third layer on the first
50000 rows; the reference's run ends at its last stage of the same arguments. The index preconditions (edge words are
node numbers, graph words non-negative) are read off the stated precondition.
-/

set_option maxRecDepth 4096

noncomputable section

namespace Cert.Proof.Alg

open Idealize.ShloMosaic Idealize.ShloMosaic.TcCoe Idealize.ShloMosaic.ValueIdx Idealize.SL.Sem
open Cert.KernelIdeal Cert.KernelIdeal.Gen Cert.KernelIdeal.Hand Cert.KernelIdeal.Chain Cert.KernelIdeal.HostK

variable (m : (ℓ : Loc nD τ sig) → Buf (Elt Ideal) ℓ) (c : Dev nD)

/-- The kernel program's result buffer as the reference's last stage of the same arguments. -/
theorem kernel_result
    (hEI : ∀ i : S2x800000.Idx, 0 ≤ (aEI m c i).toInt ∧ (aEI m c i).toInt < 50000)
    (hBT : ∀ i : S50000.Idx, 0 ≤ (aBT m c i).toInt) :
    (W29 m (fd1 m) (fd2 m) (fd4 m) (fd5 m) (fd7 m) (fd8 m) c main_v99 : S64x1.Idx → EReal)
      = Cert.ReferenceIdeal.Read.val_main_v140 (F := Ideal) (aX m c) (aEI m c) (aBT m c) (aW1 m c) (ab1 m c) (aW2 m c) (ab2 m c)
          (aW3 m c) (ab3 m c) (aWl m c) (abl m c) := by
  refine Cert.FinalEq.result_eq m c hEI (V1_v31_eq m c hEI) (V1_v32_eq m c hEI) (tail1 m c) (tail2 m c) (tail3 m c)
    (klayer1 m c) (klayer2 m c) (klayer3 m c) _ ?_
  have h1 := V29_v99_ref m (outsAll m (fd1 m) (fd2 m) (fd4 m) (fd5 m) (fd7 m) (fd8 m)) c hBT
  have h26 : V26 m (outsAll m (fd1 m) (fd2 m) (fd4 m) (fd5 m) (fd7 m) (fd8 m)) c
      = StableHlo.after hostOps9_1 (StableHlo.after hostOps9 (W24 m (fd1 m) (fd2 m) (fd4 m) (fd5 m) (fd7 m) (fd8 m) c)) := by
    show StableHlo.after hostOps9_1 (StableHlo.after hostOps9 (V24 m (outsAll m (fd1 m) (fd2 m) (fd4 m) (fd5 m) (fd7 m) (fd8 m)) c)) = _
    rw [V24_eq]
  rw [V29_eq, h26] at h1
  exact h1

end Cert.Proof.Alg

namespace Cert.Proof

open Idealize.ShloMosaic Idealize.ShloMosaic.TcCoe Idealize.SL.Sem

/-- The two idealized programs, run from memories that agree on the arguments, end with equal results. -/
theorem algebraic : Cert.algebraic_KernelIdeal_ReferenceIdeal := by
  intro m ρ m' ρ' hpre hagree
  refine ⟨_, Cert.KernelIdeal.Hand.run_pi (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hEI, hBT⟩ := Cert.PreIdx.index_ranges _ _ _ _ _ _ _ _ _ _ _ (hpre c)
  rw [Cert.ReferenceIdeal.Read.val_main_v140_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact (Cert.Proof.Alg.kernel_result m c hEI (fun i => (hBT i).1)).symm

end Cert.Proof

end
-- ==== Proof.lean ====
/-
  A three-layer graph convolution with mean pooling, as a Pallas program and as a jnp reference.

  The kernel program computes each layer as a dense product (one kernel), the rows of that product gathered at the
  source node of every edge and weighted (a second kernel: a one-hot matrix product accumulated over the node blocks in
  a scratch buffer), and the sum of those messages by target node (a third kernel: the transposed one-hot product
  accumulated over the edge blocks); a host stretch adds the self term and the bias and applies the rectifier; after
  three layers the host pools the node rows by graph. The reference gathers and segment-sums directly.

  The claim has five conjuncts. The two kernel programs' frames (every weakly fair execution terminates, faults nowhere
  and leaves the arguments as launched) come from one segment record per kernel region — nine regions, three kinds —
  composed with the host stretches; the word-level program's proof is the idealized one's text at the other program. The
  reference is a host program and its frame is its run. The idealization rewrote nothing. At the exact instance the
  one-hot factors are exactly 0 or 1, so a one-hot row times a table is the table's row and a one-hot column times the
  messages is their sum over the selected edges, for any extended reals; the padded rows and edges contribute nothing;
  hence each layer of the kernel program agrees with the reference's on the 50000 true node rows, and the pooled results
  are equal. The added index preconditions (edge words are node numbers, graph words non-negative) are what makes the
  two programs' index conventions (wrap, clamp, drop) coincide.
-/
import proofs.«104867_j4217657884863_1_alg».proof.Defs
import proofs.«104867_j4217657884863_1_alg».proof.Proof.Gen.Kernel
import proofs.«104867_j4217657884863_1_alg».proof.Proof.Gen.KernelIdeal
import proofs.«104867_j4217657884863_1_alg».proof.Proof.Gen.ReferenceIdeal
import proofs.«104867_j4217657884863_1_alg».proof.Proof.Gen.Pre_finite_inputs
import proofs.«104867_j4217657884863_1_alg».proof.Proof.SmallClaims
import proofs.«104867_j4217657884863_1_alg».proof.Proof.FramesFinal
import proofs.«104867_j4217657884863_1_alg».proof.Proof.FramesFinalK
import proofs.«104867_j4217657884863_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_pi (F := Bits) m ρ,
    fun m ρ _ => Cert.KernelIdeal.Hand.frame_pi (F := Ideal) m ρ,
    Cert.Proof.Small.frame_ri,
    Cert.Proof.Small.preserves,
    Cert.Proof.algebraic⟩

end Cert.Proof

end
